-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v194)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v194) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3x1 : Shape := ⟨3, ![131072, 3, 1]⟩
abbrev S131072x8 : Shape := ⟨2, ![131072, 8]⟩
abbrev S64x8 : Shape := ⟨2, ![64, 8]⟩
abbrev S64 : Shape := ⟨1, ![64]⟩
abbrev S64x1 : Shape := ⟨2, ![64, 1]⟩
abbrev S64x64 : Shape := ⟨2, ![64, 64]⟩
abbrev S16x64x64 : Shape := ⟨3, ![16, 64, 64]⟩
abbrev S16x64 : Shape := ⟨2, ![16, 64]⟩
abbrev S3x64 : Shape := ⟨2, ![3, 64]⟩
abbrev S3 : Shape := ⟨1, ![3]⟩
abbrev S1 : Shape := ⟨1, ![1]⟩
abbrev S_ : Shape := ⟨0, ![]⟩

class Facts : Prop where
  bcast_S_S131072x3x1 : S_.BroadcastsInDim S131072x3x1 (![] : Fin 0 → Fin S131072x3x1.rank)
  reducesTo_S131072x3x1_S_d0_1_2 : S131072x3x1.ReducesTo [0, 1, 2] S_
  h_S_ : 0 < S_.numel
  bcast_S_S131072x8 : S_.BroadcastsInDim S131072x8 (![] : Fin 0 → Fin S131072x8.rank)
  reducesTo_S131072x8_S_d0_1 : S131072x8.ReducesTo [0, 1] S_
  bcast_S_S64x8 : S_.BroadcastsInDim S64x8 (![] : Fin 0 → Fin S64x8.rank)
  reducesTo_S64x8_S_d0_1 : S64x8.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S64x64 : S_.BroadcastsInDim S64x64 (![] : Fin 0 → Fin S64x64.rank)
  reducesTo_S64x64_S_d0_1 : S64x64.ReducesTo [0, 1] S_
  bcast_S_S16x64x64 : S_.BroadcastsInDim S16x64x64 (![] : Fin 0 → Fin S16x64x64.rank)
  reducesTo_S16x64x64_S_d0_1_2 : S16x64x64.ReducesTo [0, 1, 2] S_
  bcast_S_S16x64 : S_.BroadcastsInDim S16x64 (![] : Fin 0 → Fin S16x64.rank)
  reducesTo_S16x64_S_d0_1 : S16x64.ReducesTo [0, 1] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S3x64 .f32) (main_arg12 : FVec F S3 .f32) (main_arg13 : FVec F S1 .f32) (main_v48 : IVec S_ 1) (main_v49 : FVec F S16x64 .f32) (main_v50 : FVec F S16x64 .f32) : IVec S_ 1 :=
  let main_v51 : IVec S16x64 1 := cmpf .olt main_v49 main_v50
  let main_c_19 : IVec S_ 1 := constantI S_ 1 1#1
  let main_v52 : IVec S_ 1 := (fun x v => Host.reduce IntOp.andi x v reducesTo_S16x64_S_d0_1 h_S_) main_v51 main_c_19
  let main_v53 : IVec S_ 1 := andi main_v48 main_v52
  let main_v54 : FVec F S3x64 .f32 := Host.absf main_arg11
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3 .f32 := Host.absf main_arg12
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S64x64 .f32) (main_arg8 : FVec F S64 .f32) (main_arg9 : FVec F S16x64x64 .f32) (main_arg10 : FVec F S16x64 .f32) (main_arg11 : FVec F S3x64 .f32) (main_arg12 : FVec F S3 .f32) (main_arg13 : FVec F S1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S16x64x64 .f32 := Host.absf main_arg9
  let main_cst_16 : FVec F S_ .f32 := constant S_ .f32 0x7F800000#32
  let main_v45 : FVec F S16x64x64 .f32 := broadcastInDim S16x64x64 ![] bcast_S_S16x64x64 main_cst_16
  let main_v46 : IVec S16x64x64 1 := cmpf .olt main_v44 main_v45
  let main_c_17 : IVec S_ 1 := constantI S_ 1 1#1
  let main_v47 : IVec S_ 1 := (fun x v => Host.reduce IntOp.andi x v reducesTo_S16x64x64_S_d0_1_2 h_S_) main_v46 main_c_17
  let main_v48 : IVec S_ 1 := andi main_v43 main_v47
  let main_v49 : FVec F S16x64 .f32 := Host.absf main_arg10
  let main_cst_18 : FVec F S_ .f32 := constant S_ .f32 0x7F800000#32
  let main_v50 : FVec F S16x64 .f32 := broadcastInDim S16x64 ![] bcast_S_S16x64 main_cst_18
  fn_part3 (F := F) main_arg11 main_arg12 main_arg13 main_v48 main_v49 main_v50

def fn_part1 {F : FTy → Type} [FloatOps F] (main_arg4 : FVec F S64x1 .f32) (main_arg5 : FVec F S64x1 .f32) (main_arg6 : FVec F S64x1 .f32) (main_arg7 : FVec F S64x64 .f32) (main_arg8 : FVec F S64 .f32) (main_arg9 : FVec F S16x64x64 .f32) (main_arg10 : FVec F S16x64 .f32) (main_arg11 : FVec F S3x64 .f32) (main_arg12 : FVec F S3 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S131072x3x1 .f32) (main_arg1 : FVec F S131072x8 .f32) (main_arg2 : FVec F S64x8 .f32) (main_arg3 : FVec F S64 .f32) (main_arg4 : FVec F S64x1 .f32) (main_arg5 : FVec F S64x1 .f32) (main_arg6 : FVec F S64x1 .f32) (main_arg7 : FVec F S64x64 .f32) (main_arg8 : FVec F S64 .f32) (main_arg9 : FVec F S16x64x64 .f32) (main_arg10 : FVec F S16x64 .f32) (main_arg11 : FVec F S3x64 .f32) (main_arg12 : FVec F S3 .f32) (main_arg13 : FVec F S1 .f32) : IVec S_ 1 :=
  let main_v0 : FVec F S131072x3x1 .f32 := Host.absf main_arg0
  let main_cst : FVec F S_ .f32 := constant S_ .f32 0x7F800000#32
  let main_v1 : FVec F S131072x3x1 .f32 := broadcastInDim S131072x3x1 ![] bcast_S_S131072x3x1 main_cst
  let main_v2 : IVec S131072x3x1 1 := cmpf .olt main_v0 main_v1
  let main_c : IVec S_ 1 := constantI S_ 1 1#1
  let main_v3 : IVec S_ 1 := (fun x v => Host.reduce IntOp.andi x v reducesTo_S131072x3x1_S_d0_1_2 h_S_) main_v2 main_c
  let main_v4 : FVec F S131072x8 .f32 := Host.absf main_arg1
  let main_cst_0 : FVec F S_ .f32 := constant S_ .f32 0x7F800000#32
  let main_v5 : FVec F S131072x8 .f32 := broadcastInDim S131072x8 ![] bcast_S_S131072x8 main_cst_0
  let main_v6 : IVec S131072x8 1 := cmpf .olt main_v4 main_v5
  let main_c_1 : IVec S_ 1 := constantI S_ 1 1#1
  let main_v7 : IVec S_ 1 := (fun x v => Host.reduce IntOp.andi x v reducesTo_S131072x8_S_d0_1 h_S_) main_v6 main_c_1
  let main_v8 : IVec S_ 1 := andi main_v3 main_v7
  let main_v9 : FVec F S64x8 .f32 := Host.absf main_arg2
  let main_cst_2 : FVec F S_ .f32 := constant S_ .f32 0x7F800000#32
  let main_v10 : FVec F S64x8 .f32 := broadcastInDim S64x8 ![] bcast_S_S64x8 main_cst_2
  let main_v11 : IVec S64x8 1 := cmpf .olt main_v9 main_v10
  let main_c_3 : IVec S_ 1 := constantI S_ 1 1#1
  let main_v12 : IVec S_ 1 := (fun x v => Host.reduce IntOp.andi x v reducesTo_S64x8_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S131072x3x1 : Shape := ⟨3, ![131072, 3, 1]⟩
abbrev S131072x8 : Shape := ⟨2, ![131072, 8]⟩
abbrev S64x8 : Shape := ⟨2, ![64, 8]⟩
abbrev S64 : Shape := ⟨1, ![64]⟩
abbrev S64x1 : Shape := ⟨2, ![64, 1]⟩
abbrev S64x64 : Shape := ⟨2, ![64, 64]⟩
abbrev S16x64x64 : Shape := ⟨3, ![16, 64, 64]⟩
abbrev S16x64 : Shape := ⟨2, ![16, 64]⟩
abbrev S3x64 : Shape := ⟨2, ![3, 64]⟩
abbrev S3 : Shape := ⟨1, ![3]⟩
abbrev S1 : Shape := ⟨1, ![1]⟩
abbrev S1x64x64 : Shape := ⟨3, ![1, 64, 64]⟩
abbrev S1x64 : Shape := ⟨2, ![1, 64]⟩
abbrev S_ : Shape := ⟨0, ![]⟩
abbrev S64x256 : Shape := ⟨2, ![64, 256]⟩
abbrev S128x256 : Shape := ⟨2, ![128, 256]⟩
abbrev S256 : Shape := ⟨1, ![256]⟩
abbrev S64x192 : Shape := ⟨2, ![64, 192]⟩
abbrev S256x192 : Shape := ⟨2, ![256, 192]⟩
abbrev S192 : Shape := ⟨1, ![192]⟩
abbrev S64x128 : Shape := ⟨2, ![64, 128]⟩
abbrev S384x128 : Shape := ⟨2, ![384, 128]⟩
abbrev S128 : Shape := ⟨1, ![128]⟩
abbrev S256x128 : Shape := ⟨2, ![256, 128]⟩
abbrev S256x64 : Shape := ⟨2, ![256, 64]⟩
abbrev S192x64 : Shape := ⟨2, ![192, 64]⟩
abbrev S128x64 : Shape := ⟨2, ![128, 64]⟩
abbrev S131072x3 : Shape := ⟨2, ![131072, 3]⟩
abbrev S131072x11 : Shape := ⟨2, ![131072, 11]⟩
abbrev S2048x11 : Shape := ⟨2, ![2048, 11]⟩
abbrev S2048x3 : Shape := ⟨2, ![2048, 3]⟩
abbrev S2048x1 : Shape := ⟨2, ![2048, 1]⟩
abbrev S2048x8 : Shape := ⟨2, ![2048, 8]⟩
abbrev S8x64 : Shape := ⟨2, ![8, 64]⟩
abbrev S2048x64 : Shape := ⟨2, ![2048, 64]⟩
abbrev S2048x128 : Shape := ⟨2, ![2048, 128]⟩
abbrev S2048x256 : Shape := ⟨2, ![2048, 256]⟩
abbrev S1x256 : Shape := ⟨2, ![1, 256]⟩
abbrev S2048x192 : Shape := ⟨2, ![2048, 192]⟩
abbrev S1x192 : Shape := ⟨2, ![1, 192]⟩
abbrev S2048x384 : Shape := ⟨2, ![2048, 384]⟩
abbrev S1x128 : Shape := ⟨2, ![1, 128]⟩
abbrev S64x3 : Shape := ⟨2, ![64, 3]⟩
abbrev S1x3 : Shape := ⟨2, ![1, 3]⟩
abbrev S1x1 : Shape := ⟨2, ![1, 1]⟩

abbrev nBuf : Space → Nat
  | .hbm => 227
  | .vmem => 30
  | .smem => 0
  | _ => 0

abbrev hbmTy0_0 (i : Nat) : BufTy := match i % 128 with
  | 0 => ⟨S131072x3x1, .f32⟩
  | 1 => ⟨S131072x8, .f32⟩
  | 2 => ⟨S64x8, .f32⟩
  | 3 => ⟨S64, .f32⟩
  | 4 => ⟨S64x1, .f32⟩
  | 5 => ⟨S64x1, .f32⟩
  | 6 => ⟨S64x1, .f32⟩
  | 7 => ⟨S64x64, .f32⟩
  | 8 => ⟨S64, .f32⟩
  | 9 => ⟨S16x64x64, .f32⟩
  | 10 => ⟨S16x64, .f32⟩
  | 11 => ⟨S3x64, .f32⟩
  | 12 => ⟨S3, .f32⟩
  | 13 => ⟨S1, .f32⟩
  | 14 => ⟨S1x64x64, .f32⟩
  | 15 => ⟨S64x64, .f32⟩
  | 16 => ⟨S64x64, .f32⟩
  | 17 => ⟨S64x64, .bf16⟩
  | 18 => ⟨S1x64, .f32⟩
  | 19 => ⟨S64, .f32⟩
  | 20 => ⟨S1x64x64, .f32⟩
  | 21 => ⟨S64x64, .f32⟩
  | 22 => ⟨S64x64, .f32⟩
  | 23 => ⟨S64x64, .bf16⟩
  | 24 => ⟨S1x64, .f32⟩
  | 25 => ⟨S64, .f32⟩
  | 26 => ⟨S1x64x64, .f32⟩
  | 27 => ⟨S64x64, .f32⟩
  | 28 => ⟨S64x64, .f32⟩
  | 29 => ⟨S_, .f32⟩
  | 30 => ⟨S64x64, .f32⟩
  | 31 => ⟨S_, .f32⟩
  | 32 => ⟨S64x64, .f32⟩
  | 33 => ⟨S_, .f32⟩
  | 34 => ⟨S64x64, .f32⟩
  | 35 => ⟨S64x256, .f32⟩
  | 36 => ⟨S1x64x64, .f32⟩
  | 37 => ⟨S64x64, .f32⟩
  | 38 => ⟨S64x64, .f32⟩
  | 39 => ⟨S1x64x64, .f32⟩
  | 40 => ⟨S64x64, .f32⟩
  | 41 => ⟨S64x64, .f32⟩
  | 42 => ⟨S1x64x64, .f32⟩
  | 43 => ⟨S64x64, .f32⟩
  | 44 => ⟨S64x64, .f32⟩
  | 45 => ⟨S1x64x64, .f32⟩
  | 46 => ⟨S64x64, .f32⟩
  | 47 => ⟨S64x64, .f32⟩
  | 48 => ⟨S64x256, .f32⟩
  | 49 => ⟨S128x256, .f32⟩
  | 50 => ⟨S128x256, .bf16⟩
  | 51 => ⟨S1x64, .f32⟩
  | 52 => ⟨S64, .f32⟩
  | 53 => ⟨S1x64, .f32⟩
  | 54 => ⟨S64, .f32⟩
  | 55 => ⟨S1x64, .f32⟩
  | 56 => ⟨S64, .f32⟩
  | 57 => ⟨S1x64, .f32⟩
  | 58 => ⟨S64, .f32⟩
  | 59 => ⟨S256, .f32⟩
  | 60 => ⟨S1x64x64, .f32⟩
  | 61 => ⟨S64x64, .f32⟩
  | 62 => ⟨S64x64, .f32⟩
  | 63 => ⟨S_, .f32⟩
  | 64 => ⟨S64x64, .f32⟩
  | 65 => ⟨S_, .f32⟩
  | 66 => ⟨S64x64, .f32⟩
  | 67 => ⟨S64x192, .f32⟩
  | 68 => ⟨S_, .f32⟩
  | 69 => ⟨S64x64, .f32⟩
  | 70 => ⟨S_, .f32⟩
  | 71 => ⟨S64x64, .f32⟩
  | 72 => ⟨S1x64x64, .f32⟩
  | 73 => ⟨S64x64, .f32⟩
  | 74 => ⟨S64x64, .f32⟩
  | 75 => ⟨S64x192, .f32⟩
  | 76 => ⟨S_, .f32⟩
  | 77 => ⟨S64x64, .f32⟩
  | 78 => ⟨S_, .f32⟩
  | 79 => ⟨S64x64, .f32⟩
  | 80 => ⟨S1x64x64, .f32⟩
  | 81 => ⟨S64x64, .f32⟩
  | 82 => ⟨S64x64, .f32⟩
  | 83 => ⟨S64x192, .f32⟩
  | 84 => ⟨S1x64x64, .f32⟩
  | 85 => ⟨S64x64, .f32⟩
  | 86 => ⟨S64x64, .f32⟩
  | 87 => ⟨S1x64x64, .f32⟩
  | 88 => ⟨S64x64, .f32⟩
  | 89 => ⟨S64x64, .f32⟩
  | 90 => ⟨S_, .f32⟩
  | 91 => ⟨S64x64, .f32⟩
  | 92 => ⟨S64x192, .f32⟩
  | 93 => ⟨S256x192, .f32⟩
  | 94 => ⟨S256x192, .bf16⟩
  | 95 => ⟨S1x64, .f32⟩
  | 96 => ⟨S64, .f32⟩
  | 97 => ⟨S1x64, .f32⟩
  | 98 => ⟨S64, .f32⟩
  | 99 => ⟨S1x64, .f32⟩
  | 100 => ⟨S64, .f32⟩
  | 101 => ⟨S192, .f32⟩
  | 102 => ⟨S1x64x64, .f32⟩
  | 103 => ⟨S64x64, .f32⟩
  | 104 => ⟨S64x64, .f32⟩
  | 105 => ⟨S1x64x64, .f32⟩
  | 106 => ⟨S64x64, .f32⟩
  | 107 => ⟨S64x64, .f32⟩
  | 108 => ⟨S64x128, .f32⟩
  | 109 => ⟨S_, .f32⟩
  | 110 => ⟨S64x64, .f32⟩
  | 111 => ⟨S1x64x64, .f32⟩
  | 112 => ⟨S64x64, .f32⟩
  | 113 => ⟨S64x64, .f32⟩
  | 114 => ⟨S64x128, .f32⟩
  | 115 => ⟨S1x64x64, .f32⟩
  | 116 => ⟨S64x64, .f32⟩
  | 117 => ⟨S64x64, .f32⟩
  | 118 => ⟨S_, .f32⟩
  | 119 => ⟨S64x64, .f32⟩
  | 120 => ⟨S64x128, .f32⟩
  | 121 => ⟨S1x64x64, .f32⟩
  | 122 => ⟨S64x64, .f32⟩
  | 123 => ⟨S64x64, .f32⟩
  | 124 => ⟨S_, .f32⟩
  | 125 => ⟨S64x64, .f32⟩
  | 126 => ⟨S64x128, .f32⟩
  | 127 => ⟨S1x64x64, .f32⟩
  | _ => ⟨S131072x3x1, .f32⟩

abbrev hbmTy0_1 (i : Nat) : BufTy := match i % 128 with
  | 0 => ⟨S64x64, .f32⟩
  | 1 => ⟨S64x64, .f32⟩
  | 2 => ⟨S_, .f32⟩
  | 3 => ⟨S64x64, .f32⟩
  | 4 => ⟨S64x128, .f32⟩
  | 5 => ⟨S_, .f32⟩
  | 6 => ⟨S64x64, .f32⟩
  | 7 => ⟨S1x64x64, .f32⟩
  | 8 => ⟨S64x64, .f32⟩
  | 9 => ⟨S64x64, .f32⟩
  | 10 => ⟨S64x128, .f32⟩
  | 11 => ⟨S384x128, .f32⟩
  | 12 => ⟨S384x128, .bf16⟩
  | 13 => ⟨S1x64, .f32⟩
  | 14 => ⟨S64, .f32⟩
  | 15 => ⟨S1x64, .f32⟩
  | 16 => ⟨S64, .f32⟩
  | 17 => ⟨S128, .f32⟩
  | 18 => ⟨S_, .f32⟩
  | 19 => ⟨S64x64, .f32⟩
  | 20 => ⟨S1x64x64, .f32⟩
  | 21 => ⟨S64x64, .f32⟩
  | 22 => ⟨S64x64, .f32⟩
  | 23 => ⟨S64x128, .f32⟩
  | 24 => ⟨S1x64x64, .f32⟩
  | 25 => ⟨S64x64, .f32⟩
  | 26 => ⟨S64x64, .f32⟩
  | 27 => ⟨S1x64x64, .f32⟩
  | 28 => ⟨S64x64, .f32⟩
  | 29 => ⟨S64x64, .f32⟩
  | 30 => ⟨S64x128, .f32⟩
  | 31 => ⟨S1x64x64, .f32⟩
  | 32 => ⟨S64x64, .f32⟩
  | 33 => ⟨S64x64, .f32⟩
  | 34 => ⟨S_, .f32⟩
  | 35 => ⟨S64x64, .f32⟩
  | 36 => ⟨S64x128, .f32⟩
  | 37 => ⟨S_, .f32⟩
  | 38 => ⟨S64x64, .f32⟩
  | 39 => ⟨S1x64x64, .f32⟩
  | 40 => ⟨S64x64, .f32⟩
  | 41 => ⟨S64x64, .f32⟩
  | 42 => ⟨S64x128, .f32⟩
  | 43 => ⟨S256x128, .f32⟩
  | 44 => ⟨S256x128, .bf16⟩
  | 45 => ⟨S1x64, .f32⟩
  | 46 => ⟨S64, .f32⟩
  | 47 => ⟨S1x64, .f32⟩
  | 48 => ⟨S64, .f32⟩
  | 49 => ⟨S128, .f32⟩
  | 50 => ⟨S1x64x64, .f32⟩
  | 51 => ⟨S64x64, .f32⟩
  | 52 => ⟨S64x64, .f32⟩
  | 53 => ⟨S1x64x64, .f32⟩
  | 54 => ⟨S64x64, .f32⟩
  | 55 => ⟨S64x64, .f32⟩
  | 56 => ⟨S1x64x64, .f32⟩
  | 57 => ⟨S64x64, .f32⟩
  | 58 => ⟨S64x64, .f32⟩
  | 59 => ⟨S1x64x64, .f32⟩
  | 60 => ⟨S64x64, .f32⟩
  | 61 => ⟨S64x64, .f32⟩
  | 62 => ⟨S256x64, .f32⟩
  | 63 => ⟨S256x64, .bf16⟩
  | 64 => ⟨S1x64, .f32⟩
  | 65 => ⟨S64, .f32⟩
  | 66 => ⟨S1x64x64, .f32⟩
  | 67 => ⟨S64x64, .f32⟩
  | 68 => ⟨S64x64, .f32⟩
  | 69 => ⟨S1x64x64, .f32⟩
  | 70 => ⟨S64x64, .f32⟩
  | 71 => ⟨S64x64, .f32⟩
  | 72 => ⟨S1x64x64, .f32⟩
  | 73 => ⟨S64x64, .f32⟩
  | 74 => ⟨S64x64, .f32⟩
  | 75 => ⟨S192x64, .f32⟩
  | 76 => ⟨S192x64, .bf16⟩
  | 77 => ⟨S1x64, .f32⟩
  | 78 => ⟨S64, .f32⟩
  | 79 => ⟨S1x64x64, .f32⟩
  | 80 => ⟨S64x64, .f32⟩
  | 81 => ⟨S64x64, .f32⟩
  | 82 => ⟨S1x64x64, .f32⟩
  | 83 => ⟨S64x64, .f32⟩
  | 84 => ⟨S64x64, .f32⟩
  | 85 => ⟨S128x64, .f32⟩
  | 86 => ⟨S128x64, .bf16⟩
  | 87 => ⟨S1x64, .f32⟩
  | 88 => ⟨S64, .f32⟩
  | 89 => ⟨S131072x3, .f32⟩
  | 90 => ⟨S131072x11, .f32⟩
  | 91 => ⟨S64x8, .bf16⟩
  | 92 => ⟨S64x64, .bf16⟩
  | 93 => ⟨S3x64, .bf16⟩
  | 94 => ⟨S1x64, .f32⟩
  | 95 => ⟨S1x64, .f32⟩
  | 96 => ⟨S1x64, .f32⟩
  | 97 => ⟨S3x64, .f32⟩
  | 98 => ⟨S131072x3, .f32⟩
  | _ => ⟨S131072x3x1, .f32⟩

abbrev hbmTy (i : Nat) : BufTy := match i / 128 with
  | 0 => hbmTy0_0 i
  | 1 => hbmTy0_1 i
  | _ => ⟨S131072x3x1, .f32⟩

abbrev bufTy : (tb : Table) → Fin (tcTables nBuf tb) → BufTy
  | .hbm, ⟨i, _⟩ => hbmTy i
  | .local _ .vmem, ⟨0, _⟩ => ⟨S2048x11, .f32⟩
  | .local _ .vmem, ⟨1, _⟩ => ⟨S2048x11, .f32⟩
  | .local _ .vmem, ⟨2, _⟩ => ⟨S64x8, .bf16⟩
  | .local _ .vmem, ⟨3, _⟩ => ⟨S64, .f32⟩
  | .local _ .vmem, ⟨4, _⟩ => ⟨S3x64, .f32⟩
  | .local _ .vmem, ⟨5, _⟩ => ⟨S64x64, .bf16⟩
  | .local _ .vmem, ⟨6, _⟩ => ⟨S64, .f32⟩
  | .local _ .vmem, ⟨7, _⟩ => ⟨S3x64, .bf16⟩
  | .local _ .vmem, ⟨8, _⟩ => ⟨S3, .f32⟩
  | .local _ .vmem, ⟨9, _⟩ => ⟨S1, .f32⟩
  | .local _ .vmem, ⟨10, _⟩ => ⟨S64x64, .bf16⟩
  | .local _ .vmem, ⟨11, _⟩ => ⟨S64, .f32⟩
  | .local _ .vmem, ⟨12, _⟩ => ⟨S64x64, .bf16⟩
  | .local _ .vmem, ⟨13, _⟩ => ⟨S64, .f32⟩
  | .local _ .vmem, ⟨14, _⟩ => ⟨S128x256, .bf16⟩
  | .local _ .vmem, ⟨15, _⟩ => ⟨S256, .f32⟩
  | .local _ .vmem, ⟨16, _⟩ => ⟨S256x192, .bf16⟩
  | .local _ .vmem, ⟨17, _⟩ => ⟨S192, .f32⟩
  | .local _ .vmem, ⟨18, _⟩ => ⟨S384x128, .bf16⟩
  | .local _ .vmem, ⟨19, _⟩ => ⟨S128, .f32⟩
  | .local _ .vmem, ⟨20, _⟩ => ⟨S256x128, .bf16⟩
  | .local _ .vmem, ⟨21, _⟩ => ⟨S128, .f32⟩
  | .local _ .vmem, ⟨22, _⟩ => ⟨S256x64, .bf16⟩
  | .local _ .vmem, ⟨23, _⟩ => ⟨S64, .f32⟩
  | .local _ .vmem, ⟨24, _⟩ => ⟨S192x64, .bf16⟩
  | .local _ .vmem, ⟨25, _⟩ => ⟨S64, .f32⟩
  | .local _ .vmem, ⟨26, _⟩ => ⟨S128x64, .bf16⟩
  | .local _ .vmem, ⟨27, _⟩ => ⟨S64, .f32⟩
  | .local _ .vmem, ⟨28, _⟩ => ⟨S2048x3, .f32⟩
  | .local _ .vmem, ⟨29, _⟩ => ⟨S2048x3, .f32⟩
  | _, _ => ⟨S131072x3x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_2 : Ref sig .tc := ⟨.hbm, 63, rfl⟩
abbrev main_v46 : Ref sig .tc := ⟨.hbm, 64, rfl⟩
abbrev main_cst_3 : Ref sig .tc := ⟨.hbm, 65, rfl⟩
abbrev main_v47 : Ref sig .tc := ⟨.hbm, 66, rfl⟩
abbrev main_v48 : Ref sig .tc := ⟨.hbm, 67, rfl⟩
abbrev main_cst_4 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_8 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_9 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_10 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_11 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_12 : Ref sig .tc := ⟨.hbm, 130, rfl⟩
abbrev main_v103 : Ref sig .tc := ⟨.hbm, 131, rfl⟩
abbrev main_v104 : Ref sig .tc := ⟨.hbm, 132, rfl⟩
abbrev main_cst_13 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_14 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_15 : Ref sig .tc := ⟨.hbm, 162, rfl⟩
abbrev main_v132 : Ref sig .tc := ⟨.hbm, 163, rfl⟩
abbrev main_v133 : Ref sig .tc := ⟨.hbm, 164, rfl⟩
abbrev main_cst_16 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg27_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem27_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x192 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S192 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S384x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x64 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S192x64 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x64 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S2048x3 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

class Facts₀ : Prop where
  slices_S16x64x64_S1x64x64_0_0_0 : S16x64x64.Slices ![0, 0, 0] S1x64x64
  shapeCasts_S1x64x64_S64x64 : S1x64x64.ShapeCasts S64x64
  transposes_S64x64_S64x64_1_0 : S64x64.Transposes [1, 0] S64x64
  bitsLt_bf16_f32 : FTy.bits .bf16 < FTy.bits .f32
  slices_S16x64_S1x64_0_0 : S16x64.Slices ![0, 0] S1x64
  shapeCasts_S1x64_S64 : S1x64.ShapeCasts S64
  slices_S16x64x64_S1x64x64_1_0_0 : S16x64x64.Slices ![1, 0, 0] S1x64x64
  slices_S16x64_S1x64_1_0 : S16x64.Slices ![1, 0] S1x64
  slices_S16x64x64_S1x64x64_2_0_0 : S16x64x64.Slices ![2, 0, 0] S1x64x64
  bcast_S_S64x64 : S_.BroadcastsInDim S64x64 (![] : Fin 0 → Fin S64x64.rank)
  concatenates_S64x64_S64x64_S64x64_S64x64_S64x256_d1 : Shape.Concatenates [S64x64, S64x64, S64x64, S64x64] S64x256 1
  slices_S16x64x64_S1x64x64_3_0_0 : S16x64x64.Slices ![3, 0, 0] S1x64x64
  slices_S16x64x64_S1x64x64_4_0_0 : S16x64x64.Slices ![4, 0, 0] S1x64x64
  slices_S16x64x64_S1x64x64_7_0_0 : S16x64x64.Slices ![7, 0, 0] S1x64x64
  concatenates_S64x256_S64x256_S128x256_d0 : Shape.Concatenates [S64x256, S64x256] S128x256 0
  slices_S16x64_S1x64_2_0 : S16x64.Slices ![2, 0] S1x64
  slices_S16x64_S1x64_3_0 : S16x64.Slices ![3, 0] S1x64
  slices_S16x64_S1x64_4_0 : S16x64.Slices ![4, 0] S1x64
  slices_S16x64_S1x64_7_0 : S16x64.Slices ![7, 0] S1x64
  concatenates_S64_S64_S64_S64_S256_d0 : Shape.Concatenates [S64, S64, S64, S64] S256 0
  slices_S16x64x64_S1x64x64_5_0_0 : S16x64x64.Slices ![5, 0, 0] S1x64x64
  concatenates_S64x64_S64x64_S64x64_S64x192_d1 : Shape.Concatenates [S64x64, S64x64, S64x64] S64x192 1
  slices_S16x64x64_S1x64x64_12_0_0 : S16x64x64.Slices ![12, 0, 0] S1x64x64
  slices_S16x64x64_S1x64x64_11_0_0 : S16x64x64.Slices ![11, 0, 0] S1x64x64
  concatenates_S64x192_S64x192_S64x192_S64x192_S256x192_d0 : Shape.Concatenates [S64x192, S64x192, S64x192, S64x192] S256x192 0
  slices_S16x64_S1x64_5_0 : S16x64.Slices ![5, 0] S1x64
  slices_S16x64_S1x64_11_0 : S16x64.Slices ![11, 0] S1x64
  slices_S16x64_S1x64_12_0 : S16x64.Slices ![12, 0] S1x64
  concatenates_S64_S64_S64_S192_d0 : Shape.Concatenates [S64, S64, S64] S192 0
  slices_S16x64x64_S1x64x64_6_0_0 : S16x64x64.Slices ![6, 0, 0] S1x64x64
  slices_S16x64x64_S1x64x64_14_0_0 : S16x64x64.Slices ![14, 0, 0] S1x64x64
  concatenates_S64x64_S64x64_S64x128_d1 : Shape.Concatenates [S64x64, S64x64] S64x128 1
  concatenates_S64x128_S64x128_S64x128_S64x128_S64x128_S64x128_S384x128_d0 : Shape.Concatenates [S64x128, S64x128, S64x128, S64x128, S64x128, S64x128] S384x128 0
  slices_S16x64_S1x64_6_0 : S16x64.Slices ![6, 0] S1x64
  slices_S16x64_S1x64_14_0 : S16x64.Slices ![14, 0] S1x64
  concatenates_S64_S64_S128_d0 : Shape.Concatenates [S64, S64] S128 0
  slices_S16x64x64_S1x64x64_13_0_0 : S16x64x64.Slices ![13, 0, 0] S1x64x64
  slices_S16x64x64_S1x64x64_8_0_0 : S16x64x64.Slices ![8, 0, 0] S1x64x64
  concatenates_S64x128_S64x128_S64x128_S64x128_S256x128_d0 : Shape.Concatenates [S64x128, S64x128, S64x128, S64x128] S256x128 0
  slices_S16x64_S1x64_8_0 : S16x64.Slices ![8, 0] S1x64
  slices_S16x64_S1x64_13_0 : S16x64.Slices ![13, 0] S1x64
  slices_S16x64x64_S1x64x64_9_0_0 : S16x64x64.Slices ![9, 0, 0] S1x64x64
  concatenates_S64x64_S64x64_S64x64_S64x64_S256x64_d0 : Shape.Concatenates [S64x64, S64x64, S64x64, S64x64] S256x64 0
  slices_S16x64_S1x64_9_0 : S16x64.Slices ![9, 0] S1x64
  slices_S16x64x64_S1x64x64_10_0_0 : S16x64x64.Slices ![10, 0, 0] S1x64x64
  concatenates_S64x64_S64x64_S64x64_S192x64_d0 : Shape.Concatenates [S64x64, S64x64, S64x64] S192x64 0
  slices_S16x64_S1x64_10_0 : S16x64.Slices ![10, 0] S1x64
  slices_S16x64x64_S1x64x64_15_0_0 : S16x64x64.Slices ![15, 0, 0] S1x64x64
  concatenates_S64x64_S64x64_S128x64_d0 : Shape.Concatenates [S64x64, S64x64] S128x64 0
  slices_S16x64_S1x64_15_0 : S16x64.Slices ![15, 0] S1x64
  shapeCasts_S131072x3x1_S131072x3 : S131072x3x1.ShapeCasts S131072x3
  concatenates_S131072x3_S131072x8_S131072x11_d1 : Shape.Concatenates [S131072x3, S131072x8] S131072x11 1
  transposes_S64x1_S1x64_1_0 : S64x1.Transposes [1, 0] S1x64
  concatenates_S1x64_S1x64_S1x64_S3x64_d0 : Shape.Concatenates [S1x64, S1x64, S1x64] S3x64 0
  inb_S2048x11_S2048x11_0_0 : ∀ a, (![0, 0] : Fin 2 → Nat) a + S2048x11.size a ≤ S2048x11.size a
  h_S2048x11 : 0 < S2048x11.numel
  shapeCasts_S2048x11_S2048x11 : S2048x11.ShapeCasts S2048x11
  slices_S2048x11_o0_0_S2048x1 : S2048x11.Slices ![0, 0] S2048x1
  slices_S2048x11_o0_1_S2048x1 : S2048x11.Slices ![0, 1] S2048x1
  slices_S2048x11_o0_2_S2048x1 : S2048x11.Slices ![0, 2] S2048x1
  slices_S2048x11_o0_3_S2048x8 : S2048x11.Slices ![0, 3] S2048x8
  inb_S64_S64_0 : ∀ a, (![0] : Fin 1 → Nat) a + S64.size a ≤ S64.size a
  h_S64 : 0 < S64.numel
  inb_S3x64_S3x64_0_0 : ∀ a, (![0, 0] : Fin 2 → Nat) a + S3x64.size a ≤ S3x64.size a
  h_S3x64 : 0 < S3x64.numel
  shapeCasts_S3x64_S3x64 : S3x64.ShapeCasts S3x64
  slices_S3x64_o0_0_S1x64 : S3x64.Slices ![0, 0] S1x64
  slices_S3x64_o1_0_S1x64 : S3x64.Slices ![1, 0] S1x64
  slices_S3x64_o2_0_S1x64 : S3x64.Slices ![2, 0] S1x64
  inb_S3_S3_0 : ∀ a, (![0] : Fin 1 → Nat) a + S3.size a ≤ S3.size a
  h_S3 : 0 < S3.numel
  inb_S1_S1_0 : ∀ a, (![0] : Fin 1 → Nat) a + S1.size a ≤ S1.size a
  h_S1 : 0 < S1.numel
  inb_S64x8_S64x8_0_0 : ∀ a, (![0, 0] : Fin 2 → Nat) a + S64x8.size a ≤ S64x8.size a
  h_S64x8 : 0 < S64x8.numel
  shapeCasts_S64x8_S64x8 : S64x8.ShapeCasts S64x8
  transposes_S64x8_p1_0_S8x64 : S64x8.Transposes [1, 0] S8x64
  shapeCasts_S64_S1x64 : S64.ShapeCasts S1x64
  broadcasts_S1x64_S2048x64 : S1x64.Broadcasts S2048x64
  broadcasts_S2048x1_S2048x64 : S2048x1.Broadcasts S2048x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  shapeCasts_S64_S64 : S64.ShapeCasts S64
  concatenates_S2048x64_S2048x64_S2048x128_d1 : Shape.Concatenates [S2048x64, S2048x64] S2048x128 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2048x256 : S1x256.Broadcasts S2048x256
  slices_S2048x256_o0_0_S2048x64 : S2048x256.Slices ![0, 0] S2048x64
  slices_S2048x256_o0_64_S2048x64 : S2048x256.Slices ![0, 64] S2048x64
  slices_S2048x256_o0_128_S2048x64 : S2048x256.Slices ![0, 128] S2048x64
  slices_S2048x256_o0_192_S2048x64 : S2048x256.Slices ![0, 192] S2048x64
  concatenates_S2048x64_S2048x64_S2048x64_S2048x64_S2048x256_d1 : Shape.Concatenates [S2048x64, S2048x64, S2048x64, S2048x64] S2048x256 1
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S192_S192_0 : ∀ a, (![0] : Fin 1 → Nat) a + S192.size a ≤ S192.size a
  h_S192 : 0 < S192.numel
  shapeCasts_S192_S192 : S192.ShapeCasts S192
  shapeCasts_S192_S1x192 : S192.ShapeCasts S1x192
  broadcasts_S1x192_S2048x192 : S1x192.Broadcasts S2048x192
  slices_S2048x192_o0_0_S2048x64 : S2048x192.Slices ![0, 0] S2048x64
  slices_S2048x192_o0_64_S2048x64 : S2048x192.Slices ![0, 64] S2048x64
  slices_S2048x192_o0_128_S2048x64 : S2048x192.Slices ![0, 128] S2048x64
  concatenates_S2048x64_S2048x64_S2048x64_S2048x64_S2048x64_S2048x64_S2048x384_d1 : Shape.Concatenates [S2048x64, S2048x64, S2048x64, S2048x64, S2048x64, S2048x64] S2048x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2048x128 : S1x128.Broadcasts S2048x128
  slices_S2048x128_o0_0_S2048x64 : S2048x128.Slices ![0, 0] S2048x64
  slices_S2048x128_o0_64_S2048x64 : S2048x128.Slices ![0, 64] S2048x64
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x64_S256x64_0_0 : ∀ a, (![0, 0] : Fin 2 → Nat) a + S256x64.size a ≤ S256x64.size a
  h_S256x64 : 0 < S256x64.numel
  shapeCasts_S256x64_S256x64 : S256x64.ShapeCasts S256x64
  concatenates_S2048x64_S2048x64_S2048x64_S2048x192_d1 : Shape.Concatenates [S2048x64, S2048x64, S2048x64] S2048x192 1
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  transposes_S3x64_p1_0_S64x3 : S3x64.Transposes [1, 0] S64x3
  shapeCasts_S3_S1x3 : S3.ShapeCasts S1x3
  broadcasts_S1x3_S2048x3 : S1x3.Broadcasts S2048x3
  shapeCasts_S1_S1x1 : S1.ShapeCasts S1x1
  broadcasts_S1x1_S2048x3 : S1x1.Broadcasts S2048x3
  inb_S2048x3_S2048x3_0_0 : ∀ a, (![0, 0] : Fin 2 → Nat) a + S2048x3.size a ≤ S2048x3.size a
  h_S2048x3 : 0 < S2048x3.numel
  dot_S2048x8_S8x64_S2048x64_1_0_0_1_n_n_wf : DotDims.WF S2048x8 S8x64 S2048x64 [1] [0] [0] [1] [] []
  dot_S2048x64_S64x64_S2048x64_1_0_0_1_n_n_wf : DotDims.WF S2048x64 S64x64 S2048x64 [1] [0] [0] [1] [] []
  dot_S2048x128_S128x256_S2048x256_1_0_0_1_n_n_wf : DotDims.WF S2048x128 S128x256 S2048x256 [1] [0] [0] [1] [] []
  dot_S2048x256_S256x192_S2048x192_1_0_0_1_n_n_wf : DotDims.WF S2048x256 S256x192 S2048x192 [1] [0] [0] [1] [] []
  dot_S2048x384_S384x128_S2048x128_1_0_0_1_n_n_wf : DotDims.WF S2048x384 S384x128 S2048x128 [1] [0] [0] [1] [] []
  dot_S2048x256_S256x128_S2048x128_1_0_0_1_n_n_wf : DotDims.WF S2048x256 S256x128 S2048x128 [1] [0] [0] [1] [] []
  dot_S2048x256_S256x64_S2048x64_1_0_0_1_n_n_wf : DotDims.WF S2048x256 S256x64 S2048x64 [1] [0] [0] [1] [] []
  dot_S2048x192_S192x64_S2048x64_1_0_0_1_n_n_wf : DotDims.WF S2048x192 S192x64 S2048x64 [1] [0] [0] [1] [] []
  dot_S2048x128_S128x64_S2048x64_1_0_0_1_n_n_wf : DotDims.WF S2048x128 S128x64 S2048x64 [1] [0] [0] [1] [] []
  dot_S2048x64_S64x3_S2048x3_1_0_0_1_n_n_wf : DotDims.WF S2048x64 S64x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x11.size a ≤ S131072x11.size a
  hwx0_0 : ∀ i : grid0.Coords, EltTy.bits .f32 = 32 ∨ (Rect.block (s := S131072x11) S2048x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x8.size a ≤ S64x8.size a
  hwx0_1 : ∀ i : grid0.Coords, EltTy.bits .bf16 = 32 ∨ (Rect.block (s := S64x8) S64x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64.size a ≤ S3x64.size a
  hwx0_6 : ∀ i : grid0.Coords, EltTy.bits .bf16 = 32 ∨ (Rect.block (s := S3x64) S3x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3.size a ≤ S3.size a
  hwx0_7 : ∀ i : grid0.Coords, EltTy.bits .f32 = 32 ∨ (Rect.block (s := S3) S3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .bf16 = 32 ∨ (Rect.block (s := S64x64) S64x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .bf16 = 32 ∨ (Rect.block (s := S64x64) S64x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x256.size a ≤ S128x256.size a
  hwx0_13 : ∀ i : grid0.Coords, EltTy.bits .bf16 = 32 ∨ (Rect.block (s := S128x256) S128x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x192.size a ≤ S256x192.size a
  hwx0_15 : ∀ i : grid0.Coords, EltTy.bits .bf16 = 32 ∨ (Rect.block (s := S256x192) S256x192.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S192.size a ≤ S192.size a
  hwx0_16 : ∀ i : grid0.Coords, EltTy.bits .f32 = 32 ∨ (Rect.block (s := S192) S192.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S384x128.size a ≤ S384x128.size a
  hwx0_17 : ∀ i : grid0.Coords, EltTy.bits .bf16 = 32 ∨ (Rect.block (s := S384x128) S384x128.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128.size a ≤ S128.size a
  hwx0_18 : ∀ i : grid0.Coords, EltTy.bits .f32 = 32 ∨ (Rect.block (s := S128) S128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x128.size a ≤ S256x128.size a
  hwx0_19 : ∀ i : grid0.Coords, EltTy.bits .bf16 = 32 ∨ (Rect.block (s := S256x128) S256x128.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128.size a ≤ S128.size a
  hwx0_20 : ∀ i : grid0.Coords, EltTy.bits .f32 = 32 ∨ (Rect.block (s := S128) S128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x64.size a ≤ S256x64.size a
  hwx0_21 : ∀ i : grid0.Coords, EltTy.bits .bf16 = 32 ∨ (Rect.block (s := S256x64) S256x64.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S64.size a ≤ S64.size a
  hwx0_22 : ∀ i : grid0.Coords, EltTy.bits .f32 = 32 ∨ (Rect.block (s := S64) S64.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S192x64.size a ≤ S192x64.size a
  hwx0_23 : ∀ i : grid0.Coords, EltTy.bits .bf16 = 32 ∨ (Rect.block (s := S192x64) S192x64.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S64.size a ≤ S64.size a
  hwx0_24 : ∀ i : grid0.Coords, EltTy.bits .f32 = 32 ∨ (Rect.block (s := S64) S64.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S128x64.size a ≤ S128x64.size a
  hwx0_25 : ∀ i : grid0.Coords, EltTy.bits .bf16 = 32 ∨ (Rect.block (s := S128x64) S128x64.size (cc0_transform_25 i) (hinb0_25 i)).WholeWords (EltTy.packing .bf16)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S64.size a ≤ S64.size a
  hwx0_26 : ∀ i : grid0.Coords, EltTy.bits .f32 = 32 ∨ (Rect.block (s := S64) S64.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S2048x3.size a ≤ S131072x3.size a
  hwx0_27 : ∀ i : grid0.Coords, EltTy.bits .f32 = 32 ∨ (Rect.block (s := S131072x3) S2048x3.size (cc0_transform_27 i) (hinb0_27 i)).WholeWords (EltTy.packing .f32)

variable [Facts₀]

def dot_S2048x8_S8x64_S2048x64_1_0_0_1_n_n : DotDims S2048x8 S8x64 S2048x64 where
  lhsContracting := [1]
  rhsContracting := [0]
  lhsNonContracting := [0]
  rhsNonContracting := [1]
  lhsBatch := []
  rhsBatch := []
  wf := dot_S2048x8_S8x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x192_S2048x192_1_0_0_1_n_n : DotDims S2048x256 S256x192 S2048x192 where
  lhsContracting := [1]
  rhsContracting := [0]
  lhsNonContracting := [0]
  rhsNonContracting := [1]
  lhsBatch := []
  rhsBatch := []
  wf := dot_S2048x256_S256x192_S2048x192_1_0_0_1_n_n_wf
def dot_S2048x384_S384x128_S2048x128_1_0_0_1_n_n : DotDims S2048x384 S384x128 S2048x128 where
  lhsContracting := [1]
  rhsContracting := [0]
  lhsNonContracting := [0]
  rhsNonContracting := [1]
  lhsBatch := []
  rhsBatch := []
  wf := dot_S2048x384_S384x128_S2048x128_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x192_S192x64_S2048x64_1_0_0_1_n_n : DotDims S2048x192 S192x64 S2048x64 where
  lhsContracting := [1]
  rhsContracting := [0]
  lhsNonContracting := [0]
  rhsNonContracting := [1]
  lhsBatch := []
  rhsBatch := []
  wf := dot_S2048x192_S192x64_S2048x64_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x3_S2048x3_1_0_0_1_n_n : DotDims S2048x64 S64x3 S2048x3 where
  lhsContracting := [1]
  rhsContracting := [0]
  lhsNonContracting := [0]
  rhsNonContracting := [1]
  lhsBatch := []
  rhsBatch := []
  wf := dot_S2048x64_S64x3_S2048x3_1_0_0_1_n_n_wf

abbrev win0_0 : Pipeline.Window sig grid0 :=
  Pipeline.Window.ofSpec (Memref.whole main_v186) S2048x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v187) S64x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v193) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v188) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v189) S3x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v33) S128x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v42) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v70) S256x192.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v77) S192.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v111) S384x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v116) S128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v140) S256x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v145) S128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v159) S256x64.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v161) S64.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v172) S192x64.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v174) S64.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v182) S128x64.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v184) S64.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v194) S2048x3.size cc0_transform_27 reads0_27 true false 2 stage0_27 sem0_27
    hrank0 hreads0_27 hinb0_27 nbuf0_27 (Memref.isWhole_whole _) hwx0_27 hstage0_27

abbrev win0 : Fin 28 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | ⟨_ + 28, h⟩ => absurd h (Nat.not_lt.2 (Nat.le_add_left _ _))
abbrev spec0 : Fin 28 → Pipeline.WinSpec sig grid0.rank := fun w => (win0 w).toWinSpec

class Facts : Prop extends Facts₀ where

variable [Facts]
-- ==== ReferenceIdeal.lean ====
abbrev S131072x3x1 : Shape := ⟨3, ![131072, 3, 1]⟩
abbrev S131072x8 : Shape := ⟨2, ![131072, 8]⟩
abbrev S64x8 : Shape := ⟨2, ![64, 8]⟩
abbrev S64 : Shape := ⟨1, ![64]⟩
abbrev S64x1 : Shape := ⟨2, ![64, 1]⟩
abbrev S64x64 : Shape := ⟨2, ![64, 64]⟩
abbrev S16x64x64 : Shape := ⟨3, ![16, 64, 64]⟩
abbrev S16x64 : Shape := ⟨2, ![16, 64]⟩
abbrev S3x64 : Shape := ⟨2, ![3, 64]⟩
abbrev S3 : Shape := ⟨1, ![3]⟩
abbrev S1 : Shape := ⟨1, ![1]⟩
abbrev S131072x1x1 : Shape := ⟨3, ![131072, 1, 1]⟩
abbrev S131072x1 : Shape := ⟨2, ![131072, 1]⟩
abbrev S8x64 : Shape := ⟨2, ![8, 64]⟩
abbrev S131072x64 : Shape := ⟨2, ![131072, 64]⟩
abbrev S1x64 : Shape := ⟨2, ![1, 64]⟩
abbrev S_ : Shape := ⟨0, ![]⟩
abbrev S1x64x64 : Shape := ⟨3, ![1, 64, 64]⟩
abbrev S64x3 : Shape := ⟨2, ![64, 3]⟩
abbrev S131072x3 : Shape := ⟨2, ![131072, 3]⟩
abbrev S1x3 : Shape := ⟨2, ![1, 3]⟩
abbrev S1x1 : Shape := ⟨2, ![1, 1]⟩

abbrev nBuf : Space → Nat
  | .hbm => 364
  | .vmem => 0
  | .smem => 0
  | _ => 0

abbrev hbmTy0_0 (i : Nat) : BufTy := match i % 128 with
  | 0 => ⟨S131072x3x1, .f32⟩
  | 1 => ⟨S131072x8, .f32⟩
  | 2 => ⟨S64x8, .f32⟩
  | 3 => ⟨S64, .f32⟩
  | 4 => ⟨S64x1, .f32⟩
  | 5 => ⟨S64x1, .f32⟩
  | 6 => ⟨S64x1, .f32⟩
  | 7 => ⟨S64x64, .f32⟩
  | 8 => ⟨S64, .f32⟩
  | 9 => ⟨S16x64x64, .f32⟩
  | 10 => ⟨S16x64, .f32⟩
  | 11 => ⟨S3x64, .f32⟩
  | 12 => ⟨S3, .f32⟩
  | 13 => ⟨S1, .f32⟩
  | 14 => ⟨S131072x1x1, .f32⟩
  | 15 => ⟨S131072x1, .f32⟩
  | 16 => ⟨S131072x1x1, .f32⟩
  | 17 => ⟨S131072x1, .f32⟩
  | 18 => ⟨S131072x1x1, .f32⟩
  | 19 => ⟨S131072x1, .f32⟩
  | 20 => ⟨S8x64, .f32⟩
  | 21 => ⟨S131072x64, .f32⟩
  | 22 => ⟨S1x64, .f32⟩
  | 23 => ⟨S131072x64, .f32⟩
  | 24 => ⟨S131072x64, .f32⟩
  | 25 => ⟨S131072x64, .f32⟩
  | 26 => ⟨S1x64, .f32⟩
  | 27 => ⟨S131072x64, .f32⟩
  | 28 => ⟨S_, .f32⟩
  | 29 => ⟨S131072x64, .f32⟩
  | 30 => ⟨S131072x64, .i1⟩
  | 31 => ⟨S_, .f32⟩
  | 32 => ⟨S131072x64, .f32⟩
  | 33 => ⟨S131072x64, .i1⟩
  | 34 => ⟨S_, .f32⟩
  | 35 => ⟨S_, .f32⟩
  | 36 => ⟨S131072x64, .f32⟩
  | 37 => ⟨S131072x64, .f32⟩
  | 38 => ⟨S131072x64, .f32⟩
  | 39 => ⟨S_, .f32⟩
  | 40 => ⟨S131072x64, .f32⟩
  | 41 => ⟨S131072x64, .f32⟩
  | 42 => ⟨S131072x64, .f32⟩
  | 43 => ⟨S1x64, .f32⟩
  | 44 => ⟨S131072x64, .f32⟩
  | 45 => ⟨S_, .f32⟩
  | 46 => ⟨S131072x64, .f32⟩
  | 47 => ⟨S131072x64, .f32⟩
  | 48 => ⟨S131072x64, .f32⟩
  | 49 => ⟨S131072x64, .f32⟩
  | 50 => ⟨S131072x64, .i1⟩
  | 51 => ⟨S131072x64, .f32⟩
  | 52 => ⟨S131072x64, .f32⟩
  | 53 => ⟨S131072x64, .f32⟩
  | 54 => ⟨S131072x64, .f32⟩
  | 55 => ⟨S131072x64, .f32⟩
  | 56 => ⟨S131072x64, .f32⟩
  | 57 => ⟨S131072x64, .f32⟩
  | 58 => ⟨S131072x64, .f32⟩
  | 59 => ⟨S1x64, .f32⟩
  | 60 => ⟨S131072x64, .f32⟩
  | 61 => ⟨S131072x64, .f32⟩
  | 62 => ⟨S131072x64, .f32⟩
  | 63 => ⟨S131072x64, .f32⟩
  | 64 => ⟨S131072x64, .f32⟩
  | 65 => ⟨S_, .f32⟩
  | 66 => ⟨S131072x64, .f32⟩
  | 67 => ⟨S131072x64, .f32⟩
  | 68 => ⟨S131072x64, .f32⟩
  | 69 => ⟨S131072x64, .f32⟩
  | 70 => ⟨S64x64, .f32⟩
  | 71 => ⟨S131072x64, .f32⟩
  | 72 => ⟨S1x64, .f32⟩
  | 73 => ⟨S131072x64, .f32⟩
  | 74 => ⟨S131072x64, .f32⟩
  | 75 => ⟨S131072x64, .f32⟩
  | 76 => ⟨S1x64x64, .f32⟩
  | 77 => ⟨S64x64, .f32⟩
  | 78 => ⟨S64x64, .f32⟩
  | 79 => ⟨S131072x64, .f32⟩
  | 80 => ⟨S1x64, .f32⟩
  | 81 => ⟨S64, .f32⟩
  | 82 => ⟨S1x64, .f32⟩
  | 83 => ⟨S131072x64, .f32⟩
  | 84 => ⟨S131072x64, .f32⟩
  | 85 => ⟨S131072x64, .f32⟩
  | 86 => ⟨S1x64x64, .f32⟩
  | 87 => ⟨S64x64, .f32⟩
  | 88 => ⟨S64x64, .f32⟩
  | 89 => ⟨S131072x64, .f32⟩
  | 90 => ⟨S1x64, .f32⟩
  | 91 => ⟨S64, .f32⟩
  | 92 => ⟨S1x64, .f32⟩
  | 93 => ⟨S131072x64, .f32⟩
  | 94 => ⟨S131072x64, .f32⟩
  | 95 => ⟨S_, .f32⟩
  | 96 => ⟨S131072x64, .f32⟩
  | 97 => ⟨S131072x64, .i1⟩
  | 98 => ⟨S_, .f32⟩
  | 99 => ⟨S131072x64, .f32⟩
  | 100 => ⟨S131072x64, .i1⟩
  | 101 => ⟨S_, .f32⟩
  | 102 => ⟨S_, .f32⟩
  | 103 => ⟨S131072x64, .f32⟩
  | 104 => ⟨S131072x64, .f32⟩
  | 105 => ⟨S131072x64, .f32⟩
  | 106 => ⟨S_, .f32⟩
  | 107 => ⟨S131072x64, .f32⟩
  | 108 => ⟨S131072x64, .f32⟩
  | 109 => ⟨S131072x64, .f32⟩
  | 110 => ⟨S131072x64, .f32⟩
  | 111 => ⟨S1x64x64, .f32⟩
  | 112 => ⟨S64x64, .f32⟩
  | 113 => ⟨S64x64, .f32⟩
  | 114 => ⟨S131072x64, .f32⟩
  | 115 => ⟨S1x64, .f32⟩
  | 116 => ⟨S64, .f32⟩
  | 117 => ⟨S1x64, .f32⟩
  | 118 => ⟨S131072x64, .f32⟩
  | 119 => ⟨S131072x64, .f32⟩
  | 120 => ⟨S_, .f32⟩
  | 121 => ⟨S131072x64, .f32⟩
  | 122 => ⟨S131072x64, .f32⟩
  | 123 => ⟨S131072x64, .f32⟩
  | 124 => ⟨S131072x64, .f32⟩
  | 125 => ⟨S131072x64, .i1⟩
  | 126 => ⟨S131072x64, .f32⟩
  | 127 => ⟨S131072x64, .f32⟩
  | _ => ⟨S131072x3x1, .f32⟩

abbrev hbmTy0_1 (i : Nat) : BufTy := match i % 128 with
  | 0 => ⟨S131072x64, .f32⟩
  | 1 => ⟨S131072x64, .f32⟩
  | 2 => ⟨S131072x64, .f32⟩
  | 3 => ⟨S131072x64, .f32⟩
  | 4 => ⟨S131072x64, .f32⟩
  | 5 => ⟨S131072x64, .f32⟩
  | 6 => ⟨S1x64x64, .f32⟩
  | 7 => ⟨S64x64, .f32⟩
  | 8 => ⟨S64x64, .f32⟩
  | 9 => ⟨S131072x64, .f32⟩
  | 10 => ⟨S1x64, .f32⟩
  | 11 => ⟨S64, .f32⟩
  | 12 => ⟨S1x64, .f32⟩
  | 13 => ⟨S131072x64, .f32⟩
  | 14 => ⟨S131072x64, .f32⟩
  | 15 => ⟨S131072x64, .f32⟩
  | 16 => ⟨S1x64x64, .f32⟩
  | 17 => ⟨S64x64, .f32⟩
  | 18 => ⟨S64x64, .f32⟩
  | 19 => ⟨S131072x64, .f32⟩
  | 20 => ⟨S1x64, .f32⟩
  | 21 => ⟨S64, .f32⟩
  | 22 => ⟨S1x64, .f32⟩
  | 23 => ⟨S131072x64, .f32⟩
  | 24 => ⟨S131072x64, .f32⟩
  | 25 => ⟨S_, .f32⟩
  | 26 => ⟨S131072x64, .f32⟩
  | 27 => ⟨S131072x64, .f32⟩
  | 28 => ⟨S131072x64, .f32⟩
  | 29 => ⟨S131072x64, .f32⟩
  | 30 => ⟨S131072x64, .f32⟩
  | 31 => ⟨S1x64x64, .f32⟩
  | 32 => ⟨S64x64, .f32⟩
  | 33 => ⟨S64x64, .f32⟩
  | 34 => ⟨S131072x64, .f32⟩
  | 35 => ⟨S1x64, .f32⟩
  | 36 => ⟨S64, .f32⟩
  | 37 => ⟨S1x64, .f32⟩
  | 38 => ⟨S131072x64, .f32⟩
  | 39 => ⟨S131072x64, .f32⟩
  | 40 => ⟨S131072x64, .f32⟩
  | 41 => ⟨S131072x64, .f32⟩
  | 42 => ⟨S131072x64, .f32⟩
  | 43 => ⟨S131072x64, .f32⟩
  | 44 => ⟨S1x64x64, .f32⟩
  | 45 => ⟨S64x64, .f32⟩
  | 46 => ⟨S64x64, .f32⟩
  | 47 => ⟨S131072x64, .f32⟩
  | 48 => ⟨S1x64, .f32⟩
  | 49 => ⟨S64, .f32⟩
  | 50 => ⟨S1x64, .f32⟩
  | 51 => ⟨S131072x64, .f32⟩
  | 52 => ⟨S131072x64, .f32⟩
  | 53 => ⟨S_, .f32⟩
  | 54 => ⟨S131072x64, .f32⟩
  | 55 => ⟨S131072x64, .i1⟩
  | 56 => ⟨S_, .f32⟩
  | 57 => ⟨S131072x64, .f32⟩
  | 58 => ⟨S131072x64, .i1⟩
  | 59 => ⟨S_, .f32⟩
  | 60 => ⟨S_, .f32⟩
  | 61 => ⟨S131072x64, .f32⟩
  | 62 => ⟨S131072x64, .f32⟩
  | 63 => ⟨S131072x64, .f32⟩
  | 64 => ⟨S_, .f32⟩
  | 65 => ⟨S131072x64, .f32⟩
  | 66 => ⟨S131072x64, .f32⟩
  | 67 => ⟨S131072x64, .f32⟩
  | 68 => ⟨S1x64x64, .f32⟩
  | 69 => ⟨S64x64, .f32⟩
  | 70 => ⟨S64x64, .f32⟩
  | 71 => ⟨S131072x64, .f32⟩
  | 72 => ⟨S1x64, .f32⟩
  | 73 => ⟨S64, .f32⟩
  | 74 => ⟨S1x64, .f32⟩
  | 75 => ⟨S131072x64, .f32⟩
  | 76 => ⟨S131072x64, .f32⟩
  | 77 => ⟨S_, .f32⟩
  | 78 => ⟨S131072x64, .f32⟩
  | 79 => ⟨S131072x64, .f32⟩
  | 80 => ⟨S131072x64, .f32⟩
  | 81 => ⟨S131072x64, .f32⟩
  | 82 => ⟨S131072x64, .i1⟩
  | 83 => ⟨S131072x64, .f32⟩
  | 84 => ⟨S131072x64, .f32⟩
  | 85 => ⟨S131072x64, .f32⟩
  | 86 => ⟨S131072x64, .f32⟩
  | 87 => ⟨S131072x64, .f32⟩
  | 88 => ⟨S131072x64, .f32⟩
  | 89 => ⟨S131072x64, .f32⟩
  | 90 => ⟨S131072x64, .f32⟩
  | 91 => ⟨S131072x64, .f32⟩
  | 92 => ⟨S1x64x64, .f32⟩
  | 93 => ⟨S64x64, .f32⟩
  | 94 => ⟨S64x64, .f32⟩
  | 95 => ⟨S131072x64, .f32⟩
  | 96 => ⟨S1x64, .f32⟩
  | 97 => ⟨S64, .f32⟩
  | 98 => ⟨S1x64, .f32⟩
  | 99 => ⟨S131072x64, .f32⟩
  | 100 => ⟨S131072x64, .f32⟩
  | 101 => ⟨S131072x64, .f32⟩
  | 102 => ⟨S131072x64, .f32⟩
  | 103 => ⟨S131072x64, .f32⟩
  | 104 => ⟨S131072x64, .f32⟩
  | 105 => ⟨S1x64x64, .f32⟩
  | 106 => ⟨S64x64, .f32⟩
  | 107 => ⟨S64x64, .f32⟩
  | 108 => ⟨S131072x64, .f32⟩
  | 109 => ⟨S1x64, .f32⟩
  | 110 => ⟨S64, .f32⟩
  | 111 => ⟨S1x64, .f32⟩
  | 112 => ⟨S131072x64, .f32⟩
  | 113 => ⟨S131072x64, .f32⟩
  | 114 => ⟨S_, .f32⟩
  | 115 => ⟨S131072x64, .f32⟩
  | 116 => ⟨S131072x64, .f32⟩
  | 117 => ⟨S131072x64, .f32⟩
  | 118 => ⟨S131072x64, .f32⟩
  | 119 => ⟨S131072x64, .f32⟩
  | 120 => ⟨S131072x64, .f32⟩
  | 121 => ⟨S1x64x64, .f32⟩
  | 122 => ⟨S64x64, .f32⟩
  | 123 => ⟨S64x64, .f32⟩
  | 124 => ⟨S131072x64, .f32⟩
  | 125 => ⟨S1x64, .f32⟩
  | 126 => ⟨S64, .f32⟩
  | 127 => ⟨S1x64, .f32⟩
  | _ => ⟨S131072x3x1, .f32⟩

abbrev hbmTy0_2 (i : Nat) : BufTy := match i % 128 with
  | 0 => ⟨S131072x64, .f32⟩
  | 1 => ⟨S131072x64, .f32⟩
  | 2 => ⟨S131072x64, .f32⟩
  | 3 => ⟨S1x64x64, .f32⟩
  | 4 => ⟨S64x64, .f32⟩
  | 5 => ⟨S64x64, .f32⟩
  | 6 => ⟨S131072x64, .f32⟩
  | 7 => ⟨S1x64, .f32⟩
  | 8 => ⟨S64, .f32⟩
  | 9 => ⟨S1x64, .f32⟩
  | 10 => ⟨S131072x64, .f32⟩
  | 11 => ⟨S131072x64, .f32⟩
  | 12 => ⟨S_, .f32⟩
  | 13 => ⟨S131072x64, .f32⟩
  | 14 => ⟨S131072x64, .i1⟩
  | 15 => ⟨S_, .f32⟩
  | 16 => ⟨S131072x64, .f32⟩
  | 17 => ⟨S131072x64, .i1⟩
  | 18 => ⟨S_, .f32⟩
  | 19 => ⟨S_, .f32⟩
  | 20 => ⟨S131072x64, .f32⟩
  | 21 => ⟨S131072x64, .f32⟩
  | 22 => ⟨S131072x64, .f32⟩
  | 23 => ⟨S_, .f32⟩
  | 24 => ⟨S131072x64, .f32⟩
  | 25 => ⟨S131072x64, .f32⟩
  | 26 => ⟨S131072x64, .f32⟩
  | 27 => ⟨S131072x64, .f32⟩
  | 28 => ⟨S1x64x64, .f32⟩
  | 29 => ⟨S64x64, .f32⟩
  | 30 => ⟨S64x64, .f32⟩
  | 31 => ⟨S131072x64, .f32⟩
  | 32 => ⟨S1x64, .f32⟩
  | 33 => ⟨S64, .f32⟩
  | 34 => ⟨S1x64, .f32⟩
  | 35 => ⟨S131072x64, .f32⟩
  | 36 => ⟨S131072x64, .f32⟩
  | 37 => ⟨S_, .f32⟩
  | 38 => ⟨S131072x64, .f32⟩
  | 39 => ⟨S131072x64, .f32⟩
  | 40 => ⟨S131072x64, .f32⟩
  | 41 => ⟨S131072x64, .f32⟩
  | 42 => ⟨S131072x64, .i1⟩
  | 43 => ⟨S131072x64, .f32⟩
  | 44 => ⟨S131072x64, .f32⟩
  | 45 => ⟨S131072x64, .f32⟩
  | 46 => ⟨S131072x64, .f32⟩
  | 47 => ⟨S131072x64, .f32⟩
  | 48 => ⟨S131072x64, .f32⟩
  | 49 => ⟨S131072x64, .f32⟩
  | 50 => ⟨S131072x64, .f32⟩
  | 51 => ⟨S131072x64, .f32⟩
  | 52 => ⟨S131072x64, .f32⟩
  | 53 => ⟨S1x64x64, .f32⟩
  | 54 => ⟨S64x64, .f32⟩
  | 55 => ⟨S64x64, .f32⟩
  | 56 => ⟨S131072x64, .f32⟩
  | 57 => ⟨S1x64, .f32⟩
  | 58 => ⟨S64, .f32⟩
  | 59 => ⟨S1x64, .f32⟩
  | 60 => ⟨S131072x64, .f32⟩
  | 61 => ⟨S131072x64, .f32⟩
  | 62 => ⟨S131072x64, .f32⟩
  | 63 => ⟨S131072x64, .f32⟩
  | 64 => ⟨S131072x64, .f32⟩
  | 65 => ⟨S1x64x64, .f32⟩
  | 66 => ⟨S64x64, .f32⟩
  | 67 => ⟨S64x64, .f32⟩
  | 68 => ⟨S131072x64, .f32⟩
  | 69 => ⟨S1x64, .f32⟩
  | 70 => ⟨S64, .f32⟩
  | 71 => ⟨S1x64, .f32⟩
  | 72 => ⟨S131072x64, .f32⟩
  | 73 => ⟨S131072x64, .f32⟩
  | 74 => ⟨S_, .f32⟩
  | 75 => ⟨S131072x64, .f32⟩
  | 76 => ⟨S131072x64, .f32⟩
  | 77 => ⟨S131072x64, .f32⟩
  | 78 => ⟨S131072x64, .f32⟩
  | 79 => ⟨S131072x64, .f32⟩
  | 80 => ⟨S1x64x64, .f32⟩
  | 81 => ⟨S64x64, .f32⟩
  | 82 => ⟨S64x64, .f32⟩
  | 83 => ⟨S131072x64, .f32⟩
  | 84 => ⟨S1x64, .f32⟩
  | 85 => ⟨S64, .f32⟩
  | 86 => ⟨S1x64, .f32⟩
  | 87 => ⟨S131072x64, .f32⟩
  | 88 => ⟨S131072x64, .f32⟩
  | 89 => ⟨S131072x64, .f32⟩
  | 90 => ⟨S131072x64, .f32⟩
  | 91 => ⟨S131072x64, .f32⟩
  | 92 => ⟨S64x3, .f32⟩
  | 93 => ⟨S131072x3, .f32⟩
  | 94 => ⟨S1x3, .f32⟩
  | 95 => ⟨S131072x3, .f32⟩
  | 96 => ⟨S131072x3, .f32⟩
  | 97 => ⟨S1x1, .f32⟩
  | 98 => ⟨S131072x3, .f32⟩
  | 99 => ⟨S131072x3, .f32⟩
  | 100 => ⟨S131072x3, .f32⟩
  | 101 => ⟨S131072x3, .f32⟩
  | 102 => ⟨S_, .f32⟩
  | 103 => ⟨S131072x3, .f32⟩
  | 104 => ⟨S131072x3, .f32⟩
  | 105 => ⟨S_, .f32⟩
  | 106 => ⟨S131072x3, .f32⟩
  | 107 => ⟨S131072x3, .f32⟩
  | _ => ⟨S131072x3x1, .f32⟩

abbrev hbmTy (i : Nat) : BufTy := match i / 128 with
  | 0 => hbmTy0_0 i
  | 1 => hbmTy0_1 i
  | 2 => hbmTy0_2 i
  | _ => ⟨S131072x3x1, .f32⟩

abbrev bufTy : (tb : Table) → Fin (tcTables nBuf tb) → BufTy
  | .hbm, ⟨i, _⟩ => hbmTy i
  | _, _ => ⟨S131072x3x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_cst_1 : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_v4 : Ref sig .tc := ⟨.hbm, 37, rfl⟩
abbrev main_call0_v5 : Ref sig .tc := ⟨.hbm, 38, rfl⟩
abbrev main_call0_cst_2 : Ref sig .tc := ⟨.hbm, 39, rfl⟩
abbrev main_call0_v6 : Ref sig .tc := ⟨.hbm, 40, rfl⟩
abbrev main_call0_v7 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_call2_cst : Ref sig .tc := ⟨.hbm, 95, rfl⟩
abbrev main_call2_v0 : Ref sig .tc := ⟨.hbm, 96, rfl⟩
abbrev main_call2_v1 : Ref sig .tc := ⟨.hbm, 97, rfl⟩
abbrev main_call2_cst_0 : Ref sig .tc := ⟨.hbm, 98, rfl⟩
abbrev main_call2_v2 : Ref sig .tc := ⟨.hbm, 99, rfl⟩
abbrev main_call2_v3 : Ref sig .tc := ⟨.hbm, 100, rfl⟩
abbrev main_call2_cst_1 : Ref sig .tc := ⟨.hbm, 101, rfl⟩
abbrev main_call2_call0_v0 : Ref sig .tc := ⟨.hbm, 102, rfl⟩
abbrev main_call2_call0_v1 : Ref sig .tc := ⟨.hbm, 103, rfl⟩
abbrev main_call2_v4 : Ref sig .tc := ⟨.hbm, 104, rfl⟩
abbrev main_call2_v5 : Ref sig .tc := ⟨.hbm, 105, rfl⟩
abbrev main_call2_cst_2 : Ref sig .tc := ⟨.hbm, 106, rfl⟩
abbrev main_call2_v6 : Ref sig .tc := ⟨.hbm, 107, rfl⟩
abbrev main_call2_v7 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_call3_cst : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_v5 : Ref sig .tc := ⟨.hbm, 126, rfl⟩
abbrev main_call3_v6 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_cst_0 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_call4_cst : Ref sig .tc := ⟨.hbm, 181, rfl⟩
abbrev main_call4_v0 : Ref sig .tc := ⟨.hbm, 182, rfl⟩
abbrev main_call4_v1 : Ref sig .tc := ⟨.hbm, 183, rfl⟩
abbrev main_call4_cst_0 : Ref sig .tc := ⟨.hbm, 184, rfl⟩
abbrev main_call4_v2 : Ref sig .tc := ⟨.hbm, 185, rfl⟩
abbrev main_call4_v3 : Ref sig .tc := ⟨.hbm, 186, rfl⟩
abbrev main_call4_cst_1 : Ref sig .tc := ⟨.hbm, 187, rfl⟩
abbrev main_call4_call0_v0 : Ref sig .tc := ⟨.hbm, 188, rfl⟩
abbrev main_call4_call0_v1 : Ref sig .tc := ⟨.hbm, 189, rfl⟩
abbrev main_call4_v4 : Ref sig .tc := ⟨.hbm, 190, rfl⟩
abbrev main_call4_v5 : Ref sig .tc := ⟨.hbm, 191, rfl⟩
abbrev main_call4_cst_2 : Ref sig .tc := ⟨.hbm, 192, rfl⟩
abbrev main_call4_v6 : Ref sig .tc := ⟨.hbm, 193, rfl⟩
abbrev main_call4_v7 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_call5_cst : Ref sig .tc := ⟨.hbm, 205, rfl⟩
abbrev main_call5_v0 : Ref sig .tc := ⟨.hbm, 206, rfl⟩
abbrev main_call5_v1 : Ref sig .tc := ⟨.hbm, 207, rfl⟩
abbrev main_call5_v2 : Ref sig .tc := ⟨.hbm, 208, rfl⟩
abbrev main_call5_v3 : Ref sig .tc := ⟨.hbm, 209, rfl⟩
abbrev main_call5_v4 : Ref sig .tc := ⟨.hbm, 210, rfl⟩
abbrev main_call5_v5 : Ref sig .tc := ⟨.hbm, 211, rfl⟩
abbrev main_call5_v6 : Ref sig .tc := ⟨.hbm, 212, rfl⟩
abbrev main_call5_v7 : Ref sig .tc := ⟨.hbm, 213, rfl⟩
abbrev main_call5_v8 : Ref sig .tc := ⟨.hbm, 214, rfl⟩
abbrev main_call5_v9 : Ref sig .tc := ⟨.hbm, 215, rfl⟩
abbrev main_call5_v10 : Ref sig .tc := ⟨.hbm, 216, rfl⟩
abbrev main_call5_v11 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_v125 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_cst_1 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_call6_cst : Ref sig .tc := ⟨.hbm, 268, rfl⟩
abbrev main_call6_v0 : Ref sig .tc := ⟨.hbm, 269, rfl⟩
abbrev main_call6_v1 : Ref sig .tc := ⟨.hbm, 270, rfl⟩
abbrev main_call6_cst_0 : Ref sig .tc := ⟨.hbm, 271, rfl⟩
abbrev main_call6_v2 : Ref sig .tc := ⟨.hbm, 272, rfl⟩
abbrev main_call6_v3 : Ref sig .tc := ⟨.hbm, 273, rfl⟩
abbrev main_call6_cst_1 : Ref sig .tc := ⟨.hbm, 274, rfl⟩
abbrev main_call6_call0_v0 : Ref sig .tc := ⟨.hbm, 275, rfl⟩
abbrev main_call6_call0_v1 : Ref sig .tc := ⟨.hbm, 276, rfl⟩
abbrev main_call6_v4 : Ref sig .tc := ⟨.hbm, 277, rfl⟩
abbrev main_call6_v5 : Ref sig .tc := ⟨.hbm, 278, rfl⟩
abbrev main_call6_cst_2 : Ref sig .tc := ⟨.hbm, 279, rfl⟩
abbrev main_call6_v6 : Ref sig .tc := ⟨.hbm, 280, rfl⟩
abbrev main_call6_v7 : Ref sig .tc := ⟨.hbm, 281, rfl⟩
abbrev main_v170 : Ref sig .tc := ⟨.hbm, 282, rfl⟩
abbrev main_v171 : Ref sig .tc := ⟨.hbm, 283, rfl⟩
abbrev main_v172 : Ref sig .tc := ⟨.hbm, 284, rfl⟩
abbrev main_v173 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_call7_cst : Ref sig .tc := ⟨.hbm, 293, rfl⟩
abbrev main_call7_v0 : Ref sig .tc := ⟨.hbm, 294, rfl⟩
abbrev main_call7_v1 : Ref sig .tc := ⟨.hbm, 295, rfl⟩
abbrev main_call7_v2 : Ref sig .tc := ⟨.hbm, 296, rfl⟩
abbrev main_call7_v3 : Ref sig .tc := ⟨.hbm, 297, rfl⟩
abbrev main_call7_v4 : Ref sig .tc := ⟨.hbm, 298, rfl⟩
abbrev main_call7_v5 : Ref sig .tc := ⟨.hbm, 299, rfl⟩
abbrev main_call7_v6 : Ref sig .tc := ⟨.hbm, 300, rfl⟩
abbrev main_call7_v7 : Ref sig .tc := ⟨.hbm, 301, rfl⟩
abbrev main_call7_v8 : Ref sig .tc := ⟨.hbm, 302, rfl⟩
abbrev main_call7_v9 : Ref sig .tc := ⟨.hbm, 303, rfl⟩
abbrev main_call7_v10 : Ref sig .tc := ⟨.hbm, 304, rfl⟩
abbrev main_call7_v11 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_v187 : Ref sig .tc := ⟨.hbm, 312, rfl⟩
abbrev main_v188 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_v192 : Ref sig .tc := ⟨.hbm, 317, rfl⟩
abbrev main_v193 : Ref sig .tc := ⟨.hbm, 318, rfl⟩
abbrev main_v194 : Ref sig .tc := ⟨.hbm, 319, rfl⟩
abbrev main_v195 : Ref sig .tc := ⟨.hbm, 320, rfl⟩
abbrev main_v196 : Ref sig .tc := ⟨.hbm, 321, rfl⟩
abbrev main_v197 : Ref sig .tc := ⟨.hbm, 322, rfl⟩
abbrev main_v198 : Ref sig .tc := ⟨.hbm, 323, rfl⟩
abbrev main_v199 : Ref sig .tc := ⟨.hbm, 324, rfl⟩
abbrev main_v200 : Ref sig .tc := ⟨.hbm, 325, rfl⟩
abbrev main_v201 : Ref sig .tc := ⟨.hbm, 326, rfl⟩
abbrev main_v202 : Ref sig .tc := ⟨.hbm, 327, rfl⟩
abbrev main_v203 : Ref sig .tc := ⟨.hbm, 328, rfl⟩
abbrev main_v204 : Ref sig .tc := ⟨.hbm, 329, rfl⟩
abbrev main_cst_2 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_v208 : Ref sig .tc := ⟨.hbm, 334, rfl⟩
abbrev main_v209 : Ref sig .tc := ⟨.hbm, 335, rfl⟩
abbrev main_v210 : Ref sig .tc := ⟨.hbm, 336, rfl⟩
abbrev main_v211 : Ref sig .tc := ⟨.hbm, 337, rfl⟩
abbrev main_v212 : Ref sig .tc := ⟨.hbm, 338, rfl⟩
abbrev main_v213 : Ref sig .tc := ⟨.hbm, 339, rfl⟩
abbrev main_v214 : Ref sig .tc := ⟨.hbm, 340, rfl⟩
abbrev main_v215 : Ref sig .tc := ⟨.hbm, 341, rfl⟩
abbrev main_v216 : Ref sig .tc := ⟨.hbm, 342, rfl⟩
abbrev main_v217 : Ref sig .tc := ⟨.hbm, 343, rfl⟩
abbrev main_v218 : Ref sig .tc := ⟨.hbm, 344, rfl⟩
abbrev main_v219 : Ref sig .tc := ⟨.hbm, 345, rfl⟩
abbrev main_v220 : Ref sig .tc := ⟨.hbm, 346, rfl⟩
abbrev main_v221 : Ref sig .tc := ⟨.hbm, 347, rfl⟩
abbrev main_v222 : Ref sig .tc := ⟨.hbm, 348, rfl⟩
abbrev main_v223 : Ref sig .tc := ⟨.hbm, 349, rfl⟩
abbrev main_v224 : Ref sig .tc := ⟨.hbm, 350, rfl⟩
abbrev main_v225 : Ref sig .tc := ⟨.hbm, 351, rfl⟩
abbrev main_v226 : Ref sig .tc := ⟨.hbm, 352, rfl⟩
abbrev main_v227 : Ref sig .tc := ⟨.hbm, 353, rfl⟩
abbrev main_v228 : Ref sig .tc := ⟨.hbm, 354, rfl⟩
abbrev main_v229 : Ref sig .tc := ⟨.hbm, 355, rfl⟩
abbrev main_v230 : Ref sig .tc := ⟨.hbm, 356, rfl⟩
abbrev main_v231 : Ref sig .tc := ⟨.hbm, 357, rfl⟩
abbrev main_cst_3 : Ref sig .tc := ⟨.hbm, 358, rfl⟩
abbrev main_v232 : Ref sig .tc := ⟨.hbm, 359, rfl⟩
abbrev main_v233 : Ref sig .tc := ⟨.hbm, 360, rfl⟩
abbrev main_cst_4 : Ref sig .tc := ⟨.hbm, 361, rfl⟩
abbrev main_v234 : Ref sig .tc := ⟨.hbm, 362, rfl⟩
abbrev main_v235 : Ref sig .tc := ⟨.hbm, 363, rfl⟩

abbrev nD : Nat := 1
abbrev τ : Topo := Topo.v7x

variable {F : FTy → Type} [FloatOps F]

class Facts₀ : Prop where
  slices_S131072x3x1_S131072x1x1_0_0_0 : S131072x3x1.Slices ![0, 0, 0] S131072x1x1
  shapeCasts_S131072x1x1_S131072x1 : S131072x1x1.ShapeCasts S131072x1
  slices_S131072x3x1_S131072x1x1_0_1_0 : S131072x3x1.Slices ![0, 1, 0] S131072x1x1
  slices_S131072x3x1_S131072x1x1_0_2_0 : S131072x3x1.Slices ![0, 2, 0] S131072x1x1
  transposes_S64x8_S8x64_1_0 : S64x8.Transposes [1, 0] S8x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  transposes_S64x1_S1x64_1_0 : S64x1.Transposes [1, 0] S1x64
  bcast_S_S131072x64 : S_.BroadcastsInDim S131072x64 (![] : Fin 0 → Fin S131072x64.rank)
  transposes_S64x64_S64x64_1_0 : S64x64.Transposes [1, 0] S64x64
  slices_S16x64x64_S1x64x64_0_0_0 : S16x64x64.Slices ![0, 0, 0] S1x64x64
  shapeCasts_S1x64x64_S64x64 : S1x64x64.ShapeCasts S64x64
  slices_S16x64_S1x64_0_0 : S16x64.Slices ![0, 0] S1x64
  shapeCasts_S1x64_S64 : S1x64.ShapeCasts S64
  slices_S16x64x64_S1x64x64_1_0_0 : S16x64x64.Slices ![1, 0, 0] S1x64x64
  slices_S16x64_S1x64_1_0 : S16x64.Slices ![1, 0] S1x64
  slices_S16x64x64_S1x64x64_2_0_0 : S16x64x64.Slices ![2, 0, 0] S1x64x64
  slices_S16x64_S1x64_2_0 : S16x64.Slices ![2, 0] S1x64
  slices_S16x64x64_S1x64x64_3_0_0 : S16x64x64.Slices ![3, 0, 0] S1x64x64
  slices_S16x64_S1x64_3_0 : S16x64.Slices ![3, 0] S1x64
  slices_S16x64x64_S1x64x64_4_0_0 : S16x64x64.Slices ![4, 0, 0] S1x64x64
  slices_S16x64_S1x64_4_0 : S16x64.Slices ![4, 0] S1x64
  slices_S16x64x64_S1x64x64_5_0_0 : S16x64x64.Slices ![5, 0, 0] S1x64x64
  slices_S16x64_S1x64_5_0 : S16x64.Slices ![5, 0] S1x64
  slices_S16x64x64_S1x64x64_6_0_0 : S16x64x64.Slices ![6, 0, 0] S1x64x64
  slices_S16x64_S1x64_6_0 : S16x64.Slices ![6, 0] S1x64
  slices_S16x64x64_S1x64x64_7_0_0 : S16x64x64.Slices ![7, 0, 0] S1x64x64
  slices_S16x64_S1x64_7_0 : S16x64.Slices ![7, 0] S1x64
  slices_S16x64x64_S1x64x64_8_0_0 : S16x64x64.Slices ![8, 0, 0] S1x64x64
  slices_S16x64_S1x64_8_0 : S16x64.Slices ![8, 0] S1x64
  slices_S16x64x64_S1x64x64_9_0_0 : S16x64x64.Slices ![9, 0, 0] S1x64x64
  slices_S16x64_S1x64_9_0 : S16x64.Slices ![9, 0] S1x64
  slices_S16x64x64_S1x64x64_10_0_0 : S16x64x64.Slices ![10, 0, 0] S1x64x64
  slices_S16x64_S1x64_10_0 : S16x64.Slices ![10, 0] S1x64
  slices_S16x64x64_S1x64x64_11_0_0 : S16x64x64.Slices ![11, 0, 0] S1x64x64
  slices_S16x64_S1x64_11_0 : S16x64.Slices ![11, 0] S1x64
  slices_S16x64x64_S1x64x64_12_0_0 : S16x64x64.Slices ![12, 0, 0] S1x64x64
  slices_S16x64_S1x64_12_0 : S16x64.Slices ![12, 0] S1x64
  slices_S16x64x64_S1x64x64_13_0_0 : S16x64x64.Slices ![13, 0, 0] S1x64x64
  slices_S16x64_S1x64_13_0 : S16x64.Slices ![13, 0] S1x64
  slices_S16x64x64_S1x64x64_14_0_0 : S16x64x64.Slices ![14, 0, 0] S1x64x64
  slices_S16x64_S1x64_14_0 : S16x64.Slices ![14, 0] S1x64
  slices_S16x64x64_S1x64x64_15_0_0 : S16x64x64.Slices ![15, 0, 0] S1x64x64
  slices_S16x64_S1x64_15_0 : S16x64.Slices ![15, 0] S1x64
  transposes_S3x64_S64x3_1_0 : S3x64.Transposes [1, 0] S64x3
  bcast_S3_S1x3_1 : S3.BroadcastsInDim S1x3 (![1] : Fin 1 → Fin S1x3.rank)
  bcast_S1x3_S131072x3_0_1 : S1x3.BroadcastsInDim S131072x3 (![0, 1] : Fin 2 → Fin S131072x3.rank)
  bcast_S1_S1x1_1 : S1.BroadcastsInDim S1x1 (![1] : Fin 1 → Fin S1x1.rank)
  bcast_S1x1_S131072x3_0_1 : S1x1.BroadcastsInDim S131072x3 (![0, 1] : Fin 2 → Fin S131072x3.rank)
  bcast_S_S131072x3 : S_.BroadcastsInDim S131072x3 (![] : Fin 0 → Fin S131072x3.rank)
  dot_S131072x8_S8x64_S131072x64_1_0_0_1_n_n_wf : DotDims.WF S131072x8 S8x64 S131072x64 [1] [0] [0] [1] [] []
  dot_S131072x1_S1x64_S131072x64_1_0_0_1_n_n_wf : DotDims.WF S131072x1 S1x64 S131072x64 [1] [0] [0] [1] [] []
  dot_S131072x64_S64x64_S131072x64_1_0_0_1_n_n_wf : DotDims.WF S131072x64 S64x64 S131072x64 [1] [0] [0] [1] [] []
  dot_S131072x64_S64x3_S131072x3_1_0_0_1_n_n_wf : DotDims.WF S131072x64 S64x3 S131072x3 [1] [0] [0] [1] [] []

variable [Facts₀]

def dot_S131072x8_S8x64_S131072x64_1_0_0_1_n_n : DotDims S131072x8 S8x64 S131072x64 where
  lhsContracting := [1]
  rhsContracting := [0]
  lhsNonContracting := [0]
  rhsNonContracting := [1]
  lhsBatch := []
  rhsBatch := []
  wf := dot_S131072x8_S8x64_S131072x64_1_0_0_1_n_n_wf
def dot_S131072x1_S1x64_S131072x64_1_0_0_1_n_n : DotDims S131072x1 S1x64 S131072x64 where
  lhsContracting := [1]
  rhsContracting := [0]
  lhsNonContracting := [0]
  rhsNonContracting := [1]
  lhsBatch := []
  rhsBatch := []
  wf := dot_S131072x1_S1x64_S131072x64_1_0_0_1_n_n_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf
def dot_S131072x64_S64x3_S131072x3_1_0_0_1_n_n : DotDims S131072x64 S64x3 S131072x3 where
  lhsContracting := [1]
  rhsContracting := [0]
  lhsNonContracting := [0]
  rhsNonContracting := [1]
  lhsBatch := []
  rhsBatch := []
  wf := dot_S131072x64_S64x3_S131072x3_1_0_0_1_n_n_wf

class Facts : Prop extends Facts₀ where

variable [Facts]
-- ==== Proof.KFrameMain.lean ====
/- The frame of `KernelIdeal`, first half: @main up to its one kernel launch.

   @main is 212 host operations (slices, reshapes, transposes, conversions, constants, broadcasts and
   concatenations that assemble the fused weight matrices and the (131072, 11) row array) followed by one launch and
   nothing else. Each host operation writes exactly one buffer, its result, and no result is an argument of @main:
   so when the launch begins every argument array is as it was at the start (`V_main_argK`). The launch stages 28
   windows. Four of the 14 arguments are staged directly (`main_arg3`, `main_arg8`, `main_arg12`, `main_arg13`, all
   inputs of the kernel, which the launch only reads); the other ten are staged by no window, and the launch leaves
   such buffers alone. Hence, from ANY run of the launch to the library's frame post, every argument array ends as
   it began (`frame_of`). The second half (the kernel body and the run itself) is in the sibling module. -/
import proofs.«166257_j42623255446007_2_alg».proof.Proof.Gen.KernelIdeal.Launch
import proofs.«166257_j42623255446007_2_alg».proof.Proof.Gen.KernelIdeal.Skeleton
import proofs.«166257_j42623255446007_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s TensorCore buffers when the launch begins: the launch memory with the 212 host operations folded
    over it, each replacing its result buffer by its value on the buffers before it. Kept as this fold: nothing
    below ever evaluates it. -/
abbrev V (c : Dev nD) (b : Ref sig .tc) : Buf (Elt F) ((c : Thread nD τ).loc b) :=
  StableHlo.after hostOps0 (fun b => m (c, b)) b

/-- No host operation allocates: each is a pure function from buffers to one result buffer. -/
theorem hostOps0_fresh : (hostOps0 : List (HloOp τ sig (Elt F))).Forall fun op => op.fresh = ∅ := by
  simp only [List.Forall]; repeat' constructor

/-- @main is its host operations and then the launch (`main_chain`), so the launch finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- `main_arg0` is an argument of @main and the result of none of its host operations, so the fold leaves it
    as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg1` is an argument of @main and the result of none of its host operations, so the fold leaves it
    as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg2` is an argument of @main and the result of none of its host operations, so the fold leaves it
    as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg3` is an argument of @main and the result of none of its host operations, so the fold leaves it
    as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg4` is an argument of @main and the result of none of its host operations, so the fold leaves it
    as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg5` is an argument of @main and the result of none of its host operations, so the fold leaves it
    as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg6` is an argument of @main and the result of none of its host operations, so the fold leaves it
    as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg7` is an argument of @main and the result of none of its host operations, so the fold leaves it
    as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg8` is an argument of @main and the result of none of its host operations, so the fold leaves it
    as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg9` is an argument of @main and the result of none of its host operations, so the fold leaves it
    as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg10` is an argument of @main and the result of none of its host operations, so the fold leaves it
    as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg11` is an argument of @main and the result of none of its host operations, so the fold leaves it
    as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg12` is an argument of @main and the result of none of its host operations, so the fold leaves it
    as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg13` is an argument of @main and the result of none of its host operations, so the fold leaves it
    as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off the array it stages as the launch finds it: for window 0 rows
    `2048 t … 2048 t + 2047` of the (131072, 11) row array, for windows 1 … 26 the whole of a small weight array
    (the same at every point), for window 27 the rows of the output array the point is about to overwrite. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds that window's block when the body is called, at every point and
    for any proof data whose arrays are `V`'s and whose body leaves input blocks in place. Window 0 is fetched at
    every point. Windows 1 … 26 are fetched at point 0 only; at a later point their block index has not moved and
    the buffer still holds what the point before left there, which by hypothesis is the block. The library's
    `Dat.before_in_eq_fetched` is exactly this case analysis. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch's -/

/-- The frame claim's post from a run of the launch to the library's frame post, for any proof data whose arrays are
    `V`'s: an argument the launch stages as an input ends at its entry contents (`Dat.arrAt_in`), an argument no
    window stages is among the buffers the post's second clause says are left as found; either way that is `V` at
    the argument, which is the launch memory (`V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats 0 c).arrAt_in 2 rfl _).trans ((hA c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 5).trans (((dats 0 c).arrAt_in 5 rfl _).trans ((hA c 5).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 7).trans (((dats 0 c).arrAt_in 7 rfl _).trans ((hA c 7).trans (V_main_arg12 m c))),
      ((h c).1 8).trans (((dats 0 c).arrAt_in 8 rfl _).trans ((hA c 8).trans (V_main_arg13 m c)))⟩) h

end Cert.KernelIdeal.Hand

end
-- ==== Proof.KFrameValue.lean ====
/- The value the kernel body of `KernelIdeal` stores, as a function of the blocks it loads.

   The body is straight-line: it loads each of its 27 input staging buffers whole, computes with pure vector
   operations, and overwrites its whole (2048, 3) output staging buffer by ONE value. That value is written here as
   the body computes it, one definition per value that crosses from one printed part of the body to a later one, so
   that a value used by several later values is stated once; then what the one store leaves in the output buffer
   (`out27`), and that it is that value of the buffers' contents (`out27_eq`), every access being through the whole
   buffer. Nothing here mentions memory, the launch or @main. -/
import proofs.«166257_j42623255446007_2_alg».proof.Proof.Gen.KernelIdeal.Skeleton
import Idealize.ShloMosaic.Lib.Pipeline.FrameBody
import Idealize.ShloMosaic.Lib.Pipeline.Value

set_option maxRecDepth 16384

noncomputable section

namespace Cert.KernelIdeal.Hand

open Idealize.ShloMosaic Idealize.SL.Sem
open Cert.KernelIdeal Cert.KernelIdeal.Gen

variable {F : FTy → Type} [FloatOps F]

/-! ## What the body computes, as a function of the blocks it loads

`lW` is what the body loads from input window `W`'s staging buffer (its argument `W + 1`); `vN` is the printed
value `%N`, through the generated payload functions `k0_payK` (each the pure operations between two loads). -/

namespace Body

/-- The f32 scalar zero the body passes along (all bits zero). -/
def c12 : F .f32 := Scalar.ofBits .f32 0x00000000#32
/-- The f32 scalar minus one half (sign bit, exponent 126, zero fraction). -/
def c59 : F .f32 := Scalar.ofBits .f32 0xBF000000#32

/-- Column 0 of the row block (x), as a (2048, 1) column. -/
def v2 (l0 : Vec F S2048x11 .f32) :=
  k0_pay2 l0
/-- Row 0 of the stacked first-layer weights (the x weights), as a (1, 64) row. -/
def v9 (l3 : Vec F S3x64 .f32) :=
  k0_pay4 l3
/-- Tanh of the latent columns (3 … 10 of the row block, rounded to bf16) times the transposed latent weights, plus the latent bias. -/
def v23 (l0 : Vec F S2048x11 .f32) (l1 : Vec F S64x8 .bf16) (l2 : Vec F S64 .f32) :=
  k0_pay5 l0 l2 l1
/-- The body's value %32 as a function of the blocks it is computed from. -/
def v32 (l0 : Vec F S2048x11 .f32) (l3 : Vec F S3x64 .f32) :=
  k0_pay6 l0 l3
/-- The body's value %37 as a function of the blocks it is computed from. -/
def v37 (l0 : Vec F S2048x11 .f32) (l3 : Vec F S3x64 .f32) :=
  k0_pay8 l0 l3
/-- The body's value %40 as a function of the blocks it is computed from. -/
def v40 (l0 : Vec F S2048x11 .f32) (l3 : Vec F S3x64 .f32) :=
  k0_pay10 l0 l3
/-- The body's value %42 as a function of the blocks it is computed from. -/
def v42 (l0 : Vec F S2048x11 .f32) (l3 : Vec F S3x64 .f32) :=
  k0_pay11 l0 l3
/-- The body's value %43 as a function of the blocks it is computed from. -/
def v43 (l0 : Vec F S2048x11 .f32) (l3 : Vec F S3x64 .f32) :=
  k0_pay12 l0 l3
/-- The body's value %79 as a function of the blocks it is computed from. -/
def v79 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) :=
  k0_pay13 (v2 l0) (v9 l3) l5 (v23 l0 l1 l2) (v32 l0 l3) (v37 l0 l3) (v40 l0 l3) (v42 l0 l3) (v43 l0 l3) c12 l4 l9 l10
/-- The body's value %88 as a function of the blocks it is computed from. -/
def v88 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) :=
  k0_pay14 (v2 l0) (v9 l3) l5 (v23 l0 l1 l2) (v32 l0 l3) (v37 l0 l3) (v40 l0 l3) (v42 l0 l3) (v43 l0 l3) c12 l4 l9 l10 l11 l12
/-- The body's value %90 as a function of the blocks it is computed from. -/
def v90 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) :=
  k0_pay15 (v2 l0) (v9 l3) l5 (v23 l0 l1 l2) (v32 l0 l3) (v37 l0 l3) (v40 l0 l3) (v42 l0 l3) (v43 l0 l3) c12 l4 l9 l10 l11 l12
/-- The body's value %94 as a function of the blocks it is computed from. -/
def v94 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) :=
  k0_pay16 (v88 l0 l1 l2 l3 l4 l5 l9 l10 l11 l12) (v90 l0 l1 l2 l3 l4 l5 l9 l10 l11 l12)
/-- The body's value %120 as a function of the blocks it is computed from. -/
def v120 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) :=
  k0_pay18 (v79 l0 l1 l2 l3 l4 l5 l9 l10) (v88 l0 l1 l2 l3 l4 l5 l9 l10 l11 l12) (v90 l0 l1 l2 l3 l4 l5 l9 l10 l11 l12) l13 l14
/-- The body's value %122 as a function of the blocks it is computed from. -/
def v122 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) :=
  k0_pay19 (v79 l0 l1 l2 l3 l4 l5 l9 l10) (v88 l0 l1 l2 l3 l4 l5 l9 l10 l11 l12) (v90 l0 l1 l2 l3 l4 l5 l9 l10 l11 l12) l13 l14
/-- The body's value %127 as a function of the blocks it is computed from. -/
def v127 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) :=
  k0_pay20 (v79 l0 l1 l2 l3 l4 l5 l9 l10) (v88 l0 l1 l2 l3 l4 l5 l9 l10 l11 l12) (v90 l0 l1 l2 l3 l4 l5 l9 l10 l11 l12) l13 l14
/-- The body's value %130 as a function of the blocks it is computed from. -/
def v130 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) :=
  k0_pay22 (v79 l0 l1 l2 l3 l4 l5 l9 l10) (v88 l0 l1 l2 l3 l4 l5 l9 l10 l11 l12) (v90 l0 l1 l2 l3 l4 l5 l9 l10 l11 l12) l13 l14
/-- The body's value %133 as a function of the blocks it is computed from. -/
def v133 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) :=
  k0_pay24 (v79 l0 l1 l2 l3 l4 l5 l9 l10) (v88 l0 l1 l2 l3 l4 l5 l9 l10 l11 l12) (v90 l0 l1 l2 l3 l4 l5 l9 l10 l11 l12) l13 l14
/-- The body's value %135 as a function of the blocks it is computed from. -/
def v135 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) :=
  k0_pay25 (v79 l0 l1 l2 l3 l4 l5 l9 l10) (v88 l0 l1 l2 l3 l4 l5 l9 l10 l11 l12) (v90 l0 l1 l2 l3 l4 l5 l9 l10 l11 l12) l13 l14
/-- The body's value %140 as a function of the blocks it is computed from. -/
def v140 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) :=
  k0_pay26 (v79 l0 l1 l2 l3 l4 l5 l9 l10) (v88 l0 l1 l2 l3 l4 l5 l9 l10 l11 l12) (v90 l0 l1 l2 l3 l4 l5 l9 l10 l11 l12) l13 l14
/-- The body's value %142 as a function of the blocks it is computed from. -/
def v142 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) :=
  k0_pay27 (v130 l0 l1 l2 l3 l4 l5 l9 l10 l11 l12 l13 l14) (v133 l0 l1 l2 l3 l4 l5 l9 l10 l11 l12 l13 l14) (v135 l0 l1 l2 l3 l4 l5 l9 l10 l11 l12 l13 l14) (v140 l0 l1 l2 l3 l4 l5 l9 l10 l11 l12 l13 l14)
/-- The body's value %157 as a function of the blocks it is computed from. -/
def v157 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) (l15 : Vec F S256x192 .bf16) (l16 : Vec F S192 .f32) :=
  k0_pay29 (v79 l0 l1 l2 l3 l4 l5 l9 l10) (v120 l0 l1 l2 l3 l4 l5 l9 l10 l11 l12 l13 l14) (v122 l0 l1 l2 l3 l4 l5 l9 l10 l11 l12 l13 l14) (v127 l0 l1 l2 l3 l4 l5 l9 l10 l11 l12 l13 l14) l15 l16
/-- The body's value %179 as a function of the blocks it is computed from. -/
def v179 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) (l15 : Vec F S256x192 .bf16) (l16 : Vec F S192 .f32) :=
  k0_pay30 (v79 l0 l1 l2 l3 l4 l5 l9 l10) (v120 l0 l1 l2 l3 l4 l5 l9 l10 l11 l12 l13 l14) (v122 l0 l1 l2 l3 l4 l5 l9 l10 l11 l12 l13 l14) (v127 l0 l1 l2 l3 l4 l5 l9 l10 l11 l12 l13 l14) l15 l16
/-- The body's value %186 as a function of the blocks it is computed from. -/
def v186 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) (l15 : Vec F S256x192 .bf16) (l16 : Vec F S192 .f32) :=
  k0_pay31 (v79 l0 l1 l2 l3 l4 l5 l9 l10) (v94 l0 l1 l2 l3 l4 l5 l9 l10 l11 l12) (v120 l0 l1 l2 l3 l4 l5 l9 l10 l11 l12 l13 l14) (v122 l0 l1 l2 l3 l4 l5 l9 l10 l11 l12 l13 l14) (v127 l0 l1 l2 l3 l4 l5 l9 l10 l11 l12 l13 l14) l15 l16
/-- The body's value %188 as a function of the blocks it is computed from. -/
def v188 (l17 : Vec F S384x128 .bf16) :=
  k0_pay32 l17
/-- The body's value %206 as a function of the blocks it is computed from. -/
def v206 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) (l15 : Vec F S256x192 .bf16) (l16 : Vec F S192 .f32) (l17 : Vec F S384x128 .bf16) (l18 : Vec F S128 .f32) :=
  k0_pay34 (v186 l0 l1 l2 l3 l4 l5 l9 l10 l11 l12 l13 l14 l15 l16) (v188 l17) l18
/-- The body's value %221 as a function of the blocks it is computed from. -/
def v221 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) (l15 : Vec F S256x192 .bf16) (l16 : Vec F S192 .f32) (l17 : Vec F S384x128 .bf16) (l18 : Vec F S128 .f32) (l19 : Vec F S256x128 .bf16) (l20 : Vec F S128 .f32) :=
  k0_pay36 (v127 l0 l1 l2 l3 l4 l5 l9 l10 l11 l12 l13 l14) (v142 l0 l1 l2 l3 l4 l5 l9 l10 l11 l12 l13 l14) (v179 l0 l1 l2 l3 l4 l5 l9 l10 l11 l12 l13 l14 l15 l16) (v186 l0 l1 l2 l3 l4 l5 l9 l10 l11 l12 l13 l14 l15 l16) (v188 l17) l18 l19 l20
/-- The body's value %223 as a function of the blocks it is computed from. -/
def v223 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) (l15 : Vec F S256x192 .bf16) (l16 : Vec F S192 .f32) (l17 : Vec F S384x128 .bf16) (l18 : Vec F S128 .f32) (l19 : Vec F S256x128 .bf16) (l20 : Vec F S128 .f32) :=
  k0_pay37 (v127 l0 l1 l2 l3 l4 l5 l9 l10 l11 l12 l13 l14) (v142 l0 l1 l2 l3 l4 l5 l9 l10 l11 l12 l13 l14) (v179 l0 l1 l2 l3 l4 l5 l9 l10 l11 l12 l13 l14 l15 l16) (v186 l0 l1 l2 l3 l4 l5 l9 l10 l11 l12 l13 l14 l15 l16) (v188 l17) l18 l19 l20
/-- The body's value %236 as a function of the blocks it is computed from. -/
def v236 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) (l15 : Vec F S256x192 .bf16) (l16 : Vec F S192 .f32) (l17 : Vec F S384x128 .bf16) (l18 : Vec F S128 .f32) (l19 : Vec F S256x128 .bf16) (l20 : Vec F S128 .f32) (l21 : Vec F S256x64 .bf16) (l22 : Vec F S64 .f32) :=
  k0_pay38 (v122 l0 l1 l2 l3 l4 l5 l9 l10 l11 l12 l13 l14) (v127 l0 l1 l2 l3 l4 l5 l9 l10 l11 l12 l13 l14) (v142 l0 l1 l2 l3 l4 l5 l9 l10 l11 l12 l13 l14) (v157 l0 l1 l2 l3 l4 l5 l9 l10 l11 l12 l13 l14 l15 l16) (v179 l0 l1 l2 l3 l4 l5 l9 l10 l11 l12 l13 l14 l15 l16) (v186 l0 l1 l2 l3 l4 l5 l9 l10 l11 l12 l13 l14 l15 l16) (v188 l17) l18 l19 l20 l21 l22
/-- THE STORED VALUE, %279 of the body: the value the body's one store writes over the whole output block, a function of all 27 input blocks (the last products, the output bias and scale, then the logistic function). -/
def v279 (l0 : Vec F S2048x11 .f32) (l1 : Vec F S64x8 .bf16) (l2 : Vec F S64 .f32) (l3 : Vec F S3x64 .f32) (l4 : Vec F S64x64 .bf16) (l5 : Vec F S64 .f32) (l6 : Vec F S3x64 .bf16) (l7 : Vec F S3 .f32) (l8 : Vec F S1 .f32) (l9 : Vec F S64x64 .bf16) (l10 : Vec F S64 .f32) (l11 : Vec F S64x64 .bf16) (l12 : Vec F S64 .f32) (l13 : Vec F S128x256 .bf16) (l14 : Vec F S256 .f32) (l15 : Vec F S256x192 .bf16) (l16 : Vec F S192 .f32) (l17 : Vec F S384x128 .bf16) (l18 : Vec F S128 .f32) (l19 : Vec F S256x128 .bf16) (l20 : Vec F S128 .f32) (l21 : Vec F S256x64 .bf16) (l22 : Vec F S64 .f32) (l23 : Vec F S192x64 .bf16) (l24 : Vec F S64 .f32) (l25 : Vec F S128x64 .bf16) (l26 : Vec F S64 .f32) :=
  k0_pay39 l7 l8 (v79 l0 l1 l2 l3 l4 l5 l9 l10) (v94 l0 l1 l2 l3 l4 l5 l9 l10 l11 l12) (v206 l0 l1 l2 l3 l4 l5 l9 l10 l11 l12 l13 l14 l15 l16 l17 l18) (v221 l0 l1 l2 l3 l4 l5 l9 l10 l11 l12 l13 l14 l15 l16 l17 l18 l19 l20) (v223 l0 l1 l2 l3 l4 l5 l9 l10 l11 l12 l13 l14 l15 l16 l17 l18 l19 l20) (v236 l0 l1 l2 l3 l4 l5 l9 l10 l11 l12 l13 l14 l15 l16 l17 l18 l19 l20 l21 l22) c59 l23 l24 l25 l26 l6

end Body

/-! ## The body's rectangles: every access is through the whole buffer -/

abbrev r_0 : Rect S2048x11 := Rect.unit (s := S2048x11) ![0, 0] S2048x11.size inb_S2048x11_S2048x11_0_0
abbrev r_1 : Rect S64x8 := Rect.unit (s := S64x8) ![0, 0] S64x8.size inb_S64x8_S64x8_0_0
abbrev r_2 : Rect S64 := Rect.unit (s := S64) ![0] S64.size inb_S64_S64_0
abbrev r_3 : Rect S3x64 := Rect.unit (s := S3x64) ![0, 0] S3x64.size inb_S3x64_S3x64_0_0
abbrev r_4 : Rect S64x64 := Rect.unit (s := S64x64) ![0, 0] S64x64.size inb_S64x64_S64x64_0_0
abbrev r_5 : Rect S64 := Rect.unit (s := S64) ![0] S64.size inb_S64_S64_0
abbrev r_6 : Rect S3x64 := Rect.unit (s := S3x64) ![0, 0] S3x64.size inb_S3x64_S3x64_0_0
abbrev r_7 : Rect S3 := Rect.unit (s := S3) ![0] S3.size inb_S3_S3_0
abbrev r_8 : Rect S1 := Rect.unit (s := S1) ![0] S1.size inb_S1_S1_0
abbrev r_9 : Rect S64x64 := Rect.unit (s := S64x64) ![0, 0] S64x64.size inb_S64x64_S64x64_0_0
abbrev r_10 : Rect S64 := Rect.unit (s := S64) ![0] S64.size inb_S64_S64_0
abbrev r_11 : Rect S64x64 := Rect.unit (s := S64x64) ![0, 0] S64x64.size inb_S64x64_S64x64_0_0
abbrev r_12 : Rect S64 := Rect.unit (s := S64) ![0] S64.size inb_S64_S64_0
abbrev r_13 : Rect S128x256 := Rect.unit (s := S128x256) ![0, 0] S128x256.size inb_S128x256_S128x256_0_0
abbrev r_14 : Rect S256 := Rect.unit (s := S256) ![0] S256.size inb_S256_S256_0
abbrev r_15 : Rect S256x192 := Rect.unit (s := S256x192) ![0, 0] S256x192.size inb_S256x192_S256x192_0_0
abbrev r_16 : Rect S192 := Rect.unit (s := S192) ![0] S192.size inb_S192_S192_0
abbrev r_17 : Rect S384x128 := Rect.unit (s := S384x128) ![0, 0] S384x128.size inb_S384x128_S384x128_0_0
abbrev r_18 : Rect S128 := Rect.unit (s := S128) ![0] S128.size inb_S128_S128_0
abbrev r_19 : Rect S256x128 := Rect.unit (s := S256x128) ![0, 0] S256x128.size inb_S256x128_S256x128_0_0
abbrev r_20 : Rect S128 := Rect.unit (s := S128) ![0] S128.size inb_S128_S128_0
abbrev r_21 : Rect S256x64 := Rect.unit (s := S256x64) ![0, 0] S256x64.size inb_S256x64_S256x64_0_0
abbrev r_22 : Rect S64 := Rect.unit (s := S64) ![0] S64.size inb_S64_S64_0
abbrev r_23 : Rect S192x64 := Rect.unit (s := S192x64) ![0, 0] S192x64.size inb_S192x64_S192x64_0_0
abbrev r_24 : Rect S64 := Rect.unit (s := S64) ![0] S64.size inb_S64_S64_0
abbrev r_25 : Rect S128x64 := Rect.unit (s := S128x64) ![0, 0] S128x64.size inb_S128x64_S128x64_0_0
abbrev r_26 : Rect S64 := Rect.unit (s := S64) ![0] S64.size inb_S64_S64_0
abbrev r_27 : Rect S2048x3 := Rect.unit (s := S2048x3) ![0, 0] S2048x3.size inb_S2048x3_S2048x3_0_0

theorem hz1 : (![0] : Fin 1 → Nat) = fun _ => 0 := funext fun a => by fin_cases a <;> rfl
theorem hz2 : (![0, 0] : Fin 2 → Nat) = fun _ => 0 := funext fun a => by fin_cases a <;> rfl

/-! ## What the body leaves in the output window's buffer -/

/-- The output staging buffer after the body, from the input buffers' contents: the one store's rectangle (the
    whole buffer) overlaid by its value, the value computed from what the loads read through their rectangles. -/
def out27 (x0 : Vec F S2048x11 .f32) (x1 : Vec F S64x8 .bf16) (x2 : Vec F S64 .f32) (x3 : Vec F S3x64 .f32) (x4 : Vec F S64x64 .bf16) (x5 : Vec F S64 .f32) (x6 : Vec F S3x64 .bf16) (x7 : Vec F S3 .f32) (x8 : Vec F S1 .f32) (x9 : Vec F S64x64 .bf16) (x10 : Vec F S64 .f32) (x11 : Vec F S64x64 .bf16) (x12 : Vec F S64 .f32) (x13 : Vec F S128x256 .bf16) (x14 : Vec F S256 .f32) (x15 : Vec F S256x192 .bf16) (x16 : Vec F S192 .f32) (x17 : Vec F S384x128 .bf16) (x18 : Vec F S128 .f32) (x19 : Vec F S256x128 .bf16) (x20 : Vec F S128 .f32) (x21 : Vec F S256x64 .bf16) (x22 : Vec F S64 .f32) (x23 : Vec F S192x64 .bf16) (x24 : Vec F S64 .f32) (x25 : Vec F S128x64 .bf16) (x26 : Vec F S64 .f32) : Vec F S2048x3 .f32 :=
  View.canon [⟨r_27, Body.v279 (View.ld x0 r_0) (View.ld x1 r_1) (View.ld x2 r_2) (View.ld x3 r_3) (View.ld x4 r_4) (View.ld x5 r_5) (View.ld x6 r_6) (View.ld x7 r_7) (View.ld x8 r_8) (View.ld x9 r_9) (View.ld x10 r_10) (View.ld x11 r_11) (View.ld x12 r_12) (View.ld x13 r_13) (View.ld x14 r_14) (View.ld x15 r_15) (View.ld x16 r_16) (View.ld x17 r_17) (View.ld x18 r_18) (View.ld x19 r_19) (View.ld x20 r_20) (View.ld x21 r_21) (View.ld x22 r_22) (View.ld x23 r_23) (View.ld x24 r_24) (View.ld x25 r_25) (View.ld x26 r_26)⟩]

/-- Every rectangle is the whole buffer, so a load reads the contents and the one store leaves its value: the output
    buffer after the body is `Body.v279` of the input buffers' contents. -/
theorem out27_eq (x0 : Vec F S2048x11 .f32) (x1 : Vec F S64x8 .bf16) (x2 : Vec F S64 .f32) (x3 : Vec F S3x64 .f32) (x4 : Vec F S64x64 .bf16) (x5 : Vec F S64 .f32) (x6 : Vec F S3x64 .bf16) (x7 : Vec F S3 .f32) (x8 : Vec F S1 .f32) (x9 : Vec F S64x64 .bf16) (x10 : Vec F S64 .f32) (x11 : Vec F S64x64 .bf16) (x12 : Vec F S64 .f32) (x13 : Vec F S128x256 .bf16) (x14 : Vec F S256 .f32) (x15 : Vec F S256x192 .bf16) (x16 : Vec F S192 .f32) (x17 : Vec F S384x128 .bf16) (x18 : Vec F S128 .f32) (x19 : Vec F S256x128 .bf16) (x20 : Vec F S128 .f32) (x21 : Vec F S256x64 .bf16) (x22 : Vec F S64 .f32) (x23 : Vec F S192x64 .bf16) (x24 : Vec F S64 .f32) (x25 : Vec F S128x64 .bf16) (x26 : Vec F S64 .f32) :
    out27 x0 x1 x2 x3 x4 x5 x6 x7 x8 x9 x10 x11 x12 x13 x14 x15 x16 x17 x18 x19 x20 x21 x22 x23 x24 x25 x26 = Body.v279 x0 x1 x2 x3 x4 x5 x6 x7 x8 x9 x10 x11 x12 x13 x14 x15 x16 x17 x18 x19 x20 x21 x22 x23 x24 x25 x26 := by
  unfold out27
  rw [View.canon_unit_zero (S := S2048x3) hz2]
  simp only [View.ld_unit_zero (S := S2048x11) hz2, View.ld_unit_zero (S := S64x8) hz2, View.ld_unit_zero (S := S64) hz1, View.ld_unit_zero (S := S3x64) hz2, View.ld_unit_zero (S := S64x64) hz2, View.ld_unit_zero (S := S3) hz1, View.ld_unit_zero (S := S1) hz1, View.ld_unit_zero (S := S128x256) hz2, View.ld_unit_zero (S := S256) hz1, View.ld_unit_zero (S := S256x192) hz2, View.ld_unit_zero (S := S192) hz1, View.ld_unit_zero (S := S384x128) hz2, View.ld_unit_zero (S := S128) hz1, View.ld_unit_zero (S := S256x128) hz2, View.ld_unit_zero (S := S256x64) hz2, View.ld_unit_zero (S := S192x64) hz2, View.ld_unit_zero (S := S128x64) hz2]

/-- The store's rectangle is the whole output buffer: it covers every index. -/
theorem cover27 (p : Vec F S2048x3 .f32) (y : S2048x3.Idx) :
    ∃ pc ∈ ([⟨r_27, p⟩] : List (View.Piece (Elt F) S2048x3 .f32)), y ∈ pc.1.set :=
  ⟨_, List.mem_singleton_self _, View.mem_set_unit_zero hz2 inb_S2048x3_S2048x3_0_0 y⟩

end Cert.KernelIdeal.Hand

end
-- ==== Proof.KFrameBody.lean ====
/- The frame of `KernelIdeal`, second half: the kernel body, the proof data of the launch, the run, and the frame.

   The body is straight-line: it loads each of its 27 input staging buffers whole, computes with pure vector
   operations (products on the matrix unit, tanh, exp, log1p, sin, selects, concatenations, slices), loads its output
   staging buffer once without using what it read, and overwrites that whole buffer by ONE (2048, 3) value. So at a
   grid point the body leaves every input buffer as it found it, and leaves in the output buffer one pure function
   `Body.v279` of the 27 input blocks. That function and what the store leaves (`out27`) are the sibling value module's. With that, the launch is an instance of the library's frame run. -/
import proofs.«166257_j42623255446007_2_alg».proof.Proof.KFrameMain
import proofs.«166257_j42623255446007_2_alg».proof.Proof.KFrameValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's triple -/

set_option maxHeartbeats 4000000 in
/-- The body on whole staging buffers, the inputs' at contents `xW` and the output's at anything, runs (no fault, no
    wait) to a state where the inputs' are as they were and the output's holds `out27` of the inputs': each load
    reads its buffer through the whole-buffer rectangle, the pure operations between loads are the payload functions,
    and the one store overwrites the whole output buffer. -/
theorem sound_kernel (c : Dev nD) (E : Set ℕ) (i : grid0.Coords) (arg1 : Memref sig .tc .vmem S2048x11 .f32) (harg1 : arg1.IsWhole) (arg2 : Memref sig .tc .vmem S64x8 .bf16) (harg2 : arg2.IsWhole) (arg3 : Memref sig .tc .vmem S64 .f32) (harg3 : arg3.IsWhole) (arg4 : Memref sig .tc .vmem S3x64 .f32) (harg4 : arg4.IsWhole) (arg5 : Memref sig .tc .vmem S64x64 .bf16) (harg5 : arg5.IsWhole) (arg6 : Memref sig .tc .vmem S64 .f32) (harg6 : arg6.IsWhole) (arg7 : Memref sig .tc .vmem S3x64 .bf16) (harg7 : arg7.IsWhole) (arg8 : Memref sig .tc .vmem S3 .f32) (harg8 : arg8.IsWhole) (arg9 : Memref sig .tc .vmem S1 .f32) (harg9 : arg9.IsWhole) (arg10 : Memref sig .tc .vmem S64x64 .bf16) (harg10 : arg10.IsWhole) (arg11 : Memref sig .tc .vmem S64 .f32) (harg11 : arg11.IsWhole) (arg12 : Memref sig .tc .vmem S64x64 .bf16) (harg12 : arg12.IsWhole) (arg13 : Memref sig .tc .vmem S64 .f32) (harg13 : arg13.IsWhole) (arg14 : Memref sig .tc .vmem S128x256 .bf16) (harg14 : arg14.IsWhole) (arg15 : Memref sig .tc .vmem S256 .f32) (harg15 : arg15.IsWhole) (arg16 : Memref sig .tc .vmem S256x192 .bf16) (harg16 : arg16.IsWhole) (arg17 : Memref sig .tc .vmem S192 .f32) (harg17 : arg17.IsWhole) (arg18 : Memref sig .tc .vmem S384x128 .bf16) (harg18 : arg18.IsWhole) (arg19 : Memref sig .tc .vmem S128 .f32) (harg19 : arg19.IsWhole) (arg20 : Memref sig .tc .vmem S256x128 .bf16) (harg20 : arg20.IsWhole) (arg21 : Memref sig .tc .vmem S128 .f32) (harg21 : arg21.IsWhole) (arg22 : Memref sig .tc .vmem S256x64 .bf16) (harg22 : arg22.IsWhole) (arg23 : Memref sig .tc .vmem S64 .f32) (harg23 : arg23.IsWhole) (arg24 : Memref sig .tc .vmem S192x64 .bf16) (harg24 : arg24.IsWhole) (arg25 : Memref sig .tc .vmem S64 .f32) (harg25 : arg25.IsWhole) (arg26 : Memref sig .tc .vmem S128x64 .bf16) (harg26 : arg26.IsWhole) (arg27 : Memref sig .tc .vmem S64 .f32) (harg27 : arg27.IsWhole) (arg28 : Memref sig .tc .vmem S2048x3 .f32) (harg28 : arg28.IsWhole)
    (x0 : Vec F S2048x11 .f32) (x1 : Vec F S64x8 .bf16) (x2 : Vec F S64 .f32) (x3 : Vec F S3x64 .f32) (x4 : Vec F S64x64 .bf16) (x5 : Vec F S64 .f32) (x6 : Vec F S3x64 .bf16) (x7 : Vec F S3 .f32) (x8 : Vec F S1 .f32) (x9 : Vec F S64x64 .bf16) (x10 : Vec F S64 .f32) (x11 : Vec F S64x64 .bf16) (x12 : Vec F S64 .f32) (x13 : Vec F S128x256 .bf16) (x14 : Vec F S256 .f32) (x15 : Vec F S256x192 .bf16) (x16 : Vec F S192 .f32) (x17 : Vec F S384x128 .bf16) (x18 : Vec F S128 .f32) (x19 : Vec F S256x128 .bf16) (x20 : Vec F S128 .f32) (x21 : Vec F S256x64 .bf16) (x22 : Vec F S64 .f32) (x23 : Vec F S192x64 .bf16) (x24 : Vec F S64 .f32) (x25 : Vec F S128x64 .bf16) (x26 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare (out27 x0 x1 x2 x3 x4 x5 x6 x7 x8 x9 x10 x11 x12 x13 x14 x15 x16 x17 x18 x19 x20 x21 x22 x23 x24 x25 x26)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, Hk⟩
  subst hf0 hf1 hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  iexists _; isplitr
  swap; · iexact H27
  ipureintro
  sl_unfold_run_names
  exact View.read_writes_eq_canon _ _ _ (cover27 _)

/-! ## The proof data of the launch -/

variable (m : (ℓ : Loc nD τ sig) → Buf (Elt F) ℓ) (ρ : Dev nD → PrngReg)

/-- The proof data of the launch on core `c`: the arrays as the launch finds them (`V`); after the body at point
    `t` each input window's buffer still at its block and the output window's at `out27` of the 27 input blocks;
    the invariant the library's default (nothing scoped is used); full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => out27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨n + 28, h⟩ => absurd h (Nat.not_lt.2 (Nat.le_add_left 28 n))
  Φ _ := Pipeline.ΦA spec0 c
  q _ := fullShare
  owed _ := 0

/-- The proof data's arrays are `V`'s, by projecting the definition (never by evaluating `V`). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
/-- What point `t` leaves in the output window's buffer: `out27` of the 27 input blocks at `t`. -/
theorem after0_27 (c : Dev nD) (t : Fin cfg0.N) : (dats m 0 c).after 27 t = out27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d

/-! ## The body obligation -/

/-- What the launch hands the body at point `t`: the invariant, the core's debts, and each window's current staging
    buffer, whole, at what the proof data says it holds there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- What it wants back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 4000000 in
/-- The body at any point: the input buffers hold their blocks (`before0_W`), so `sound_kernel` applies at those
    blocks; the invariant and the debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters, every weakly fair execution of @main on the TensorCores terminates
    without a fault, and in every final state each array of the launch holds what the library computes from the proof
    data (an input its entry contents, the output its entry contents overwritten block by block by what each point
    left) and every other unscoped buffer is as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: every weakly fair execution of @main terminates without a fault with the 14 argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Hand

end
-- ==== Proof.KFinal.lean ====
/- From the blocks the grid points write back to the whole output array of `KernelIdeal`.

   The output array is (131072, 3); grid point `t` (of 64) writes back the (2048, 3) block of rows
   `2048 t … 2048 t + 2047`, all three columns, and what it writes is what the body left in the output buffer at that
   point, `out27` of the 27 input blocks at `t`. The 64 row blocks tile the array (row `r` lies in the block of point
   `r / 2048`). So if a whole-array function `G` agrees, row by row, with what every point leaves, the array ends
   holding `G`; and the run of @main then ends with the output array at `G` and the 14 arguments as they began. -/
import proofs.«166257_j42623255446007_2_alg».proof.Proof.KFrameBody
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The output window's block index at point `t`, decided over the 64 points: block row `t`, block column 0. -/
theorem idx27 : ∀ t : Fin cfg0.N, win0_27.index t (0 : Fin 2) = t.val ∧ win0_27.index t (1 : Fin 2) = 0 :=
  (by decide +kernel : ∀ t : Fin grid0.N, _)

/-- There are 64 points. -/
theorem point_lt (t : Fin cfg0.N) : t.val < 64 := lt_of_lt_of_eq t.isLt N_0

/-- Row `p` of point `t`'s block is row `2048 t + p` of the array. -/
theorem row_lt (t : Fin cfg0.N) (p : Fin 2048) : 2048 * t.val + p.val < 131072 := by
  have := point_lt t; have := p.isLt; omega

/-- What point `t` writes back is block `t` of `G`, when `G` agrees row by row with what the body leaves there: an
    element `(p, q)` of the block sits at row `block row × 2048 + p`, column `block column × 3 + q` of the array. -/
theorem flushed27_eq (c : Dev nD) (G : S131072x3.Idx → Elt F .f32)
    (hG : ∀ (t : Fin cfg0.N) (p : Fin 2048) (q : Fin 3),
      out27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (ix2 p q) = G (ix2 ⟨2048 * t.val + p.val, row_lt t p⟩ q))
    (t : Fin cfg0.N) :
    (dats m 0 c).flushed 27 t = ((cfg0.win 27).blk t).view.read (Elt F) G := by
  show (cfg0.win 27).cut (grid0.coords t) ((dats m 0 c).after 27 t) = _
  rw [after0_27]
  have key : ∀ x : S2048x3.Idx, out27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) x = G (((cfg0.win 27).blk t).view.emb x) := by
    intro x
    obtain ⟨p, q, rfl⟩ : ∃ (p : Fin 2048) (q : Fin 3), x = ix2 p q := ⟨x 0, x 1, eq_ix2 x⟩
    refine (hG t p q).trans (congrArg G ?_)
    obtain ⟨e0, e1⟩ := idx27 t
    funext a; apply Fin.ext
    match a with
    | ⟨0, _⟩ => show 2048 * t.val + p.val = win0_27.index t (0 : Fin 2) * 2048 + 1 * p.val; rw [e0]; omega
    | ⟨1, _⟩ => show q.val = win0_27.index t (1 : Fin 2) * 3 + 1 * q.val; rw [e1]; omega
  funext j
  exact key j

/-- An index of the array is in point `t`'s block iff each coordinate is within the block's range on its axis. -/
theorem mem_blk27 (t : Fin cfg0.N) (i : S131072x3.Idx) :
    i ∈ ((cfg0.win 27).blk t).view.set ↔ ∀ a : Fin 2, win0_27.index t a * S2048x3.size a ≤ (i a).val ∧ (i a).val < win0_27.index t a * S2048x3.size a + S2048x3.size a := by
  show i ∈ ((View.whole main_v194).slice (win0_27.rect t)).set ↔ _
  rw [View.set_slice_whole, Rect.mem_set_unit]
  exact Iff.rfl

/-- The 64 row blocks tile the array: row `r` is in the block of point `r / 2048`, which writes back. -/
theorem covered27 (i : S131072x3.Idx) :
    ∃ t : Fin cfg0.N, (cfg0.win 27).flush t = true ∧ i ∈ ((cfg0.win 27).blk t).view.set := by
  have hi0 : (i 0).val < 131072 := (i 0).isLt
  have hi1 : (i 1).val < 3 := (i 1).isLt
  have hN : grid0.N = 64 := N_0
  let t : Fin cfg0.N := ⟨(i 0).val / 2048, by show (i 0).val / 2048 < grid0.N; omega⟩
  obtain ⟨e0, e1⟩ := idx27 t
  have ht : t.val = (i 0).val / 2048 := rfl
  refine ⟨t, flush0_27 t, ?_⟩
  rw [mem_blk27]
  intro a
  match a with
  | ⟨0, _⟩ => show win0_27.index t (0 : Fin 2) * 2048 ≤ (i 0).val ∧ (i 0).val < win0_27.index t (0 : Fin 2) * 2048 + 2048; rw [e0, ht]; omega
  | ⟨1, _⟩ => show win0_27.index t (1 : Fin 2) * 3 ≤ (i 1).val ∧ (i 1).val < win0_27.index t (1 : Fin 2) * 3 + 3; rw [e1]; omega

/-- THE OUTPUT ARRAY after the launch is `G`, for any whole-array function `G` that agrees row by row with what
    every point leaves in its output buffer. -/
theorem final_of (c : Dev nD) (G : S131072x3.Idx → Elt F .f32)
    (hG : ∀ (t : Fin cfg0.N) (p : Fin 2048) (q : Fin 3),
      out27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (ix2 p q) = G (ix2 ⟨2048 * t.val + p.val, row_lt t p⟩ q)) :
    (dats m 0 c).arrAt 27 cfg0.N = G :=
  (dats m 0 c).arrAt_eq_of_cover 27 G (fun t _ => flushed27_eq m c G hG t) covered27

/-- THE RUN, READ: every weakly fair execution of @main terminates without a fault with the output array at `G c` on
    core `c` and the 14 argument arrays unchanged, for any `G` that agrees row by row with what every point leaves. -/
theorem run_value (G : Dev nD → S131072x3.Idx → Elt F .f32)
    (hG : ∀ (c : Dev nD) (t : Fin cfg0.N) (p : Fin 2048) (q : Fin 3),
      out27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (ix2 p q) = G c (ix2 ⟨2048 * t.val + p.val, row_lt t p⟩ q)) :
    θ_run defs (onTc (τ := τ) (main (F := F))) ⟨m, fun _ => 0, ρ⟩ (fun r => ∀ c : Dev nD,
      r.2.mem ((c.tc : Thread nD τ).loc main_v194) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨((h c).1 27).trans (final_of m c (G c) (hG c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 5).trans (((dats m 0 c).arrAt_in 5 rfl _).trans ((A_eq m c 5).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 7).trans (((dats m 0 c).arrAt_in 7 rfl _).trans ((A_eq m c 7).trans (V_main_arg12 m c))),
      ((h c).1 8).trans (((dats m 0 c).arrAt_in 8 rfl _).trans ((A_eq m c 8).trans (V_main_arg13 m c)))⟩) (run_main m ρ)

end Cert.KernelIdeal.Hand

end
-- ==== Proof.KWinBlock.lean ====
/- What the launch's input windows hold at a grid point, as parts of the arrays they stage (`KernelIdeal`).

   Windows 1 … 26 each stage a small weight array whole: their block has the array's own extents and block index 0 on
   every axis at every point, so the block IS the array. Window 0 stages the (131072, 11) row array by blocks of 2048
   rows: at point `t` its block is rows `2048 t … 2048 t + 2047`, all 11 columns. -/
import proofs.«166257_j42623255446007_2_alg».proof.Proof.KFrameMain
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-! ## The block indices, decided over the 64 points -/

/-- Window 0's block index at point `t`: block row `t`, block column 0. -/
theorem idxw0 : ∀ t : Fin cfg0.N, win0_0.index t (0 : Fin 2) = t.val ∧ win0_0.index t (1 : Fin 2) = 0 :=
  (by decide +kernel : ∀ t : Fin grid0.N, _)
/-! Windows 1 … 26: block index 0 on every axis, at every point. -/
theorem idxw1 : ∀ t : Fin cfg0.N, win0_1.index t (0 : Fin 2) = 0 ∧ win0_1.index t (1 : Fin 2) = 0 :=
  (by decide +kernel : ∀ t : Fin grid0.N, _)
theorem idxw2 : ∀ t : Fin cfg0.N, win0_2.index t (0 : Fin 1) = 0 :=
  (by decide +kernel : ∀ t : Fin grid0.N, _)
theorem idxw3 : ∀ t : Fin cfg0.N, win0_3.index t (0 : Fin 2) = 0 ∧ win0_3.index t (1 : Fin 2) = 0 :=
  (by decide +kernel : ∀ t : Fin grid0.N, _)
theorem idxw4 : ∀ t : Fin cfg0.N, win0_4.index t (0 : Fin 2) = 0 ∧ win0_4.index t (1 : Fin 2) = 0 :=
  (by decide +kernel : ∀ t : Fin grid0.N, _)
theorem idxw5 : ∀ t : Fin cfg0.N, win0_5.index t (0 : Fin 1) = 0 :=
  (by decide +kernel : ∀ t : Fin grid0.N, _)
theorem idxw6 : ∀ t : Fin cfg0.N, win0_6.index t (0 : Fin 2) = 0 ∧ win0_6.index t (1 : Fin 2) = 0 :=
  (by decide +kernel : ∀ t : Fin grid0.N, _)
theorem idxw7 : ∀ t : Fin cfg0.N, win0_7.index t (0 : Fin 1) = 0 :=
  (by decide +kernel : ∀ t : Fin grid0.N, _)
theorem idxw8 : ∀ t : Fin cfg0.N, win0_8.index t (0 : Fin 1) = 0 :=
  (by decide +kernel : ∀ t : Fin grid0.N, _)
theorem idxw9 : ∀ t : Fin cfg0.N, win0_9.index t (0 : Fin 2) = 0 ∧ win0_9.index t (1 : Fin 2) = 0 :=
  (by decide +kernel : ∀ t : Fin grid0.N, _)
theorem idxw10 : ∀ t : Fin cfg0.N, win0_10.index t (0 : Fin 1) = 0 :=
  (by decide +kernel : ∀ t : Fin grid0.N, _)
theorem idxw11 : ∀ t : Fin cfg0.N, win0_11.index t (0 : Fin 2) = 0 ∧ win0_11.index t (1 : Fin 2) = 0 :=
  (by decide +kernel : ∀ t : Fin grid0.N, _)
theorem idxw12 : ∀ t : Fin cfg0.N, win0_12.index t (0 : Fin 1) = 0 :=
  (by decide +kernel : ∀ t : Fin grid0.N, _)
theorem idxw13 : ∀ t : Fin cfg0.N, win0_13.index t (0 : Fin 2) = 0 ∧ win0_13.index t (1 : Fin 2) = 0 :=
  (by decide +kernel : ∀ t : Fin grid0.N, _)
theorem idxw14 : ∀ t : Fin cfg0.N, win0_14.index t (0 : Fin 1) = 0 :=
  (by decide +kernel : ∀ t : Fin grid0.N, _)
theorem idxw15 : ∀ t : Fin cfg0.N, win0_15.index t (0 : Fin 2) = 0 ∧ win0_15.index t (1 : Fin 2) = 0 :=
  (by decide +kernel : ∀ t : Fin grid0.N, _)
theorem idxw16 : ∀ t : Fin cfg0.N, win0_16.index t (0 : Fin 1) = 0 :=
  (by decide +kernel : ∀ t : Fin grid0.N, _)
theorem idxw17 : ∀ t : Fin cfg0.N, win0_17.index t (0 : Fin 2) = 0 ∧ win0_17.index t (1 : Fin 2) = 0 :=
  (by decide +kernel : ∀ t : Fin grid0.N, _)
theorem idxw18 : ∀ t : Fin cfg0.N, win0_18.index t (0 : Fin 1) = 0 :=
  (by decide +kernel : ∀ t : Fin grid0.N, _)
theorem idxw19 : ∀ t : Fin cfg0.N, win0_19.index t (0 : Fin 2) = 0 ∧ win0_19.index t (1 : Fin 2) = 0 :=
  (by decide +kernel : ∀ t : Fin grid0.N, _)
theorem idxw20 : ∀ t : Fin cfg0.N, win0_20.index t (0 : Fin 1) = 0 :=
  (by decide +kernel : ∀ t : Fin grid0.N, _)
theorem idxw21 : ∀ t : Fin cfg0.N, win0_21.index t (0 : Fin 2) = 0 ∧ win0_21.index t (1 : Fin 2) = 0 :=
  (by decide +kernel : ∀ t : Fin grid0.N, _)
theorem idxw22 : ∀ t : Fin cfg0.N, win0_22.index t (0 : Fin 1) = 0 :=
  (by decide +kernel : ∀ t : Fin grid0.N, _)
theorem idxw23 : ∀ t : Fin cfg0.N, win0_23.index t (0 : Fin 2) = 0 ∧ win0_23.index t (1 : Fin 2) = 0 :=
  (by decide +kernel : ∀ t : Fin grid0.N, _)
theorem idxw24 : ∀ t : Fin cfg0.N, win0_24.index t (0 : Fin 1) = 0 :=
  (by decide +kernel : ∀ t : Fin grid0.N, _)
theorem idxw25 : ∀ t : Fin cfg0.N, win0_25.index t (0 : Fin 2) = 0 ∧ win0_25.index t (1 : Fin 2) = 0 :=
  (by decide +kernel : ∀ t : Fin grid0.N, _)
theorem idxw26 : ∀ t : Fin cfg0.N, win0_26.index t (0 : Fin 1) = 0 :=
  (by decide +kernel : ∀ t : Fin grid0.N, _)

/-! ## Windows 1 … 26: the block is the array

An element `x` of the block sits at `block index × block extent + x` on each axis, which is `x`; stated first for an
arbitrary array `A` of the window's shape, then at the array the launch finds. -/

theorem blk1_read (A : S64x8.Idx → Elt F .bf16) (t : Fin cfg0.N) : ((cfg0.win 1).blk t).view.read (Elt F) A = A := by
  funext x
  rw [View.read_apply]
  refine congrArg A ?_
  funext a; apply Fin.ext
  match a with
    | ⟨0, _⟩ => show win0_1.index t (0 : Fin 2) * 64 + 1 * (x 0).val = (x 0).val; rw [(idxw1 t).1]; omega
    | ⟨1, _⟩ => show win0_1.index t (1 : Fin 2) * 8 + 1 * (x 1).val = (x 1).val; rw [(idxw1 t).2]; omega
theorem iblk1_eq (c : Dev nD) (t : Fin cfg0.N) : (iblk m c 1 t : Vec F S64x8 .bf16) = V m c main_v187 :=
  blk1_read (V m c main_v187) t
theorem blk2_read (A : S64.Idx → Elt F .f32) (t : Fin cfg0.N) : ((cfg0.win 2).blk t).view.read (Elt F) A = A := by
  funext x
  rw [View.read_apply]
  refine congrArg A ?_
  funext a; apply Fin.ext
  match a with
    | ⟨0, _⟩ => show win0_2.index t (0 : Fin 1) * 64 + 1 * (x 0).val = (x 0).val; rw [idxw2 t]; omega
theorem iblk2_eq (c : Dev nD) (t : Fin cfg0.N) : (iblk m c 2 t : Vec F S64 .f32) = V m c main_arg3 :=
  blk2_read (V m c main_arg3) t
theorem blk3_read (A : S3x64.Idx → Elt F .f32) (t : Fin cfg0.N) : ((cfg0.win 3).blk t).view.read (Elt F) A = A := by
  funext x
  rw [View.read_apply]
  refine congrArg A ?_
  funext a; apply Fin.ext
  match a with
    | ⟨0, _⟩ => show win0_3.index t (0 : Fin 2) * 3 + 1 * (x 0).val = (x 0).val; rw [(idxw3 t).1]; omega
    | ⟨1, _⟩ => show win0_3.index t (1 : Fin 2) * 64 + 1 * (x 1).val = (x 1).val; rw [(idxw3 t).2]; omega
theorem iblk3_eq (c : Dev nD) (t : Fin cfg0.N) : (iblk m c 3 t : Vec F S3x64 .f32) = V m c main_v193 :=
  blk3_read (V m c main_v193) t
theorem blk4_read (A : S64x64.Idx → Elt F .bf16) (t : Fin cfg0.N) : ((cfg0.win 4).blk t).view.read (Elt F) A = A := by
  funext x
  rw [View.read_apply]
  refine congrArg A ?_
  funext a; apply Fin.ext
  match a with
    | ⟨0, _⟩ => show win0_4.index t (0 : Fin 2) * 64 + 1 * (x 0).val = (x 0).val; rw [(idxw4 t).1]; omega
    | ⟨1, _⟩ => show win0_4.index t (1 : Fin 2) * 64 + 1 * (x 1).val = (x 1).val; rw [(idxw4 t).2]; omega
theorem iblk4_eq (c : Dev nD) (t : Fin cfg0.N) : (iblk m c 4 t : Vec F S64x64 .bf16) = V m c main_v188 :=
  blk4_read (V m c main_v188) t
theorem blk5_read (A : S64.Idx → Elt F .f32) (t : Fin cfg0.N) : ((cfg0.win 5).blk t).view.read (Elt F) A = A := by
  funext x
  rw [View.read_apply]
  refine congrArg A ?_
  funext a; apply Fin.ext
  match a with
    | ⟨0, _⟩ => show win0_5.index t (0 : Fin 1) * 64 + 1 * (x 0).val = (x 0).val; rw [idxw5 t]; omega
theorem iblk5_eq (c : Dev nD) (t : Fin cfg0.N) : (iblk m c 5 t : Vec F S64 .f32) = V m c main_arg8 :=
  blk5_read (V m c main_arg8) t
theorem blk6_read (A : S3x64.Idx → Elt F .bf16) (t : Fin cfg0.N) : ((cfg0.win 6).blk t).view.read (Elt F) A = A := by
  funext x
  rw [View.read_apply]
  refine congrArg A ?_
  funext a; apply Fin.ext
  match a with
    | ⟨0, _⟩ => show win0_6.index t (0 : Fin 2) * 3 + 1 * (x 0).val = (x 0).val; rw [(idxw6 t).1]; omega
    | ⟨1, _⟩ => show win0_6.index t (1 : Fin 2) * 64 + 1 * (x 1).val = (x 1).val; rw [(idxw6 t).2]; omega
theorem iblk6_eq (c : Dev nD) (t : Fin cfg0.N) : (iblk m c 6 t : Vec F S3x64 .bf16) = V m c main_v189 :=
  blk6_read (V m c main_v189) t
theorem blk7_read (A : S3.Idx → Elt F .f32) (t : Fin cfg0.N) : ((cfg0.win 7).blk t).view.read (Elt F) A = A := by
  funext x
  rw [View.read_apply]
  refine congrArg A ?_
  funext a; apply Fin.ext
  match a with
    | ⟨0, _⟩ => show win0_7.index t (0 : Fin 1) * 3 + 1 * (x 0).val = (x 0).val; rw [idxw7 t]; omega
theorem iblk7_eq (c : Dev nD) (t : Fin cfg0.N) : (iblk m c 7 t : Vec F S3 .f32) = V m c main_arg12 :=
  blk7_read (V m c main_arg12) t
theorem blk8_read (A : S1.Idx → Elt F .f32) (t : Fin cfg0.N) : ((cfg0.win 8).blk t).view.read (Elt F) A = A := by
  funext x
  rw [View.read_apply]
  refine congrArg A ?_
  funext a; apply Fin.ext
  match a with
    | ⟨0, _⟩ => show win0_8.index t (0 : Fin 1) * 1 + 1 * (x 0).val = (x 0).val; rw [idxw8 t]; omega
theorem iblk8_eq (c : Dev nD) (t : Fin cfg0.N) : (iblk m c 8 t : Vec F S1 .f32) = V m c main_arg13 :=
  blk8_read (V m c main_arg13) t
theorem blk9_read (A : S64x64.Idx → Elt F .bf16) (t : Fin cfg0.N) : ((cfg0.win 9).blk t).view.read (Elt F) A = A := by
  funext x
  rw [View.read_apply]
  refine congrArg A ?_
  funext a; apply Fin.ext
  match a with
    | ⟨0, _⟩ => show win0_9.index t (0 : Fin 2) * 64 + 1 * (x 0).val = (x 0).val; rw [(idxw9 t).1]; omega
    | ⟨1, _⟩ => show win0_9.index t (1 : Fin 2) * 64 + 1 * (x 1).val = (x 1).val; rw [(idxw9 t).2]; omega
theorem iblk9_eq (c : Dev nD) (t : Fin cfg0.N) : (iblk m c 9 t : Vec F S64x64 .bf16) = V m c main_v3 :=
  blk9_read (V m c main_v3) t
theorem blk10_read (A : S64.Idx → Elt F .f32) (t : Fin cfg0.N) : ((cfg0.win 10).blk t).view.read (Elt F) A = A := by
  funext x
  rw [View.read_apply]
  refine congrArg A ?_
  funext a; apply Fin.ext
  match a with
    | ⟨0, _⟩ => show win0_10.index t (0 : Fin 1) * 64 + 1 * (x 0).val = (x 0).val; rw [idxw10 t]; omega
theorem iblk10_eq (c : Dev nD) (t : Fin cfg0.N) : (iblk m c 10 t : Vec F S64 .f32) = V m c main_v5 :=
  blk10_read (V m c main_v5) t
theorem blk11_read (A : S64x64.Idx → Elt F .bf16) (t : Fin cfg0.N) : ((cfg0.win 11).blk t).view.read (Elt F) A = A := by
  funext x
  rw [View.read_apply]
  refine congrArg A ?_
  funext a; apply Fin.ext
  match a with
    | ⟨0, _⟩ => show win0_11.index t (0 : Fin 2) * 64 + 1 * (x 0).val = (x 0).val; rw [(idxw11 t).1]; omega
    | ⟨1, _⟩ => show win0_11.index t (1 : Fin 2) * 64 + 1 * (x 1).val = (x 1).val; rw [(idxw11 t).2]; omega
theorem iblk11_eq (c : Dev nD) (t : Fin cfg0.N) : (iblk m c 11 t : Vec F S64x64 .bf16) = V m c main_v9 :=
  blk11_read (V m c main_v9) t
theorem blk12_read (A : S64.Idx → Elt F .f32) (t : Fin cfg0.N) : ((cfg0.win 12).blk t).view.read (Elt F) A = A := by
  funext x
  rw [View.read_apply]
  refine congrArg A ?_
  funext a; apply Fin.ext
  match a with
    | ⟨0, _⟩ => show win0_12.index t (0 : Fin 1) * 64 + 1 * (x 0).val = (x 0).val; rw [idxw12 t]; omega
theorem iblk12_eq (c : Dev nD) (t : Fin cfg0.N) : (iblk m c 12 t : Vec F S64 .f32) = V m c main_v11 :=
  blk12_read (V m c main_v11) t
theorem blk13_read (A : S128x256.Idx → Elt F .bf16) (t : Fin cfg0.N) : ((cfg0.win 13).blk t).view.read (Elt F) A = A := by
  funext x
  rw [View.read_apply]
  refine congrArg A ?_
  funext a; apply Fin.ext
  match a with
    | ⟨0, _⟩ => show win0_13.index t (0 : Fin 2) * 128 + 1 * (x 0).val = (x 0).val; rw [(idxw13 t).1]; omega
    | ⟨1, _⟩ => show win0_13.index t (1 : Fin 2) * 256 + 1 * (x 1).val = (x 1).val; rw [(idxw13 t).2]; omega
theorem iblk13_eq (c : Dev nD) (t : Fin cfg0.N) : (iblk m c 13 t : Vec F S128x256 .bf16) = V m c main_v33 :=
  blk13_read (V m c main_v33) t
theorem blk14_read (A : S256.Idx → Elt F .f32) (t : Fin cfg0.N) : ((cfg0.win 14).blk t).view.read (Elt F) A = A := by
  funext x
  rw [View.read_apply]
  refine congrArg A ?_
  funext a; apply Fin.ext
  match a with
    | ⟨0, _⟩ => show win0_14.index t (0 : Fin 1) * 256 + 1 * (x 0).val = (x 0).val; rw [idxw14 t]; omega
theorem iblk14_eq (c : Dev nD) (t : Fin cfg0.N) : (iblk m c 14 t : Vec F S256 .f32) = V m c main_v42 :=
  blk14_read (V m c main_v42) t
theorem blk15_read (A : S256x192.Idx → Elt F .bf16) (t : Fin cfg0.N) : ((cfg0.win 15).blk t).view.read (Elt F) A = A := by
  funext x
  rw [View.read_apply]
  refine congrArg A ?_
  funext a; apply Fin.ext
  match a with
    | ⟨0, _⟩ => show win0_15.index t (0 : Fin 2) * 256 + 1 * (x 0).val = (x 0).val; rw [(idxw15 t).1]; omega
    | ⟨1, _⟩ => show win0_15.index t (1 : Fin 2) * 192 + 1 * (x 1).val = (x 1).val; rw [(idxw15 t).2]; omega
theorem iblk15_eq (c : Dev nD) (t : Fin cfg0.N) : (iblk m c 15 t : Vec F S256x192 .bf16) = V m c main_v70 :=
  blk15_read (V m c main_v70) t
theorem blk16_read (A : S192.Idx → Elt F .f32) (t : Fin cfg0.N) : ((cfg0.win 16).blk t).view.read (Elt F) A = A := by
  funext x
  rw [View.read_apply]
  refine congrArg A ?_
  funext a; apply Fin.ext
  match a with
    | ⟨0, _⟩ => show win0_16.index t (0 : Fin 1) * 192 + 1 * (x 0).val = (x 0).val; rw [idxw16 t]; omega
theorem iblk16_eq (c : Dev nD) (t : Fin cfg0.N) : (iblk m c 16 t : Vec F S192 .f32) = V m c main_v77 :=
  blk16_read (V m c main_v77) t
theorem blk17_read (A : S384x128.Idx → Elt F .bf16) (t : Fin cfg0.N) : ((cfg0.win 17).blk t).view.read (Elt F) A = A := by
  funext x
  rw [View.read_apply]
  refine congrArg A ?_
  funext a; apply Fin.ext
  match a with
    | ⟨0, _⟩ => show win0_17.index t (0 : Fin 2) * 384 + 1 * (x 0).val = (x 0).val; rw [(idxw17 t).1]; omega
    | ⟨1, _⟩ => show win0_17.index t (1 : Fin 2) * 128 + 1 * (x 1).val = (x 1).val; rw [(idxw17 t).2]; omega
theorem iblk17_eq (c : Dev nD) (t : Fin cfg0.N) : (iblk m c 17 t : Vec F S384x128 .bf16) = V m c main_v111 :=
  blk17_read (V m c main_v111) t
theorem blk18_read (A : S128.Idx → Elt F .f32) (t : Fin cfg0.N) : ((cfg0.win 18).blk t).view.read (Elt F) A = A := by
  funext x
  rw [View.read_apply]
  refine congrArg A ?_
  funext a; apply Fin.ext
  match a with
    | ⟨0, _⟩ => show win0_18.index t (0 : Fin 1) * 128 + 1 * (x 0).val = (x 0).val; rw [idxw18 t]; omega
theorem iblk18_eq (c : Dev nD) (t : Fin cfg0.N) : (iblk m c 18 t : Vec F S128 .f32) = V m c main_v116 :=
  blk18_read (V m c main_v116) t
theorem blk19_read (A : S256x128.Idx → Elt F .bf16) (t : Fin cfg0.N) : ((cfg0.win 19).blk t).view.read (Elt F) A = A := by
  funext x
  rw [View.read_apply]
  refine congrArg A ?_
  funext a; apply Fin.ext
  match a with
    | ⟨0, _⟩ => show win0_19.index t (0 : Fin 2) * 256 + 1 * (x 0).val = (x 0).val; rw [(idxw19 t).1]; omega
    | ⟨1, _⟩ => show win0_19.index t (1 : Fin 2) * 128 + 1 * (x 1).val = (x 1).val; rw [(idxw19 t).2]; omega
theorem iblk19_eq (c : Dev nD) (t : Fin cfg0.N) : (iblk m c 19 t : Vec F S256x128 .bf16) = V m c main_v140 :=
  blk19_read (V m c main_v140) t
theorem blk20_read (A : S128.Idx → Elt F .f32) (t : Fin cfg0.N) : ((cfg0.win 20).blk t).view.read (Elt F) A = A := by
  funext x
  rw [View.read_apply]
  refine congrArg A ?_
  funext a; apply Fin.ext
  match a with
    | ⟨0, _⟩ => show win0_20.index t (0 : Fin 1) * 128 + 1 * (x 0).val = (x 0).val; rw [idxw20 t]; omega
theorem iblk20_eq (c : Dev nD) (t : Fin cfg0.N) : (iblk m c 20 t : Vec F S128 .f32) = V m c main_v145 :=
  blk20_read (V m c main_v145) t
theorem blk21_read (A : S256x64.Idx → Elt F .bf16) (t : Fin cfg0.N) : ((cfg0.win 21).blk t).view.read (Elt F) A = A := by
  funext x
  rw [View.read_apply]
  refine congrArg A ?_
  funext a; apply Fin.ext
  match a with
    | ⟨0, _⟩ => show win0_21.index t (0 : Fin 2) * 256 + 1 * (x 0).val = (x 0).val; rw [(idxw21 t).1]; omega
    | ⟨1, _⟩ => show win0_21.index t (1 : Fin 2) * 64 + 1 * (x 1).val = (x 1).val; rw [(idxw21 t).2]; omega
theorem iblk21_eq (c : Dev nD) (t : Fin cfg0.N) : (iblk m c 21 t : Vec F S256x64 .bf16) = V m c main_v159 :=
  blk21_read (V m c main_v159) t
theorem blk22_read (A : S64.Idx → Elt F .f32) (t : Fin cfg0.N) : ((cfg0.win 22).blk t).view.read (Elt F) A = A := by
  funext x
  rw [View.read_apply]
  refine congrArg A ?_
  funext a; apply Fin.ext
  match a with
    | ⟨0, _⟩ => show win0_22.index t (0 : Fin 1) * 64 + 1 * (x 0).val = (x 0).val; rw [idxw22 t]; omega
theorem iblk22_eq (c : Dev nD) (t : Fin cfg0.N) : (iblk m c 22 t : Vec F S64 .f32) = V m c main_v161 :=
  blk22_read (V m c main_v161) t
theorem blk23_read (A : S192x64.Idx → Elt F .bf16) (t : Fin cfg0.N) : ((cfg0.win 23).blk t).view.read (Elt F) A = A := by
  funext x
  rw [View.read_apply]
  refine congrArg A ?_
  funext a; apply Fin.ext
  match a with
    | ⟨0, _⟩ => show win0_23.index t (0 : Fin 2) * 192 + 1 * (x 0).val = (x 0).val; rw [(idxw23 t).1]; omega
    | ⟨1, _⟩ => show win0_23.index t (1 : Fin 2) * 64 + 1 * (x 1).val = (x 1).val; rw [(idxw23 t).2]; omega
theorem iblk23_eq (c : Dev nD) (t : Fin cfg0.N) : (iblk m c 23 t : Vec F S192x64 .bf16) = V m c main_v172 :=
  blk23_read (V m c main_v172) t
theorem blk24_read (A : S64.Idx → Elt F .f32) (t : Fin cfg0.N) : ((cfg0.win 24).blk t).view.read (Elt F) A = A := by
  funext x
  rw [View.read_apply]
  refine congrArg A ?_
  funext a; apply Fin.ext
  match a with
    | ⟨0, _⟩ => show win0_24.index t (0 : Fin 1) * 64 + 1 * (x 0).val = (x 0).val; rw [idxw24 t]; omega
theorem iblk24_eq (c : Dev nD) (t : Fin cfg0.N) : (iblk m c 24 t : Vec F S64 .f32) = V m c main_v174 :=
  blk24_read (V m c main_v174) t
theorem blk25_read (A : S128x64.Idx → Elt F .bf16) (t : Fin cfg0.N) : ((cfg0.win 25).blk t).view.read (Elt F) A = A := by
  funext x
  rw [View.read_apply]
  refine congrArg A ?_
  funext a; apply Fin.ext
  match a with
    | ⟨0, _⟩ => show win0_25.index t (0 : Fin 2) * 128 + 1 * (x 0).val = (x 0).val; rw [(idxw25 t).1]; omega
    | ⟨1, _⟩ => show win0_25.index t (1 : Fin 2) * 64 + 1 * (x 1).val = (x 1).val; rw [(idxw25 t).2]; omega
theorem iblk25_eq (c : Dev nD) (t : Fin cfg0.N) : (iblk m c 25 t : Vec F S128x64 .bf16) = V m c main_v182 :=
  blk25_read (V m c main_v182) t
theorem blk26_read (A : S64.Idx → Elt F .f32) (t : Fin cfg0.N) : ((cfg0.win 26).blk t).view.read (Elt F) A = A := by
  funext x
  rw [View.read_apply]
  refine congrArg A ?_
  funext a; apply Fin.ext
  match a with
    | ⟨0, _⟩ => show win0_26.index t (0 : Fin 1) * 64 + 1 * (x 0).val = (x 0).val; rw [idxw26 t]; omega
theorem iblk26_eq (c : Dev nD) (t : Fin cfg0.N) : (iblk m c 26 t : Vec F S64 .f32) = V m c main_v184 :=
  blk26_read (V m c main_v184) t

/-! ## Window 0: the block is 2048 consecutive rows -/

/-- Element `(p, q)` of window 0's block at point `t` of any (131072, 11) array is its element `(2048 t + p, q)`. -/
theorem blk0_read (A : S131072x11.Idx → Elt F .f32) (t : Fin cfg0.N) (p : Fin 2048) (q : Fin 11) (r : Fin 131072)
    (hr : r.val = 2048 * t.val + p.val) :
    ((cfg0.win 0).blk t).view.read (Elt F) A (ix2 p q) = A (ix2 r q) := by
  rw [View.read_apply]
  refine congrArg A ?_
  funext a; apply Fin.ext
  match a with
  | ⟨0, _⟩ => show win0_0.index t (0 : Fin 2) * 2048 + 1 * p.val = r.val; rw [(idxw0 t).1, hr]; omega
  | ⟨1, _⟩ => show win0_0.index t (1 : Fin 2) * 11 + 1 * q.val = q.val; rw [(idxw0 t).2]; omega

/-- So window 0's block at point `t` is rows `2048 t … 2048 t + 2047` of the row array the launch finds. -/
theorem iblk0_rows (c : Dev nD) (t : Fin cfg0.N) (p : Fin 2048) (q : Fin 11) (r : Fin 131072) (hr : r.val = 2048 * t.val + p.val) :
    (iblk m c 0 t : Vec F S2048x11 .f32) (ix2 p q) = (V m c main_v186 : S131072x11.Idx → Elt F .f32) (ix2 r q) :=
  blk0_read (V m c main_v186) t p q r hr

end Cert.KernelIdeal.Hand

end
-- ==== Proof.KWinHostLib.lean ====
/- Cutting @main's line of host operations of `KernelIdeal` at one array's own run of operations.

   What a buffer holds after a line of operations depends only on the last operation that writes it and on what
   that operation reads. The 212 host operations here are 23 consecutive runs, each building one staged array from
   argument arrays alone. So the array's contents after the whole line are its run's result on the contents the
   operations before the run leave (no later operation writes it), and those agree with the launch contents on the
   arguments (no operation writes an argument at all). -/
import proofs.«166257_j42623255446007_2_alg».proof.Proof.KFrameMain

set_option maxRecDepth 16384

noncomputable section

namespace Cert.KernelIdeal.Hand

open Idealize.ShloMosaic Idealize.ShloMosaic.TcCoe Idealize.SL.Sem
open Cert.KernelIdeal Cert.KernelIdeal.Gen

section Lists

variable {nD : Nat} {τ : Topo} {sig : RefSig} {Val : EltTy → Type}

/-- A list is its first `a` entries, then the next `n`, then the rest. -/
theorem split3 {α : Type} (l : List α) (a n : ℕ) : l = l.take a ++ ((l.drop a).take n ++ (l.drop a).drop n) := by
  rw [List.take_append_drop, List.take_append_drop]

/-- A buffer that no operation after the first `a + n` writes holds, after the whole line, what it holds after the
    first `a + n`: the middle run's result on whatever the first `a` operations left. -/
theorem after_window (ops : List (HloOp τ sig Val)) (a n : ℕ) (V0 : Valuation τ sig Val) (y : DevRef τ sig)
    (hpost : ∀ op ∈ (ops.drop a).drop n, y ∉ op.writes) :
    StableHlo.after ops V0 y = StableHlo.after ((ops.drop a).take n) (StableHlo.after (ops.take a) V0) y := by
  conv_lhs => rw [split3 ops a n]
  rw [StableHlo.after_append, StableHlo.after_append, StableHlo.after_of_forall_not_mem _ _ hpost]

/-- A buffer no operation of the line writes is as launched after any first part of it. -/
theorem after_take_kept (ops : List (HloOp τ sig Val)) (a : ℕ) (V0 : Valuation τ sig Val) (b : DevRef τ sig)
    (h : ∀ op ∈ ops, b ∉ op.writes) : StableHlo.after (ops.take a) V0 b = V0 b :=
  StableHlo.after_of_forall_not_mem _ _ fun op hop => h op (List.mem_of_mem_take hop)

variable {x a b c d e y : Ref sig .tc}

/-- A three-operand operation's result at its own buffer, each operand's contents at its own reference. -/
theorem nary3_result'
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- A six-operand operation's result at its own buffer, each operand's contents at its own reference. -/
theorem nary6_result'
    (f : ((k : Fin 6) → ((![x, a, b, c, d, e] : Fin 6 → Ref sig .tc) k).ty.Contents Val) → y.ty.Contents Val) (hxs hy)
    (F : Valuation τ sig Val) :
    (StableHlo.nary (τ := τ) ![x, a, b, c, d, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (Fin.cons (F (Proc.devRef .tc e)) (fun i => i.elim0))))))) := by
  rw [StableHlo.nary_result]; congr 1; funext k; fin_cases k <;> rfl

end Lists

variable {F : FTy → Type} [FloatOps F]

/-- No host operation writes `main_arg0`. -/
theorem kept_main_arg0 : ∀ op ∈ (hostOps0 : List (HloOp τ sig (Elt F))), Proc.devRef .tc main_arg0 ∉ op.writes :=
  List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))
/-- No host operation writes `main_arg1`. -/
theorem kept_main_arg1 : ∀ op ∈ (hostOps0 : List (HloOp τ sig (Elt F))), Proc.devRef .tc main_arg1 ∉ op.writes :=
  List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))
/-- No host operation writes `main_arg2`. -/
theorem kept_main_arg2 : ∀ op ∈ (hostOps0 : List (HloOp τ sig (Elt F))), Proc.devRef .tc main_arg2 ∉ op.writes :=
  List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))
/-- No host operation writes `main_arg4`. -/
theorem kept_main_arg4 : ∀ op ∈ (hostOps0 : List (HloOp τ sig (Elt F))), Proc.devRef .tc main_arg4 ∉ op.writes :=
  List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))
/-- No host operation writes `main_arg5`. -/
theorem kept_main_arg5 : ∀ op ∈ (hostOps0 : List (HloOp τ sig (Elt F))), Proc.devRef .tc main_arg5 ∉ op.writes :=
  List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))
/-- No host operation writes `main_arg6`. -/
theorem kept_main_arg6 : ∀ op ∈ (hostOps0 : List (HloOp τ sig (Elt F))), Proc.devRef .tc main_arg6 ∉ op.writes :=
  List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))
/-- No host operation writes `main_arg7`. -/
theorem kept_main_arg7 : ∀ op ∈ (hostOps0 : List (HloOp τ sig (Elt F))), Proc.devRef .tc main_arg7 ∉ op.writes :=
  List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))
/-- No host operation writes `main_arg9`. -/
theorem kept_main_arg9 : ∀ op ∈ (hostOps0 : List (HloOp τ sig (Elt F))), Proc.devRef .tc main_arg9 ∉ op.writes :=
  List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))
/-- No host operation writes `main_arg10`. -/
theorem kept_main_arg10 : ∀ op ∈ (hostOps0 : List (HloOp τ sig (Elt F))), Proc.devRef .tc main_arg10 ∉ op.writes :=
  List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))
/-- No host operation writes `main_arg11`. -/
theorem kept_main_arg11 : ∀ op ∈ (hostOps0 : List (HloOp τ sig (Elt F))), Proc.devRef .tc main_arg11 ∉ op.writes :=
  List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))

end Cert.KernelIdeal.Hand

end
-- ==== Proof.KWinTerms.lean ====
/- What the host operations of `KernelIdeal`'s @main build before the launch, as functions of the argument arrays.

   The 212 host operations fall into 23 consecutive runs, one per array the launch stages that is not itself an
   argument; each run reads argument arrays only and ends in its array. Read off the operations in order:
   a graph node's weight `gW[j]` is cut out of the stack, its unit axis dropped, and transposed; a level's fused
   matrix is those transposes and zero blocks set side by side (along the columns) and the rows of blocks stacked,
   then rounded to bf16; a level's bias is its nodes' biases `gB[j]` end to end; the three coordinate weights are
   transposed to rows and stacked; the row array is the coordinates (unit axis dropped) beside the latents. -/
import proofs.«166257_j42623255446007_2_alg».proof.Proof.Gen.KernelIdeal

noncomputable section

namespace Cert.KernelIdeal.Hand.Host

open Idealize.ShloMosaic Idealize.SL.Sem
open Cert.KernelIdeal Cert.KernelIdeal.Gen

variable {F : FTy → Type} [FloatOps F]

/-- The array window 9 stages (`main_v3`), as the host operations that build it compute it from the argument array `main_arg9`. -/
def T3 (a9 : Vec F S16x64x64 .f32) : Vec F S64x64 .bf16 :=
  (truncf .bf16 (transpose S64x64 [1, 0] (shapeCast S64x64 (extractStridedSlice S1x64x64 ![0, 0, 0] a9 slices_S16x64x64_S1x64x64_0_0_0) shapeCasts_S1x64x64_S64x64) transposes_S64x64_S64x64_1_0) bitsLt_bf16_f32)

/-- The array window 10 stages (`main_v5`), as the host operations that build it compute it from the argument array `main_arg10`. -/
def T5 (a10 : Vec F S16x64 .f32) : Vec F S64 .f32 :=
  (shapeCast S64 (extractStridedSlice S1x64 ![0, 0] a10 slices_S16x64_S1x64_0_0) shapeCasts_S1x64_S64)

/-- The array window 11 stages (`main_v9`), as the host operations that build it compute it from the argument array `main_arg9`. -/
def T9 (a9 : Vec F S16x64x64 .f32) : Vec F S64x64 .bf16 :=
  (truncf .bf16 (transpose S64x64 [1, 0] (shapeCast S64x64 (extractStridedSlice S1x64x64 ![1, 0, 0] a9 slices_S16x64x64_S1x64x64_1_0_0) shapeCasts_S1x64x64_S64x64) transposes_S64x64_S64x64_1_0) bitsLt_bf16_f32)

/-- The array window 12 stages (`main_v11`), as the host operations that build it compute it from the argument array `main_arg10`. -/
def T11 (a10 : Vec F S16x64 .f32) : Vec F S64 .f32 :=
  (shapeCast S64 (extractStridedSlice S1x64 ![1, 0] a10 slices_S16x64_S1x64_1_0) shapeCasts_S1x64_S64)

/-- The array window 13 stages (`main_v33`), as the host operations that build it compute it from the argument array `main_arg9`. -/
def T33 (a9 : Vec F S16x64x64 .f32) : Vec F S128x256 .bf16 :=
  (truncf .bf16 (concatenate S128x256 0 [⟨S64x256, (concatenate S64x256 1 [⟨S64x64, (transpose S64x64 [1, 0] (shapeCast S64x64 (extractStridedSlice S1x64x64 ![2, 0, 0] a9 slices_S16x64x64_S1x64x64_2_0_0) shapeCasts_S1x64x64_S64x64) transposes_S64x64_S64x64_1_0)⟩, ⟨S64x64, (broadcastInDim S64x64 ![] bcast_S_S64x64 (constant (F := F) S_ .f32 0x00000000#32))⟩, ⟨S64x64, (broadcastInDim S64x64 ![] bcast_S_S64x64 (constant (F := F) S_ .f32 0x00000000#32))⟩, ⟨S64x64, (broadcastInDim S64x64 ![] bcast_S_S64x64 (constant (F := F) S_ .f32 0x00000000#32))⟩] concatenates_S64x64_S64x64_S64x64_S64x64_S64x256_d1)⟩, ⟨S64x256, (concatenate S64x256 1 [⟨S64x64, (transpose S64x64 [1, 0] (shapeCast S64x64 (extractStridedSlice S1x64x64 ![2, 0, 0] a9 slices_S16x64x64_S1x64x64_2_0_0) shapeCasts_S1x64x64_S64x64) transposes_S64x64_S64x64_1_0)⟩, ⟨S64x64, (transpose S64x64 [1, 0] (shapeCast S64x64 (extractStridedSlice S1x64x64 ![3, 0, 0] a9 slices_S16x64x64_S1x64x64_3_0_0) shapeCasts_S1x64x64_S64x64) transposes_S64x64_S64x64_1_0)⟩, ⟨S64x64, (transpose S64x64 [1, 0] (shapeCast S64x64 (extractStridedSlice S1x64x64 ![4, 0, 0] a9 slices_S16x64x64_S1x64x64_4_0_0) shapeCasts_S1x64x64_S64x64) transposes_S64x64_S64x64_1_0)⟩, ⟨S64x64, (transpose S64x64 [1, 0] (shapeCast S64x64 (extractStridedSlice S1x64x64 ![7, 0, 0] a9 slices_S16x64x64_S1x64x64_7_0_0) shapeCasts_S1x64x64_S64x64) transposes_S64x64_S64x64_1_0)⟩] concatenates_S64x64_S64x64_S64x64_S64x64_S64x256_d1)⟩] concatenates_S64x256_S64x256_S128x256_d0) bitsLt_bf16_f32)

/-- The array window 14 stages (`main_v42`), as the host operations that build it compute it from the argument array `main_arg10`. -/
def T42 (a10 : Vec F S16x64 .f32) : Vec F S256 .f32 :=
  (concatenate S256 0 [⟨S64, (shapeCast S64 (extractStridedSlice S1x64 ![2, 0] a10 slices_S16x64_S1x64_2_0) shapeCasts_S1x64_S64)⟩, ⟨S64, (shapeCast S64 (extractStridedSlice S1x64 ![3, 0] a10 slices_S16x64_S1x64_3_0) shapeCasts_S1x64_S64)⟩, ⟨S64, (shapeCast S64 (extractStridedSlice S1x64 ![4, 0] a10 slices_S16x64_S1x64_4_0) shapeCasts_S1x64_S64)⟩, ⟨S64, (shapeCast S64 (extractStridedSlice S1x64 ![7, 0] a10 slices_S16x64_S1x64_7_0) shapeCasts_S1x64_S64)⟩] concatenates_S64_S64_S64_S64_S256_d0)

/-- The array window 15 stages (`main_v70`), as the host operations that build it compute it from the argument array `main_arg9`. -/
def T70 (a9 : Vec F S16x64x64 .f32) : Vec F S256x192 .bf16 :=
  (truncf .bf16 (concatenate S256x192 0 [⟨S64x192, (concatenate S64x192 1 [⟨S64x64, (transpose S64x64 [1, 0] (shapeCast S64x64 (extractStridedSlice S1x64x64 ![5, 0, 0] a9 slices_S16x64x64_S1x64x64_5_0_0) shapeCasts_S1x64x64_S64x64) transposes_S64x64_S64x64_1_0)⟩, ⟨S64x64, (broadcastInDim S64x64 ![] bcast_S_S64x64 (constant (F := F) S_ .f32 0x00000000#32))⟩, ⟨S64x64, (broadcastInDim S64x64 ![] bcast_S_S64x64 (constant (F := F) S_ .f32 0x00000000#32))⟩] concatenates_S64x64_S64x64_S64x64_S64x192_d1)⟩, ⟨S64x192, (concatenate S64x192 1 [⟨S64x64, (broadcastInDim S64x64 ![] bcast_S_S64x64 (constant (F := F) S_ .f32 0x00000000#32))⟩, ⟨S64x64, (broadcastInDim S64x64 ![] bcast_S_S64x64 (constant (F := F) S_ .f32 0x00000000#32))⟩, ⟨S64x64, (transpose S64x64 [1, 0] (shapeCast S64x64 (extractStridedSlice S1x64x64 ![12, 0, 0] a9 slices_S16x64x64_S1x64x64_12_0_0) shapeCasts_S1x64x64_S64x64) transposes_S64x64_S64x64_1_0)⟩] concatenates_S64x64_S64x64_S64x64_S64x192_d1)⟩, ⟨S64x192, (concatenate S64x192 1 [⟨S64x64, (broadcastInDim S64x64 ![] bcast_S_S64x64 (constant (F := F) S_ .f32 0x00000000#32))⟩, ⟨S64x64, (broadcastInDim S64x64 ![] bcast_S_S64x64 (constant (F := F) S_ .f32 0x00000000#32))⟩, ⟨S64x64, (transpose S64x64 [1, 0] (shapeCast S64x64 (extractStridedSlice S1x64x64 ![12, 0, 0] a9 slices_S16x64x64_S1x64x64_12_0_0) shapeCasts_S1x64x64_S64x64) transposes_S64x64_S64x64_1_0)⟩] concatenates_S64x64_S64x64_S64x64_S64x192_d1)⟩, ⟨S64x192, (concatenate S64x192 1 [⟨S64x64, (transpose S64x64 [1, 0] (shapeCast S64x64 (extractStridedSlice S1x64x64 ![5, 0, 0] a9 slices_S16x64x64_S1x64x64_5_0_0) shapeCasts_S1x64x64_S64x64) transposes_S64x64_S64x64_1_0)⟩, ⟨S64x64, (transpose S64x64 [1, 0] (shapeCast S64x64 (extractStridedSlice S1x64x64 ![11, 0, 0] a9 slices_S16x64x64_S1x64x64_11_0_0) shapeCasts_S1x64x64_S64x64) transposes_S64x64_S64x64_1_0)⟩, ⟨S64x64, (broadcastInDim S64x64 ![] bcast_S_S64x64 (constant (F := F) S_ .f32 0x00000000#32))⟩] concatenates_S64x64_S64x64_S64x64_S64x192_d1)⟩] concatenates_S64x192_S64x192_S64x192_S64x192_S256x192_d0) bitsLt_bf16_f32)

/-- The array window 16 stages (`main_v77`), as the host operations that build it compute it from the argument array `main_arg10`. -/
def T77 (a10 : Vec F S16x64 .f32) : Vec F S192 .f32 :=
  (concatenate S192 0 [⟨S64, (shapeCast S64 (extractStridedSlice S1x64 ![5, 0] a10 slices_S16x64_S1x64_5_0) shapeCasts_S1x64_S64)⟩, ⟨S64, (shapeCast S64 (extractStridedSlice S1x64 ![11, 0] a10 slices_S16x64_S1x64_11_0) shapeCasts_S1x64_S64)⟩, ⟨S64, (shapeCast S64 (extractStridedSlice S1x64 ![12, 0] a10 slices_S16x64_S1x64_12_0) shapeCasts_S1x64_S64)⟩] concatenates_S64_S64_S64_S192_d0)

/-- The array window 17 stages (`main_v111`), as the host operations that build it compute it from the argument array `main_arg9`. -/
def T111 (a9 : Vec F S16x64x64 .f32) : Vec F S384x128 .bf16 :=
  (truncf .bf16 (concatenate S384x128 0 [⟨S64x128, (concatenate S64x128 1 [⟨S64x64, (transpose S64x64 [1, 0] (shapeCast S64x64 (extractStridedSlice S1x64x64 ![6, 0, 0] a9 slices_S16x64x64_S1x64x64_6_0_0) shapeCasts_S1x64x64_S64x64) transposes_S64x64_S64x64_1_0)⟩, ⟨S64x64, (transpose S64x64 [1, 0] (shapeCast S64x64 (extractStridedSlice S1x64x64 ![14, 0, 0] a9 slices_S16x64x64_S1x64x64_14_0_0) shapeCasts_S1x64x64_S64x64) transposes_S64x64_S64x64_1_0)⟩] concatenates_S64x64_S64x64_S64x128_d1)⟩, ⟨S64x128, (concatenate S64x128 1 [⟨S64x64, (broadcastInDim S64x64 ![] bcast_S_S64x64 (constant (F := F) S_ .f32 0x00000000#32))⟩, ⟨S64x64, (transpose S64x64 [1, 0] (shapeCast S64x64 (extractStridedSlice S1x64x64 ![14, 0, 0] a9 slices_S16x64x64_S1x64x64_14_0_0) shapeCasts_S1x64x64_S64x64) transposes_S64x64_S64x64_1_0)⟩] concatenates_S64x64_S64x64_S64x128_d1)⟩, ⟨S64x128, (concatenate S64x128 1 [⟨S64x64, (transpose S64x64 [1, 0] (shapeCast S64x64 (extractStridedSlice S1x64x64 ![6, 0, 0] a9 slices_S16x64x64_S1x64x64_6_0_0) shapeCasts_S1x64x64_S64x64) transposes_S64x64_S64x64_1_0)⟩, ⟨S64x64, (broadcastInDim S64x64 ![] bcast_S_S64x64 (constant (F := F) S_ .f32 0x00000000#32))⟩] concatenates_S64x64_S64x64_S64x128_d1)⟩, ⟨S64x128, (concatenate S64x128 1 [⟨S64x64, (transpose S64x64 [1, 0] (shapeCast S64x64 (extractStridedSlice S1x64x64 ![6, 0, 0] a9 slices_S16x64x64_S1x64x64_6_0_0) shapeCasts_S1x64x64_S64x64) transposes_S64x64_S64x64_1_0)⟩, ⟨S64x64, (broadcastInDim S64x64 ![] bcast_S_S64x64 (constant (F := F) S_ .f32 0x00000000#32))⟩] concatenates_S64x64_S64x64_S64x128_d1)⟩, ⟨S64x128, (concatenate S64x128 1 [⟨S64x64, (transpose S64x64 [1, 0] (shapeCast S64x64 (extractStridedSlice S1x64x64 ![6, 0, 0] a9 slices_S16x64x64_S1x64x64_6_0_0) shapeCasts_S1x64x64_S64x64) transposes_S64x64_S64x64_1_0)⟩, ⟨S64x64, (broadcastInDim S64x64 ![] bcast_S_S64x64 (constant (F := F) S_ .f32 0x00000000#32))⟩] concatenates_S64x64_S64x64_S64x128_d1)⟩, ⟨S64x128, (concatenate S64x128 1 [⟨S64x64, (broadcastInDim S64x64 ![] bcast_S_S64x64 (constant (F := F) S_ .f32 0x00000000#32))⟩, ⟨S64x64, (transpose S64x64 [1, 0] (shapeCast S64x64 (extractStridedSlice S1x64x64 ![14, 0, 0] a9 slices_S16x64x64_S1x64x64_14_0_0) shapeCasts_S1x64x64_S64x64) transposes_S64x64_S64x64_1_0)⟩] concatenates_S64x64_S64x64_S64x128_d1)⟩] concatenates_S64x128_S64x128_S64x128_S64x128_S64x128_S64x128_S384x128_d0) bitsLt_bf16_f32)

/-- The array window 18 stages (`main_v116`), as the host operations that build it compute it from the argument array `main_arg10`. -/
def T116 (a10 : Vec F S16x64 .f32) : Vec F S128 .f32 :=
  (concatenate S128 0 [⟨S64, (shapeCast S64 (extractStridedSlice S1x64 ![6, 0] a10 slices_S16x64_S1x64_6_0) shapeCasts_S1x64_S64)⟩, ⟨S64, (shapeCast S64 (extractStridedSlice S1x64 ![14, 0] a10 slices_S16x64_S1x64_14_0) shapeCasts_S1x64_S64)⟩] concatenates_S64_S64_S128_d0)

/-- The array window 19 stages (`main_v140`), as the host operations that build it compute it from the argument array `main_arg9`. -/
def T140 (a9 : Vec F S16x64x64 .f32) : Vec F S256x128 .bf16 :=
  (truncf .bf16 (concatenate S256x128 0 [⟨S64x128, (concatenate S64x128 1 [⟨S64x64, (broadcastInDim S64x64 ![] bcast_S_S64x64 (constant (F := F) S_ .f32 0x00000000#32))⟩, ⟨S64x64, (transpose S64x64 [1, 0] (shapeCast S64x64 (extractStridedSlice S1x64x64 ![13, 0, 0] a9 slices_S16x64x64_S1x64x64_13_0_0) shapeCasts_S1x64x64_S64x64) transposes_S64x64_S64x64_1_0)⟩] concatenates_S64x64_S64x64_S64x128_d1)⟩, ⟨S64x128, (concatenate S64x128 1 [⟨S64x64, (transpose S64x64 [1, 0] (shapeCast S64x64 (extractStridedSlice S1x64x64 ![8, 0, 0] a9 slices_S16x64x64_S1x64x64_8_0_0) shapeCasts_S1x64x64_S64x64) transposes_S64x64_S64x64_1_0)⟩, ⟨S64x64, (transpose S64x64 [1, 0] (shapeCast S64x64 (extractStridedSlice S1x64x64 ![13, 0, 0] a9 slices_S16x64x64_S1x64x64_13_0_0) shapeCasts_S1x64x64_S64x64) transposes_S64x64_S64x64_1_0)⟩] concatenates_S64x64_S64x64_S64x128_d1)⟩, ⟨S64x128, (concatenate S64x128 1 [⟨S64x64, (transpose S64x64 [1, 0] (shapeCast S64x64 (extractStridedSlice S1x64x64 ![8, 0, 0] a9 slices_S16x64x64_S1x64x64_8_0_0) shapeCasts_S1x64x64_S64x64) transposes_S64x64_S64x64_1_0)⟩, ⟨S64x64, (broadcastInDim S64x64 ![] bcast_S_S64x64 (constant (F := F) S_ .f32 0x00000000#32))⟩] concatenates_S64x64_S64x64_S64x128_d1)⟩, ⟨S64x128, (concatenate S64x128 1 [⟨S64x64, (broadcastInDim S64x64 ![] bcast_S_S64x64 (constant (F := F) S_ .f32 0x00000000#32))⟩, ⟨S64x64, (transpose S64x64 [1, 0] (shapeCast S64x64 (extractStridedSlice S1x64x64 ![13, 0, 0] a9 slices_S16x64x64_S1x64x64_13_0_0) shapeCasts_S1x64x64_S64x64) transposes_S64x64_S64x64_1_0)⟩] concatenates_S64x64_S64x64_S64x128_d1)⟩] concatenates_S64x128_S64x128_S64x128_S64x128_S256x128_d0) bitsLt_bf16_f32)

/-- The array window 20 stages (`main_v145`), as the host operations that build it compute it from the argument array `main_arg10`. -/
def T145 (a10 : Vec F S16x64 .f32) : Vec F S128 .f32 :=
  (concatenate S128 0 [⟨S64, (shapeCast S64 (extractStridedSlice S1x64 ![8, 0] a10 slices_S16x64_S1x64_8_0) shapeCasts_S1x64_S64)⟩, ⟨S64, (shapeCast S64 (extractStridedSlice S1x64 ![13, 0] a10 slices_S16x64_S1x64_13_0) shapeCasts_S1x64_S64)⟩] concatenates_S64_S64_S128_d0)

/-- The array window 21 stages (`main_v159`), as the host operations that build it compute it from the argument array `main_arg9`. -/
def T159 (a9 : Vec F S16x64x64 .f32) : Vec F S256x64 .bf16 :=
  (truncf .bf16 (concatenate S256x64 0 [⟨S64x64, (transpose S64x64 [1, 0] (shapeCast S64x64 (extractStridedSlice S1x64x64 ![9, 0, 0] a9 slices_S16x64x64_S1x64x64_9_0_0) shapeCasts_S1x64x64_S64x64) transposes_S64x64_S64x64_1_0)⟩, ⟨S64x64, (transpose S64x64 [1, 0] (shapeCast S64x64 (extractStridedSlice S1x64x64 ![9, 0, 0] a9 slices_S16x64x64_S1x64x64_9_0_0) shapeCasts_S1x64x64_S64x64) transposes_S64x64_S64x64_1_0)⟩, ⟨S64x64, (transpose S64x64 [1, 0] (shapeCast S64x64 (extractStridedSlice S1x64x64 ![9, 0, 0] a9 slices_S16x64x64_S1x64x64_9_0_0) shapeCasts_S1x64x64_S64x64) transposes_S64x64_S64x64_1_0)⟩, ⟨S64x64, (transpose S64x64 [1, 0] (shapeCast S64x64 (extractStridedSlice S1x64x64 ![9, 0, 0] a9 slices_S16x64x64_S1x64x64_9_0_0) shapeCasts_S1x64x64_S64x64) transposes_S64x64_S64x64_1_0)⟩] concatenates_S64x64_S64x64_S64x64_S64x64_S256x64_d0) bitsLt_bf16_f32)

/-- The array window 22 stages (`main_v161`), as the host operations that build it compute it from the argument array `main_arg10`. -/
def T161 (a10 : Vec F S16x64 .f32) : Vec F S64 .f32 :=
  (shapeCast S64 (extractStridedSlice S1x64 ![9, 0] a10 slices_S16x64_S1x64_9_0) shapeCasts_S1x64_S64)

/-- The array window 23 stages (`main_v172`), as the host operations that build it compute it from the argument array `main_arg9`. -/
def T172 (a9 : Vec F S16x64x64 .f32) : Vec F S192x64 .bf16 :=
  (truncf .bf16 (concatenate S192x64 0 [⟨S64x64, (transpose S64x64 [1, 0] (shapeCast S64x64 (extractStridedSlice S1x64x64 ![10, 0, 0] a9 slices_S16x64x64_S1x64x64_10_0_0) shapeCasts_S1x64x64_S64x64) transposes_S64x64_S64x64_1_0)⟩, ⟨S64x64, (transpose S64x64 [1, 0] (shapeCast S64x64 (extractStridedSlice S1x64x64 ![10, 0, 0] a9 slices_S16x64x64_S1x64x64_10_0_0) shapeCasts_S1x64x64_S64x64) transposes_S64x64_S64x64_1_0)⟩, ⟨S64x64, (transpose S64x64 [1, 0] (shapeCast S64x64 (extractStridedSlice S1x64x64 ![10, 0, 0] a9 slices_S16x64x64_S1x64x64_10_0_0) shapeCasts_S1x64x64_S64x64) transposes_S64x64_S64x64_1_0)⟩] concatenates_S64x64_S64x64_S64x64_S192x64_d0) bitsLt_bf16_f32)

/-- The array window 24 stages (`main_v174`), as the host operations that build it compute it from the argument array `main_arg10`. -/
def T174 (a10 : Vec F S16x64 .f32) : Vec F S64 .f32 :=
  (shapeCast S64 (extractStridedSlice S1x64 ![10, 0] a10 slices_S16x64_S1x64_10_0) shapeCasts_S1x64_S64)

/-- The array window 25 stages (`main_v182`), as the host operations that build it compute it from the argument array `main_arg9`. -/
def T182 (a9 : Vec F S16x64x64 .f32) : Vec F S128x64 .bf16 :=
  (truncf .bf16 (concatenate S128x64 0 [⟨S64x64, (transpose S64x64 [1, 0] (shapeCast S64x64 (extractStridedSlice S1x64x64 ![15, 0, 0] a9 slices_S16x64x64_S1x64x64_15_0_0) shapeCasts_S1x64x64_S64x64) transposes_S64x64_S64x64_1_0)⟩, ⟨S64x64, (transpose S64x64 [1, 0] (shapeCast S64x64 (extractStridedSlice S1x64x64 ![15, 0, 0] a9 slices_S16x64x64_S1x64x64_15_0_0) shapeCasts_S1x64x64_S64x64) transposes_S64x64_S64x64_1_0)⟩] concatenates_S64x64_S64x64_S128x64_d0) bitsLt_bf16_f32)

/-- The array window 26 stages (`main_v184`), as the host operations that build it compute it from the argument array `main_arg10`. -/
def T184 (a10 : Vec F S16x64 .f32) : Vec F S64 .f32 :=
  (shapeCast S64 (extractStridedSlice S1x64 ![15, 0] a10 slices_S16x64_S1x64_15_0) shapeCasts_S1x64_S64)

/-- The array window 0 stages (`main_v186`), as the host operations that build it compute it from the argument arrays `main_arg0`, `main_arg1`. -/
def T186 (a0 : Vec F S131072x3x1 .f32) (a1 : Vec F S131072x8 .f32) : Vec F S131072x11 .f32 :=
  (concatenate S131072x11 1 [⟨S131072x3, (shapeCast S131072x3 a0 shapeCasts_S131072x3x1_S131072x3)⟩, ⟨S131072x8, a1⟩] concatenates_S131072x3_S131072x8_S131072x11_d1)

/-- The array window 1 stages (`main_v187`), as the host operations that build it compute it from the argument array `main_arg2`. -/
def T187 (a2 : Vec F S64x8 .f32) : Vec F S64x8 .bf16 :=
  (truncf .bf16 a2 bitsLt_bf16_f32)

/-- The array window 4 stages (`main_v188`), as the host operations that build it compute it from the argument array `main_arg7`. -/
def T188 (a7 : Vec F S64x64 .f32) : Vec F S64x64 .bf16 :=
  (truncf .bf16 a7 bitsLt_bf16_f32)

/-- The array window 6 stages (`main_v189`), as the host operations that build it compute it from the argument array `main_arg11`. -/
def T189 (a11 : Vec F S3x64 .f32) : Vec F S3x64 .bf16 :=
  (truncf .bf16 a11 bitsLt_bf16_f32)

/-- The array window 3 stages (`main_v193`), as the host operations that build it compute it from the argument arrays `main_arg4`, `main_arg5`, `main_arg6`. -/
def T193 (a4 : Vec F S64x1 .f32) (a5 : Vec F S64x1 .f32) (a6 : Vec F S64x1 .f32) : Vec F S3x64 .f32 :=
  (concatenate S3x64 0 [⟨S1x64, (transpose S1x64 [1, 0] a4 transposes_S64x1_S1x64_1_0)⟩, ⟨S1x64, (transpose S1x64 [1, 0] a5 transposes_S64x1_S1x64_1_0)⟩, ⟨S1x64, (transpose S1x64 [1, 0] a6 transposes_S64x1_S1x64_1_0)⟩] concatenates_S1x64_S1x64_S1x64_S3x64_d0)

end Cert.KernelIdeal.Hand.Host

end
-- ==== Proof.KWinHostA.lean ====
/- The arrays the launch of `KernelIdeal` stages, as the launch finds them: each is its run of host operations' term of
   the argument arrays as launched (part one: windows 9 … 16). The run is evaluated from ARBITRARY buffer contents first (the
   operations between a value's producer and its reader do not write it), then placed in the whole line. -/
import proofs.«166257_j42623255446007_2_alg».proof.Proof.KWinHostLib
import proofs.«166257_j42623255446007_2_alg».proof.Proof.KWinTerms

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

set_option maxHeartbeats 4000000 in
/-- Operations 0 … 3 of @main, run from ANY buffer contents `W`, leave in `main_v3` their term of what `W` holds at `main_arg9`. -/
theorem seg_main_v3 (W : Valuation τ sig (Elt F)) :
    StableHlo.after (((hostOps0 : List (HloOp τ sig (Elt F))).drop 0).take 4) W (Proc.devRef .tc main_v3)
      = Host.T3 (W (Proc.devRef .tc main_arg9)) := by
  simp only [hostOps0, List.drop_succ_cons, List.drop_zero, List.take_succ_cons, List.take_zero]
  simp (disch := decide) only [↓nary3_result', ↓nary6_result', ↓StableHlo.nary4_result', StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne']
  rfl

set_option maxHeartbeats 4000000 in
/-- Operations 4 … 5 of @main, run from ANY buffer contents `W`, leave in `main_v5` their term of what `W` holds at `main_arg10`. -/
theorem seg_main_v5 (W : Valuation τ sig (Elt F)) :
    StableHlo.after (((hostOps0 : List (HloOp τ sig (Elt F))).drop 4).take 2) W (Proc.devRef .tc main_v5)
      = Host.T5 (W (Proc.devRef .tc main_arg10)) := by
  simp only [hostOps0, List.drop_succ_cons, List.drop_zero, List.take_succ_cons, List.take_zero]
  simp (disch := decide) only [↓nary3_result', ↓nary6_result', ↓StableHlo.nary4_result', StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne']
  rfl

set_option maxHeartbeats 4000000 in
/-- Operations 6 … 9 of @main, run from ANY buffer contents `W`, leave in `main_v9` their term of what `W` holds at `main_arg9`. -/
theorem seg_main_v9 (W : Valuation τ sig (Elt F)) :
    StableHlo.after (((hostOps0 : List (HloOp τ sig (Elt F))).drop 6).take 4) W (Proc.devRef .tc main_v9)
      = Host.T9 (W (Proc.devRef .tc main_arg9)) := by
  simp only [hostOps0, List.drop_succ_cons, List.drop_zero, List.take_succ_cons, List.take_zero]
  simp (disch := decide) only [↓nary3_result', ↓nary6_result', ↓StableHlo.nary4_result', StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne']
  rfl

set_option maxHeartbeats 4000000 in
/-- Operations 10 … 11 of @main, run from ANY buffer contents `W`, leave in `main_v11` their term of what `W` holds at `main_arg10`. -/
theorem seg_main_v11 (W : Valuation τ sig (Elt F)) :
    StableHlo.after (((hostOps0 : List (HloOp τ sig (Elt F))).drop 10).take 2) W (Proc.devRef .tc main_v11)
      = Host.T11 (W (Proc.devRef .tc main_arg10)) := by
  simp only [hostOps0, List.drop_succ_cons, List.drop_zero, List.take_succ_cons, List.take_zero]
  simp (disch := decide) only [↓nary3_result', ↓nary6_result', ↓StableHlo.nary4_result', StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne']
  rfl

set_option maxHeartbeats 4000000 in
/-- Operations 12 … 36 of @main, run from ANY buffer contents `W`, leave in `main_v33` their term of what `W` holds at `main_arg9`. -/
theorem seg_main_v33 (W : Valuation τ sig (Elt F)) :
    StableHlo.after (((hostOps0 : List (HloOp τ sig (Elt F))).drop 12).take 25) W (Proc.devRef .tc main_v33)
      = Host.T33 (W (Proc.devRef .tc main_arg9)) := by
  simp only [hostOps0, List.drop_succ_cons, List.drop_zero, List.take_succ_cons, List.take_zero]
  simp (disch := decide) only [↓nary3_result', ↓nary6_result', ↓StableHlo.nary4_result', StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne']
  rfl

set_option maxHeartbeats 4000000 in
/-- Operations 37 … 45 of @main, run from ANY buffer contents `W`, leave in `main_v42` their term of what `W` holds at `main_arg10`. -/
theorem seg_main_v42 (W : Valuation τ sig (Elt F)) :
    StableHlo.after (((hostOps0 : List (HloOp τ sig (Elt F))).drop 37).take 9) W (Proc.devRef .tc main_v42)
      = Host.T42 (W (Proc.devRef .tc main_arg10)) := by
  simp only [hostOps0, List.drop_succ_cons, List.drop_zero, List.take_succ_cons, List.take_zero]
  simp (disch := decide) only [↓nary3_result', ↓nary6_result', ↓StableHlo.nary4_result', StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne']
  rfl

set_option maxHeartbeats 4000000 in
/-- Operations 46 … 80 of @main, run from ANY buffer contents `W`, leave in `main_v70` their term of what `W` holds at `main_arg9`. -/
theorem seg_main_v70 (W : Valuation τ sig (Elt F)) :
    StableHlo.after (((hostOps0 : List (HloOp τ sig (Elt F))).drop 46).take 35) W (Proc.devRef .tc main_v70)
      = Host.T70 (W (Proc.devRef .tc main_arg9)) := by
  simp only [hostOps0, List.drop_succ_cons, List.drop_zero, List.take_succ_cons, List.take_zero]
  simp (disch := decide) only [↓nary3_result', ↓nary6_result', ↓StableHlo.nary4_result', StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne']
  rfl

set_option maxHeartbeats 4000000 in
/-- Operations 81 … 87 of @main, run from ANY buffer contents `W`, leave in `main_v77` their term of what `W` holds at `main_arg10`. -/
theorem seg_main_v77 (W : Valuation τ sig (Elt F)) :
    StableHlo.after (((hostOps0 : List (HloOp τ sig (Elt F))).drop 81).take 7) W (Proc.devRef .tc main_v77)
      = Host.T77 (W (Proc.devRef .tc main_arg10)) := by
  simp only [hostOps0, List.drop_succ_cons, List.drop_zero, List.take_succ_cons, List.take_zero]
  simp (disch := decide) only [↓nary3_result', ↓nary6_result', ↓StableHlo.nary4_result', StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne']
  rfl

variable (m : (ℓ : Loc nD τ sig) → Buf (Elt F) ℓ)

set_option maxHeartbeats 4000000 in
/-- Window 9's array as the launch finds it: operations 0 … 3 of @main build it from `main_arg9`; no later operation writes it, no operation writes an argument. -/
theorem V_main_v3 (c : Dev nD) : V m c main_v3 = Host.T3 (m ((c : Thread nD τ).loc main_arg9)) := by
  have hpost : ∀ op ∈ ((hostOps0 : List (HloOp τ sig (Elt F))).drop 0).drop 4, Proc.devRef .tc main_v3 ∉ op.writes :=
    List.forall_iff_forall_mem.mp (by
      simp only [hostOps0, List.drop_succ_cons, List.drop_zero, List.drop_nil, List.Forall, StableHlo.nullary_writes, StableHlo.unary_writes, StableHlo.binary_writes, StableHlo.reshape_writes, StableHlo.nary_writes, Finset.mem_singleton]
      repeat' apply And.intro
      all_goals first | trivial | exact StableHlo.devRef_ne_of_ne (by decide))
  show StableHlo.after hostOps0 (fun b => m (c, b)) (Proc.devRef .tc main_v3) = _
  rw [after_window hostOps0 0 4 _ _ hpost, seg_main_v3, after_take_kept hostOps0 0 _ _ kept_main_arg9]

set_option maxHeartbeats 4000000 in
/-- Window 10's array as the launch finds it: operations 4 … 5 of @main build it from `main_arg10`; no later operation writes it, no operation writes an argument. -/
theorem V_main_v5 (c : Dev nD) : V m c main_v5 = Host.T5 (m ((c : Thread nD τ).loc main_arg10)) := by
  have hpost : ∀ op ∈ ((hostOps0 : List (HloOp τ sig (Elt F))).drop 4).drop 2, Proc.devRef .tc main_v5 ∉ op.writes :=
    List.forall_iff_forall_mem.mp (by
      simp only [hostOps0, List.drop_succ_cons, List.drop_zero, List.drop_nil, List.Forall, StableHlo.nullary_writes, StableHlo.unary_writes, StableHlo.binary_writes, StableHlo.reshape_writes, StableHlo.nary_writes, Finset.mem_singleton]
      repeat' apply And.intro
      all_goals first | trivial | exact StableHlo.devRef_ne_of_ne (by decide))
  show StableHlo.after hostOps0 (fun b => m (c, b)) (Proc.devRef .tc main_v5) = _
  rw [after_window hostOps0 4 2 _ _ hpost, seg_main_v5, after_take_kept hostOps0 4 _ _ kept_main_arg10]

set_option maxHeartbeats 4000000 in
/-- Window 11's array as the launch finds it: operations 6 … 9 of @main build it from `main_arg9`; no later operation writes it, no operation writes an argument. -/
theorem V_main_v9 (c : Dev nD) : V m c main_v9 = Host.T9 (m ((c : Thread nD τ).loc main_arg9)) := by
  have hpost : ∀ op ∈ ((hostOps0 : List (HloOp τ sig (Elt F))).drop 6).drop 4, Proc.devRef .tc main_v9 ∉ op.writes :=
    List.forall_iff_forall_mem.mp (by
      simp only [hostOps0, List.drop_succ_cons, List.drop_zero, List.drop_nil, List.Forall, StableHlo.nullary_writes, StableHlo.unary_writes, StableHlo.binary_writes, StableHlo.reshape_writes, StableHlo.nary_writes, Finset.mem_singleton]
      repeat' apply And.intro
      all_goals first | trivial | exact StableHlo.devRef_ne_of_ne (by decide))
  show StableHlo.after hostOps0 (fun b => m (c, b)) (Proc.devRef .tc main_v9) = _
  rw [after_window hostOps0 6 4 _ _ hpost, seg_main_v9, after_take_kept hostOps0 6 _ _ kept_main_arg9]

set_option maxHeartbeats 4000000 in
/-- Window 12's array as the launch finds it: operations 10 … 11 of @main build it from `main_arg10`; no later operation writes it, no operation writes an argument. -/
theorem V_main_v11 (c : Dev nD) : V m c main_v11 = Host.T11 (m ((c : Thread nD τ).loc main_arg10)) := by
  have hpost : ∀ op ∈ ((hostOps0 : List (HloOp τ sig (Elt F))).drop 10).drop 2, Proc.devRef .tc main_v11 ∉ op.writes :=
    List.forall_iff_forall_mem.mp (by
      simp only [hostOps0, List.drop_succ_cons, List.drop_zero, List.drop_nil, List.Forall, StableHlo.nullary_writes, StableHlo.unary_writes, StableHlo.binary_writes, StableHlo.reshape_writes, StableHlo.nary_writes, Finset.mem_singleton]
      repeat' apply And.intro
      all_goals first | trivial | exact StableHlo.devRef_ne_of_ne (by decide))
  show StableHlo.after hostOps0 (fun b => m (c, b)) (Proc.devRef .tc main_v11) = _
  rw [after_window hostOps0 10 2 _ _ hpost, seg_main_v11, after_take_kept hostOps0 10 _ _ kept_main_arg10]

set_option maxHeartbeats 4000000 in
/-- Window 13's array as the launch finds it: operations 12 … 36 of @main build it from `main_arg9`; no later operation writes it, no operation writes an argument. -/
theorem V_main_v33 (c : Dev nD) : V m c main_v33 = Host.T33 (m ((c : Thread nD τ).loc main_arg9)) := by
  have hpost : ∀ op ∈ ((hostOps0 : List (HloOp τ sig (Elt F))).drop 12).drop 25, Proc.devRef .tc main_v33 ∉ op.writes :=
    List.forall_iff_forall_mem.mp (by
      simp only [hostOps0, List.drop_succ_cons, List.drop_zero, List.drop_nil, List.Forall, StableHlo.nullary_writes, StableHlo.unary_writes, StableHlo.binary_writes, StableHlo.reshape_writes, StableHlo.nary_writes, Finset.mem_singleton]
      repeat' apply And.intro
      all_goals first | trivial | exact StableHlo.devRef_ne_of_ne (by decide))
  show StableHlo.after hostOps0 (fun b => m (c, b)) (Proc.devRef .tc main_v33) = _
  rw [after_window hostOps0 12 25 _ _ hpost, seg_main_v33, after_take_kept hostOps0 12 _ _ kept_main_arg9]

set_option maxHeartbeats 4000000 in
/-- Window 14's array as the launch finds it: operations 37 … 45 of @main build it from `main_arg10`; no later operation writes it, no operation writes an argument. -/
theorem V_main_v42 (c : Dev nD) : V m c main_v42 = Host.T42 (m ((c : Thread nD τ).loc main_arg10)) := by
  have hpost : ∀ op ∈ ((hostOps0 : List (HloOp τ sig (Elt F))).drop 37).drop 9, Proc.devRef .tc main_v42 ∉ op.writes :=
    List.forall_iff_forall_mem.mp (by
      simp only [hostOps0, List.drop_succ_cons, List.drop_zero, List.drop_nil, List.Forall, StableHlo.nullary_writes, StableHlo.unary_writes, StableHlo.binary_writes, StableHlo.reshape_writes, StableHlo.nary_writes, Finset.mem_singleton]
      repeat' apply And.intro
      all_goals first | trivial | exact StableHlo.devRef_ne_of_ne (by decide))
  show StableHlo.after hostOps0 (fun b => m (c, b)) (Proc.devRef .tc main_v42) = _
  rw [after_window hostOps0 37 9 _ _ hpost, seg_main_v42, after_take_kept hostOps0 37 _ _ kept_main_arg10]

set_option maxHeartbeats 4000000 in
/-- Window 15's array as the launch finds it: operations 46 … 80 of @main build it from `main_arg9`; no later operation writes it, no operation writes an argument. -/
theorem V_main_v70 (c : Dev nD) : V m c main_v70 = Host.T70 (m ((c : Thread nD τ).loc main_arg9)) := by
  have hpost : ∀ op ∈ ((hostOps0 : List (HloOp τ sig (Elt F))).drop 46).drop 35, Proc.devRef .tc main_v70 ∉ op.writes :=
    List.forall_iff_forall_mem.mp (by
      simp only [hostOps0, List.drop_succ_cons, List.drop_zero, List.drop_nil, List.Forall, StableHlo.nullary_writes, StableHlo.unary_writes, StableHlo.binary_writes, StableHlo.reshape_writes, StableHlo.nary_writes, Finset.mem_singleton]
      repeat' apply And.intro
      all_goals first | trivial | exact StableHlo.devRef_ne_of_ne (by decide))
  show StableHlo.after hostOps0 (fun b => m (c, b)) (Proc.devRef .tc main_v70) = _
  rw [after_window hostOps0 46 35 _ _ hpost, seg_main_v70, after_take_kept hostOps0 46 _ _ kept_main_arg9]

set_option maxHeartbeats 4000000 in
/-- Window 16's array as the launch finds it: operations 81 … 87 of @main build it from `main_arg10`; no later operation writes it, no operation writes an argument. -/
theorem V_main_v77 (c : Dev nD) : V m c main_v77 = Host.T77 (m ((c : Thread nD τ).loc main_arg10)) := by
  have hpost : ∀ op ∈ ((hostOps0 : List (HloOp τ sig (Elt F))).drop 81).drop 7, Proc.devRef .tc main_v77 ∉ op.writes :=
    List.forall_iff_forall_mem.mp (by
      simp only [hostOps0, List.drop_succ_cons, List.drop_zero, List.drop_nil, List.Forall, StableHlo.nullary_writes, StableHlo.unary_writes, StableHlo.binary_writes, StableHlo.reshape_writes, StableHlo.nary_writes, Finset.mem_singleton]
      repeat' apply And.intro
      all_goals first | trivial | exact StableHlo.devRef_ne_of_ne (by decide))
  show StableHlo.after hostOps0 (fun b => m (c, b)) (Proc.devRef .tc main_v77) = _
  rw [after_window hostOps0 81 7 _ _ hpost, seg_main_v77, after_take_kept hostOps0 81 _ _ kept_main_arg10]

end Cert.KernelIdeal.Hand

end
-- ==== Proof.KWinHostC.lean ====
/- The arrays the launch of `KernelIdeal` stages, as the launch finds them: each is its run of host operations' term of
   the argument arrays as launched (part two: windows 17, 18, 0, 1, 4, 6, 3). The run is evaluated from ARBITRARY buffer contents first (the
   operations between a value's producer and its reader do not write it), then placed in the whole line. -/
import proofs.«166257_j42623255446007_2_alg».proof.Proof.KWinHostLib
import proofs.«166257_j42623255446007_2_alg».proof.Proof.KWinTerms

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

set_option maxHeartbeats 4000000 in
/-- Operations 88 … 126 of @main, run from ANY buffer contents `W`, leave in `main_v111` their term of what `W` holds at `main_arg9`. -/
theorem seg_main_v111 (W : Valuation τ sig (Elt F)) :
    StableHlo.after (((hostOps0 : List (HloOp τ sig (Elt F))).drop 88).take 39) W (Proc.devRef .tc main_v111)
      = Host.T111 (W (Proc.devRef .tc main_arg9)) := by
  simp only [hostOps0, List.drop_succ_cons, List.drop_zero, List.take_succ_cons, List.take_zero]
  simp (disch := decide) only [↓nary3_result', ↓nary6_result', ↓StableHlo.nary4_result', StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne']
  rfl

set_option maxHeartbeats 4000000 in
/-- Operations 127 … 131 of @main, run from ANY buffer contents `W`, leave in `main_v116` their term of what `W` holds at `main_arg10`. -/
theorem seg_main_v116 (W : Valuation τ sig (Elt F)) :
    StableHlo.after (((hostOps0 : List (HloOp τ sig (Elt F))).drop 127).take 5) W (Proc.devRef .tc main_v116)
      = Host.T116 (W (Proc.devRef .tc main_arg10)) := by
  simp only [hostOps0, List.drop_succ_cons, List.drop_zero, List.take_succ_cons, List.take_zero]
  simp (disch := decide) only [↓nary3_result', ↓nary6_result', ↓StableHlo.nary4_result', StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne']
  rfl

set_option maxHeartbeats 4000000 in
/-- Operations 203 … 204 of @main, run from ANY buffer contents `W`, leave in `main_v186` their term of what `W` holds at `main_arg0`, `main_arg1`. -/
theorem seg_main_v186 (W : Valuation τ sig (Elt F)) :
    StableHlo.after (((hostOps0 : List (HloOp τ sig (Elt F))).drop 203).take 2) W (Proc.devRef .tc main_v186)
      = Host.T186 (W (Proc.devRef .tc main_arg0)) (W (Proc.devRef .tc main_arg1)) := by
  simp only [hostOps0, List.drop_succ_cons, List.drop_zero, List.take_succ_cons, List.take_zero]
  simp (disch := decide) only [↓nary3_result', ↓nary6_result', ↓StableHlo.nary4_result', StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne']
  rfl

set_option maxHeartbeats 4000000 in
/-- Operations 205 … 205 of @main, run from ANY buffer contents `W`, leave in `main_v187` their term of what `W` holds at `main_arg2`. -/
theorem seg_main_v187 (W : Valuation τ sig (Elt F)) :
    StableHlo.after (((hostOps0 : List (HloOp τ sig (Elt F))).drop 205).take 1) W (Proc.devRef .tc main_v187)
      = Host.T187 (W (Proc.devRef .tc main_arg2)) := by
  simp only [hostOps0, List.drop_succ_cons, List.drop_zero, List.take_succ_cons, List.take_zero]
  simp (disch := decide) only [↓nary3_result', ↓nary6_result', ↓StableHlo.nary4_result', StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne']
  rfl

set_option maxHeartbeats 4000000 in
/-- Operations 206 … 206 of @main, run from ANY buffer contents `W`, leave in `main_v188` their term of what `W` holds at `main_arg7`. -/
theorem seg_main_v188 (W : Valuation τ sig (Elt F)) :
    StableHlo.after (((hostOps0 : List (HloOp τ sig (Elt F))).drop 206).take 1) W (Proc.devRef .tc main_v188)
      = Host.T188 (W (Proc.devRef .tc main_arg7)) := by
  simp only [hostOps0, List.drop_succ_cons, List.drop_zero, List.take_succ_cons, List.take_zero]
  simp (disch := decide) only [↓nary3_result', ↓nary6_result', ↓StableHlo.nary4_result', StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne']
  rfl

set_option maxHeartbeats 4000000 in
/-- Operations 207 … 207 of @main, run from ANY buffer contents `W`, leave in `main_v189` their term of what `W` holds at `main_arg11`. -/
theorem seg_main_v189 (W : Valuation τ sig (Elt F)) :
    StableHlo.after (((hostOps0 : List (HloOp τ sig (Elt F))).drop 207).take 1) W (Proc.devRef .tc main_v189)
      = Host.T189 (W (Proc.devRef .tc main_arg11)) := by
  simp only [hostOps0, List.drop_succ_cons, List.drop_zero, List.take_succ_cons, List.take_zero]
  simp (disch := decide) only [↓nary3_result', ↓nary6_result', ↓StableHlo.nary4_result', StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne']
  rfl

set_option maxHeartbeats 4000000 in
/-- Operations 208 … 211 of @main, run from ANY buffer contents `W`, leave in `main_v193` their term of what `W` holds at `main_arg4`, `main_arg5`, `main_arg6`. -/
theorem seg_main_v193 (W : Valuation τ sig (Elt F)) :
    StableHlo.after (((hostOps0 : List (HloOp τ sig (Elt F))).drop 208).take 4) W (Proc.devRef .tc main_v193)
      = Host.T193 (W (Proc.devRef .tc main_arg4)) (W (Proc.devRef .tc main_arg5)) (W (Proc.devRef .tc main_arg6)) := by
  simp only [hostOps0, List.drop_succ_cons, List.drop_zero, List.take_succ_cons, List.take_zero]
  simp (disch := decide) only [↓nary3_result', ↓nary6_result', ↓StableHlo.nary4_result', StableHlo.after_cons, StableHlo.after_nil, StableHlo.nullary_result', StableHlo.unary_result', StableHlo.binary_result', StableHlo.reshape_result', StableHlo.nary_result', StableHlo.nullary_result_ne', StableHlo.unary_result_ne', StableHlo.binary_result_ne', StableHlo.reshape_result_ne', StableHlo.nary_result_ne']
  rfl

variable (m : (ℓ : Loc nD τ sig) → Buf (Elt F) ℓ)

set_option maxHeartbeats 4000000 in
/-- Window 17's array as the launch finds it: operations 88 … 126 of @main build it from `main_arg9`; no later operation writes it, no operation writes an argument. -/
theorem V_main_v111 (c : Dev nD) : V m c main_v111 = Host.T111 (m ((c : Thread nD τ).loc main_arg9)) := by
  have hpost : ∀ op ∈ ((hostOps0 : List (HloOp τ sig (Elt F))).drop 88).drop 39, Proc.devRef .tc main_v111 ∉ op.writes :=
    List.forall_iff_forall_mem.mp (by
      simp only [hostOps0, List.drop_succ_cons, List.drop_zero, List.drop_nil, List.Forall, StableHlo.nullary_writes, StableHlo.unary_writes, StableHlo.binary_writes, StableHlo.reshape_writes, StableHlo.nary_writes, Finset.mem_singleton]
      repeat' apply And.intro
      all_goals first | trivial | exact StableHlo.devRef_ne_of_ne (by decide))
  show StableHlo.after hostOps0 (fun b => m (c, b)) (Proc.devRef .tc main_v111) = _
  rw [after_window hostOps0 88 39 _ _ hpost, seg_main_v111, after_take_kept hostOps0 88 _ _ kept_main_arg9]

set_option maxHeartbeats 4000000 in
/-- Window 18's array as the launch finds it: operations 127 … 131 of @main build it from `main_arg10`; no later operation writes it, no operation writes an argument. -/
theorem V_main_v116 (c : Dev nD) : V m c main_v116 = Host.T116 (m ((c : Thread nD τ).loc main_arg10)) := by
  have hpost : ∀ op ∈ ((hostOps0 : List (HloOp τ sig (Elt F))).drop 127).drop 5, Proc.devRef .tc main_v116 ∉ op.writes :=
    List.forall_iff_forall_mem.mp (by
      simp only [hostOps0, List.drop_succ_cons, List.drop_zero, List.drop_nil, List.Forall, StableHlo.nullary_writes, StableHlo.unary_writes, StableHlo.binary_writes, StableHlo.reshape_writes, StableHlo.nary_writes, Finset.mem_singleton]
      repeat' apply And.intro
      all_goals first | trivial | exact StableHlo.devRef_ne_of_ne (by decide))
  show StableHlo.after hostOps0 (fun b => m (c, b)) (Proc.devRef .tc main_v116) = _
  rw [after_window hostOps0 127 5 _ _ hpost, seg_main_v116, after_take_kept hostOps0 127 _ _ kept_main_arg10]

set_option maxHeartbeats 4000000 in
/-- Window 0's array as the launch finds it: operations 203 … 204 of @main build it from `main_arg0`, `main_arg1`; no later operation writes it, no operation writes an argument. -/
theorem V_main_v186 (c : Dev nD) : V m c main_v186 = Host.T186 (m ((c : Thread nD τ).loc main_arg0)) (m ((c : Thread nD τ).loc main_arg1)) := by
  have hpost : ∀ op ∈ ((hostOps0 : List (HloOp τ sig (Elt F))).drop 203).drop 2, Proc.devRef .tc main_v186 ∉ op.writes :=
    List.forall_iff_forall_mem.mp (by
      simp only [hostOps0, List.drop_succ_cons, List.drop_zero, List.drop_nil, List.Forall, StableHlo.nullary_writes, StableHlo.unary_writes, StableHlo.binary_writes, StableHlo.reshape_writes, StableHlo.nary_writes, Finset.mem_singleton]
      repeat' apply And.intro
      all_goals first | trivial | exact StableHlo.devRef_ne_of_ne (by decide))
  show StableHlo.after hostOps0 (fun b => m (c, b)) (Proc.devRef .tc main_v186) = _
  rw [after_window hostOps0 203 2 _ _ hpost, seg_main_v186, after_take_kept hostOps0 203 _ _ kept_main_arg0, after_take_kept hostOps0 203 _ _ kept_main_arg1]

set_option maxHeartbeats 4000000 in
/-- Window 1's array as the launch finds it: operations 205 … 205 of @main build it from `main_arg2`; no later operation writes it, no operation writes an argument. -/
theorem V_main_v187 (c : Dev nD) : V m c main_v187 = Host.T187 (m ((c : Thread nD τ).loc main_arg2)) := by
  have hpost : ∀ op ∈ ((hostOps0 : List (HloOp τ sig (Elt F))).drop 205).drop 1, Proc.devRef .tc main_v187 ∉ op.writes :=
    List.forall_iff_forall_mem.mp (by
      simp only [hostOps0, List.drop_succ_cons, List.drop_zero, List.drop_nil, List.Forall, StableHlo.nullary_writes, StableHlo.unary_writes, StableHlo.binary_writes, StableHlo.reshape_writes, StableHlo.nary_writes, Finset.mem_singleton]
      repeat' apply And.intro
      all_goals first | trivial | exact StableHlo.devRef_ne_of_ne (by decide))
  show StableHlo.after hostOps0 (fun b => m (c, b)) (Proc.devRef .tc main_v187) = _
  rw [after_window hostOps0 205 1 _ _ hpost, seg_main_v187, after_take_kept hostOps0 205 _ _ kept_main_arg2]

set_option maxHeartbeats 4000000 in
/-- Window 4's array as the launch finds it: operations 206 … 206 of @main build it from `main_arg7`; no later operation writes it, no operation writes an argument. -/
theorem V_main_v188 (c : Dev nD) : V m c main_v188 = Host.T188 (m ((c : Thread nD τ).loc main_arg7)) := by
  have hpost : ∀ op ∈ ((hostOps0 : List (HloOp τ sig (Elt F))).drop 206).drop 1, Proc.devRef .tc main_v188 ∉ op.writes :=
    List.forall_iff_forall_mem.mp (by
      simp only [hostOps0, List.drop_succ_cons, List.drop_zero, List.drop_nil, List.Forall, StableHlo.nullary_writes, StableHlo.unary_writes, StableHlo.binary_writes, StableHlo.reshape_writes, StableHlo.nary_writes, Finset.mem_singleton]
      repeat' apply And.intro
      all_goals first | trivial | exact StableHlo.devRef_ne_of_ne (by decide))
  show StableHlo.after hostOps0 (fun b => m (c, b)) (Proc.devRef .tc main_v188) = _
  rw [after_window hostOps0 206 1 _ _ hpost, seg_main_v188, after_take_kept hostOps0 206 _ _ kept_main_arg7]

set_option maxHeartbeats 4000000 in
/-- Window 6's array as the launch finds it: operations 207 … 207 of @main build it from `main_arg11`; no later operation writes it, no operation writes an argument. -/
theorem V_main_v189 (c : Dev nD) : V m c main_v189 = Host.T189 (m ((c : Thread nD τ).loc main_arg11)) := by
  have hpost : ∀ op ∈ ((hostOps0 : List (HloOp τ sig (Elt F))).drop 207).drop 1, Proc.devRef .tc main_v189 ∉ op.writes :=
    List.forall_iff_forall_mem.mp (by
      simp only [hostOps0, List.drop_succ_cons, List.drop_zero, List.drop_nil, List.Forall, StableHlo.nullary_writes, StableHlo.unary_writes, StableHlo.binary_writes, StableHlo.reshape_writes, StableHlo.nary_writes, Finset.mem_singleton]
      repeat' apply And.intro
      all_goals first | trivial | exact StableHlo.devRef_ne_of_ne (by decide))
  show StableHlo.after hostOps0 (fun b => m (c, b)) (Proc.devRef .tc main_v189) = _
  rw [after_window hostOps0 207 1 _ _ hpost, seg_main_v189, after_take_kept hostOps0 207 _ _ kept_main_arg11]

set_option maxHeartbeats 4000000 in
/-- Window 3's array as the launch finds it: operations 208 … 211 of @main build it from `main_arg4`, `main_arg5`, `main_arg6`; no later operation writes it, no operation writes an argument. -/
theorem V_main_v193 (c : Dev nD) : V m c main_v193 = Host.T193 (m ((c : Thread nD τ).loc main_arg4)) (m ((c : Thread nD τ).loc main_arg5)) (m ((c : Thread nD τ).loc main_arg6)) := by
  have hpost : ∀ op ∈ ((hostOps0 : List (HloOp τ sig (Elt F))).drop 208).drop 4, Proc.devRef .tc main_v193 ∉ op.writes :=
    List.forall_iff_forall_mem.mp (by
      simp only [hostOps0, List.drop_succ_cons, List.drop_zero, List.drop_nil, List.Forall, StableHlo.nullary_writes, StableHlo.unary_writes, StableHlo.binary_writes, StableHlo.reshape_writes, StableHlo.nary_writes, Finset.mem_singleton]
      repeat' apply And.intro
      all_goals first | trivial | exact StableHlo.devRef_ne_of_ne (by decide))
  show StableHlo.after hostOps0 (fun b => m (c, b)) (Proc.devRef .tc main_v193) = _
  rw [after_window hostOps0 208 4 _ _ hpost, seg_main_v193, after_take_kept hostOps0 208 _ _ kept_main_arg4, after_take_kept hostOps0 208 _ _ kept_main_arg5, after_take_kept hostOps0 208 _ _ kept_main_arg6]

end Cert.KernelIdeal.Hand

end
-- ==== Proof.RowOps.lean ====
/-
  Layout operations and matrix products read at coordinates.

  Every array of the two programs is a matrix whose first axis is the batch row; every operation acts row by row.
  The lemmas here read one operation at `(row, column)`: a column or a one-element array broadcast along the
  rows, ONE piece of a concatenation of several pieces (along the columns, along the rows, or of vectors), the
  leading-axis slice of a stack of matrices, and a plain matrix product `[B,K] × [K,N]` as the sum over the
  contracted coordinate.
-/
import Idealize.ShloMosaic.PureOps.Ideal.Laws
import Idealize.ShloMosaic.Lib.ValueIdx
import Idealize.ShloMosaic.Lib.ValueLayout
import Idealize.ShloMosaic.Lib.Pipeline.Value

namespace Cert.RowOps

open scoped BigOperators
open Idealize.ShloMosaic Idealize.ShloMosaic.ValueIdx

variable {α : Type}

/-- A `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-element `[1, 1]` array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Member `g` of a stack `[G, a, b]`, cut out as a `[1, a, b]` slice, reads at `(0, i, j)` the stack at `(g, i, j)`. -/
theorem slice3_axis0_apply {G a b : ℕ} (o : ℕ) (X : (⟨3, ![G, a, b]⟩ : Shape).Idx → α)
    (h : (⟨3, ![G, a, b]⟩ : Shape).Slices ![o, 0, 0] ⟨3, ![1, a, b]⟩) (i : Fin a) (j : Fin b) (g : Fin G) (hg : g.val = o) :
    extractStridedSlice ⟨3, ![1, a, b]⟩ ![o, 0, 0] X h (ix3 (0 : Fin 1) i j) = X (ix3 g i j) :=
  extractStridedSlice_apply _ _ _ _ _ (fun ax => by
    match ax with
    | ⟨0, _⟩ => exact hg
    | ⟨1, _⟩ => exact (Nat.zero_add _).symm
    | ⟨2, _⟩ => exact (Nat.zero_add _).symm)

/-- ONE piece of a concatenation ALONG THE COLUMNS: piece `τ` of the list, a `[B, n]` matrix whose columns start at
    column `pre` of the `[B, N]` result, read at `(p, pre + k)`. -/
theorem concat_cols_piece {B N n : ℕ} (xs : List ((s : Shape) × (s.Idx → α)))
    (h : Shape.Concatenates (xs.map (·.1)) ⟨2, ![B, N]⟩ (1 : Fin 2)) (τ : ℕ) (hτ : τ < xs.length)
    (x : (⟨2, ![B, n]⟩ : Shape).Idx → α) (hx : xs[τ] = ⟨⟨2, ![B, n]⟩, x⟩) (pre : ℕ)
    (hpre : (((xs.take τ).map (·.1)).map fun s => if h : s.rank = 2 then s.size ((1 : Fin 2).cast h.symm) else 0).sum = pre)
    (p : Fin B) (k : Fin n) (c : Fin N) (hc : c.val = pre + k.val) :
    concatenate ⟨2, ![B, N]⟩ (1 : Fin 2) xs h (ix2 p c) = x (ix2 p k) :=
by
  refine concatenate_apply_piece (t := ⟨2, ![B, N]⟩) (1 : Fin 2) xs h (ix2 p c) τ hτ ⟨2, ![B, n]⟩ x hx rfl pre hpre (ix2 p k)
    (fun b hb => ?_) ?_
  · match b with
    | ⟨0, _⟩ => rfl
    | ⟨1, _⟩ => exact absurd rfl hb
  · show pre + k.val = c.val
    exact hc.symm

/-- ONE piece of a concatenation ALONG THE ROWS: piece `τ`, an `[m, N]` matrix whose rows start at row `pre` of the
    `[M, N]` result, read at `(pre + r, c)`. -/
theorem concat_rows_piece {M N m : ℕ} (xs : List ((s : Shape) × (s.Idx → α)))
    (h : Shape.Concatenates (xs.map (·.1)) ⟨2, ![M, N]⟩ (0 : Fin 2)) (τ : ℕ) (hτ : τ < xs.length)
    (x : (⟨2, ![m, N]⟩ : Shape).Idx → α) (hx : xs[τ] = ⟨⟨2, ![m, N]⟩, x⟩) (pre : ℕ)
    (hpre : (((xs.take τ).map (·.1)).map fun s => if h : s.rank = 2 then s.size ((0 : Fin 2).cast h.symm) else 0).sum = pre)
    (r : Fin m) (c : Fin N) (q : Fin M) (hq : q.val = pre + r.val) :
    concatenate ⟨2, ![M, N]⟩ (0 : Fin 2) xs h (ix2 q c) = x (ix2 r c) :=
by
  refine concatenate_apply_piece (t := ⟨2, ![M, N]⟩) (0 : Fin 2) xs h (ix2 q c) τ hτ ⟨2, ![m, N]⟩ x hx rfl pre hpre (ix2 r c)
    (fun b hb => ?_) ?_
  · match b with
    | ⟨0, _⟩ => exact absurd rfl hb
    | ⟨1, _⟩ => rfl
  · show pre + r.val = q.val
    exact hq.symm

/-- ONE piece of a concatenation OF VECTORS: piece `τ`, of length `n`, starting at position `pre`. -/
theorem concat_vec_piece {N n : ℕ} (xs : List ((s : Shape) × (s.Idx → α)))
    (h : Shape.Concatenates (xs.map (·.1)) ⟨1, ![N]⟩ (0 : Fin 1)) (τ : ℕ) (hτ : τ < xs.length)
    (x : (⟨1, ![n]⟩ : Shape).Idx → α) (hx : xs[τ] = ⟨⟨1, ![n]⟩, x⟩) (pre : ℕ)
    (hpre : (((xs.take τ).map (·.1)).map fun s => if h : s.rank = 1 then s.size ((0 : Fin 1).cast h.symm) else 0).sum = pre)
    (k : Fin n) (c : Fin N) (hc : c.val = pre + k.val) :
    concatenate ⟨1, ![N]⟩ (0 : Fin 1) xs h (ix1 c) = x (ix1 k) :=
by
  refine concatenate_apply_piece (t := ⟨1, ![N]⟩) (0 : Fin 1) xs h (ix1 c) τ hτ ⟨1, ![n]⟩ x hx rfl pre hpre (ix1 k)
    (fun b hb => ?_) ?_
  · match b with
    | ⟨0, _⟩ => exact absurd rfl hb
  · show pre + k.val = c.val
    exact hc.symm

/-- What makes a dot record the plain product `[B, K] × [K, N] → [B, N]`: one contracted axis of extent `K`, the left
    operand read at (row, contracted), the right at (contracted, column). -/
structure PlainDot {B K N : ℕ} (D : DotDims ⟨2, ![B, K]⟩ ⟨2, ![K, N]⟩ ⟨2, ![B, N]⟩) : Prop where
  rank : D.contr.rank = 1
  size : D.contr.size ⟨0, by omega⟩ = K
  l0 : ∀ j k, (D.lhsIdx j k 0).val = (j 0).val
  l1 : ∀ j k, (D.lhsIdx j k 1).val = (k ⟨0, by omega⟩).val
  r0 : ∀ j k, (D.rhsIdx j k 0).val = (k ⟨0, by omega⟩).val
  r1 : ∀ j k, (D.rhsIdx j k 1).val = (j 1).val

theorem PlainDot.lhs {B K N : ℕ} {D : DotDims ⟨2, ![B, K]⟩ ⟨2, ![K, N]⟩ ⟨2, ![B, N]⟩} (hD : PlainDot D) (p : Fin B) (c : Fin N)
    (k : Fin K) : D.lhsIdx (ix2 p c) ((contrEquiv1 D K hD.rank hD.size).symm k) = ix2 p k := by
  funext ax
  match ax with
  | ⟨0, _⟩ => exact Fin.ext (hD.l0 _ _)
  | ⟨1, _⟩ => exact Fin.ext ((hD.l1 _ _).trans (contrEquiv1_symm_val D K hD.rank hD.size k))

theorem PlainDot.rhs {B K N : ℕ} {D : DotDims ⟨2, ![B, K]⟩ ⟨2, ![K, N]⟩ ⟨2, ![B, N]⟩} (hD : PlainDot D) (p : Fin B) (c : Fin N)
    (k : Fin K) : D.rhsIdx (ix2 p c) ((contrEquiv1 D K hD.rank hD.size).symm k) = ix2 k c := by
  funext ax
  match ax with
  | ⟨0, _⟩ => exact Fin.ext ((hD.r0 _ _).trans (contrEquiv1_symm_val D K hD.rank hD.size k))
  | ⟨1, _⟩ => exact Fin.ext (hD.r1 _ _)

/-- A kernel's matrix product into a zero accumulator, at the exact instance, read at `(p, c)`. -/
theorem matmul_ix2 {B K N : ℕ} {φ₁ φ₂ : FTy} {D : DotDims ⟨2, ![B, K]⟩ ⟨2, ![K, N]⟩ ⟨2, ![B, N]⟩} (hD : PlainDot D)
    (prec : Option ContractPrecision) (u : FVec Ideal ⟨2, ![B, K]⟩ φ₁) (w : FVec Ideal ⟨2, ![K, N]⟩ φ₂) (p : Fin B) (c : Fin N) :
    matmul D prec u w (constant ⟨2, ![B, N]⟩ .f32 0x00000000#32) (ix2 p c) = ∑ k : Fin K, u (ix2 p k) * w (ix2 k c) := by
  rw [show matmul D prec u w (constant ⟨2, ![B, N]⟩ .f32 0x00000000#32) (ix2 p c)
      = ∑ k : D.contr.Idx, u (D.lhsIdx (ix2 p c) k) * w (D.rhsIdx (ix2 p c) k) from Ideal.matmul_constant_zero_apply D prec u w (ix2 p c),
    ← Equiv.sum_comp (contrEquiv1 D K hD.rank hD.size).symm]
  exact Finset.sum_congr rfl fun k _ => by rw [hD.lhs, hD.rhs]

/-- The host's `dot_general` of the same shape, at the exact instance, read at `(p, c)`. -/
theorem dotGeneral_ix2 {B K N : ℕ} {φ₁ φ₂ : FTy} {D : DotDims ⟨2, ![B, K]⟩ ⟨2, ![K, N]⟩ ⟨2, ![B, N]⟩} (hD : PlainDot D)
    (prec : Option ContractPrecision) (sched : HostSchedule) (u : FVec Ideal ⟨2, ![B, K]⟩ φ₁) (w : FVec Ideal ⟨2, ![K, N]⟩ φ₂)
    (p : Fin B) (c : Fin N) :
    FloatOps.dotGeneral D prec sched u w (ix2 p c) = ∑ k : Fin K, u (ix2 p k) * w (ix2 k c) := by
  rw [Ideal.dotGeneral_apply, ← Equiv.sum_comp (contrEquiv1 D K hD.rank hD.size).symm]
  exact Finset.sum_congr rfl fun k _ => by rw [hD.lhs, hD.rhs]

end Cert.RowOps
-- ==== Proof.LibERealSum.lean ====
/-
  Sums of real numbers inside the extended reals.

  The coercion `ℝ → EReal` is additive, so it commutes with every finite sum: a finite sum of
  extended reals each of which is (the image of) a real number is the image of the real sum.  In
  particular such a sum is neither `⊥` nor `⊤`.
-/
import Mathlib.Data.EReal.Basic
import Mathlib.Algebra.BigOperators.Group.Finset.Basic

namespace Cert.Gcn.ERealSum

open scoped BigOperators

/-- The coercion of a finite sum of reals is the sum of the coercions, read from right to left:
    `∑ i ∈ s, (f i : EReal) = ((∑ i ∈ s, f i : ℝ) : EReal)`. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum whose terms are all real is real: if `g i = (f i : EReal)` on `s`, then
    `∑ i ∈ s, g i = ((∑ i ∈ s, f i : ℝ) : EReal)`. -/
theorem sum_eq_coe {ι : Type*} (s : Finset ι) (g : ι → EReal) (f : ι → ℝ)
    (h : ∀ i ∈ s, g i = ((f i : ℝ) : EReal)) :
    (∑ i ∈ s, g i) = ((∑ i ∈ s, f i : ℝ) : EReal) := by
  rw [Finset.sum_congr rfl h, sum_coe]

/-- A sum of `1`s over a finite set is its cardinality, as a real inside the extended reals. -/
theorem sum_one (ι : Type*) (s : Finset ι) :
    (∑ _i ∈ s, ((1 : ℝ) : EReal)) = (((s.card : ℕ) : ℝ) : EReal) := by
  rw [sum_coe s (fun _ => (1 : ℝ))]; simp

end Cert.Gcn.ERealSum
-- ==== Proof.LibBlockSum.lean ====
/-
  A sum over the rows of an array, taken block by block.

  When `N = m * n` rows are cut into `m` consecutive blocks of `n` rows, row `n * t + r` being row `r` of
  block `t`, the sum of a function over all rows is the sum over the blocks of each block's own sum. This
  uses only commutativity and associativity of the addition, so it holds in any commutative monoid — in
  particular over the extended reals, where no finiteness is asked.

  A running total that starts at `z + b 0` and adds `b (k + 1)` at step `k + 1` is `z` plus the sum of
  the `b`s met so far.
-/
import Mathlib.Algebra.BigOperators.Fin

namespace Cert.BlockSum

open scoped BigOperators

/-- Rows `g t r` with `(g t r).val = n * t + r` enumerate `Fin N`, `N = m * n`, block by block: the sum over
    all rows is the double sum over blocks and rows inside a block. -/
theorem sum_blocks {M : Type*} [AddCommMonoid M] {N m n : ℕ} (hN : m * n = N) (g : Fin m → Fin n → Fin N)
    (hg : ∀ t r, (g t r).val = n * t.val + r.val) (f : Fin N → M) :
    ∑ i, f i = ∑ t : Fin m, ∑ r : Fin n, f (g t r) := by
  subst hN
  rw [← Equiv.sum_comp finProdFinEquiv f, Fintype.sum_prod_type]
  refine Finset.sum_congr rfl fun t _ => Finset.sum_congr rfl fun r _ => ?_
  refine congrArg f (Fin.ext ?_)
  rw [hg]
  show r.val + n * t.val = n * t.val + r.val
  omega

/-- A running total `a` that starts at `z + b 0` and adds `b (k + 1)` at step `k + 1`, for the steps below
    `K`, is `z` plus the sum of `b` over the steps so far. -/
theorem running_total {M : Type*} [AddCommMonoid M] (K : ℕ) (z : M) (a b : ℕ → M) (h0 : a 0 = z + b 0)
    (hs : ∀ k, k + 1 < K → a (k + 1) = a k + b (k + 1)) :
    ∀ k, k < K → a k = z + ∑ t ∈ Finset.range (k + 1), b t
  | 0, _ => by rw [h0, Finset.sum_range_one]
  | k + 1, hk => by
    rw [hs k hk, running_total K z a b h0 hs k (Nat.lt_of_succ_lt hk), Finset.sum_range_succ _ (k + 1), add_assoc]

end Cert.BlockSum
-- ==== Proof.RealAlg.lean ====
/-
  Real numbers inside the extended reals, and the one algebraic law the two programs differ by.

  At the exact instance a float is an extended real.  The kernel feeds a graph node the CONCATENATION of its
  predecessors' outputs times a block matrix whose blocks are the node's weight (or zero), that is
  `∑ₜ ∑ₖ hₜ k * W k`; the reference adds the predecessors' outputs first, `∑ₖ (∑ₜ hₜ k) * W k`.  The two agree
  by distributivity, which on the extended reals needs the summands to be real numbers (`⊤ + ⊥` breaks it).
  So we carry the predicate "is a real number" through every operation of the network.
-/
import Idealize.ShloMosaic.PureOps.Ideal
import proofs.«166257_j42623255446007_2_alg».proof.Proof.LibERealSum
import proofs.«166257_j42623255446007_2_alg».proof.Proof.LibBlockSum

namespace Cert.Net

open scoped BigOperators
open Idealize.ShloMosaic

/-- An extended real that is (the image of) a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.one : IsReal (1 : EReal) := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.neg {a : EReal} (ha : IsReal a) : IsReal (-a) := by
  obtain ⟨r, rfl⟩ := ha; exact ⟨-r, (EReal.coe_neg r).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.max {a b : EReal} (ha : IsReal a) (hb : IsReal b) : IsReal (max a b) := by
  rcases le_total a b with h | h
  · rw [max_eq_right h]; exact hb
  · rw [max_eq_left h]; exact ha
theorem IsReal.ite {p : Prop} [Decidable p] {a b : EReal} (ha : IsReal a) (hb : IsReal b) : IsReal (if p then a else b) := by
  split <;> assumption

/-- A finite sum of real numbers is a real number. -/
theorem IsReal.sum {ι : Type*} (s : Finset ι) (f : ι → EReal) (h : ∀ i ∈ s, IsReal (f i)) : IsReal (∑ i ∈ s, f i) := by
  classical
  choose! g hg using h
  exact ⟨∑ i ∈ s, g i, Cert.Gcn.ERealSum.sum_eq_coe s f g hg⟩

theorem IsReal.tanh {a : EReal} (ha : IsReal a) : IsReal (Ideal.tanh a) := by
  obtain ⟨r, rfl⟩ := ha; exact ⟨Real.tanh r, rfl⟩
theorem IsReal.sin {a : EReal} (ha : IsReal a) : IsReal (Ideal.sin a) := by
  obtain ⟨r, rfl⟩ := ha; exact ⟨Real.sin r, rfl⟩
theorem IsReal.exp {a : EReal} (ha : IsReal a) : IsReal (Ideal.exp a) := by
  obtain ⟨r, rfl⟩ := ha; exact ⟨Real.exp r, rfl⟩
/-- `log (1 + eʳ)` is a real number: `1 + eʳ` is positive. -/
theorem IsReal.log1p_exp {a : EReal} (ha : IsReal a) : IsReal (Ideal.log1p (Ideal.exp a)) := by
  obtain ⟨r, rfl⟩ := ha
  refine ⟨Real.log (1 + Real.exp r), ?_⟩
  show Ideal.log (1 + ((Real.exp r : ℝ) : EReal)) = _
  rw [show (1 : EReal) + ((Real.exp r : ℝ) : EReal) = ((1 + Real.exp r : ℝ) : EReal) from by rw [EReal.coe_add]; rfl,
    Ideal.log_coe, if_neg (not_le.2 (by positivity))]
theorem IsReal.logistic {a : EReal} (ha : IsReal a) : IsReal (Ideal.logistic a) := by
  obtain ⟨r, rfl⟩ := ha; exact ⟨_, Ideal.logistic_coe r⟩

/-- Distributivity over a finite sum of real numbers, the factor real too. -/
theorem sum_mul_of_real {ι : Type*} (s : Finset ι) (a : ι → EReal) (w : EReal) (ha : ∀ i ∈ s, IsReal (a i)) (hw : IsReal w) :
    (∑ i ∈ s, a i) * w = ∑ i ∈ s, a i * w := by
  classical
  obtain ⟨v, rfl⟩ := hw
  choose! g hg using ha
  rw [Cert.Gcn.ERealSum.sum_eq_coe s a g hg, ← EReal.coe_mul, Finset.sum_mul,
    ← Cert.Gcn.ERealSum.sum_coe]
  refine Finset.sum_congr rfl fun i hi => ?_
  rw [hg i hi, EReal.coe_mul]

/-- **The law the two programs differ by.**  `T` predecessors' outputs `h t` (rows of `n` real numbers), a real
    weight column `W`, and a selection `S` of the predecessors that feed the node: the row-times-column product of the
    concatenated row with the column whose block `t` is `W` when `t ∈ S` and zero otherwise is the product of the SUM
    of the selected outputs with `W`. -/
theorem fused_eq_summed {T n : ℕ} (h : Fin T → Fin n → EReal) (W : Fin n → EReal) (S : Finset (Fin T))
    (hh : ∀ t k, IsReal (h t k)) (hW : ∀ k, IsReal (W k)) :
    ∑ t : Fin T, ∑ k : Fin n, h t k * (if t ∈ S then W k else 0) = ∑ k : Fin n, (∑ t ∈ S, h t k) * W k := by
  classical
  have e1 : ∀ t : Fin T, ∑ k : Fin n, h t k * (if t ∈ S then W k else 0) = if t ∈ S then ∑ k : Fin n, h t k * W k else 0 := by
    intro t
    by_cases ht : t ∈ S
    · simp only [if_pos ht]
    · simp only [if_neg ht, mul_zero, Finset.sum_const_zero]
  rw [Finset.sum_congr rfl fun t _ => e1 t, Finset.sum_ite_mem Finset.univ S, Finset.univ_inter, Finset.sum_comm]
  refine Finset.sum_congr rfl fun k _ => ?_
  exact (sum_mul_of_real S (fun t => h t k) (W k) (fun t _ => hh t k) (hW k)).symm

end Cert.Net
-- ==== Proof.Spec.lean ====
/-
  The network, one batch row at a time, over the extended reals.

  Both programs compute, for each of the 131072 batch rows independently, the same small network: four scalar
  features of the row's coordinates `x, y, r` and of its eight latents are combined into a 64-vector `f`; sixteen graph
  nodes, each an affine map of the SUM of its predecessors' outputs followed by one of five activations; the three sink
  nodes' outputs are added, mapped to three channels, scaled, and squashed by the logistic function.

  The reference adds a node's predecessors and multiplies once.  The kernel multiplies the concatenated predecessors
  by a block matrix, which gives the sum of the separate products.  `lin_add₂ … lin_add₆` are the two readings' equality for
  two to six predecessors — distributivity, valid because every quantity involved is a real number (`RealAlg`).
-/
import proofs.«166257_j42623255446007_2_alg».proof.Proof.RealAlg

noncomputable section

namespace Cert.Net

open scoped BigOperators
open Idealize.ShloMosaic

/-- The word `-0.5` of the Gaussian activation, kept as the program spells it. -/
abbrev negHalf : EReal := Ideal.ofBits .f32 0xBF000000#32

/-- `elu z`: `z` where positive, `eᶻ - 1` elsewhere. -/
def elu (z : EReal) : EReal := if 0 < z then z else Ideal.exp z - 1
/-- `softplus z = max z 0 + log (1 + e^(-|z|))`, the overflow-safe form both programs use. -/
def softplus (z : EReal) : EReal := max z 0 + Ideal.log1p (Ideal.exp (-(max z (-z))))
/-- The Gaussian `e^(-z²/2)`, multiplied out as both programs do: `((-0.5) · z) · z`. -/
def gauss (z : EReal) : EReal := Ideal.exp ((negHalf * z) * z)

/-- Graph node `j`'s activation: the five activations in rotation. -/
def act (j : ℕ) (z : EReal) : EReal :=
  match j % 5 with
  | 0 => Ideal.tanh z
  | 1 => elu z
  | 2 => softplus z
  | 3 => Ideal.sin z
  | _ => gauss z

/-- An affine map's output `n`: the row `h` against row `n` of the weight, plus the bias. -/
def lin {K : ℕ} (W : Fin K → EReal) (bias : EReal) (h : Fin K → EReal) : EReal := (∑ k, h k * W k) + bias

/-- The network's parameters, as the argument arrays hold them. -/
structure Params where
  Wl : Fin 64 → Fin 8 → EReal
  bl : Fin 64 → EReal
  Wx : Fin 64 → EReal
  Wy : Fin 64 → EReal
  Wr : Fin 64 → EReal
  W1 : Fin 64 → Fin 64 → EReal
  b1 : Fin 64 → EReal
  gW : Fin 16 → Fin 64 → Fin 64 → EReal
  gB : Fin 16 → Fin 64 → EReal
  outW : Fin 3 → Fin 64 → EReal
  outb : Fin 3 → EReal
  scale : EReal

/-- Every parameter is a real number (the precondition: finite inputs). -/
structure Params.Real (P : Params) : Prop where
  Wl : ∀ n k, IsReal (P.Wl n k)
  bl : ∀ n, IsReal (P.bl n)
  Wx : ∀ n, IsReal (P.Wx n)
  Wy : ∀ n, IsReal (P.Wy n)
  Wr : ∀ n, IsReal (P.Wr n)
  W1 : ∀ n k, IsReal (P.W1 n k)
  b1 : ∀ n, IsReal (P.b1 n)
  gW : ∀ j n k, IsReal (P.gW j n k)
  gB : ∀ j n, IsReal (P.gB j n)
  outW : ∀ n k, IsReal (P.outW n k)
  outb : ∀ n, IsReal (P.outb n)
  scale : IsReal P.scale

variable (P : Params)

/-- The first layer's output before the second affine map: the Gaussian of the four features' sum. -/
def feat0 (x y r : EReal) (lat : Fin 8 → EReal) (n : Fin 64) : EReal :=
  gauss (((Ideal.tanh (x * P.Wx n) + softplus (y * P.Wy n)) + elu (r * P.Wr n)) + Ideal.tanh (lin (P.Wl n) (P.bl n) lat))

/-- The shared feature `f` the source node reads. -/
def feat (x y r : EReal) (lat : Fin 8 → EReal) (n : Fin 64) : EReal :=
  Ideal.sin (lin (P.W1 n) (P.b1 n) (feat0 P x y r lat))

/-- Graph node `j` on the input row `inp` (the source's `f`, or the sum of the predecessors' outputs). -/
def node (j : Fin 16) (inp : Fin 64 → EReal) (n : Fin 64) : EReal := act j.val (lin (P.gW j n) (P.gB j n) inp)

section Graph
variable (f : Fin 64 → EReal)
/-! The sixteen nodes, each on the sum of its predecessors taken in increasing order, added left to right. -/
def h0 : Fin 64 → EReal := node P 0 f
def h1 : Fin 64 → EReal := node P 1 (h0 P f)
def h2 : Fin 64 → EReal := node P 2 fun k => h0 P f k + h1 P f k
def h3 : Fin 64 → EReal := node P 3 (h1 P f)
def h4 : Fin 64 → EReal := node P 4 (h1 P f)
def h5 : Fin 64 → EReal := node P 5 fun k => h0 P f k + h4 P f k
def h6 : Fin 64 → EReal := node P 6 fun k => ((h0 P f k + h2 P f k) + h3 P f k) + h5 P f k
def h7 : Fin 64 → EReal := node P 7 (h1 P f)
def h8 : Fin 64 → EReal := node P 8 fun k => h6 P f k + h7 P f k
def h9 : Fin 64 → EReal := node P 9 fun k => ((h3 P f k + h5 P f k) + h7 P f k) + h8 P f k
def h10 : Fin 64 → EReal := node P 10 fun k => (h0 P f k + h8 P f k) + h9 P f k
def h11 : Fin 64 → EReal := node P 11 (h4 P f)
def h12 : Fin 64 → EReal := node P 12 fun k => h2 P f k + h3 P f k
def h13 : Fin 64 → EReal := node P 13 fun k => (h4 P f k + h6 P f k) + h12 P f k
def h14 : Fin 64 → EReal := node P 14 fun k => (h0 P f k + h1 P f k) + h11 P f k
def h15 : Fin 64 → EReal := node P 15 fun k => h1 P f k + h10 P f k
/-- The three sinks' outputs added, mapped to the three channels, scaled and squashed. -/
def out (c : Fin 3) : EReal :=
  Ideal.logistic (lin (P.outW c) (P.outb c) (fun k => (h13 P f k + h14 P f k) + h15 P f k) * P.scale)
end Graph

/-- The whole network on one batch row. -/
def net (x y r : EReal) (lat : Fin 8 → EReal) (c : Fin 3) : EReal := out P (feat P x y r lat) c

/-! ## Everything is a real number -/

theorem negHalf_real : IsReal negHalf := by
  unfold negHalf Ideal.ofBits Ideal.ieee
  simp only []
  rw [if_neg (by decide), if_neg (by decide)]
  exact ⟨_, rfl⟩

theorem IsReal.elu {z : EReal} (hz : IsReal z) : IsReal (elu z) := by
  unfold Net.elu; exact IsReal.ite hz (hz.exp.sub IsReal.one)
theorem IsReal.softplus {z : EReal} (hz : IsReal z) : IsReal (softplus z) := by
  unfold Net.softplus; exact (hz.max IsReal.zero).add (hz.max hz.neg).neg.log1p_exp
theorem IsReal.gauss {z : EReal} (hz : IsReal z) : IsReal (gauss z) := by
  unfold Net.gauss; exact ((negHalf_real.mul hz).mul hz).exp
theorem IsReal.act (j : ℕ) {z : EReal} (hz : IsReal z) : IsReal (act j z) := by
  unfold Net.act
  split
  · exact hz.tanh
  · exact hz.elu
  · exact hz.softplus
  · exact hz.sin
  · exact hz.gauss
theorem IsReal.lin {K : ℕ} {W : Fin K → EReal} {bias : EReal} {h : Fin K → EReal} (hW : ∀ k, IsReal (W k)) (hb : IsReal bias)
    (hh : ∀ k, IsReal (h k)) : IsReal (lin W bias h) :=
  (IsReal.sum _ _ fun k _ => (hh k).mul (hW k)).add hb

/-! ## Adding the predecessors first, or their products afterwards -/

theorem add_mul_real {a b w : EReal} (ha : IsReal a) (hb : IsReal b) (hw : IsReal w) : (a + b) * w = a * w + b * w := by
  obtain ⟨a, rfl⟩ := ha; obtain ⟨b, rfl⟩ := hb; obtain ⟨w, rfl⟩ := hw
  rw [← EReal.coe_add, ← EReal.coe_mul, ← EReal.coe_mul, ← EReal.coe_mul, ← EReal.coe_add, add_mul]

section Distrib
variable {K : ℕ} (W : Fin K → EReal) (hW : ∀ k, IsReal (W k))
include hW

theorem lin_add₂ (a b : Fin K → EReal) (ha : ∀ k, IsReal (a k)) (hb : ∀ k, IsReal (b k)) :
    (∑ k, a k * W k) + (∑ k, b k * W k) = ∑ k, (a k + b k) * W k := by
  rw [← Finset.sum_add_distrib]
  exact Finset.sum_congr rfl fun k _ => (add_mul_real (ha k) (hb k) (hW k)).symm

theorem lin_add₃ (a b c : Fin K → EReal) (ha : ∀ k, IsReal (a k)) (hb : ∀ k, IsReal (b k)) (hc : ∀ k, IsReal (c k)) :
    ((∑ k, a k * W k) + (∑ k, b k * W k)) + (∑ k, c k * W k) = ∑ k, ((a k + b k) + c k) * W k := by
  rw [lin_add₂ W hW a b ha hb, lin_add₂ W hW _ c (fun k => (ha k).add (hb k)) hc]

theorem lin_add₄ (a b c d : Fin K → EReal) (ha : ∀ k, IsReal (a k)) (hb : ∀ k, IsReal (b k)) (hc : ∀ k, IsReal (c k))
    (hd : ∀ k, IsReal (d k)) :
    (((∑ k, a k * W k) + (∑ k, b k * W k)) + (∑ k, c k * W k)) + (∑ k, d k * W k) = ∑ k, (((a k + b k) + c k) + d k) * W k := by
  rw [lin_add₃ W hW a b c ha hb hc, lin_add₂ W hW _ d (fun k => ((ha k).add (hb k)).add (hc k)) hd]
end Distrib

end Cert.Net

end
-- ==== Proof.RowOps2.lean ====
/-
  A matrix product whose contracted axis is a concatenation of 64-wide pieces, summed piece by piece; an affine
  layer (product plus a bias row broadcast down the batch) read at coordinates; and the three composite activations
  in the kernel's elementwise spelling.
-/
import proofs.«166257_j42623255446007_2_alg».proof.Proof.RowOps
import proofs.«166257_j42623255446007_2_alg».proof.Proof.Spec

namespace Cert.RowOps

open scoped BigOperators
open Idealize.ShloMosaic Idealize.ShloMosaic.ValueIdx Cert.Net

/-- Position `k` of the `τ`-th 64-wide piece of an axis of extent `K = T · 64`. -/
def gix {K : ℕ} (T : ℕ) (h : T * 64 = K) (τ : Fin T) (k : Fin 64) : Fin K :=
  ⟨64 * τ.val + k.val, by have := τ.isLt; have := k.isLt; omega⟩

@[simp] theorem gix_val {K : ℕ} (T : ℕ) (h : T * 64 = K) (τ : Fin T) (k : Fin 64) : (gix T h τ k).val = 64 * τ.val + k.val := rfl

/-- A product over a contracted axis made of `T` pieces of 64 is the sum over the pieces of each piece's product. -/
theorem matmul_blocks {B K N : ℕ} {φ₁ φ₂ : FTy} {D : DotDims ⟨2, ![B, K]⟩ ⟨2, ![K, N]⟩ ⟨2, ![B, N]⟩} (hD : PlainDot D)
    (T : ℕ) (hK : T * 64 = K) (prec : Option ContractPrecision) (u : FVec Ideal ⟨2, ![B, K]⟩ φ₁) (w : FVec Ideal ⟨2, ![K, N]⟩ φ₂)
    (p : Fin B) (c : Fin N) :
    matmul D prec u w (constant ⟨2, ![B, N]⟩ .f32 0x00000000#32) (ix2 p c)
      = ∑ τ : Fin T, ∑ k : Fin 64, u (ix2 p (gix T hK τ k)) * w (ix2 (gix T hK τ k) c) := by
  rw [matmul_ix2 hD]
  exact Cert.BlockSum.sum_blocks hK (gix T hK) (fun _ _ => rfl) _

/-- A bias vector, cast to one row and broadcast down the batch, reads its entry of the column. -/
theorem biasRow_apply {B N : ℕ} {α : Type} (b : (⟨1, ![N]⟩ : Shape).Idx → α) (h₁ : (⟨1, ![N]⟩ : Shape).ShapeCasts ⟨2, ![1, N]⟩)
    (h₂ : (⟨2, ![1, N]⟩ : Shape).Broadcasts ⟨2, ![B, N]⟩) (p : Fin B) (c : Fin N) :
    broadcastTo ⟨2, ![B, N]⟩ (shapeCast ⟨2, ![1, N]⟩ b h₁) h₂ (ix2 p c) = b (ix1 c) := by
  rw [broadcastTo_1b_ab_apply, shapeCast_a_1a_apply]

/-- The word of `1.0`: exponent 127, zero fraction. -/
theorem ofBits_one_f32 : Ideal.ofBits .f32 0x3F800000#32 = (1 : EReal) := by
  simp [Ideal.ofBits, Ideal.ieee]
  rw [← EReal.coe_mul]
  norm_num

/-! ## The activations, element by element, as the kernel spells them -/

section Acts
variable {s : Shape}

/-- `where(z > 0, z, exp z - 1)`. -/
theorem elu_apply (z : FVec Ideal s .f32) (i : s.Idx) :
    select (cmpf .ogt z (broadcast s (Scalar.ofBits (F := Ideal) .f32 0x00000000#32)))
      z (subf (exp z) (broadcast s (Scalar.ofBits (F := Ideal) .f32 0x3F800000#32))) i = Net.elu (z i) := by
  show Scalar.select (Ideal.cmp .ogt (z i) (Ideal.ofBits .f32 0x00000000#32)) (z i)
      (Ideal.exp (z i) - Ideal.ofBits .f32 0x3F800000#32) = _
  rw [Ideal.ofBits_zero_f32, ofBits_one_f32]
  unfold Net.elu Scalar.select Ideal.cmp
  by_cases h : 0 < z i
  · simp [h]
  · simp [h]

/-- The overflow-safe softplus: `max z 0 + log1p (exp (0 - |z - 0|))`, the not-a-number guard never taken. -/
theorem softplus_apply (z : FVec Ideal s .f32) (i : s.Idx) :
    let c0 : Ideal .f32 := Scalar.ofBits (F := Ideal) .f32 0x00000000#32
    select (cmpf .one (subf z (broadcast s c0)) (subf z (broadcast s c0))) (addf z (broadcast s c0))
      (addf (maximumf z (broadcast s c0)) (log1p (exp (subf (broadcast s c0) (absf (subf z (broadcast s c0))))))) i
      = Net.softplus (z i) := by
  intro c0
  show Scalar.select (Ideal.cmp .one (z i - Ideal.ofBits .f32 0x00000000#32) (z i - Ideal.ofBits .f32 0x00000000#32))
      (z i + Ideal.ofBits .f32 0x00000000#32)
      (max (z i) (Ideal.ofBits .f32 0x00000000#32)
        + Ideal.log1p (Ideal.exp (Ideal.ofBits .f32 0x00000000#32
            - max (z i - Ideal.ofBits .f32 0x00000000#32) (-(z i - Ideal.ofBits .f32 0x00000000#32))))) = _
  rw [Ideal.ofBits_zero_f32]
  unfold Net.softplus Scalar.select Ideal.cmp
  simp only [ne_eq, not_true_eq_false, decide_false, BitVec.ofBool_false, sub_zero, zero_sub]
  rfl

/-- The Gaussian `exp ((-0.5 · z) · z)`. -/
theorem gauss_apply (z : FVec Ideal s .f32) (i : s.Idx) :
    exp (mulf (mulf (broadcast s (Scalar.ofBits (F := Ideal) .f32 0xBF000000#32)) z) z) i = Net.gauss (z i) := rfl

end Acts

end Cert.RowOps
-- ==== Proof.PushIdx.lean ====
/-
  Pointwise operations, scalar activations and unit-stride slices as rewrite rules at an index.

  At the exact instance every pointwise vector operation read at an index is the scalar operation of the operands read
  there; these are the rules that carry an index from a result down to the loaded blocks.  The three composite
  activations are recognised in their scalar form once the index has reached them.  A slice along the columns (or
  the rows) reads the operand at the shifted column (row), the bound coming from the slice's own shape fact.
-/
import proofs.«166257_j42623255446007_2_alg».proof.Proof.RowOps2

namespace Cert.RowOps

open scoped BigOperators
open Idealize.ShloMosaic Idealize.ShloMosaic.ValueIdx Cert.Net

section Pointwise
variable {s : Shape} {φ : FTy}

theorem tanh_apply (v : FVec Ideal s φ) (i : s.Idx) : tanh v i = Ideal.tanh (v i) := rfl
theorem sin_apply (v : FVec Ideal s φ) (i : s.Idx) : sin v i = Ideal.sin (v i) := rfl
theorem exp_apply (v : FVec Ideal s φ) (i : s.Idx) : exp v i = Ideal.exp (v i) := rfl
theorem log1p_apply (v : FVec Ideal s φ) (i : s.Idx) : log1p v i = Ideal.log1p (v i) := rfl
theorem absf_apply (v : FVec Ideal s φ) (i : s.Idx) : absf v i = max (v i) (-(v i)) := rfl
theorem logistic_apply (v : FVec Ideal s φ) (i : s.Idx) : logistic v i = Ideal.logistic (v i) := rfl
theorem cmpf_apply' (p : CmpFPredicate) (a b : FVec Ideal s φ) (i : s.Idx) : cmpf p a b i = Ideal.cmp p (a i) (b i) := rfl
theorem bcastWord_apply (w : BitVec 32) (i : s.Idx) : broadcast s (Scalar.ofBits (F := Ideal) .f32 w) i = Ideal.ofBits .f32 w := rfl

end Pointwise

/-! ## The composite activations on one element -/

theorem elu_scalar (a : EReal) :
    Scalar.select (Ideal.cmp .ogt a (Ideal.ofBits .f32 0x00000000#32)) a (Ideal.exp a - Ideal.ofBits .f32 0x3F800000#32) = Net.elu a := by
  rw [Ideal.ofBits_zero_f32, ofBits_one_f32]
  unfold Net.elu Scalar.select Ideal.cmp
  by_cases h : 0 < a
  · simp [h]
  · simp [h]

theorem softplus_scalar (a : EReal) :
    Scalar.select (Ideal.cmp .one (a - Ideal.ofBits .f32 0x00000000#32) (a - Ideal.ofBits .f32 0x00000000#32))
      (a + Ideal.ofBits .f32 0x00000000#32)
      (max a (Ideal.ofBits .f32 0x00000000#32)
        + Ideal.log1p (Ideal.exp (Ideal.ofBits .f32 0x00000000#32
            - max (a - Ideal.ofBits .f32 0x00000000#32) (-(a - Ideal.ofBits .f32 0x00000000#32))))) = Net.softplus a := by
  rw [Ideal.ofBits_zero_f32]
  unfold Net.softplus Scalar.select Ideal.cmp
  simp only [ne_eq, not_true_eq_false, decide_false, BitVec.ofBool_false, sub_zero, zero_sub]
  rfl

theorem gauss_scalar (a : EReal) : Ideal.exp ((Ideal.ofBits .f32 0xBF000000#32 * a) * a) = Net.gauss a := rfl

/-! ## Slices along one axis of a matrix -/

variable {α : Type}

theorem slice_cols_apply {B N n o : ℕ} (X : (⟨2, ![B, N]⟩ : Shape).Idx → α)
    (h : (⟨2, ![B, N]⟩ : Shape).Slices ![0, o] ⟨2, ![B, n]⟩) (a : Fin B) (j : Fin n) :
    extractStridedSlice ⟨2, ![B, n]⟩ ![0, o] X h (ix2 a j)
      = X (ix2 a ⟨o + j.val, by have hb : o + n ≤ N := h.2 (1 : Fin 2); have := j.isLt; omega⟩) :=
  slice2_axis1_apply o X h a j _ rfl

theorem slice_rows_apply {M N m o : ℕ} (X : (⟨2, ![M, N]⟩ : Shape).Idx → α)
    (h : (⟨2, ![M, N]⟩ : Shape).Slices ![o, 0] ⟨2, ![m, N]⟩) (r : Fin m) (c : Fin N) :
    extractStridedSlice ⟨2, ![m, N]⟩ ![o, 0] X h (ix2 r c)
      = X (ix2 ⟨o + r.val, by have hb : o + m ≤ M := h.2 (0 : Fin 2); have := r.isLt; omega⟩ c) :=
  slice2_axis0_apply o X h r c _ rfl

/-- A matrix transposed, the permutation given as a variable (so that the rule fires whatever spelling of `[1, 0]` the
    program uses): at `(j, i)` the operand at `(i, j)`. -/
theorem transpose2_apply {a b : ℕ} (x : (⟨2, ![a, b]⟩ : Shape).Idx → α) (perm : List (Fin 2)) (hp : perm = [1, 0])
    (h : (⟨2, ![a, b]⟩ : Shape).Transposes perm ⟨2, ![b, a]⟩) (j : Fin b) (i : Fin a) :
    transpose ⟨2, ![b, a]⟩ perm x h (ix2 j i) = x (ix2 i j) := by
  subst hp; exact transpose_ix2_apply x h j i

end Cert.RowOps
-- ==== Proof.KWeights.lean ====
/-
  What the kernel's weight windows hold, in terms of the network's parameters.

  The wrapper around the kernel hands it the first-layer and output weights as they are (the matrices it multiplies by
  stored transposed where the body does not transpose them itself), and, for each level of the graph, ONE fused
  matrix: the level's input is the concatenation of 64-wide outputs of earlier nodes (its tokens), the level's output
  the concatenation of its nodes' pre-activations, and block (token τ, node q) of the matrix is node q's weight,
  transposed, when token τ is one of node q's predecessors, and zero otherwise.  The level's bias is the
  concatenation of its nodes' biases.  `KW P l1 … l26` says exactly this of the 26 weight blocks the body loads.
-/
import proofs.«166257_j42623255446007_2_alg».proof.Proof.KFrameValue
import proofs.«166257_j42623255446007_2_alg».proof.Proof.PushIdx

namespace Cert.KernelIdeal.Hand.Val

open Idealize.ShloMosaic Idealize.ShloMosaic.ValueIdx Cert.KernelIdeal Cert.RowOps Cert.Net

/-- The 26 weight blocks hold the parameters `P`, laid out as the kernel's wrapper lays them out. -/
structure KW (P : Params) (l1 : Vec Ideal S64x8 .bf16) (l2 : Vec Ideal S64 .f32) (l3 : Vec Ideal S3x64 .f32) (l4 : Vec Ideal S64x64 .bf16) (l5 : Vec Ideal S64 .f32) (l6 : Vec Ideal S3x64 .bf16) (l7 : Vec Ideal S3 .f32) (l8 : Vec Ideal S1 .f32) (l9 : Vec Ideal S64x64 .bf16) (l10 : Vec Ideal S64 .f32) (l11 : Vec Ideal S64x64 .bf16) (l12 : Vec Ideal S64 .f32) (l13 : Vec Ideal S128x256 .bf16) (l14 : Vec Ideal S256 .f32) (l15 : Vec Ideal S256x192 .bf16) (l16 : Vec Ideal S192 .f32) (l17 : Vec Ideal S384x128 .bf16) (l18 : Vec Ideal S128 .f32) (l19 : Vec Ideal S256x128 .bf16) (l20 : Vec Ideal S128 .f32) (l21 : Vec Ideal S256x64 .bf16) (l22 : Vec Ideal S64 .f32) (l23 : Vec Ideal S192x64 .bf16) (l24 : Vec Ideal S64 .f32) (l25 : Vec Ideal S128x64 .bf16) (l26 : Vec Ideal S64 .f32) : Prop where
  wl : ∀ (n : Fin 64) (k : Fin 8), l1 (ix2 n k) = P.Wl n k
  bl : ∀ n : Fin 64, l2 (ix1 n) = P.bl n
  wx : ∀ n : Fin 64, l3 (ix2 (⟨0, by decide⟩ : Fin 3) n) = P.Wx n
  wy : ∀ n : Fin 64, l3 (ix2 (⟨1, by decide⟩ : Fin 3) n) = P.Wy n
  wr : ∀ n : Fin 64, l3 (ix2 (⟨2, by decide⟩ : Fin 3) n) = P.Wr n
  w1 : ∀ n k : Fin 64, l4 (ix2 n k) = P.W1 n k
  b1 : ∀ n : Fin 64, l5 (ix1 n) = P.b1 n
  ow : ∀ (c : Fin 3) (k : Fin 64), l6 (ix2 c k) = P.outW c k
  ob : ∀ c : Fin 3, l7 (ix1 c) = P.outb c
  sc : l8 (ix1 (0 : Fin 1)) = P.scale
  g0 : ∀ k n : Fin 64, l9 (ix2 k n) = P.gW 0 n k
  gb0 : ∀ n : Fin 64, l10 (ix1 n) = P.gB 0 n
  g1 : ∀ k n : Fin 64, l11 (ix2 k n) = P.gW 1 n k
  gb1 : ∀ n : Fin 64, l12 (ix1 n) = P.gB 1 n
  f13_0_0 : ∀ k n : Fin 64, l13 (ix2 (gix 2 rfl (0 : Fin 2) k) (gix 4 rfl (0 : Fin 4) n)) = P.gW 2 n k
  f13_0_1 : ∀ k n : Fin 64, l13 (ix2 (gix 2 rfl (0 : Fin 2) k) (gix 4 rfl (1 : Fin 4) n)) = 0
  f13_0_2 : ∀ k n : Fin 64, l13 (ix2 (gix 2 rfl (0 : Fin 2) k) (gix 4 rfl (2 : Fin 4) n)) = 0
  f13_0_3 : ∀ k n : Fin 64, l13 (ix2 (gix 2 rfl (0 : Fin 2) k) (gix 4 rfl (3 : Fin 4) n)) = 0
  f13_1_0 : ∀ k n : Fin 64, l13 (ix2 (gix 2 rfl (1 : Fin 2) k) (gix 4 rfl (0 : Fin 4) n)) = P.gW 2 n k
  f13_1_1 : ∀ k n : Fin 64, l13 (ix2 (gix 2 rfl (1 : Fin 2) k) (gix 4 rfl (1 : Fin 4) n)) = P.gW 3 n k
  f13_1_2 : ∀ k n : Fin 64, l13 (ix2 (gix 2 rfl (1 : Fin 2) k) (gix 4 rfl (2 : Fin 4) n)) = P.gW 4 n k
  f13_1_3 : ∀ k n : Fin 64, l13 (ix2 (gix 2 rfl (1 : Fin 2) k) (gix 4 rfl (3 : Fin 4) n)) = P.gW 7 n k
  b14_0 : ∀ n : Fin 64, l14 (ix1 (gix 4 rfl (0 : Fin 4) n)) = P.gB 2 n
  b14_1 : ∀ n : Fin 64, l14 (ix1 (gix 4 rfl (1 : Fin 4) n)) = P.gB 3 n
  b14_2 : ∀ n : Fin 64, l14 (ix1 (gix 4 rfl (2 : Fin 4) n)) = P.gB 4 n
  b14_3 : ∀ n : Fin 64, l14 (ix1 (gix 4 rfl (3 : Fin 4) n)) = P.gB 7 n
  f15_0_0 : ∀ k n : Fin 64, l15 (ix2 (gix 4 rfl (0 : Fin 4) k) (gix 3 rfl (0 : Fin 3) n)) = P.gW 5 n k
  f15_0_1 : ∀ k n : Fin 64, l15 (ix2 (gix 4 rfl (0 : Fin 4) k) (gix 3 rfl (1 : Fin 3) n)) = 0
  f15_0_2 : ∀ k n : Fin 64, l15 (ix2 (gix 4 rfl (0 : Fin 4) k) (gix 3 rfl (2 : Fin 3) n)) = 0
  f15_1_0 : ∀ k n : Fin 64, l15 (ix2 (gix 4 rfl (1 : Fin 4) k) (gix 3 rfl (0 : Fin 3) n)) = 0
  f15_1_1 : ∀ k n : Fin 64, l15 (ix2 (gix 4 rfl (1 : Fin 4) k) (gix 3 rfl (1 : Fin 3) n)) = 0
  f15_1_2 : ∀ k n : Fin 64, l15 (ix2 (gix 4 rfl (1 : Fin 4) k) (gix 3 rfl (2 : Fin 3) n)) = P.gW 12 n k
  f15_2_0 : ∀ k n : Fin 64, l15 (ix2 (gix 4 rfl (2 : Fin 4) k) (gix 3 rfl (0 : Fin 3) n)) = 0
  f15_2_1 : ∀ k n : Fin 64, l15 (ix2 (gix 4 rfl (2 : Fin 4) k) (gix 3 rfl (1 : Fin 3) n)) = 0
  f15_2_2 : ∀ k n : Fin 64, l15 (ix2 (gix 4 rfl (2 : Fin 4) k) (gix 3 rfl (2 : Fin 3) n)) = P.gW 12 n k
  f15_3_0 : ∀ k n : Fin 64, l15 (ix2 (gix 4 rfl (3 : Fin 4) k) (gix 3 rfl (0 : Fin 3) n)) = P.gW 5 n k
  f15_3_1 : ∀ k n : Fin 64, l15 (ix2 (gix 4 rfl (3 : Fin 4) k) (gix 3 rfl (1 : Fin 3) n)) = P.gW 11 n k
  f15_3_2 : ∀ k n : Fin 64, l15 (ix2 (gix 4 rfl (3 : Fin 4) k) (gix 3 rfl (2 : Fin 3) n)) = 0
  b16_0 : ∀ n : Fin 64, l16 (ix1 (gix 3 rfl (0 : Fin 3) n)) = P.gB 5 n
  b16_1 : ∀ n : Fin 64, l16 (ix1 (gix 3 rfl (1 : Fin 3) n)) = P.gB 11 n
  b16_2 : ∀ n : Fin 64, l16 (ix1 (gix 3 rfl (2 : Fin 3) n)) = P.gB 12 n
  f17_0_0 : ∀ k n : Fin 64, l17 (ix2 (gix 6 rfl (0 : Fin 6) k) (gix 2 rfl (0 : Fin 2) n)) = P.gW 6 n k
  f17_0_1 : ∀ k n : Fin 64, l17 (ix2 (gix 6 rfl (0 : Fin 6) k) (gix 2 rfl (1 : Fin 2) n)) = P.gW 14 n k
  f17_1_0 : ∀ k n : Fin 64, l17 (ix2 (gix 6 rfl (1 : Fin 6) k) (gix 2 rfl (0 : Fin 2) n)) = 0
  f17_1_1 : ∀ k n : Fin 64, l17 (ix2 (gix 6 rfl (1 : Fin 6) k) (gix 2 rfl (1 : Fin 2) n)) = P.gW 14 n k
  f17_2_0 : ∀ k n : Fin 64, l17 (ix2 (gix 6 rfl (2 : Fin 6) k) (gix 2 rfl (0 : Fin 2) n)) = P.gW 6 n k
  f17_2_1 : ∀ k n : Fin 64, l17 (ix2 (gix 6 rfl (2 : Fin 6) k) (gix 2 rfl (1 : Fin 2) n)) = 0
  f17_3_0 : ∀ k n : Fin 64, l17 (ix2 (gix 6 rfl (3 : Fin 6) k) (gix 2 rfl (0 : Fin 2) n)) = P.gW 6 n k
  f17_3_1 : ∀ k n : Fin 64, l17 (ix2 (gix 6 rfl (3 : Fin 6) k) (gix 2 rfl (1 : Fin 2) n)) = 0
  f17_4_0 : ∀ k n : Fin 64, l17 (ix2 (gix 6 rfl (4 : Fin 6) k) (gix 2 rfl (0 : Fin 2) n)) = P.gW 6 n k
  f17_4_1 : ∀ k n : Fin 64, l17 (ix2 (gix 6 rfl (4 : Fin 6) k) (gix 2 rfl (1 : Fin 2) n)) = 0
  f17_5_0 : ∀ k n : Fin 64, l17 (ix2 (gix 6 rfl (5 : Fin 6) k) (gix 2 rfl (0 : Fin 2) n)) = 0
  f17_5_1 : ∀ k n : Fin 64, l17 (ix2 (gix 6 rfl (5 : Fin 6) k) (gix 2 rfl (1 : Fin 2) n)) = P.gW 14 n k
  b18_0 : ∀ n : Fin 64, l18 (ix1 (gix 2 rfl (0 : Fin 2) n)) = P.gB 6 n
  b18_1 : ∀ n : Fin 64, l18 (ix1 (gix 2 rfl (1 : Fin 2) n)) = P.gB 14 n
  f19_0_0 : ∀ k n : Fin 64, l19 (ix2 (gix 4 rfl (0 : Fin 4) k) (gix 2 rfl (0 : Fin 2) n)) = 0
  f19_0_1 : ∀ k n : Fin 64, l19 (ix2 (gix 4 rfl (0 : Fin 4) k) (gix 2 rfl (1 : Fin 2) n)) = P.gW 13 n k
  f19_1_0 : ∀ k n : Fin 64, l19 (ix2 (gix 4 rfl (1 : Fin 4) k) (gix 2 rfl (0 : Fin 2) n)) = P.gW 8 n k
  f19_1_1 : ∀ k n : Fin 64, l19 (ix2 (gix 4 rfl (1 : Fin 4) k) (gix 2 rfl (1 : Fin 2) n)) = P.gW 13 n k
  f19_2_0 : ∀ k n : Fin 64, l19 (ix2 (gix 4 rfl (2 : Fin 4) k) (gix 2 rfl (0 : Fin 2) n)) = P.gW 8 n k
  f19_2_1 : ∀ k n : Fin 64, l19 (ix2 (gix 4 rfl (2 : Fin 4) k) (gix 2 rfl (1 : Fin 2) n)) = 0
  f19_3_0 : ∀ k n : Fin 64, l19 (ix2 (gix 4 rfl (3 : Fin 4) k) (gix 2 rfl (0 : Fin 2) n)) = 0
  f19_3_1 : ∀ k n : Fin 64, l19 (ix2 (gix 4 rfl (3 : Fin 4) k) (gix 2 rfl (1 : Fin 2) n)) = P.gW 13 n k
  b20_0 : ∀ n : Fin 64, l20 (ix1 (gix 2 rfl (0 : Fin 2) n)) = P.gB 8 n
  b20_1 : ∀ n : Fin 64, l20 (ix1 (gix 2 rfl (1 : Fin 2) n)) = P.gB 13 n
  f21_0_0 : ∀ k n : Fin 64, l21 (ix2 (gix 4 rfl (0 : Fin 4) k) n) = P.gW 9 n k
  f21_1_0 : ∀ k n : Fin 64, l21 (ix2 (gix 4 rfl (1 : Fin 4) k) n) = P.gW 9 n k
  f21_2_0 : ∀ k n : Fin 64, l21 (ix2 (gix 4 rfl (2 : Fin 4) k) n) = P.gW 9 n k
  f21_3_0 : ∀ k n : Fin 64, l21 (ix2 (gix 4 rfl (3 : Fin 4) k) n) = P.gW 9 n k
  b22_0 : ∀ n : Fin 64, l22 (ix1 n) = P.gB 9 n
  f23_0_0 : ∀ k n : Fin 64, l23 (ix2 (gix 3 rfl (0 : Fin 3) k) n) = P.gW 10 n k
  f23_1_0 : ∀ k n : Fin 64, l23 (ix2 (gix 3 rfl (1 : Fin 3) k) n) = P.gW 10 n k
  f23_2_0 : ∀ k n : Fin 64, l23 (ix2 (gix 3 rfl (2 : Fin 3) k) n) = P.gW 10 n k
  b24_0 : ∀ n : Fin 64, l24 (ix1 n) = P.gB 10 n
  f25_0_0 : ∀ k n : Fin 64, l25 (ix2 (gix 2 rfl (0 : Fin 2) k) n) = P.gW 15 n k
  f25_1_0 : ∀ k n : Fin 64, l25 (ix2 (gix 2 rfl (1 : Fin 2) k) n) = P.gW 15 n k
  b26_0 : ∀ n : Fin 64, l26 (ix1 n) = P.gB 15 n

end Cert.KernelIdeal.Hand.Val
-- ==== Proof.ParamsOf.lean ====
/-
  The network's parameters read off the argument arrays, and one batch row's inputs.

  The weight arguments are used as stored: `Wl[n, k]`, `W1[n, k]`, `gW[j, n, k]`, `outW[c, k]` multiply input `k` into
  output `n` (or channel `c`); the three coordinate weights are `[64, 1]` columns; the scale is a one-element vector.
-/
import proofs.«166257_j42623255446007_2_alg».proof.Proof.Spec
import Idealize.ShloMosaic.Lib.ValueIdx

noncomputable section
namespace Cert.Net
open Idealize.ShloMosaic Idealize.ShloMosaic.ValueIdx

/-- The parameters the twelve weight arrays hold. -/
def paramsOf (a2 : (⟨2, ![64, 8]⟩ : Shape).Idx → EReal) (a3 : (⟨1, ![64]⟩ : Shape).Idx → EReal)
    (a4 a5 a6 : (⟨2, ![64, 1]⟩ : Shape).Idx → EReal) (a7 : (⟨2, ![64, 64]⟩ : Shape).Idx → EReal) (a8 : (⟨1, ![64]⟩ : Shape).Idx → EReal)
    (a9 : (⟨3, ![16, 64, 64]⟩ : Shape).Idx → EReal) (a10 : (⟨2, ![16, 64]⟩ : Shape).Idx → EReal)
    (a11 : (⟨2, ![3, 64]⟩ : Shape).Idx → EReal) (a12 : (⟨1, ![3]⟩ : Shape).Idx → EReal) (a13 : (⟨1, ![1]⟩ : Shape).Idx → EReal) : Params where
  Wl n k := a2 (ix2 n k)
  bl n := a3 (ix1 n)
  Wx n := a4 (ix2 n (0 : Fin 1))
  Wy n := a5 (ix2 n (0 : Fin 1))
  Wr n := a6 (ix2 n (0 : Fin 1))
  W1 n k := a7 (ix2 n k)
  b1 n := a8 (ix1 n)
  gW j n k := a9 (ix3 j n k)
  gB j n := a10 (ix2 j n)
  outW c k := a11 (ix2 c k)
  outb c := a12 (ix1 c)
  scale := a13 (ix1 (0 : Fin 1))

/-- The network on batch row `q` of the two input arrays (`inputs[q, 0..2, 0]` are the coordinates x, y, r). -/
def netRow (Pm : Params) (a0 : (⟨3, ![131072, 3, 1]⟩ : Shape).Idx → EReal) (a1 : (⟨2, ![131072, 8]⟩ : Shape).Idx → EReal)
    (q : Fin 131072) (c : Fin 3) : EReal :=
  net Pm (a0 (ix3 q (0 : Fin 3) (0 : Fin 1))) (a0 (ix3 q (1 : Fin 3) (0 : Fin 1))) (a0 (ix3 q (2 : Fin 3) (0 : Fin 1))) (fun k => a1 (ix2 q k)) c

/-- If every weight entry is a real number, the parameters are real. -/
theorem paramsOf_real {a2 a3 a4 a5 a6 a7 a8 a9 a10 a11 a12 a13} (h2 : ∀ i, IsReal (a2 i)) (h3 : ∀ i, IsReal (a3 i)) (h4 : ∀ i, IsReal (a4 i))
    (h5 : ∀ i, IsReal (a5 i)) (h6 : ∀ i, IsReal (a6 i)) (h7 : ∀ i, IsReal (a7 i)) (h8 : ∀ i, IsReal (a8 i)) (h9 : ∀ i, IsReal (a9 i))
    (h10 : ∀ i, IsReal (a10 i)) (h11 : ∀ i, IsReal (a11 i)) (h12 : ∀ i, IsReal (a12 i)) (h13 : ∀ i, IsReal (a13 i)) :
    (paramsOf a2 a3 a4 a5 a6 a7 a8 a9 a10 a11 a12 a13).Real :=
  ⟨fun _ _ => h2 _, fun _ => h3 _, fun _ => h4 _, fun _ => h5 _, fun _ => h6 _, fun _ _ => h7 _, fun _ => h8 _, fun _ _ _ => h9 _,
    fun _ _ => h10 _, fun _ _ => h11 _, fun _ => h12 _, h13 _⟩

end Cert.Net
end
-- ==== Proof.KWinA.lean ====
/- What window 0 and the twelve plain weight windows of `KernelIdeal` hold at a grid point, read at coordinates.

   Window 0's block at point `t` is rows `2048 t … 2048 t + 2047` of the row array, whose first three columns are the
   coordinates `inputs[row, 0..2, 0]` and whose last eight are `latents[row, 0..7]`. Windows 1 … 12 are whole arrays:
   the latent, first-layer, output and first two graph weights and biases, as stored or rounded to bf16 (the identity
   on the extended reals), the three coordinate weight columns turned into the three rows of one matrix, and a graph
   node's weight matrix transposed. -/
import proofs.«166257_j42623255446007_2_alg».proof.Proof.KWinBlock
import proofs.«166257_j42623255446007_2_alg».proof.Proof.KWinHostA
import proofs.«166257_j42623255446007_2_alg».proof.Proof.KWinHostC
import proofs.«166257_j42623255446007_2_alg».proof.Proof.KFinal
import proofs.«166257_j42623255446007_2_alg».proof.Proof.KWeights
import proofs.«166257_j42623255446007_2_alg».proof.Proof.ParamsOf

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen Cert.RowOps Cert.Net

/-! ## Layout operations read at coordinates -/

namespace HostA

variable {α : Type}

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- Member `j` of the weight stack, cut out, its unit axis dropped, transposed: at `(k, n)` the stack at `(j, n, k)`. -/
theorem memberT_apply (a9 : Vec Ideal S16x64x64 .f32) (o : ℕ) (h : S16x64x64.Slices ![o, 0, 0] S1x64x64) (j : Fin 16)
    (hj : j.val = o) (k n : Fin 64) :
    transpose S64x64 [1, 0] (shapeCast S64x64 (extractStridedSlice S1x64x64 ![o, 0, 0] a9 h) shapeCasts_S1x64x64_S64x64)
      transposes_S64x64_S64x64_1_0 (ix2 k n) = a9 (ix3 j n k) :=
  (transpose_ix2_apply _ _ k n).trans ((shapeCast_1ab_ab_apply _ _ n k).trans (slice3_axis0_apply o a9 h n k j hj))

/-- Row `j` of the bias stack, cut out, its unit axis dropped: at `n` the stack at `(j, n)`. -/
theorem memberB_apply (a10 : Vec Ideal S16x64 .f32) (o : ℕ) (h : S16x64.Slices ![o, 0] S1x64) (j : Fin 16) (hj : j.val = o)
    (n : Fin 64) :
    shapeCast S64 (extractStridedSlice S1x64 ![o, 0] a10 h) shapeCasts_S1x64_S64 (ix1 n) = a10 (ix2 j n) :=
  (shapeCast_1a_a_apply _ _ n).trans (slice2_axis0_apply o a10 h (0 : Fin 1) n j (by rw [hj]; rfl))

end HostA

variable (m : (ℓ : Loc nD τ sig) → Buf (Elt Ideal) ℓ)

/-! ## Window 0 -/

/-- Row `p` of window 0's block at point `t`: its first three entries are the three coordinates of batch row
    `2048 t + p`, its last eight that row's latents. -/
theorem iblk0_apply (c : Dev nD) (t : Fin cfg0.N) (p : Fin 2048) :
    (∀ j : Fin 3, iblk (F := Ideal) m c 0 t (ix2 p ⟨j.val, by omega⟩)
        = m ((c : Thread nD τ).loc main_arg0) (ix3 ⟨2048 * t.val + p.val, row_lt t p⟩ j (0 : Fin 1)))
    ∧ (∀ k : Fin 8, iblk (F := Ideal) m c 0 t (ix2 p ⟨3 + k.val, by omega⟩)
        = m ((c : Thread nD τ).loc main_arg1) (ix2 ⟨2048 * t.val + p.val, row_lt t p⟩ k)) := by
  constructor
  · intro j
    refine (iblk0_rows m c t p ⟨j.val, by omega⟩ ⟨2048 * t.val + p.val, row_lt t p⟩ rfl).trans ?_
    refine (congrFun (V_main_v186 m c) _).trans ?_
    unfold Host.T186
    refine Eq.trans (b := shapeCast S131072x3 (m ((c : Thread nD τ).loc main_arg0)) shapeCasts_S131072x3x1_S131072x3
      (ix2 (⟨2048 * t.val + p.val, row_lt t p⟩ : Fin 131072) j)) ?_ (HostA.shapeCast_ab1_ab_apply _ _ _ j)
    exact concat_cols_piece _ _ 0 (by simp only [List.length_cons, List.length_nil]; omega)
      (shapeCast S131072x3 (m ((c : Thread nD τ).loc main_arg0)) shapeCasts_S131072x3x1_S131072x3) rfl 0 rfl
      ⟨2048 * t.val + p.val, row_lt t p⟩ j ⟨j.val, by omega⟩ (Nat.zero_add _).symm
  · intro k
    refine (iblk0_rows m c t p ⟨3 + k.val, by omega⟩ ⟨2048 * t.val + p.val, row_lt t p⟩ rfl).trans ?_
    refine (congrFun (V_main_v186 m c) _).trans ?_
    unfold Host.T186
    exact concat_cols_piece _ _ 1 (by simp only [List.length_cons, List.length_nil]; omega) (m ((c : Thread nD τ).loc main_arg1)) rfl 3 rfl
      ⟨2048 * t.val + p.val, row_lt t p⟩ k ⟨3 + k.val, by omega⟩ rfl

/-! ## Windows 1 … 12 -/

theorem kw_wl (c : Dev nD) (t : Fin cfg0.N) : ∀ (n : Fin 64) (k : Fin 8), iblk m c 1 t (ix2 n k) = (Cert.Net.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).Wl n k :=
  fun n k => (congrFun (iblk1_eq m c t) _).trans (congrFun (V_main_v187 m c) _)
theorem kw_bl (c : Dev nD) (t : Fin cfg0.N) : ∀ n : Fin 64, iblk m c 2 t (ix1 n) = (Cert.Net.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).bl n :=
  fun n => (congrFun (iblk2_eq m c t) _).trans (congrFun (V_main_arg3 m c) _)
theorem kw_wx (c : Dev nD) (t : Fin cfg0.N) : ∀ n : Fin 64, iblk m c 3 t (ix2 (⟨0, by decide⟩ : Fin 3) n) = (Cert.Net.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).Wx n :=
  fun n => (congrFun (iblk3_eq m c t) _).trans ((congrFun (V_main_v193 m c) _).trans (by
    unfold Host.T193
    exact (concat_rows_piece _ _ 0 (by simp only [List.length_cons, List.length_nil]; omega) (transpose S1x64 [1, 0] (m ((c : Thread nD τ).loc main_arg4)) transposes_S64x1_S1x64_1_0) rfl 0 rfl
      (0 : Fin 1) n ⟨0, by decide⟩ rfl).trans (transpose_ix2_apply _ _ (0 : Fin 1) n)))
theorem kw_wy (c : Dev nD) (t : Fin cfg0.N) : ∀ n : Fin 64, iblk m c 3 t (ix2 (⟨1, by decide⟩ : Fin 3) n) = (Cert.Net.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).Wy n :=
  fun n => (congrFun (iblk3_eq m c t) _).trans ((congrFun (V_main_v193 m c) _).trans (by
    unfold Host.T193
    exact (concat_rows_piece _ _ 1 (by simp only [List.length_cons, List.length_nil]; omega) (transpose S1x64 [1, 0] (m ((c : Thread nD τ).loc main_arg5)) transposes_S64x1_S1x64_1_0) rfl 1 rfl
      (0 : Fin 1) n ⟨1, by decide⟩ rfl).trans (transpose_ix2_apply _ _ (0 : Fin 1) n)))
theorem kw_wr (c : Dev nD) (t : Fin cfg0.N) : ∀ n : Fin 64, iblk m c 3 t (ix2 (⟨2, by decide⟩ : Fin 3) n) = (Cert.Net.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).Wr n :=
  fun n => (congrFun (iblk3_eq m c t) _).trans ((congrFun (V_main_v193 m c) _).trans (by
    unfold Host.T193
    exact (concat_rows_piece _ _ 2 (by simp only [List.length_cons, List.length_nil]; omega) (transpose S1x64 [1, 0] (m ((c : Thread nD τ).loc main_arg6)) transposes_S64x1_S1x64_1_0) rfl 2 rfl
      (0 : Fin 1) n ⟨2, by decide⟩ rfl).trans (transpose_ix2_apply _ _ (0 : Fin 1) n)))
theorem kw_w1 (c : Dev nD) (t : Fin cfg0.N) : ∀ n k : Fin 64, iblk m c 4 t (ix2 n k) = (Cert.Net.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).W1 n k :=
  fun n k => (congrFun (iblk4_eq m c t) _).trans (congrFun (V_main_v188 m c) _)
theorem kw_b1 (c : Dev nD) (t : Fin cfg0.N) : ∀ n : Fin 64, iblk m c 5 t (ix1 n) = (Cert.Net.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).b1 n :=
  fun n => (congrFun (iblk5_eq m c t) _).trans (congrFun (V_main_arg8 m c) _)
theorem kw_ow (c : Dev nD) (t : Fin cfg0.N) : ∀ (q : Fin 3) (k : Fin 64), iblk m c 6 t (ix2 q k) = (Cert.Net.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).outW q k :=
  fun q k => (congrFun (iblk6_eq m c t) _).trans (congrFun (V_main_v189 m c) _)
theorem kw_ob (c : Dev nD) (t : Fin cfg0.N) : ∀ q : Fin 3, iblk m c 7 t (ix1 q) = (Cert.Net.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).outb q :=
  fun q => (congrFun (iblk7_eq m c t) _).trans (congrFun (V_main_arg12 m c) _)
theorem kw_sc (c : Dev nD) (t : Fin cfg0.N) : iblk m c 8 t (ix1 (0 : Fin 1)) = (Cert.Net.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).scale :=
  (congrFun (iblk8_eq m c t) _).trans (congrFun (V_main_arg13 m c) _)
theorem kw_g0 (c : Dev nD) (t : Fin cfg0.N) : ∀ k n : Fin 64, iblk m c 9 t (ix2 k n) = (Cert.Net.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).gW 0 n k :=
  fun k n => (congrFun (iblk9_eq m c t) _).trans ((congrFun (V_main_v3 m c) _).trans
    (HostA.memberT_apply _ 0 slices_S16x64x64_S1x64x64_0_0_0 (0 : Fin 16) rfl k n))
theorem kw_gb0 (c : Dev nD) (t : Fin cfg0.N) : ∀ n : Fin 64, iblk m c 10 t (ix1 n) = (Cert.Net.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).gB 0 n :=
  fun n => (congrFun (iblk10_eq m c t) _).trans ((congrFun (V_main_v5 m c) _).trans
    (HostA.memberB_apply _ 0 slices_S16x64_S1x64_0_0 (0 : Fin 16) rfl n))
theorem kw_g1 (c : Dev nD) (t : Fin cfg0.N) : ∀ k n : Fin 64, iblk m c 11 t (ix2 k n) = (Cert.Net.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).gW 1 n k :=
  fun k n => (congrFun (iblk11_eq m c t) _).trans ((congrFun (V_main_v9 m c) _).trans
    (HostA.memberT_apply _ 1 slices_S16x64x64_S1x64x64_1_0_0 (1 : Fin 16) rfl k n))
theorem kw_gb1 (c : Dev nD) (t : Fin cfg0.N) : ∀ n : Fin 64, iblk m c 12 t (ix1 n) = (Cert.Net.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).gB 1 n :=
  fun n => (congrFun (iblk12_eq m c t) _).trans ((congrFun (V_main_v11 m c) _).trans
    (HostA.memberB_apply _ 1 slices_S16x64_S1x64_1_0 (1 : Fin 16) rfl n))

end Cert.KernelIdeal.Hand

end
-- ==== Proof.KWinBNary3.lean ====
/-
  A three-operand host operation's result with each operand's contents at its own buffer, so that the fold's
  rewriting goes on into the operands (the library states this for four operands).
-/
import Idealize.ShloMosaic.Lib.StableHlo.Run

namespace Cert.KernelIdeal.Hand.HostB

open Idealize.ShloMosaic Idealize.ShloMosaic.TcCoe Idealize.SL.Sem Idealize.ShloMosaic.StableHlo

variable {τ : Topo} {sig : RefSig} {Val : EltTy → Type} {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The library's one-pass reading of a fold, with the three-operand form beside the four-operand one. -/
macro "after_results_simp3" : tactic =>
  `(tactic| (simp (disch := decide) only [after_cons, after_nil,
      nullary_result', unary_result', binary_result', ternary_result', quaternary_result', reshape_result', nary4_result', nary3_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Cert.KernelIdeal.Hand.HostB
-- ==== Proof.KWinHostB.lean ====
/-
  The arrays the launch stages for windows 19 … 26, as the host operations before the launch compute them from the
  argument arrays: the fold of @main's host operations, read at each array's buffer, is the operations' composed
  term of the stacked graph weights (or biases) alone.
-/
import proofs.«166257_j42623255446007_2_alg».proof.Proof.KFrameMain
import proofs.«166257_j42623255446007_2_alg».proof.Proof.KWinTerms
import proofs.«166257_j42623255446007_2_alg».proof.Proof.KWinBNary3
import Idealize.ShloMosaic.Lib.StableHlo.Run

noncomputable section

namespace Cert.KernelIdeal.Hand

open scoped BigOperators
open Idealize.ShloMosaic Idealize.ShloMosaic.TcCoe Idealize.SL.Sem Idealize.ShloMosaic.StableHlo
open Cert.KernelIdeal Cert.KernelIdeal.Gen Cert.KernelIdeal.Hand.HostB

variable {F : FTy → Type} [FloatOps F]
variable (m : (ℓ : Loc nD τ sig) → Buf (Elt F) ℓ)

set_option maxRecDepth 16384 in
set_option maxHeartbeats 4000000 in
/-- Window 19's array when the launch begins. -/
theorem V_main_v140 (c : Dev nD) : (V m c main_v140 : Vec F S256x128 .bf16) = Host.T140 (m ((c : Thread nD τ).loc main_arg9)) := by
  dsimp only [V, hostOps0]
  after_results_simp3
  rfl

set_option maxRecDepth 16384 in
set_option maxHeartbeats 4000000 in
/-- Window 20's array when the launch begins. -/
theorem V_main_v145 (c : Dev nD) : (V m c main_v145 : Vec F S128 .f32) = Host.T145 (m ((c : Thread nD τ).loc main_arg10)) := by
  dsimp only [V, hostOps0]
  after_results_simp3
  rfl

set_option maxRecDepth 16384 in
set_option maxHeartbeats 4000000 in
/-- Window 21's array when the launch begins. -/
theorem V_main_v159 (c : Dev nD) : (V m c main_v159 : Vec F S256x64 .bf16) = Host.T159 (m ((c : Thread nD τ).loc main_arg9)) := by
  dsimp only [V, hostOps0]
  after_results_simp3
  rfl

set_option maxRecDepth 16384 in
set_option maxHeartbeats 4000000 in
/-- Window 22's array when the launch begins. -/
theorem V_main_v161 (c : Dev nD) : (V m c main_v161 : Vec F S64 .f32) = Host.T161 (m ((c : Thread nD τ).loc main_arg10)) := by
  dsimp only [V, hostOps0]
  after_results_simp3
  rfl

set_option maxRecDepth 16384 in
set_option maxHeartbeats 4000000 in
/-- Window 23's array when the launch begins. -/
theorem V_main_v172 (c : Dev nD) : (V m c main_v172 : Vec F S192x64 .bf16) = Host.T172 (m ((c : Thread nD τ).loc main_arg9)) := by
  dsimp only [V, hostOps0]
  after_results_simp3
  rfl

set_option maxRecDepth 16384 in
set_option maxHeartbeats 4000000 in
/-- Window 24's array when the launch begins. -/
theorem V_main_v174 (c : Dev nD) : (V m c main_v174 : Vec F S64 .f32) = Host.T174 (m ((c : Thread nD τ).loc main_arg10)) := by
  dsimp only [V, hostOps0]
  after_results_simp3
  rfl

set_option maxRecDepth 16384 in
set_option maxHeartbeats 4000000 in
/-- Window 25's array when the launch begins. -/
theorem V_main_v182 (c : Dev nD) : (V m c main_v182 : Vec F S128x64 .bf16) = Host.T182 (m ((c : Thread nD τ).loc main_arg9)) := by
  dsimp only [V, hostOps0]
  after_results_simp3
  rfl

set_option maxRecDepth 16384 in
set_option maxHeartbeats 4000000 in
/-- Window 26's array when the launch begins. -/
theorem V_main_v184 (c : Dev nD) : (V m c main_v184 : Vec F S64 .f32) = Host.T184 (m ((c : Thread nD τ).loc main_arg10)) := by
  dsimp only [V, hostOps0]
  after_results_simp3
  rfl

end Cert.KernelIdeal.Hand

end
-- ==== Proof.RowOps3.lean ====
/-
  Concatenations of two, three, four and six 64-wide pieces along the columns, read at a position of a given piece;
  and a 64-wide slice along the columns at the start of a piece.
-/
import proofs.«166257_j42623255446007_2_alg».proof.Proof.PushIdx

namespace Cert.RowOps
open scoped BigOperators
open Idealize.ShloMosaic Idealize.ShloMosaic.ValueIdx

variable {α : Type}

theorem concat2_cols_0 {B : ℕ} (x0 x1 : (⟨2, ![B, 64]⟩ : Shape).Idx → α)
    (h : Shape.Concatenates (([⟨⟨2, ![B, 64]⟩, x0⟩, ⟨⟨2, ![B, 64]⟩, x1⟩] : List ((s : Shape) × (s.Idx → α))).map (·.1)) ⟨2, ![B, 128]⟩ (1 : Fin 2)) (p : Fin B) (k : Fin 64) :
    concatenate ⟨2, ![B, 128]⟩ (1 : Fin 2) [⟨⟨2, ![B, 64]⟩, x0⟩, ⟨⟨2, ![B, 64]⟩, x1⟩] h (ix2 p (gix 2 rfl (0 : Fin 2) k)) = x0 (ix2 p k) :=
  concat_cols_piece _ h 0 (by simp) x0 rfl 0 rfl p k _ rfl
theorem concat2_cols_1 {B : ℕ} (x0 x1 : (⟨2, ![B, 64]⟩ : Shape).Idx → α)
    (h : Shape.Concatenates (([⟨⟨2, ![B, 64]⟩, x0⟩, ⟨⟨2, ![B, 64]⟩, x1⟩] : List ((s : Shape) × (s.Idx → α))).map (·.1)) ⟨2, ![B, 128]⟩ (1 : Fin 2)) (p : Fin B) (k : Fin 64) :
    concatenate ⟨2, ![B, 128]⟩ (1 : Fin 2) [⟨⟨2, ![B, 64]⟩, x0⟩, ⟨⟨2, ![B, 64]⟩, x1⟩] h (ix2 p (gix 2 rfl (1 : Fin 2) k)) = x1 (ix2 p k) :=
  concat_cols_piece _ h 1 (by simp) x1 rfl 64 rfl p k _ rfl

theorem concat3_cols_0 {B : ℕ} (x0 x1 x2 : (⟨2, ![B, 64]⟩ : Shape).Idx → α)
    (h : Shape.Concatenates (([⟨⟨2, ![B, 64]⟩, x0⟩, ⟨⟨2, ![B, 64]⟩, x1⟩, ⟨⟨2, ![B, 64]⟩, x2⟩] : List ((s : Shape) × (s.Idx → α))).map (·.1)) ⟨2, ![B, 192]⟩ (1 : Fin 2)) (p : Fin B) (k : Fin 64) :
    concatenate ⟨2, ![B, 192]⟩ (1 : Fin 2) [⟨⟨2, ![B, 64]⟩, x0⟩, ⟨⟨2, ![B, 64]⟩, x1⟩, ⟨⟨2, ![B, 64]⟩, x2⟩] h (ix2 p (gix 3 rfl (0 : Fin 3) k)) = x0 (ix2 p k) :=
  concat_cols_piece _ h 0 (by simp) x0 rfl 0 rfl p k _ rfl
theorem concat3_cols_1 {B : ℕ} (x0 x1 x2 : (⟨2, ![B, 64]⟩ : Shape).Idx → α)
    (h : Shape.Concatenates (([⟨⟨2, ![B, 64]⟩, x0⟩, ⟨⟨2, ![B, 64]⟩, x1⟩, ⟨⟨2, ![B, 64]⟩, x2⟩] : List ((s : Shape) × (s.Idx → α))).map (·.1)) ⟨2, ![B, 192]⟩ (1 : Fin 2)) (p : Fin B) (k : Fin 64) :
    concatenate ⟨2, ![B, 192]⟩ (1 : Fin 2) [⟨⟨2, ![B, 64]⟩, x0⟩, ⟨⟨2, ![B, 64]⟩, x1⟩, ⟨⟨2, ![B, 64]⟩, x2⟩] h (ix2 p (gix 3 rfl (1 : Fin 3) k)) = x1 (ix2 p k) :=
  concat_cols_piece _ h 1 (by simp) x1 rfl 64 rfl p k _ rfl
theorem concat3_cols_2 {B : ℕ} (x0 x1 x2 : (⟨2, ![B, 64]⟩ : Shape).Idx → α)
    (h : Shape.Concatenates (([⟨⟨2, ![B, 64]⟩, x0⟩, ⟨⟨2, ![B, 64]⟩, x1⟩, ⟨⟨2, ![B, 64]⟩, x2⟩] : List ((s : Shape) × (s.Idx → α))).map (·.1)) ⟨2, ![B, 192]⟩ (1 : Fin 2)) (p : Fin B) (k : Fin 64) :
    concatenate ⟨2, ![B, 192]⟩ (1 : Fin 2) [⟨⟨2, ![B, 64]⟩, x0⟩, ⟨⟨2, ![B, 64]⟩, x1⟩, ⟨⟨2, ![B, 64]⟩, x2⟩] h (ix2 p (gix 3 rfl (2 : Fin 3) k)) = x2 (ix2 p k) :=
  concat_cols_piece _ h 2 (by simp) x2 rfl 128 rfl p k _ rfl

theorem concat4_cols_0 {B : ℕ} (x0 x1 x2 x3 : (⟨2, ![B, 64]⟩ : Shape).Idx → α)
    (h : Shape.Concatenates (([⟨⟨2, ![B, 64]⟩, x0⟩, ⟨⟨2, ![B, 64]⟩, x1⟩, ⟨⟨2, ![B, 64]⟩, x2⟩, ⟨⟨2, ![B, 64]⟩, x3⟩] : List ((s : Shape) × (s.Idx → α))).map (·.1)) ⟨2, ![B, 256]⟩ (1 : Fin 2)) (p : Fin B) (k : Fin 64) :
    concatenate ⟨2, ![B, 256]⟩ (1 : Fin 2) [⟨⟨2, ![B, 64]⟩, x0⟩, ⟨⟨2, ![B, 64]⟩, x1⟩, ⟨⟨2, ![B, 64]⟩, x2⟩, ⟨⟨2, ![B, 64]⟩, x3⟩] h (ix2 p (gix 4 rfl (0 : Fin 4) k)) = x0 (ix2 p k) :=
  concat_cols_piece _ h 0 (by simp) x0 rfl 0 rfl p k _ rfl
theorem concat4_cols_1 {B : ℕ} (x0 x1 x2 x3 : (⟨2, ![B, 64]⟩ : Shape).Idx → α)
    (h : Shape.Concatenates (([⟨⟨2, ![B, 64]⟩, x0⟩, ⟨⟨2, ![B, 64]⟩, x1⟩, ⟨⟨2, ![B, 64]⟩, x2⟩, ⟨⟨2, ![B, 64]⟩, x3⟩] : List ((s : Shape) × (s.Idx → α))).map (·.1)) ⟨2, ![B, 256]⟩ (1 : Fin 2)) (p : Fin B) (k : Fin 64) :
    concatenate ⟨2, ![B, 256]⟩ (1 : Fin 2) [⟨⟨2, ![B, 64]⟩, x0⟩, ⟨⟨2, ![B, 64]⟩, x1⟩, ⟨⟨2, ![B, 64]⟩, x2⟩, ⟨⟨2, ![B, 64]⟩, x3⟩] h (ix2 p (gix 4 rfl (1 : Fin 4) k)) = x1 (ix2 p k) :=
  concat_cols_piece _ h 1 (by simp) x1 rfl 64 rfl p k _ rfl
theorem concat4_cols_2 {B : ℕ} (x0 x1 x2 x3 : (⟨2, ![B, 64]⟩ : Shape).Idx → α)
    (h : Shape.Concatenates (([⟨⟨2, ![B, 64]⟩, x0⟩, ⟨⟨2, ![B, 64]⟩, x1⟩, ⟨⟨2, ![B, 64]⟩, x2⟩, ⟨⟨2, ![B, 64]⟩, x3⟩] : List ((s : Shape) × (s.Idx → α))).map (·.1)) ⟨2, ![B, 256]⟩ (1 : Fin 2)) (p : Fin B) (k : Fin 64) :
    concatenate ⟨2, ![B, 256]⟩ (1 : Fin 2) [⟨⟨2, ![B, 64]⟩, x0⟩, ⟨⟨2, ![B, 64]⟩, x1⟩, ⟨⟨2, ![B, 64]⟩, x2⟩, ⟨⟨2, ![B, 64]⟩, x3⟩] h (ix2 p (gix 4 rfl (2 : Fin 4) k)) = x2 (ix2 p k) :=
  concat_cols_piece _ h 2 (by simp) x2 rfl 128 rfl p k _ rfl
theorem concat4_cols_3 {B : ℕ} (x0 x1 x2 x3 : (⟨2, ![B, 64]⟩ : Shape).Idx → α)
    (h : Shape.Concatenates (([⟨⟨2, ![B, 64]⟩, x0⟩, ⟨⟨2, ![B, 64]⟩, x1⟩, ⟨⟨2, ![B, 64]⟩, x2⟩, ⟨⟨2, ![B, 64]⟩, x3⟩] : List ((s : Shape) × (s.Idx → α))).map (·.1)) ⟨2, ![B, 256]⟩ (1 : Fin 2)) (p : Fin B) (k : Fin 64) :
    concatenate ⟨2, ![B, 256]⟩ (1 : Fin 2) [⟨⟨2, ![B, 64]⟩, x0⟩, ⟨⟨2, ![B, 64]⟩, x1⟩, ⟨⟨2, ![B, 64]⟩, x2⟩, ⟨⟨2, ![B, 64]⟩, x3⟩] h (ix2 p (gix 4 rfl (3 : Fin 4) k)) = x3 (ix2 p k) :=
  concat_cols_piece _ h 3 (by simp) x3 rfl 192 rfl p k _ rfl

theorem concat6_cols_0 {B : ℕ} (x0 x1 x2 x3 x4 x5 : (⟨2, ![B, 64]⟩ : Shape).Idx → α)
    (h : Shape.Concatenates (([⟨⟨2, ![B, 64]⟩, x0⟩, ⟨⟨2, ![B, 64]⟩, x1⟩, ⟨⟨2, ![B, 64]⟩, x2⟩, ⟨⟨2, ![B, 64]⟩, x3⟩, ⟨⟨2, ![B, 64]⟩, x4⟩, ⟨⟨2, ![B, 64]⟩, x5⟩] : List ((s : Shape) × (s.Idx → α))).map (·.1)) ⟨2, ![B, 384]⟩ (1 : Fin 2)) (p : Fin B) (k : Fin 64) :
    concatenate ⟨2, ![B, 384]⟩ (1 : Fin 2) [⟨⟨2, ![B, 64]⟩, x0⟩, ⟨⟨2, ![B, 64]⟩, x1⟩, ⟨⟨2, ![B, 64]⟩, x2⟩, ⟨⟨2, ![B, 64]⟩, x3⟩, ⟨⟨2, ![B, 64]⟩, x4⟩, ⟨⟨2, ![B, 64]⟩, x5⟩] h (ix2 p (gix 6 rfl (0 : Fin 6) k)) = x0 (ix2 p k) :=
  concat_cols_piece _ h 0 (by simp) x0 rfl 0 rfl p k _ rfl
theorem concat6_cols_1 {B : ℕ} (x0 x1 x2 x3 x4 x5 : (⟨2, ![B, 64]⟩ : Shape).Idx → α)
    (h : Shape.Concatenates (([⟨⟨2, ![B, 64]⟩, x0⟩, ⟨⟨2, ![B, 64]⟩, x1⟩, ⟨⟨2, ![B, 64]⟩, x2⟩, ⟨⟨2, ![B, 64]⟩, x3⟩, ⟨⟨2, ![B, 64]⟩, x4⟩, ⟨⟨2, ![B, 64]⟩, x5⟩] : List ((s : Shape) × (s.Idx → α))).map (·.1)) ⟨2, ![B, 384]⟩ (1 : Fin 2)) (p : Fin B) (k : Fin 64) :
    concatenate ⟨2, ![B, 384]⟩ (1 : Fin 2) [⟨⟨2, ![B, 64]⟩, x0⟩, ⟨⟨2, ![B, 64]⟩, x1⟩, ⟨⟨2, ![B, 64]⟩, x2⟩, ⟨⟨2, ![B, 64]⟩, x3⟩, ⟨⟨2, ![B, 64]⟩, x4⟩, ⟨⟨2, ![B, 64]⟩, x5⟩] h (ix2 p (gix 6 rfl (1 : Fin 6) k)) = x1 (ix2 p k) :=
  concat_cols_piece _ h 1 (by simp) x1 rfl 64 rfl p k _ rfl
theorem concat6_cols_2 {B : ℕ} (x0 x1 x2 x3 x4 x5 : (⟨2, ![B, 64]⟩ : Shape).Idx → α)
    (h : Shape.Concatenates (([⟨⟨2, ![B, 64]⟩, x0⟩, ⟨⟨2, ![B, 64]⟩, x1⟩, ⟨⟨2, ![B, 64]⟩, x2⟩, ⟨⟨2, ![B, 64]⟩, x3⟩, ⟨⟨2, ![B, 64]⟩, x4⟩, ⟨⟨2, ![B, 64]⟩, x5⟩] : List ((s : Shape) × (s.Idx → α))).map (·.1)) ⟨2, ![B, 384]⟩ (1 : Fin 2)) (p : Fin B) (k : Fin 64) :
    concatenate ⟨2, ![B, 384]⟩ (1 : Fin 2) [⟨⟨2, ![B, 64]⟩, x0⟩, ⟨⟨2, ![B, 64]⟩, x1⟩, ⟨⟨2, ![B, 64]⟩, x2⟩, ⟨⟨2, ![B, 64]⟩, x3⟩, ⟨⟨2, ![B, 64]⟩, x4⟩, ⟨⟨2, ![B, 64]⟩, x5⟩] h (ix2 p (gix 6 rfl (2 : Fin 6) k)) = x2 (ix2 p k) :=
  concat_cols_piece _ h 2 (by simp) x2 rfl 128 rfl p k _ rfl
theorem concat6_cols_3 {B : ℕ} (x0 x1 x2 x3 x4 x5 : (⟨2, ![B, 64]⟩ : Shape).Idx → α)
    (h : Shape.Concatenates (([⟨⟨2, ![B, 64]⟩, x0⟩, ⟨⟨2, ![B, 64]⟩, x1⟩, ⟨⟨2, ![B, 64]⟩, x2⟩, ⟨⟨2, ![B, 64]⟩, x3⟩, ⟨⟨2, ![B, 64]⟩, x4⟩, ⟨⟨2, ![B, 64]⟩, x5⟩] : List ((s : Shape) × (s.Idx → α))).map (·.1)) ⟨2, ![B, 384]⟩ (1 : Fin 2)) (p : Fin B) (k : Fin 64) :
    concatenate ⟨2, ![B, 384]⟩ (1 : Fin 2) [⟨⟨2, ![B, 64]⟩, x0⟩, ⟨⟨2, ![B, 64]⟩, x1⟩, ⟨⟨2, ![B, 64]⟩, x2⟩, ⟨⟨2, ![B, 64]⟩, x3⟩, ⟨⟨2, ![B, 64]⟩, x4⟩, ⟨⟨2, ![B, 64]⟩, x5⟩] h (ix2 p (gix 6 rfl (3 : Fin 6) k)) = x3 (ix2 p k) :=
  concat_cols_piece _ h 3 (by simp) x3 rfl 192 rfl p k _ rfl
theorem concat6_cols_4 {B : ℕ} (x0 x1 x2 x3 x4 x5 : (⟨2, ![B, 64]⟩ : Shape).Idx → α)
    (h : Shape.Concatenates (([⟨⟨2, ![B, 64]⟩, x0⟩, ⟨⟨2, ![B, 64]⟩, x1⟩, ⟨⟨2, ![B, 64]⟩, x2⟩, ⟨⟨2, ![B, 64]⟩, x3⟩, ⟨⟨2, ![B, 64]⟩, x4⟩, ⟨⟨2, ![B, 64]⟩, x5⟩] : List ((s : Shape) × (s.Idx → α))).map (·.1)) ⟨2, ![B, 384]⟩ (1 : Fin 2)) (p : Fin B) (k : Fin 64) :
    concatenate ⟨2, ![B, 384]⟩ (1 : Fin 2) [⟨⟨2, ![B, 64]⟩, x0⟩, ⟨⟨2, ![B, 64]⟩, x1⟩, ⟨⟨2, ![B, 64]⟩, x2⟩, ⟨⟨2, ![B, 64]⟩, x3⟩, ⟨⟨2, ![B, 64]⟩, x4⟩, ⟨⟨2, ![B, 64]⟩, x5⟩] h (ix2 p (gix 6 rfl (4 : Fin 6) k)) = x4 (ix2 p k) :=
  concat_cols_piece _ h 4 (by simp) x4 rfl 256 rfl p k _ rfl
theorem concat6_cols_5 {B : ℕ} (x0 x1 x2 x3 x4 x5 : (⟨2, ![B, 64]⟩ : Shape).Idx → α)
    (h : Shape.Concatenates (([⟨⟨2, ![B, 64]⟩, x0⟩, ⟨⟨2, ![B, 64]⟩, x1⟩, ⟨⟨2, ![B, 64]⟩, x2⟩, ⟨⟨2, ![B, 64]⟩, x3⟩, ⟨⟨2, ![B, 64]⟩, x4⟩, ⟨⟨2, ![B, 64]⟩, x5⟩] : List ((s : Shape) × (s.Idx → α))).map (·.1)) ⟨2, ![B, 384]⟩ (1 : Fin 2)) (p : Fin B) (k : Fin 64) :
    concatenate ⟨2, ![B, 384]⟩ (1 : Fin 2) [⟨⟨2, ![B, 64]⟩, x0⟩, ⟨⟨2, ![B, 64]⟩, x1⟩, ⟨⟨2, ![B, 64]⟩, x2⟩, ⟨⟨2, ![B, 64]⟩, x3⟩, ⟨⟨2, ![B, 64]⟩, x4⟩, ⟨⟨2, ![B, 64]⟩, x5⟩] h (ix2 p (gix 6 rfl (5 : Fin 6) k)) = x5 (ix2 p k) :=
  concat_cols_piece _ h 5 (by simp) x5 rfl 320 rfl p k _ rfl

/-- The 64 columns of piece `q` of a `[B, Q · 64]` matrix, sliced out, read at `(p, n)`. -/
theorem slice_gix {B N : ℕ} (Q : ℕ) (hN : Q * 64 = N) (q : Fin Q) (o : ℕ) (ho : o = 64 * q.val) (X : (⟨2, ![B, N]⟩ : Shape).Idx → α)
    (h : (⟨2, ![B, N]⟩ : Shape).Slices ![0, o] ⟨2, ![B, 64]⟩) (p : Fin B) (n : Fin 64) :
    extractStridedSlice ⟨2, ![B, 64]⟩ ![0, o] X h (ix2 p n) = X (ix2 p (gix Q hN q n)) :=
  slice2_axis1_apply o X h p n _ (by rw [gix_val, ho])

end Cert.RowOps
-- ==== Proof.KWinBLayout.lean ====
/-
  The staged weight arrays of windows 19 … 26 read at coordinates: a level's fused matrix is 64-row pieces stacked
  along the rows, each one 64×64 block or two blocks side by side; a block is a graph node's weight transposed —
  slab j of the stacked weights, read at (k, n) as gW[j, n, k] — or zero; rounding to bf16 changes nothing over the
  extended reals; a level's bias is its nodes' bias rows end to end.
-/
import proofs.«166257_j42623255446007_2_alg».proof.Proof.KWinTerms
import proofs.«166257_j42623255446007_2_alg».proof.Proof.RowOps3
import Idealize.ShloMosaic.Lib.IdealHost
import Idealize.ShloMosaic.Lib.ValueLayout

noncomputable section

namespace Cert.KernelIdeal.Hand.HostB

open scoped BigOperators
open Idealize.ShloMosaic Idealize.ShloMosaic.TcCoe Idealize.SL.Sem Idealize.ShloMosaic.StableHlo Idealize.ShloMosaic.ValueIdx
open Cert.KernelIdeal Cert.KernelIdeal.Gen Cert.RowOps Cert.KernelIdeal.Hand.Host

variable {α : Type}

/-! ## Pieces of 64 rows stacked, and of 64 entries end to end -/

theorem concat2_rows_0 {N : ℕ} (x0 x1 : (⟨2, ![64, N]⟩ : Shape).Idx → α)
    (h : Shape.Concatenates (([⟨⟨2, ![64, N]⟩, x0⟩, ⟨⟨2, ![64, N]⟩, x1⟩] : List ((s : Shape) × (s.Idx → α))).map (·.1)) ⟨2, ![128, N]⟩ (0 : Fin 2)) (k : Fin 64) (c : Fin N) :
    concatenate ⟨2, ![128, N]⟩ (0 : Fin 2) [⟨⟨2, ![64, N]⟩, x0⟩, ⟨⟨2, ![64, N]⟩, x1⟩] h (ix2 (gix 2 rfl (0 : Fin 2) k) c) = x0 (ix2 k c) :=
  concat_rows_piece _ h 0 (by simp) x0 rfl 0 rfl k c _ rfl
theorem concat2_rows_1 {N : ℕ} (x0 x1 : (⟨2, ![64, N]⟩ : Shape).Idx → α)
    (h : Shape.Concatenates (([⟨⟨2, ![64, N]⟩, x0⟩, ⟨⟨2, ![64, N]⟩, x1⟩] : List ((s : Shape) × (s.Idx → α))).map (·.1)) ⟨2, ![128, N]⟩ (0 : Fin 2)) (k : Fin 64) (c : Fin N) :
    concatenate ⟨2, ![128, N]⟩ (0 : Fin 2) [⟨⟨2, ![64, N]⟩, x0⟩, ⟨⟨2, ![64, N]⟩, x1⟩] h (ix2 (gix 2 rfl (1 : Fin 2) k) c) = x1 (ix2 k c) :=
  concat_rows_piece _ h 1 (by simp) x1 rfl 64 rfl k c _ rfl
theorem concat3_rows_0 {N : ℕ} (x0 x1 x2 : (⟨2, ![64, N]⟩ : Shape).Idx → α)
    (h : Shape.Concatenates (([⟨⟨2, ![64, N]⟩, x0⟩, ⟨⟨2, ![64, N]⟩, x1⟩, ⟨⟨2, ![64, N]⟩, x2⟩] : List ((s : Shape) × (s.Idx → α))).map (·.1)) ⟨2, ![192, N]⟩ (0 : Fin 2)) (k : Fin 64) (c : Fin N) :
    concatenate ⟨2, ![192, N]⟩ (0 : Fin 2) [⟨⟨2, ![64, N]⟩, x0⟩, ⟨⟨2, ![64, N]⟩, x1⟩, ⟨⟨2, ![64, N]⟩, x2⟩] h (ix2 (gix 3 rfl (0 : Fin 3) k) c) = x0 (ix2 k c) :=
  concat_rows_piece _ h 0 (by simp) x0 rfl 0 rfl k c _ rfl
theorem concat3_rows_1 {N : ℕ} (x0 x1 x2 : (⟨2, ![64, N]⟩ : Shape).Idx → α)
    (h : Shape.Concatenates (([⟨⟨2, ![64, N]⟩, x0⟩, ⟨⟨2, ![64, N]⟩, x1⟩, ⟨⟨2, ![64, N]⟩, x2⟩] : List ((s : Shape) × (s.Idx → α))).map (·.1)) ⟨2, ![192, N]⟩ (0 : Fin 2)) (k : Fin 64) (c : Fin N) :
    concatenate ⟨2, ![192, N]⟩ (0 : Fin 2) [⟨⟨2, ![64, N]⟩, x0⟩, ⟨⟨2, ![64, N]⟩, x1⟩, ⟨⟨2, ![64, N]⟩, x2⟩] h (ix2 (gix 3 rfl (1 : Fin 3) k) c) = x1 (ix2 k c) :=
  concat_rows_piece _ h 1 (by simp) x1 rfl 64 rfl k c _ rfl
theorem concat3_rows_2 {N : ℕ} (x0 x1 x2 : (⟨2, ![64, N]⟩ : Shape).Idx → α)
    (h : Shape.Concatenates (([⟨⟨2, ![64, N]⟩, x0⟩, ⟨⟨2, ![64, N]⟩, x1⟩, ⟨⟨2, ![64, N]⟩, x2⟩] : List ((s : Shape) × (s.Idx → α))).map (·.1)) ⟨2, ![192, N]⟩ (0 : Fin 2)) (k : Fin 64) (c : Fin N) :
    concatenate ⟨2, ![192, N]⟩ (0 : Fin 2) [⟨⟨2, ![64, N]⟩, x0⟩, ⟨⟨2, ![64, N]⟩, x1⟩, ⟨⟨2, ![64, N]⟩, x2⟩] h (ix2 (gix 3 rfl (2 : Fin 3) k) c) = x2 (ix2 k c) :=
  concat_rows_piece _ h 2 (by simp) x2 rfl 128 rfl k c _ rfl
theorem concat4_rows_0 {N : ℕ} (x0 x1 x2 x3 : (⟨2, ![64, N]⟩ : Shape).Idx → α)
    (h : Shape.Concatenates (([⟨⟨2, ![64, N]⟩, x0⟩, ⟨⟨2, ![64, N]⟩, x1⟩, ⟨⟨2, ![64, N]⟩, x2⟩, ⟨⟨2, ![64, N]⟩, x3⟩] : List ((s : Shape) × (s.Idx → α))).map (·.1)) ⟨2, ![256, N]⟩ (0 : Fin 2)) (k : Fin 64) (c : Fin N) :
    concatenate ⟨2, ![256, N]⟩ (0 : Fin 2) [⟨⟨2, ![64, N]⟩, x0⟩, ⟨⟨2, ![64, N]⟩, x1⟩, ⟨⟨2, ![64, N]⟩, x2⟩, ⟨⟨2, ![64, N]⟩, x3⟩] h (ix2 (gix 4 rfl (0 : Fin 4) k) c) = x0 (ix2 k c) :=
  concat_rows_piece _ h 0 (by simp) x0 rfl 0 rfl k c _ rfl
theorem concat4_rows_1 {N : ℕ} (x0 x1 x2 x3 : (⟨2, ![64, N]⟩ : Shape).Idx → α)
    (h : Shape.Concatenates (([⟨⟨2, ![64, N]⟩, x0⟩, ⟨⟨2, ![64, N]⟩, x1⟩, ⟨⟨2, ![64, N]⟩, x2⟩, ⟨⟨2, ![64, N]⟩, x3⟩] : List ((s : Shape) × (s.Idx → α))).map (·.1)) ⟨2, ![256, N]⟩ (0 : Fin 2)) (k : Fin 64) (c : Fin N) :
    concatenate ⟨2, ![256, N]⟩ (0 : Fin 2) [⟨⟨2, ![64, N]⟩, x0⟩, ⟨⟨2, ![64, N]⟩, x1⟩, ⟨⟨2, ![64, N]⟩, x2⟩, ⟨⟨2, ![64, N]⟩, x3⟩] h (ix2 (gix 4 rfl (1 : Fin 4) k) c) = x1 (ix2 k c) :=
  concat_rows_piece _ h 1 (by simp) x1 rfl 64 rfl k c _ rfl
theorem concat4_rows_2 {N : ℕ} (x0 x1 x2 x3 : (⟨2, ![64, N]⟩ : Shape).Idx → α)
    (h : Shape.Concatenates (([⟨⟨2, ![64, N]⟩, x0⟩, ⟨⟨2, ![64, N]⟩, x1⟩, ⟨⟨2, ![64, N]⟩, x2⟩, ⟨⟨2, ![64, N]⟩, x3⟩] : List ((s : Shape) × (s.Idx → α))).map (·.1)) ⟨2, ![256, N]⟩ (0 : Fin 2)) (k : Fin 64) (c : Fin N) :
    concatenate ⟨2, ![256, N]⟩ (0 : Fin 2) [⟨⟨2, ![64, N]⟩, x0⟩, ⟨⟨2, ![64, N]⟩, x1⟩, ⟨⟨2, ![64, N]⟩, x2⟩, ⟨⟨2, ![64, N]⟩, x3⟩] h (ix2 (gix 4 rfl (2 : Fin 4) k) c) = x2 (ix2 k c) :=
  concat_rows_piece _ h 2 (by simp) x2 rfl 128 rfl k c _ rfl
theorem concat4_rows_3 {N : ℕ} (x0 x1 x2 x3 : (⟨2, ![64, N]⟩ : Shape).Idx → α)
    (h : Shape.Concatenates (([⟨⟨2, ![64, N]⟩, x0⟩, ⟨⟨2, ![64, N]⟩, x1⟩, ⟨⟨2, ![64, N]⟩, x2⟩, ⟨⟨2, ![64, N]⟩, x3⟩] : List ((s : Shape) × (s.Idx → α))).map (·.1)) ⟨2, ![256, N]⟩ (0 : Fin 2)) (k : Fin 64) (c : Fin N) :
    concatenate ⟨2, ![256, N]⟩ (0 : Fin 2) [⟨⟨2, ![64, N]⟩, x0⟩, ⟨⟨2, ![64, N]⟩, x1⟩, ⟨⟨2, ![64, N]⟩, x2⟩, ⟨⟨2, ![64, N]⟩, x3⟩] h (ix2 (gix 4 rfl (3 : Fin 4) k) c) = x3 (ix2 k c) :=
  concat_rows_piece _ h 3 (by simp) x3 rfl 192 rfl k c _ rfl
theorem concat2_vec_0 (x0 x1 : (⟨1, ![64]⟩ : Shape).Idx → α)
    (h : Shape.Concatenates (([⟨⟨1, ![64]⟩, x0⟩, ⟨⟨1, ![64]⟩, x1⟩] : List ((s : Shape) × (s.Idx → α))).map (·.1)) ⟨1, ![128]⟩ (0 : Fin 1)) (n : Fin 64) :
    concatenate ⟨1, ![128]⟩ (0 : Fin 1) [⟨⟨1, ![64]⟩, x0⟩, ⟨⟨1, ![64]⟩, x1⟩] h (ix1 (gix 2 rfl (0 : Fin 2) n)) = x0 (ix1 n) :=
  concat_vec_piece _ h 0 (by simp) x0 rfl 0 rfl n _ rfl
theorem concat2_vec_1 (x0 x1 : (⟨1, ![64]⟩ : Shape).Idx → α)
    (h : Shape.Concatenates (([⟨⟨1, ![64]⟩, x0⟩, ⟨⟨1, ![64]⟩, x1⟩] : List ((s : Shape) × (s.Idx → α))).map (·.1)) ⟨1, ![128]⟩ (0 : Fin 1)) (n : Fin 64) :
    concatenate ⟨1, ![128]⟩ (0 : Fin 1) [⟨⟨1, ![64]⟩, x0⟩, ⟨⟨1, ![64]⟩, x1⟩] h (ix1 (gix 2 rfl (1 : Fin 2) n)) = x1 (ix1 n) :=
  concat_vec_piece _ h 1 (by simp) x1 rfl 64 rfl n _ rfl

/-! ## One block -/

/-- Slab `j` of the (16, 64, 64) stack, made a matrix and transposed, reads the stack at (j, n, k) at its (k, n). -/
theorem slabT_apply (a9 : (⟨3, ![16, 64, 64]⟩ : Shape).Idx → α) (j : Fin 16) (h : (⟨3, ![16, 64, 64]⟩ : Shape).Slices ![j.val, 0, 0] ⟨3, ![1, 64, 64]⟩)
    (hc : (⟨3, ![1, 64, 64]⟩ : Shape).ShapeCasts ⟨2, ![64, 64]⟩) (ht : (⟨2, ![64, 64]⟩ : Shape).Transposes [1, 0] ⟨2, ![64, 64]⟩) (k n : Fin 64) :
    transpose ⟨2, ![64, 64]⟩ [1, 0] (shapeCast ⟨2, ![64, 64]⟩ (extractStridedSlice ⟨3, ![1, 64, 64]⟩ ![j.val, 0, 0] a9 h) hc) ht (ix2 k n)
      = a9 (ix3 j n k) := by
  rw [transpose_ix2_apply, shapeCast_1ab_ab_apply, slice3_axis0_apply j.val a9 h n k j rfl]

/-- Row `j` of the (16, 64) stack, made a vector, reads the stack at (j, n). -/
theorem browT_apply (a10 : (⟨2, ![16, 64]⟩ : Shape).Idx → α) (j : Fin 16) (h : (⟨2, ![16, 64]⟩ : Shape).Slices ![j.val, 0] ⟨2, ![1, 64]⟩)
    (hc : (⟨2, ![1, 64]⟩ : Shape).ShapeCasts ⟨1, ![64]⟩) (n : Fin 64) :
    shapeCast ⟨1, ![64]⟩ (extractStridedSlice ⟨2, ![1, 64]⟩ ![j.val, 0] a10 h) hc (ix1 n) = a10 (ix2 j n) := by
  rw [shapeCast_1a_a_apply]
  exact extractStridedSlice_apply _ _ _ _ (ix2 j n) (fun a => match a with
    | ⟨0, _⟩ => rfl
    | ⟨1, _⟩ => (Nat.zero_add _).symm)

/-- A block of zeros reads zero. -/
theorem zeroBlock_apply (h : (⟨0, ![]⟩ : Shape).BroadcastsInDim ⟨2, ![64, 64]⟩ ![]) (i : (⟨2, ![64, 64]⟩ : Shape).Idx) :
    broadcastInDim ⟨2, ![64, 64]⟩ ![] h (constant (F := Ideal) ⟨0, ![]⟩ .f32 0x00000000#32) i = 0 := by
  rw [broadcastInDim_scalar_apply, constant_apply, Ideal.ofBits_zero_f32]

/-! ## The staged arrays at the coordinates of each block -/

theorem T140_f19_0_0 (a9 : Vec Ideal S16x64x64 .f32) :
    ∀ k n : Fin 64, Host.T140 a9 (ix2 (gix 4 rfl (0 : Fin 4) k) (gix 2 rfl (0 : Fin 2) n)) = 0 := fun k n => by
  unfold Host.T140
  refine (truncf_apply (ψ := .bf16) _ bitsLt_bf16_f32 _).trans ?_
  refine (concat4_rows_0 _ _ _ _ _ k _).trans ?_
  refine (concat2_cols_0 _ _ _ k n).trans ?_
  exact zeroBlock_apply _ _
theorem T140_f19_0_1 (a9 : Vec Ideal S16x64x64 .f32) :
    ∀ k n : Fin 64, Host.T140 a9 (ix2 (gix 4 rfl (0 : Fin 4) k) (gix 2 rfl (1 : Fin 2) n)) = a9 (ix3 (13 : Fin 16) n k) := fun k n => by
  unfold Host.T140
  refine (truncf_apply (ψ := .bf16) _ bitsLt_bf16_f32 _).trans ?_
  refine (concat4_rows_0 _ _ _ _ _ k _).trans ?_
  refine (concat2_cols_1 _ _ _ k n).trans ?_
  exact slabT_apply a9 (13 : Fin 16) _ _ _ k n
theorem T140_f19_1_0 (a9 : Vec Ideal S16x64x64 .f32) :
    ∀ k n : Fin 64, Host.T140 a9 (ix2 (gix 4 rfl (1 : Fin 4) k) (gix 2 rfl (0 : Fin 2) n)) = a9 (ix3 (8 : Fin 16) n k) := fun k n => by
  unfold Host.T140
  refine (truncf_apply (ψ := .bf16) _ bitsLt_bf16_f32 _).trans ?_
  refine (concat4_rows_1 _ _ _ _ _ k _).trans ?_
  refine (concat2_cols_0 _ _ _ k n).trans ?_
  exact slabT_apply a9 (8 : Fin 16) _ _ _ k n
theorem T140_f19_1_1 (a9 : Vec Ideal S16x64x64 .f32) :
    ∀ k n : Fin 64, Host.T140 a9 (ix2 (gix 4 rfl (1 : Fin 4) k) (gix 2 rfl (1 : Fin 2) n)) = a9 (ix3 (13 : Fin 16) n k) := fun k n => by
  unfold Host.T140
  refine (truncf_apply (ψ := .bf16) _ bitsLt_bf16_f32 _).trans ?_
  refine (concat4_rows_1 _ _ _ _ _ k _).trans ?_
  refine (concat2_cols_1 _ _ _ k n).trans ?_
  exact slabT_apply a9 (13 : Fin 16) _ _ _ k n
theorem T140_f19_2_0 (a9 : Vec Ideal S16x64x64 .f32) :
    ∀ k n : Fin 64, Host.T140 a9 (ix2 (gix 4 rfl (2 : Fin 4) k) (gix 2 rfl (0 : Fin 2) n)) = a9 (ix3 (8 : Fin 16) n k) := fun k n => by
  unfold Host.T140
  refine (truncf_apply (ψ := .bf16) _ bitsLt_bf16_f32 _).trans ?_
  refine (concat4_rows_2 _ _ _ _ _ k _).trans ?_
  refine (concat2_cols_0 _ _ _ k n).trans ?_
  exact slabT_apply a9 (8 : Fin 16) _ _ _ k n
theorem T140_f19_2_1 (a9 : Vec Ideal S16x64x64 .f32) :
    ∀ k n : Fin 64, Host.T140 a9 (ix2 (gix 4 rfl (2 : Fin 4) k) (gix 2 rfl (1 : Fin 2) n)) = 0 := fun k n => by
  unfold Host.T140
  refine (truncf_apply (ψ := .bf16) _ bitsLt_bf16_f32 _).trans ?_
  refine (concat4_rows_2 _ _ _ _ _ k _).trans ?_
  refine (concat2_cols_1 _ _ _ k n).trans ?_
  exact zeroBlock_apply _ _
theorem T140_f19_3_0 (a9 : Vec Ideal S16x64x64 .f32) :
    ∀ k n : Fin 64, Host.T140 a9 (ix2 (gix 4 rfl (3 : Fin 4) k) (gix 2 rfl (0 : Fin 2) n)) = 0 := fun k n => by
  unfold Host.T140
  refine (truncf_apply (ψ := .bf16) _ bitsLt_bf16_f32 _).trans ?_
  refine (concat4_rows_3 _ _ _ _ _ k _).trans ?_
  refine (concat2_cols_0 _ _ _ k n).trans ?_
  exact zeroBlock_apply _ _
theorem T140_f19_3_1 (a9 : Vec Ideal S16x64x64 .f32) :
    ∀ k n : Fin 64, Host.T140 a9 (ix2 (gix 4 rfl (3 : Fin 4) k) (gix 2 rfl (1 : Fin 2) n)) = a9 (ix3 (13 : Fin 16) n k) := fun k n => by
  unfold Host.T140
  refine (truncf_apply (ψ := .bf16) _ bitsLt_bf16_f32 _).trans ?_
  refine (concat4_rows_3 _ _ _ _ _ k _).trans ?_
  refine (concat2_cols_1 _ _ _ k n).trans ?_
  exact slabT_apply a9 (13 : Fin 16) _ _ _ k n
theorem T159_f21_0_0 (a9 : Vec Ideal S16x64x64 .f32) :
    ∀ k n : Fin 64, Host.T159 a9 (ix2 (gix 4 rfl (0 : Fin 4) k) n) = a9 (ix3 (9 : Fin 16) n k) := fun k n => by
  unfold Host.T159
  refine (truncf_apply (ψ := .bf16) _ bitsLt_bf16_f32 _).trans ?_
  refine (concat4_rows_0 _ _ _ _ _ k n).trans ?_
  exact slabT_apply a9 (9 : Fin 16) _ _ _ k n
theorem T159_f21_1_0 (a9 : Vec Ideal S16x64x64 .f32) :
    ∀ k n : Fin 64, Host.T159 a9 (ix2 (gix 4 rfl (1 : Fin 4) k) n) = a9 (ix3 (9 : Fin 16) n k) := fun k n => by
  unfold Host.T159
  refine (truncf_apply (ψ := .bf16) _ bitsLt_bf16_f32 _).trans ?_
  refine (concat4_rows_1 _ _ _ _ _ k n).trans ?_
  exact slabT_apply a9 (9 : Fin 16) _ _ _ k n
theorem T159_f21_2_0 (a9 : Vec Ideal S16x64x64 .f32) :
    ∀ k n : Fin 64, Host.T159 a9 (ix2 (gix 4 rfl (2 : Fin 4) k) n) = a9 (ix3 (9 : Fin 16) n k) := fun k n => by
  unfold Host.T159
  refine (truncf_apply (ψ := .bf16) _ bitsLt_bf16_f32 _).trans ?_
  refine (concat4_rows_2 _ _ _ _ _ k n).trans ?_
  exact slabT_apply a9 (9 : Fin 16) _ _ _ k n
theorem T159_f21_3_0 (a9 : Vec Ideal S16x64x64 .f32) :
    ∀ k n : Fin 64, Host.T159 a9 (ix2 (gix 4 rfl (3 : Fin 4) k) n) = a9 (ix3 (9 : Fin 16) n k) := fun k n => by
  unfold Host.T159
  refine (truncf_apply (ψ := .bf16) _ bitsLt_bf16_f32 _).trans ?_
  refine (concat4_rows_3 _ _ _ _ _ k n).trans ?_
  exact slabT_apply a9 (9 : Fin 16) _ _ _ k n
theorem T172_f23_0_0 (a9 : Vec Ideal S16x64x64 .f32) :
    ∀ k n : Fin 64, Host.T172 a9 (ix2 (gix 3 rfl (0 : Fin 3) k) n) = a9 (ix3 (10 : Fin 16) n k) := fun k n => by
  unfold Host.T172
  refine (truncf_apply (ψ := .bf16) _ bitsLt_bf16_f32 _).trans ?_
  refine (concat3_rows_0 _ _ _ _ k n).trans ?_
  exact slabT_apply a9 (10 : Fin 16) _ _ _ k n
theorem T172_f23_1_0 (a9 : Vec Ideal S16x64x64 .f32) :
    ∀ k n : Fin 64, Host.T172 a9 (ix2 (gix 3 rfl (1 : Fin 3) k) n) = a9 (ix3 (10 : Fin 16) n k) := fun k n => by
  unfold Host.T172
  refine (truncf_apply (ψ := .bf16) _ bitsLt_bf16_f32 _).trans ?_
  refine (concat3_rows_1 _ _ _ _ k n).trans ?_
  exact slabT_apply a9 (10 : Fin 16) _ _ _ k n
theorem T172_f23_2_0 (a9 : Vec Ideal S16x64x64 .f32) :
    ∀ k n : Fin 64, Host.T172 a9 (ix2 (gix 3 rfl (2 : Fin 3) k) n) = a9 (ix3 (10 : Fin 16) n k) := fun k n => by
  unfold Host.T172
  refine (truncf_apply (ψ := .bf16) _ bitsLt_bf16_f32 _).trans ?_
  refine (concat3_rows_2 _ _ _ _ k n).trans ?_
  exact slabT_apply a9 (10 : Fin 16) _ _ _ k n
theorem T182_f25_0_0 (a9 : Vec Ideal S16x64x64 .f32) :
    ∀ k n : Fin 64, Host.T182 a9 (ix2 (gix 2 rfl (0 : Fin 2) k) n) = a9 (ix3 (15 : Fin 16) n k) := fun k n => by
  unfold Host.T182
  refine (truncf_apply (ψ := .bf16) _ bitsLt_bf16_f32 _).trans ?_
  refine (concat2_rows_0 _ _ _ k n).trans ?_
  exact slabT_apply a9 (15 : Fin 16) _ _ _ k n
theorem T182_f25_1_0 (a9 : Vec Ideal S16x64x64 .f32) :
    ∀ k n : Fin 64, Host.T182 a9 (ix2 (gix 2 rfl (1 : Fin 2) k) n) = a9 (ix3 (15 : Fin 16) n k) := fun k n => by
  unfold Host.T182
  refine (truncf_apply (ψ := .bf16) _ bitsLt_bf16_f32 _).trans ?_
  refine (concat2_rows_1 _ _ _ k n).trans ?_
  exact slabT_apply a9 (15 : Fin 16) _ _ _ k n
theorem T145_b20_0 (a10 : Vec Ideal S16x64 .f32) :
    ∀ n : Fin 64, Host.T145 a10 (ix1 (gix 2 rfl (0 : Fin 2) n)) = a10 (ix2 (8 : Fin 16) n) := fun n => by
  unfold Host.T145
  refine (concat2_vec_0 _ _ _ n).trans ?_
  exact browT_apply a10 (8 : Fin 16) _ _ n
theorem T145_b20_1 (a10 : Vec Ideal S16x64 .f32) :
    ∀ n : Fin 64, Host.T145 a10 (ix1 (gix 2 rfl (1 : Fin 2) n)) = a10 (ix2 (13 : Fin 16) n) := fun n => by
  unfold Host.T145
  refine (concat2_vec_1 _ _ _ n).trans ?_
  exact browT_apply a10 (13 : Fin 16) _ _ n
theorem T161_b22_0 (a10 : Vec Ideal S16x64 .f32) :
    ∀ n : Fin 64, Host.T161 a10 (ix1 n) = a10 (ix2 (9 : Fin 16) n) := fun n => by
  unfold Host.T161
  exact browT_apply a10 (9 : Fin 16) _ _ n
theorem T174_b24_0 (a10 : Vec Ideal S16x64 .f32) :
    ∀ n : Fin 64, Host.T174 a10 (ix1 n) = a10 (ix2 (10 : Fin 16) n) := fun n => by
  unfold Host.T174
  exact browT_apply a10 (10 : Fin 16) _ _ n
theorem T184_b26_0 (a10 : Vec Ideal S16x64 .f32) :
    ∀ n : Fin 64, Host.T184 a10 (ix1 n) = a10 (ix2 (15 : Fin 16) n) := fun n => by
  unfold Host.T184
  exact browT_apply a10 (15 : Fin 16) _ _ n

end Cert.KernelIdeal.Hand.HostB

end
-- ==== Proof.KWinFLib.lean ====
/-
  Stacked blocks read at block coordinates.

  A fused weight matrix is built from 64 × 64 blocks: the blocks of one row of blocks set side by side, the rows of
  blocks stacked; a fused bias from 64-long pieces end to end.  The lemmas here read a stack of `T` pieces of 64 rows
  (or a concatenation of `T` vectors of length 64) at position `k` of piece `τ`, for `T` = 2, 3, 4, 6; one block
  that is a node's weight cut out of the stack of sixteen, its unit axis dropped, transposed; one bias piece that is a
  node's bias row cut out of the sixteen, its unit axis dropped; and a block of zeros (the scalar zero broadcast).
-/
import proofs.«166257_j42623255446007_2_alg».proof.Proof.RowOps3
import Idealize.ShloMosaic.Lib.IdealHost

namespace Cert.KernelIdeal.Hand.HostF
open scoped BigOperators
open Idealize.ShloMosaic Idealize.ShloMosaic.ValueIdx Cert.RowOps

variable {α : Type}

/-! ## `T` pieces of 64 rows, stacked -/

theorem concat2_rows_0 {N : ℕ} (x0 x1 : (⟨2, ![64, N]⟩ : Shape).Idx → α)
    (h : Shape.Concatenates (([⟨⟨2, ![64, N]⟩, x0⟩, ⟨⟨2, ![64, N]⟩, x1⟩] : List ((s : Shape) × (s.Idx → α))).map (·.1)) ⟨2, ![128, N]⟩ (0 : Fin 2)) (k : Fin 64) (c : Fin N) :
    concatenate ⟨2, ![128, N]⟩ (0 : Fin 2) [⟨⟨2, ![64, N]⟩, x0⟩, ⟨⟨2, ![64, N]⟩, x1⟩] h (ix2 (gix 2 rfl (0 : Fin 2) k) c) = x0 (ix2 k c) :=
  concat_rows_piece _ h 0 (by simp) x0 rfl 0 rfl k c _ rfl
theorem concat2_rows_1 {N : ℕ} (x0 x1 : (⟨2, ![64, N]⟩ : Shape).Idx → α)
    (h : Shape.Concatenates (([⟨⟨2, ![64, N]⟩, x0⟩, ⟨⟨2, ![64, N]⟩, x1⟩] : List ((s : Shape) × (s.Idx → α))).map (·.1)) ⟨2, ![128, N]⟩ (0 : Fin 2)) (k : Fin 64) (c : Fin N) :
    concatenate ⟨2, ![128, N]⟩ (0 : Fin 2) [⟨⟨2, ![64, N]⟩, x0⟩, ⟨⟨2, ![64, N]⟩, x1⟩] h (ix2 (gix 2 rfl (1 : Fin 2) k) c) = x1 (ix2 k c) :=
  concat_rows_piece _ h 1 (by simp) x1 rfl 64 rfl k c _ rfl

theorem concat3_rows_0 {N : ℕ} (x0 x1 x2 : (⟨2, ![64, N]⟩ : Shape).Idx → α)
    (h : Shape.Concatenates (([⟨⟨2, ![64, N]⟩, x0⟩, ⟨⟨2, ![64, N]⟩, x1⟩, ⟨⟨2, ![64, N]⟩, x2⟩] : List ((s : Shape) × (s.Idx → α))).map (·.1)) ⟨2, ![192, N]⟩ (0 : Fin 2)) (k : Fin 64) (c : Fin N) :
    concatenate ⟨2, ![192, N]⟩ (0 : Fin 2) [⟨⟨2, ![64, N]⟩, x0⟩, ⟨⟨2, ![64, N]⟩, x1⟩, ⟨⟨2, ![64, N]⟩, x2⟩] h (ix2 (gix 3 rfl (0 : Fin 3) k) c) = x0 (ix2 k c) :=
  concat_rows_piece _ h 0 (by simp) x0 rfl 0 rfl k c _ rfl
theorem concat3_rows_1 {N : ℕ} (x0 x1 x2 : (⟨2, ![64, N]⟩ : Shape).Idx → α)
    (h : Shape.Concatenates (([⟨⟨2, ![64, N]⟩, x0⟩, ⟨⟨2, ![64, N]⟩, x1⟩, ⟨⟨2, ![64, N]⟩, x2⟩] : List ((s : Shape) × (s.Idx → α))).map (·.1)) ⟨2, ![192, N]⟩ (0 : Fin 2)) (k : Fin 64) (c : Fin N) :
    concatenate ⟨2, ![192, N]⟩ (0 : Fin 2) [⟨⟨2, ![64, N]⟩, x0⟩, ⟨⟨2, ![64, N]⟩, x1⟩, ⟨⟨2, ![64, N]⟩, x2⟩] h (ix2 (gix 3 rfl (1 : Fin 3) k) c) = x1 (ix2 k c) :=
  concat_rows_piece _ h 1 (by simp) x1 rfl 64 rfl k c _ rfl
theorem concat3_rows_2 {N : ℕ} (x0 x1 x2 : (⟨2, ![64, N]⟩ : Shape).Idx → α)
    (h : Shape.Concatenates (([⟨⟨2, ![64, N]⟩, x0⟩, ⟨⟨2, ![64, N]⟩, x1⟩, ⟨⟨2, ![64, N]⟩, x2⟩] : List ((s : Shape) × (s.Idx → α))).map (·.1)) ⟨2, ![192, N]⟩ (0 : Fin 2)) (k : Fin 64) (c : Fin N) :
    concatenate ⟨2, ![192, N]⟩ (0 : Fin 2) [⟨⟨2, ![64, N]⟩, x0⟩, ⟨⟨2, ![64, N]⟩, x1⟩, ⟨⟨2, ![64, N]⟩, x2⟩] h (ix2 (gix 3 rfl (2 : Fin 3) k) c) = x2 (ix2 k c) :=
  concat_rows_piece _ h 2 (by simp) x2 rfl 128 rfl k c _ rfl

theorem concat4_rows_0 {N : ℕ} (x0 x1 x2 x3 : (⟨2, ![64, N]⟩ : Shape).Idx → α)
    (h : Shape.Concatenates (([⟨⟨2, ![64, N]⟩, x0⟩, ⟨⟨2, ![64, N]⟩, x1⟩, ⟨⟨2, ![64, N]⟩, x2⟩, ⟨⟨2, ![64, N]⟩, x3⟩] : List ((s : Shape) × (s.Idx → α))).map (·.1)) ⟨2, ![256, N]⟩ (0 : Fin 2)) (k : Fin 64) (c : Fin N) :
    concatenate ⟨2, ![256, N]⟩ (0 : Fin 2) [⟨⟨2, ![64, N]⟩, x0⟩, ⟨⟨2, ![64, N]⟩, x1⟩, ⟨⟨2, ![64, N]⟩, x2⟩, ⟨⟨2, ![64, N]⟩, x3⟩] h (ix2 (gix 4 rfl (0 : Fin 4) k) c) = x0 (ix2 k c) :=
  concat_rows_piece _ h 0 (by simp) x0 rfl 0 rfl k c _ rfl
theorem concat4_rows_1 {N : ℕ} (x0 x1 x2 x3 : (⟨2, ![64, N]⟩ : Shape).Idx → α)
    (h : Shape.Concatenates (([⟨⟨2, ![64, N]⟩, x0⟩, ⟨⟨2, ![64, N]⟩, x1⟩, ⟨⟨2, ![64, N]⟩, x2⟩, ⟨⟨2, ![64, N]⟩, x3⟩] : List ((s : Shape) × (s.Idx → α))).map (·.1)) ⟨2, ![256, N]⟩ (0 : Fin 2)) (k : Fin 64) (c : Fin N) :
    concatenate ⟨2, ![256, N]⟩ (0 : Fin 2) [⟨⟨2, ![64, N]⟩, x0⟩, ⟨⟨2, ![64, N]⟩, x1⟩, ⟨⟨2, ![64, N]⟩, x2⟩, ⟨⟨2, ![64, N]⟩, x3⟩] h (ix2 (gix 4 rfl (1 : Fin 4) k) c) = x1 (ix2 k c) :=
  concat_rows_piece _ h 1 (by simp) x1 rfl 64 rfl k c _ rfl
theorem concat4_rows_2 {N : ℕ} (x0 x1 x2 x3 : (⟨2, ![64, N]⟩ : Shape).Idx → α)
    (h : Shape.Concatenates (([⟨⟨2, ![64, N]⟩, x0⟩, ⟨⟨2, ![64, N]⟩, x1⟩, ⟨⟨2, ![64, N]⟩, x2⟩, ⟨⟨2, ![64, N]⟩, x3⟩] : List ((s : Shape) × (s.Idx → α))).map (·.1)) ⟨2, ![256, N]⟩ (0 : Fin 2)) (k : Fin 64) (c : Fin N) :
    concatenate ⟨2, ![256, N]⟩ (0 : Fin 2) [⟨⟨2, ![64, N]⟩, x0⟩, ⟨⟨2, ![64, N]⟩, x1⟩, ⟨⟨2, ![64, N]⟩, x2⟩, ⟨⟨2, ![64, N]⟩, x3⟩] h (ix2 (gix 4 rfl (2 : Fin 4) k) c) = x2 (ix2 k c) :=
  concat_rows_piece _ h 2 (by simp) x2 rfl 128 rfl k c _ rfl
theorem concat4_rows_3 {N : ℕ} (x0 x1 x2 x3 : (⟨2, ![64, N]⟩ : Shape).Idx → α)
    (h : Shape.Concatenates (([⟨⟨2, ![64, N]⟩, x0⟩, ⟨⟨2, ![64, N]⟩, x1⟩, ⟨⟨2, ![64, N]⟩, x2⟩, ⟨⟨2, ![64, N]⟩, x3⟩] : List ((s : Shape) × (s.Idx → α))).map (·.1)) ⟨2, ![256, N]⟩ (0 : Fin 2)) (k : Fin 64) (c : Fin N) :
    concatenate ⟨2, ![256, N]⟩ (0 : Fin 2) [⟨⟨2, ![64, N]⟩, x0⟩, ⟨⟨2, ![64, N]⟩, x1⟩, ⟨⟨2, ![64, N]⟩, x2⟩, ⟨⟨2, ![64, N]⟩, x3⟩] h (ix2 (gix 4 rfl (3 : Fin 4) k) c) = x3 (ix2 k c) :=
  concat_rows_piece _ h 3 (by simp) x3 rfl 192 rfl k c _ rfl

theorem concat6_rows_0 {N : ℕ} (x0 x1 x2 x3 x4 x5 : (⟨2, ![64, N]⟩ : Shape).Idx → α)
    (h : Shape.Concatenates (([⟨⟨2, ![64, N]⟩, x0⟩, ⟨⟨2, ![64, N]⟩, x1⟩, ⟨⟨2, ![64, N]⟩, x2⟩, ⟨⟨2, ![64, N]⟩, x3⟩, ⟨⟨2, ![64, N]⟩, x4⟩, ⟨⟨2, ![64, N]⟩, x5⟩] : List ((s : Shape) × (s.Idx → α))).map (·.1)) ⟨2, ![384, N]⟩ (0 : Fin 2)) (k : Fin 64) (c : Fin N) :
    concatenate ⟨2, ![384, N]⟩ (0 : Fin 2) [⟨⟨2, ![64, N]⟩, x0⟩, ⟨⟨2, ![64, N]⟩, x1⟩, ⟨⟨2, ![64, N]⟩, x2⟩, ⟨⟨2, ![64, N]⟩, x3⟩, ⟨⟨2, ![64, N]⟩, x4⟩, ⟨⟨2, ![64, N]⟩, x5⟩] h (ix2 (gix 6 rfl (0 : Fin 6) k) c) = x0 (ix2 k c) :=
  concat_rows_piece _ h 0 (by simp) x0 rfl 0 rfl k c _ rfl
theorem concat6_rows_1 {N : ℕ} (x0 x1 x2 x3 x4 x5 : (⟨2, ![64, N]⟩ : Shape).Idx → α)
    (h : Shape.Concatenates (([⟨⟨2, ![64, N]⟩, x0⟩, ⟨⟨2, ![64, N]⟩, x1⟩, ⟨⟨2, ![64, N]⟩, x2⟩, ⟨⟨2, ![64, N]⟩, x3⟩, ⟨⟨2, ![64, N]⟩, x4⟩, ⟨⟨2, ![64, N]⟩, x5⟩] : List ((s : Shape) × (s.Idx → α))).map (·.1)) ⟨2, ![384, N]⟩ (0 : Fin 2)) (k : Fin 64) (c : Fin N) :
    concatenate ⟨2, ![384, N]⟩ (0 : Fin 2) [⟨⟨2, ![64, N]⟩, x0⟩, ⟨⟨2, ![64, N]⟩, x1⟩, ⟨⟨2, ![64, N]⟩, x2⟩, ⟨⟨2, ![64, N]⟩, x3⟩, ⟨⟨2, ![64, N]⟩, x4⟩, ⟨⟨2, ![64, N]⟩, x5⟩] h (ix2 (gix 6 rfl (1 : Fin 6) k) c) = x1 (ix2 k c) :=
  concat_rows_piece _ h 1 (by simp) x1 rfl 64 rfl k c _ rfl
theorem concat6_rows_2 {N : ℕ} (x0 x1 x2 x3 x4 x5 : (⟨2, ![64, N]⟩ : Shape).Idx → α)
    (h : Shape.Concatenates (([⟨⟨2, ![64, N]⟩, x0⟩, ⟨⟨2, ![64, N]⟩, x1⟩, ⟨⟨2, ![64, N]⟩, x2⟩, ⟨⟨2, ![64, N]⟩, x3⟩, ⟨⟨2, ![64, N]⟩, x4⟩, ⟨⟨2, ![64, N]⟩, x5⟩] : List ((s : Shape) × (s.Idx → α))).map (·.1)) ⟨2, ![384, N]⟩ (0 : Fin 2)) (k : Fin 64) (c : Fin N) :
    concatenate ⟨2, ![384, N]⟩ (0 : Fin 2) [⟨⟨2, ![64, N]⟩, x0⟩, ⟨⟨2, ![64, N]⟩, x1⟩, ⟨⟨2, ![64, N]⟩, x2⟩, ⟨⟨2, ![64, N]⟩, x3⟩, ⟨⟨2, ![64, N]⟩, x4⟩, ⟨⟨2, ![64, N]⟩, x5⟩] h (ix2 (gix 6 rfl (2 : Fin 6) k) c) = x2 (ix2 k c) :=
  concat_rows_piece _ h 2 (by simp) x2 rfl 128 rfl k c _ rfl
theorem concat6_rows_3 {N : ℕ} (x0 x1 x2 x3 x4 x5 : (⟨2, ![64, N]⟩ : Shape).Idx → α)
    (h : Shape.Concatenates (([⟨⟨2, ![64, N]⟩, x0⟩, ⟨⟨2, ![64, N]⟩, x1⟩, ⟨⟨2, ![64, N]⟩, x2⟩, ⟨⟨2, ![64, N]⟩, x3⟩, ⟨⟨2, ![64, N]⟩, x4⟩, ⟨⟨2, ![64, N]⟩, x5⟩] : List ((s : Shape) × (s.Idx → α))).map (·.1)) ⟨2, ![384, N]⟩ (0 : Fin 2)) (k : Fin 64) (c : Fin N) :
    concatenate ⟨2, ![384, N]⟩ (0 : Fin 2) [⟨⟨2, ![64, N]⟩, x0⟩, ⟨⟨2, ![64, N]⟩, x1⟩, ⟨⟨2, ![64, N]⟩, x2⟩, ⟨⟨2, ![64, N]⟩, x3⟩, ⟨⟨2, ![64, N]⟩, x4⟩, ⟨⟨2, ![64, N]⟩, x5⟩] h (ix2 (gix 6 rfl (3 : Fin 6) k) c) = x3 (ix2 k c) :=
  concat_rows_piece _ h 3 (by simp) x3 rfl 192 rfl k c _ rfl
theorem concat6_rows_4 {N : ℕ} (x0 x1 x2 x3 x4 x5 : (⟨2, ![64, N]⟩ : Shape).Idx → α)
    (h : Shape.Concatenates (([⟨⟨2, ![64, N]⟩, x0⟩, ⟨⟨2, ![64, N]⟩, x1⟩, ⟨⟨2, ![64, N]⟩, x2⟩, ⟨⟨2, ![64, N]⟩, x3⟩, ⟨⟨2, ![64, N]⟩, x4⟩, ⟨⟨2, ![64, N]⟩, x5⟩] : List ((s : Shape) × (s.Idx → α))).map (·.1)) ⟨2, ![384, N]⟩ (0 : Fin 2)) (k : Fin 64) (c : Fin N) :
    concatenate ⟨2, ![384, N]⟩ (0 : Fin 2) [⟨⟨2, ![64, N]⟩, x0⟩, ⟨⟨2, ![64, N]⟩, x1⟩, ⟨⟨2, ![64, N]⟩, x2⟩, ⟨⟨2, ![64, N]⟩, x3⟩, ⟨⟨2, ![64, N]⟩, x4⟩, ⟨⟨2, ![64, N]⟩, x5⟩] h (ix2 (gix 6 rfl (4 : Fin 6) k) c) = x4 (ix2 k c) :=
  concat_rows_piece _ h 4 (by simp) x4 rfl 256 rfl k c _ rfl
theorem concat6_rows_5 {N : ℕ} (x0 x1 x2 x3 x4 x5 : (⟨2, ![64, N]⟩ : Shape).Idx → α)
    (h : Shape.Concatenates (([⟨⟨2, ![64, N]⟩, x0⟩, ⟨⟨2, ![64, N]⟩, x1⟩, ⟨⟨2, ![64, N]⟩, x2⟩, ⟨⟨2, ![64, N]⟩, x3⟩, ⟨⟨2, ![64, N]⟩, x4⟩, ⟨⟨2, ![64, N]⟩, x5⟩] : List ((s : Shape) × (s.Idx → α))).map (·.1)) ⟨2, ![384, N]⟩ (0 : Fin 2)) (k : Fin 64) (c : Fin N) :
    concatenate ⟨2, ![384, N]⟩ (0 : Fin 2) [⟨⟨2, ![64, N]⟩, x0⟩, ⟨⟨2, ![64, N]⟩, x1⟩, ⟨⟨2, ![64, N]⟩, x2⟩, ⟨⟨2, ![64, N]⟩, x3⟩, ⟨⟨2, ![64, N]⟩, x4⟩, ⟨⟨2, ![64, N]⟩, x5⟩] h (ix2 (gix 6 rfl (5 : Fin 6) k) c) = x5 (ix2 k c) :=
  concat_rows_piece _ h 5 (by simp) x5 rfl 320 rfl k c _ rfl

/-! ## `T` vectors of length 64, end to end -/

theorem concat2_vec_0 (x0 x1 : (⟨1, ![64]⟩ : Shape).Idx → α)
    (h : Shape.Concatenates (([⟨⟨1, ![64]⟩, x0⟩, ⟨⟨1, ![64]⟩, x1⟩] : List ((s : Shape) × (s.Idx → α))).map (·.1)) ⟨1, ![128]⟩ (0 : Fin 1)) (n : Fin 64) :
    concatenate ⟨1, ![128]⟩ (0 : Fin 1) [⟨⟨1, ![64]⟩, x0⟩, ⟨⟨1, ![64]⟩, x1⟩] h (ix1 (gix 2 rfl (0 : Fin 2) n)) = x0 (ix1 n) :=
  concat_vec_piece _ h 0 (by simp) x0 rfl 0 rfl n _ rfl
theorem concat2_vec_1 (x0 x1 : (⟨1, ![64]⟩ : Shape).Idx → α)
    (h : Shape.Concatenates (([⟨⟨1, ![64]⟩, x0⟩, ⟨⟨1, ![64]⟩, x1⟩] : List ((s : Shape) × (s.Idx → α))).map (·.1)) ⟨1, ![128]⟩ (0 : Fin 1)) (n : Fin 64) :
    concatenate ⟨1, ![128]⟩ (0 : Fin 1) [⟨⟨1, ![64]⟩, x0⟩, ⟨⟨1, ![64]⟩, x1⟩] h (ix1 (gix 2 rfl (1 : Fin 2) n)) = x1 (ix1 n) :=
  concat_vec_piece _ h 1 (by simp) x1 rfl 64 rfl n _ rfl

theorem concat3_vec_0 (x0 x1 x2 : (⟨1, ![64]⟩ : Shape).Idx → α)
    (h : Shape.Concatenates (([⟨⟨1, ![64]⟩, x0⟩, ⟨⟨1, ![64]⟩, x1⟩, ⟨⟨1, ![64]⟩, x2⟩] : List ((s : Shape) × (s.Idx → α))).map (·.1)) ⟨1, ![192]⟩ (0 : Fin 1)) (n : Fin 64) :
    concatenate ⟨1, ![192]⟩ (0 : Fin 1) [⟨⟨1, ![64]⟩, x0⟩, ⟨⟨1, ![64]⟩, x1⟩, ⟨⟨1, ![64]⟩, x2⟩] h (ix1 (gix 3 rfl (0 : Fin 3) n)) = x0 (ix1 n) :=
  concat_vec_piece _ h 0 (by simp) x0 rfl 0 rfl n _ rfl
theorem concat3_vec_1 (x0 x1 x2 : (⟨1, ![64]⟩ : Shape).Idx → α)
    (h : Shape.Concatenates (([⟨⟨1, ![64]⟩, x0⟩, ⟨⟨1, ![64]⟩, x1⟩, ⟨⟨1, ![64]⟩, x2⟩] : List ((s : Shape) × (s.Idx → α))).map (·.1)) ⟨1, ![192]⟩ (0 : Fin 1)) (n : Fin 64) :
    concatenate ⟨1, ![192]⟩ (0 : Fin 1) [⟨⟨1, ![64]⟩, x0⟩, ⟨⟨1, ![64]⟩, x1⟩, ⟨⟨1, ![64]⟩, x2⟩] h (ix1 (gix 3 rfl (1 : Fin 3) n)) = x1 (ix1 n) :=
  concat_vec_piece _ h 1 (by simp) x1 rfl 64 rfl n _ rfl
theorem concat3_vec_2 (x0 x1 x2 : (⟨1, ![64]⟩ : Shape).Idx → α)
    (h : Shape.Concatenates (([⟨⟨1, ![64]⟩, x0⟩, ⟨⟨1, ![64]⟩, x1⟩, ⟨⟨1, ![64]⟩, x2⟩] : List ((s : Shape) × (s.Idx → α))).map (·.1)) ⟨1, ![192]⟩ (0 : Fin 1)) (n : Fin 64) :
    concatenate ⟨1, ![192]⟩ (0 : Fin 1) [⟨⟨1, ![64]⟩, x0⟩, ⟨⟨1, ![64]⟩, x1⟩, ⟨⟨1, ![64]⟩, x2⟩] h (ix1 (gix 3 rfl (2 : Fin 3) n)) = x2 (ix1 n) :=
  concat_vec_piece _ h 2 (by simp) x2 rfl 128 rfl n _ rfl

theorem concat4_vec_0 (x0 x1 x2 x3 : (⟨1, ![64]⟩ : Shape).Idx → α)
    (h : Shape.Concatenates (([⟨⟨1, ![64]⟩, x0⟩, ⟨⟨1, ![64]⟩, x1⟩, ⟨⟨1, ![64]⟩, x2⟩, ⟨⟨1, ![64]⟩, x3⟩] : List ((s : Shape) × (s.Idx → α))).map (·.1)) ⟨1, ![256]⟩ (0 : Fin 1)) (n : Fin 64) :
    concatenate ⟨1, ![256]⟩ (0 : Fin 1) [⟨⟨1, ![64]⟩, x0⟩, ⟨⟨1, ![64]⟩, x1⟩, ⟨⟨1, ![64]⟩, x2⟩, ⟨⟨1, ![64]⟩, x3⟩] h (ix1 (gix 4 rfl (0 : Fin 4) n)) = x0 (ix1 n) :=
  concat_vec_piece _ h 0 (by simp) x0 rfl 0 rfl n _ rfl
theorem concat4_vec_1 (x0 x1 x2 x3 : (⟨1, ![64]⟩ : Shape).Idx → α)
    (h : Shape.Concatenates (([⟨⟨1, ![64]⟩, x0⟩, ⟨⟨1, ![64]⟩, x1⟩, ⟨⟨1, ![64]⟩, x2⟩, ⟨⟨1, ![64]⟩, x3⟩] : List ((s : Shape) × (s.Idx → α))).map (·.1)) ⟨1, ![256]⟩ (0 : Fin 1)) (n : Fin 64) :
    concatenate ⟨1, ![256]⟩ (0 : Fin 1) [⟨⟨1, ![64]⟩, x0⟩, ⟨⟨1, ![64]⟩, x1⟩, ⟨⟨1, ![64]⟩, x2⟩, ⟨⟨1, ![64]⟩, x3⟩] h (ix1 (gix 4 rfl (1 : Fin 4) n)) = x1 (ix1 n) :=
  concat_vec_piece _ h 1 (by simp) x1 rfl 64 rfl n _ rfl
theorem concat4_vec_2 (x0 x1 x2 x3 : (⟨1, ![64]⟩ : Shape).Idx → α)
    (h : Shape.Concatenates (([⟨⟨1, ![64]⟩, x0⟩, ⟨⟨1, ![64]⟩, x1⟩, ⟨⟨1, ![64]⟩, x2⟩, ⟨⟨1, ![64]⟩, x3⟩] : List ((s : Shape) × (s.Idx → α))).map (·.1)) ⟨1, ![256]⟩ (0 : Fin 1)) (n : Fin 64) :
    concatenate ⟨1, ![256]⟩ (0 : Fin 1) [⟨⟨1, ![64]⟩, x0⟩, ⟨⟨1, ![64]⟩, x1⟩, ⟨⟨1, ![64]⟩, x2⟩, ⟨⟨1, ![64]⟩, x3⟩] h (ix1 (gix 4 rfl (2 : Fin 4) n)) = x2 (ix1 n) :=
  concat_vec_piece _ h 2 (by simp) x2 rfl 128 rfl n _ rfl
theorem concat4_vec_3 (x0 x1 x2 x3 : (⟨1, ![64]⟩ : Shape).Idx → α)
    (h : Shape.Concatenates (([⟨⟨1, ![64]⟩, x0⟩, ⟨⟨1, ![64]⟩, x1⟩, ⟨⟨1, ![64]⟩, x2⟩, ⟨⟨1, ![64]⟩, x3⟩] : List ((s : Shape) × (s.Idx → α))).map (·.1)) ⟨1, ![256]⟩ (0 : Fin 1)) (n : Fin 64) :
    concatenate ⟨1, ![256]⟩ (0 : Fin 1) [⟨⟨1, ![64]⟩, x0⟩, ⟨⟨1, ![64]⟩, x1⟩, ⟨⟨1, ![64]⟩, x2⟩, ⟨⟨1, ![64]⟩, x3⟩] h (ix1 (gix 4 rfl (3 : Fin 4) n)) = x3 (ix1 n) :=
  concat_vec_piece _ h 3 (by simp) x3 rfl 192 rfl n _ rfl

theorem concat6_vec_0 (x0 x1 x2 x3 x4 x5 : (⟨1, ![64]⟩ : Shape).Idx → α)
    (h : Shape.Concatenates (([⟨⟨1, ![64]⟩, x0⟩, ⟨⟨1, ![64]⟩, x1⟩, ⟨⟨1, ![64]⟩, x2⟩, ⟨⟨1, ![64]⟩, x3⟩, ⟨⟨1, ![64]⟩, x4⟩, ⟨⟨1, ![64]⟩, x5⟩] : List ((s : Shape) × (s.Idx → α))).map (·.1)) ⟨1, ![384]⟩ (0 : Fin 1)) (n : Fin 64) :
    concatenate ⟨1, ![384]⟩ (0 : Fin 1) [⟨⟨1, ![64]⟩, x0⟩, ⟨⟨1, ![64]⟩, x1⟩, ⟨⟨1, ![64]⟩, x2⟩, ⟨⟨1, ![64]⟩, x3⟩, ⟨⟨1, ![64]⟩, x4⟩, ⟨⟨1, ![64]⟩, x5⟩] h (ix1 (gix 6 rfl (0 : Fin 6) n)) = x0 (ix1 n) :=
  concat_vec_piece _ h 0 (by simp) x0 rfl 0 rfl n _ rfl
theorem concat6_vec_1 (x0 x1 x2 x3 x4 x5 : (⟨1, ![64]⟩ : Shape).Idx → α)
    (h : Shape.Concatenates (([⟨⟨1, ![64]⟩, x0⟩, ⟨⟨1, ![64]⟩, x1⟩, ⟨⟨1, ![64]⟩, x2⟩, ⟨⟨1, ![64]⟩, x3⟩, ⟨⟨1, ![64]⟩, x4⟩, ⟨⟨1, ![64]⟩, x5⟩] : List ((s : Shape) × (s.Idx → α))).map (·.1)) ⟨1, ![384]⟩ (0 : Fin 1)) (n : Fin 64) :
    concatenate ⟨1, ![384]⟩ (0 : Fin 1) [⟨⟨1, ![64]⟩, x0⟩, ⟨⟨1, ![64]⟩, x1⟩, ⟨⟨1, ![64]⟩, x2⟩, ⟨⟨1, ![64]⟩, x3⟩, ⟨⟨1, ![64]⟩, x4⟩, ⟨⟨1, ![64]⟩, x5⟩] h (ix1 (gix 6 rfl (1 : Fin 6) n)) = x1 (ix1 n) :=
  concat_vec_piece _ h 1 (by simp) x1 rfl 64 rfl n _ rfl
theorem concat6_vec_2 (x0 x1 x2 x3 x4 x5 : (⟨1, ![64]⟩ : Shape).Idx → α)
    (h : Shape.Concatenates (([⟨⟨1, ![64]⟩, x0⟩, ⟨⟨1, ![64]⟩, x1⟩, ⟨⟨1, ![64]⟩, x2⟩, ⟨⟨1, ![64]⟩, x3⟩, ⟨⟨1, ![64]⟩, x4⟩, ⟨⟨1, ![64]⟩, x5⟩] : List ((s : Shape) × (s.Idx → α))).map (·.1)) ⟨1, ![384]⟩ (0 : Fin 1)) (n : Fin 64) :
    concatenate ⟨1, ![384]⟩ (0 : Fin 1) [⟨⟨1, ![64]⟩, x0⟩, ⟨⟨1, ![64]⟩, x1⟩, ⟨⟨1, ![64]⟩, x2⟩, ⟨⟨1, ![64]⟩, x3⟩, ⟨⟨1, ![64]⟩, x4⟩, ⟨⟨1, ![64]⟩, x5⟩] h (ix1 (gix 6 rfl (2 : Fin 6) n)) = x2 (ix1 n) :=
  concat_vec_piece _ h 2 (by simp) x2 rfl 128 rfl n _ rfl
theorem concat6_vec_3 (x0 x1 x2 x3 x4 x5 : (⟨1, ![64]⟩ : Shape).Idx → α)
    (h : Shape.Concatenates (([⟨⟨1, ![64]⟩, x0⟩, ⟨⟨1, ![64]⟩, x1⟩, ⟨⟨1, ![64]⟩, x2⟩, ⟨⟨1, ![64]⟩, x3⟩, ⟨⟨1, ![64]⟩, x4⟩, ⟨⟨1, ![64]⟩, x5⟩] : List ((s : Shape) × (s.Idx → α))).map (·.1)) ⟨1, ![384]⟩ (0 : Fin 1)) (n : Fin 64) :
    concatenate ⟨1, ![384]⟩ (0 : Fin 1) [⟨⟨1, ![64]⟩, x0⟩, ⟨⟨1, ![64]⟩, x1⟩, ⟨⟨1, ![64]⟩, x2⟩, ⟨⟨1, ![64]⟩, x3⟩, ⟨⟨1, ![64]⟩, x4⟩, ⟨⟨1, ![64]⟩, x5⟩] h (ix1 (gix 6 rfl (3 : Fin 6) n)) = x3 (ix1 n) :=
  concat_vec_piece _ h 3 (by simp) x3 rfl 192 rfl n _ rfl
theorem concat6_vec_4 (x0 x1 x2 x3 x4 x5 : (⟨1, ![64]⟩ : Shape).Idx → α)
    (h : Shape.Concatenates (([⟨⟨1, ![64]⟩, x0⟩, ⟨⟨1, ![64]⟩, x1⟩, ⟨⟨1, ![64]⟩, x2⟩, ⟨⟨1, ![64]⟩, x3⟩, ⟨⟨1, ![64]⟩, x4⟩, ⟨⟨1, ![64]⟩, x5⟩] : List ((s : Shape) × (s.Idx → α))).map (·.1)) ⟨1, ![384]⟩ (0 : Fin 1)) (n : Fin 64) :
    concatenate ⟨1, ![384]⟩ (0 : Fin 1) [⟨⟨1, ![64]⟩, x0⟩, ⟨⟨1, ![64]⟩, x1⟩, ⟨⟨1, ![64]⟩, x2⟩, ⟨⟨1, ![64]⟩, x3⟩, ⟨⟨1, ![64]⟩, x4⟩, ⟨⟨1, ![64]⟩, x5⟩] h (ix1 (gix 6 rfl (4 : Fin 6) n)) = x4 (ix1 n) :=
  concat_vec_piece _ h 4 (by simp) x4 rfl 256 rfl n _ rfl
theorem concat6_vec_5 (x0 x1 x2 x3 x4 x5 : (⟨1, ![64]⟩ : Shape).Idx → α)
    (h : Shape.Concatenates (([⟨⟨1, ![64]⟩, x0⟩, ⟨⟨1, ![64]⟩, x1⟩, ⟨⟨1, ![64]⟩, x2⟩, ⟨⟨1, ![64]⟩, x3⟩, ⟨⟨1, ![64]⟩, x4⟩, ⟨⟨1, ![64]⟩, x5⟩] : List ((s : Shape) × (s.Idx → α))).map (·.1)) ⟨1, ![384]⟩ (0 : Fin 1)) (n : Fin 64) :
    concatenate ⟨1, ![384]⟩ (0 : Fin 1) [⟨⟨1, ![64]⟩, x0⟩, ⟨⟨1, ![64]⟩, x1⟩, ⟨⟨1, ![64]⟩, x2⟩, ⟨⟨1, ![64]⟩, x3⟩, ⟨⟨1, ![64]⟩, x4⟩, ⟨⟨1, ![64]⟩, x5⟩] h (ix1 (gix 6 rfl (5 : Fin 6) n)) = x5 (ix1 n) :=
  concat_vec_piece _ h 5 (by simp) x5 rfl 320 rfl n _ rfl

/-! ## One block, one bias piece, a block of zeros -/

/-- Node `j`'s weight cut out of the stack of sixteen, its unit axis dropped, transposed: at `(k, n)` the stack at
    `(j, n, k)`. -/
theorem gW_block_apply (j : Fin 16) (o : ℕ) (ho : j.val = o) (a9 : (⟨3, ![16, 64, 64]⟩ : Shape).Idx → α)
    (h1 : (⟨3, ![16, 64, 64]⟩ : Shape).Slices ![o, 0, 0] ⟨3, ![1, 64, 64]⟩)
    (h2 : (⟨3, ![1, 64, 64]⟩ : Shape).ShapeCasts ⟨2, ![64, 64]⟩)
    (h3 : (⟨2, ![64, 64]⟩ : Shape).Transposes [1, 0] ⟨2, ![64, 64]⟩) (k n : Fin 64) :
    transpose ⟨2, ![64, 64]⟩ [1, 0] (shapeCast ⟨2, ![64, 64]⟩ (extractStridedSlice ⟨3, ![1, 64, 64]⟩ ![o, 0, 0] a9 h1) h2) h3 (ix2 k n)
      = a9 (ix3 j n k) := by
  rw [transpose_ix2_apply, shapeCast_1ab_ab_apply, slice3_axis0_apply o a9 h1 n k j ho]

/-- Node `j`'s bias row cut out of the sixteen, its unit axis dropped: at `n` the array at `(j, n)`. -/
theorem gB_piece_apply (j : Fin 16) (o : ℕ) (ho : j.val = o) (a10 : (⟨2, ![16, 64]⟩ : Shape).Idx → α)
    (h1 : (⟨2, ![16, 64]⟩ : Shape).Slices ![o, 0] ⟨2, ![1, 64]⟩) (h2 : (⟨2, ![1, 64]⟩ : Shape).ShapeCasts ⟨1, ![64]⟩) (n : Fin 64) :
    shapeCast ⟨1, ![64]⟩ (extractStridedSlice ⟨2, ![1, 64]⟩ ![o, 0] a10 h1) h2 (ix1 n) = a10 (ix2 j n) := by
  rw [shapeCast_1a_a_apply, slice2_axis0_apply o a10 h1 (0 : Fin 1) n j (by rw [ho]; rfl)]

/-- The scalar zero broadcast to any shape is zero everywhere (the empty list of broadcast axes a variable, so that
    the rule fires on any spelling of it). -/
theorem zero_block_apply {T : Shape} (dims : Fin (⟨0, ![]⟩ : Shape).rank → Fin T.rank)
    (h : (⟨0, ![]⟩ : Shape).BroadcastsInDim T dims) (i : T.Idx) :
    broadcastInDim T dims h (constant (F := Ideal) ⟨0, ![]⟩ .f32 0x00000000#32) i = (0 : EReal) := by
  show Ideal.ofBits .f32 0x00000000#32 = 0
  exact Ideal.ofBits_zero_f32

end Cert.KernelIdeal.Hand.HostF
-- ==== Proof.KWinF13.lean ====
/-
  What the fused weights and bias of graph level 2 hold: the array staged for window 13 is 2 × 4 blocks of 64 × 64 — block
  (token τ, node q) is node q's weight, transposed, when token τ is one of node q's predecessors, and zero otherwise —,
  and the array staged for window 14 is the four nodes' biases end to end.  Each fact reads the host's construction
  (blocks set side by side, rows of blocks stacked, then a narrowing that is the identity on extended reals) at block
  coordinates.
-/
import proofs.«166257_j42623255446007_2_alg».proof.Proof.KWinTerms
import proofs.«166257_j42623255446007_2_alg».proof.Proof.KWinFLib

set_option maxRecDepth 16384
noncomputable section
namespace Cert.KernelIdeal.Hand.HostF
open scoped BigOperators
open Idealize.ShloMosaic Idealize.ShloMosaic.ValueIdx Cert.KernelIdeal Cert.KernelIdeal.Gen Cert.RowOps Cert.KernelIdeal.Hand.Host

/-! ## Window 13: `T33`, 2 × 4 blocks -/

theorem T33_f13_0_0 (a9 : Vec Ideal S16x64x64 .f32) : ∀ k n : Fin 64, Host.T33 a9 (ix2 (gix 2 rfl (0 : Fin 2) k) (gix 4 rfl (0 : Fin 4) n)) = a9 (ix3 (2 : Fin 16) n k) := by
  intro k n
  unfold Host.T33
  simp only [truncf_apply, concat2_rows_0, concat2_rows_1, concat4_cols_0, concat4_cols_1, concat4_cols_2, concat4_cols_3, gW_block_apply (2 : Fin 16) 2 rfl, gW_block_apply (3 : Fin 16) 3 rfl, gW_block_apply (4 : Fin 16) 4 rfl, gW_block_apply (7 : Fin 16) 7 rfl, zero_block_apply]

theorem T33_f13_0_1 (a9 : Vec Ideal S16x64x64 .f32) : ∀ k n : Fin 64, Host.T33 a9 (ix2 (gix 2 rfl (0 : Fin 2) k) (gix 4 rfl (1 : Fin 4) n)) = 0 := by
  intro k n
  unfold Host.T33
  simp only [truncf_apply, concat2_rows_0, concat2_rows_1, concat4_cols_0, concat4_cols_1, concat4_cols_2, concat4_cols_3, gW_block_apply (2 : Fin 16) 2 rfl, gW_block_apply (3 : Fin 16) 3 rfl, gW_block_apply (4 : Fin 16) 4 rfl, gW_block_apply (7 : Fin 16) 7 rfl, zero_block_apply]

theorem T33_f13_0_2 (a9 : Vec Ideal S16x64x64 .f32) : ∀ k n : Fin 64, Host.T33 a9 (ix2 (gix 2 rfl (0 : Fin 2) k) (gix 4 rfl (2 : Fin 4) n)) = 0 := by
  intro k n
  unfold Host.T33
  simp only [truncf_apply, concat2_rows_0, concat2_rows_1, concat4_cols_0, concat4_cols_1, concat4_cols_2, concat4_cols_3, gW_block_apply (2 : Fin 16) 2 rfl, gW_block_apply (3 : Fin 16) 3 rfl, gW_block_apply (4 : Fin 16) 4 rfl, gW_block_apply (7 : Fin 16) 7 rfl, zero_block_apply]

theorem T33_f13_0_3 (a9 : Vec Ideal S16x64x64 .f32) : ∀ k n : Fin 64, Host.T33 a9 (ix2 (gix 2 rfl (0 : Fin 2) k) (gix 4 rfl (3 : Fin 4) n)) = 0 := by
  intro k n
  unfold Host.T33
  simp only [truncf_apply, concat2_rows_0, concat2_rows_1, concat4_cols_0, concat4_cols_1, concat4_cols_2, concat4_cols_3, gW_block_apply (2 : Fin 16) 2 rfl, gW_block_apply (3 : Fin 16) 3 rfl, gW_block_apply (4 : Fin 16) 4 rfl, gW_block_apply (7 : Fin 16) 7 rfl, zero_block_apply]

theorem T33_f13_1_0 (a9 : Vec Ideal S16x64x64 .f32) : ∀ k n : Fin 64, Host.T33 a9 (ix2 (gix 2 rfl (1 : Fin 2) k) (gix 4 rfl (0 : Fin 4) n)) = a9 (ix3 (2 : Fin 16) n k) := by
  intro k n
  unfold Host.T33
  simp only [truncf_apply, concat2_rows_0, concat2_rows_1, concat4_cols_0, concat4_cols_1, concat4_cols_2, concat4_cols_3, gW_block_apply (2 : Fin 16) 2 rfl, gW_block_apply (3 : Fin 16) 3 rfl, gW_block_apply (4 : Fin 16) 4 rfl, gW_block_apply (7 : Fin 16) 7 rfl, zero_block_apply]

theorem T33_f13_1_1 (a9 : Vec Ideal S16x64x64 .f32) : ∀ k n : Fin 64, Host.T33 a9 (ix2 (gix 2 rfl (1 : Fin 2) k) (gix 4 rfl (1 : Fin 4) n)) = a9 (ix3 (3 : Fin 16) n k) := by
  intro k n
  unfold Host.T33
  simp only [truncf_apply, concat2_rows_0, concat2_rows_1, concat4_cols_0, concat4_cols_1, concat4_cols_2, concat4_cols_3, gW_block_apply (2 : Fin 16) 2 rfl, gW_block_apply (3 : Fin 16) 3 rfl, gW_block_apply (4 : Fin 16) 4 rfl, gW_block_apply (7 : Fin 16) 7 rfl, zero_block_apply]

theorem T33_f13_1_2 (a9 : Vec Ideal S16x64x64 .f32) : ∀ k n : Fin 64, Host.T33 a9 (ix2 (gix 2 rfl (1 : Fin 2) k) (gix 4 rfl (2 : Fin 4) n)) = a9 (ix3 (4 : Fin 16) n k) := by
  intro k n
  unfold Host.T33
  simp only [truncf_apply, concat2_rows_0, concat2_rows_1, concat4_cols_0, concat4_cols_1, concat4_cols_2, concat4_cols_3, gW_block_apply (2 : Fin 16) 2 rfl, gW_block_apply (3 : Fin 16) 3 rfl, gW_block_apply (4 : Fin 16) 4 rfl, gW_block_apply (7 : Fin 16) 7 rfl, zero_block_apply]

theorem T33_f13_1_3 (a9 : Vec Ideal S16x64x64 .f32) : ∀ k n : Fin 64, Host.T33 a9 (ix2 (gix 2 rfl (1 : Fin 2) k) (gix 4 rfl (3 : Fin 4) n)) = a9 (ix3 (7 : Fin 16) n k) := by
  intro k n
  unfold Host.T33
  simp only [truncf_apply, concat2_rows_0, concat2_rows_1, concat4_cols_0, concat4_cols_1, concat4_cols_2, concat4_cols_3, gW_block_apply (2 : Fin 16) 2 rfl, gW_block_apply (3 : Fin 16) 3 rfl, gW_block_apply (4 : Fin 16) 4 rfl, gW_block_apply (7 : Fin 16) 7 rfl, zero_block_apply]

/-! ## Window 14: `T42`, 4 bias pieces -/

theorem T42_b14_0 (a10 : Vec Ideal S16x64 .f32) : ∀ n : Fin 64, Host.T42 a10 (ix1 (gix 4 rfl (0 : Fin 4) n)) = a10 (ix2 (2 : Fin 16) n) := by
  intro n
  unfold Host.T42
  simp only [concat4_vec_0, concat4_vec_1, concat4_vec_2, concat4_vec_3, gB_piece_apply (2 : Fin 16) 2 rfl, gB_piece_apply (3 : Fin 16) 3 rfl, gB_piece_apply (4 : Fin 16) 4 rfl, gB_piece_apply (7 : Fin 16) 7 rfl]

theorem T42_b14_1 (a10 : Vec Ideal S16x64 .f32) : ∀ n : Fin 64, Host.T42 a10 (ix1 (gix 4 rfl (1 : Fin 4) n)) = a10 (ix2 (3 : Fin 16) n) := by
  intro n
  unfold Host.T42
  simp only [concat4_vec_0, concat4_vec_1, concat4_vec_2, concat4_vec_3, gB_piece_apply (2 : Fin 16) 2 rfl, gB_piece_apply (3 : Fin 16) 3 rfl, gB_piece_apply (4 : Fin 16) 4 rfl, gB_piece_apply (7 : Fin 16) 7 rfl]

theorem T42_b14_2 (a10 : Vec Ideal S16x64 .f32) : ∀ n : Fin 64, Host.T42 a10 (ix1 (gix 4 rfl (2 : Fin 4) n)) = a10 (ix2 (4 : Fin 16) n) := by
  intro n
  unfold Host.T42
  simp only [concat4_vec_0, concat4_vec_1, concat4_vec_2, concat4_vec_3, gB_piece_apply (2 : Fin 16) 2 rfl, gB_piece_apply (3 : Fin 16) 3 rfl, gB_piece_apply (4 : Fin 16) 4 rfl, gB_piece_apply (7 : Fin 16) 7 rfl]

theorem T42_b14_3 (a10 : Vec Ideal S16x64 .f32) : ∀ n : Fin 64, Host.T42 a10 (ix1 (gix 4 rfl (3 : Fin 4) n)) = a10 (ix2 (7 : Fin 16) n) := by
  intro n
  unfold Host.T42
  simp only [concat4_vec_0, concat4_vec_1, concat4_vec_2, concat4_vec_3, gB_piece_apply (2 : Fin 16) 2 rfl, gB_piece_apply (3 : Fin 16) 3 rfl, gB_piece_apply (4 : Fin 16) 4 rfl, gB_piece_apply (7 : Fin 16) 7 rfl]

end Cert.KernelIdeal.Hand.HostF
end
-- ==== Proof.KWinF15.lean ====
/-
  What the fused weights and bias of graph level 3 hold: the array staged for window 15 is 4 × 3 blocks of 64 × 64 — block
  (token τ, node q) is node q's weight, transposed, when token τ is one of node q's predecessors, and zero otherwise —,
  and the array staged for window 16 is the three nodes' biases end to end.  Each fact reads the host's construction
  (blocks set side by side, rows of blocks stacked, then a narrowing that is the identity on extended reals) at block
  coordinates.
-/
import proofs.«166257_j42623255446007_2_alg».proof.Proof.KWinTerms
import proofs.«166257_j42623255446007_2_alg».proof.Proof.KWinFLib

set_option maxRecDepth 16384
noncomputable section
namespace Cert.KernelIdeal.Hand.HostF
open scoped BigOperators
open Idealize.ShloMosaic Idealize.ShloMosaic.ValueIdx Cert.KernelIdeal Cert.KernelIdeal.Gen Cert.RowOps Cert.KernelIdeal.Hand.Host

/-! ## Window 15: `T70`, 4 × 3 blocks -/

theorem T70_f15_0_0 (a9 : Vec Ideal S16x64x64 .f32) : ∀ k n : Fin 64, Host.T70 a9 (ix2 (gix 4 rfl (0 : Fin 4) k) (gix 3 rfl (0 : Fin 3) n)) = a9 (ix3 (5 : Fin 16) n k) := by
  intro k n
  unfold Host.T70
  simp only [truncf_apply, concat4_rows_0, concat4_rows_1, concat4_rows_2, concat4_rows_3, concat3_cols_0, concat3_cols_1, concat3_cols_2, gW_block_apply (5 : Fin 16) 5 rfl, gW_block_apply (12 : Fin 16) 12 rfl, gW_block_apply (11 : Fin 16) 11 rfl, zero_block_apply]

theorem T70_f15_0_1 (a9 : Vec Ideal S16x64x64 .f32) : ∀ k n : Fin 64, Host.T70 a9 (ix2 (gix 4 rfl (0 : Fin 4) k) (gix 3 rfl (1 : Fin 3) n)) = 0 := by
  intro k n
  unfold Host.T70
  simp only [truncf_apply, concat4_rows_0, concat4_rows_1, concat4_rows_2, concat4_rows_3, concat3_cols_0, concat3_cols_1, concat3_cols_2, gW_block_apply (5 : Fin 16) 5 rfl, gW_block_apply (12 : Fin 16) 12 rfl, gW_block_apply (11 : Fin 16) 11 rfl, zero_block_apply]

theorem T70_f15_0_2 (a9 : Vec Ideal S16x64x64 .f32) : ∀ k n : Fin 64, Host.T70 a9 (ix2 (gix 4 rfl (0 : Fin 4) k) (gix 3 rfl (2 : Fin 3) n)) = 0 := by
  intro k n
  unfold Host.T70
  simp only [truncf_apply, concat4_rows_0, concat4_rows_1, concat4_rows_2, concat4_rows_3, concat3_cols_0, concat3_cols_1, concat3_cols_2, gW_block_apply (5 : Fin 16) 5 rfl, gW_block_apply (12 : Fin 16) 12 rfl, gW_block_apply (11 : Fin 16) 11 rfl, zero_block_apply]

theorem T70_f15_1_0 (a9 : Vec Ideal S16x64x64 .f32) : ∀ k n : Fin 64, Host.T70 a9 (ix2 (gix 4 rfl (1 : Fin 4) k) (gix 3 rfl (0 : Fin 3) n)) = 0 := by
  intro k n
  unfold Host.T70
  simp only [truncf_apply, concat4_rows_0, concat4_rows_1, concat4_rows_2, concat4_rows_3, concat3_cols_0, concat3_cols_1, concat3_cols_2, gW_block_apply (5 : Fin 16) 5 rfl, gW_block_apply (12 : Fin 16) 12 rfl, gW_block_apply (11 : Fin 16) 11 rfl, zero_block_apply]

theorem T70_f15_1_1 (a9 : Vec Ideal S16x64x64 .f32) : ∀ k n : Fin 64, Host.T70 a9 (ix2 (gix 4 rfl (1 : Fin 4) k) (gix 3 rfl (1 : Fin 3) n)) = 0 := by
  intro k n
  unfold Host.T70
  simp only [truncf_apply, concat4_rows_0, concat4_rows_1, concat4_rows_2, concat4_rows_3, concat3_cols_0, concat3_cols_1, concat3_cols_2, gW_block_apply (5 : Fin 16) 5 rfl, gW_block_apply (12 : Fin 16) 12 rfl, gW_block_apply (11 : Fin 16) 11 rfl, zero_block_apply]

theorem T70_f15_1_2 (a9 : Vec Ideal S16x64x64 .f32) : ∀ k n : Fin 64, Host.T70 a9 (ix2 (gix 4 rfl (1 : Fin 4) k) (gix 3 rfl (2 : Fin 3) n)) = a9 (ix3 (12 : Fin 16) n k) := by
  intro k n
  unfold Host.T70
  simp only [truncf_apply, concat4_rows_0, concat4_rows_1, concat4_rows_2, concat4_rows_3, concat3_cols_0, concat3_cols_1, concat3_cols_2, gW_block_apply (5 : Fin 16) 5 rfl, gW_block_apply (12 : Fin 16) 12 rfl, gW_block_apply (11 : Fin 16) 11 rfl, zero_block_apply]

theorem T70_f15_2_0 (a9 : Vec Ideal S16x64x64 .f32) : ∀ k n : Fin 64, Host.T70 a9 (ix2 (gix 4 rfl (2 : Fin 4) k) (gix 3 rfl (0 : Fin 3) n)) = 0 := by
  intro k n
  unfold Host.T70
  simp only [truncf_apply, concat4_rows_0, concat4_rows_1, concat4_rows_2, concat4_rows_3, concat3_cols_0, concat3_cols_1, concat3_cols_2, gW_block_apply (5 : Fin 16) 5 rfl, gW_block_apply (12 : Fin 16) 12 rfl, gW_block_apply (11 : Fin 16) 11 rfl, zero_block_apply]

theorem T70_f15_2_1 (a9 : Vec Ideal S16x64x64 .f32) : ∀ k n : Fin 64, Host.T70 a9 (ix2 (gix 4 rfl (2 : Fin 4) k) (gix 3 rfl (1 : Fin 3) n)) = 0 := by
  intro k n
  unfold Host.T70
  simp only [truncf_apply, concat4_rows_0, concat4_rows_1, concat4_rows_2, concat4_rows_3, concat3_cols_0, concat3_cols_1, concat3_cols_2, gW_block_apply (5 : Fin 16) 5 rfl, gW_block_apply (12 : Fin 16) 12 rfl, gW_block_apply (11 : Fin 16) 11 rfl, zero_block_apply]

theorem T70_f15_2_2 (a9 : Vec Ideal S16x64x64 .f32) : ∀ k n : Fin 64, Host.T70 a9 (ix2 (gix 4 rfl (2 : Fin 4) k) (gix 3 rfl (2 : Fin 3) n)) = a9 (ix3 (12 : Fin 16) n k) := by
  intro k n
  unfold Host.T70
  simp only [truncf_apply, concat4_rows_0, concat4_rows_1, concat4_rows_2, concat4_rows_3, concat3_cols_0, concat3_cols_1, concat3_cols_2, gW_block_apply (5 : Fin 16) 5 rfl, gW_block_apply (12 : Fin 16) 12 rfl, gW_block_apply (11 : Fin 16) 11 rfl, zero_block_apply]

theorem T70_f15_3_0 (a9 : Vec Ideal S16x64x64 .f32) : ∀ k n : Fin 64, Host.T70 a9 (ix2 (gix 4 rfl (3 : Fin 4) k) (gix 3 rfl (0 : Fin 3) n)) = a9 (ix3 (5 : Fin 16) n k) := by
  intro k n
  unfold Host.T70
  simp only [truncf_apply, concat4_rows_0, concat4_rows_1, concat4_rows_2, concat4_rows_3, concat3_cols_0, concat3_cols_1, concat3_cols_2, gW_block_apply (5 : Fin 16) 5 rfl, gW_block_apply (12 : Fin 16) 12 rfl, gW_block_apply (11 : Fin 16) 11 rfl, zero_block_apply]

theorem T70_f15_3_1 (a9 : Vec Ideal S16x64x64 .f32) : ∀ k n : Fin 64, Host.T70 a9 (ix2 (gix 4 rfl (3 : Fin 4) k) (gix 3 rfl (1 : Fin 3) n)) = a9 (ix3 (11 : Fin 16) n k) := by
  intro k n
  unfold Host.T70
  simp only [truncf_apply, concat4_rows_0, concat4_rows_1, concat4_rows_2, concat4_rows_3, concat3_cols_0, concat3_cols_1, concat3_cols_2, gW_block_apply (5 : Fin 16) 5 rfl, gW_block_apply (12 : Fin 16) 12 rfl, gW_block_apply (11 : Fin 16) 11 rfl, zero_block_apply]

theorem T70_f15_3_2 (a9 : Vec Ideal S16x64x64 .f32) : ∀ k n : Fin 64, Host.T70 a9 (ix2 (gix 4 rfl (3 : Fin 4) k) (gix 3 rfl (2 : Fin 3) n)) = 0 := by
  intro k n
  unfold Host.T70
  simp only [truncf_apply, concat4_rows_0, concat4_rows_1, concat4_rows_2, concat4_rows_3, concat3_cols_0, concat3_cols_1, concat3_cols_2, gW_block_apply (5 : Fin 16) 5 rfl, gW_block_apply (12 : Fin 16) 12 rfl, gW_block_apply (11 : Fin 16) 11 rfl, zero_block_apply]

/-! ## Window 16: `T77`, 3 bias pieces -/

theorem T77_b16_0 (a10 : Vec Ideal S16x64 .f32) : ∀ n : Fin 64, Host.T77 a10 (ix1 (gix 3 rfl (0 : Fin 3) n)) = a10 (ix2 (5 : Fin 16) n) := by
  intro n
  unfold Host.T77
  simp only [concat3_vec_0, concat3_vec_1, concat3_vec_2, gB_piece_apply (5 : Fin 16) 5 rfl, gB_piece_apply (11 : Fin 16) 11 rfl, gB_piece_apply (12 : Fin 16) 12 rfl]

theorem T77_b16_1 (a10 : Vec Ideal S16x64 .f32) : ∀ n : Fin 64, Host.T77 a10 (ix1 (gix 3 rfl (1 : Fin 3) n)) = a10 (ix2 (11 : Fin 16) n) := by
  intro n
  unfold Host.T77
  simp only [concat3_vec_0, concat3_vec_1, concat3_vec_2, gB_piece_apply (5 : Fin 16) 5 rfl, gB_piece_apply (11 : Fin 16) 11 rfl, gB_piece_apply (12 : Fin 16) 12 rfl]

theorem T77_b16_2 (a10 : Vec Ideal S16x64 .f32) : ∀ n : Fin 64, Host.T77 a10 (ix1 (gix 3 rfl (2 : Fin 3) n)) = a10 (ix2 (12 : Fin 16) n) := by
  intro n
  unfold Host.T77
  simp only [concat3_vec_0, concat3_vec_1, concat3_vec_2, gB_piece_apply (5 : Fin 16) 5 rfl, gB_piece_apply (11 : Fin 16) 11 rfl, gB_piece_apply (12 : Fin 16) 12 rfl]

end Cert.KernelIdeal.Hand.HostF
end
-- ==== Proof.KWinF17.lean ====
/-
  What the fused weights and bias of graph level 4 hold: the array staged for window 17 is 6 × 2 blocks of 64 × 64 — block
  (token τ, node q) is node q's weight, transposed, when token τ is one of node q's predecessors, and zero otherwise —,
  and the array staged for window 18 is the two nodes' biases end to end.  Each fact reads the host's construction
  (blocks set side by side, rows of blocks stacked, then a narrowing that is the identity on extended reals) at block
  coordinates.
-/
import proofs.«166257_j42623255446007_2_alg».proof.Proof.KWinTerms
import proofs.«166257_j42623255446007_2_alg».proof.Proof.KWinFLib

set_option maxRecDepth 16384
noncomputable section
namespace Cert.KernelIdeal.Hand.HostF
open scoped BigOperators
open Idealize.ShloMosaic Idealize.ShloMosaic.ValueIdx Cert.KernelIdeal Cert.KernelIdeal.Gen Cert.RowOps Cert.KernelIdeal.Hand.Host

/-! ## Window 17: `T111`, 6 × 2 blocks -/

theorem T111_f17_0_0 (a9 : Vec Ideal S16x64x64 .f32) : ∀ k n : Fin 64, Host.T111 a9 (ix2 (gix 6 rfl (0 : Fin 6) k) (gix 2 rfl (0 : Fin 2) n)) = a9 (ix3 (6 : Fin 16) n k) := by
  intro k n
  unfold Host.T111
  simp only [truncf_apply, concat6_rows_0, concat6_rows_1, concat6_rows_2, concat6_rows_3, concat6_rows_4, concat6_rows_5, concat2_cols_0, concat2_cols_1, gW_block_apply (6 : Fin 16) 6 rfl, gW_block_apply (14 : Fin 16) 14 rfl, zero_block_apply]

theorem T111_f17_0_1 (a9 : Vec Ideal S16x64x64 .f32) : ∀ k n : Fin 64, Host.T111 a9 (ix2 (gix 6 rfl (0 : Fin 6) k) (gix 2 rfl (1 : Fin 2) n)) = a9 (ix3 (14 : Fin 16) n k) := by
  intro k n
  unfold Host.T111
  simp only [truncf_apply, concat6_rows_0, concat6_rows_1, concat6_rows_2, concat6_rows_3, concat6_rows_4, concat6_rows_5, concat2_cols_0, concat2_cols_1, gW_block_apply (6 : Fin 16) 6 rfl, gW_block_apply (14 : Fin 16) 14 rfl, zero_block_apply]

theorem T111_f17_1_0 (a9 : Vec Ideal S16x64x64 .f32) : ∀ k n : Fin 64, Host.T111 a9 (ix2 (gix 6 rfl (1 : Fin 6) k) (gix 2 rfl (0 : Fin 2) n)) = 0 := by
  intro k n
  unfold Host.T111
  simp only [truncf_apply, concat6_rows_0, concat6_rows_1, concat6_rows_2, concat6_rows_3, concat6_rows_4, concat6_rows_5, concat2_cols_0, concat2_cols_1, gW_block_apply (6 : Fin 16) 6 rfl, gW_block_apply (14 : Fin 16) 14 rfl, zero_block_apply]

theorem T111_f17_1_1 (a9 : Vec Ideal S16x64x64 .f32) : ∀ k n : Fin 64, Host.T111 a9 (ix2 (gix 6 rfl (1 : Fin 6) k) (gix 2 rfl (1 : Fin 2) n)) = a9 (ix3 (14 : Fin 16) n k) := by
  intro k n
  unfold Host.T111
  simp only [truncf_apply, concat6_rows_0, concat6_rows_1, concat6_rows_2, concat6_rows_3, concat6_rows_4, concat6_rows_5, concat2_cols_0, concat2_cols_1, gW_block_apply (6 : Fin 16) 6 rfl, gW_block_apply (14 : Fin 16) 14 rfl, zero_block_apply]

theorem T111_f17_2_0 (a9 : Vec Ideal S16x64x64 .f32) : ∀ k n : Fin 64, Host.T111 a9 (ix2 (gix 6 rfl (2 : Fin 6) k) (gix 2 rfl (0 : Fin 2) n)) = a9 (ix3 (6 : Fin 16) n k) := by
  intro k n
  unfold Host.T111
  simp only [truncf_apply, concat6_rows_0, concat6_rows_1, concat6_rows_2, concat6_rows_3, concat6_rows_4, concat6_rows_5, concat2_cols_0, concat2_cols_1, gW_block_apply (6 : Fin 16) 6 rfl, gW_block_apply (14 : Fin 16) 14 rfl, zero_block_apply]

theorem T111_f17_2_1 (a9 : Vec Ideal S16x64x64 .f32) : ∀ k n : Fin 64, Host.T111 a9 (ix2 (gix 6 rfl (2 : Fin 6) k) (gix 2 rfl (1 : Fin 2) n)) = 0 := by
  intro k n
  unfold Host.T111
  simp only [truncf_apply, concat6_rows_0, concat6_rows_1, concat6_rows_2, concat6_rows_3, concat6_rows_4, concat6_rows_5, concat2_cols_0, concat2_cols_1, gW_block_apply (6 : Fin 16) 6 rfl, gW_block_apply (14 : Fin 16) 14 rfl, zero_block_apply]

theorem T111_f17_3_0 (a9 : Vec Ideal S16x64x64 .f32) : ∀ k n : Fin 64, Host.T111 a9 (ix2 (gix 6 rfl (3 : Fin 6) k) (gix 2 rfl (0 : Fin 2) n)) = a9 (ix3 (6 : Fin 16) n k) := by
  intro k n
  unfold Host.T111
  simp only [truncf_apply, concat6_rows_0, concat6_rows_1, concat6_rows_2, concat6_rows_3, concat6_rows_4, concat6_rows_5, concat2_cols_0, concat2_cols_1, gW_block_apply (6 : Fin 16) 6 rfl, gW_block_apply (14 : Fin 16) 14 rfl, zero_block_apply]

theorem T111_f17_3_1 (a9 : Vec Ideal S16x64x64 .f32) : ∀ k n : Fin 64, Host.T111 a9 (ix2 (gix 6 rfl (3 : Fin 6) k) (gix 2 rfl (1 : Fin 2) n)) = 0 := by
  intro k n
  unfold Host.T111
  simp only [truncf_apply, concat6_rows_0, concat6_rows_1, concat6_rows_2, concat6_rows_3, concat6_rows_4, concat6_rows_5, concat2_cols_0, concat2_cols_1, gW_block_apply (6 : Fin 16) 6 rfl, gW_block_apply (14 : Fin 16) 14 rfl, zero_block_apply]

theorem T111_f17_4_0 (a9 : Vec Ideal S16x64x64 .f32) : ∀ k n : Fin 64, Host.T111 a9 (ix2 (gix 6 rfl (4 : Fin 6) k) (gix 2 rfl (0 : Fin 2) n)) = a9 (ix3 (6 : Fin 16) n k) := by
  intro k n
  unfold Host.T111
  simp only [truncf_apply, concat6_rows_0, concat6_rows_1, concat6_rows_2, concat6_rows_3, concat6_rows_4, concat6_rows_5, concat2_cols_0, concat2_cols_1, gW_block_apply (6 : Fin 16) 6 rfl, gW_block_apply (14 : Fin 16) 14 rfl, zero_block_apply]

theorem T111_f17_4_1 (a9 : Vec Ideal S16x64x64 .f32) : ∀ k n : Fin 64, Host.T111 a9 (ix2 (gix 6 rfl (4 : Fin 6) k) (gix 2 rfl (1 : Fin 2) n)) = 0 := by
  intro k n
  unfold Host.T111
  simp only [truncf_apply, concat6_rows_0, concat6_rows_1, concat6_rows_2, concat6_rows_3, concat6_rows_4, concat6_rows_5, concat2_cols_0, concat2_cols_1, gW_block_apply (6 : Fin 16) 6 rfl, gW_block_apply (14 : Fin 16) 14 rfl, zero_block_apply]

theorem T111_f17_5_0 (a9 : Vec Ideal S16x64x64 .f32) : ∀ k n : Fin 64, Host.T111 a9 (ix2 (gix 6 rfl (5 : Fin 6) k) (gix 2 rfl (0 : Fin 2) n)) = 0 := by
  intro k n
  unfold Host.T111
  simp only [truncf_apply, concat6_rows_0, concat6_rows_1, concat6_rows_2, concat6_rows_3, concat6_rows_4, concat6_rows_5, concat2_cols_0, concat2_cols_1, gW_block_apply (6 : Fin 16) 6 rfl, gW_block_apply (14 : Fin 16) 14 rfl, zero_block_apply]

theorem T111_f17_5_1 (a9 : Vec Ideal S16x64x64 .f32) : ∀ k n : Fin 64, Host.T111 a9 (ix2 (gix 6 rfl (5 : Fin 6) k) (gix 2 rfl (1 : Fin 2) n)) = a9 (ix3 (14 : Fin 16) n k) := by
  intro k n
  unfold Host.T111
  simp only [truncf_apply, concat6_rows_0, concat6_rows_1, concat6_rows_2, concat6_rows_3, concat6_rows_4, concat6_rows_5, concat2_cols_0, concat2_cols_1, gW_block_apply (6 : Fin 16) 6 rfl, gW_block_apply (14 : Fin 16) 14 rfl, zero_block_apply]

/-! ## Window 18: `T116`, 2 bias pieces -/

theorem T116_b18_0 (a10 : Vec Ideal S16x64 .f32) : ∀ n : Fin 64, Host.T116 a10 (ix1 (gix 2 rfl (0 : Fin 2) n)) = a10 (ix2 (6 : Fin 16) n) := by
  intro n
  unfold Host.T116
  simp only [concat2_vec_0, concat2_vec_1, gB_piece_apply (6 : Fin 16) 6 rfl, gB_piece_apply (14 : Fin 16) 14 rfl]

theorem T116_b18_1 (a10 : Vec Ideal S16x64 .f32) : ∀ n : Fin 64, Host.T116 a10 (ix1 (gix 2 rfl (1 : Fin 2) n)) = a10 (ix2 (14 : Fin 16) n) := by
  intro n
  unfold Host.T116
  simp only [concat2_vec_0, concat2_vec_1, gB_piece_apply (6 : Fin 16) 6 rfl, gB_piece_apply (14 : Fin 16) 14 rfl]

end Cert.KernelIdeal.Hand.HostF
end
-- ==== Proof.KWin.lean ====
/- What the 26 weight windows of `KernelIdeal` hold at every grid point: the network's parameters, laid out as the
   wrapper around the kernel lays them out.

   Each weight window stages a whole array, so its block at any point is that array (the block index is 0 on every
   axis); each array is its own run of host operations applied to the argument arrays as launched; and each such term,
   read at the coordinates of one 64-wide block, is one graph node's weight matrix transposed, a zero block, or one
   node's bias. The fields below are these three steps in a row, field by field. -/
import proofs.«166257_j42623255446007_2_alg».proof.Proof.KWinA
import proofs.«166257_j42623255446007_2_alg».proof.Proof.KWinHostB
import proofs.«166257_j42623255446007_2_alg».proof.Proof.KWinBLayout
import proofs.«166257_j42623255446007_2_alg».proof.Proof.KWinF13
import proofs.«166257_j42623255446007_2_alg».proof.Proof.KWinF15
import proofs.«166257_j42623255446007_2_alg».proof.Proof.KWinF17

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen Cert.RowOps Cert.Net

variable (m : (ℓ : Loc nD τ sig) → Buf (Elt Ideal) ℓ)

set_option maxHeartbeats 4000000 in
/-- At every point `t`, the 26 weight blocks the body loads hold the parameters the weight arguments hold. -/
theorem kw (c : Dev nD) (t : Fin cfg0.N) :
    Val.KW (Cert.Net.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
      (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) where
  wl := kw_wl m c t
  bl := kw_bl m c t
  wx := kw_wx m c t
  wy := kw_wy m c t
  wr := kw_wr m c t
  w1 := kw_w1 m c t
  b1 := kw_b1 m c t
  ow := kw_ow m c t
  ob := kw_ob m c t
  sc := kw_sc m c t
  g0 := kw_g0 m c t
  gb0 := kw_gb0 m c t
  g1 := kw_g1 m c t
  gb1 := kw_gb1 m c t
  f13_0_0 := fun k n => (congrFun (iblk13_eq m c t) _).trans ((congrFun (V_main_v33 m c) _).trans (HostF.T33_f13_0_0 _ k n))
  f13_0_1 := fun k n => (congrFun (iblk13_eq m c t) _).trans ((congrFun (V_main_v33 m c) _).trans (HostF.T33_f13_0_1 _ k n))
  f13_0_2 := fun k n => (congrFun (iblk13_eq m c t) _).trans ((congrFun (V_main_v33 m c) _).trans (HostF.T33_f13_0_2 _ k n))
  f13_0_3 := fun k n => (congrFun (iblk13_eq m c t) _).trans ((congrFun (V_main_v33 m c) _).trans (HostF.T33_f13_0_3 _ k n))
  f13_1_0 := fun k n => (congrFun (iblk13_eq m c t) _).trans ((congrFun (V_main_v33 m c) _).trans (HostF.T33_f13_1_0 _ k n))
  f13_1_1 := fun k n => (congrFun (iblk13_eq m c t) _).trans ((congrFun (V_main_v33 m c) _).trans (HostF.T33_f13_1_1 _ k n))
  f13_1_2 := fun k n => (congrFun (iblk13_eq m c t) _).trans ((congrFun (V_main_v33 m c) _).trans (HostF.T33_f13_1_2 _ k n))
  f13_1_3 := fun k n => (congrFun (iblk13_eq m c t) _).trans ((congrFun (V_main_v33 m c) _).trans (HostF.T33_f13_1_3 _ k n))
  b14_0 := fun n => (congrFun (iblk14_eq m c t) _).trans ((congrFun (V_main_v42 m c) _).trans (HostF.T42_b14_0 _ n))
  b14_1 := fun n => (congrFun (iblk14_eq m c t) _).trans ((congrFun (V_main_v42 m c) _).trans (HostF.T42_b14_1 _ n))
  b14_2 := fun n => (congrFun (iblk14_eq m c t) _).trans ((congrFun (V_main_v42 m c) _).trans (HostF.T42_b14_2 _ n))
  b14_3 := fun n => (congrFun (iblk14_eq m c t) _).trans ((congrFun (V_main_v42 m c) _).trans (HostF.T42_b14_3 _ n))
  f15_0_0 := fun k n => (congrFun (iblk15_eq m c t) _).trans ((congrFun (V_main_v70 m c) _).trans (HostF.T70_f15_0_0 _ k n))
  f15_0_1 := fun k n => (congrFun (iblk15_eq m c t) _).trans ((congrFun (V_main_v70 m c) _).trans (HostF.T70_f15_0_1 _ k n))
  f15_0_2 := fun k n => (congrFun (iblk15_eq m c t) _).trans ((congrFun (V_main_v70 m c) _).trans (HostF.T70_f15_0_2 _ k n))
  f15_1_0 := fun k n => (congrFun (iblk15_eq m c t) _).trans ((congrFun (V_main_v70 m c) _).trans (HostF.T70_f15_1_0 _ k n))
  f15_1_1 := fun k n => (congrFun (iblk15_eq m c t) _).trans ((congrFun (V_main_v70 m c) _).trans (HostF.T70_f15_1_1 _ k n))
  f15_1_2 := fun k n => (congrFun (iblk15_eq m c t) _).trans ((congrFun (V_main_v70 m c) _).trans (HostF.T70_f15_1_2 _ k n))
  f15_2_0 := fun k n => (congrFun (iblk15_eq m c t) _).trans ((congrFun (V_main_v70 m c) _).trans (HostF.T70_f15_2_0 _ k n))
  f15_2_1 := fun k n => (congrFun (iblk15_eq m c t) _).trans ((congrFun (V_main_v70 m c) _).trans (HostF.T70_f15_2_1 _ k n))
  f15_2_2 := fun k n => (congrFun (iblk15_eq m c t) _).trans ((congrFun (V_main_v70 m c) _).trans (HostF.T70_f15_2_2 _ k n))
  f15_3_0 := fun k n => (congrFun (iblk15_eq m c t) _).trans ((congrFun (V_main_v70 m c) _).trans (HostF.T70_f15_3_0 _ k n))
  f15_3_1 := fun k n => (congrFun (iblk15_eq m c t) _).trans ((congrFun (V_main_v70 m c) _).trans (HostF.T70_f15_3_1 _ k n))
  f15_3_2 := fun k n => (congrFun (iblk15_eq m c t) _).trans ((congrFun (V_main_v70 m c) _).trans (HostF.T70_f15_3_2 _ k n))
  b16_0 := fun n => (congrFun (iblk16_eq m c t) _).trans ((congrFun (V_main_v77 m c) _).trans (HostF.T77_b16_0 _ n))
  b16_1 := fun n => (congrFun (iblk16_eq m c t) _).trans ((congrFun (V_main_v77 m c) _).trans (HostF.T77_b16_1 _ n))
  b16_2 := fun n => (congrFun (iblk16_eq m c t) _).trans ((congrFun (V_main_v77 m c) _).trans (HostF.T77_b16_2 _ n))
  f17_0_0 := fun k n => (congrFun (iblk17_eq m c t) _).trans ((congrFun (V_main_v111 m c) _).trans (HostF.T111_f17_0_0 _ k n))
  f17_0_1 := fun k n => (congrFun (iblk17_eq m c t) _).trans ((congrFun (V_main_v111 m c) _).trans (HostF.T111_f17_0_1 _ k n))
  f17_1_0 := fun k n => (congrFun (iblk17_eq m c t) _).trans ((congrFun (V_main_v111 m c) _).trans (HostF.T111_f17_1_0 _ k n))
  f17_1_1 := fun k n => (congrFun (iblk17_eq m c t) _).trans ((congrFun (V_main_v111 m c) _).trans (HostF.T111_f17_1_1 _ k n))
  f17_2_0 := fun k n => (congrFun (iblk17_eq m c t) _).trans ((congrFun (V_main_v111 m c) _).trans (HostF.T111_f17_2_0 _ k n))
  f17_2_1 := fun k n => (congrFun (iblk17_eq m c t) _).trans ((congrFun (V_main_v111 m c) _).trans (HostF.T111_f17_2_1 _ k n))
  f17_3_0 := fun k n => (congrFun (iblk17_eq m c t) _).trans ((congrFun (V_main_v111 m c) _).trans (HostF.T111_f17_3_0 _ k n))
  f17_3_1 := fun k n => (congrFun (iblk17_eq m c t) _).trans ((congrFun (V_main_v111 m c) _).trans (HostF.T111_f17_3_1 _ k n))
  f17_4_0 := fun k n => (congrFun (iblk17_eq m c t) _).trans ((congrFun (V_main_v111 m c) _).trans (HostF.T111_f17_4_0 _ k n))
  f17_4_1 := fun k n => (congrFun (iblk17_eq m c t) _).trans ((congrFun (V_main_v111 m c) _).trans (HostF.T111_f17_4_1 _ k n))
  f17_5_0 := fun k n => (congrFun (iblk17_eq m c t) _).trans ((congrFun (V_main_v111 m c) _).trans (HostF.T111_f17_5_0 _ k n))
  f17_5_1 := fun k n => (congrFun (iblk17_eq m c t) _).trans ((congrFun (V_main_v111 m c) _).trans (HostF.T111_f17_5_1 _ k n))
  b18_0 := fun n => (congrFun (iblk18_eq m c t) _).trans ((congrFun (V_main_v116 m c) _).trans (HostF.T116_b18_0 _ n))
  b18_1 := fun n => (congrFun (iblk18_eq m c t) _).trans ((congrFun (V_main_v116 m c) _).trans (HostF.T116_b18_1 _ n))
  f19_0_0 := fun k n => (congrFun (iblk19_eq m c t) _).trans ((congrFun (V_main_v140 m c) _).trans (HostB.T140_f19_0_0 _ k n))
  f19_0_1 := fun k n => (congrFun (iblk19_eq m c t) _).trans ((congrFun (V_main_v140 m c) _).trans (HostB.T140_f19_0_1 _ k n))
  f19_1_0 := fun k n => (congrFun (iblk19_eq m c t) _).trans ((congrFun (V_main_v140 m c) _).trans (HostB.T140_f19_1_0 _ k n))
  f19_1_1 := fun k n => (congrFun (iblk19_eq m c t) _).trans ((congrFun (V_main_v140 m c) _).trans (HostB.T140_f19_1_1 _ k n))
  f19_2_0 := fun k n => (congrFun (iblk19_eq m c t) _).trans ((congrFun (V_main_v140 m c) _).trans (HostB.T140_f19_2_0 _ k n))
  f19_2_1 := fun k n => (congrFun (iblk19_eq m c t) _).trans ((congrFun (V_main_v140 m c) _).trans (HostB.T140_f19_2_1 _ k n))
  f19_3_0 := fun k n => (congrFun (iblk19_eq m c t) _).trans ((congrFun (V_main_v140 m c) _).trans (HostB.T140_f19_3_0 _ k n))
  f19_3_1 := fun k n => (congrFun (iblk19_eq m c t) _).trans ((congrFun (V_main_v140 m c) _).trans (HostB.T140_f19_3_1 _ k n))
  b20_0 := fun n => (congrFun (iblk20_eq m c t) _).trans ((congrFun (V_main_v145 m c) _).trans (HostB.T145_b20_0 _ n))
  b20_1 := fun n => (congrFun (iblk20_eq m c t) _).trans ((congrFun (V_main_v145 m c) _).trans (HostB.T145_b20_1 _ n))
  f21_0_0 := fun k n => (congrFun (iblk21_eq m c t) _).trans ((congrFun (V_main_v159 m c) _).trans (HostB.T159_f21_0_0 _ k n))
  f21_1_0 := fun k n => (congrFun (iblk21_eq m c t) _).trans ((congrFun (V_main_v159 m c) _).trans (HostB.T159_f21_1_0 _ k n))
  f21_2_0 := fun k n => (congrFun (iblk21_eq m c t) _).trans ((congrFun (V_main_v159 m c) _).trans (HostB.T159_f21_2_0 _ k n))
  f21_3_0 := fun k n => (congrFun (iblk21_eq m c t) _).trans ((congrFun (V_main_v159 m c) _).trans (HostB.T159_f21_3_0 _ k n))
  b22_0 := fun n => (congrFun (iblk22_eq m c t) _).trans ((congrFun (V_main_v161 m c) _).trans (HostB.T161_b22_0 _ n))
  f23_0_0 := fun k n => (congrFun (iblk23_eq m c t) _).trans ((congrFun (V_main_v172 m c) _).trans (HostB.T172_f23_0_0 _ k n))
  f23_1_0 := fun k n => (congrFun (iblk23_eq m c t) _).trans ((congrFun (V_main_v172 m c) _).trans (HostB.T172_f23_1_0 _ k n))
  f23_2_0 := fun k n => (congrFun (iblk23_eq m c t) _).trans ((congrFun (V_main_v172 m c) _).trans (HostB.T172_f23_2_0 _ k n))
  b24_0 := fun n => (congrFun (iblk24_eq m c t) _).trans ((congrFun (V_main_v174 m c) _).trans (HostB.T174_b24_0 _ n))
  f25_0_0 := fun k n => (congrFun (iblk25_eq m c t) _).trans ((congrFun (V_main_v182 m c) _).trans (HostB.T182_f25_0_0 _ k n))
  f25_1_0 := fun k n => (congrFun (iblk25_eq m c t) _).trans ((congrFun (V_main_v182 m c) _).trans (HostB.T182_f25_1_0 _ k n))
  b26_0 := fun n => (congrFun (iblk26_eq m c t) _).trans ((congrFun (V_main_v184 m c) _).trans (HostB.T184_b26_0 _ n))

end Cert.KernelIdeal.Hand

end
-- ==== Proof.KVal1.lean ====
/-
  The kernel body's first values on one batch row: the four features, the shared feature `f`, and nodes 0 and 1.
-/
import proofs.«166257_j42623255446007_2_alg».proof.Proof.KWeights

set_option maxRecDepth 16384
noncomputable section
namespace Cert.KernelIdeal.Hand.Val
open scoped BigOperators
open Idealize.ShloMosaic Idealize.ShloMosaic.TcCoe Idealize.ShloMosaic.ValueIdx Cert.KernelIdeal Cert.KernelIdeal.Gen Cert.RowOps Cert.Net Cert.KernelIdeal.Hand

theorem pd_8 : PlainDot dot_S2048x8_S8x64_S2048x64_1_0_0_1_n_n := ⟨rfl, rfl, fun _ _ => rfl, fun _ _ => rfl, fun _ _ => rfl, fun _ _ => rfl⟩
theorem pd_64 : PlainDot dot_S2048x64_S64x64_S2048x64_1_0_0_1_n_n := ⟨rfl, rfl, fun _ _ => rfl, fun _ _ => rfl, fun _ _ => rfl, fun _ _ => rfl⟩

/-- Row `p` of the block of merged inputs: the coordinates `x, y, r` and the eight latents. -/
abbrev xK (l0 : Vec Ideal S2048x11 .f32) (p : Fin 2048) : EReal := l0 (ix2 p (⟨0, by decide⟩ : Fin 11))
abbrev yK (l0 : Vec Ideal S2048x11 .f32) (p : Fin 2048) : EReal := l0 (ix2 p (⟨1, by decide⟩ : Fin 11))
abbrev rK (l0 : Vec Ideal S2048x11 .f32) (p : Fin 2048) : EReal := l0 (ix2 p (⟨2, by decide⟩ : Fin 11))
abbrev latK (l0 : Vec Ideal S2048x11 .f32) (p : Fin 2048) (k : Fin 8) : EReal := l0 (ix2 p (⟨3 + k.val, by omega⟩ : Fin 11))
/-- The shared feature of row `p`. -/
abbrev fK (P : Params) (l0 : Vec Ideal S2048x11 .f32) (p : Fin 2048) : Fin 64 → EReal := feat P (xK l0 p) (yK l0 p) (rK l0 p) (latK l0 p)

variable (P : Params) (l0 : Vec Ideal S2048x11 .f32) (l1 : Vec Ideal S64x8 .bf16) (l2 : Vec Ideal S64 .f32) (l3 : Vec Ideal S3x64 .f32) (l4 : Vec Ideal S64x64 .bf16) (l5 : Vec Ideal S64 .f32) (l6 : Vec Ideal S3x64 .bf16) (l7 : Vec Ideal S3 .f32) (l8 : Vec Ideal S1 .f32) (l9 : Vec Ideal S64x64 .bf16) (l10 : Vec Ideal S64 .f32) (l11 : Vec Ideal S64x64 .bf16) (l12 : Vec Ideal S64 .f32) (l13 : Vec Ideal S128x256 .bf16) (l14 : Vec Ideal S256 .f32) (l15 : Vec Ideal S256x192 .bf16) (l16 : Vec Ideal S192 .f32) (l17 : Vec Ideal S384x128 .bf16) (l18 : Vec Ideal S128 .f32) (l19 : Vec Ideal S256x128 .bf16) (l20 : Vec Ideal S128 .f32) (l21 : Vec Ideal S256x64 .bf16) (l22 : Vec Ideal S64 .f32) (l23 : Vec Ideal S192x64 .bf16) (l24 : Vec Ideal S64 .f32) (l25 : Vec Ideal S128x64 .bf16) (l26 : Vec Ideal S64 .f32)
variable (hW : KW P l1 l2 l3 l4 l5 l6 l7 l8 l9 l10 l11 l12 l13 l14 l15 l16 l17 l18 l19 l20 l21 l22 l23 l24 l25 l26) (p : Fin 2048)
include hW

/-- Node 0 (tanh) on the shared feature: the first part of the body, end to end. -/
theorem v79_apply (n : Fin 64) : Body.v79 l0 l1 l2 l3 l4 l5 l9 l10 (ix2 p n) = h0 P (fK P l0 p) n := by
  unfold Body.v79 k0_pay13 Body.v2 Body.v9 Body.v23 Body.v32 Body.v37 Body.v40 Body.v42 Body.v43 Body.c12 k0_pay2 k0_pay4 k0_pay5 k0_pay6 k0_pay8 k0_pay10
    k0_pay11 k0_pay12 k0_pay9 k0_pay7 k0_pay1 k0_pay3
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, matmul_ix2 pd_8, matmul_ix2 pd_64, elu_scalar, softplus_scalar, gauss_scalar]
  simp only [hW.wl, hW.bl, hW.wx, hW.wy, hW.wr, hW.w1, hW.b1, hW.g0, hW.gb0]
  rfl

/-- The same value as the later payloads of its part spell it. -/
theorem v79_apply' (n : Fin 64) : k0_pay13 (Body.v2 l0) (Body.v9 l3) l5 (Body.v23 l0 l1 l2) (Body.v32 l0 l3) (Body.v37 l0 l3) (Body.v40 l0 l3) (Body.v42 l0 l3) (Body.v43 l0 l3) Body.c12 l4 l9 l10 (ix2 p n) = h0 P (fK P l0 p) n :=
  v79_apply P l0 l1 l2 l3 l4 l5 l6 l7 l8 l9 l10 l11 l12 l13 l14 l15 l16 l17 l18 l19 l20 l21 l22 l23 l24 l25 l26 hW p n

/-- Node 1's pre-activation: node 0's output through node 1's affine map. -/
theorem v88_apply (n : Fin 64) : Body.v88 l0 l1 l2 l3 l4 l5 l9 l10 l11 l12 (ix2 p n) = lin (P.gW 1 n) (P.gB 1 n) (h0 P (fK P l0 p)) := by
  unfold Body.v88 k0_pay14
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, matmul_ix2 pd_64, v79_apply' P l0 l1 l2 l3 l4 l5 l6 l7 l8 l9 l10 l11 l12 l13 l14 l15 l16 l17 l18 l19 l20 l21 l22 l23 l24 l25 l26 hW p,
    hW.g1, hW.gb1]
  rfl

theorem v88_apply' (n : Fin 64) : k0_pay14 (Body.v2 l0) (Body.v9 l3) l5 (Body.v23 l0 l1 l2) (Body.v32 l0 l3) (Body.v37 l0 l3) (Body.v40 l0 l3) (Body.v42 l0 l3) (Body.v43 l0 l3) Body.c12 l4 l9 l10 l11 l12 (ix2 p n) = lin (P.gW 1 n) (P.gB 1 n) (h0 P (fK P l0 p)) :=
  v88_apply P l0 l1 l2 l3 l4 l5 l6 l7 l8 l9 l10 l11 l12 l13 l14 l15 l16 l17 l18 l19 l20 l21 l22 l23 l24 l25 l26 hW p n

/-- Node 1 (elu). -/
theorem v94_apply (n : Fin 64) : Body.v94 l0 l1 l2 l3 l4 l5 l9 l10 l11 l12 (ix2 p n) = h1 P (fK P l0 p) n := by
  unfold Body.v94 k0_pay16 Body.v90 k0_pay15
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, v88_apply P l0 l1 l2 l3 l4 l5 l6 l7 l8 l9 l10 l11 l12 l13 l14 l15 l16 l17 l18 l19 l20 l21 l22 l23 l24 l25 l26 hW p,
    v88_apply' P l0 l1 l2 l3 l4 l5 l6 l7 l8 l9 l10 l11 l12 l13 l14 l15 l16 l17 l18 l19 l20 l21 l22 l23 l24 l25 l26 hW p, elu_scalar]
  rfl

end Cert.KernelIdeal.Hand.Val
end
-- ==== Proof.Spec2.lean ====
/-
  Every value of the network on a batch row of real inputs is a real number.
-/
import proofs.«166257_j42623255446007_2_alg».proof.Proof.Spec

noncomputable section
namespace Cert.Net
open scoped BigOperators
open Idealize.ShloMosaic

variable (P : Params) (hP : P.Real)
include hP

theorem node_real (j : Fin 16) (inp : Fin 64 → EReal) (hi : ∀ k, IsReal (inp k)) (n : Fin 64) : IsReal (node P j inp n) :=
  IsReal.act _ (IsReal.lin (hP.gW j n) (hP.gB j n) hi)

theorem feat0_real {x y r : EReal} {lat : Fin 8 → EReal} (hx : IsReal x) (hy : IsReal y) (hr : IsReal r) (hl : ∀ k, IsReal (lat k)) (n : Fin 64) :
    IsReal (feat0 P x y r lat n) :=
  IsReal.gauss ((((hx.mul (hP.Wx n)).tanh.add (hy.mul (hP.Wy n)).softplus).add (hr.mul (hP.Wr n)).elu).add
    (IsReal.lin (hP.Wl n) (hP.bl n) hl).tanh)

theorem feat_real {x y r : EReal} {lat : Fin 8 → EReal} (hx : IsReal x) (hy : IsReal y) (hr : IsReal r) (hl : ∀ k, IsReal (lat k)) (n : Fin 64) :
    IsReal (feat P x y r lat n) :=
  (IsReal.lin (hP.W1 n) (hP.b1 n) (feat0_real P hP hx hy hr hl)).sin

variable (f : Fin 64 → EReal) (hf : ∀ k, IsReal (f k))
include hf

theorem h0_real : ∀ n, IsReal (h0 P f n) := fun n => node_real P hP 0 _ (hf) n
theorem h1_real : ∀ n, IsReal (h1 P f n) := fun n => node_real P hP 1 _ (h0_real P hP f hf) n
theorem h2_real : ∀ n, IsReal (h2 P f n) := fun n => node_real P hP 2 _ (fun k => ((h0_real P hP f hf k).add (h1_real P hP f hf k))) n
theorem h3_real : ∀ n, IsReal (h3 P f n) := fun n => node_real P hP 3 _ (h1_real P hP f hf) n
theorem h4_real : ∀ n, IsReal (h4 P f n) := fun n => node_real P hP 4 _ (h1_real P hP f hf) n
theorem h5_real : ∀ n, IsReal (h5 P f n) := fun n => node_real P hP 5 _ (fun k => ((h0_real P hP f hf k).add (h4_real P hP f hf k))) n
theorem h6_real : ∀ n, IsReal (h6 P f n) := fun n => node_real P hP 6 _ (fun k => ((((h0_real P hP f hf k).add (h2_real P hP f hf k)).add (h3_real P hP f hf k)).add (h5_real P hP f hf k))) n
theorem h7_real : ∀ n, IsReal (h7 P f n) := fun n => node_real P hP 7 _ (h1_real P hP f hf) n
theorem h8_real : ∀ n, IsReal (h8 P f n) := fun n => node_real P hP 8 _ (fun k => ((h6_real P hP f hf k).add (h7_real P hP f hf k))) n
theorem h9_real : ∀ n, IsReal (h9 P f n) := fun n => node_real P hP 9 _ (fun k => ((((h3_real P hP f hf k).add (h5_real P hP f hf k)).add (h7_real P hP f hf k)).add (h8_real P hP f hf k))) n
theorem h10_real : ∀ n, IsReal (h10 P f n) := fun n => node_real P hP 10 _ (fun k => (((h0_real P hP f hf k).add (h8_real P hP f hf k)).add (h9_real P hP f hf k))) n
theorem h11_real : ∀ n, IsReal (h11 P f n) := fun n => node_real P hP 11 _ (h4_real P hP f hf) n
theorem h12_real : ∀ n, IsReal (h12 P f n) := fun n => node_real P hP 12 _ (fun k => ((h2_real P hP f hf k).add (h3_real P hP f hf k))) n
theorem h13_real : ∀ n, IsReal (h13 P f n) := fun n => node_real P hP 13 _ (fun k => (((h4_real P hP f hf k).add (h6_real P hP f hf k)).add (h12_real P hP f hf k))) n
theorem h14_real : ∀ n, IsReal (h14 P f n) := fun n => node_real P hP 14 _ (fun k => (((h0_real P hP f hf k).add (h1_real P hP f hf k)).add (h11_real P hP f hf k))) n
theorem h15_real : ∀ n, IsReal (h15 P f n) := fun n => node_real P hP 15 _ (fun k => ((h1_real P hP f hf k).add (h10_real P hP f hf k))) n

end Cert.Net
end
-- ==== Proof.KVal2.lean ====
/-
  The kernel body on one batch row, level 2 of the graph: nodes 2, 3, 4 and 7 from ONE product of the concatenated
  outputs of nodes 0 and 1 with the level's fused weights.  Node 2 has both as predecessors — the two blocks'
  products are added, which is the product of the sum (`lin_add₂`) —; the other three read node 1 alone, node 0's
  block of their columns being zero.
-/
import proofs.«166257_j42623255446007_2_alg».proof.Proof.KVal1
import proofs.«166257_j42623255446007_2_alg».proof.Proof.RowOps3
import proofs.«166257_j42623255446007_2_alg».proof.Proof.Spec2

set_option maxRecDepth 16384
noncomputable section
namespace Cert.KernelIdeal.Hand.Val
open scoped BigOperators
open Idealize.ShloMosaic Idealize.ShloMosaic.TcCoe Idealize.ShloMosaic.ValueIdx Cert.KernelIdeal Cert.KernelIdeal.Gen Cert.RowOps Cert.Net Cert.KernelIdeal.Hand

theorem pd_128_256 : PlainDot dot_S2048x128_S128x256_S2048x256_1_0_0_1_n_n := ⟨rfl, rfl, fun _ _ => rfl, fun _ _ => rfl, fun _ _ => rfl, fun _ _ => rfl⟩

variable (P : Params) (hP : P.Real) (l0 : Vec Ideal S2048x11 .f32) (hl0 : ∀ i, IsReal (l0 i)) (l1 : Vec Ideal S64x8 .bf16) (l2 : Vec Ideal S64 .f32) (l3 : Vec Ideal S3x64 .f32) (l4 : Vec Ideal S64x64 .bf16) (l5 : Vec Ideal S64 .f32) (l6 : Vec Ideal S3x64 .bf16) (l7 : Vec Ideal S3 .f32) (l8 : Vec Ideal S1 .f32) (l9 : Vec Ideal S64x64 .bf16) (l10 : Vec Ideal S64 .f32) (l11 : Vec Ideal S64x64 .bf16) (l12 : Vec Ideal S64 .f32) (l13 : Vec Ideal S128x256 .bf16) (l14 : Vec Ideal S256 .f32) (l15 : Vec Ideal S256x192 .bf16) (l16 : Vec Ideal S192 .f32) (l17 : Vec Ideal S384x128 .bf16) (l18 : Vec Ideal S128 .f32) (l19 : Vec Ideal S256x128 .bf16) (l20 : Vec Ideal S128 .f32) (l21 : Vec Ideal S256x64 .bf16) (l22 : Vec Ideal S64 .f32) (l23 : Vec Ideal S192x64 .bf16) (l24 : Vec Ideal S64 .f32) (l25 : Vec Ideal S128x64 .bf16) (l26 : Vec Ideal S64 .f32)
variable (hW : KW P l1 l2 l3 l4 l5 l6 l7 l8 l9 l10 l11 l12 l13 l14 l15 l16 l17 l18 l19 l20 l21 l22 l23 l24 l25 l26) (p : Fin 2048)

include hP hl0 in
/-- The shared feature of a row of real inputs is real. -/
theorem fK_real : ∀ k, IsReal (fK P l0 p k) := feat_real P hP (hl0 _) (hl0 _) (hl0 _) (fun _ => hl0 _)

include hW

theorem v94_apply' (n : Fin 64) : k0_pay16 (Body.v88 l0 l1 l2 l3 l4 l5 l9 l10 l11 l12) (Body.v90 l0 l1 l2 l3 l4 l5 l9 l10 l11 l12) (ix2 p n) = h1 P (fK P l0 p) n :=
  v94_apply P l0 l1 l2 l3 l4 l5 l6 l7 l8 l9 l10 l11 l12 l13 l14 l15 l16 l17 l18 l19 l20 l21 l22 l23 l24 l25 l26 hW p n

/-- The level's pre-activation at column `c`: the two blocks' products and the bias. -/
theorem pre2_apply (c : Fin 256) :
    k0_pay17 (Body.v79 l0 l1 l2 l3 l4 l5 l9 l10) (Body.v88 l0 l1 l2 l3 l4 l5 l9 l10 l11 l12) (Body.v90 l0 l1 l2 l3 l4 l5 l9 l10 l11 l12) l13 l14 (ix2 p c)
      = ((∑ k : Fin 64, h0 P (fK P l0 p) k * l13 (ix2 (gix 2 rfl (0 : Fin 2) k) c))
          + ∑ k : Fin 64, h1 P (fK P l0 p) k * l13 (ix2 (gix 2 rfl (1 : Fin 2) k) c)) + l14 (ix1 c) := by
  unfold k0_pay17
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, matmul_blocks pd_128_256 2 rfl, Fin.sum_univ_two, concat2_cols_0, concat2_cols_1,
    v79_apply P l0 l1 l2 l3 l4 l5 l6 l7 l8 l9 l10 l11 l12 l13 l14 l15 l16 l17 l18 l19 l20 l21 l22 l23 l24 l25 l26 hW p, v94_apply' P l0 l1 l2 l3 l4 l5 l6 l7 l8 l9 l10 l11 l12 l13 l14 l15 l16 l17 l18 l19 l20 l21 l22 l23 l24 l25 l26 hW p]

include hP hl0

/-- Node 2 (softplus) on the sum of nodes 0 and 1. -/
theorem v120_apply (n : Fin 64) : Body.v120 l0 l1 l2 l3 l4 l5 l9 l10 l11 l12 l13 l14 (ix2 p n) = h2 P (fK P l0 p) n := by
  unfold Body.v120 k0_pay18
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, slice_gix 4 rfl (0 : Fin 4) 0 rfl, pre2_apply P l0 l1 l2 l3 l4 l5 l6 l7 l8 l9 l10 l11 l12 l13 l14 l15 l16 l17 l18 l19 l20 l21 l22 l23 l24 l25 l26 hW p, hW.f13_0_0, hW.f13_1_0, hW.b14_0, softplus_scalar]
  rw [lin_add₂ (P.gW 2 n) (hP.gW 2 n) _ _ (h0_real P hP _ (fK_real P hP l0 hl0 p)) (h1_real P hP _ (fK_real P hP l0 hl0 p))]
  rfl

/-- Node 3 (sine) on node 1. -/
theorem v122_apply (n : Fin 64) : Body.v122 l0 l1 l2 l3 l4 l5 l9 l10 l11 l12 l13 l14 (ix2 p n) = h3 P (fK P l0 p) n := by
  unfold Body.v122 k0_pay19
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, slice_gix 4 rfl (1 : Fin 4) 64 rfl, pre2_apply P l0 l1 l2 l3 l4 l5 l6 l7 l8 l9 l10 l11 l12 l13 l14 l15 l16 l17 l18 l19 l20 l21 l22 l23 l24 l25 l26 hW p, hW.f13_0_1, hW.f13_1_1, hW.b14_1, mul_zero, Finset.sum_const_zero,
    zero_add]
  rfl

/-- Node 4 (Gaussian) on node 1. -/
theorem v127_apply (n : Fin 64) : Body.v127 l0 l1 l2 l3 l4 l5 l9 l10 l11 l12 l13 l14 (ix2 p n) = h4 P (fK P l0 p) n := by
  unfold Body.v127 k0_pay20
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, slice_gix 4 rfl (2 : Fin 4) 128 rfl, pre2_apply P l0 l1 l2 l3 l4 l5 l6 l7 l8 l9 l10 l11 l12 l13 l14 l15 l16 l17 l18 l19 l20 l21 l22 l23 l24 l25 l26 hW p, hW.f13_0_2, hW.f13_1_2, hW.b14_2, mul_zero, Finset.sum_const_zero,
    zero_add, gauss_scalar]
  rfl

/-- Node 7 (softplus) on node 1. -/
theorem v142_apply (n : Fin 64) : Body.v142 l0 l1 l2 l3 l4 l5 l9 l10 l11 l12 l13 l14 (ix2 p n) = h7 P (fK P l0 p) n := by
  unfold Body.v142 k0_pay27 Body.v130 Body.v133 Body.v135 Body.v140 k0_pay22 k0_pay24 k0_pay25 k0_pay26 k0_pay23 k0_pay21
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, slice_gix 4 rfl (3 : Fin 4) 192 rfl, pre2_apply P l0 l1 l2 l3 l4 l5 l6 l7 l8 l9 l10 l11 l12 l13 l14 l15 l16 l17 l18 l19 l20 l21 l22 l23 l24 l25 l26 hW p, hW.f13_0_3, hW.f13_1_3, hW.b14_3, mul_zero, Finset.sum_const_zero,
    zero_add, softplus_scalar]
  rfl

end Cert.KernelIdeal.Hand.Val
end
-- ==== Proof.KVal3.lean ====
/-
  The kernel body on one batch row, level 3 of the graph: nodes 5, 11 and 12 from one product of the concatenated
  outputs of nodes 0, 2, 3, 4 with the level's fused weights.
-/
import proofs.«166257_j42623255446007_2_alg».proof.Proof.KVal2

set_option maxRecDepth 16384
noncomputable section
namespace Cert.KernelIdeal.Hand.Val
open scoped BigOperators
open Idealize.ShloMosaic Idealize.ShloMosaic.TcCoe Idealize.ShloMosaic.ValueIdx Cert.KernelIdeal Cert.KernelIdeal.Gen Cert.RowOps Cert.Net Cert.KernelIdeal.Hand

theorem pd_256_192 : PlainDot dot_S2048x256_S256x192_S2048x192_1_0_0_1_n_n := ⟨rfl, rfl, fun _ _ => rfl, fun _ _ => rfl, fun _ _ => rfl, fun _ _ => rfl⟩

variable (P : Params) (hP : P.Real) (l0 : Vec Ideal S2048x11 .f32) (hl0 : ∀ i, IsReal (l0 i)) (l1 : Vec Ideal S64x8 .bf16) (l2 : Vec Ideal S64 .f32) (l3 : Vec Ideal S3x64 .f32) (l4 : Vec Ideal S64x64 .bf16) (l5 : Vec Ideal S64 .f32) (l6 : Vec Ideal S3x64 .bf16) (l7 : Vec Ideal S3 .f32) (l8 : Vec Ideal S1 .f32) (l9 : Vec Ideal S64x64 .bf16) (l10 : Vec Ideal S64 .f32) (l11 : Vec Ideal S64x64 .bf16) (l12 : Vec Ideal S64 .f32) (l13 : Vec Ideal S128x256 .bf16) (l14 : Vec Ideal S256 .f32) (l15 : Vec Ideal S256x192 .bf16) (l16 : Vec Ideal S192 .f32) (l17 : Vec Ideal S384x128 .bf16) (l18 : Vec Ideal S128 .f32) (l19 : Vec Ideal S256x128 .bf16) (l20 : Vec Ideal S128 .f32) (l21 : Vec Ideal S256x64 .bf16) (l22 : Vec Ideal S64 .f32) (l23 : Vec Ideal S192x64 .bf16) (l24 : Vec Ideal S64 .f32) (l25 : Vec Ideal S128x64 .bf16) (l26 : Vec Ideal S64 .f32)
variable (hW : KW P l1 l2 l3 l4 l5 l6 l7 l8 l9 l10 l11 l12 l13 l14 l15 l16 l17 l18 l19 l20 l21 l22 l23 l24 l25 l26) (p : Fin 2048)
include hW hP hl0

/-- The level's pre-activation at column `c`: the four blocks' products and the bias. -/
theorem pre3_apply (c : Fin 192) :
    k0_pay28 (Body.v79 l0 l1 l2 l3 l4 l5 l9 l10) (Body.v120 l0 l1 l2 l3 l4 l5 l9 l10 l11 l12 l13 l14) (Body.v122 l0 l1 l2 l3 l4 l5 l9 l10 l11 l12 l13 l14) (Body.v127 l0 l1 l2 l3 l4 l5 l9 l10 l11 l12 l13 l14) l15 l16 (ix2 p c)
      = ((((∑ k : Fin 64, h0 P (fK P l0 p) k * l15 (ix2 (gix 4 rfl (0 : Fin 4) k) c))
          + ∑ k : Fin 64, h2 P (fK P l0 p) k * l15 (ix2 (gix 4 rfl (1 : Fin 4) k) c))
          + ∑ k : Fin 64, h3 P (fK P l0 p) k * l15 (ix2 (gix 4 rfl (2 : Fin 4) k) c))
          + ∑ k : Fin 64, h4 P (fK P l0 p) k * l15 (ix2 (gix 4 rfl (3 : Fin 4) k) c)) + l16 (ix1 c) := by
  unfold k0_pay28
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, matmul_blocks pd_256_192 4 rfl, Fin.sum_univ_four, concat4_cols_0, concat4_cols_1, concat4_cols_2, concat4_cols_3,
    v79_apply P l0 l1 l2 l3 l4 l5 l6 l7 l8 l9 l10 l11 l12 l13 l14 l15 l16 l17 l18 l19 l20 l21 l22 l23 l24 l25 l26 hW p, v120_apply P hP l0 hl0 l1 l2 l3 l4 l5 l6 l7 l8 l9 l10 l11 l12 l13 l14 l15 l16 l17 l18 l19 l20 l21 l22 l23 l24 l25 l26 hW p, v122_apply P hP l0 hl0 l1 l2 l3 l4 l5 l6 l7 l8 l9 l10 l11 l12 l13 l14 l15 l16 l17 l18 l19 l20 l21 l22 l23 l24 l25 l26 hW p, v127_apply P hP l0 hl0 l1 l2 l3 l4 l5 l6 l7 l8 l9 l10 l11 l12 l13 l14 l15 l16 l17 l18 l19 l20 l21 l22 l23 l24 l25 l26 hW p]

/-- Node 5 (tanh) on the sum of nodes 0 and 4. -/
theorem v157_apply (n : Fin 64) : Body.v157 l0 l1 l2 l3 l4 l5 l9 l10 l11 l12 l13 l14 l15 l16 (ix2 p n) = h5 P (fK P l0 p) n := by
  unfold Body.v157 k0_pay29
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, slice_gix 3 rfl (0 : Fin 3) 0 rfl, pre3_apply P hP l0 hl0 l1 l2 l3 l4 l5 l6 l7 l8 l9 l10 l11 l12 l13 l14 l15 l16 l17 l18 l19 l20 l21 l22 l23 l24 l25 l26 hW p, hW.f15_0_0, hW.f15_1_0, hW.f15_2_0, hW.f15_3_0, hW.b16_0,
    mul_zero, Finset.sum_const_zero, zero_add, add_zero]
  rw [lin_add₂ (P.gW 5 n) (hP.gW 5 n) _ _ (h0_real P hP _ (fK_real P hP l0 hl0 p)) (h4_real P hP _ (fK_real P hP l0 hl0 p))]
  rfl

theorem v157_apply' (n : Fin 64) : k0_pay29 (Body.v79 l0 l1 l2 l3 l4 l5 l9 l10) (Body.v120 l0 l1 l2 l3 l4 l5 l9 l10 l11 l12 l13 l14) (Body.v122 l0 l1 l2 l3 l4 l5 l9 l10 l11 l12 l13 l14) (Body.v127 l0 l1 l2 l3 l4 l5 l9 l10 l11 l12 l13 l14) l15 l16 (ix2 p n) = h5 P (fK P l0 p) n :=
  v157_apply P hP l0 hl0 l1 l2 l3 l4 l5 l6 l7 l8 l9 l10 l11 l12 l13 l14 l15 l16 l17 l18 l19 l20 l21 l22 l23 l24 l25 l26 hW p n

/-- Node 12 (softplus) on the sum of nodes 2 and 3. -/
theorem v179_apply (n : Fin 64) : Body.v179 l0 l1 l2 l3 l4 l5 l9 l10 l11 l12 l13 l14 l15 l16 (ix2 p n) = h12 P (fK P l0 p) n := by
  unfold Body.v179 k0_pay30
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, slice_gix 3 rfl (2 : Fin 3) 128 rfl, pre3_apply P hP l0 hl0 l1 l2 l3 l4 l5 l6 l7 l8 l9 l10 l11 l12 l13 l14 l15 l16 l17 l18 l19 l20 l21 l22 l23 l24 l25 l26 hW p, hW.f15_0_2, hW.f15_1_2, hW.f15_2_2, hW.f15_3_2, hW.b16_2,
    mul_zero, Finset.sum_const_zero, zero_add, add_zero]
  rw [lin_add₂ (P.gW 12 n) (hP.gW 12 n) _ _ (h2_real P hP _ (fK_real P hP l0 hl0 p)) (h3_real P hP _ (fK_real P hP l0 hl0 p))]
  simp only [softplus_scalar]
  rfl

/-- The six pieces of level 4's input, read at row `p`: the outputs of nodes 0, 1, 2, 3, 5 and 11 (node 11, elu on
    node 4, is computed on the way). -/
theorem v186_apply (k : Fin 64) :
    Body.v186 l0 l1 l2 l3 l4 l5 l9 l10 l11 l12 l13 l14 l15 l16 (ix2 p (gix 6 rfl (0 : Fin 6) k)) = h0 P (fK P l0 p) k
    ∧ Body.v186 l0 l1 l2 l3 l4 l5 l9 l10 l11 l12 l13 l14 l15 l16 (ix2 p (gix 6 rfl (1 : Fin 6) k)) = h1 P (fK P l0 p) k
    ∧ Body.v186 l0 l1 l2 l3 l4 l5 l9 l10 l11 l12 l13 l14 l15 l16 (ix2 p (gix 6 rfl (2 : Fin 6) k)) = h2 P (fK P l0 p) k
    ∧ Body.v186 l0 l1 l2 l3 l4 l5 l9 l10 l11 l12 l13 l14 l15 l16 (ix2 p (gix 6 rfl (3 : Fin 6) k)) = h3 P (fK P l0 p) k
    ∧ Body.v186 l0 l1 l2 l3 l4 l5 l9 l10 l11 l12 l13 l14 l15 l16 (ix2 p (gix 6 rfl (4 : Fin 6) k)) = h5 P (fK P l0 p) k
    ∧ Body.v186 l0 l1 l2 l3 l4 l5 l9 l10 l11 l12 l13 l14 l15 l16 (ix2 p (gix 6 rfl (5 : Fin 6) k)) = h11 P (fK P l0 p) k := by
  unfold Body.v186 k0_pay31
  refine ⟨?_, ?_, ?_, ?_, ?_, ?_⟩
  · simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, concat6_cols_0, v79_apply P l0 l1 l2 l3 l4 l5 l6 l7 l8 l9 l10 l11 l12 l13 l14 l15 l16 l17 l18 l19 l20 l21 l22 l23 l24 l25 l26 hW p]
  · simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, concat6_cols_1, v94_apply P l0 l1 l2 l3 l4 l5 l6 l7 l8 l9 l10 l11 l12 l13 l14 l15 l16 l17 l18 l19 l20 l21 l22 l23 l24 l25 l26 hW p]
  · simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, concat6_cols_2, v120_apply P hP l0 hl0 l1 l2 l3 l4 l5 l6 l7 l8 l9 l10 l11 l12 l13 l14 l15 l16 l17 l18 l19 l20 l21 l22 l23 l24 l25 l26 hW p]
  · simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, concat6_cols_3, v122_apply P hP l0 hl0 l1 l2 l3 l4 l5 l6 l7 l8 l9 l10 l11 l12 l13 l14 l15 l16 l17 l18 l19 l20 l21 l22 l23 l24 l25 l26 hW p]
  · simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, concat6_cols_4, v157_apply' P hP l0 hl0 l1 l2 l3 l4 l5 l6 l7 l8 l9 l10 l11 l12 l13 l14 l15 l16 l17 l18 l19 l20 l21 l22 l23 l24 l25 l26 hW p]
  · simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, concat6_cols_5, slice_gix 3 rfl (1 : Fin 3) 64 rfl, pre3_apply P hP l0 hl0 l1 l2 l3 l4 l5 l6 l7 l8 l9 l10 l11 l12 l13 l14 l15 l16 l17 l18 l19 l20 l21 l22 l23 l24 l25 l26 hW p, hW.f15_0_1, hW.f15_1_1, hW.f15_2_1, hW.f15_3_1,
      hW.b16_1, mul_zero, Finset.sum_const_zero, zero_add, add_zero, elu_scalar]
    rfl

end Cert.KernelIdeal.Hand.Val
end
-- ==== Proof.KVal4.lean ====
/-
  The kernel body on one batch row, level 4 of the graph: nodes 6 and 14 from one product of the concatenated outputs
  of nodes 0, 1, 2, 3, 5, 11 with the level's fused weights.  Node 14 (Gaussian) is finished here; of node 6 (elu) the
  pre-activation, which the next payload turns into the node's output.
-/
import proofs.«166257_j42623255446007_2_alg».proof.Proof.KVal3

set_option maxRecDepth 16384
noncomputable section
namespace Cert.KernelIdeal.Hand.Val
open scoped BigOperators
open Idealize.ShloMosaic Idealize.ShloMosaic.TcCoe Idealize.ShloMosaic.ValueIdx Cert.KernelIdeal Cert.KernelIdeal.Gen Cert.RowOps Cert.Net Cert.KernelIdeal.Hand

theorem pd_384_128 : PlainDot dot_S2048x384_S384x128_S2048x128_1_0_0_1_n_n := ⟨rfl, rfl, fun _ _ => rfl, fun _ _ => rfl, fun _ _ => rfl, fun _ _ => rfl⟩

variable (P : Params) (hP : P.Real) (l0 : Vec Ideal S2048x11 .f32) (hl0 : ∀ i, IsReal (l0 i)) (l1 : Vec Ideal S64x8 .bf16) (l2 : Vec Ideal S64 .f32) (l3 : Vec Ideal S3x64 .f32) (l4 : Vec Ideal S64x64 .bf16) (l5 : Vec Ideal S64 .f32) (l6 : Vec Ideal S3x64 .bf16) (l7 : Vec Ideal S3 .f32) (l8 : Vec Ideal S1 .f32) (l9 : Vec Ideal S64x64 .bf16) (l10 : Vec Ideal S64 .f32) (l11 : Vec Ideal S64x64 .bf16) (l12 : Vec Ideal S64 .f32) (l13 : Vec Ideal S128x256 .bf16) (l14 : Vec Ideal S256 .f32) (l15 : Vec Ideal S256x192 .bf16) (l16 : Vec Ideal S192 .f32) (l17 : Vec Ideal S384x128 .bf16) (l18 : Vec Ideal S128 .f32) (l19 : Vec Ideal S256x128 .bf16) (l20 : Vec Ideal S128 .f32) (l21 : Vec Ideal S256x64 .bf16) (l22 : Vec Ideal S64 .f32) (l23 : Vec Ideal S192x64 .bf16) (l24 : Vec Ideal S64 .f32) (l25 : Vec Ideal S128x64 .bf16) (l26 : Vec Ideal S64 .f32)
variable (hW : KW P l1 l2 l3 l4 l5 l6 l7 l8 l9 l10 l11 l12 l13 l14 l15 l16 l17 l18 l19 l20 l21 l22 l23 l24 l25 l26) (p : Fin 2048)
include hW hP hl0

/-- The level's pre-activation at column `c`: the six blocks' products and the bias. -/
theorem pre4_apply (c : Fin 128) :
    k0_pay33 (Body.v186 l0 l1 l2 l3 l4 l5 l9 l10 l11 l12 l13 l14 l15 l16) (Body.v188 l17) l18 (ix2 p c)
      = ((((((∑ k : Fin 64, h0 P (fK P l0 p) k * l17 (ix2 (gix 6 rfl (0 : Fin 6) k) c))
          + ∑ k : Fin 64, h1 P (fK P l0 p) k * l17 (ix2 (gix 6 rfl (1 : Fin 6) k) c))
          + ∑ k : Fin 64, h2 P (fK P l0 p) k * l17 (ix2 (gix 6 rfl (2 : Fin 6) k) c))
          + ∑ k : Fin 64, h3 P (fK P l0 p) k * l17 (ix2 (gix 6 rfl (3 : Fin 6) k) c))
          + ∑ k : Fin 64, h5 P (fK P l0 p) k * l17 (ix2 (gix 6 rfl (4 : Fin 6) k) c))
          + ∑ k : Fin 64, h11 P (fK P l0 p) k * l17 (ix2 (gix 6 rfl (5 : Fin 6) k) c)) + l18 (ix1 c) := by
  unfold k0_pay33 Body.v188 k0_pay32
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, matmul_blocks pd_384_128 6 rfl, Fin.sum_univ_six,
    fun k => (v186_apply P hP l0 hl0 l1 l2 l3 l4 l5 l6 l7 l8 l9 l10 l11 l12 l13 l14 l15 l16 l17 l18 l19 l20 l21 l22 l23 l24 l25 l26 hW p k).1, fun k => (v186_apply P hP l0 hl0 l1 l2 l3 l4 l5 l6 l7 l8 l9 l10 l11 l12 l13 l14 l15 l16 l17 l18 l19 l20 l21 l22 l23 l24 l25 l26 hW p k).2.1, fun k => (v186_apply P hP l0 hl0 l1 l2 l3 l4 l5 l6 l7 l8 l9 l10 l11 l12 l13 l14 l15 l16 l17 l18 l19 l20 l21 l22 l23 l24 l25 l26 hW p k).2.2.1,
    fun k => (v186_apply P hP l0 hl0 l1 l2 l3 l4 l5 l6 l7 l8 l9 l10 l11 l12 l13 l14 l15 l16 l17 l18 l19 l20 l21 l22 l23 l24 l25 l26 hW p k).2.2.2.1, fun k => (v186_apply P hP l0 hl0 l1 l2 l3 l4 l5 l6 l7 l8 l9 l10 l11 l12 l13 l14 l15 l16 l17 l18 l19 l20 l21 l22 l23 l24 l25 l26 hW p k).2.2.2.2.1, fun k => (v186_apply P hP l0 hl0 l1 l2 l3 l4 l5 l6 l7 l8 l9 l10 l11 l12 l13 l14 l15 l16 l17 l18 l19 l20 l21 l22 l23 l24 l25 l26 hW p k).2.2.2.2.2]

/-- Node 6's pre-activation: nodes 0, 2, 3 and 5 through node 6's affine map. -/
theorem pre6_apply (n : Fin 64) :
    k0_pay33 (Body.v186 l0 l1 l2 l3 l4 l5 l9 l10 l11 l12 l13 l14 l15 l16) (Body.v188 l17) l18 (ix2 p (gix 2 rfl (0 : Fin 2) n))
      = lin (P.gW 6 n) (P.gB 6 n) (fun k => ((h0 P (fK P l0 p) k + h2 P (fK P l0 p) k) + h3 P (fK P l0 p) k) + h5 P (fK P l0 p) k) := by
  simp only [pre4_apply P hP l0 hl0 l1 l2 l3 l4 l5 l6 l7 l8 l9 l10 l11 l12 l13 l14 l15 l16 l17 l18 l19 l20 l21 l22 l23 l24 l25 l26 hW p, hW.f17_0_0, hW.f17_1_0, hW.f17_2_0, hW.f17_3_0, hW.f17_4_0, hW.f17_5_0, hW.b18_0,
    mul_zero, Finset.sum_const_zero, zero_add, add_zero]
  rw [lin_add₄ (P.gW 6 n) (hP.gW 6 n) _ _ _ _ (h0_real P hP _ (fK_real P hP l0 hl0 p)) (h2_real P hP _ (fK_real P hP l0 hl0 p)) (h3_real P hP _ (fK_real P hP l0 hl0 p)) (h5_real P hP _ (fK_real P hP l0 hl0 p))]
  rfl

/-- Node 14 (Gaussian) on the sum of nodes 0, 1 and 11. -/
theorem v206_apply (n : Fin 64) : Body.v206 l0 l1 l2 l3 l4 l5 l9 l10 l11 l12 l13 l14 l15 l16 l17 l18 (ix2 p n) = h14 P (fK P l0 p) n := by
  unfold Body.v206 k0_pay34
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, slice_cols_apply, slice_rows_apply, shapeCast_self,
    transpose_ix2_apply, transpose2_apply, shapeCast_a_1a_apply, Fin.val_zero, Nat.add_zero, add_zero, slice_gix 2 rfl (1 : Fin 2) 64 rfl, pre4_apply P hP l0 hl0 l1 l2 l3 l4 l5 l6 l7 l8 l9 l10 l11 l12 l13 l14 l15 l16 l17 l18 l19 l20 l21 l22 l23 l24 l25 l26 hW p, hW.f17_0_1, hW.f17_1_1, hW.f17_2_1, hW.f17_3_1, hW.f17_4_1,
    hW.f17_5_1, hW.b18_1, mul_zero, Finset.sum_const_zero, zero_add, add_zero]
  rw [lin_add₃ (P.gW 14 n) (hP.gW 14 n) _ _ _ (h0_real P hP _ (fK_real P hP l0 hl0 p)) (h1_real P hP _ (fK_real P hP l0 hl0 p)) (h11_real P hP _ (fK_real P hP l0 hl0 p))]
  simp only [gauss_scalar]
  rfl

end Cert.KernelIdeal.Hand.Val
end
-- ==== Proof.KVal5.lean ====
/-
  The kernel body on one batch row, level 5 of the graph: nodes 8 and 13 from ONE product of the concatenated outputs
  of nodes 4, 6, 7 and 12 with the level's fused weights.  Node 6 is computed here too: the elu of the first 64 columns
  of the previous level's product.  Node 8 reads nodes 6 and 7, node 13 reads nodes 4, 6 and 12; the blocks of the
  tokens a node does not read are zero, and the sum of the remaining blocks' products is the product of the sum of the
  predecessors (distributivity over real numbers).
-/
import proofs.«166257_j42623255446007_2_alg».proof.Proof.KVal4

set_option maxRecDepth 16384
noncomputable section
namespace Cert.KernelIdeal.Hand.Val
open scoped BigOperators
open Idealize.ShloMosaic Idealize.ShloMosaic.TcCoe Idealize.ShloMosaic.ValueIdx Cert.KernelIdeal Cert.KernelIdeal.Gen Cert.RowOps Cert.Net Cert.KernelIdeal.Hand

theorem pd_256_128 : PlainDot dot_S2048x256_S256x128_S2048x128_1_0_0_1_n_n := ⟨rfl, rfl, fun _ _ => rfl, fun _ _ => rfl, fun _ _ => rfl, fun _ _ => rfl⟩

variable (P : Params) (hP : P.Real) (l0 : Vec Ideal S2048x11 .f32) (hl0 : ∀ i, IsReal (l0 i)) (l1 : Vec Ideal S64x8 .bf16) (l2 : Vec Ideal S64 .f32) (l3 : Vec Ideal S3x64 .f32) (l4 : Vec Ideal S64x64 .bf16) (l5 : Vec Ideal S64 .f32) (l6 : Vec Ideal S3x64 .bf16) (l7 : Vec Ideal S3 .f32) (l8 : Vec Ideal S1 .f32) (l9 : Vec Ideal S64x64 .bf16) (l10 : Vec Ideal S64 .f32) (l11 : Vec Ideal S64x64 .bf16) (l12 : Vec Ideal S64 .f32) (l13 : Vec Ideal S128x256 .bf16) (l14 : Vec Ideal S256 .f32) (l15 : Vec Ideal S256x192 .bf16) (l16 : Vec Ideal S192 .f32) (l17 : Vec Ideal S384x128 .bf16) (l18 : Vec Ideal S128 .f32) (l19 : Vec Ideal S256x128 .bf16) (l20 : Vec Ideal S128 .f32) (l21 : Vec Ideal S256x64 .bf16) (l22 : Vec Ideal S64 .f32) (l23 : Vec Ideal S192x64 .bf16) (l24 : Vec Ideal S64 .f32) (l25 : Vec Ideal S128x64 .bf16) (l26 : Vec Ideal S64 .f32)
variable (hW : KW P l1 l2 l3 l4 l5 l6 l7 l8 l9 l10 l11 l12 l13 l14 l15 l16 l17 l18 l19 l20 l21 l22 l23 l24 l25 l26) (p : Fin 2048)

include hP hl0 hW

/-- The level's pre-activation at column `c`: the four blocks' products and the bias. -/
theorem pre5_apply (c : Fin 128) :
    k0_pay35 (Body.v127 l0 l1 l2 l3 l4 l5 l9 l10 l11 l12 l13 l14) (Body.v142 l0 l1 l2 l3 l4 l5 l9 l10 l11 l12 l13 l14) (Body.v179 l0 l1 l2 l3 l4 l5 l9 l10 l11 l12 l13 l14 l15 l16) (Body.v186 l0 l1 l2 l3 l4 l5 l9 l10 l11 l12 l13 l14 l15 l16) (Body.v188 l17) l18 l19 l20 (ix2 p c)
      = ((((∑ k : Fin 64, h4 P (fK P l0 p) k * l19 (ix2 (gix 4 rfl (0 : Fin 4) k) c))
          + ∑ k : Fin 64, h6 P (fK P l0 p) k * l19 (ix2 (gix 4 rfl (1 : Fin 4) k) c))
          + ∑ k : Fin 64, h7 P (fK P l0 p) k * l19 (ix2 (gix 4 rfl (2 : Fin 4) k) c))
          + ∑ k : Fin 64, h12 P (fK P l0 p) k * l19 (ix2 (gix 4 rfl (3 : Fin 4) k) c)) + l20 (ix1 c) := by
  unfold k0_pay35
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, shapeCast_self,
    transpose_ix2_apply, transpose2_apply, shapeCast_a_1a_apply, Fin.val_zero, Nat.add_zero, add_zero, slice_gix 2 rfl (0 : Fin 2) 0 rfl, matmul_blocks pd_256_128 4 rfl, Fin.sum_univ_four,
    concat4_cols_0, concat4_cols_1, concat4_cols_2, concat4_cols_3,
    v127_apply P hP l0 hl0 l1 l2 l3 l4 l5 l6 l7 l8 l9 l10 l11 l12 l13 l14 l15 l16 l17 l18 l19 l20 l21 l22 l23 l24 l25 l26 hW p, v142_apply P hP l0 hl0 l1 l2 l3 l4 l5 l6 l7 l8 l9 l10 l11 l12 l13 l14 l15 l16 l17 l18 l19 l20 l21 l22 l23 l24 l25 l26 hW p, v179_apply P hP l0 hl0 l1 l2 l3 l4 l5 l6 l7 l8 l9 l10 l11 l12 l13 l14 l15 l16 l17 l18 l19 l20 l21 l22 l23 l24 l25 l26 hW p, pre6_apply P hP l0 hl0 l1 l2 l3 l4 l5 l6 l7 l8 l9 l10 l11 l12 l13 l14 l15 l16 l17 l18 l19 l20 l21 l22 l23 l24 l25 l26 hW p, elu_scalar]
  rfl

/-- Node 8 (sine) on the sum of nodes 6 and 7. -/
theorem v221_apply (n : Fin 64) : Body.v221 l0 l1 l2 l3 l4 l5 l9 l10 l11 l12 l13 l14 l15 l16 l17 l18 l19 l20 (ix2 p n) = h8 P (fK P l0 p) n := by
  unfold Body.v221 k0_pay36
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, shapeCast_self,
    transpose_ix2_apply, transpose2_apply, shapeCast_a_1a_apply, Fin.val_zero, Nat.add_zero, add_zero, slice_gix 2 rfl (0 : Fin 2) 0 rfl, pre5_apply P hP l0 hl0 l1 l2 l3 l4 l5 l6 l7 l8 l9 l10 l11 l12 l13 l14 l15 l16 l17 l18 l19 l20 l21 l22 l23 l24 l25 l26 hW p,
    hW.f19_0_0, hW.f19_1_0, hW.f19_2_0, hW.f19_3_0, hW.b20_0, mul_zero, Finset.sum_const_zero, zero_add]
  rw [lin_add₂ (P.gW 8 n) (hP.gW 8 n) _ _ (h6_real P hP _ (fK_real P hP l0 hl0 p)) (h7_real P hP _ (fK_real P hP l0 hl0 p))]
  rfl

/-- The same value as the later payloads spell it. -/
theorem v221_apply' (n : Fin 64) :
    k0_pay36 (Body.v127 l0 l1 l2 l3 l4 l5 l9 l10 l11 l12 l13 l14) (Body.v142 l0 l1 l2 l3 l4 l5 l9 l10 l11 l12 l13 l14) (Body.v179 l0 l1 l2 l3 l4 l5 l9 l10 l11 l12 l13 l14 l15 l16) (Body.v186 l0 l1 l2 l3 l4 l5 l9 l10 l11 l12 l13 l14 l15 l16) (Body.v188 l17) l18 l19 l20 (ix2 p n) = h8 P (fK P l0 p) n :=
  v221_apply P hP l0 hl0 l1 l2 l3 l4 l5 l6 l7 l8 l9 l10 l11 l12 l13 l14 l15 l16 l17 l18 l19 l20 l21 l22 l23 l24 l25 l26 hW p n

/-- Node 13 (sine) on the sum of nodes 4, 6 and 12. -/
theorem v223_apply (n : Fin 64) : Body.v223 l0 l1 l2 l3 l4 l5 l9 l10 l11 l12 l13 l14 l15 l16 l17 l18 l19 l20 (ix2 p n) = h13 P (fK P l0 p) n := by
  unfold Body.v223 k0_pay37
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, shapeCast_self,
    transpose_ix2_apply, transpose2_apply, shapeCast_a_1a_apply, Fin.val_zero, Nat.add_zero, add_zero, slice_gix 2 rfl (1 : Fin 2) 64 rfl, pre5_apply P hP l0 hl0 l1 l2 l3 l4 l5 l6 l7 l8 l9 l10 l11 l12 l13 l14 l15 l16 l17 l18 l19 l20 l21 l22 l23 l24 l25 l26 hW p,
    hW.f19_0_1, hW.f19_1_1, hW.f19_2_1, hW.f19_3_1, hW.b20_1, mul_zero, Finset.sum_const_zero, zero_add]
  rw [lin_add₃ (P.gW 13 n) (hP.gW 13 n) _ _ _ (h4_real P hP _ (fK_real P hP l0 hl0 p)) (h6_real P hP _ (fK_real P hP l0 hl0 p)) (h12_real P hP _ (fK_real P hP l0 hl0 p))]
  rfl

end Cert.KernelIdeal.Hand.Val
end
-- ==== Proof.KVal6.lean ====
/-
  The kernel body on one batch row, level 6 of the graph: node 9's pre-activation from ONE product of the
  concatenated outputs of nodes 3, 5, 7 and 8 with the level's weights, every block of which is node 9's weight: the
  sum of the four blocks' products is the product of the sum of the four predecessors (distributivity over real
  numbers).
-/
import proofs.«166257_j42623255446007_2_alg».proof.Proof.KVal5

set_option maxRecDepth 16384
noncomputable section
namespace Cert.KernelIdeal.Hand.Val
open scoped BigOperators
open Idealize.ShloMosaic Idealize.ShloMosaic.TcCoe Idealize.ShloMosaic.ValueIdx Cert.KernelIdeal Cert.KernelIdeal.Gen Cert.RowOps Cert.Net Cert.KernelIdeal.Hand

theorem pd_256_64 : PlainDot dot_S2048x256_S256x64_S2048x64_1_0_0_1_n_n := ⟨rfl, rfl, fun _ _ => rfl, fun _ _ => rfl, fun _ _ => rfl, fun _ _ => rfl⟩

variable (P : Params) (hP : P.Real) (l0 : Vec Ideal S2048x11 .f32) (hl0 : ∀ i, IsReal (l0 i)) (l1 : Vec Ideal S64x8 .bf16) (l2 : Vec Ideal S64 .f32) (l3 : Vec Ideal S3x64 .f32) (l4 : Vec Ideal S64x64 .bf16) (l5 : Vec Ideal S64 .f32) (l6 : Vec Ideal S3x64 .bf16) (l7 : Vec Ideal S3 .f32) (l8 : Vec Ideal S1 .f32) (l9 : Vec Ideal S64x64 .bf16) (l10 : Vec Ideal S64 .f32) (l11 : Vec Ideal S64x64 .bf16) (l12 : Vec Ideal S64 .f32) (l13 : Vec Ideal S128x256 .bf16) (l14 : Vec Ideal S256 .f32) (l15 : Vec Ideal S256x192 .bf16) (l16 : Vec Ideal S192 .f32) (l17 : Vec Ideal S384x128 .bf16) (l18 : Vec Ideal S128 .f32) (l19 : Vec Ideal S256x128 .bf16) (l20 : Vec Ideal S128 .f32) (l21 : Vec Ideal S256x64 .bf16) (l22 : Vec Ideal S64 .f32) (l23 : Vec Ideal S192x64 .bf16) (l24 : Vec Ideal S64 .f32) (l25 : Vec Ideal S128x64 .bf16) (l26 : Vec Ideal S64 .f32)
variable (hW : KW P l1 l2 l3 l4 l5 l6 l7 l8 l9 l10 l11 l12 l13 l14 l15 l16 l17 l18 l19 l20 l21 l22 l23 l24 l25 l26) (p : Fin 2048)

include hP hl0 hW

/-- Node 9's pre-activation: the sum of nodes 3, 5, 7 and 8 through node 9's affine map. -/
theorem v236_apply (n : Fin 64) : Body.v236 l0 l1 l2 l3 l4 l5 l9 l10 l11 l12 l13 l14 l15 l16 l17 l18 l19 l20 l21 l22 (ix2 p n)
    = lin (P.gW 9 n) (P.gB 9 n) (fun k => ((h3 P (fK P l0 p) k + h5 P (fK P l0 p) k) + h7 P (fK P l0 p) k) + h8 P (fK P l0 p) k) := by
  unfold Body.v236 k0_pay38
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, shapeCast_self,
    transpose_ix2_apply, transpose2_apply, shapeCast_a_1a_apply, Fin.val_zero, Nat.add_zero, add_zero, matmul_blocks pd_256_64 4 rfl, Fin.sum_univ_four,
    concat4_cols_0, concat4_cols_1, concat4_cols_2, concat4_cols_3,
    v122_apply P hP l0 hl0 l1 l2 l3 l4 l5 l6 l7 l8 l9 l10 l11 l12 l13 l14 l15 l16 l17 l18 l19 l20 l21 l22 l23 l24 l25 l26 hW p, v157_apply P hP l0 hl0 l1 l2 l3 l4 l5 l6 l7 l8 l9 l10 l11 l12 l13 l14 l15 l16 l17 l18 l19 l20 l21 l22 l23 l24 l25 l26 hW p, v142_apply P hP l0 hl0 l1 l2 l3 l4 l5 l6 l7 l8 l9 l10 l11 l12 l13 l14 l15 l16 l17 l18 l19 l20 l21 l22 l23 l24 l25 l26 hW p, v221_apply' P hP l0 hl0 l1 l2 l3 l4 l5 l6 l7 l8 l9 l10 l11 l12 l13 l14 l15 l16 l17 l18 l19 l20 l21 l22 l23 l24 l25 l26 hW p,
    hW.f21_0_0, hW.f21_1_0, hW.f21_2_0, hW.f21_3_0, hW.b22_0]
  rw [lin_add₄ (P.gW 9 n) (hP.gW 9 n) _ _ _ _ (h3_real P hP _ (fK_real P hP l0 hl0 p)) (h5_real P hP _ (fK_real P hP l0 hl0 p)) (h7_real P hP _ (fK_real P hP l0 hl0 p)) (h8_real P hP _ (fK_real P hP l0 hl0 p))]
  rfl

end Cert.KernelIdeal.Hand.Val
end
-- ==== Proof.KVal7.lean ====
/-
  The kernel body on one batch row, the last levels and the output: node 9 (the Gaussian of its pre-activation),
  node 10 from the product of the concatenated outputs of nodes 0, 8 and 9, node 15 from that of nodes 1 and 10 — every
  block of either matrix being the node's weight, so that the sum of the blocks' products is the product of the sum of
  the predecessors (distributivity over real numbers) —, then the three sinks' outputs added, the output map, its bias
  and scale, and the logistic function: the network's output on the row.
-/
import proofs.«166257_j42623255446007_2_alg».proof.Proof.KVal6

set_option maxRecDepth 16384
noncomputable section
namespace Cert.KernelIdeal.Hand.Val
open scoped BigOperators
open Idealize.ShloMosaic Idealize.ShloMosaic.TcCoe Idealize.ShloMosaic.ValueIdx Cert.KernelIdeal Cert.KernelIdeal.Gen Cert.RowOps Cert.Net Cert.KernelIdeal.Hand

theorem pd_192_64 : PlainDot dot_S2048x192_S192x64_S2048x64_1_0_0_1_n_n := ⟨rfl, rfl, fun _ _ => rfl, fun _ _ => rfl, fun _ _ => rfl, fun _ _ => rfl⟩
theorem pd_128_64 : PlainDot dot_S2048x128_S128x64_S2048x64_1_0_0_1_n_n := ⟨rfl, rfl, fun _ _ => rfl, fun _ _ => rfl, fun _ _ => rfl, fun _ _ => rfl⟩
theorem pd_64_3 : PlainDot dot_S2048x64_S64x3_S2048x3_1_0_0_1_n_n := ⟨rfl, rfl, fun _ _ => rfl, fun _ _ => rfl, fun _ _ => rfl, fun _ _ => rfl⟩

section Nodes
variable (P : Params) (hP : P.Real) (f : Fin 64 → EReal) (hf : ∀ k, IsReal (f k))

/-- Node 9 is the Gaussian of its pre-activation. -/
theorem h9_eq (n : Fin 64) :
    Net.gauss (lin (P.gW 9 n) (P.gB 9 n) (fun k => ((h3 P f k + h5 P f k) + h7 P f k) + h8 P f k)) = h9 P f n := rfl

include hP hf
/-- Node 10 (tanh) from the three blocks' products. -/
theorem h10_eq (n : Fin 64) :
    Ideal.tanh ((((∑ k : Fin 64, h0 P f k * P.gW 10 n k) + ∑ k : Fin 64, h8 P f k * P.gW 10 n k) + ∑ k : Fin 64, h9 P f k * P.gW 10 n k) + P.gB 10 n)
      = h10 P f n := by
  rw [lin_add₃ (P.gW 10 n) (hP.gW 10 n) _ _ _ (h0_real P hP f hf) (h8_real P hP f hf) (h9_real P hP f hf)]
  rfl
/-- Node 15 (tanh) from the two blocks' products. -/
theorem h15_eq (n : Fin 64) :
    Ideal.tanh (((∑ k : Fin 64, h1 P f k * P.gW 15 n k) + ∑ k : Fin 64, h10 P f k * P.gW 15 n k) + P.gB 15 n) = h15 P f n := by
  rw [lin_add₂ (P.gW 15 n) (hP.gW 15 n) _ _ (h1_real P hP f hf) (h10_real P hP f hf)]
  rfl
end Nodes

variable (P : Params) (hP : P.Real) (l0 : Vec Ideal S2048x11 .f32) (hl0 : ∀ i, IsReal (l0 i)) (l1 : Vec Ideal S64x8 .bf16) (l2 : Vec Ideal S64 .f32) (l3 : Vec Ideal S3x64 .f32) (l4 : Vec Ideal S64x64 .bf16) (l5 : Vec Ideal S64 .f32) (l6 : Vec Ideal S3x64 .bf16) (l7 : Vec Ideal S3 .f32) (l8 : Vec Ideal S1 .f32) (l9 : Vec Ideal S64x64 .bf16) (l10 : Vec Ideal S64 .f32) (l11 : Vec Ideal S64x64 .bf16) (l12 : Vec Ideal S64 .f32) (l13 : Vec Ideal S128x256 .bf16) (l14 : Vec Ideal S256 .f32) (l15 : Vec Ideal S256x192 .bf16) (l16 : Vec Ideal S192 .f32) (l17 : Vec Ideal S384x128 .bf16) (l18 : Vec Ideal S128 .f32) (l19 : Vec Ideal S256x128 .bf16) (l20 : Vec Ideal S128 .f32) (l21 : Vec Ideal S256x64 .bf16) (l22 : Vec Ideal S64 .f32) (l23 : Vec Ideal S192x64 .bf16) (l24 : Vec Ideal S64 .f32) (l25 : Vec Ideal S128x64 .bf16) (l26 : Vec Ideal S64 .f32)
variable (hW : KW P l1 l2 l3 l4 l5 l6 l7 l8 l9 l10 l11 l12 l13 l14 l15 l16 l17 l18 l19 l20 l21 l22 l23 l24 l25 l26) (p : Fin 2048)

include hP hl0 hW

/-- **The stored value on row `p`, channel `c3`, is the network's output.** -/
theorem v279_apply (c3 : Fin 3) : Body.v279 l0 l1 l2 l3 l4 l5 l6 l7 l8 l9 l10 l11 l12 l13 l14 l15 l16 l17 l18 l19 l20 l21 l22 l23 l24 l25 l26 (ix2 p c3) = out P (fK P l0 p) c3 := by
  unfold Body.v279 k0_pay39 Body.c59
  simp only [select_apply, cmpf_apply', subf_apply, addf_apply, mulf_apply, maximumf_apply, truncf_apply, exp_apply, tanh_apply, sin_apply, log1p_apply,
    absf_apply, logistic_apply, bcastWord_apply, broadcastTo_a1_ab_apply, broadcastTo_1b_ab_apply, broadcastTo_11_ab_apply, biasRow_apply, shapeCast_self,
    transpose_ix2_apply, transpose2_apply, shapeCast_a_1a_apply, Fin.val_zero, Nat.add_zero, add_zero, matmul_blocks pd_192_64 3 rfl, matmul_blocks pd_128_64 2 rfl, matmul_ix2 pd_64_3,
    Fin.sum_univ_three, Fin.sum_univ_two, concat3_cols_0, concat3_cols_1, concat3_cols_2, concat2_cols_0, concat2_cols_1,
    v79_apply P l0 l1 l2 l3 l4 l5 l6 l7 l8 l9 l10 l11 l12 l13 l14 l15 l16 l17 l18 l19 l20 l21 l22 l23 l24 l25 l26 hW p, v94_apply P l0 l1 l2 l3 l4 l5 l6 l7 l8 l9 l10 l11 l12 l13 l14 l15 l16 l17 l18 l19 l20 l21 l22 l23 l24 l25 l26 hW p, v206_apply P hP l0 hl0 l1 l2 l3 l4 l5 l6 l7 l8 l9 l10 l11 l12 l13 l14 l15 l16 l17 l18 l19 l20 l21 l22 l23 l24 l25 l26 hW p, v221_apply P hP l0 hl0 l1 l2 l3 l4 l5 l6 l7 l8 l9 l10 l11 l12 l13 l14 l15 l16 l17 l18 l19 l20 l21 l22 l23 l24 l25 l26 hW p, v223_apply P hP l0 hl0 l1 l2 l3 l4 l5 l6 l7 l8 l9 l10 l11 l12 l13 l14 l15 l16 l17 l18 l19 l20 l21 l22 l23 l24 l25 l26 hW p, v236_apply P hP l0 hl0 l1 l2 l3 l4 l5 l6 l7 l8 l9 l10 l11 l12 l13 l14 l15 l16 l17 l18 l19 l20 l21 l22 l23 l24 l25 l26 hW p,
    gauss_scalar, h9_eq, hW.f23_0_0, hW.f23_1_0, hW.f23_2_0, hW.b24_0, h10_eq P hP _ (fK_real P hP l0 hl0 p),
    hW.f25_0_0, hW.f25_1_0, hW.b26_0, h15_eq P hP _ (fK_real P hP l0 hl0 p), hW.ow, hW.ob, hW.sc]
  rfl

end Cert.KernelIdeal.Hand.Val
end
-- ==== Proof.RefRunOps.lean ====
/-
  @main of the reference as a LIST of its 350 host operations, cut into stretches where few buffers are live:
  the first layer in four stretches, then one stretch per graph node (two where the printed program's own
  cut falls inside the node), then the output head in two. The operations of the functions jax outlined
  (ELU with its two `where`s, softplus) stand inline at each call, over that call's own buffers.
-/
import proofs.«166257_j42623255446007_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 12 operations: the three coordinate columns and the latents branch. -/
abbrev opsLat : List (HloOp τ sig (Elt F)) :=
  [ unary main_arg0 main_v0 ((extractStridedSlice S131072x1x1 ![0, 0, 0] · slices_S131072x3x1_S131072x1x1_0_0_0) : (⟨S131072x3x1, .f32⟩ : BufTy).Contents (Elt F) → (⟨S131072x1x1, .f32⟩ : BufTy).Contents (Elt F)),
    reshape main_v0 main_v1 rfl shapeCasts_S131072x1x1_S131072x1,
    unary main_arg0 main_v2 ((extractStridedSlice S131072x1x1 ![0, 1, 0] · slices_S131072x3x1_S131072x1x1_0_1_0) : (⟨S131072x3x1, .f32⟩ : BufTy).Contents (Elt F) → (⟨S131072x1x1, .f32⟩ : BufTy).Contents (Elt F)),
    reshape main_v2 main_v3 rfl shapeCasts_S131072x1x1_S131072x1,
    unary main_arg0 main_v4 ((extractStridedSlice S131072x1x1 ![0, 2, 0] · slices_S131072x3x1_S131072x1x1_0_2_0) : (⟨S131072x3x1, .f32⟩ : BufTy).Contents (Elt F) → (⟨S131072x1x1, .f32⟩ : BufTy).Contents (Elt F)),
    reshape main_v4 main_v5 rfl shapeCasts_S131072x1x1_S131072x1,
    unary main_arg2 main_v6 ((transpose S8x64 [1, 0] · transposes_S64x8_S8x64_1_0) : (⟨S64x8, .f32⟩ : BufTy).Contents (Elt F) → (⟨S8x64, .f32⟩ : BufTy).Contents (Elt F)),
    binary main_arg1 main_v6 main_v7 ((fun l r => Host.dotGeneral dot_S131072x8_S8x64_S131072x64_1_0_0_1_n_n none l r) : (⟨S131072x8, .f32⟩ : BufTy).Contents (Elt F) → (⟨S8x64, .f32⟩ : BufTy).Contents (Elt F) → (⟨S131072x64, .f32⟩ : BufTy).Contents (Elt F)),
    unary main_arg3 main_v8 (broadcastInDim S1x64 ![1] bcast_S64_S1x64_1 : (⟨S64, .f32⟩ : BufTy).Contents (Elt F) → (⟨S1x64, .f32⟩ : BufTy).Contents (Elt F)),
    unary main_v8 main_v9 (broadcastInDim S131072x64 ![0, 1] bcast_S1x64_S131072x64_0_1 : (⟨S1x64, .f32⟩ : BufTy).Contents (Elt F) → (⟨S131072x64, .f32⟩ : BufTy).Contents (Elt F)),
    binary main_v7 main_v9 main_v10 (addf : (⟨S131072x64, .f32⟩ : BufTy).Contents (Elt F) → (⟨S131072x64, .f32⟩ : BufTy).Contents (Elt F) → (⟨S131072x64, .f32⟩ : BufTy).Contents (Elt F)),
    unary main_v10 main_v11 (Host.tanh : (⟨S131072x64, .f32⟩ : BufTy).Contents (Elt F) → (⟨S131072x64, .f32⟩ : BufTy).Contents (Elt F)) ]

/-- 17 operations: the r branch: its outer product and ELU inlined. -/
abbrev opsR : List (HloOp τ sig (Elt F)) :=
  [ unary main_arg6 main_v12 ((transpose S1x64 [1, 0] · transposes_S64x1_S1x64_1_0) : (⟨S64x1, .f32⟩ : BufTy).Contents (Elt F) → (⟨S1x64, .f32⟩ : BufTy).Contents (Elt F)),
    binary main_v5 main_v12 main_v13 ((fun l r => Host.dotGeneral dot_S131072x1_S1x64_S131072x64_1_0_0_1_n_n none l r) : (⟨S131072x1, .f32⟩ : BufTy).Contents (Elt F) → (⟨S1x64, .f32⟩ : BufTy).Contents (Elt F) → (⟨S131072x64, .f32⟩ : BufTy).Contents (Elt F)),
    TRef.nullary main_call0.cst (constant S_ .f32 0x00000000#32),
    TRef.unary main_call0.cst main_call0.v0 (broadcastInDim S131072x64 ![] bcast_S_S131072x64),
    TRef.binary (.of main_v13 : TRef sig ⟨S131072x64, .f32⟩) main_call0.v0 main_call0.v1 (cmpf .ogt),
    TRef.nullary main_call0.cst_0 (constant S_ .f32 0x00000000#32),
    TRef.unary main_call0.cst_0 main_call0.v2 (broadcastInDim S131072x64 ![] bcast_S_S131072x64),
    TRef.binary (.of main_v13 : TRef sig ⟨S131072x64, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S131072x64 ![] bcast_S_S131072x64),
    TRef.ternary main_call0.v3 main_call0.call0.v1 (.of main_v13 : TRef sig ⟨S131072x64, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S131072x64 ![] bcast_S_S131072x64),
    TRef.binary main_call0.v6 main_call0.v5 main_call0.v7 mulf,
    TRef.ternary main_call0.v1 (.of main_v13 : TRef sig ⟨S131072x64, .f32⟩) main_call0.v7 main_call0.call1.v0 select ]

/-- 16 operations: the y branch: its outer product and softplus inlined. -/
abbrev opsY : List (HloOp τ sig (Elt F)) :=
  [ unary main_arg5 main_v15 ((transpose S1x64 [1, 0] · transposes_S64x1_S1x64_1_0) : (⟨S64x1, .f32⟩ : BufTy).Contents (Elt F) → (⟨S1x64, .f32⟩ : BufTy).Contents (Elt F)),
    binary main_v3 main_v15 main_v16 ((fun l r => Host.dotGeneral dot_S131072x1_S1x64_S131072x64_1_0_0_1_n_n none l r) : (⟨S131072x1, .f32⟩ : BufTy).Contents (Elt F) → (⟨S1x64, .f32⟩ : BufTy).Contents (Elt F) → (⟨S131072x64, .f32⟩ : BufTy).Contents (Elt F)),
    TRef.nullary main_call1.cst (constant S_ .f32 0x00000000#32),
    TRef.unary main_call1.cst main_call1.v0 (broadcastInDim S131072x64 ![] bcast_S_S131072x64),
    TRef.binary (.of main_v16 : TRef sig ⟨S131072x64, .f32⟩) main_call1.v0 main_call1.v1 maximumf,
    TRef.unary main_call1.cst main_call1.v2 (broadcastInDim S131072x64 ![] bcast_S_S131072x64),
    TRef.binary (.of main_v16 : TRef sig ⟨S131072x64, .f32⟩) main_call1.v2 main_call1.v3 subf,
    TRef.binary main_call1.v3 main_call1.v3 main_call1.v4 (cmpf .une),
    TRef.unary main_call1.cst main_call1.v5 (broadcastInDim S131072x64 ![] bcast_S_S131072x64),
    TRef.binary (.of main_v16 : TRef sig ⟨S131072x64, .f32⟩) main_call1.v5 main_call1.v6 addf,
    TRef.unary main_call1.v3 main_call1.v7 Host.absf,
    TRef.unary main_call1.v7 main_call1.v8 Host.negf,
    TRef.unary main_call1.v8 main_call1.v9 Host.exp,
    TRef.unary main_call1.v9 main_call1.v10 Host.log1p,
    TRef.binary main_call1.v1 main_call1.v10 main_call1.v11 addf,
    TRef.ternary main_call1.v4 main_call1.v6 main_call1.v11 main_call1.v12 select ]

/-- 17 operations: the x branch, the four branches' sum, the Gaussian, the W1 layer and sine. -/
abbrev opsFeat : List (HloOp τ sig (Elt F)) :=
  [ unary main_arg4 main_v18 ((transpose S1x64 [1, 0] · transposes_S64x1_S1x64_1_0) : (⟨S64x1, .f32⟩ : BufTy).Contents (Elt F) → (⟨S1x64, .f32⟩ : BufTy).Contents (Elt F)),
    binary main_v1 main_v18 main_v19 ((fun l r => Host.dotGeneral dot_S131072x1_S1x64_S131072x64_1_0_0_1_n_n none l r) : (⟨S131072x1, .f32⟩ : BufTy).Contents (Elt F) → (⟨S1x64, .f32⟩ : BufTy).Contents (Elt F) → (⟨S131072x64, .f32⟩ : BufTy).Contents (Elt F)),
    unary main_v19 main_v20 (Host.tanh : (⟨S131072x64, .f32⟩ : BufTy).Contents (Elt F) → (⟨S131072x64, .f32⟩ : BufTy).Contents (Elt F)),
    binary main_v20 main_v17 main_v21 (addf : (⟨S131072x64, .f32⟩ : BufTy).Contents (Elt F) → (⟨S131072x64, .f32⟩ : BufTy).Contents (Elt F) → (⟨S131072x64, .f32⟩ : BufTy).Contents (Elt F)),
    binary main_v21 main_v14 main_v22 (addf : (⟨S131072x64, .f32⟩ : BufTy).Contents (Elt F) → (⟨S131072x64, .f32⟩ : BufTy).Contents (Elt F) → (⟨S131072x64, .f32⟩ : BufTy).Contents (Elt F)),
    binary main_v22 main_v11 main_v23 (addf : (⟨S131072x64, .f32⟩ : BufTy).Contents (Elt F) → (⟨S131072x64, .f32⟩ : BufTy).Contents (Elt F) → (⟨S131072x64, .f32⟩ : BufTy).Contents (Elt F)),
    nullary main_cst (constant S_ .f32 0xBF000000#32),
    unary main_cst main_v24 (broadcastInDim S131072x64 ![] bcast_S_S131072x64 : (⟨S_, .f32⟩ : BufTy).Contents (Elt F) → (⟨S131072x64, .f32⟩ : BufTy).Contents (Elt F)),
    binary main_v24 main_v23 main_v25 (mulf : (⟨S131072x64, .f32⟩ : BufTy).Contents (Elt F) → (⟨S131072x64, .f32⟩ : BufTy).Contents (Elt F) → (⟨S131072x64, .f32⟩ : BufTy).Contents (Elt F)),
    binary main_v25 main_v23 main_v26 (mulf : (⟨S131072x64, .f32⟩ : BufTy).Contents (Elt F) → (⟨S131072x64, .f32⟩ : BufTy).Contents (Elt F) → (⟨S131072x64, .f32⟩ : BufTy).Contents (Elt F)),
    unary main_v26 main_v27 (Host.exp : (⟨S131072x64, .f32⟩ : BufTy).Contents (Elt F) → (⟨S131072x64, .f32⟩ : BufTy).Contents (Elt F)),
    unary main_arg7 main_v28 ((transpose S64x64 [1, 0] · transposes_S64x64_S64x64_1_0) : (⟨S64x64, .f32⟩ : BufTy).Contents (Elt F) → (⟨S64x64, .f32⟩ : BufTy).Contents (Elt F)),
    binary main_v27 main_v28 main_v29 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_arg8 main_v30 (broadcastInDim S1x64 ![1] bcast_S64_S1x64_1 : (⟨S64, .f32⟩ : BufTy).Contents (Elt F) → (⟨S1x64, .f32⟩ : BufTy).Contents (Elt F)),
    unary main_v30 main_v31 (broadcastInDim S131072x64 ![0, 1] bcast_S1x64_S131072x64_0_1 : (⟨S1x64, .f32⟩ : BufTy).Contents (Elt F) → (⟨S131072x64, .f32⟩ : BufTy).Contents (Elt F)),
    binary main_v29 main_v31 main_v32 (addf : (⟨S131072x64, .f32⟩ : BufTy).Contents (Elt F) → (⟨S131072x64, .f32⟩ : BufTy).Contents (Elt F) → (⟨S131072x64, .f32⟩ : BufTy).Contents (Elt F)),
    unary main_v32 main_v33 (Host.sin : (⟨S131072x64, .f32⟩ : BufTy).Contents (Elt F) → (⟨S131072x64, .f32⟩ : BufTy).Contents (Elt F)) ]

/-- 10 operations: node 0. -/
abbrev opsN0 : List (HloOp τ sig (Elt F)) :=
  [ unary main_arg9 main_v34 ((extractStridedSlice S1x64x64 ![0, 0, 0] · slices_S16x64x64_S1x64x64_0_0_0) : (⟨S16x64x64, .f32⟩ : BufTy).Contents (Elt F) → (⟨S1x64x64, .f32⟩ : BufTy).Contents (Elt F)),
    reshape main_v34 main_v35 rfl shapeCasts_S1x64x64_S64x64,
    unary main_v35 main_v36 ((transpose S64x64 [1, 0] · transposes_S64x64_S64x64_1_0) : (⟨S64x64, .f32⟩ : BufTy).Contents (Elt F) → (⟨S64x64, .f32⟩ : BufTy).Contents (Elt F)),
    binary main_v33 main_v36 main_v37 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_arg10 main_v38 ((extractStridedSlice S1x64 ![0, 0] · slices_S16x64_S1x64_0_0) : (⟨S16x64, .f32⟩ : BufTy).Contents (Elt F) → (⟨S1x64, .f32⟩ : BufTy).Contents (Elt F)),
    reshape main_v38 main_v39 rfl shapeCasts_S1x64_S64,
    unary main_v39 main_v40 (broadcastInDim S1x64 ![1] bcast_S64_S1x64_1 : (⟨S64, .f32⟩ : BufTy).Contents (Elt F) → (⟨S1x64, .f32⟩ : BufTy).Contents (Elt F)),
    unary main_v40 main_v41 (broadcastInDim S131072x64 ![0, 1] bcast_S1x64_S131072x64_0_1 : (⟨S1x64, .f32⟩ : BufTy).Contents (Elt F) → (⟨S131072x64, .f32⟩ : BufTy).Contents (Elt F)),
    binary main_v37 main_v41 main_v42 (addf : (⟨S131072x64, .f32⟩ : BufTy).Contents (Elt F) → (⟨S131072x64, .f32⟩ : BufTy).Contents (Elt F) → (⟨S131072x64, .f32⟩ : BufTy).Contents (Elt F)),
    unary main_v42 main_v43 (Host.tanh : (⟨S131072x64, .f32⟩ : BufTy).Contents (Elt F) → (⟨S131072x64, .f32⟩ : BufTy).Contents (Elt F)) ]

/-- 24 operations: node 1. -/
abbrev opsN1 : List (HloOp τ sig (Elt F)) :=
  [ unary main_arg9 main_v44 ((extractStridedSlice S1x64x64 ![1, 0, 0] · slices_S16x64x64_S1x64x64_1_0_0) : (⟨S16x64x64, .f32⟩ : BufTy).Contents (Elt F) → (⟨S1x64x64, .f32⟩ : BufTy).Contents (Elt F)),
    reshape main_v44 main_v45 rfl shapeCasts_S1x64x64_S64x64,
    unary main_v45 main_v46 ((transpose S64x64 [1, 0] · transposes_S64x64_S64x64_1_0) : (⟨S64x64, .f32⟩ : BufTy).Contents (Elt F) → (⟨S64x64, .f32⟩ : BufTy).Contents (Elt F)),
    binary main_v43 main_v46 main_v47 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_arg10 main_v48 ((extractStridedSlice S1x64 ![1, 0] · slices_S16x64_S1x64_1_0) : (⟨S16x64, .f32⟩ : BufTy).Contents (Elt F) → (⟨S1x64, .f32⟩ : BufTy).Contents (Elt F)),
    reshape main_v48 main_v49 rfl shapeCasts_S1x64_S64,
    unary main_v49 main_v50 (broadcastInDim S1x64 ![1] bcast_S64_S1x64_1 : (⟨S64, .f32⟩ : BufTy).Contents (Elt F) → (⟨S1x64, .f32⟩ : BufTy).Contents (Elt F)),
    unary main_v50 main_v51 (broadcastInDim S131072x64 ![0, 1] bcast_S1x64_S131072x64_0_1 : (⟨S1x64, .f32⟩ : BufTy).Contents (Elt F) → (⟨S131072x64, .f32⟩ : BufTy).Contents (Elt F)),
    binary main_v47 main_v51 main_v52 (addf : (⟨S131072x64, .f32⟩ : BufTy).Contents (Elt F) → (⟨S131072x64, .f32⟩ : BufTy).Contents (Elt F) → (⟨S131072x64, .f32⟩ : BufTy).Contents (Elt F)),
    TRef.nullary main_call2.cst (constant S_ .f32 0x00000000#32),
    TRef.unary main_call2.cst main_call2.v0 (broadcastInDim S131072x64 ![] bcast_S_S131072x64),
    TRef.binary (.of main_v52 : TRef sig ⟨S131072x64, .f32⟩) main_call2.v0 main_call2.v1 (cmpf .ogt),
    TRef.nullary main_call2.cst_0 (constant S_ .f32 0x00000000#32),
    TRef.unary main_call2.cst_0 main_call2.v2 (broadcastInDim S131072x64 ![] bcast_S_S131072x64),
    TRef.binary (.of main_v52 : TRef sig ⟨S131072x64, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S131072x64 ![] bcast_S_S131072x64),
    TRef.ternary main_call2.v3 main_call2.call0.v1 (.of main_v52 : TRef sig ⟨S131072x64, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S131072x64 ![] bcast_S_S131072x64),
    TRef.binary main_call2.v6 main_call2.v5 main_call2.v7 mulf,
    TRef.ternary main_call2.v1 (.of main_v52 : TRef sig ⟨S131072x64, .f32⟩) main_call2.v7 main_call2.call1.v0 select ]

/-- 5 operations: node 2 up to its product with gW[2]. -/
abbrev opsN2a : List (HloOp τ sig (Elt F)) :=
  [ binary main_v43 main_v53 main_v54 (addf : (⟨S131072x64, .f32⟩ : BufTy).Contents (Elt F) → (⟨S131072x64, .f32⟩ : BufTy).Contents (Elt F) → (⟨S131072x64, .f32⟩ : BufTy).Contents (Elt F)),
    unary main_arg9 main_v55 ((extractStridedSlice S1x64x64 ![2, 0, 0] · slices_S16x64x64_S1x64x64_2_0_0) : (⟨S16x64x64, .f32⟩ : BufTy).Contents (Elt F) → (⟨S1x64x64, .f32⟩ : BufTy).Contents (Elt F)),
    reshape main_v55 main_v56 rfl shapeCasts_S1x64x64_S64x64,
    unary main_v56 main_v57 ((transpose S64x64 [1, 0] · transposes_S64x64_S64x64_1_0) : (⟨S64x64, .f32⟩ : BufTy).Contents (Elt F) → (⟨S64x64, .f32⟩ : BufTy).Contents (Elt F)),
    binary main_v54 main_v57 main_v58 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)) ]

/-- 19 operations: node 2 from its bias on. -/
abbrev opsN2b : List (HloOp τ sig (Elt F)) :=
  [ unary main_arg10 main_v59 ((extractStridedSlice S1x64 ![2, 0] · slices_S16x64_S1x64_2_0) : (⟨S16x64, .f32⟩ : BufTy).Contents (Elt F) → (⟨S1x64, .f32⟩ : BufTy).Contents (Elt F)),
    reshape main_v59 main_v60 rfl shapeCasts_S1x64_S64,
    unary main_v60 main_v61 (broadcastInDim S1x64 ![1] bcast_S64_S1x64_1 : (⟨S64, .f32⟩ : BufTy).Contents (Elt F) → (⟨S1x64, .f32⟩ : BufTy).Contents (Elt F)),
    unary main_v61 main_v62 (broadcastInDim S131072x64 ![0, 1] bcast_S1x64_S131072x64_0_1 : (⟨S1x64, .f32⟩ : BufTy).Contents (Elt F) → (⟨S131072x64, .f32⟩ : BufTy).Contents (Elt F)),
    binary main_v58 main_v62 main_v63 (addf : (⟨S131072x64, .f32⟩ : BufTy).Contents (Elt F) → (⟨S131072x64, .f32⟩ : BufTy).Contents (Elt F) → (⟨S131072x64, .f32⟩ : BufTy).Contents (Elt F)),
    TRef.nullary main_call3.cst (constant S_ .f32 0x00000000#32),
    TRef.unary main_call3.cst main_call3.v0 (broadcastInDim S131072x64 ![] bcast_S_S131072x64),
    TRef.binary (.of main_v63 : TRef sig ⟨S131072x64, .f32⟩) main_call3.v0 main_call3.v1 maximumf,
    TRef.unary main_call3.cst main_call3.v2 (broadcastInDim S131072x64 ![] bcast_S_S131072x64),
    TRef.binary (.of main_v63 : TRef sig ⟨S131072x64, .f32⟩) main_call3.v2 main_call3.v3 subf,
    TRef.binary main_call3.v3 main_call3.v3 main_call3.v4 (cmpf .une),
    TRef.unary main_call3.cst main_call3.v5 (broadcastInDim S131072x64 ![] bcast_S_S131072x64),
    TRef.binary (.of main_v63 : TRef sig ⟨S131072x64, .f32⟩) main_call3.v5 main_call3.v6 addf,
    TRef.unary main_call3.v3 main_call3.v7 Host.absf,
    TRef.unary main_call3.v7 main_call3.v8 Host.negf,
    TRef.unary main_call3.v8 main_call3.v9 Host.exp,
    TRef.unary main_call3.v9 main_call3.v10 Host.log1p,
    TRef.binary main_call3.v1 main_call3.v10 main_call3.v11 addf,
    TRef.ternary main_call3.v4 main_call3.v6 main_call3.v11 main_call3.v12 select ]

/-- 10 operations: node 3. -/
abbrev opsN3 : List (HloOp τ sig (Elt F)) :=
  [ unary main_arg9 main_v65 ((extractStridedSlice S1x64x64 ![3, 0, 0] · slices_S16x64x64_S1x64x64_3_0_0) : (⟨S16x64x64, .f32⟩ : BufTy).Contents (Elt F) → (⟨S1x64x64, .f32⟩ : BufTy).Contents (Elt F)),
    reshape main_v65 main_v66 rfl shapeCasts_S1x64x64_S64x64,
    unary main_v66 main_v67 ((transpose S64x64 [1, 0] · transposes_S64x64_S64x64_1_0) : (⟨S64x64, .f32⟩ : BufTy).Contents (Elt F) → (⟨S64x64, .f32⟩ : BufTy).Contents (Elt F)),
    binary main_v53 main_v67 main_v68 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_arg10 main_v69 ((extractStridedSlice S1x64 ![3, 0] · slices_S16x64_S1x64_3_0) : (⟨S16x64, .f32⟩ : BufTy).Contents (Elt F) → (⟨S1x64, .f32⟩ : BufTy).Contents (Elt F)),
    reshape main_v69 main_v70 rfl shapeCasts_S1x64_S64,
    unary main_v70 main_v71 (broadcastInDim S1x64 ![1] bcast_S64_S1x64_1 : (⟨S64, .f32⟩ : BufTy).Contents (Elt F) → (⟨S1x64, .f32⟩ : BufTy).Contents (Elt F)),
    unary main_v71 main_v72 (broadcastInDim S131072x64 ![0, 1] bcast_S1x64_S131072x64_0_1 : (⟨S1x64, .f32⟩ : BufTy).Contents (Elt F) → (⟨S131072x64, .f32⟩ : BufTy).Contents (Elt F)),
    binary main_v68 main_v72 main_v73 (addf : (⟨S131072x64, .f32⟩ : BufTy).Contents (Elt F) → (⟨S131072x64, .f32⟩ : BufTy).Contents (Elt F) → (⟨S131072x64, .f32⟩ : BufTy).Contents (Elt F)),
    unary main_v73 main_v74 (Host.sin : (⟨S131072x64, .f32⟩ : BufTy).Contents (Elt F) → (⟨S131072x64, .f32⟩ : BufTy).Contents (Elt F)) ]

/-- 14 operations: node 4. -/
abbrev opsN4 : List (HloOp τ sig (Elt F)) :=
  [ unary main_arg9 main_v75 ((extractStridedSlice S1x64x64 ![4, 0, 0] · slices_S16x64x64_S1x64x64_4_0_0) : (⟨S16x64x64, .f32⟩ : BufTy).Contents (Elt F) → (⟨S1x64x64, .f32⟩ : BufTy).Contents (Elt F)),
    reshape main_v75 main_v76 rfl shapeCasts_S1x64x64_S64x64,
    unary main_v76 main_v77 ((transpose S64x64 [1, 0] · transposes_S64x64_S64x64_1_0) : (⟨S64x64, .f32⟩ : BufTy).Contents (Elt F) → (⟨S64x64, .f32⟩ : BufTy).Contents (Elt F)),
    binary main_v53 main_v77 main_v78 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_arg10 main_v79 ((extractStridedSlice S1x64 ![4, 0] · slices_S16x64_S1x64_4_0) : (⟨S16x64, .f32⟩ : BufTy).Contents (Elt F) → (⟨S1x64, .f32⟩ : BufTy).Contents (Elt F)),
    reshape main_v79 main_v80 rfl shapeCasts_S1x64_S64,
    unary main_v80 main_v81 (broadcastInDim S1x64 ![1] bcast_S64_S1x64_1 : (⟨S64, .f32⟩ : BufTy).Contents (Elt F) → (⟨S1x64, .f32⟩ : BufTy).Contents (Elt F)),
    unary main_v81 main_v82 (broadcastInDim S131072x64 ![0, 1] bcast_S1x64_S131072x64_0_1 : (⟨S1x64, .f32⟩ : BufTy).Contents (Elt F) → (⟨S131072x64, .f32⟩ : BufTy).Contents (Elt F)),
    binary main_v78 main_v82 main_v83 (addf : (⟨S131072x64, .f32⟩ : BufTy).Contents (Elt F) → (⟨S131072x64, .f32⟩ : BufTy).Contents (Elt F) → (⟨S131072x64, .f32⟩ : BufTy).Contents (Elt F)),
    nullary main_cst_0 (constant S_ .f32 0xBF000000#32),
    unary main_cst_0 main_v84 (broadcastInDim S131072x64 ![] bcast_S_S131072x64 : (⟨S_, .f32⟩ : BufTy).Contents (Elt F) → (⟨S131072x64, .f32⟩ : BufTy).Contents (Elt F)),
    binary main_v84 main_v83 main_v85 (mulf : (⟨S131072x64, .f32⟩ : BufTy).Contents (Elt F) → (⟨S131072x64, .f32⟩ : BufTy).Contents (Elt F) → (⟨S131072x64, .f32⟩ : BufTy).Contents (Elt F)),
    binary main_v85 main_v83 main_v86 (mulf : (⟨S131072x64, .f32⟩ : BufTy).Contents (Elt F) → (⟨S131072x64, .f32⟩ : BufTy).Contents (Elt F) → (⟨S131072x64, .f32⟩ : BufTy).Contents (Elt F)),
    unary main_v86 main_v87 (Host.exp : (⟨S131072x64, .f32⟩ : BufTy).Contents (Elt F) → (⟨S131072x64, .f32⟩ : BufTy).Contents (Elt F)) ]

/-- 11 operations: node 5. -/
abbrev opsN5 : List (HloOp τ sig (Elt F)) :=
  [ binary main_v43 main_v87 main_v88 (addf : (⟨S131072x64, .f32⟩ : BufTy).Contents (Elt F) → (⟨S131072x64, .f32⟩ : BufTy).Contents (Elt F) → (⟨S131072x64, .f32⟩ : BufTy).Contents (Elt F)),
    unary main_arg9 main_v89 ((extractStridedSlice S1x64x64 ![5, 0, 0] · slices_S16x64x64_S1x64x64_5_0_0) : (⟨S16x64x64, .f32⟩ : BufTy).Contents (Elt F) → (⟨S1x64x64, .f32⟩ : BufTy).Contents (Elt F)),
    reshape main_v89 main_v90 rfl shapeCasts_S1x64x64_S64x64,
    unary main_v90 main_v91 ((transpose S64x64 [1, 0] · transposes_S64x64_S64x64_1_0) : (⟨S64x64, .f32⟩ : BufTy).Contents (Elt F) → (⟨S64x64, .f32⟩ : BufTy).Contents (Elt F)),
    binary main_v88 main_v91 main_v92 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_arg10 main_v93 ((extractStridedSlice S1x64 ![5, 0] · slices_S16x64_S1x64_5_0) : (⟨S16x64, .f32⟩ : BufTy).Contents (Elt F) → (⟨S1x64, .f32⟩ : BufTy).Contents (Elt F)),
    reshape main_v93 main_v94 rfl shapeCasts_S1x64_S64,
    unary main_v94 main_v95 (broadcastInDim S1x64 ![1] bcast_S64_S1x64_1 : (⟨S64, .f32⟩ : BufTy).Contents (Elt F) → (⟨S1x64, .f32⟩ : BufTy).Contents (Elt F)),
    unary main_v95 main_v96 (broadcastInDim S131072x64 ![0, 1] bcast_S1x64_S131072x64_0_1 : (⟨S1x64, .f32⟩ : BufTy).Contents (Elt F) → (⟨S131072x64, .f32⟩ : BufTy).Contents (Elt F)),
    binary main_v92 main_v96 main_v97 (addf : (⟨S131072x64, .f32⟩ : BufTy).Contents (Elt F) → (⟨S131072x64, .f32⟩ : BufTy).Contents (Elt F) → (⟨S131072x64, .f32⟩ : BufTy).Contents (Elt F)),
    unary main_v97 main_v98 (Host.tanh : (⟨S131072x64, .f32⟩ : BufTy).Contents (Elt F) → (⟨S131072x64, .f32⟩ : BufTy).Contents (Elt F)) ]

/-- 27 operations: node 6. -/
abbrev opsN6 : List (HloOp τ sig (Elt F)) :=
  [ binary main_v43 main_v64 main_v99 (addf : (⟨S131072x64, .f32⟩ : BufTy).Contents (Elt F) → (⟨S131072x64, .f32⟩ : BufTy).Contents (Elt F) → (⟨S131072x64, .f32⟩ : BufTy).Contents (Elt F)),
    binary main_v99 main_v74 main_v100 (addf : (⟨S131072x64, .f32⟩ : BufTy).Contents (Elt F) → (⟨S131072x64, .f32⟩ : BufTy).Contents (Elt F) → (⟨S131072x64, .f32⟩ : BufTy).Contents (Elt F)),
    binary main_v100 main_v98 main_v101 (addf : (⟨S131072x64, .f32⟩ : BufTy).Contents (Elt F) → (⟨S131072x64, .f32⟩ : BufTy).Contents (Elt F) → (⟨S131072x64, .f32⟩ : BufTy).Contents (Elt F)),
    unary main_arg9 main_v102 ((extractStridedSlice S1x64x64 ![6, 0, 0] · slices_S16x64x64_S1x64x64_6_0_0) : (⟨S16x64x64, .f32⟩ : BufTy).Contents (Elt F) → (⟨S1x64x64, .f32⟩ : BufTy).Contents (Elt F)),
    reshape main_v102 main_v103 rfl shapeCasts_S1x64x64_S64x64,
    unary main_v103 main_v104 ((transpose S64x64 [1, 0] · transposes_S64x64_S64x64_1_0) : (⟨S64x64, .f32⟩ : BufTy).Contents (Elt F) → (⟨S64x64, .f32⟩ : BufTy).Contents (Elt F)),
    binary main_v101 main_v104 main_v105 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_arg10 main_v106 ((extractStridedSlice S1x64 ![6, 0] · slices_S16x64_S1x64_6_0) : (⟨S16x64, .f32⟩ : BufTy).Contents (Elt F) → (⟨S1x64, .f32⟩ : BufTy).Contents (Elt F)),
    reshape main_v106 main_v107 rfl shapeCasts_S1x64_S64,
    unary main_v107 main_v108 (broadcastInDim S1x64 ![1] bcast_S64_S1x64_1 : (⟨S64, .f32⟩ : BufTy).Contents (Elt F) → (⟨S1x64, .f32⟩ : BufTy).Contents (Elt F)),
    unary main_v108 main_v109 (broadcastInDim S131072x64 ![0, 1] bcast_S1x64_S131072x64_0_1 : (⟨S1x64, .f32⟩ : BufTy).Contents (Elt F) → (⟨S131072x64, .f32⟩ : BufTy).Contents (Elt F)),
    binary main_v105 main_v109 main_v110 (addf : (⟨S131072x64, .f32⟩ : BufTy).Contents (Elt F) → (⟨S131072x64, .f32⟩ : BufTy).Contents (Elt F) → (⟨S131072x64, .f32⟩ : BufTy).Contents (Elt F)),
    TRef.nullary main_call4.cst (constant S_ .f32 0x00000000#32),
    TRef.unary main_call4.cst main_call4.v0 (broadcastInDim S131072x64 ![] bcast_S_S131072x64),
    TRef.binary (.of main_v110 : TRef sig ⟨S131072x64, .f32⟩) main_call4.v0 main_call4.v1 (cmpf .ogt),
    TRef.nullary main_call4.cst_0 (constant S_ .f32 0x00000000#32),
    TRef.unary main_call4.cst_0 main_call4.v2 (broadcastInDim S131072x64 ![] bcast_S_S131072x64),
    TRef.binary (.of main_v110 : TRef sig ⟨S131072x64, .f32⟩) main_call4.v2 main_call4.v3 (cmpf .ogt),
    TRef.nullary main_call4.cst_1 (constant S_ .f32 0x00000000#32),
    TRef.unary main_call4.cst_1 main_call4.call0.v0 id,
    TRef.unary main_call4.call0.v0 main_call4.call0.v1 (broadcastInDim S131072x64 ![] bcast_S_S131072x64),
    TRef.ternary main_call4.v3 main_call4.call0.v1 (.of main_v110 : TRef sig ⟨S131072x64, .f32⟩) main_call4.call0.v2 select,
    TRef.unary main_call4.call0.v2 main_call4.v5 Host.expm1,
    TRef.nullary main_call4.cst_2 (constant S_ .f32 0x3F800000#32),
    TRef.unary main_call4.cst_2 main_call4.v6 (broadcastInDim S131072x64 ![] bcast_S_S131072x64),
    TRef.binary main_call4.v6 main_call4.v5 main_call4.v7 mulf,
    TRef.ternary main_call4.v1 (.of main_v110 : TRef sig ⟨S131072x64, .f32⟩) main_call4.v7 main_call4.call1.v0 select ]

/-- 6 operations: node 7 up to its bias row. -/
abbrev opsN7a : List (HloOp τ sig (Elt F)) :=
  [ unary main_arg9 main_v112 ((extractStridedSlice S1x64x64 ![7, 0, 0] · slices_S16x64x64_S1x64x64_7_0_0) : (⟨S16x64x64, .f32⟩ : BufTy).Contents (Elt F) → (⟨S1x64x64, .f32⟩ : BufTy).Contents (Elt F)),
    reshape main_v112 main_v113 rfl shapeCasts_S1x64x64_S64x64,
    unary main_v113 main_v114 ((transpose S64x64 [1, 0] · transposes_S64x64_S64x64_1_0) : (⟨S64x64, .f32⟩ : BufTy).Contents (Elt F) → (⟨S64x64, .f32⟩ : BufTy).Contents (Elt F)),
    binary main_v53 main_v114 main_v115 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_arg10 main_v116 ((extractStridedSlice S1x64 ![7, 0] · slices_S16x64_S1x64_7_0) : (⟨S16x64, .f32⟩ : BufTy).Contents (Elt F) → (⟨S1x64, .f32⟩ : BufTy).Contents (Elt F)),
    reshape main_v116 main_v117 rfl shapeCasts_S1x64_S64 ]

/-- 17 operations: node 7 from its bias on. -/
abbrev opsN7b : List (HloOp τ sig (Elt F)) :=
  [ unary main_v117 main_v118 (broadcastInDim S1x64 ![1] bcast_S64_S1x64_1 : (⟨S64, .f32⟩ : BufTy).Contents (Elt F) → (⟨S1x64, .f32⟩ : BufTy).Contents (Elt F)),
    unary main_v118 main_v119 (broadcastInDim S131072x64 ![0, 1] bcast_S1x64_S131072x64_0_1 : (⟨S1x64, .f32⟩ : BufTy).Contents (Elt F) → (⟨S131072x64, .f32⟩ : BufTy).Contents (Elt F)),
    binary main_v115 main_v119 main_v120 (addf : (⟨S131072x64, .f32⟩ : BufTy).Contents (Elt F) → (⟨S131072x64, .f32⟩ : BufTy).Contents (Elt F) → (⟨S131072x64, .f32⟩ : BufTy).Contents (Elt F)),
    TRef.nullary main_call5.cst (constant S_ .f32 0x00000000#32),
    TRef.unary main_call5.cst main_call5.v0 (broadcastInDim S131072x64 ![] bcast_S_S131072x64),
    TRef.binary (.of main_v120 : TRef sig ⟨S131072x64, .f32⟩) main_call5.v0 main_call5.v1 maximumf,
    TRef.unary main_call5.cst main_call5.v2 (broadcastInDim S131072x64 ![] bcast_S_S131072x64),
    TRef.binary (.of main_v120 : TRef sig ⟨S131072x64, .f32⟩) main_call5.v2 main_call5.v3 subf,
    TRef.binary main_call5.v3 main_call5.v3 main_call5.v4 (cmpf .une),
    TRef.unary main_call5.cst main_call5.v5 (broadcastInDim S131072x64 ![] bcast_S_S131072x64),
    TRef.binary (.of main_v120 : TRef sig ⟨S131072x64, .f32⟩) main_call5.v5 main_call5.v6 addf,
    TRef.unary main_call5.v3 main_call5.v7 Host.absf,
    TRef.unary main_call5.v7 main_call5.v8 Host.negf,
    TRef.unary main_call5.v8 main_call5.v9 Host.exp,
    TRef.unary main_call5.v9 main_call5.v10 Host.log1p,
    TRef.binary main_call5.v1 main_call5.v10 main_call5.v11 addf,
    TRef.ternary main_call5.v4 main_call5.v6 main_call5.v11 main_call5.v12 select ]

/-- 11 operations: node 8. -/
abbrev opsN8 : List (HloOp τ sig (Elt F)) :=
  [ binary main_v111 main_v121 main_v122 (addf : (⟨S131072x64, .f32⟩ : BufTy).Contents (Elt F) → (⟨S131072x64, .f32⟩ : BufTy).Contents (Elt F) → (⟨S131072x64, .f32⟩ : BufTy).Contents (Elt F)),
    unary main_arg9 main_v123 ((extractStridedSlice S1x64x64 ![8, 0, 0] · slices_S16x64x64_S1x64x64_8_0_0) : (⟨S16x64x64, .f32⟩ : BufTy).Contents (Elt F) → (⟨S1x64x64, .f32⟩ : BufTy).Contents (Elt F)),
    reshape main_v123 main_v124 rfl shapeCasts_S1x64x64_S64x64,
    unary main_v124 main_v125 ((transpose S64x64 [1, 0] · transposes_S64x64_S64x64_1_0) : (⟨S64x64, .f32⟩ : BufTy).Contents (Elt F) → (⟨S64x64, .f32⟩ : BufTy).Contents (Elt F)),
    binary main_v122 main_v125 main_v126 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_arg10 main_v127 ((extractStridedSlice S1x64 ![8, 0] · slices_S16x64_S1x64_8_0) : (⟨S16x64, .f32⟩ : BufTy).Contents (Elt F) → (⟨S1x64, .f32⟩ : BufTy).Contents (Elt F)),
    reshape main_v127 main_v128 rfl shapeCasts_S1x64_S64,
    unary main_v128 main_v129 (broadcastInDim S1x64 ![1] bcast_S64_S1x64_1 : (⟨S64, .f32⟩ : BufTy).Contents (Elt F) → (⟨S1x64, .f32⟩ : BufTy).Contents (Elt F)),
    unary main_v129 main_v130 (broadcastInDim S131072x64 ![0, 1] bcast_S1x64_S131072x64_0_1 : (⟨S1x64, .f32⟩ : BufTy).Contents (Elt F) → (⟨S131072x64, .f32⟩ : BufTy).Contents (Elt F)),
    binary main_v126 main_v130 main_v131 (addf : (⟨S131072x64, .f32⟩ : BufTy).Contents (Elt F) → (⟨S131072x64, .f32⟩ : BufTy).Contents (Elt F) → (⟨S131072x64, .f32⟩ : BufTy).Contents (Elt F)),
    unary main_v131 main_v132 (Host.sin : (⟨S131072x64, .f32⟩ : BufTy).Contents (Elt F) → (⟨S131072x64, .f32⟩ : BufTy).Contents (Elt F)) ]

/-- 17 operations: node 9. -/
abbrev opsN9 : List (HloOp τ sig (Elt F)) :=
  [ binary main_v74 main_v98 main_v133 (addf : (⟨S131072x64, .f32⟩ : BufTy).Contents (Elt F) → (⟨S131072x64, .f32⟩ : BufTy).Contents (Elt F) → (⟨S131072x64, .f32⟩ : BufTy).Contents (Elt F)),
    binary main_v133 main_v121 main_v134 (addf : (⟨S131072x64, .f32⟩ : BufTy).Contents (Elt F) → (⟨S131072x64, .f32⟩ : BufTy).Contents (Elt F) → (⟨S131072x64, .f32⟩ : BufTy).Contents (Elt F)),
    binary main_v134 main_v132 main_v135 (addf : (⟨S131072x64, .f32⟩ : BufTy).Contents (Elt F) → (⟨S131072x64, .f32⟩ : BufTy).Contents (Elt F) → (⟨S131072x64, .f32⟩ : BufTy).Contents (Elt F)),
    unary main_arg9 main_v136 ((extractStridedSlice S1x64x64 ![9, 0, 0] · slices_S16x64x64_S1x64x64_9_0_0) : (⟨S16x64x64, .f32⟩ : BufTy).Contents (Elt F) → (⟨S1x64x64, .f32⟩ : BufTy).Contents (Elt F)),
    reshape main_v136 main_v137 rfl shapeCasts_S1x64x64_S64x64,
    unary main_v137 main_v138 ((transpose S64x64 [1, 0] · transposes_S64x64_S64x64_1_0) : (⟨S64x64, .f32⟩ : BufTy).Contents (Elt F) → (⟨S64x64, .f32⟩ : BufTy).Contents (Elt F)),
    binary main_v135 main_v138 main_v139 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_arg10 main_v140 ((extractStridedSlice S1x64 ![9, 0] · slices_S16x64_S1x64_9_0) : (⟨S16x64, .f32⟩ : BufTy).Contents (Elt F) → (⟨S1x64, .f32⟩ : BufTy).Contents (Elt F)),
    reshape main_v140 main_v141 rfl shapeCasts_S1x64_S64,
    unary main_v141 main_v142 (broadcastInDim S1x64 ![1] bcast_S64_S1x64_1 : (⟨S64, .f32⟩ : BufTy).Contents (Elt F) → (⟨S1x64, .f32⟩ : BufTy).Contents (Elt F)),
    unary main_v142 main_v143 (broadcastInDim S131072x64 ![0, 1] bcast_S1x64_S131072x64_0_1 : (⟨S1x64, .f32⟩ : BufTy).Contents (Elt F) → (⟨S131072x64, .f32⟩ : BufTy).Contents (Elt F)),
    binary main_v139 main_v143 main_v144 (addf : (⟨S131072x64, .f32⟩ : BufTy).Contents (Elt F) → (⟨S131072x64, .f32⟩ : BufTy).Contents (Elt F) → (⟨S131072x64, .f32⟩ : BufTy).Contents (Elt F)),
    nullary main_cst_1 (constant S_ .f32 0xBF000000#32),
    unary main_cst_1 main_v145 (broadcastInDim S131072x64 ![] bcast_S_S131072x64 : (⟨S_, .f32⟩ : BufTy).Contents (Elt F) → (⟨S131072x64, .f32⟩ : BufTy).Contents (Elt F)),
    binary main_v145 main_v144 main_v146 (mulf : (⟨S131072x64, .f32⟩ : BufTy).Contents (Elt F) → (⟨S131072x64, .f32⟩ : BufTy).Contents (Elt F) → (⟨S131072x64, .f32⟩ : BufTy).Contents (Elt F)),
    binary main_v146 main_v144 main_v147 (mulf : (⟨S131072x64, .f32⟩ : BufTy).Contents (Elt F) → (⟨S131072x64, .f32⟩ : BufTy).Contents (Elt F) → (⟨S131072x64, .f32⟩ : BufTy).Contents (Elt F)),
    unary main_v147 main_v148 (Host.exp : (⟨S131072x64, .f32⟩ : BufTy).Contents (Elt F) → (⟨S131072x64, .f32⟩ : BufTy).Contents (Elt F)) ]

/-- 12 operations: node 10. -/
abbrev opsN10 : List (HloOp τ sig (Elt F)) :=
  [ binary main_v43 main_v132 main_v149 (addf : (⟨S131072x64, .f32⟩ : BufTy).Contents (Elt F) → (⟨S131072x64, .f32⟩ : BufTy).Contents (Elt F) → (⟨S131072x64, .f32⟩ : BufTy).Contents (Elt F)),
    binary main_v149 main_v148 main_v150 (addf : (⟨S131072x64, .f32⟩ : BufTy).Contents (Elt F) → (⟨S131072x64, .f32⟩ : BufTy).Contents (Elt F) → (⟨S131072x64, .f32⟩ : BufTy).Contents (Elt F)),
    unary main_arg9 main_v151 ((extractStridedSlice S1x64x64 ![10, 0, 0] · slices_S16x64x64_S1x64x64_10_0_0) : (⟨S16x64x64, .f32⟩ : BufTy).Contents (Elt F) → (⟨S1x64x64, .f32⟩ : BufTy).Contents (Elt F)),
    reshape main_v151 main_v152 rfl shapeCasts_S1x64x64_S64x64,
    unary main_v152 main_v153 ((transpose S64x64 [1, 0] · transposes_S64x64_S64x64_1_0) : (⟨S64x64, .f32⟩ : BufTy).Contents (Elt F) → (⟨S64x64, .f32⟩ : BufTy).Contents (Elt F)),
    binary main_v150 main_v153 main_v154 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_arg10 main_v155 ((extractStridedSlice S1x64 ![10, 0] · slices_S16x64_S1x64_10_0) : (⟨S16x64, .f32⟩ : BufTy).Contents (Elt F) → (⟨S1x64, .f32⟩ : BufTy).Contents (Elt F)),
    reshape main_v155 main_v156 rfl shapeCasts_S1x64_S64,
    unary main_v156 main_v157 (broadcastInDim S1x64 ![1] bcast_S64_S1x64_1 : (⟨S64, .f32⟩ : BufTy).Contents (Elt F) → (⟨S1x64, .f32⟩ : BufTy).Contents (Elt F)),
    unary main_v157 main_v158 (broadcastInDim S131072x64 ![0, 1] bcast_S1x64_S131072x64_0_1 : (⟨S1x64, .f32⟩ : BufTy).Contents (Elt F) → (⟨S131072x64, .f32⟩ : BufTy).Contents (Elt F)),
    binary main_v154 main_v158 main_v159 (addf : (⟨S131072x64, .f32⟩ : BufTy).Contents (Elt F) → (⟨S131072x64, .f32⟩ : BufTy).Contents (Elt F) → (⟨S131072x64, .f32⟩ : BufTy).Contents (Elt F)),
    unary main_v159 main_v160 (Host.tanh : (⟨S131072x64, .f32⟩ : BufTy).Contents (Elt F) → (⟨S131072x64, .f32⟩ : BufTy).Contents (Elt F)) ]

/-- 24 operations: node 11. -/
abbrev opsN11 : List (HloOp τ sig (Elt F)) :=
  [ unary main_arg9 main_v161 ((extractStridedSlice S1x64x64 ![11, 0, 0] · slices_S16x64x64_S1x64x64_11_0_0) : (⟨S16x64x64, .f32⟩ : BufTy).Contents (Elt F) → (⟨S1x64x64, .f32⟩ : BufTy).Contents (Elt F)),
    reshape main_v161 main_v162 rfl shapeCasts_S1x64x64_S64x64,
    unary main_v162 main_v163 ((transpose S64x64 [1, 0] · transposes_S64x64_S64x64_1_0) : (⟨S64x64, .f32⟩ : BufTy).Contents (Elt F) → (⟨S64x64, .f32⟩ : BufTy).Contents (Elt F)),
    binary main_v87 main_v163 main_v164 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_arg10 main_v165 ((extractStridedSlice S1x64 ![11, 0] · slices_S16x64_S1x64_11_0) : (⟨S16x64, .f32⟩ : BufTy).Contents (Elt F) → (⟨S1x64, .f32⟩ : BufTy).Contents (Elt F)),
    reshape main_v165 main_v166 rfl shapeCasts_S1x64_S64,
    unary main_v166 main_v167 (broadcastInDim S1x64 ![1] bcast_S64_S1x64_1 : (⟨S64, .f32⟩ : BufTy).Contents (Elt F) → (⟨S1x64, .f32⟩ : BufTy).Contents (Elt F)),
    unary main_v167 main_v168 (broadcastInDim S131072x64 ![0, 1] bcast_S1x64_S131072x64_0_1 : (⟨S1x64, .f32⟩ : BufTy).Contents (Elt F) → (⟨S131072x64, .f32⟩ : BufTy).Contents (Elt F)),
    binary main_v164 main_v168 main_v169 (addf : (⟨S131072x64, .f32⟩ : BufTy).Contents (Elt F) → (⟨S131072x64, .f32⟩ : BufTy).Contents (Elt F) → (⟨S131072x64, .f32⟩ : BufTy).Contents (Elt F)),
    TRef.nullary main_call6.cst (constant S_ .f32 0x00000000#32),
    TRef.unary main_call6.cst main_call6.v0 (broadcastInDim S131072x64 ![] bcast_S_S131072x64),
    TRef.binary (.of main_v169 : TRef sig ⟨S131072x64, .f32⟩) main_call6.v0 main_call6.v1 (cmpf .ogt),
    TRef.nullary main_call6.cst_0 (constant S_ .f32 0x00000000#32),
    TRef.unary main_call6.cst_0 main_call6.v2 (broadcastInDim S131072x64 ![] bcast_S_S131072x64),
    TRef.binary (.of main_v169 : TRef sig ⟨S131072x64, .f32⟩) main_call6.v2 main_call6.v3 (cmpf .ogt),
    TRef.nullary main_call6.cst_1 (constant S_ .f32 0x00000000#32),
    TRef.unary main_call6.cst_1 main_call6.call0.v0 id,
    TRef.unary main_call6.call0.v0 main_call6.call0.v1 (broadcastInDim S131072x64 ![] bcast_S_S131072x64),
    TRef.ternary main_call6.v3 main_call6.call0.v1 (.of main_v169 : TRef sig ⟨S131072x64, .f32⟩) main_call6.call0.v2 select,
    TRef.unary main_call6.call0.v2 main_call6.v5 Host.expm1,
    TRef.nullary main_call6.cst_2 (constant S_ .f32 0x3F800000#32),
    TRef.unary main_call6.cst_2 main_call6.v6 (broadcastInDim S131072x64 ![] bcast_S_S131072x64),
    TRef.binary main_call6.v6 main_call6.v5 main_call6.v7 mulf,
    TRef.ternary main_call6.v1 (.of main_v169 : TRef sig ⟨S131072x64, .f32⟩) main_call6.v7 main_call6.call1.v0 select ]

/-- 6 operations: node 12 up to its bias slice. -/
abbrev opsN12a : List (HloOp τ sig (Elt F)) :=
  [ binary main_v64 main_v74 main_v171 (addf : (⟨S131072x64, .f32⟩ : BufTy).Contents (Elt F) → (⟨S131072x64, .f32⟩ : BufTy).Contents (Elt F) → (⟨S131072x64, .f32⟩ : BufTy).Contents (Elt F)),
    unary main_arg9 main_v172 ((extractStridedSlice S1x64x64 ![12, 0, 0] · slices_S16x64x64_S1x64x64_12_0_0) : (⟨S16x64x64, .f32⟩ : BufTy).Contents (Elt F) → (⟨S1x64x64, .f32⟩ : BufTy).Contents (Elt F)),
    reshape main_v172 main_v173 rfl shapeCasts_S1x64x64_S64x64,
    unary main_v173 main_v174 ((transpose S64x64 [1, 0] · transposes_S64x64_S64x64_1_0) : (⟨S64x64, .f32⟩ : BufTy).Contents (Elt F) → (⟨S64x64, .f32⟩ : BufTy).Contents (Elt F)),
    binary main_v171 main_v174 main_v175 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_arg10 main_v176 ((extractStridedSlice S1x64 ![12, 0] · slices_S16x64_S1x64_12_0) : (⟨S16x64, .f32⟩ : BufTy).Contents (Elt F) → (⟨S1x64, .f32⟩ : BufTy).Contents (Elt F)) ]

/-- 18 operations: node 12 from its bias on. -/
abbrev opsN12b : List (HloOp τ sig (Elt F)) :=
  [ reshape main_v176 main_v177 rfl shapeCasts_S1x64_S64,
    unary main_v177 main_v178 (broadcastInDim S1x64 ![1] bcast_S64_S1x64_1 : (⟨S64, .f32⟩ : BufTy).Contents (Elt F) → (⟨S1x64, .f32⟩ : BufTy).Contents (Elt F)),
    unary main_v178 main_v179 (broadcastInDim S131072x64 ![0, 1] bcast_S1x64_S131072x64_0_1 : (⟨S1x64, .f32⟩ : BufTy).Contents (Elt F) → (⟨S131072x64, .f32⟩ : BufTy).Contents (Elt F)),
    binary main_v175 main_v179 main_v180 (addf : (⟨S131072x64, .f32⟩ : BufTy).Contents (Elt F) → (⟨S131072x64, .f32⟩ : BufTy).Contents (Elt F) → (⟨S131072x64, .f32⟩ : BufTy).Contents (Elt F)),
    TRef.nullary main_call7.cst (constant S_ .f32 0x00000000#32),
    TRef.unary main_call7.cst main_call7.v0 (broadcastInDim S131072x64 ![] bcast_S_S131072x64),
    TRef.binary (.of main_v180 : TRef sig ⟨S131072x64, .f32⟩) main_call7.v0 main_call7.v1 maximumf,
    TRef.unary main_call7.cst main_call7.v2 (broadcastInDim S131072x64 ![] bcast_S_S131072x64),
    TRef.binary (.of main_v180 : TRef sig ⟨S131072x64, .f32⟩) main_call7.v2 main_call7.v3 subf,
    TRef.binary main_call7.v3 main_call7.v3 main_call7.v4 (cmpf .une),
    TRef.unary main_call7.cst main_call7.v5 (broadcastInDim S131072x64 ![] bcast_S_S131072x64),
    TRef.binary (.of main_v180 : TRef sig ⟨S131072x64, .f32⟩) main_call7.v5 main_call7.v6 addf,
    TRef.unary main_call7.v3 main_call7.v7 Host.absf,
    TRef.unary main_call7.v7 main_call7.v8 Host.negf,
    TRef.unary main_call7.v8 main_call7.v9 Host.exp,
    TRef.unary main_call7.v9 main_call7.v10 Host.log1p,
    TRef.binary main_call7.v1 main_call7.v10 main_call7.v11 addf,
    TRef.ternary main_call7.v4 main_call7.v6 main_call7.v11 main_call7.v12 select ]

/-- 12 operations: node 13. -/
abbrev opsN13 : List (HloOp τ sig (Elt F)) :=
  [ binary main_v87 main_v111 main_v182 (addf : (⟨S131072x64, .f32⟩ : BufTy).Contents (Elt F) → (⟨S131072x64, .f32⟩ : BufTy).Contents (Elt F) → (⟨S131072x64, .f32⟩ : BufTy).Contents (Elt F)),
    binary main_v182 main_v181 main_v183 (addf : (⟨S131072x64, .f32⟩ : BufTy).Contents (Elt F) → (⟨S131072x64, .f32⟩ : BufTy).Contents (Elt F) → (⟨S131072x64, .f32⟩ : BufTy).Contents (Elt F)),
    unary main_arg9 main_v184 ((extractStridedSlice S1x64x64 ![13, 0, 0] · slices_S16x64x64_S1x64x64_13_0_0) : (⟨S16x64x64, .f32⟩ : BufTy).Contents (Elt F) → (⟨S1x64x64, .f32⟩ : BufTy).Contents (Elt F)),
    reshape main_v184 main_v185 rfl shapeCasts_S1x64x64_S64x64,
    unary main_v185 main_v186 ((transpose S64x64 [1, 0] · transposes_S64x64_S64x64_1_0) : (⟨S64x64, .f32⟩ : BufTy).Contents (Elt F) → (⟨S64x64, .f32⟩ : BufTy).Contents (Elt F)),
    binary main_v183 main_v186 main_v187 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_arg10 main_v188 ((extractStridedSlice S1x64 ![13, 0] · slices_S16x64_S1x64_13_0) : (⟨S16x64, .f32⟩ : BufTy).Contents (Elt F) → (⟨S1x64, .f32⟩ : BufTy).Contents (Elt F)),
    reshape main_v188 main_v189 rfl shapeCasts_S1x64_S64,
    unary main_v189 main_v190 (broadcastInDim S1x64 ![1] bcast_S64_S1x64_1 : (⟨S64, .f32⟩ : BufTy).Contents (Elt F) → (⟨S1x64, .f32⟩ : BufTy).Contents (Elt F)),
    unary main_v190 main_v191 (broadcastInDim S131072x64 ![0, 1] bcast_S1x64_S131072x64_0_1 : (⟨S1x64, .f32⟩ : BufTy).Contents (Elt F) → (⟨S131072x64, .f32⟩ : BufTy).Contents (Elt F)),
    binary main_v187 main_v191 main_v192 (addf : (⟨S131072x64, .f32⟩ : BufTy).Contents (Elt F) → (⟨S131072x64, .f32⟩ : BufTy).Contents (Elt F) → (⟨S131072x64, .f32⟩ : BufTy).Contents (Elt F)),
    unary main_v192 main_v193 (Host.sin : (⟨S131072x64, .f32⟩ : BufTy).Contents (Elt F) → (⟨S131072x64, .f32⟩ : BufTy).Contents (Elt F)) ]

/-- 16 operations: node 14. -/
abbrev opsN14 : List (HloOp τ sig (Elt F)) :=
  [ binary main_v43 main_v53 main_v194 (addf : (⟨S131072x64, .f32⟩ : BufTy).Contents (Elt F) → (⟨S131072x64, .f32⟩ : BufTy).Contents (Elt F) → (⟨S131072x64, .f32⟩ : BufTy).Contents (Elt F)),
    binary main_v194 main_v170 main_v195 (addf : (⟨S131072x64, .f32⟩ : BufTy).Contents (Elt F) → (⟨S131072x64, .f32⟩ : BufTy).Contents (Elt F) → (⟨S131072x64, .f32⟩ : BufTy).Contents (Elt F)),
    unary main_arg9 main_v196 ((extractStridedSlice S1x64x64 ![14, 0, 0] · slices_S16x64x64_S1x64x64_14_0_0) : (⟨S16x64x64, .f32⟩ : BufTy).Contents (Elt F) → (⟨S1x64x64, .f32⟩ : BufTy).Contents (Elt F)),
    reshape main_v196 main_v197 rfl shapeCasts_S1x64x64_S64x64,
    unary main_v197 main_v198 ((transpose S64x64 [1, 0] · transposes_S64x64_S64x64_1_0) : (⟨S64x64, .f32⟩ : BufTy).Contents (Elt F) → (⟨S64x64, .f32⟩ : BufTy).Contents (Elt F)),
    binary main_v195 main_v198 main_v199 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_arg10 main_v200 ((extractStridedSlice S1x64 ![14, 0] · slices_S16x64_S1x64_14_0) : (⟨S16x64, .f32⟩ : BufTy).Contents (Elt F) → (⟨S1x64, .f32⟩ : BufTy).Contents (Elt F)),
    reshape main_v200 main_v201 rfl shapeCasts_S1x64_S64,
    unary main_v201 main_v202 (broadcastInDim S1x64 ![1] bcast_S64_S1x64_1 : (⟨S64, .f32⟩ : BufTy).Contents (Elt F) → (⟨S1x64, .f32⟩ : BufTy).Contents (Elt F)),
    unary main_v202 main_v203 (broadcastInDim S131072x64 ![0, 1] bcast_S1x64_S131072x64_0_1 : (⟨S1x64, .f32⟩ : BufTy).Contents (Elt F) → (⟨S131072x64, .f32⟩ : BufTy).Contents (Elt F)),
    binary main_v199 main_v203 main_v204 (addf : (⟨S131072x64, .f32⟩ : BufTy).Contents (Elt F) → (⟨S131072x64, .f32⟩ : BufTy).Contents (Elt F) → (⟨S131072x64, .f32⟩ : BufTy).Contents (Elt F)),
    nullary main_cst_2 (constant S_ .f32 0xBF000000#32),
    unary main_cst_2 main_v205 (broadcastInDim S131072x64 ![] bcast_S_S131072x64 : (⟨S_, .f32⟩ : BufTy).Contents (Elt F) → (⟨S131072x64, .f32⟩ : BufTy).Contents (Elt F)),
    binary main_v205 main_v204 main_v206 (mulf : (⟨S131072x64, .f32⟩ : BufTy).Contents (Elt F) → (⟨S131072x64, .f32⟩ : BufTy).Contents (Elt F) → (⟨S131072x64, .f32⟩ : BufTy).Contents (Elt F)),
    binary main_v206 main_v204 main_v207 (mulf : (⟨S131072x64, .f32⟩ : BufTy).Contents (Elt F) → (⟨S131072x64, .f32⟩ : BufTy).Contents (Elt F) → (⟨S131072x64, .f32⟩ : BufTy).Contents (Elt F)),
    unary main_v207 main_v208 (Host.exp : (⟨S131072x64, .f32⟩ : BufTy).Contents (Elt F) → (⟨S131072x64, .f32⟩ : BufTy).Contents (Elt F)) ]

/-- 11 operations: node 15. -/
abbrev opsN15 : List (HloOp τ sig (Elt F)) :=
  [ binary main_v53 main_v160 main_v209 (addf : (⟨S131072x64, .f32⟩ : BufTy).Contents (Elt F) → (⟨S131072x64, .f32⟩ : BufTy).Contents (Elt F) → (⟨S131072x64, .f32⟩ : BufTy).Contents (Elt F)),
    unary main_arg9 main_v210 ((extractStridedSlice S1x64x64 ![15, 0, 0] · slices_S16x64x64_S1x64x64_15_0_0) : (⟨S16x64x64, .f32⟩ : BufTy).Contents (Elt F) → (⟨S1x64x64, .f32⟩ : BufTy).Contents (Elt F)),
    reshape main_v210 main_v211 rfl shapeCasts_S1x64x64_S64x64,
    unary main_v211 main_v212 ((transpose S64x64 [1, 0] · transposes_S64x64_S64x64_1_0) : (⟨S64x64, .f32⟩ : BufTy).Contents (Elt F) → (⟨S64x64, .f32⟩ : BufTy).Contents (Elt F)),
    binary main_v209 main_v212 main_v213 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_arg10 main_v214 ((extractStridedSlice S1x64 ![15, 0] · slices_S16x64_S1x64_15_0) : (⟨S16x64, .f32⟩ : BufTy).Contents (Elt F) → (⟨S1x64, .f32⟩ : BufTy).Contents (Elt F)),
    reshape main_v214 main_v215 rfl shapeCasts_S1x64_S64,
    unary main_v215 main_v216 (broadcastInDim S1x64 ![1] bcast_S64_S1x64_1 : (⟨S64, .f32⟩ : BufTy).Contents (Elt F) → (⟨S1x64, .f32⟩ : BufTy).Contents (Elt F)),
    unary main_v216 main_v217 (broadcastInDim S131072x64 ![0, 1] bcast_S1x64_S131072x64_0_1 : (⟨S1x64, .f32⟩ : BufTy).Contents (Elt F) → (⟨S131072x64, .f32⟩ : BufTy).Contents (Elt F)),
    binary main_v213 main_v217 main_v218 (addf : (⟨S131072x64, .f32⟩ : BufTy).Contents (Elt F) → (⟨S131072x64, .f32⟩ : BufTy).Contents (Elt F) → (⟨S131072x64, .f32⟩ : BufTy).Contents (Elt F)),
    unary main_v218 main_v219 (Host.tanh : (⟨S131072x64, .f32⟩ : BufTy).Contents (Elt F) → (⟨S131072x64, .f32⟩ : BufTy).Contents (Elt F)) ]

/-- 16 operations: the sinks' sum, the output layer, the scale and the logistic function's denominator. -/
abbrev opsOutA : List (HloOp τ sig (Elt F)) :=
  [ binary main_v193 main_v208 main_v220 (addf : (⟨S131072x64, .f32⟩ : BufTy).Contents (Elt F) → (⟨S131072x64, .f32⟩ : BufTy).Contents (Elt F) → (⟨S131072x64, .f32⟩ : BufTy).Contents (Elt F)),
    binary main_v220 main_v219 main_v221 (addf : (⟨S131072x64, .f32⟩ : BufTy).Contents (Elt F) → (⟨S131072x64, .f32⟩ : BufTy).Contents (Elt F) → (⟨S131072x64, .f32⟩ : BufTy).Contents (Elt F)),
    unary main_arg11 main_v222 ((transpose S64x3 [1, 0] · transposes_S3x64_S64x3_1_0) : (⟨S3x64, .f32⟩ : BufTy).Contents (Elt F) → (⟨S64x3, .f32⟩ : BufTy).Contents (Elt F)),
    binary main_v221 main_v222 main_v223 ((fun l r => Host.dotGeneral dot_S131072x64_S64x3_S131072x3_1_0_0_1_n_n none l r) : (⟨S131072x64, .f32⟩ : BufTy).Contents (Elt F) → (⟨S64x3, .f32⟩ : BufTy).Contents (Elt F) → (⟨S131072x3, .f32⟩ : BufTy).Contents (Elt F)),
    unary main_arg12 main_v224 (broadcastInDim S1x3 ![1] bcast_S3_S1x3_1 : (⟨S3, .f32⟩ : BufTy).Contents (Elt F) → (⟨S1x3, .f32⟩ : BufTy).Contents (Elt F)),
    unary main_v224 main_v225 (broadcastInDim S131072x3 ![0, 1] bcast_S1x3_S131072x3_0_1 : (⟨S1x3, .f32⟩ : BufTy).Contents (Elt F) → (⟨S131072x3, .f32⟩ : BufTy).Contents (Elt F)),
    binary main_v223 main_v225 main_v226 (addf : (⟨S131072x3, .f32⟩ : BufTy).Contents (Elt F) → (⟨S131072x3, .f32⟩ : BufTy).Contents (Elt F) → (⟨S131072x3, .f32⟩ : BufTy).Contents (Elt F)),
    unary main_arg13 main_v227 (broadcastInDim S1x1 ![1] bcast_S1_S1x1_1 : (⟨S1, .f32⟩ : BufTy).Contents (Elt F) → (⟨S1x1, .f32⟩ : BufTy).Contents (Elt F)),
    unary main_v227 main_v228 (broadcastInDim S131072x3 ![0, 1] bcast_S1x1_S131072x3_0_1 : (⟨S1x1, .f32⟩ : BufTy).Contents (Elt F) → (⟨S131072x3, .f32⟩ : BufTy).Contents (Elt F)),
    binary main_v226 main_v228 main_v229 (mulf : (⟨S131072x3, .f32⟩ : BufTy).Contents (Elt F) → (⟨S131072x3, .f32⟩ : BufTy).Contents (Elt F) → (⟨S131072x3, .f32⟩ : BufTy).Contents (Elt F)),
    unary main_v229 main_v230 (Host.negf : (⟨S131072x3, .f32⟩ : BufTy).Contents (Elt F) → (⟨S131072x3, .f32⟩ : BufTy).Contents (Elt F)),
    unary main_v230 main_v231 (Host.exp : (⟨S131072x3, .f32⟩ : BufTy).Contents (Elt F) → (⟨S131072x3, .f32⟩ : BufTy).Contents (Elt F)),
    nullary main_cst_3 (constant S_ .f32 0x3F800000#32),
    unary main_cst_3 main_v232 (broadcastInDim S131072x3 ![] bcast_S_S131072x3 : (⟨S_, .f32⟩ : BufTy).Contents (Elt F) → (⟨S131072x3, .f32⟩ : BufTy).Contents (Elt F)),
    binary main_v232 main_v231 main_v233 (addf : (⟨S131072x3, .f32⟩ : BufTy).Contents (Elt F) → (⟨S131072x3, .f32⟩ : BufTy).Contents (Elt F) → (⟨S131072x3, .f32⟩ : BufTy).Contents (Elt F)),
    nullary main_cst_4 (constant S_ .f32 0x3F800000#32) ]

/-- 2 operations: the final quotient. -/
abbrev opsOutB : List (HloOp τ sig (Elt F)) :=
  [ unary main_cst_4 main_v234 (broadcastInDim S131072x3 ![] bcast_S_S131072x3 : (⟨S_, .f32⟩ : BufTy).Contents (Elt F) → (⟨S131072x3, .f32⟩ : BufTy).Contents (Elt F)),
    binary main_v234 main_v233 main_v235 (Host.divf : (⟨S131072x3, .f32⟩ : BufTy).Contents (Elt F) → (⟨S131072x3, .f32⟩ : BufTy).Contents (Elt F) → (⟨S131072x3, .f32⟩ : BufTy).Contents (Elt F)) ]

/-- The operations of @main's statements in its printed part 0. -/
abbrev opsPart0 : List (HloOp τ sig (Elt F)) := opsLat ++ opsR ++ opsY ++ opsFeat ++ opsN0 ++ opsN1 ++ opsN2a

/-- The operations of @main's statements in its printed part 1. -/
abbrev opsPart1 : List (HloOp τ sig (Elt F)) := opsN2b ++ opsN3 ++ opsN4 ++ opsN5 ++ opsN6 ++ opsN7a

/-- The operations of @main's statements in its printed part 2. -/
abbrev opsPart2 : List (HloOp τ sig (Elt F)) := opsN7b ++ opsN8 ++ opsN9 ++ opsN10 ++ opsN11 ++ opsN12a

/-- The operations of @main's statements in its printed part 3. -/
abbrev opsPart3 : List (HloOp τ sig (Elt F)) := opsN12b ++ opsN13 ++ opsN14 ++ opsN15 ++ opsOutA

/-- The operations of @main's statements in its printed part 4. -/
abbrev opsPart4 : List (HloOp τ sig (Elt F)) := opsOutB

/-- All of @main's operations, in order. -/
abbrev ops : List (HloOp τ sig (Elt F)) := opsPart0 ++ opsPart1 ++ opsPart2 ++ opsPart3 ++ opsPart4

end Cert.ReferenceIdeal.Hand

end
-- ==== Proof.RefRunMainEq.lean ====
/-
  @main IS the straight line of its operations: each printed part of @main, with the outlined functions'
  definitions unfolded at their calls and their buffer records at their fields, is the sequence of its
  stretch of the operation list; @main runs the parts in order, so it is the sequence of the whole list.
-/
import proofs.«166257_j42623255446007_2_alg».proof.Proof.RefRunOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part0_eq (c : Dev nD) : main_part0 (F := F) c = seq opsPart0 := rfl

set_option maxRecDepth 8192 in
set_option maxHeartbeats 4000000 in
theorem main_part1_eq (c : Dev nD) : main_part1 (F := F) c = seq opsPart1 := rfl

set_option maxRecDepth 8192 in
set_option maxHeartbeats 4000000 in
theorem main_part2_eq (c : Dev nD) : main_part2 (F := F) c = seq opsPart2 := rfl

set_option maxRecDepth 8192 in
set_option maxHeartbeats 4000000 in
theorem main_part3_eq (c : Dev nD) : main_part3 (F := F) c = seq opsPart3 := rfl

set_option maxRecDepth 8192 in
set_option maxHeartbeats 4000000 in
theorem main_part4_eq (c : Dev nD) : main_part4 (F := F) c = seq opsPart4 := rfl

set_option maxRecDepth 8192 in
theorem main_eq (c : Dev nD) : main (F := F) c = seq ops := by
  simp only [ops, seq_append, ← main_part0_eq c, ← main_part1_eq c, ← main_part2_eq c, ← main_part3_eq c, ← main_part4_eq c]
  rfl

end Cert.ReferenceIdeal.Hand

end
-- ==== Proof.RefRunResult.lean ====
/-
  The reference's value, stage by stage: every host operation of @main as a pure whole-array function of
  the arrays it reads, composed in program order. Nothing here runs anything; the run module proves that
  @main's result buffer ends at `result` of the fourteen argument arrays.

  The network: three coordinate columns x, y, r of the (B, 3, 1) input; four first-layer branches
  (latents·Wlᵀ + bl through tanh, r·Wrᵀ through ELU, y·Wyᵀ through softplus, x·Wxᵀ through tanh), their sum
  through the Gaussian exp(-z²/2), a 64×64 layer through sine (the feature f); then sixteen graph nodes in a
  fixed DAG, node j applying its own 64×64 layer gW[j], gB[j] and its activation to f (node 0) or to the sum
  of its predecessors' outputs; the three sinks 13, 14, 15 summed, a 64→3 layer, times the scalar scale,
  through the logistic function 1 / (1 + exp(-z)).
-/
import proofs.«166257_j42623255446007_2_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

/-- The contents of an f32 array of shape `S`. -/
abbrev C (F : FTy → Type) (S : Shape) : Type := (⟨S, .f32⟩ : BufTy).Contents (Elt F)
/-- The contents of a boolean array of shape `S`. -/
abbrev CB (F : FTy → Type) (S : Shape) : Type := (⟨S, .i1⟩ : BufTy).Contents (Elt F)

/-! ## Constants and broadcasts -/

/-- The (B, 64) array of zeros. -/
def zeros64 : C F S131072x64 := broadcastInDim S131072x64 ![] bcast_S_S131072x64 (constant S_ .f32 0x00000000#32)
/-- The (B, 64) array of ones. -/
def ones64 : C F S131072x64 := broadcastInDim S131072x64 ![] bcast_S_S131072x64 (constant S_ .f32 0x3F800000#32)
/-- The (B, 64) array of -1/2. -/
def negHalf64 : C F S131072x64 := broadcastInDim S131072x64 ![] bcast_S_S131072x64 (constant S_ .f32 0xBF000000#32)
/-- The (B, 3) array of ones. -/
def ones3 : C F S131072x3 := broadcastInDim S131072x3 ![] bcast_S_S131072x3 (constant S_ .f32 0x3F800000#32)
/-- A bias vector of 64 entries repeated along every one of the B rows. -/
def rowBias (b : C F S64) : C F S131072x64 :=
  broadcastInDim S131072x64 ![0, 1] bcast_S1x64_S131072x64_0_1 (broadcastInDim S1x64 ![1] bcast_S64_S1x64_1 b)

/-! ## The activations jax outlines, as whole-array functions -/

/-- ELU as jax writes it: where x > 0 take x, elsewhere 1 · expm1 of (where x > 0 take 0, elsewhere x). -/
def eluF (x : C F S131072x64) : C F S131072x64 :=
  select (cmpf .ogt x zeros64 : CB F S131072x64) x
    (mulf ones64 (Host.expm1 (select (cmpf .ogt x zeros64 : CB F S131072x64)
      (broadcastInDim S131072x64 ![] bcast_S_S131072x64 (id (constant S_ .f32 0x00000000#32)) : C F S131072x64) x)))

/-- Softplus as jax writes it (logaddexp(x, 0)): where x - 0 is not itself (never, over the extended reals) take x + 0,
    elsewhere max(x, 0) + log1p(exp(-|x - 0|)). -/
def softplusF (x : C F S131072x64) : C F S131072x64 :=
  select (cmpf .une (subf x zeros64) (subf x zeros64) : CB F S131072x64) (addf x zeros64)
    (addf (maximumf x zeros64) (Host.log1p (Host.exp (Host.negf (Host.absf (subf x zeros64))))))

/-- The Gaussian exp(-z²/2), as ((-1/2) · z) · z under the exponential. -/
def gaussF (z : C F S131072x64) : C F S131072x64 := Host.exp (mulf (mulf negHalf64 z) z)

/-! ## The first layer -/

/-- Column 0 of the (B, 3, 1) input as a (B, 1) array: the x coordinate. -/
def xCol (a0 : C F S131072x3x1) : C F S131072x1 :=
  shapeCast S131072x1 (extractStridedSlice S131072x1x1 ![0, 0, 0] a0 slices_S131072x3x1_S131072x1x1_0_0_0) shapeCasts_S131072x1x1_S131072x1
/-- Column 1: the y coordinate. -/
def yCol (a0 : C F S131072x3x1) : C F S131072x1 :=
  shapeCast S131072x1 (extractStridedSlice S131072x1x1 ![0, 1, 0] a0 slices_S131072x3x1_S131072x1x1_0_1_0) shapeCasts_S131072x1x1_S131072x1
/-- Column 2: the r coordinate. -/
def rCol (a0 : C F S131072x3x1) : C F S131072x1 :=
  shapeCast S131072x1 (extractStridedSlice S131072x1x1 ![0, 2, 0] a0 slices_S131072x3x1_S131072x1x1_0_2_0) shapeCasts_S131072x1x1_S131072x1

/-- A coordinate column times a transposed (64, 1) weight: the (B, 64) outer product. -/
def coordLin (col : C F S131072x1) (w : C F S64x1) : C F S131072x64 :=
  Host.dotGeneral dot_S131072x1_S1x64_S131072x64_1_0_0_1_n_n none col (transpose S1x64 [1, 0] w transposes_S64x1_S1x64_1_0)

/-- tanh(latents · Wlᵀ + bl). -/
def latAct (a1 : C F S131072x8) (a2 : C F S64x8) (a3 : C F S64) : C F S131072x64 :=
  Host.tanh (addf (Host.dotGeneral dot_S131072x8_S8x64_S131072x64_1_0_0_1_n_n none a1 (transpose S8x64 [1, 0] a2 transposes_S64x8_S8x64_1_0)) (rowBias a3))
/-- ELU(r · Wrᵀ). -/
def rAct (a0 : C F S131072x3x1) (a6 : C F S64x1) : C F S131072x64 := eluF (coordLin (rCol a0) a6)
/-- softplus(y · Wyᵀ). -/
def yAct (a0 : C F S131072x3x1) (a5 : C F S64x1) : C F S131072x64 := softplusF (coordLin (yCol a0) a5)
/-- tanh(x · Wxᵀ). -/
def xAct (a0 : C F S131072x3x1) (a4 : C F S64x1) : C F S131072x64 := Host.tanh (coordLin (xCol a0) a4)

/-- A (B, 64) array through a 64×64 layer: x · Wᵗ + b with `Wt` already transposed. -/
def dense (x : C F S131072x64) (Wt : C F S64x64) (b : C F S64) : C F S131072x64 :=
  addf (Host.dotGeneral dot_S131072x64_S64x64_S131072x64_1_0_0_1_n_n none x Wt) (rowBias b)

/-- The feature f: the four branches summed ((x + y) + r) + latents, through the Gaussian, the W1 layer and sine. -/
def feat (a0 : C F S131072x3x1) (a1 : C F S131072x8) (a2 : C F S64x8) (a3 : C F S64) (a4 a5 a6 : C F S64x1)
    (a7 : C F S64x64) (a8 : C F S64) : C F S131072x64 :=
  Host.sin (dense (gaussF (addf (addf (addf (xAct a0 a4) (yAct a0 a5)) (rAct a0 a6)) (latAct a1 a2 a3)))
    (transpose S64x64 [1, 0] a7 transposes_S64x64_S64x64_1_0) a8)

/-! ## The graph nodes' weights: slab j of gW transposed, row j of gB -/

/-- gW[0] transposed. -/
def gW0 (a9 : C F S16x64x64) : C F S64x64 :=
  transpose S64x64 [1, 0] (shapeCast S64x64 (extractStridedSlice S1x64x64 ![0, 0, 0] a9 slices_S16x64x64_S1x64x64_0_0_0) shapeCasts_S1x64x64_S64x64) transposes_S64x64_S64x64_1_0
/-- gB[0]. -/
def gB0 (a10 : C F S16x64) : C F S64 :=
  shapeCast S64 (extractStridedSlice S1x64 ![0, 0] a10 slices_S16x64_S1x64_0_0) shapeCasts_S1x64_S64
/-- gW[1] transposed. -/
def gW1 (a9 : C F S16x64x64) : C F S64x64 :=
  transpose S64x64 [1, 0] (shapeCast S64x64 (extractStridedSlice S1x64x64 ![1, 0, 0] a9 slices_S16x64x64_S1x64x64_1_0_0) shapeCasts_S1x64x64_S64x64) transposes_S64x64_S64x64_1_0
/-- gB[1]. -/
def gB1 (a10 : C F S16x64) : C F S64 :=
  shapeCast S64 (extractStridedSlice S1x64 ![1, 0] a10 slices_S16x64_S1x64_1_0) shapeCasts_S1x64_S64
/-- gW[2] transposed. -/
def gW2 (a9 : C F S16x64x64) : C F S64x64 :=
  transpose S64x64 [1, 0] (shapeCast S64x64 (extractStridedSlice S1x64x64 ![2, 0, 0] a9 slices_S16x64x64_S1x64x64_2_0_0) shapeCasts_S1x64x64_S64x64) transposes_S64x64_S64x64_1_0
/-- gB[2]. -/
def gB2 (a10 : C F S16x64) : C F S64 :=
  shapeCast S64 (extractStridedSlice S1x64 ![2, 0] a10 slices_S16x64_S1x64_2_0) shapeCasts_S1x64_S64
/-- gW[3] transposed. -/
def gW3 (a9 : C F S16x64x64) : C F S64x64 :=
  transpose S64x64 [1, 0] (shapeCast S64x64 (extractStridedSlice S1x64x64 ![3, 0, 0] a9 slices_S16x64x64_S1x64x64_3_0_0) shapeCasts_S1x64x64_S64x64) transposes_S64x64_S64x64_1_0
/-- gB[3]. -/
def gB3 (a10 : C F S16x64) : C F S64 :=
  shapeCast S64 (extractStridedSlice S1x64 ![3, 0] a10 slices_S16x64_S1x64_3_0) shapeCasts_S1x64_S64
/-- gW[4] transposed. -/
def gW4 (a9 : C F S16x64x64) : C F S64x64 :=
  transpose S64x64 [1, 0] (shapeCast S64x64 (extractStridedSlice S1x64x64 ![4, 0, 0] a9 slices_S16x64x64_S1x64x64_4_0_0) shapeCasts_S1x64x64_S64x64) transposes_S64x64_S64x64_1_0
/-- gB[4]. -/
def gB4 (a10 : C F S16x64) : C F S64 :=
  shapeCast S64 (extractStridedSlice S1x64 ![4, 0] a10 slices_S16x64_S1x64_4_0) shapeCasts_S1x64_S64
/-- gW[5] transposed. -/
def gW5 (a9 : C F S16x64x64) : C F S64x64 :=
  transpose S64x64 [1, 0] (shapeCast S64x64 (extractStridedSlice S1x64x64 ![5, 0, 0] a9 slices_S16x64x64_S1x64x64_5_0_0) shapeCasts_S1x64x64_S64x64) transposes_S64x64_S64x64_1_0
/-- gB[5]. -/
def gB5 (a10 : C F S16x64) : C F S64 :=
  shapeCast S64 (extractStridedSlice S1x64 ![5, 0] a10 slices_S16x64_S1x64_5_0) shapeCasts_S1x64_S64
/-- gW[6] transposed. -/
def gW6 (a9 : C F S16x64x64) : C F S64x64 :=
  transpose S64x64 [1, 0] (shapeCast S64x64 (extractStridedSlice S1x64x64 ![6, 0, 0] a9 slices_S16x64x64_S1x64x64_6_0_0) shapeCasts_S1x64x64_S64x64) transposes_S64x64_S64x64_1_0
/-- gB[6]. -/
def gB6 (a10 : C F S16x64) : C F S64 :=
  shapeCast S64 (extractStridedSlice S1x64 ![6, 0] a10 slices_S16x64_S1x64_6_0) shapeCasts_S1x64_S64
/-- gW[7] transposed. -/
def gW7 (a9 : C F S16x64x64) : C F S64x64 :=
  transpose S64x64 [1, 0] (shapeCast S64x64 (extractStridedSlice S1x64x64 ![7, 0, 0] a9 slices_S16x64x64_S1x64x64_7_0_0) shapeCasts_S1x64x64_S64x64) transposes_S64x64_S64x64_1_0
/-- gB[7]. -/
def gB7 (a10 : C F S16x64) : C F S64 :=
  shapeCast S64 (extractStridedSlice S1x64 ![7, 0] a10 slices_S16x64_S1x64_7_0) shapeCasts_S1x64_S64
/-- gW[8] transposed. -/
def gW8 (a9 : C F S16x64x64) : C F S64x64 :=
  transpose S64x64 [1, 0] (shapeCast S64x64 (extractStridedSlice S1x64x64 ![8, 0, 0] a9 slices_S16x64x64_S1x64x64_8_0_0) shapeCasts_S1x64x64_S64x64) transposes_S64x64_S64x64_1_0
/-- gB[8]. -/
def gB8 (a10 : C F S16x64) : C F S64 :=
  shapeCast S64 (extractStridedSlice S1x64 ![8, 0] a10 slices_S16x64_S1x64_8_0) shapeCasts_S1x64_S64
/-- gW[9] transposed. -/
def gW9 (a9 : C F S16x64x64) : C F S64x64 :=
  transpose S64x64 [1, 0] (shapeCast S64x64 (extractStridedSlice S1x64x64 ![9, 0, 0] a9 slices_S16x64x64_S1x64x64_9_0_0) shapeCasts_S1x64x64_S64x64) transposes_S64x64_S64x64_1_0
/-- gB[9]. -/
def gB9 (a10 : C F S16x64) : C F S64 :=
  shapeCast S64 (extractStridedSlice S1x64 ![9, 0] a10 slices_S16x64_S1x64_9_0) shapeCasts_S1x64_S64
/-- gW[10] transposed. -/
def gW10 (a9 : C F S16x64x64) : C F S64x64 :=
  transpose S64x64 [1, 0] (shapeCast S64x64 (extractStridedSlice S1x64x64 ![10, 0, 0] a9 slices_S16x64x64_S1x64x64_10_0_0) shapeCasts_S1x64x64_S64x64) transposes_S64x64_S64x64_1_0
/-- gB[10]. -/
def gB10 (a10 : C F S16x64) : C F S64 :=
  shapeCast S64 (extractStridedSlice S1x64 ![10, 0] a10 slices_S16x64_S1x64_10_0) shapeCasts_S1x64_S64
/-- gW[11] transposed. -/
def gW11 (a9 : C F S16x64x64) : C F S64x64 :=
  transpose S64x64 [1, 0] (shapeCast S64x64 (extractStridedSlice S1x64x64 ![11, 0, 0] a9 slices_S16x64x64_S1x64x64_11_0_0) shapeCasts_S1x64x64_S64x64) transposes_S64x64_S64x64_1_0
/-- gB[11]. -/
def gB11 (a10 : C F S16x64) : C F S64 :=
  shapeCast S64 (extractStridedSlice S1x64 ![11, 0] a10 slices_S16x64_S1x64_11_0) shapeCasts_S1x64_S64
/-- gW[12] transposed. -/
def gW12 (a9 : C F S16x64x64) : C F S64x64 :=
  transpose S64x64 [1, 0] (shapeCast S64x64 (extractStridedSlice S1x64x64 ![12, 0, 0] a9 slices_S16x64x64_S1x64x64_12_0_0) shapeCasts_S1x64x64_S64x64) transposes_S64x64_S64x64_1_0
/-- gB[12]. -/
def gB12 (a10 : C F S16x64) : C F S64 :=
  shapeCast S64 (extractStridedSlice S1x64 ![12, 0] a10 slices_S16x64_S1x64_12_0) shapeCasts_S1x64_S64
/-- gW[13] transposed. -/
def gW13 (a9 : C F S16x64x64) : C F S64x64 :=
  transpose S64x64 [1, 0] (shapeCast S64x64 (extractStridedSlice S1x64x64 ![13, 0, 0] a9 slices_S16x64x64_S1x64x64_13_0_0) shapeCasts_S1x64x64_S64x64) transposes_S64x64_S64x64_1_0
/-- gB[13]. -/
def gB13 (a10 : C F S16x64) : C F S64 :=
  shapeCast S64 (extractStridedSlice S1x64 ![13, 0] a10 slices_S16x64_S1x64_13_0) shapeCasts_S1x64_S64
/-- gW[14] transposed. -/
def gW14 (a9 : C F S16x64x64) : C F S64x64 :=
  transpose S64x64 [1, 0] (shapeCast S64x64 (extractStridedSlice S1x64x64 ![14, 0, 0] a9 slices_S16x64x64_S1x64x64_14_0_0) shapeCasts_S1x64x64_S64x64) transposes_S64x64_S64x64_1_0
/-- gB[14]. -/
def gB14 (a10 : C F S16x64) : C F S64 :=
  shapeCast S64 (extractStridedSlice S1x64 ![14, 0] a10 slices_S16x64_S1x64_14_0) shapeCasts_S1x64_S64
/-- gW[15] transposed. -/
def gW15 (a9 : C F S16x64x64) : C F S64x64 :=
  transpose S64x64 [1, 0] (shapeCast S64x64 (extractStridedSlice S1x64x64 ![15, 0, 0] a9 slices_S16x64x64_S1x64x64_15_0_0) shapeCasts_S1x64x64_S64x64) transposes_S64x64_S64x64_1_0
/-- gB[15]. -/
def gB15 (a10 : C F S16x64) : C F S64 :=
  shapeCast S64 (extractStridedSlice S1x64 ![15, 0] a10 slices_S16x64_S1x64_15_0) shapeCasts_S1x64_S64

/-! ## The graph nodes: node j from its predecessors' outputs -/

/-- Node 0: the feature f through the layer gW[0], gB[0] and tanh. -/
def node0 (f : C F S131072x64) (a9 : C F S16x64x64) (a10 : C F S16x64) : C F S131072x64 :=
  Host.tanh (dense f (gW0 a9) (gB0 a10))
/-- Node 1: node 0's output through the layer gW[1], gB[1] and ELU. -/
def node1 (h0 : C F S131072x64) (a9 : C F S16x64x64) (a10 : C F S16x64) : C F S131072x64 :=
  eluF (dense h0 (gW1 a9) (gB1 a10))
/-- Node 2: the sum of the outputs of nodes 0, 1 (added left to right) through the layer gW[2], gB[2] and softplus. -/
def node2 (h0 h1 : C F S131072x64) (a9 : C F S16x64x64) (a10 : C F S16x64) : C F S131072x64 :=
  softplusF (dense (addf h0 h1) (gW2 a9) (gB2 a10))
/-- Node 3: node 1's output through the layer gW[3], gB[3] and sine. -/
def node3 (h1 : C F S131072x64) (a9 : C F S16x64x64) (a10 : C F S16x64) : C F S131072x64 :=
  Host.sin (dense h1 (gW3 a9) (gB3 a10))
/-- Node 4: node 1's output through the layer gW[4], gB[4] and the Gaussian exp(-z²/2). -/
def node4 (h1 : C F S131072x64) (a9 : C F S16x64x64) (a10 : C F S16x64) : C F S131072x64 :=
  gaussF (dense h1 (gW4 a9) (gB4 a10))
/-- Node 5: the sum of the outputs of nodes 0, 4 (added left to right) through the layer gW[5], gB[5] and tanh. -/
def node5 (h0 h4 : C F S131072x64) (a9 : C F S16x64x64) (a10 : C F S16x64) : C F S131072x64 :=
  Host.tanh (dense (addf h0 h4) (gW5 a9) (gB5 a10))
/-- Node 6: the sum of the outputs of nodes 0, 2, 3, 5 (added left to right) through the layer gW[6], gB[6] and ELU. -/
def node6 (h0 h2 h3 h5 : C F S131072x64) (a9 : C F S16x64x64) (a10 : C F S16x64) : C F S131072x64 :=
  eluF (dense (addf (addf (addf h0 h2) h3) h5) (gW6 a9) (gB6 a10))
/-- Node 7: node 1's output through the layer gW[7], gB[7] and softplus. -/
def node7 (h1 : C F S131072x64) (a9 : C F S16x64x64) (a10 : C F S16x64) : C F S131072x64 :=
  softplusF (dense h1 (gW7 a9) (gB7 a10))
/-- Node 8: the sum of the outputs of nodes 6, 7 (added left to right) through the layer gW[8], gB[8] and sine. -/
def node8 (h6 h7 : C F S131072x64) (a9 : C F S16x64x64) (a10 : C F S16x64) : C F S131072x64 :=
  Host.sin (dense (addf h6 h7) (gW8 a9) (gB8 a10))
/-- Node 9: the sum of the outputs of nodes 3, 5, 7, 8 (added left to right) through the layer gW[9], gB[9] and the Gaussian exp(-z²/2). -/
def node9 (h3 h5 h7 h8 : C F S131072x64) (a9 : C F S16x64x64) (a10 : C F S16x64) : C F S131072x64 :=
  gaussF (dense (addf (addf (addf h3 h5) h7) h8) (gW9 a9) (gB9 a10))
/-- Node 10: the sum of the outputs of nodes 0, 8, 9 (added left to right) through the layer gW[10], gB[10] and tanh. -/
def node10 (h0 h8 h9 : C F S131072x64) (a9 : C F S16x64x64) (a10 : C F S16x64) : C F S131072x64 :=
  Host.tanh (dense (addf (addf h0 h8) h9) (gW10 a9) (gB10 a10))
/-- Node 11: node 4's output through the layer gW[11], gB[11] and ELU. -/
def node11 (h4 : C F S131072x64) (a9 : C F S16x64x64) (a10 : C F S16x64) : C F S131072x64 :=
  eluF (dense h4 (gW11 a9) (gB11 a10))
/-- Node 12: the sum of the outputs of nodes 2, 3 (added left to right) through the layer gW[12], gB[12] and softplus. -/
def node12 (h2 h3 : C F S131072x64) (a9 : C F S16x64x64) (a10 : C F S16x64) : C F S131072x64 :=
  softplusF (dense (addf h2 h3) (gW12 a9) (gB12 a10))
/-- Node 13: the sum of the outputs of nodes 4, 6, 12 (added left to right) through the layer gW[13], gB[13] and sine. -/
def node13 (h4 h6 h12 : C F S131072x64) (a9 : C F S16x64x64) (a10 : C F S16x64) : C F S131072x64 :=
  Host.sin (dense (addf (addf h4 h6) h12) (gW13 a9) (gB13 a10))
/-- Node 14: the sum of the outputs of nodes 0, 1, 11 (added left to right) through the layer gW[14], gB[14] and the Gaussian exp(-z²/2). -/
def node14 (h0 h1 h11 : C F S131072x64) (a9 : C F S16x64x64) (a10 : C F S16x64) : C F S131072x64 :=
  gaussF (dense (addf (addf h0 h1) h11) (gW14 a9) (gB14 a10))
/-- Node 15: the sum of the outputs of nodes 1, 10 (added left to right) through the layer gW[15], gB[15] and tanh. -/
def node15 (h1 h10 : C F S131072x64) (a9 : C F S16x64x64) (a10 : C F S16x64) : C F S131072x64 :=
  Host.tanh (dense (addf h1 h10) (gW15 a9) (gB15 a10))

/-! ## The output head -/

/-- The sinks' sum through the 64→3 layer: agg · outWᵀ + outb. -/
def outLin (agg : C F S131072x64) (a11 : C F S3x64) (a12 : C F S3) : C F S131072x3 :=
  addf (Host.dotGeneral dot_S131072x64_S64x3_S131072x3_1_0_0_1_n_n none agg (transpose S64x3 [1, 0] a11 transposes_S3x64_S64x3_1_0))
    (broadcastInDim S131072x3 ![0, 1] bcast_S1x3_S131072x3_0_1 (broadcastInDim S1x3 ![1] bcast_S3_S1x3_1 a12))
/-- The one-entry scale repeated over the (B, 3) array. -/
def scaleB (a13 : C F S1) : C F S131072x3 :=
  broadcastInDim S131072x3 ![0, 1] bcast_S1x1_S131072x3_0_1 (broadcastInDim S1x1 ![1] bcast_S1_S1x1_1 a13)
/-- 1 + exp(-z): the logistic function's denominator. -/
def logisticDen (z : C F S131072x3) : C F S131072x3 := addf ones3 (Host.exp (Host.negf z))
/-- The logistic function 1 / (1 + exp(-z)). -/
def logistic (z : C F S131072x3) : C F S131072x3 := Host.divf ones3 (logisticDen z)

/-! ## The whole network over the argument arrays -/

/-- Node 0's output as a function of the arguments. -/
def h0 (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  node0 (feat a0 a1 a2 a3 a4 a5 a6 a7 a8) a9 a10
/-- Node 1's output as a function of the arguments. -/
def h1 (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  node1 (h0 a0 a1 a2 a3 a4 a5 a6 a7 a8 a9 a10) a9 a10
/-- Node 2's output as a function of the arguments. -/
def h2 (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  node2 (h0 a0 a1 a2 a3 a4 a5 a6 a7 a8 a9 a10) (h1 a0 a1 a2 a3 a4 a5 a6 a7 a8 a9 a10) a9 a10
/-- Node 3's output as a function of the arguments. -/
def h3 (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  node3 (h1 a0 a1 a2 a3 a4 a5 a6 a7 a8 a9 a10) a9 a10
/-- Node 4's output as a function of the arguments. -/
def h4 (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  node4 (h1 a0 a1 a2 a3 a4 a5 a6 a7 a8 a9 a10) a9 a10
/-- Node 5's output as a function of the arguments. -/
def h5 (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  node5 (h0 a0 a1 a2 a3 a4 a5 a6 a7 a8 a9 a10) (h4 a0 a1 a2 a3 a4 a5 a6 a7 a8 a9 a10) a9 a10
/-- Node 6's output as a function of the arguments. -/
def h6 (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  node6 (h0 a0 a1 a2 a3 a4 a5 a6 a7 a8 a9 a10) (h2 a0 a1 a2 a3 a4 a5 a6 a7 a8 a9 a10) (h3 a0 a1 a2 a3 a4 a5 a6 a7 a8 a9 a10) (h5 a0 a1 a2 a3 a4 a5 a6 a7 a8 a9 a10) a9 a10
/-- Node 7's output as a function of the arguments. -/
def h7 (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  node7 (h1 a0 a1 a2 a3 a4 a5 a6 a7 a8 a9 a10) a9 a10
/-- Node 8's output as a function of the arguments. -/
def h8 (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  node8 (h6 a0 a1 a2 a3 a4 a5 a6 a7 a8 a9 a10) (h7 a0 a1 a2 a3 a4 a5 a6 a7 a8 a9 a10) a9 a10
/-- Node 9's output as a function of the arguments. -/
def h9 (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  node9 (h3 a0 a1 a2 a3 a4 a5 a6 a7 a8 a9 a10) (h5 a0 a1 a2 a3 a4 a5 a6 a7 a8 a9 a10) (h7 a0 a1 a2 a3 a4 a5 a6 a7 a8 a9 a10) (h8 a0 a1 a2 a3 a4 a5 a6 a7 a8 a9 a10) a9 a10
/-- Node 10's output as a function of the arguments. -/
def h10 (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  node10 (h0 a0 a1 a2 a3 a4 a5 a6 a7 a8 a9 a10) (h8 a0 a1 a2 a3 a4 a5 a6 a7 a8 a9 a10) (h9 a0 a1 a2 a3 a4 a5 a6 a7 a8 a9 a10) a9 a10
/-- Node 11's output as a function of the arguments. -/
def h11 (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  node11 (h4 a0 a1 a2 a3 a4 a5 a6 a7 a8 a9 a10) a9 a10
/-- Node 12's output as a function of the arguments. -/
def h12 (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  node12 (h2 a0 a1 a2 a3 a4 a5 a6 a7 a8 a9 a10) (h3 a0 a1 a2 a3 a4 a5 a6 a7 a8 a9 a10) a9 a10
/-- Node 13's output as a function of the arguments. -/
def h13 (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  node13 (h4 a0 a1 a2 a3 a4 a5 a6 a7 a8 a9 a10) (h6 a0 a1 a2 a3 a4 a5 a6 a7 a8 a9 a10) (h12 a0 a1 a2 a3 a4 a5 a6 a7 a8 a9 a10) a9 a10
/-- Node 14's output as a function of the arguments. -/
def h14 (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  node14 (h0 a0 a1 a2 a3 a4 a5 a6 a7 a8 a9 a10) (h1 a0 a1 a2 a3 a4 a5 a6 a7 a8 a9 a10) (h11 a0 a1 a2 a3 a4 a5 a6 a7 a8 a9 a10) a9 a10
/-- Node 15's output as a function of the arguments. -/
def h15 (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  node15 (h1 a0 a1 a2 a3 a4 a5 a6 a7 a8 a9 a10) (h10 a0 a1 a2 a3 a4 a5 a6 a7 a8 a9 a10) a9 a10

/-- The three sinks 13, 14, 15 summed, (h13 + h14) + h15. -/
def sinkSum (a0 : C F S131072x3x1) (a1 : C F S131072x8) (a2 : C F S64x8) (a3 : C F S64) (a4 a5 a6 : C F S64x1)
    (a7 : C F S64x64) (a8 : C F S64) (a9 : C F S16x64x64) (a10 : C F S16x64) : C F S131072x64 :=
  addf (addf (h13 a0 a1 a2 a3 a4 a5 a6 a7 a8 a9 a10) (h14 a0 a1 a2 a3 a4 a5 a6 a7 a8 a9 a10)) (h15 a0 a1 a2 a3 a4 a5 a6 a7 a8 a9 a10)

/-- What goes under the logistic function: (agg · outWᵀ + outb) · scale. -/
def logit (a0 : C F S131072x3x1) (a1 : C F S131072x8) (a2 : C F S64x8) (a3 : C F S64) (a4 a5 a6 : C F S64x1)
    (a7 : C F S64x64) (a8 : C F S64) (a9 : C F S16x64x64) (a10 : C F S16x64)
    (a11 : C F S3x64) (a12 : C F S3) (a13 : C F S1) : C F S131072x3 :=
  mulf (outLin (sinkSum a0 a1 a2 a3 a4 a5 a6 a7 a8 a9 a10) a11 a12) (scaleB a13)

/-- The reference's result: the composed term of the fourteen argument arrays. -/
def result (a0 : C F S131072x3x1) (a1 : C F S131072x8) (a2 : C F S64x8) (a3 : C F S64) (a4 a5 a6 : C F S64x1)
    (a7 : C F S64x64) (a8 : C F S64) (a9 : C F S16x64x64) (a10 : C F S16x64)
    (a11 : C F S3x64) (a12 : C F S3) (a13 : C F S1) : C F S131072x3 :=
  logistic (logit a0 a1 a2 a3 a4 a5 a6 a7 a8 a9 a10 a11 a12 a13)

end Cert.ReferenceIdeal.Hand

end
-- ==== Proof.RefRunSegLat.lean ====
/-
  The stretch of @main's operations that is the three coordinate columns and the latents branch: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsLat_sub : (opsLat : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., binary_bufs_sub .., unary_bufs_sub .., unary_bufs_sub .., binary_bufs_sub .., unary_bufs_sub ..⟩

/-- Every operation of the stretch determines what it writes. -/
theorem opsLat_fresh : (opsLat : List (HloOp τ sig (Elt F))).Forall fun op => op.fresh = ∅ := by
  simp only [List.Forall]
  repeat' constructor

/-- The buffers the stretch writes. -/
abbrev opsLat_W : List (Ref sig .tc) := [main_v0, main_v1, main_v2, main_v3, main_v4, main_v5, main_v6, main_v7, main_v8, main_v9, main_v10, main_v11]

set_option maxRecDepth 8192 in
theorem opsLat_writes : (opsLat : List (HloOp τ sig (Elt F))).Forall fun op => op.writes ⊆ (opsLat_W.map (Proc.devRef (τ := τ) .tc)).toFinset := by
  simp only [List.Forall]
  refine ⟨?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsLat_keep (V : Valuation τ sig (Elt F)) (r : Ref sig .tc) (h : r ∉ opsLat_W) :
    after opsLat V (Proc.devRef .tc r) = V (Proc.devRef .tc r) :=
  after_of_writes_sub opsLat V opsLat_writes h

set_option maxRecDepth 8192 in
set_option maxHeartbeats 1200000 in
/-- `main_v1` after the stretch, from any contents. -/
theorem segLat_main_v1 (V : Valuation τ sig (Elt F)) :
    after opsLat V (Proc.devRef .tc main_v1) = xCol (V (Proc.devRef .tc main_arg0)) := by
  simp only [opsLat]
  after_results_simp <;> rfl

set_option maxRecDepth 8192 in
set_option maxHeartbeats 1200000 in
/-- `main_v3` after the stretch, from any contents. -/
theorem segLat_main_v3 (V : Valuation τ sig (Elt F)) :
    after opsLat V (Proc.devRef .tc main_v3) = yCol (V (Proc.devRef .tc main_arg0)) := by
  simp only [opsLat]
  after_results_simp <;> rfl

set_option maxRecDepth 8192 in
set_option maxHeartbeats 1200000 in
/-- `main_v5` after the stretch, from any contents. -/
theorem segLat_main_v5 (V : Valuation τ sig (Elt F)) :
    after opsLat V (Proc.devRef .tc main_v5) = rCol (V (Proc.devRef .tc main_arg0)) := by
  simp only [opsLat]
  after_results_simp <;> rfl

set_option maxRecDepth 8192 in
set_option maxHeartbeats 1200000 in
/-- `main_v11` after the stretch, from any contents. -/
theorem segLat_main_v11 (V : Valuation τ sig (Elt F)) :
    after opsLat V (Proc.devRef .tc main_v11) = latAct (V (Proc.devRef .tc main_arg1)) (V (Proc.devRef .tc main_arg2)) (V (Proc.devRef .tc main_arg3)) := by
  simp only [opsLat]
  after_results_simp <;> rfl

end Cert.ReferenceIdeal.Hand

end
-- ==== Proof.RefRunSegR.lean ====
/-
  The stretch of @main's operations that is the r branch: its outer product and ELU inlined: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsR_sub : (opsR : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Every operation of the stretch determines what it writes. -/
theorem opsR_fresh : (opsR : List (HloOp τ sig (Elt F))).Forall fun op => op.fresh = ∅ := by
  simp only [List.Forall]
  repeat' constructor

/-- The buffers the stretch writes. -/
abbrev opsR_W : List (Ref sig .tc) := [main_v12, main_v13, main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v14]

set_option maxRecDepth 8192 in
theorem opsR_writes : (opsR : List (HloOp τ sig (Elt F))).Forall fun op => op.writes ⊆ (opsR_W.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsR_keep (V : Valuation τ sig (Elt F)) (r : Ref sig .tc) (h : r ∉ opsR_W) :
    after opsR V (Proc.devRef .tc r) = V (Proc.devRef .tc r) :=
  after_of_writes_sub opsR V opsR_writes h

set_option maxRecDepth 8192 in
set_option maxHeartbeats 1700000 in
/-- `main_v14` after the stretch, from any contents. -/
theorem segR_main_v14 (V : Valuation τ sig (Elt F)) :
    after opsR V (Proc.devRef .tc main_v14) = eluF (coordLin (V (Proc.devRef .tc main_v5)) (V (Proc.devRef .tc main_arg6))) := by
  simp only [opsR]
  after_results_simp <;> rfl

end Cert.ReferenceIdeal.Hand

end
-- ==== Proof.RefRunSegY.lean ====
/-
  The stretch of @main's operations that is the y branch: its outer product and softplus inlined: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsY_sub : (opsY : List (HloOp τ sig (Elt F))).Forall fun op => op.bufs ⊆ tcRefs τ sig :=
  ⟨unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩

/-- Every operation of the stretch determines what it writes. -/
theorem opsY_fresh : (opsY : List (HloOp τ sig (Elt F))).Forall fun op => op.fresh = ∅ := by
  simp only [List.Forall]
  repeat' constructor

/-- The buffers the stretch writes. -/
abbrev opsY_W : List (Ref sig .tc) := [main_v15, main_v16, main_call1_cst, main_call1_v0, main_call1_v1, main_call1_v2, main_call1_v3, main_call1_v4, main_call1_v5, main_call1_v6, main_call1_v7, main_call1_v8, main_call1_v9, main_call1_v10, main_call1_v11, main_v17]

set_option maxRecDepth 8192 in
theorem opsY_writes : (opsY : List (HloOp τ sig (Elt F))).Forall fun op => op.writes ⊆ (opsY_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsY_keep (V : Valuation τ sig (Elt F)) (r : Ref sig .tc) (h : r ∉ opsY_W) :
    after opsY V (Proc.devRef .tc r) = V (Proc.devRef .tc r) :=
  after_of_writes_sub opsY V opsY_writes h

set_option maxRecDepth 8192 in
set_option maxHeartbeats 1600000 in
/-- `main_v17` after the stretch, from any contents. -/
theorem segY_main_v17 (V : Valuation τ sig (Elt F)) :
    after opsY V (Proc.devRef .tc main_v17) = softplusF (coordLin (V (Proc.devRef .tc main_v3)) (V (Proc.devRef .tc main_arg5))) := by
  simp only [opsY]
  after_results_simp <;> rfl

end Cert.ReferenceIdeal.Hand

end
-- ==== Proof.RefRunSegFeat.lean ====
/-
  The stretch of @main's operations that is the x branch, the four branches' sum, the Gaussian, the W1 layer and sine: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsFeat_sub : (opsFeat : List (HloOp τ sig (Elt F))).Forall fun op => op.bufs ⊆ tcRefs τ sig :=
  ⟨unary_bufs_sub .., binary_bufs_sub .., unary_bufs_sub .., binary_bufs_sub .., binary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., unary_bufs_sub ..⟩

/-- Every operation of the stretch determines what it writes. -/
theorem opsFeat_fresh : (opsFeat : List (HloOp τ sig (Elt F))).Forall fun op => op.fresh = ∅ := by
  simp only [List.Forall]
  repeat' constructor

/-- The buffers the stretch writes. -/
abbrev opsFeat_W : List (Ref sig .tc) := [main_v18, main_v19, main_v20, main_v21, main_v22, main_v23, main_cst, main_v24, main_v25, main_v26, main_v27, main_v28, main_v29, main_v30, main_v31, main_v32, main_v33]

set_option maxRecDepth 8192 in
theorem opsFeat_writes : (opsFeat : List (HloOp τ sig (Elt F))).Forall fun op => op.writes ⊆ (opsFeat_W.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsFeat_keep (V : Valuation τ sig (Elt F)) (r : Ref sig .tc) (h : r ∉ opsFeat_W) :
    after opsFeat V (Proc.devRef .tc r) = V (Proc.devRef .tc r) :=
  after_of_writes_sub opsFeat V opsFeat_writes h

set_option maxRecDepth 8192 in
set_option maxHeartbeats 1700000 in
/-- `main_v33` after the stretch, from any contents. -/
theorem segFeat_main_v33 (V : Valuation τ sig (Elt F)) :
    after opsFeat V (Proc.devRef .tc main_v33) = Host.sin (dense (gaussF (addf (addf (addf (Host.tanh (coordLin (V (Proc.devRef .tc main_v1)) (V (Proc.devRef .tc main_arg4)))) (V (Proc.devRef .tc main_v17))) (V (Proc.devRef .tc main_v14))) (V (Proc.devRef .tc main_v11)))) (transpose S64x64 [1, 0] (V (Proc.devRef .tc main_arg7)) transposes_S64x64_S64x64_1_0) (V (Proc.devRef .tc main_arg8))) := by
  simp only [opsFeat]
  after_results_simp <;> rfl

end Cert.ReferenceIdeal.Hand

end
-- ==== Proof.RefRunSegN0.lean ====
/-
  The stretch of @main's operations that is node 0: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN0_sub : (opsN0 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., unary_bufs_sub ..⟩

/-- Every operation of the stretch determines what it writes. -/
theorem opsN0_fresh : (opsN0 : List (HloOp τ sig (Elt F))).Forall fun op => op.fresh = ∅ := by
  simp only [List.Forall]
  repeat' constructor

/-- The buffers the stretch writes. -/
abbrev opsN0_W : List (Ref sig .tc) := [main_v34, main_v35, main_v36, main_v37, main_v38, main_v39, main_v40, main_v41, main_v42, main_v43]

set_option maxRecDepth 8192 in
theorem opsN0_writes : (opsN0 : List (HloOp τ sig (Elt F))).Forall fun op => op.writes ⊆ (opsN0_W.map (Proc.devRef (τ := τ) .tc)).toFinset := by
  simp only [List.Forall]
  refine ⟨?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN0_keep (V : Valuation τ sig (Elt F)) (r : Ref sig .tc) (h : r ∉ opsN0_W) :
    after opsN0 V (Proc.devRef .tc r) = V (Proc.devRef .tc r) :=
  after_of_writes_sub opsN0 V opsN0_writes h

set_option maxRecDepth 8192 in
set_option maxHeartbeats 1000000 in
/-- `main_v43` after the stretch, from any contents. -/
theorem segN0_main_v43 (V : Valuation τ sig (Elt F)) :
    after opsN0 V (Proc.devRef .tc main_v43) = node0 (V (Proc.devRef .tc main_v33)) (V (Proc.devRef .tc main_arg9)) (V (Proc.devRef .tc main_arg10)) := by
  simp only [opsN0]
  after_results_simp <;> rfl

end Cert.ReferenceIdeal.Hand

end
-- ==== Proof.RefRunSegN1.lean ====
/-
  The stretch of @main's operations that is node 1: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN1_sub : (opsN1 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Every operation of the stretch determines what it writes. -/
theorem opsN1_fresh : (opsN1 : List (HloOp τ sig (Elt F))).Forall fun op => op.fresh = ∅ := by
  simp only [List.Forall]
  repeat' constructor

/-- The buffers the stretch writes. -/
abbrev opsN1_W : List (Ref sig .tc) := [main_v44, main_v45, main_v46, main_v47, main_v48, main_v49, main_v50, main_v51, main_v52, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v53]

set_option maxRecDepth 8192 in
theorem opsN1_writes : (opsN1 : List (HloOp τ sig (Elt F))).Forall fun op => op.writes ⊆ (opsN1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN1_keep (V : Valuation τ sig (Elt F)) (r : Ref sig .tc) (h : r ∉ opsN1_W) :
    after opsN1 V (Proc.devRef .tc r) = V (Proc.devRef .tc r) :=
  after_of_writes_sub opsN1 V opsN1_writes h

set_option maxRecDepth 8192 in
set_option maxHeartbeats 2400000 in
/-- `main_v53` after the stretch, from any contents. -/
theorem segN1_main_v53 (V : Valuation τ sig (Elt F)) :
    after opsN1 V (Proc.devRef .tc main_v53) = node1 (V (Proc.devRef .tc main_v43)) (V (Proc.devRef .tc main_arg9)) (V (Proc.devRef .tc main_arg10)) := by
  simp only [opsN1]
  after_results_simp <;> rfl

end Cert.ReferenceIdeal.Hand

end
-- ==== Proof.RefRunSegN2a.lean ====
/-
  The stretch of @main's operations that is node 2 up to its product with gW[2]: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN2a_sub : (opsN2a : List (HloOp τ sig (Elt F))).Forall fun op => op.bufs ⊆ tcRefs τ sig :=
  ⟨binary_bufs_sub .., unary_bufs_sub .., reshape_bufs_sub .., unary_bufs_sub .., binary_bufs_sub ..⟩

/-- Every operation of the stretch determines what it writes. -/
theorem opsN2a_fresh : (opsN2a : List (HloOp τ sig (Elt F))).Forall fun op => op.fresh = ∅ := by
  simp only [List.Forall]
  repeat' constructor

/-- The buffers the stretch writes. -/
abbrev opsN2a_W : List (Ref sig .tc) := [main_v54, main_v55, main_v56, main_v57, main_v58]

set_option maxRecDepth 8192 in
theorem opsN2a_writes : (opsN2a : List (HloOp τ sig (Elt F))).Forall fun op => op.writes ⊆ (opsN2a_W.map (Proc.devRef (τ := τ) .tc)).toFinset := by
  simp only [List.Forall]
  refine ⟨?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN2a_keep (V : Valuation τ sig (Elt F)) (r : Ref sig .tc) (h : r ∉ opsN2a_W) :
    after opsN2a V (Proc.devRef .tc r) = V (Proc.devRef .tc r) :=
  after_of_writes_sub opsN2a V opsN2a_writes h

set_option maxRecDepth 8192 in
set_option maxHeartbeats 500000 in
/-- `main_v58` after the stretch, from any contents. -/
theorem segN2a_main_v58 (V : Valuation τ sig (Elt F)) :
    after opsN2a V (Proc.devRef .tc main_v58) = Host.dotGeneral dot_S131072x64_S64x64_S131072x64_1_0_0_1_n_n none (addf (V (Proc.devRef .tc main_v43)) (V (Proc.devRef .tc main_v53))) (gW2 (V (Proc.devRef .tc main_arg9))) := by
  simp only [opsN2a]
  after_results_simp <;> rfl

end Cert.ReferenceIdeal.Hand

end
-- ==== Proof.RefRunSegN2b.lean ====
/-
  The stretch of @main's operations that is node 2 from its bias on: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN2b_sub : (opsN2b : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩

/-- Every operation of the stretch determines what it writes. -/
theorem opsN2b_fresh : (opsN2b : List (HloOp τ sig (Elt F))).Forall fun op => op.fresh = ∅ := by
  simp only [List.Forall]
  repeat' constructor

/-- The buffers the stretch writes. -/
abbrev opsN2b_W : List (Ref sig .tc) := [main_v59, main_v60, main_v61, main_v62, main_v63, main_call3_cst, main_call3_v0, main_call3_v1, main_call3_v2, main_call3_v3, main_call3_v4, main_call3_v5, main_call3_v6, main_call3_v7, main_call3_v8, main_call3_v9, main_call3_v10, main_call3_v11, main_v64]

set_option maxRecDepth 8192 in
theorem opsN2b_writes : (opsN2b : List (HloOp τ sig (Elt F))).Forall fun op => op.writes ⊆ (opsN2b_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN2b_keep (V : Valuation τ sig (Elt F)) (r : Ref sig .tc) (h : r ∉ opsN2b_W) :
    after opsN2b V (Proc.devRef .tc r) = V (Proc.devRef .tc r) :=
  after_of_writes_sub opsN2b V opsN2b_writes h

set_option maxRecDepth 8192 in
set_option maxHeartbeats 1900000 in
/-- `main_v64` after the stretch, from any contents. -/
theorem segN2b_main_v64 (V : Valuation τ sig (Elt F)) :
    after opsN2b V (Proc.devRef .tc main_v64) = softplusF (addf (V (Proc.devRef .tc main_v58)) (rowBias (gB2 (V (Proc.devRef .tc main_arg10))))) := by
  simp only [opsN2b]
  after_results_simp <;> rfl

end Cert.ReferenceIdeal.Hand

end
-- ==== Proof.RefRunSegN3.lean ====
/-
  The stretch of @main's operations that is node 3: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN3_sub : (opsN3 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., unary_bufs_sub ..⟩

/-- Every operation of the stretch determines what it writes. -/
theorem opsN3_fresh : (opsN3 : List (HloOp τ sig (Elt F))).Forall fun op => op.fresh = ∅ := by
  simp only [List.Forall]
  repeat' constructor

/-- The buffers the stretch writes. -/
abbrev opsN3_W : List (Ref sig .tc) := [main_v65, main_v66, main_v67, main_v68, main_v69, main_v70, main_v71, main_v72, main_v73, main_v74]

set_option maxRecDepth 8192 in
theorem opsN3_writes : (opsN3 : List (HloOp τ sig (Elt F))).Forall fun op => op.writes ⊆ (opsN3_W.map (Proc.devRef (τ := τ) .tc)).toFinset := by
  simp only [List.Forall]
  refine ⟨?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN3_keep (V : Valuation τ sig (Elt F)) (r : Ref sig .tc) (h : r ∉ opsN3_W) :
    after opsN3 V (Proc.devRef .tc r) = V (Proc.devRef .tc r) :=
  after_of_writes_sub opsN3 V opsN3_writes h

set_option maxRecDepth 8192 in
set_option maxHeartbeats 1000000 in
/-- `main_v74` after the stretch, from any contents. -/
theorem segN3_main_v74 (V : Valuation τ sig (Elt F)) :
    after opsN3 V (Proc.devRef .tc main_v74) = node3 (V (Proc.devRef .tc main_v53)) (V (Proc.devRef .tc main_arg9)) (V (Proc.devRef .tc main_arg10)) := by
  simp only [opsN3]
  after_results_simp <;> rfl

end Cert.ReferenceIdeal.Hand

end
-- ==== Proof.RefRunSegN4.lean ====
/-
  The stretch of @main's operations that is node 4: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN4_sub : (opsN4 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub ..⟩

/-- Every operation of the stretch determines what it writes. -/
theorem opsN4_fresh : (opsN4 : List (HloOp τ sig (Elt F))).Forall fun op => op.fresh = ∅ := by
  simp only [List.Forall]
  repeat' constructor

/-- The buffers the stretch writes. -/
abbrev opsN4_W : List (Ref sig .tc) := [main_v75, main_v76, main_v77, main_v78, main_v79, main_v80, main_v81, main_v82, main_v83, main_cst_0, main_v84, main_v85, main_v86, main_v87]

set_option maxRecDepth 8192 in
theorem opsN4_writes : (opsN4 : List (HloOp τ sig (Elt F))).Forall fun op => op.writes ⊆ (opsN4_W.map (Proc.devRef (τ := τ) .tc)).toFinset := by
  simp only [List.Forall]
  refine ⟨?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN4_keep (V : Valuation τ sig (Elt F)) (r : Ref sig .tc) (h : r ∉ opsN4_W) :
    after opsN4 V (Proc.devRef .tc r) = V (Proc.devRef .tc r) :=
  after_of_writes_sub opsN4 V opsN4_writes h

set_option maxRecDepth 8192 in
set_option maxHeartbeats 1400000 in
/-- `main_v87` after the stretch, from any contents. -/
theorem segN4_main_v87 (V : Valuation τ sig (Elt F)) :
    after opsN4 V (Proc.devRef .tc main_v87) = node4 (V (Proc.devRef .tc main_v53)) (V (Proc.devRef .tc main_arg9)) (V (Proc.devRef .tc main_arg10)) := by
  simp only [opsN4]
  after_results_simp <;> rfl

end Cert.ReferenceIdeal.Hand

end
-- ==== Proof.RefRunSegN5.lean ====
/-
  The stretch of @main's operations that is node 5: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN5_sub : (opsN5 : List (HloOp τ sig (Elt F))).Forall fun op => op.bufs ⊆ tcRefs τ sig :=
  ⟨binary_bufs_sub .., unary_bufs_sub .., reshape_bufs_sub .., unary_bufs_sub .., binary_bufs_sub .., unary_bufs_sub .., reshape_bufs_sub .., unary_bufs_sub .., unary_bufs_sub .., binary_bufs_sub .., unary_bufs_sub ..⟩

/-- Every operation of the stretch determines what it writes. -/
theorem opsN5_fresh : (opsN5 : List (HloOp τ sig (Elt F))).Forall fun op => op.fresh = ∅ := by
  simp only [List.Forall]
  repeat' constructor

/-- The buffers the stretch writes. -/
abbrev opsN5_W : List (Ref sig .tc) := [main_v88, main_v89, main_v90, main_v91, main_v92, main_v93, main_v94, main_v95, main_v96, main_v97, main_v98]

set_option maxRecDepth 8192 in
theorem opsN5_writes : (opsN5 : List (HloOp τ sig (Elt F))).Forall fun op => op.writes ⊆ (opsN5_W.map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN5_keep (V : Valuation τ sig (Elt F)) (r : Ref sig .tc) (h : r ∉ opsN5_W) :
    after opsN5 V (Proc.devRef .tc r) = V (Proc.devRef .tc r) :=
  after_of_writes_sub opsN5 V opsN5_writes h

set_option maxRecDepth 8192 in
set_option maxHeartbeats 1100000 in
/-- `main_v98` after the stretch, from any contents. -/
theorem segN5_main_v98 (V : Valuation τ sig (Elt F)) :
    after opsN5 V (Proc.devRef .tc main_v98) = node5 (V (Proc.devRef .tc main_v43)) (V (Proc.devRef .tc main_v87)) (V (Proc.devRef .tc main_arg9)) (V (Proc.devRef .tc main_arg10)) := by
  simp only [opsN5]
  after_results_simp <;> rfl

end Cert.ReferenceIdeal.Hand

end
-- ==== Proof.RefRunSegN6.lean ====
/-
  The stretch of @main's operations that is node 6: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN6_sub : (opsN6 : List (HloOp τ sig (Elt F))).Forall fun op => op.bufs ⊆ tcRefs τ sig :=
  ⟨binary_bufs_sub .., binary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Every operation of the stretch determines what it writes. -/
theorem opsN6_fresh : (opsN6 : List (HloOp τ sig (Elt F))).Forall fun op => op.fresh = ∅ := by
  simp only [List.Forall]
  repeat' constructor

/-- The buffers the stretch writes. -/
abbrev opsN6_W : List (Ref sig .tc) := [main_v99, main_v100, main_v101, main_v102, main_v103, main_v104, main_v105, main_v106, main_v107, main_v108, main_v109, main_v110, main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v111]

set_option maxRecDepth 8192 in
theorem opsN6_writes : (opsN6 : List (HloOp τ sig (Elt F))).Forall fun op => op.writes ⊆ (opsN6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN6_keep (V : Valuation τ sig (Elt F)) (r : Ref sig .tc) (h : r ∉ opsN6_W) :
    after opsN6 V (Proc.devRef .tc r) = V (Proc.devRef .tc r) :=
  after_of_writes_sub opsN6 V opsN6_writes h

set_option maxRecDepth 8192 in
set_option maxHeartbeats 2700000 in
/-- `main_v111` after the stretch, from any contents. -/
theorem segN6_main_v111 (V : Valuation τ sig (Elt F)) :
    after opsN6 V (Proc.devRef .tc main_v111) = node6 (V (Proc.devRef .tc main_v43)) (V (Proc.devRef .tc main_v64)) (V (Proc.devRef .tc main_v74)) (V (Proc.devRef .tc main_v98)) (V (Proc.devRef .tc main_arg9)) (V (Proc.devRef .tc main_arg10)) := by
  simp only [opsN6]
  after_results_simp <;> rfl

end Cert.ReferenceIdeal.Hand

end
-- ==== Proof.RefRunSegN7a.lean ====
/-
  The stretch of @main's operations that is node 7 up to its bias row: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN7a_sub : (opsN7a : List (HloOp τ sig (Elt F))).Forall fun op => op.bufs ⊆ tcRefs τ sig :=
  ⟨unary_bufs_sub .., reshape_bufs_sub .., unary_bufs_sub .., binary_bufs_sub .., unary_bufs_sub .., reshape_bufs_sub ..⟩

/-- Every operation of the stretch determines what it writes. -/
theorem opsN7a_fresh : (opsN7a : List (HloOp τ sig (Elt F))).Forall fun op => op.fresh = ∅ := by
  simp only [List.Forall]
  repeat' constructor

/-- The buffers the stretch writes. -/
abbrev opsN7a_W : List (Ref sig .tc) := [main_v112, main_v113, main_v114, main_v115, main_v116, main_v117]

set_option maxRecDepth 8192 in
theorem opsN7a_writes : (opsN7a : List (HloOp τ sig (Elt F))).Forall fun op => op.writes ⊆ (opsN7a_W.map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN7a_keep (V : Valuation τ sig (Elt F)) (r : Ref sig .tc) (h : r ∉ opsN7a_W) :
    after opsN7a V (Proc.devRef .tc r) = V (Proc.devRef .tc r) :=
  after_of_writes_sub opsN7a V opsN7a_writes h

set_option maxRecDepth 8192 in
set_option maxHeartbeats 600000 in
/-- `main_v115` after the stretch, from any contents. -/
theorem segN7a_main_v115 (V : Valuation τ sig (Elt F)) :
    after opsN7a V (Proc.devRef .tc main_v115) = Host.dotGeneral dot_S131072x64_S64x64_S131072x64_1_0_0_1_n_n none (V (Proc.devRef .tc main_v53)) (gW7 (V (Proc.devRef .tc main_arg9))) := by
  simp only [opsN7a]
  after_results_simp <;> rfl

set_option maxRecDepth 8192 in
set_option maxHeartbeats 600000 in
/-- `main_v117` after the stretch, from any contents. -/
theorem segN7a_main_v117 (V : Valuation τ sig (Elt F)) :
    after opsN7a V (Proc.devRef .tc main_v117) = gB7 (V (Proc.devRef .tc main_arg10)) := by
  simp only [opsN7a]
  after_results_simp <;> rfl

end Cert.ReferenceIdeal.Hand

end
-- ==== Proof.RefRunSegN7b.lean ====
/-
  The stretch of @main's operations that is node 7 from its bias on: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN7b_sub : (opsN7b : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩

/-- Every operation of the stretch determines what it writes. -/
theorem opsN7b_fresh : (opsN7b : List (HloOp τ sig (Elt F))).Forall fun op => op.fresh = ∅ := by
  simp only [List.Forall]
  repeat' constructor

/-- The buffers the stretch writes. -/
abbrev opsN7b_W : List (Ref sig .tc) := [main_v118, main_v119, main_v120, main_call5_cst, main_call5_v0, main_call5_v1, main_call5_v2, main_call5_v3, main_call5_v4, main_call5_v5, main_call5_v6, main_call5_v7, main_call5_v8, main_call5_v9, main_call5_v10, main_call5_v11, main_v121]

set_option maxRecDepth 8192 in
theorem opsN7b_writes : (opsN7b : List (HloOp τ sig (Elt F))).Forall fun op => op.writes ⊆ (opsN7b_W.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN7b_keep (V : Valuation τ sig (Elt F)) (r : Ref sig .tc) (h : r ∉ opsN7b_W) :
    after opsN7b V (Proc.devRef .tc r) = V (Proc.devRef .tc r) :=
  after_of_writes_sub opsN7b V opsN7b_writes h

set_option maxRecDepth 8192 in
set_option maxHeartbeats 1700000 in
/-- `main_v121` after the stretch, from any contents. -/
theorem segN7b_main_v121 (V : Valuation τ sig (Elt F)) :
    after opsN7b V (Proc.devRef .tc main_v121) = softplusF (addf (V (Proc.devRef .tc main_v115)) (rowBias (V (Proc.devRef .tc main_v117)))) := by
  simp only [opsN7b]
  after_results_simp <;> rfl

end Cert.ReferenceIdeal.Hand

end
-- ==== Proof.RefRunSegN8.lean ====
/-
  The stretch of @main's operations that is node 8: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN8_sub : (opsN8 : List (HloOp τ sig (Elt F))).Forall fun op => op.bufs ⊆ tcRefs τ sig :=
  ⟨binary_bufs_sub .., unary_bufs_sub .., reshape_bufs_sub .., unary_bufs_sub .., binary_bufs_sub .., unary_bufs_sub .., reshape_bufs_sub .., unary_bufs_sub .., unary_bufs_sub .., binary_bufs_sub .., unary_bufs_sub ..⟩

/-- Every operation of the stretch determines what it writes. -/
theorem opsN8_fresh : (opsN8 : List (HloOp τ sig (Elt F))).Forall fun op => op.fresh = ∅ := by
  simp only [List.Forall]
  repeat' constructor

/-- The buffers the stretch writes. -/
abbrev opsN8_W : List (Ref sig .tc) := [main_v122, main_v123, main_v124, main_v125, main_v126, main_v127, main_v128, main_v129, main_v130, main_v131, main_v132]

set_option maxRecDepth 8192 in
theorem opsN8_writes : (opsN8 : List (HloOp τ sig (Elt F))).Forall fun op => op.writes ⊆ (opsN8_W.map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN8_keep (V : Valuation τ sig (Elt F)) (r : Ref sig .tc) (h : r ∉ opsN8_W) :
    after opsN8 V (Proc.devRef .tc r) = V (Proc.devRef .tc r) :=
  after_of_writes_sub opsN8 V opsN8_writes h

set_option maxRecDepth 8192 in
set_option maxHeartbeats 1100000 in
/-- `main_v132` after the stretch, from any contents. -/
theorem segN8_main_v132 (V : Valuation τ sig (Elt F)) :
    after opsN8 V (Proc.devRef .tc main_v132) = node8 (V (Proc.devRef .tc main_v111)) (V (Proc.devRef .tc main_v121)) (V (Proc.devRef .tc main_arg9)) (V (Proc.devRef .tc main_arg10)) := by
  simp only [opsN8]
  after_results_simp <;> rfl

end Cert.ReferenceIdeal.Hand

end
-- ==== Proof.RefRunSegN9.lean ====
/-
  The stretch of @main's operations that is node 9: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN9_sub : (opsN9 : List (HloOp τ sig (Elt F))).Forall fun op => op.bufs ⊆ tcRefs τ sig :=
  ⟨binary_bufs_sub .., binary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub ..⟩

/-- Every operation of the stretch determines what it writes. -/
theorem opsN9_fresh : (opsN9 : List (HloOp τ sig (Elt F))).Forall fun op => op.fresh = ∅ := by
  simp only [List.Forall]
  repeat' constructor

/-- The buffers the stretch writes. -/
abbrev opsN9_W : List (Ref sig .tc) := [main_v133, main_v134, main_v135, main_v136, main_v137, main_v138, main_v139, main_v140, main_v141, main_v142, main_v143, main_v144, main_cst_1, main_v145, main_v146, main_v147, main_v148]

set_option maxRecDepth 8192 in
theorem opsN9_writes : (opsN9 : List (HloOp τ sig (Elt F))).Forall fun op => op.writes ⊆ (opsN9_W.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN9_keep (V : Valuation τ sig (Elt F)) (r : Ref sig .tc) (h : r ∉ opsN9_W) :
    after opsN9 V (Proc.devRef .tc r) = V (Proc.devRef .tc r) :=
  after_of_writes_sub opsN9 V opsN9_writes h

set_option maxRecDepth 8192 in
set_option maxHeartbeats 1700000 in
/-- `main_v148` after the stretch, from any contents. -/
theorem segN9_main_v148 (V : Valuation τ sig (Elt F)) :
    after opsN9 V (Proc.devRef .tc main_v148) = node9 (V (Proc.devRef .tc main_v74)) (V (Proc.devRef .tc main_v98)) (V (Proc.devRef .tc main_v121)) (V (Proc.devRef .tc main_v132)) (V (Proc.devRef .tc main_arg9)) (V (Proc.devRef .tc main_arg10)) := by
  simp only [opsN9]
  after_results_simp <;> rfl

end Cert.ReferenceIdeal.Hand

end
-- ==== Proof.RefRunSegN10.lean ====
/-
  The stretch of @main's operations that is node 10: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN10_sub : (opsN10 : List (HloOp τ sig (Elt F))).Forall fun op => op.bufs ⊆ tcRefs τ sig :=
  ⟨binary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub ..⟩

/-- Every operation of the stretch determines what it writes. -/
theorem opsN10_fresh : (opsN10 : List (HloOp τ sig (Elt F))).Forall fun op => op.fresh = ∅ := by
  simp only [List.Forall]
  repeat' constructor

/-- The buffers the stretch writes. -/
abbrev opsN10_W : List (Ref sig .tc) := [main_v149, main_v150, main_v151, main_v152, main_v153, main_v154, main_v155, main_v156, main_v157, main_v158, main_v159, main_v160]

set_option maxRecDepth 8192 in
theorem opsN10_writes : (opsN10 : List (HloOp τ sig (Elt F))).Forall fun op => op.writes ⊆ (opsN10_W.map (Proc.devRef (τ := τ) .tc)).toFinset := by
  simp only [List.Forall]
  refine ⟨?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN10_keep (V : Valuation τ sig (Elt F)) (r : Ref sig .tc) (h : r ∉ opsN10_W) :
    after opsN10 V (Proc.devRef .tc r) = V (Proc.devRef .tc r) :=
  after_of_writes_sub opsN10 V opsN10_writes h

set_option maxRecDepth 8192 in
set_option maxHeartbeats 1200000 in
/-- `main_v160` after the stretch, from any contents. -/
theorem segN10_main_v160 (V : Valuation τ sig (Elt F)) :
    after opsN10 V (Proc.devRef .tc main_v160) = node10 (V (Proc.devRef .tc main_v43)) (V (Proc.devRef .tc main_v132)) (V (Proc.devRef .tc main_v148)) (V (Proc.devRef .tc main_arg9)) (V (Proc.devRef .tc main_arg10)) := by
  simp only [opsN10]
  after_results_simp <;> rfl

end Cert.ReferenceIdeal.Hand

end
-- ==== Proof.RefRunSegN11.lean ====
/-
  The stretch of @main's operations that is node 11: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN11_sub : (opsN11 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Every operation of the stretch determines what it writes. -/
theorem opsN11_fresh : (opsN11 : List (HloOp τ sig (Elt F))).Forall fun op => op.fresh = ∅ := by
  simp only [List.Forall]
  repeat' constructor

/-- The buffers the stretch writes. -/
abbrev opsN11_W : List (Ref sig .tc) := [main_v161, main_v162, main_v163, main_v164, main_v165, main_v166, main_v167, main_v168, main_v169, main_call6_cst, main_call6_v0, main_call6_v1, main_call6_cst_0, main_call6_v2, main_call6_v3, main_call6_cst_1, main_call6_call0_v0, main_call6_call0_v1, main_call6_v4, main_call6_v5, main_call6_cst_2, main_call6_v6, main_call6_v7, main_v170]

set_option maxRecDepth 8192 in
theorem opsN11_writes : (opsN11 : List (HloOp τ sig (Elt F))).Forall fun op => op.writes ⊆ (opsN11_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN11_keep (V : Valuation τ sig (Elt F)) (r : Ref sig .tc) (h : r ∉ opsN11_W) :
    after opsN11 V (Proc.devRef .tc r) = V (Proc.devRef .tc r) :=
  after_of_writes_sub opsN11 V opsN11_writes h

set_option maxRecDepth 8192 in
set_option maxHeartbeats 2400000 in
/-- `main_v170` after the stretch, from any contents. -/
theorem segN11_main_v170 (V : Valuation τ sig (Elt F)) :
    after opsN11 V (Proc.devRef .tc main_v170) = node11 (V (Proc.devRef .tc main_v87)) (V (Proc.devRef .tc main_arg9)) (V (Proc.devRef .tc main_arg10)) := by
  simp only [opsN11]
  after_results_simp <;> rfl

end Cert.ReferenceIdeal.Hand

end
-- ==== Proof.RefRunSegN12a.lean ====
/-
  The stretch of @main's operations that is node 12 up to its bias slice: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN12a_sub : (opsN12a : List (HloOp τ sig (Elt F))).Forall fun op => op.bufs ⊆ tcRefs τ sig :=
  ⟨binary_bufs_sub .., unary_bufs_sub .., reshape_bufs_sub .., unary_bufs_sub .., binary_bufs_sub .., unary_bufs_sub ..⟩

/-- Every operation of the stretch determines what it writes. -/
theorem opsN12a_fresh : (opsN12a : List (HloOp τ sig (Elt F))).Forall fun op => op.fresh = ∅ := by
  simp only [List.Forall]
  repeat' constructor

/-- The buffers the stretch writes. -/
abbrev opsN12a_W : List (Ref sig .tc) := [main_v171, main_v172, main_v173, main_v174, main_v175, main_v176]

set_option maxRecDepth 8192 in
theorem opsN12a_writes : (opsN12a : List (HloOp τ sig (Elt F))).Forall fun op => op.writes ⊆ (opsN12a_W.map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN12a_keep (V : Valuation τ sig (Elt F)) (r : Ref sig .tc) (h : r ∉ opsN12a_W) :
    after opsN12a V (Proc.devRef .tc r) = V (Proc.devRef .tc r) :=
  after_of_writes_sub opsN12a V opsN12a_writes h

set_option maxRecDepth 8192 in
set_option maxHeartbeats 600000 in
/-- `main_v175` after the stretch, from any contents. -/
theorem segN12a_main_v175 (V : Valuation τ sig (Elt F)) :
    after opsN12a V (Proc.devRef .tc main_v175) = Host.dotGeneral dot_S131072x64_S64x64_S131072x64_1_0_0_1_n_n none (addf (V (Proc.devRef .tc main_v64)) (V (Proc.devRef .tc main_v74))) (gW12 (V (Proc.devRef .tc main_arg9))) := by
  simp only [opsN12a]
  after_results_simp <;> rfl

set_option maxRecDepth 8192 in
set_option maxHeartbeats 600000 in
/-- `main_v176` after the stretch, from any contents. -/
theorem segN12a_main_v176 (V : Valuation τ sig (Elt F)) :
    after opsN12a V (Proc.devRef .tc main_v176) = extractStridedSlice S1x64 ![12, 0] (V (Proc.devRef .tc main_arg10)) slices_S16x64_S1x64_12_0 := by
  simp only [opsN12a]
  after_results_simp <;> rfl

end Cert.ReferenceIdeal.Hand

end
-- ==== Proof.RefRunSegN12b.lean ====
/-
  The stretch of @main's operations that is node 12 from its bias on: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN12b_sub : (opsN12b : List (HloOp τ sig (Elt F))).Forall fun op => op.bufs ⊆ tcRefs τ sig :=
  ⟨reshape_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩

/-- Every operation of the stretch determines what it writes. -/
theorem opsN12b_fresh : (opsN12b : List (HloOp τ sig (Elt F))).Forall fun op => op.fresh = ∅ := by
  simp only [List.Forall]
  repeat' constructor

/-- The buffers the stretch writes. -/
abbrev opsN12b_W : List (Ref sig .tc) := [main_v177, main_v178, main_v179, main_v180, main_call7_cst, main_call7_v0, main_call7_v1, main_call7_v2, main_call7_v3, main_call7_v4, main_call7_v5, main_call7_v6, main_call7_v7, main_call7_v8, main_call7_v9, main_call7_v10, main_call7_v11, main_v181]

set_option maxRecDepth 8192 in
theorem opsN12b_writes : (opsN12b : List (HloOp τ sig (Elt F))).Forall fun op => op.writes ⊆ (opsN12b_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN12b_keep (V : Valuation τ sig (Elt F)) (r : Ref sig .tc) (h : r ∉ opsN12b_W) :
    after opsN12b V (Proc.devRef .tc r) = V (Proc.devRef .tc r) :=
  after_of_writes_sub opsN12b V opsN12b_writes h

set_option maxRecDepth 8192 in
set_option maxHeartbeats 1800000 in
/-- `main_v181` after the stretch, from any contents. -/
theorem segN12b_main_v181 (V : Valuation τ sig (Elt F)) :
    after opsN12b V (Proc.devRef .tc main_v181) = softplusF (addf (V (Proc.devRef .tc main_v175)) (rowBias (shapeCast S64 (V (Proc.devRef .tc main_v176)) shapeCasts_S1x64_S64))) := by
  simp only [opsN12b]
  after_results_simp <;> rfl

end Cert.ReferenceIdeal.Hand

end
-- ==== Proof.RefRunSegN13.lean ====
/-
  The stretch of @main's operations that is node 13: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN13_sub : (opsN13 : List (HloOp τ sig (Elt F))).Forall fun op => op.bufs ⊆ tcRefs τ sig :=
  ⟨binary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub ..⟩

/-- Every operation of the stretch determines what it writes. -/
theorem opsN13_fresh : (opsN13 : List (HloOp τ sig (Elt F))).Forall fun op => op.fresh = ∅ := by
  simp only [List.Forall]
  repeat' constructor

/-- The buffers the stretch writes. -/
abbrev opsN13_W : List (Ref sig .tc) := [main_v182, main_v183, main_v184, main_v185, main_v186, main_v187, main_v188, main_v189, main_v190, main_v191, main_v192, main_v193]

set_option maxRecDepth 8192 in
theorem opsN13_writes : (opsN13 : List (HloOp τ sig (Elt F))).Forall fun op => op.writes ⊆ (opsN13_W.map (Proc.devRef (τ := τ) .tc)).toFinset := by
  simp only [List.Forall]
  refine ⟨?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN13_keep (V : Valuation τ sig (Elt F)) (r : Ref sig .tc) (h : r ∉ opsN13_W) :
    after opsN13 V (Proc.devRef .tc r) = V (Proc.devRef .tc r) :=
  after_of_writes_sub opsN13 V opsN13_writes h

set_option maxRecDepth 8192 in
set_option maxHeartbeats 1200000 in
/-- `main_v193` after the stretch, from any contents. -/
theorem segN13_main_v193 (V : Valuation τ sig (Elt F)) :
    after opsN13 V (Proc.devRef .tc main_v193) = node13 (V (Proc.devRef .tc main_v87)) (V (Proc.devRef .tc main_v111)) (V (Proc.devRef .tc main_v181)) (V (Proc.devRef .tc main_arg9)) (V (Proc.devRef .tc main_arg10)) := by
  simp only [opsN13]
  after_results_simp <;> rfl

end Cert.ReferenceIdeal.Hand

end
-- ==== Proof.RefRunSegN14.lean ====
/-
  The stretch of @main's operations that is node 14: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN14_sub : (opsN14 : List (HloOp τ sig (Elt F))).Forall fun op => op.bufs ⊆ tcRefs τ sig :=
  ⟨binary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub ..⟩

/-- Every operation of the stretch determines what it writes. -/
theorem opsN14_fresh : (opsN14 : List (HloOp τ sig (Elt F))).Forall fun op => op.fresh = ∅ := by
  simp only [List.Forall]
  repeat' constructor

/-- The buffers the stretch writes. -/
abbrev opsN14_W : List (Ref sig .tc) := [main_v194, main_v195, main_v196, main_v197, main_v198, main_v199, main_v200, main_v201, main_v202, main_v203, main_v204, main_cst_2, main_v205, main_v206, main_v207, main_v208]

set_option maxRecDepth 8192 in
theorem opsN14_writes : (opsN14 : List (HloOp τ sig (Elt F))).Forall fun op => op.writes ⊆ (opsN14_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN14_keep (V : Valuation τ sig (Elt F)) (r : Ref sig .tc) (h : r ∉ opsN14_W) :
    after opsN14 V (Proc.devRef .tc r) = V (Proc.devRef .tc r) :=
  after_of_writes_sub opsN14 V opsN14_writes h

set_option maxRecDepth 8192 in
set_option maxHeartbeats 1600000 in
/-- `main_v208` after the stretch, from any contents. -/
theorem segN14_main_v208 (V : Valuation τ sig (Elt F)) :
    after opsN14 V (Proc.devRef .tc main_v208) = node14 (V (Proc.devRef .tc main_v43)) (V (Proc.devRef .tc main_v53)) (V (Proc.devRef .tc main_v170)) (V (Proc.devRef .tc main_arg9)) (V (Proc.devRef .tc main_arg10)) := by
  simp only [opsN14]
  after_results_simp <;> rfl

end Cert.ReferenceIdeal.Hand

end
-- ==== Proof.RefRunSegN15.lean ====
/-
  The stretch of @main's operations that is node 15: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsN15_sub : (opsN15 : List (HloOp τ sig (Elt F))).Forall fun op => op.bufs ⊆ tcRefs τ sig :=
  ⟨binary_bufs_sub .., unary_bufs_sub .., reshape_bufs_sub .., unary_bufs_sub .., binary_bufs_sub .., unary_bufs_sub .., reshape_bufs_sub .., unary_bufs_sub .., unary_bufs_sub .., binary_bufs_sub .., unary_bufs_sub ..⟩

/-- Every operation of the stretch determines what it writes. -/
theorem opsN15_fresh : (opsN15 : List (HloOp τ sig (Elt F))).Forall fun op => op.fresh = ∅ := by
  simp only [List.Forall]
  repeat' constructor

/-- The buffers the stretch writes. -/
abbrev opsN15_W : List (Ref sig .tc) := [main_v209, main_v210, main_v211, main_v212, main_v213, main_v214, main_v215, main_v216, main_v217, main_v218, main_v219]

set_option maxRecDepth 8192 in
theorem opsN15_writes : (opsN15 : List (HloOp τ sig (Elt F))).Forall fun op => op.writes ⊆ (opsN15_W.map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsN15_keep (V : Valuation τ sig (Elt F)) (r : Ref sig .tc) (h : r ∉ opsN15_W) :
    after opsN15 V (Proc.devRef .tc r) = V (Proc.devRef .tc r) :=
  after_of_writes_sub opsN15 V opsN15_writes h

set_option maxRecDepth 8192 in
set_option maxHeartbeats 1100000 in
/-- `main_v219` after the stretch, from any contents. -/
theorem segN15_main_v219 (V : Valuation τ sig (Elt F)) :
    after opsN15 V (Proc.devRef .tc main_v219) = node15 (V (Proc.devRef .tc main_v53)) (V (Proc.devRef .tc main_v160)) (V (Proc.devRef .tc main_arg9)) (V (Proc.devRef .tc main_arg10)) := by
  simp only [opsN15]
  after_results_simp <;> rfl

end Cert.ReferenceIdeal.Hand

end
-- ==== Proof.RefRunSegOutA.lean ====
/-
  The stretch of @main's operations that is the sinks' sum, the output layer, the scale and the logistic function's denominator: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsOutA_sub : (opsOutA : List (HloOp τ sig (Elt F))).Forall fun op => op.bufs ⊆ tcRefs τ sig :=
  ⟨binary_bufs_sub .., binary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub ..⟩

/-- Every operation of the stretch determines what it writes. -/
theorem opsOutA_fresh : (opsOutA : List (HloOp τ sig (Elt F))).Forall fun op => op.fresh = ∅ := by
  simp only [List.Forall]
  repeat' constructor

/-- The buffers the stretch writes. -/
abbrev opsOutA_W : List (Ref sig .tc) := [main_v220, main_v221, main_v222, main_v223, main_v224, main_v225, main_v226, main_v227, main_v228, main_v229, main_v230, main_v231, main_cst_3, main_v232, main_v233, main_cst_4]

set_option maxRecDepth 8192 in
theorem opsOutA_writes : (opsOutA : List (HloOp τ sig (Elt F))).Forall fun op => op.writes ⊆ (opsOutA_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsOutA_keep (V : Valuation τ sig (Elt F)) (r : Ref sig .tc) (h : r ∉ opsOutA_W) :
    after opsOutA V (Proc.devRef .tc r) = V (Proc.devRef .tc r) :=
  after_of_writes_sub opsOutA V opsOutA_writes h

set_option maxRecDepth 8192 in
set_option maxHeartbeats 1600000 in
/-- `main_v233` after the stretch, from any contents. -/
theorem segOutA_main_v233 (V : Valuation τ sig (Elt F)) :
    after opsOutA V (Proc.devRef .tc main_v233) = logisticDen (mulf (outLin (addf (addf (V (Proc.devRef .tc main_v193)) (V (Proc.devRef .tc main_v208))) (V (Proc.devRef .tc main_v219))) (V (Proc.devRef .tc main_arg11)) (V (Proc.devRef .tc main_arg12))) (scaleB (V (Proc.devRef .tc main_arg13)))) := by
  simp only [opsOutA]
  after_results_simp <;> rfl

set_option maxRecDepth 8192 in
set_option maxHeartbeats 1600000 in
/-- `main_cst_4` after the stretch, from any contents. -/
theorem segOutA_main_cst_4 (V : Valuation τ sig (Elt F)) :
    after opsOutA V (Proc.devRef .tc main_cst_4) = constant S_ .f32 0x3F800000#32 := by
  simp only [opsOutA]
  after_results_simp <;> rfl

end Cert.ReferenceIdeal.Hand

end
-- ==== Proof.RefRunSegOutB.lean ====
/-
  The stretch of @main's operations that is the final quotient: what it touches, what it writes, that it
  leaves every other buffer alone, and each buffer it hands on as a pure function of the contents it starts from.
-/
import proofs.«166257_j42623255446007_2_alg».proof.Proof.RefRunOps
import proofs.«166257_j42623255446007_2_alg».proof.Proof.RefRunResult

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch touches TensorCore buffers only. -/
theorem opsOutB_sub : (opsOutB : List (HloOp τ sig (Elt F))).Forall fun op => op.bufs ⊆ tcRefs τ sig :=
  ⟨unary_bufs_sub .., binary_bufs_sub ..⟩

/-- Every operation of the stretch determines what it writes. -/
theorem opsOutB_fresh : (opsOutB : List (HloOp τ sig (Elt F))).Forall fun op => op.fresh = ∅ := by
  simp only [List.Forall]
  repeat' constructor

/-- The buffers the stretch writes. -/
abbrev opsOutB_W : List (Ref sig .tc) := [main_v234, main_v235]

set_option maxRecDepth 8192 in
theorem opsOutB_writes : (opsOutB : List (HloOp τ sig (Elt F))).Forall fun op => op.writes ⊆ (opsOutB_W.map (Proc.devRef (τ := τ) .tc)).toFinset := by
  simp only [List.Forall]
  refine ⟨?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer the stretch does not write keeps its contents through it. -/
theorem opsOutB_keep (V : Valuation τ sig (Elt F)) (r : Ref sig .tc) (h : r ∉ opsOutB_W) :
    after opsOutB V (Proc.devRef .tc r) = V (Proc.devRef .tc r) :=
  after_of_writes_sub opsOutB V opsOutB_writes h

set_option maxRecDepth 8192 in
set_option maxHeartbeats 400000 in
/-- `main_v235` after the stretch, from any contents. -/
theorem segOutB_main_v235 (V : Valuation τ sig (Elt F)) :
    after opsOutB V (Proc.devRef .tc main_v235) = Host.divf (broadcastInDim S131072x3 ![] bcast_S_S131072x3 (V (Proc.devRef .tc main_cst_4))) (V (Proc.devRef .tc main_v233)) := by
  simp only [opsOutB]
  after_results_simp <;> rfl

end Cert.ReferenceIdeal.Hand

end
-- ==== Proof.RefRunFold.lean ====
/-
  The fold of @main's operations, read stretch by stretch: the device's contents after the first k stretches,
  and each buffer still needed then as its stage of the network over the ARGUMENT arrays — a kept buffer
  by the stretch's leaving it alone, a new one by the stretch's own value at the contents before it.
-/
import proofs.«166257_j42623255446007_2_alg».proof.Proof.RefRunSegLat
import proofs.«166257_j42623255446007_2_alg».proof.Proof.RefRunSegR
import proofs.«166257_j42623255446007_2_alg».proof.Proof.RefRunSegY
import proofs.«166257_j42623255446007_2_alg».proof.Proof.RefRunSegFeat
import proofs.«166257_j42623255446007_2_alg».proof.Proof.RefRunSegN0
import proofs.«166257_j42623255446007_2_alg».proof.Proof.RefRunSegN1
import proofs.«166257_j42623255446007_2_alg».proof.Proof.RefRunSegN2a
import proofs.«166257_j42623255446007_2_alg».proof.Proof.RefRunSegN2b
import proofs.«166257_j42623255446007_2_alg».proof.Proof.RefRunSegN3
import proofs.«166257_j42623255446007_2_alg».proof.Proof.RefRunSegN4
import proofs.«166257_j42623255446007_2_alg».proof.Proof.RefRunSegN5
import proofs.«166257_j42623255446007_2_alg».proof.Proof.RefRunSegN6
import proofs.«166257_j42623255446007_2_alg».proof.Proof.RefRunSegN7a
import proofs.«166257_j42623255446007_2_alg».proof.Proof.RefRunSegN7b
import proofs.«166257_j42623255446007_2_alg».proof.Proof.RefRunSegN8
import proofs.«166257_j42623255446007_2_alg».proof.Proof.RefRunSegN9
import proofs.«166257_j42623255446007_2_alg».proof.Proof.RefRunSegN10
import proofs.«166257_j42623255446007_2_alg».proof.Proof.RefRunSegN11
import proofs.«166257_j42623255446007_2_alg».proof.Proof.RefRunSegN12a
import proofs.«166257_j42623255446007_2_alg».proof.Proof.RefRunSegN12b
import proofs.«166257_j42623255446007_2_alg».proof.Proof.RefRunSegN13
import proofs.«166257_j42623255446007_2_alg».proof.Proof.RefRunSegN14
import proofs.«166257_j42623255446007_2_alg».proof.Proof.RefRunSegN15
import proofs.«166257_j42623255446007_2_alg».proof.Proof.RefRunSegOutA
import proofs.«166257_j42623255446007_2_alg».proof.Proof.RefRunSegOutB

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The contents after two lists run in turn. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The contents before the first stretch. -/
def val0 (V0 : Valuation τ sig (Elt F)) : Valuation τ sig (Elt F) := V0
theorem val0_main_arg0 (V0 : Valuation τ sig (Elt F)) : val0 V0 (no_index (Proc.devRef .tc main_arg0)) = (V0 (Proc.devRef .tc main_arg0)) := rfl
theorem val0_main_arg1 (V0 : Valuation τ sig (Elt F)) : val0 V0 (no_index (Proc.devRef .tc main_arg1)) = (V0 (Proc.devRef .tc main_arg1)) := rfl
theorem val0_main_arg2 (V0 : Valuation τ sig (Elt F)) : val0 V0 (no_index (Proc.devRef .tc main_arg2)) = (V0 (Proc.devRef .tc main_arg2)) := rfl
theorem val0_main_arg3 (V0 : Valuation τ sig (Elt F)) : val0 V0 (no_index (Proc.devRef .tc main_arg3)) = (V0 (Proc.devRef .tc main_arg3)) := rfl
theorem val0_main_arg4 (V0 : Valuation τ sig (Elt F)) : val0 V0 (no_index (Proc.devRef .tc main_arg4)) = (V0 (Proc.devRef .tc main_arg4)) := rfl
theorem val0_main_arg5 (V0 : Valuation τ sig (Elt F)) : val0 V0 (no_index (Proc.devRef .tc main_arg5)) = (V0 (Proc.devRef .tc main_arg5)) := rfl
theorem val0_main_arg6 (V0 : Valuation τ sig (Elt F)) : val0 V0 (no_index (Proc.devRef .tc main_arg6)) = (V0 (Proc.devRef .tc main_arg6)) := rfl
theorem val0_main_arg7 (V0 : Valuation τ sig (Elt F)) : val0 V0 (no_index (Proc.devRef .tc main_arg7)) = (V0 (Proc.devRef .tc main_arg7)) := rfl
theorem val0_main_arg8 (V0 : Valuation τ sig (Elt F)) : val0 V0 (no_index (Proc.devRef .tc main_arg8)) = (V0 (Proc.devRef .tc main_arg8)) := rfl
theorem val0_main_arg9 (V0 : Valuation τ sig (Elt F)) : val0 V0 (no_index (Proc.devRef .tc main_arg9)) = (V0 (Proc.devRef .tc main_arg9)) := rfl
theorem val0_main_arg10 (V0 : Valuation τ sig (Elt F)) : val0 V0 (no_index (Proc.devRef .tc main_arg10)) = (V0 (Proc.devRef .tc main_arg10)) := rfl
theorem val0_main_arg11 (V0 : Valuation τ sig (Elt F)) : val0 V0 (no_index (Proc.devRef .tc main_arg11)) = (V0 (Proc.devRef .tc main_arg11)) := rfl
theorem val0_main_arg12 (V0 : Valuation τ sig (Elt F)) : val0 V0 (no_index (Proc.devRef .tc main_arg12)) = (V0 (Proc.devRef .tc main_arg12)) := rfl
theorem val0_main_arg13 (V0 : Valuation τ sig (Elt F)) : val0 V0 (no_index (Proc.devRef .tc main_arg13)) = (V0 (Proc.devRef .tc main_arg13)) := rfl

/-- The contents after the three coordinate columns and the latents branch (stretch 1 of 25). -/
def val1 (V0 : Valuation τ sig (Elt F)) : Valuation τ sig (Elt F) := after opsLat (val0 V0)
theorem val1_main_arg0 (V0 : Valuation τ sig (Elt F)) : val1 V0 (no_index (Proc.devRef .tc main_arg0)) = (V0 (Proc.devRef .tc main_arg0)) :=
  (opsLat_keep _ main_arg0 (by decide)).trans (val0_main_arg0 V0)
theorem val1_main_arg1 (V0 : Valuation τ sig (Elt F)) : val1 V0 (no_index (Proc.devRef .tc main_arg1)) = (V0 (Proc.devRef .tc main_arg1)) :=
  (opsLat_keep _ main_arg1 (by decide)).trans (val0_main_arg1 V0)
theorem val1_main_arg2 (V0 : Valuation τ sig (Elt F)) : val1 V0 (no_index (Proc.devRef .tc main_arg2)) = (V0 (Proc.devRef .tc main_arg2)) :=
  (opsLat_keep _ main_arg2 (by decide)).trans (val0_main_arg2 V0)
theorem val1_main_arg3 (V0 : Valuation τ sig (Elt F)) : val1 V0 (no_index (Proc.devRef .tc main_arg3)) = (V0 (Proc.devRef .tc main_arg3)) :=
  (opsLat_keep _ main_arg3 (by decide)).trans (val0_main_arg3 V0)
theorem val1_main_arg4 (V0 : Valuation τ sig (Elt F)) : val1 V0 (no_index (Proc.devRef .tc main_arg4)) = (V0 (Proc.devRef .tc main_arg4)) :=
  (opsLat_keep _ main_arg4 (by decide)).trans (val0_main_arg4 V0)
theorem val1_main_arg5 (V0 : Valuation τ sig (Elt F)) : val1 V0 (no_index (Proc.devRef .tc main_arg5)) = (V0 (Proc.devRef .tc main_arg5)) :=
  (opsLat_keep _ main_arg5 (by decide)).trans (val0_main_arg5 V0)
theorem val1_main_arg6 (V0 : Valuation τ sig (Elt F)) : val1 V0 (no_index (Proc.devRef .tc main_arg6)) = (V0 (Proc.devRef .tc main_arg6)) :=
  (opsLat_keep _ main_arg6 (by decide)).trans (val0_main_arg6 V0)
theorem val1_main_arg7 (V0 : Valuation τ sig (Elt F)) : val1 V0 (no_index (Proc.devRef .tc main_arg7)) = (V0 (Proc.devRef .tc main_arg7)) :=
  (opsLat_keep _ main_arg7 (by decide)).trans (val0_main_arg7 V0)
theorem val1_main_arg8 (V0 : Valuation τ sig (Elt F)) : val1 V0 (no_index (Proc.devRef .tc main_arg8)) = (V0 (Proc.devRef .tc main_arg8)) :=
  (opsLat_keep _ main_arg8 (by decide)).trans (val0_main_arg8 V0)
theorem val1_main_arg9 (V0 : Valuation τ sig (Elt F)) : val1 V0 (no_index (Proc.devRef .tc main_arg9)) = (V0 (Proc.devRef .tc main_arg9)) :=
  (opsLat_keep _ main_arg9 (by decide)).trans (val0_main_arg9 V0)
theorem val1_main_arg10 (V0 : Valuation τ sig (Elt F)) : val1 V0 (no_index (Proc.devRef .tc main_arg10)) = (V0 (Proc.devRef .tc main_arg10)) :=
  (opsLat_keep _ main_arg10 (by decide)).trans (val0_main_arg10 V0)
theorem val1_main_arg11 (V0 : Valuation τ sig (Elt F)) : val1 V0 (no_index (Proc.devRef .tc main_arg11)) = (V0 (Proc.devRef .tc main_arg11)) :=
  (opsLat_keep _ main_arg11 (by decide)).trans (val0_main_arg11 V0)
theorem val1_main_arg12 (V0 : Valuation τ sig (Elt F)) : val1 V0 (no_index (Proc.devRef .tc main_arg12)) = (V0 (Proc.devRef .tc main_arg12)) :=
  (opsLat_keep _ main_arg12 (by decide)).trans (val0_main_arg12 V0)
theorem val1_main_arg13 (V0 : Valuation τ sig (Elt F)) : val1 V0 (no_index (Proc.devRef .tc main_arg13)) = (V0 (Proc.devRef .tc main_arg13)) :=
  (opsLat_keep _ main_arg13 (by decide)).trans (val0_main_arg13 V0)
theorem val1_main_v1 (V0 : Valuation τ sig (Elt F)) : val1 V0 (no_index (Proc.devRef .tc main_v1)) = xCol (V0 (Proc.devRef .tc main_arg0)) := by
  unfold val1
  refine (segLat_main_v1 _).trans ?_
  simp only [val0_main_arg0] <;> rfl
theorem val1_main_v3 (V0 : Valuation τ sig (Elt F)) : val1 V0 (no_index (Proc.devRef .tc main_v3)) = yCol (V0 (Proc.devRef .tc main_arg0)) := by
  unfold val1
  refine (segLat_main_v3 _).trans ?_
  simp only [val0_main_arg0] <;> rfl
theorem val1_main_v5 (V0 : Valuation τ sig (Elt F)) : val1 V0 (no_index (Proc.devRef .tc main_v5)) = rCol (V0 (Proc.devRef .tc main_arg0)) := by
  unfold val1
  refine (segLat_main_v5 _).trans ?_
  simp only [val0_main_arg0] <;> rfl
theorem val1_main_v11 (V0 : Valuation τ sig (Elt F)) : val1 V0 (no_index (Proc.devRef .tc main_v11)) = latAct (V0 (Proc.devRef .tc main_arg1)) (V0 (Proc.devRef .tc main_arg2)) (V0 (Proc.devRef .tc main_arg3)) := by
  unfold val1
  refine (segLat_main_v11 _).trans ?_
  simp only [val0_main_arg1, val0_main_arg2, val0_main_arg3] <;> rfl

/-- The contents after the r branch: its outer product and ELU inlined (stretch 2 of 25). -/
def val2 (V0 : Valuation τ sig (Elt F)) : Valuation τ sig (Elt F) := after opsR (val1 V0)
theorem val2_main_arg0 (V0 : Valuation τ sig (Elt F)) : val2 V0 (no_index (Proc.devRef .tc main_arg0)) = (V0 (Proc.devRef .tc main_arg0)) :=
  (opsR_keep _ main_arg0 (by decide)).trans (val1_main_arg0 V0)
theorem val2_main_arg1 (V0 : Valuation τ sig (Elt F)) : val2 V0 (no_index (Proc.devRef .tc main_arg1)) = (V0 (Proc.devRef .tc main_arg1)) :=
  (opsR_keep _ main_arg1 (by decide)).trans (val1_main_arg1 V0)
theorem val2_main_arg2 (V0 : Valuation τ sig (Elt F)) : val2 V0 (no_index (Proc.devRef .tc main_arg2)) = (V0 (Proc.devRef .tc main_arg2)) :=
  (opsR_keep _ main_arg2 (by decide)).trans (val1_main_arg2 V0)
theorem val2_main_arg3 (V0 : Valuation τ sig (Elt F)) : val2 V0 (no_index (Proc.devRef .tc main_arg3)) = (V0 (Proc.devRef .tc main_arg3)) :=
  (opsR_keep _ main_arg3 (by decide)).trans (val1_main_arg3 V0)
theorem val2_main_arg4 (V0 : Valuation τ sig (Elt F)) : val2 V0 (no_index (Proc.devRef .tc main_arg4)) = (V0 (Proc.devRef .tc main_arg4)) :=
  (opsR_keep _ main_arg4 (by decide)).trans (val1_main_arg4 V0)
theorem val2_main_arg5 (V0 : Valuation τ sig (Elt F)) : val2 V0 (no_index (Proc.devRef .tc main_arg5)) = (V0 (Proc.devRef .tc main_arg5)) :=
  (opsR_keep _ main_arg5 (by decide)).trans (val1_main_arg5 V0)
theorem val2_main_arg6 (V0 : Valuation τ sig (Elt F)) : val2 V0 (no_index (Proc.devRef .tc main_arg6)) = (V0 (Proc.devRef .tc main_arg6)) :=
  (opsR_keep _ main_arg6 (by decide)).trans (val1_main_arg6 V0)
theorem val2_main_arg7 (V0 : Valuation τ sig (Elt F)) : val2 V0 (no_index (Proc.devRef .tc main_arg7)) = (V0 (Proc.devRef .tc main_arg7)) :=
  (opsR_keep _ main_arg7 (by decide)).trans (val1_main_arg7 V0)
theorem val2_main_arg8 (V0 : Valuation τ sig (Elt F)) : val2 V0 (no_index (Proc.devRef .tc main_arg8)) = (V0 (Proc.devRef .tc main_arg8)) :=
  (opsR_keep _ main_arg8 (by decide)).trans (val1_main_arg8 V0)
theorem val2_main_arg9 (V0 : Valuation τ sig (Elt F)) : val2 V0 (no_index (Proc.devRef .tc main_arg9)) = (V0 (Proc.devRef .tc main_arg9)) :=
  (opsR_keep _ main_arg9 (by decide)).trans (val1_main_arg9 V0)
theorem val2_main_arg10 (V0 : Valuation τ sig (Elt F)) : val2 V0 (no_index (Proc.devRef .tc main_arg10)) = (V0 (Proc.devRef .tc main_arg10)) :=
  (opsR_keep _ main_arg10 (by decide)).trans (val1_main_arg10 V0)
theorem val2_main_arg11 (V0 : Valuation τ sig (Elt F)) : val2 V0 (no_index (Proc.devRef .tc main_arg11)) = (V0 (Proc.devRef .tc main_arg11)) :=
  (opsR_keep _ main_arg11 (by decide)).trans (val1_main_arg11 V0)
theorem val2_main_arg12 (V0 : Valuation τ sig (Elt F)) : val2 V0 (no_index (Proc.devRef .tc main_arg12)) = (V0 (Proc.devRef .tc main_arg12)) :=
  (opsR_keep _ main_arg12 (by decide)).trans (val1_main_arg12 V0)
theorem val2_main_arg13 (V0 : Valuation τ sig (Elt F)) : val2 V0 (no_index (Proc.devRef .tc main_arg13)) = (V0 (Proc.devRef .tc main_arg13)) :=
  (opsR_keep _ main_arg13 (by decide)).trans (val1_main_arg13 V0)
theorem val2_main_v1 (V0 : Valuation τ sig (Elt F)) : val2 V0 (no_index (Proc.devRef .tc main_v1)) = xCol (V0 (Proc.devRef .tc main_arg0)) :=
  (opsR_keep _ main_v1 (by decide)).trans (val1_main_v1 V0)
theorem val2_main_v3 (V0 : Valuation τ sig (Elt F)) : val2 V0 (no_index (Proc.devRef .tc main_v3)) = yCol (V0 (Proc.devRef .tc main_arg0)) :=
  (opsR_keep _ main_v3 (by decide)).trans (val1_main_v3 V0)
theorem val2_main_v11 (V0 : Valuation τ sig (Elt F)) : val2 V0 (no_index (Proc.devRef .tc main_v11)) = latAct (V0 (Proc.devRef .tc main_arg1)) (V0 (Proc.devRef .tc main_arg2)) (V0 (Proc.devRef .tc main_arg3)) :=
  (opsR_keep _ main_v11 (by decide)).trans (val1_main_v11 V0)
theorem val2_main_v14 (V0 : Valuation τ sig (Elt F)) : val2 V0 (no_index (Proc.devRef .tc main_v14)) = rAct (V0 (Proc.devRef .tc main_arg0)) (V0 (Proc.devRef .tc main_arg6)) := by
  unfold val2
  refine (segR_main_v14 _).trans ?_
  simp only [val1_main_v5, val1_main_arg6] <;> rfl

/-- The contents after the y branch: its outer product and softplus inlined (stretch 3 of 25). -/
def val3 (V0 : Valuation τ sig (Elt F)) : Valuation τ sig (Elt F) := after opsY (val2 V0)
theorem val3_main_arg0 (V0 : Valuation τ sig (Elt F)) : val3 V0 (no_index (Proc.devRef .tc main_arg0)) = (V0 (Proc.devRef .tc main_arg0)) :=
  (opsY_keep _ main_arg0 (by decide)).trans (val2_main_arg0 V0)
theorem val3_main_arg1 (V0 : Valuation τ sig (Elt F)) : val3 V0 (no_index (Proc.devRef .tc main_arg1)) = (V0 (Proc.devRef .tc main_arg1)) :=
  (opsY_keep _ main_arg1 (by decide)).trans (val2_main_arg1 V0)
theorem val3_main_arg2 (V0 : Valuation τ sig (Elt F)) : val3 V0 (no_index (Proc.devRef .tc main_arg2)) = (V0 (Proc.devRef .tc main_arg2)) :=
  (opsY_keep _ main_arg2 (by decide)).trans (val2_main_arg2 V0)
theorem val3_main_arg3 (V0 : Valuation τ sig (Elt F)) : val3 V0 (no_index (Proc.devRef .tc main_arg3)) = (V0 (Proc.devRef .tc main_arg3)) :=
  (opsY_keep _ main_arg3 (by decide)).trans (val2_main_arg3 V0)
theorem val3_main_arg4 (V0 : Valuation τ sig (Elt F)) : val3 V0 (no_index (Proc.devRef .tc main_arg4)) = (V0 (Proc.devRef .tc main_arg4)) :=
  (opsY_keep _ main_arg4 (by decide)).trans (val2_main_arg4 V0)
theorem val3_main_arg5 (V0 : Valuation τ sig (Elt F)) : val3 V0 (no_index (Proc.devRef .tc main_arg5)) = (V0 (Proc.devRef .tc main_arg5)) :=
  (opsY_keep _ main_arg5 (by decide)).trans (val2_main_arg5 V0)
theorem val3_main_arg6 (V0 : Valuation τ sig (Elt F)) : val3 V0 (no_index (Proc.devRef .tc main_arg6)) = (V0 (Proc.devRef .tc main_arg6)) :=
  (opsY_keep _ main_arg6 (by decide)).trans (val2_main_arg6 V0)
theorem val3_main_arg7 (V0 : Valuation τ sig (Elt F)) : val3 V0 (no_index (Proc.devRef .tc main_arg7)) = (V0 (Proc.devRef .tc main_arg7)) :=
  (opsY_keep _ main_arg7 (by decide)).trans (val2_main_arg7 V0)
theorem val3_main_arg8 (V0 : Valuation τ sig (Elt F)) : val3 V0 (no_index (Proc.devRef .tc main_arg8)) = (V0 (Proc.devRef .tc main_arg8)) :=
  (opsY_keep _ main_arg8 (by decide)).trans (val2_main_arg8 V0)
theorem val3_main_arg9 (V0 : Valuation τ sig (Elt F)) : val3 V0 (no_index (Proc.devRef .tc main_arg9)) = (V0 (Proc.devRef .tc main_arg9)) :=
  (opsY_keep _ main_arg9 (by decide)).trans (val2_main_arg9 V0)
theorem val3_main_arg10 (V0 : Valuation τ sig (Elt F)) : val3 V0 (no_index (Proc.devRef .tc main_arg10)) = (V0 (Proc.devRef .tc main_arg10)) :=
  (opsY_keep _ main_arg10 (by decide)).trans (val2_main_arg10 V0)
theorem val3_main_arg11 (V0 : Valuation τ sig (Elt F)) : val3 V0 (no_index (Proc.devRef .tc main_arg11)) = (V0 (Proc.devRef .tc main_arg11)) :=
  (opsY_keep _ main_arg11 (by decide)).trans (val2_main_arg11 V0)
theorem val3_main_arg12 (V0 : Valuation τ sig (Elt F)) : val3 V0 (no_index (Proc.devRef .tc main_arg12)) = (V0 (Proc.devRef .tc main_arg12)) :=
  (opsY_keep _ main_arg12 (by decide)).trans (val2_main_arg12 V0)
theorem val3_main_arg13 (V0 : Valuation τ sig (Elt F)) : val3 V0 (no_index (Proc.devRef .tc main_arg13)) = (V0 (Proc.devRef .tc main_arg13)) :=
  (opsY_keep _ main_arg13 (by decide)).trans (val2_main_arg13 V0)
theorem val3_main_v1 (V0 : Valuation τ sig (Elt F)) : val3 V0 (no_index (Proc.devRef .tc main_v1)) = xCol (V0 (Proc.devRef .tc main_arg0)) :=
  (opsY_keep _ main_v1 (by decide)).trans (val2_main_v1 V0)
theorem val3_main_v11 (V0 : Valuation τ sig (Elt F)) : val3 V0 (no_index (Proc.devRef .tc main_v11)) = latAct (V0 (Proc.devRef .tc main_arg1)) (V0 (Proc.devRef .tc main_arg2)) (V0 (Proc.devRef .tc main_arg3)) :=
  (opsY_keep _ main_v11 (by decide)).trans (val2_main_v11 V0)
theorem val3_main_v14 (V0 : Valuation τ sig (Elt F)) : val3 V0 (no_index (Proc.devRef .tc main_v14)) = rAct (V0 (Proc.devRef .tc main_arg0)) (V0 (Proc.devRef .tc main_arg6)) :=
  (opsY_keep _ main_v14 (by decide)).trans (val2_main_v14 V0)
theorem val3_main_v17 (V0 : Valuation τ sig (Elt F)) : val3 V0 (no_index (Proc.devRef .tc main_v17)) = yAct (V0 (Proc.devRef .tc main_arg0)) (V0 (Proc.devRef .tc main_arg5)) := by
  unfold val3
  refine (segY_main_v17 _).trans ?_
  simp only [val2_main_v3, val2_main_arg5] <;> rfl

/-- The contents after the x branch, the four branches' sum, the Gaussian, the W1 layer and sine (stretch 4 of 25). -/
def val4 (V0 : Valuation τ sig (Elt F)) : Valuation τ sig (Elt F) := after opsFeat (val3 V0)
theorem val4_main_arg0 (V0 : Valuation τ sig (Elt F)) : val4 V0 (no_index (Proc.devRef .tc main_arg0)) = (V0 (Proc.devRef .tc main_arg0)) :=
  (opsFeat_keep _ main_arg0 (by decide)).trans (val3_main_arg0 V0)
theorem val4_main_arg1 (V0 : Valuation τ sig (Elt F)) : val4 V0 (no_index (Proc.devRef .tc main_arg1)) = (V0 (Proc.devRef .tc main_arg1)) :=
  (opsFeat_keep _ main_arg1 (by decide)).trans (val3_main_arg1 V0)
theorem val4_main_arg2 (V0 : Valuation τ sig (Elt F)) : val4 V0 (no_index (Proc.devRef .tc main_arg2)) = (V0 (Proc.devRef .tc main_arg2)) :=
  (opsFeat_keep _ main_arg2 (by decide)).trans (val3_main_arg2 V0)
theorem val4_main_arg3 (V0 : Valuation τ sig (Elt F)) : val4 V0 (no_index (Proc.devRef .tc main_arg3)) = (V0 (Proc.devRef .tc main_arg3)) :=
  (opsFeat_keep _ main_arg3 (by decide)).trans (val3_main_arg3 V0)
theorem val4_main_arg4 (V0 : Valuation τ sig (Elt F)) : val4 V0 (no_index (Proc.devRef .tc main_arg4)) = (V0 (Proc.devRef .tc main_arg4)) :=
  (opsFeat_keep _ main_arg4 (by decide)).trans (val3_main_arg4 V0)
theorem val4_main_arg5 (V0 : Valuation τ sig (Elt F)) : val4 V0 (no_index (Proc.devRef .tc main_arg5)) = (V0 (Proc.devRef .tc main_arg5)) :=
  (opsFeat_keep _ main_arg5 (by decide)).trans (val3_main_arg5 V0)
theorem val4_main_arg6 (V0 : Valuation τ sig (Elt F)) : val4 V0 (no_index (Proc.devRef .tc main_arg6)) = (V0 (Proc.devRef .tc main_arg6)) :=
  (opsFeat_keep _ main_arg6 (by decide)).trans (val3_main_arg6 V0)
theorem val4_main_arg7 (V0 : Valuation τ sig (Elt F)) : val4 V0 (no_index (Proc.devRef .tc main_arg7)) = (V0 (Proc.devRef .tc main_arg7)) :=
  (opsFeat_keep _ main_arg7 (by decide)).trans (val3_main_arg7 V0)
theorem val4_main_arg8 (V0 : Valuation τ sig (Elt F)) : val4 V0 (no_index (Proc.devRef .tc main_arg8)) = (V0 (Proc.devRef .tc main_arg8)) :=
  (opsFeat_keep _ main_arg8 (by decide)).trans (val3_main_arg8 V0)
theorem val4_main_arg9 (V0 : Valuation τ sig (Elt F)) : val4 V0 (no_index (Proc.devRef .tc main_arg9)) = (V0 (Proc.devRef .tc main_arg9)) :=
  (opsFeat_keep _ main_arg9 (by decide)).trans (val3_main_arg9 V0)
theorem val4_main_arg10 (V0 : Valuation τ sig (Elt F)) : val4 V0 (no_index (Proc.devRef .tc main_arg10)) = (V0 (Proc.devRef .tc main_arg10)) :=
  (opsFeat_keep _ main_arg10 (by decide)).trans (val3_main_arg10 V0)
theorem val4_main_arg11 (V0 : Valuation τ sig (Elt F)) : val4 V0 (no_index (Proc.devRef .tc main_arg11)) = (V0 (Proc.devRef .tc main_arg11)) :=
  (opsFeat_keep _ main_arg11 (by decide)).trans (val3_main_arg11 V0)
theorem val4_main_arg12 (V0 : Valuation τ sig (Elt F)) : val4 V0 (no_index (Proc.devRef .tc main_arg12)) = (V0 (Proc.devRef .tc main_arg12)) :=
  (opsFeat_keep _ main_arg12 (by decide)).trans (val3_main_arg12 V0)
theorem val4_main_arg13 (V0 : Valuation τ sig (Elt F)) : val4 V0 (no_index (Proc.devRef .tc main_arg13)) = (V0 (Proc.devRef .tc main_arg13)) :=
  (opsFeat_keep _ main_arg13 (by decide)).trans (val3_main_arg13 V0)
theorem val4_main_v33 (V0 : Valuation τ sig (Elt F)) : val4 V0 (no_index (Proc.devRef .tc main_v33)) = feat (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val4
  refine (segFeat_main_v33 _).trans ?_
  simp only [val3_main_v1, val3_main_arg4, val3_main_v17, val3_main_v14, val3_main_v11, val3_main_arg7, val3_main_arg8] <;> rfl

/-- The contents after node 0 (stretch 5 of 25). -/
def val5 (V0 : Valuation τ sig (Elt F)) : Valuation τ sig (Elt F) := after opsN0 (val4 V0)
theorem val5_main_arg0 (V0 : Valuation τ sig (Elt F)) : val5 V0 (no_index (Proc.devRef .tc main_arg0)) = (V0 (Proc.devRef .tc main_arg0)) :=
  (opsN0_keep _ main_arg0 (by decide)).trans (val4_main_arg0 V0)
theorem val5_main_arg1 (V0 : Valuation τ sig (Elt F)) : val5 V0 (no_index (Proc.devRef .tc main_arg1)) = (V0 (Proc.devRef .tc main_arg1)) :=
  (opsN0_keep _ main_arg1 (by decide)).trans (val4_main_arg1 V0)
theorem val5_main_arg2 (V0 : Valuation τ sig (Elt F)) : val5 V0 (no_index (Proc.devRef .tc main_arg2)) = (V0 (Proc.devRef .tc main_arg2)) :=
  (opsN0_keep _ main_arg2 (by decide)).trans (val4_main_arg2 V0)
theorem val5_main_arg3 (V0 : Valuation τ sig (Elt F)) : val5 V0 (no_index (Proc.devRef .tc main_arg3)) = (V0 (Proc.devRef .tc main_arg3)) :=
  (opsN0_keep _ main_arg3 (by decide)).trans (val4_main_arg3 V0)
theorem val5_main_arg4 (V0 : Valuation τ sig (Elt F)) : val5 V0 (no_index (Proc.devRef .tc main_arg4)) = (V0 (Proc.devRef .tc main_arg4)) :=
  (opsN0_keep _ main_arg4 (by decide)).trans (val4_main_arg4 V0)
theorem val5_main_arg5 (V0 : Valuation τ sig (Elt F)) : val5 V0 (no_index (Proc.devRef .tc main_arg5)) = (V0 (Proc.devRef .tc main_arg5)) :=
  (opsN0_keep _ main_arg5 (by decide)).trans (val4_main_arg5 V0)
theorem val5_main_arg6 (V0 : Valuation τ sig (Elt F)) : val5 V0 (no_index (Proc.devRef .tc main_arg6)) = (V0 (Proc.devRef .tc main_arg6)) :=
  (opsN0_keep _ main_arg6 (by decide)).trans (val4_main_arg6 V0)
theorem val5_main_arg7 (V0 : Valuation τ sig (Elt F)) : val5 V0 (no_index (Proc.devRef .tc main_arg7)) = (V0 (Proc.devRef .tc main_arg7)) :=
  (opsN0_keep _ main_arg7 (by decide)).trans (val4_main_arg7 V0)
theorem val5_main_arg8 (V0 : Valuation τ sig (Elt F)) : val5 V0 (no_index (Proc.devRef .tc main_arg8)) = (V0 (Proc.devRef .tc main_arg8)) :=
  (opsN0_keep _ main_arg8 (by decide)).trans (val4_main_arg8 V0)
theorem val5_main_arg9 (V0 : Valuation τ sig (Elt F)) : val5 V0 (no_index (Proc.devRef .tc main_arg9)) = (V0 (Proc.devRef .tc main_arg9)) :=
  (opsN0_keep _ main_arg9 (by decide)).trans (val4_main_arg9 V0)
theorem val5_main_arg10 (V0 : Valuation τ sig (Elt F)) : val5 V0 (no_index (Proc.devRef .tc main_arg10)) = (V0 (Proc.devRef .tc main_arg10)) :=
  (opsN0_keep _ main_arg10 (by decide)).trans (val4_main_arg10 V0)
theorem val5_main_arg11 (V0 : Valuation τ sig (Elt F)) : val5 V0 (no_index (Proc.devRef .tc main_arg11)) = (V0 (Proc.devRef .tc main_arg11)) :=
  (opsN0_keep _ main_arg11 (by decide)).trans (val4_main_arg11 V0)
theorem val5_main_arg12 (V0 : Valuation τ sig (Elt F)) : val5 V0 (no_index (Proc.devRef .tc main_arg12)) = (V0 (Proc.devRef .tc main_arg12)) :=
  (opsN0_keep _ main_arg12 (by decide)).trans (val4_main_arg12 V0)
theorem val5_main_arg13 (V0 : Valuation τ sig (Elt F)) : val5 V0 (no_index (Proc.devRef .tc main_arg13)) = (V0 (Proc.devRef .tc main_arg13)) :=
  (opsN0_keep _ main_arg13 (by decide)).trans (val4_main_arg13 V0)
theorem val5_main_v43 (V0 : Valuation τ sig (Elt F)) : val5 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val5
  refine (segN0_main_v43 _).trans ?_
  simp only [val4_main_v33, val4_main_arg9, val4_main_arg10] <;> rfl

/-- The contents after node 1 (stretch 6 of 25). -/
def val6 (V0 : Valuation τ sig (Elt F)) : Valuation τ sig (Elt F) := after opsN1 (val5 V0)
theorem val6_main_arg0 (V0 : Valuation τ sig (Elt F)) : val6 V0 (no_index (Proc.devRef .tc main_arg0)) = (V0 (Proc.devRef .tc main_arg0)) :=
  (opsN1_keep _ main_arg0 (by decide)).trans (val5_main_arg0 V0)
theorem val6_main_arg1 (V0 : Valuation τ sig (Elt F)) : val6 V0 (no_index (Proc.devRef .tc main_arg1)) = (V0 (Proc.devRef .tc main_arg1)) :=
  (opsN1_keep _ main_arg1 (by decide)).trans (val5_main_arg1 V0)
theorem val6_main_arg2 (V0 : Valuation τ sig (Elt F)) : val6 V0 (no_index (Proc.devRef .tc main_arg2)) = (V0 (Proc.devRef .tc main_arg2)) :=
  (opsN1_keep _ main_arg2 (by decide)).trans (val5_main_arg2 V0)
theorem val6_main_arg3 (V0 : Valuation τ sig (Elt F)) : val6 V0 (no_index (Proc.devRef .tc main_arg3)) = (V0 (Proc.devRef .tc main_arg3)) :=
  (opsN1_keep _ main_arg3 (by decide)).trans (val5_main_arg3 V0)
theorem val6_main_arg4 (V0 : Valuation τ sig (Elt F)) : val6 V0 (no_index (Proc.devRef .tc main_arg4)) = (V0 (Proc.devRef .tc main_arg4)) :=
  (opsN1_keep _ main_arg4 (by decide)).trans (val5_main_arg4 V0)
theorem val6_main_arg5 (V0 : Valuation τ sig (Elt F)) : val6 V0 (no_index (Proc.devRef .tc main_arg5)) = (V0 (Proc.devRef .tc main_arg5)) :=
  (opsN1_keep _ main_arg5 (by decide)).trans (val5_main_arg5 V0)
theorem val6_main_arg6 (V0 : Valuation τ sig (Elt F)) : val6 V0 (no_index (Proc.devRef .tc main_arg6)) = (V0 (Proc.devRef .tc main_arg6)) :=
  (opsN1_keep _ main_arg6 (by decide)).trans (val5_main_arg6 V0)
theorem val6_main_arg7 (V0 : Valuation τ sig (Elt F)) : val6 V0 (no_index (Proc.devRef .tc main_arg7)) = (V0 (Proc.devRef .tc main_arg7)) :=
  (opsN1_keep _ main_arg7 (by decide)).trans (val5_main_arg7 V0)
theorem val6_main_arg8 (V0 : Valuation τ sig (Elt F)) : val6 V0 (no_index (Proc.devRef .tc main_arg8)) = (V0 (Proc.devRef .tc main_arg8)) :=
  (opsN1_keep _ main_arg8 (by decide)).trans (val5_main_arg8 V0)
theorem val6_main_arg9 (V0 : Valuation τ sig (Elt F)) : val6 V0 (no_index (Proc.devRef .tc main_arg9)) = (V0 (Proc.devRef .tc main_arg9)) :=
  (opsN1_keep _ main_arg9 (by decide)).trans (val5_main_arg9 V0)
theorem val6_main_arg10 (V0 : Valuation τ sig (Elt F)) : val6 V0 (no_index (Proc.devRef .tc main_arg10)) = (V0 (Proc.devRef .tc main_arg10)) :=
  (opsN1_keep _ main_arg10 (by decide)).trans (val5_main_arg10 V0)
theorem val6_main_arg11 (V0 : Valuation τ sig (Elt F)) : val6 V0 (no_index (Proc.devRef .tc main_arg11)) = (V0 (Proc.devRef .tc main_arg11)) :=
  (opsN1_keep _ main_arg11 (by decide)).trans (val5_main_arg11 V0)
theorem val6_main_arg12 (V0 : Valuation τ sig (Elt F)) : val6 V0 (no_index (Proc.devRef .tc main_arg12)) = (V0 (Proc.devRef .tc main_arg12)) :=
  (opsN1_keep _ main_arg12 (by decide)).trans (val5_main_arg12 V0)
theorem val6_main_arg13 (V0 : Valuation τ sig (Elt F)) : val6 V0 (no_index (Proc.devRef .tc main_arg13)) = (V0 (Proc.devRef .tc main_arg13)) :=
  (opsN1_keep _ main_arg13 (by decide)).trans (val5_main_arg13 V0)
theorem val6_main_v43 (V0 : Valuation τ sig (Elt F)) : val6 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN1_keep _ main_v43 (by decide)).trans (val5_main_v43 V0)
theorem val6_main_v53 (V0 : Valuation τ sig (Elt F)) : val6 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val6
  refine (segN1_main_v53 _).trans ?_
  simp only [val5_main_v43, val5_main_arg9, val5_main_arg10] <;> rfl

/-- The contents after node 2 up to its product with gW[2] (stretch 7 of 25). -/
def val7 (V0 : Valuation τ sig (Elt F)) : Valuation τ sig (Elt F) := after opsN2a (val6 V0)
theorem val7_main_arg0 (V0 : Valuation τ sig (Elt F)) : val7 V0 (no_index (Proc.devRef .tc main_arg0)) = (V0 (Proc.devRef .tc main_arg0)) :=
  (opsN2a_keep _ main_arg0 (by decide)).trans (val6_main_arg0 V0)
theorem val7_main_arg1 (V0 : Valuation τ sig (Elt F)) : val7 V0 (no_index (Proc.devRef .tc main_arg1)) = (V0 (Proc.devRef .tc main_arg1)) :=
  (opsN2a_keep _ main_arg1 (by decide)).trans (val6_main_arg1 V0)
theorem val7_main_arg2 (V0 : Valuation τ sig (Elt F)) : val7 V0 (no_index (Proc.devRef .tc main_arg2)) = (V0 (Proc.devRef .tc main_arg2)) :=
  (opsN2a_keep _ main_arg2 (by decide)).trans (val6_main_arg2 V0)
theorem val7_main_arg3 (V0 : Valuation τ sig (Elt F)) : val7 V0 (no_index (Proc.devRef .tc main_arg3)) = (V0 (Proc.devRef .tc main_arg3)) :=
  (opsN2a_keep _ main_arg3 (by decide)).trans (val6_main_arg3 V0)
theorem val7_main_arg4 (V0 : Valuation τ sig (Elt F)) : val7 V0 (no_index (Proc.devRef .tc main_arg4)) = (V0 (Proc.devRef .tc main_arg4)) :=
  (opsN2a_keep _ main_arg4 (by decide)).trans (val6_main_arg4 V0)
theorem val7_main_arg5 (V0 : Valuation τ sig (Elt F)) : val7 V0 (no_index (Proc.devRef .tc main_arg5)) = (V0 (Proc.devRef .tc main_arg5)) :=
  (opsN2a_keep _ main_arg5 (by decide)).trans (val6_main_arg5 V0)
theorem val7_main_arg6 (V0 : Valuation τ sig (Elt F)) : val7 V0 (no_index (Proc.devRef .tc main_arg6)) = (V0 (Proc.devRef .tc main_arg6)) :=
  (opsN2a_keep _ main_arg6 (by decide)).trans (val6_main_arg6 V0)
theorem val7_main_arg7 (V0 : Valuation τ sig (Elt F)) : val7 V0 (no_index (Proc.devRef .tc main_arg7)) = (V0 (Proc.devRef .tc main_arg7)) :=
  (opsN2a_keep _ main_arg7 (by decide)).trans (val6_main_arg7 V0)
theorem val7_main_arg8 (V0 : Valuation τ sig (Elt F)) : val7 V0 (no_index (Proc.devRef .tc main_arg8)) = (V0 (Proc.devRef .tc main_arg8)) :=
  (opsN2a_keep _ main_arg8 (by decide)).trans (val6_main_arg8 V0)
theorem val7_main_arg9 (V0 : Valuation τ sig (Elt F)) : val7 V0 (no_index (Proc.devRef .tc main_arg9)) = (V0 (Proc.devRef .tc main_arg9)) :=
  (opsN2a_keep _ main_arg9 (by decide)).trans (val6_main_arg9 V0)
theorem val7_main_arg10 (V0 : Valuation τ sig (Elt F)) : val7 V0 (no_index (Proc.devRef .tc main_arg10)) = (V0 (Proc.devRef .tc main_arg10)) :=
  (opsN2a_keep _ main_arg10 (by decide)).trans (val6_main_arg10 V0)
theorem val7_main_arg11 (V0 : Valuation τ sig (Elt F)) : val7 V0 (no_index (Proc.devRef .tc main_arg11)) = (V0 (Proc.devRef .tc main_arg11)) :=
  (opsN2a_keep _ main_arg11 (by decide)).trans (val6_main_arg11 V0)
theorem val7_main_arg12 (V0 : Valuation τ sig (Elt F)) : val7 V0 (no_index (Proc.devRef .tc main_arg12)) = (V0 (Proc.devRef .tc main_arg12)) :=
  (opsN2a_keep _ main_arg12 (by decide)).trans (val6_main_arg12 V0)
theorem val7_main_arg13 (V0 : Valuation τ sig (Elt F)) : val7 V0 (no_index (Proc.devRef .tc main_arg13)) = (V0 (Proc.devRef .tc main_arg13)) :=
  (opsN2a_keep _ main_arg13 (by decide)).trans (val6_main_arg13 V0)
theorem val7_main_v43 (V0 : Valuation τ sig (Elt F)) : val7 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN2a_keep _ main_v43 (by decide)).trans (val6_main_v43 V0)
theorem val7_main_v53 (V0 : Valuation τ sig (Elt F)) : val7 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN2a_keep _ main_v53 (by decide)).trans (val6_main_v53 V0)
theorem val7_main_v58 (V0 : Valuation τ sig (Elt F)) : val7 V0 (no_index (Proc.devRef .tc main_v58)) = Host.dotGeneral dot_S131072x64_S64x64_S131072x64_1_0_0_1_n_n none (addf (h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)))) (gW2 (V0 (Proc.devRef .tc main_arg9))) := by
  unfold val7
  refine (segN2a_main_v58 _).trans ?_
  simp only [val6_main_v43, val6_main_v53, val6_main_arg9] <;> rfl

/-- The contents after node 2 from its bias on (stretch 8 of 25). -/
def val8 (V0 : Valuation τ sig (Elt F)) : Valuation τ sig (Elt F) := after opsN2b (val7 V0)
theorem val8_main_arg0 (V0 : Valuation τ sig (Elt F)) : val8 V0 (no_index (Proc.devRef .tc main_arg0)) = (V0 (Proc.devRef .tc main_arg0)) :=
  (opsN2b_keep _ main_arg0 (by decide)).trans (val7_main_arg0 V0)
theorem val8_main_arg1 (V0 : Valuation τ sig (Elt F)) : val8 V0 (no_index (Proc.devRef .tc main_arg1)) = (V0 (Proc.devRef .tc main_arg1)) :=
  (opsN2b_keep _ main_arg1 (by decide)).trans (val7_main_arg1 V0)
theorem val8_main_arg2 (V0 : Valuation τ sig (Elt F)) : val8 V0 (no_index (Proc.devRef .tc main_arg2)) = (V0 (Proc.devRef .tc main_arg2)) :=
  (opsN2b_keep _ main_arg2 (by decide)).trans (val7_main_arg2 V0)
theorem val8_main_arg3 (V0 : Valuation τ sig (Elt F)) : val8 V0 (no_index (Proc.devRef .tc main_arg3)) = (V0 (Proc.devRef .tc main_arg3)) :=
  (opsN2b_keep _ main_arg3 (by decide)).trans (val7_main_arg3 V0)
theorem val8_main_arg4 (V0 : Valuation τ sig (Elt F)) : val8 V0 (no_index (Proc.devRef .tc main_arg4)) = (V0 (Proc.devRef .tc main_arg4)) :=
  (opsN2b_keep _ main_arg4 (by decide)).trans (val7_main_arg4 V0)
theorem val8_main_arg5 (V0 : Valuation τ sig (Elt F)) : val8 V0 (no_index (Proc.devRef .tc main_arg5)) = (V0 (Proc.devRef .tc main_arg5)) :=
  (opsN2b_keep _ main_arg5 (by decide)).trans (val7_main_arg5 V0)
theorem val8_main_arg6 (V0 : Valuation τ sig (Elt F)) : val8 V0 (no_index (Proc.devRef .tc main_arg6)) = (V0 (Proc.devRef .tc main_arg6)) :=
  (opsN2b_keep _ main_arg6 (by decide)).trans (val7_main_arg6 V0)
theorem val8_main_arg7 (V0 : Valuation τ sig (Elt F)) : val8 V0 (no_index (Proc.devRef .tc main_arg7)) = (V0 (Proc.devRef .tc main_arg7)) :=
  (opsN2b_keep _ main_arg7 (by decide)).trans (val7_main_arg7 V0)
theorem val8_main_arg8 (V0 : Valuation τ sig (Elt F)) : val8 V0 (no_index (Proc.devRef .tc main_arg8)) = (V0 (Proc.devRef .tc main_arg8)) :=
  (opsN2b_keep _ main_arg8 (by decide)).trans (val7_main_arg8 V0)
theorem val8_main_arg9 (V0 : Valuation τ sig (Elt F)) : val8 V0 (no_index (Proc.devRef .tc main_arg9)) = (V0 (Proc.devRef .tc main_arg9)) :=
  (opsN2b_keep _ main_arg9 (by decide)).trans (val7_main_arg9 V0)
theorem val8_main_arg10 (V0 : Valuation τ sig (Elt F)) : val8 V0 (no_index (Proc.devRef .tc main_arg10)) = (V0 (Proc.devRef .tc main_arg10)) :=
  (opsN2b_keep _ main_arg10 (by decide)).trans (val7_main_arg10 V0)
theorem val8_main_arg11 (V0 : Valuation τ sig (Elt F)) : val8 V0 (no_index (Proc.devRef .tc main_arg11)) = (V0 (Proc.devRef .tc main_arg11)) :=
  (opsN2b_keep _ main_arg11 (by decide)).trans (val7_main_arg11 V0)
theorem val8_main_arg12 (V0 : Valuation τ sig (Elt F)) : val8 V0 (no_index (Proc.devRef .tc main_arg12)) = (V0 (Proc.devRef .tc main_arg12)) :=
  (opsN2b_keep _ main_arg12 (by decide)).trans (val7_main_arg12 V0)
theorem val8_main_arg13 (V0 : Valuation τ sig (Elt F)) : val8 V0 (no_index (Proc.devRef .tc main_arg13)) = (V0 (Proc.devRef .tc main_arg13)) :=
  (opsN2b_keep _ main_arg13 (by decide)).trans (val7_main_arg13 V0)
theorem val8_main_v43 (V0 : Valuation τ sig (Elt F)) : val8 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN2b_keep _ main_v43 (by decide)).trans (val7_main_v43 V0)
theorem val8_main_v53 (V0 : Valuation τ sig (Elt F)) : val8 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN2b_keep _ main_v53 (by decide)).trans (val7_main_v53 V0)
theorem val8_main_v64 (V0 : Valuation τ sig (Elt F)) : val8 V0 (no_index (Proc.devRef .tc main_v64)) = h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val8
  refine (segN2b_main_v64 _).trans ?_
  simp only [val7_main_v58, val7_main_arg10] <;> rfl

/-- The contents after node 3 (stretch 9 of 25). -/
def val9 (V0 : Valuation τ sig (Elt F)) : Valuation τ sig (Elt F) := after opsN3 (val8 V0)
theorem val9_main_arg0 (V0 : Valuation τ sig (Elt F)) : val9 V0 (no_index (Proc.devRef .tc main_arg0)) = (V0 (Proc.devRef .tc main_arg0)) :=
  (opsN3_keep _ main_arg0 (by decide)).trans (val8_main_arg0 V0)
theorem val9_main_arg1 (V0 : Valuation τ sig (Elt F)) : val9 V0 (no_index (Proc.devRef .tc main_arg1)) = (V0 (Proc.devRef .tc main_arg1)) :=
  (opsN3_keep _ main_arg1 (by decide)).trans (val8_main_arg1 V0)
theorem val9_main_arg2 (V0 : Valuation τ sig (Elt F)) : val9 V0 (no_index (Proc.devRef .tc main_arg2)) = (V0 (Proc.devRef .tc main_arg2)) :=
  (opsN3_keep _ main_arg2 (by decide)).trans (val8_main_arg2 V0)
theorem val9_main_arg3 (V0 : Valuation τ sig (Elt F)) : val9 V0 (no_index (Proc.devRef .tc main_arg3)) = (V0 (Proc.devRef .tc main_arg3)) :=
  (opsN3_keep _ main_arg3 (by decide)).trans (val8_main_arg3 V0)
theorem val9_main_arg4 (V0 : Valuation τ sig (Elt F)) : val9 V0 (no_index (Proc.devRef .tc main_arg4)) = (V0 (Proc.devRef .tc main_arg4)) :=
  (opsN3_keep _ main_arg4 (by decide)).trans (val8_main_arg4 V0)
theorem val9_main_arg5 (V0 : Valuation τ sig (Elt F)) : val9 V0 (no_index (Proc.devRef .tc main_arg5)) = (V0 (Proc.devRef .tc main_arg5)) :=
  (opsN3_keep _ main_arg5 (by decide)).trans (val8_main_arg5 V0)
theorem val9_main_arg6 (V0 : Valuation τ sig (Elt F)) : val9 V0 (no_index (Proc.devRef .tc main_arg6)) = (V0 (Proc.devRef .tc main_arg6)) :=
  (opsN3_keep _ main_arg6 (by decide)).trans (val8_main_arg6 V0)
theorem val9_main_arg7 (V0 : Valuation τ sig (Elt F)) : val9 V0 (no_index (Proc.devRef .tc main_arg7)) = (V0 (Proc.devRef .tc main_arg7)) :=
  (opsN3_keep _ main_arg7 (by decide)).trans (val8_main_arg7 V0)
theorem val9_main_arg8 (V0 : Valuation τ sig (Elt F)) : val9 V0 (no_index (Proc.devRef .tc main_arg8)) = (V0 (Proc.devRef .tc main_arg8)) :=
  (opsN3_keep _ main_arg8 (by decide)).trans (val8_main_arg8 V0)
theorem val9_main_arg9 (V0 : Valuation τ sig (Elt F)) : val9 V0 (no_index (Proc.devRef .tc main_arg9)) = (V0 (Proc.devRef .tc main_arg9)) :=
  (opsN3_keep _ main_arg9 (by decide)).trans (val8_main_arg9 V0)
theorem val9_main_arg10 (V0 : Valuation τ sig (Elt F)) : val9 V0 (no_index (Proc.devRef .tc main_arg10)) = (V0 (Proc.devRef .tc main_arg10)) :=
  (opsN3_keep _ main_arg10 (by decide)).trans (val8_main_arg10 V0)
theorem val9_main_arg11 (V0 : Valuation τ sig (Elt F)) : val9 V0 (no_index (Proc.devRef .tc main_arg11)) = (V0 (Proc.devRef .tc main_arg11)) :=
  (opsN3_keep _ main_arg11 (by decide)).trans (val8_main_arg11 V0)
theorem val9_main_arg12 (V0 : Valuation τ sig (Elt F)) : val9 V0 (no_index (Proc.devRef .tc main_arg12)) = (V0 (Proc.devRef .tc main_arg12)) :=
  (opsN3_keep _ main_arg12 (by decide)).trans (val8_main_arg12 V0)
theorem val9_main_arg13 (V0 : Valuation τ sig (Elt F)) : val9 V0 (no_index (Proc.devRef .tc main_arg13)) = (V0 (Proc.devRef .tc main_arg13)) :=
  (opsN3_keep _ main_arg13 (by decide)).trans (val8_main_arg13 V0)
theorem val9_main_v43 (V0 : Valuation τ sig (Elt F)) : val9 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN3_keep _ main_v43 (by decide)).trans (val8_main_v43 V0)
theorem val9_main_v53 (V0 : Valuation τ sig (Elt F)) : val9 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN3_keep _ main_v53 (by decide)).trans (val8_main_v53 V0)
theorem val9_main_v64 (V0 : Valuation τ sig (Elt F)) : val9 V0 (no_index (Proc.devRef .tc main_v64)) = h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN3_keep _ main_v64 (by decide)).trans (val8_main_v64 V0)
theorem val9_main_v74 (V0 : Valuation τ sig (Elt F)) : val9 V0 (no_index (Proc.devRef .tc main_v74)) = h3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val9
  refine (segN3_main_v74 _).trans ?_
  simp only [val8_main_v53, val8_main_arg9, val8_main_arg10] <;> rfl

/-- The contents after node 4 (stretch 10 of 25). -/
def val10 (V0 : Valuation τ sig (Elt F)) : Valuation τ sig (Elt F) := after opsN4 (val9 V0)
theorem val10_main_arg0 (V0 : Valuation τ sig (Elt F)) : val10 V0 (no_index (Proc.devRef .tc main_arg0)) = (V0 (Proc.devRef .tc main_arg0)) :=
  (opsN4_keep _ main_arg0 (by decide)).trans (val9_main_arg0 V0)
theorem val10_main_arg1 (V0 : Valuation τ sig (Elt F)) : val10 V0 (no_index (Proc.devRef .tc main_arg1)) = (V0 (Proc.devRef .tc main_arg1)) :=
  (opsN4_keep _ main_arg1 (by decide)).trans (val9_main_arg1 V0)
theorem val10_main_arg2 (V0 : Valuation τ sig (Elt F)) : val10 V0 (no_index (Proc.devRef .tc main_arg2)) = (V0 (Proc.devRef .tc main_arg2)) :=
  (opsN4_keep _ main_arg2 (by decide)).trans (val9_main_arg2 V0)
theorem val10_main_arg3 (V0 : Valuation τ sig (Elt F)) : val10 V0 (no_index (Proc.devRef .tc main_arg3)) = (V0 (Proc.devRef .tc main_arg3)) :=
  (opsN4_keep _ main_arg3 (by decide)).trans (val9_main_arg3 V0)
theorem val10_main_arg4 (V0 : Valuation τ sig (Elt F)) : val10 V0 (no_index (Proc.devRef .tc main_arg4)) = (V0 (Proc.devRef .tc main_arg4)) :=
  (opsN4_keep _ main_arg4 (by decide)).trans (val9_main_arg4 V0)
theorem val10_main_arg5 (V0 : Valuation τ sig (Elt F)) : val10 V0 (no_index (Proc.devRef .tc main_arg5)) = (V0 (Proc.devRef .tc main_arg5)) :=
  (opsN4_keep _ main_arg5 (by decide)).trans (val9_main_arg5 V0)
theorem val10_main_arg6 (V0 : Valuation τ sig (Elt F)) : val10 V0 (no_index (Proc.devRef .tc main_arg6)) = (V0 (Proc.devRef .tc main_arg6)) :=
  (opsN4_keep _ main_arg6 (by decide)).trans (val9_main_arg6 V0)
theorem val10_main_arg7 (V0 : Valuation τ sig (Elt F)) : val10 V0 (no_index (Proc.devRef .tc main_arg7)) = (V0 (Proc.devRef .tc main_arg7)) :=
  (opsN4_keep _ main_arg7 (by decide)).trans (val9_main_arg7 V0)
theorem val10_main_arg8 (V0 : Valuation τ sig (Elt F)) : val10 V0 (no_index (Proc.devRef .tc main_arg8)) = (V0 (Proc.devRef .tc main_arg8)) :=
  (opsN4_keep _ main_arg8 (by decide)).trans (val9_main_arg8 V0)
theorem val10_main_arg9 (V0 : Valuation τ sig (Elt F)) : val10 V0 (no_index (Proc.devRef .tc main_arg9)) = (V0 (Proc.devRef .tc main_arg9)) :=
  (opsN4_keep _ main_arg9 (by decide)).trans (val9_main_arg9 V0)
theorem val10_main_arg10 (V0 : Valuation τ sig (Elt F)) : val10 V0 (no_index (Proc.devRef .tc main_arg10)) = (V0 (Proc.devRef .tc main_arg10)) :=
  (opsN4_keep _ main_arg10 (by decide)).trans (val9_main_arg10 V0)
theorem val10_main_arg11 (V0 : Valuation τ sig (Elt F)) : val10 V0 (no_index (Proc.devRef .tc main_arg11)) = (V0 (Proc.devRef .tc main_arg11)) :=
  (opsN4_keep _ main_arg11 (by decide)).trans (val9_main_arg11 V0)
theorem val10_main_arg12 (V0 : Valuation τ sig (Elt F)) : val10 V0 (no_index (Proc.devRef .tc main_arg12)) = (V0 (Proc.devRef .tc main_arg12)) :=
  (opsN4_keep _ main_arg12 (by decide)).trans (val9_main_arg12 V0)
theorem val10_main_arg13 (V0 : Valuation τ sig (Elt F)) : val10 V0 (no_index (Proc.devRef .tc main_arg13)) = (V0 (Proc.devRef .tc main_arg13)) :=
  (opsN4_keep _ main_arg13 (by decide)).trans (val9_main_arg13 V0)
theorem val10_main_v43 (V0 : Valuation τ sig (Elt F)) : val10 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN4_keep _ main_v43 (by decide)).trans (val9_main_v43 V0)
theorem val10_main_v53 (V0 : Valuation τ sig (Elt F)) : val10 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN4_keep _ main_v53 (by decide)).trans (val9_main_v53 V0)
theorem val10_main_v64 (V0 : Valuation τ sig (Elt F)) : val10 V0 (no_index (Proc.devRef .tc main_v64)) = h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN4_keep _ main_v64 (by decide)).trans (val9_main_v64 V0)
theorem val10_main_v74 (V0 : Valuation τ sig (Elt F)) : val10 V0 (no_index (Proc.devRef .tc main_v74)) = h3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN4_keep _ main_v74 (by decide)).trans (val9_main_v74 V0)
theorem val10_main_v87 (V0 : Valuation τ sig (Elt F)) : val10 V0 (no_index (Proc.devRef .tc main_v87)) = h4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val10
  refine (segN4_main_v87 _).trans ?_
  simp only [val9_main_v53, val9_main_arg9, val9_main_arg10] <;> rfl

/-- The contents after node 5 (stretch 11 of 25). -/
def val11 (V0 : Valuation τ sig (Elt F)) : Valuation τ sig (Elt F) := after opsN5 (val10 V0)
theorem val11_main_arg0 (V0 : Valuation τ sig (Elt F)) : val11 V0 (no_index (Proc.devRef .tc main_arg0)) = (V0 (Proc.devRef .tc main_arg0)) :=
  (opsN5_keep _ main_arg0 (by decide)).trans (val10_main_arg0 V0)
theorem val11_main_arg1 (V0 : Valuation τ sig (Elt F)) : val11 V0 (no_index (Proc.devRef .tc main_arg1)) = (V0 (Proc.devRef .tc main_arg1)) :=
  (opsN5_keep _ main_arg1 (by decide)).trans (val10_main_arg1 V0)
theorem val11_main_arg2 (V0 : Valuation τ sig (Elt F)) : val11 V0 (no_index (Proc.devRef .tc main_arg2)) = (V0 (Proc.devRef .tc main_arg2)) :=
  (opsN5_keep _ main_arg2 (by decide)).trans (val10_main_arg2 V0)
theorem val11_main_arg3 (V0 : Valuation τ sig (Elt F)) : val11 V0 (no_index (Proc.devRef .tc main_arg3)) = (V0 (Proc.devRef .tc main_arg3)) :=
  (opsN5_keep _ main_arg3 (by decide)).trans (val10_main_arg3 V0)
theorem val11_main_arg4 (V0 : Valuation τ sig (Elt F)) : val11 V0 (no_index (Proc.devRef .tc main_arg4)) = (V0 (Proc.devRef .tc main_arg4)) :=
  (opsN5_keep _ main_arg4 (by decide)).trans (val10_main_arg4 V0)
theorem val11_main_arg5 (V0 : Valuation τ sig (Elt F)) : val11 V0 (no_index (Proc.devRef .tc main_arg5)) = (V0 (Proc.devRef .tc main_arg5)) :=
  (opsN5_keep _ main_arg5 (by decide)).trans (val10_main_arg5 V0)
theorem val11_main_arg6 (V0 : Valuation τ sig (Elt F)) : val11 V0 (no_index (Proc.devRef .tc main_arg6)) = (V0 (Proc.devRef .tc main_arg6)) :=
  (opsN5_keep _ main_arg6 (by decide)).trans (val10_main_arg6 V0)
theorem val11_main_arg7 (V0 : Valuation τ sig (Elt F)) : val11 V0 (no_index (Proc.devRef .tc main_arg7)) = (V0 (Proc.devRef .tc main_arg7)) :=
  (opsN5_keep _ main_arg7 (by decide)).trans (val10_main_arg7 V0)
theorem val11_main_arg8 (V0 : Valuation τ sig (Elt F)) : val11 V0 (no_index (Proc.devRef .tc main_arg8)) = (V0 (Proc.devRef .tc main_arg8)) :=
  (opsN5_keep _ main_arg8 (by decide)).trans (val10_main_arg8 V0)
theorem val11_main_arg9 (V0 : Valuation τ sig (Elt F)) : val11 V0 (no_index (Proc.devRef .tc main_arg9)) = (V0 (Proc.devRef .tc main_arg9)) :=
  (opsN5_keep _ main_arg9 (by decide)).trans (val10_main_arg9 V0)
theorem val11_main_arg10 (V0 : Valuation τ sig (Elt F)) : val11 V0 (no_index (Proc.devRef .tc main_arg10)) = (V0 (Proc.devRef .tc main_arg10)) :=
  (opsN5_keep _ main_arg10 (by decide)).trans (val10_main_arg10 V0)
theorem val11_main_arg11 (V0 : Valuation τ sig (Elt F)) : val11 V0 (no_index (Proc.devRef .tc main_arg11)) = (V0 (Proc.devRef .tc main_arg11)) :=
  (opsN5_keep _ main_arg11 (by decide)).trans (val10_main_arg11 V0)
theorem val11_main_arg12 (V0 : Valuation τ sig (Elt F)) : val11 V0 (no_index (Proc.devRef .tc main_arg12)) = (V0 (Proc.devRef .tc main_arg12)) :=
  (opsN5_keep _ main_arg12 (by decide)).trans (val10_main_arg12 V0)
theorem val11_main_arg13 (V0 : Valuation τ sig (Elt F)) : val11 V0 (no_index (Proc.devRef .tc main_arg13)) = (V0 (Proc.devRef .tc main_arg13)) :=
  (opsN5_keep _ main_arg13 (by decide)).trans (val10_main_arg13 V0)
theorem val11_main_v43 (V0 : Valuation τ sig (Elt F)) : val11 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN5_keep _ main_v43 (by decide)).trans (val10_main_v43 V0)
theorem val11_main_v53 (V0 : Valuation τ sig (Elt F)) : val11 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN5_keep _ main_v53 (by decide)).trans (val10_main_v53 V0)
theorem val11_main_v64 (V0 : Valuation τ sig (Elt F)) : val11 V0 (no_index (Proc.devRef .tc main_v64)) = h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN5_keep _ main_v64 (by decide)).trans (val10_main_v64 V0)
theorem val11_main_v74 (V0 : Valuation τ sig (Elt F)) : val11 V0 (no_index (Proc.devRef .tc main_v74)) = h3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN5_keep _ main_v74 (by decide)).trans (val10_main_v74 V0)
theorem val11_main_v87 (V0 : Valuation τ sig (Elt F)) : val11 V0 (no_index (Proc.devRef .tc main_v87)) = h4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN5_keep _ main_v87 (by decide)).trans (val10_main_v87 V0)
theorem val11_main_v98 (V0 : Valuation τ sig (Elt F)) : val11 V0 (no_index (Proc.devRef .tc main_v98)) = h5 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val11
  refine (segN5_main_v98 _).trans ?_
  simp only [val10_main_v43, val10_main_v87, val10_main_arg9, val10_main_arg10] <;> rfl

/-- The contents after node 6 (stretch 12 of 25). -/
def val12 (V0 : Valuation τ sig (Elt F)) : Valuation τ sig (Elt F) := after opsN6 (val11 V0)
theorem val12_main_arg0 (V0 : Valuation τ sig (Elt F)) : val12 V0 (no_index (Proc.devRef .tc main_arg0)) = (V0 (Proc.devRef .tc main_arg0)) :=
  (opsN6_keep _ main_arg0 (by decide)).trans (val11_main_arg0 V0)
theorem val12_main_arg1 (V0 : Valuation τ sig (Elt F)) : val12 V0 (no_index (Proc.devRef .tc main_arg1)) = (V0 (Proc.devRef .tc main_arg1)) :=
  (opsN6_keep _ main_arg1 (by decide)).trans (val11_main_arg1 V0)
theorem val12_main_arg2 (V0 : Valuation τ sig (Elt F)) : val12 V0 (no_index (Proc.devRef .tc main_arg2)) = (V0 (Proc.devRef .tc main_arg2)) :=
  (opsN6_keep _ main_arg2 (by decide)).trans (val11_main_arg2 V0)
theorem val12_main_arg3 (V0 : Valuation τ sig (Elt F)) : val12 V0 (no_index (Proc.devRef .tc main_arg3)) = (V0 (Proc.devRef .tc main_arg3)) :=
  (opsN6_keep _ main_arg3 (by decide)).trans (val11_main_arg3 V0)
theorem val12_main_arg4 (V0 : Valuation τ sig (Elt F)) : val12 V0 (no_index (Proc.devRef .tc main_arg4)) = (V0 (Proc.devRef .tc main_arg4)) :=
  (opsN6_keep _ main_arg4 (by decide)).trans (val11_main_arg4 V0)
theorem val12_main_arg5 (V0 : Valuation τ sig (Elt F)) : val12 V0 (no_index (Proc.devRef .tc main_arg5)) = (V0 (Proc.devRef .tc main_arg5)) :=
  (opsN6_keep _ main_arg5 (by decide)).trans (val11_main_arg5 V0)
theorem val12_main_arg6 (V0 : Valuation τ sig (Elt F)) : val12 V0 (no_index (Proc.devRef .tc main_arg6)) = (V0 (Proc.devRef .tc main_arg6)) :=
  (opsN6_keep _ main_arg6 (by decide)).trans (val11_main_arg6 V0)
theorem val12_main_arg7 (V0 : Valuation τ sig (Elt F)) : val12 V0 (no_index (Proc.devRef .tc main_arg7)) = (V0 (Proc.devRef .tc main_arg7)) :=
  (opsN6_keep _ main_arg7 (by decide)).trans (val11_main_arg7 V0)
theorem val12_main_arg8 (V0 : Valuation τ sig (Elt F)) : val12 V0 (no_index (Proc.devRef .tc main_arg8)) = (V0 (Proc.devRef .tc main_arg8)) :=
  (opsN6_keep _ main_arg8 (by decide)).trans (val11_main_arg8 V0)
theorem val12_main_arg9 (V0 : Valuation τ sig (Elt F)) : val12 V0 (no_index (Proc.devRef .tc main_arg9)) = (V0 (Proc.devRef .tc main_arg9)) :=
  (opsN6_keep _ main_arg9 (by decide)).trans (val11_main_arg9 V0)
theorem val12_main_arg10 (V0 : Valuation τ sig (Elt F)) : val12 V0 (no_index (Proc.devRef .tc main_arg10)) = (V0 (Proc.devRef .tc main_arg10)) :=
  (opsN6_keep _ main_arg10 (by decide)).trans (val11_main_arg10 V0)
theorem val12_main_arg11 (V0 : Valuation τ sig (Elt F)) : val12 V0 (no_index (Proc.devRef .tc main_arg11)) = (V0 (Proc.devRef .tc main_arg11)) :=
  (opsN6_keep _ main_arg11 (by decide)).trans (val11_main_arg11 V0)
theorem val12_main_arg12 (V0 : Valuation τ sig (Elt F)) : val12 V0 (no_index (Proc.devRef .tc main_arg12)) = (V0 (Proc.devRef .tc main_arg12)) :=
  (opsN6_keep _ main_arg12 (by decide)).trans (val11_main_arg12 V0)
theorem val12_main_arg13 (V0 : Valuation τ sig (Elt F)) : val12 V0 (no_index (Proc.devRef .tc main_arg13)) = (V0 (Proc.devRef .tc main_arg13)) :=
  (opsN6_keep _ main_arg13 (by decide)).trans (val11_main_arg13 V0)
theorem val12_main_v43 (V0 : Valuation τ sig (Elt F)) : val12 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN6_keep _ main_v43 (by decide)).trans (val11_main_v43 V0)
theorem val12_main_v53 (V0 : Valuation τ sig (Elt F)) : val12 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN6_keep _ main_v53 (by decide)).trans (val11_main_v53 V0)
theorem val12_main_v64 (V0 : Valuation τ sig (Elt F)) : val12 V0 (no_index (Proc.devRef .tc main_v64)) = h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN6_keep _ main_v64 (by decide)).trans (val11_main_v64 V0)
theorem val12_main_v74 (V0 : Valuation τ sig (Elt F)) : val12 V0 (no_index (Proc.devRef .tc main_v74)) = h3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN6_keep _ main_v74 (by decide)).trans (val11_main_v74 V0)
theorem val12_main_v87 (V0 : Valuation τ sig (Elt F)) : val12 V0 (no_index (Proc.devRef .tc main_v87)) = h4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN6_keep _ main_v87 (by decide)).trans (val11_main_v87 V0)
theorem val12_main_v98 (V0 : Valuation τ sig (Elt F)) : val12 V0 (no_index (Proc.devRef .tc main_v98)) = h5 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN6_keep _ main_v98 (by decide)).trans (val11_main_v98 V0)
theorem val12_main_v111 (V0 : Valuation τ sig (Elt F)) : val12 V0 (no_index (Proc.devRef .tc main_v111)) = h6 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val12
  refine (segN6_main_v111 _).trans ?_
  simp only [val11_main_v43, val11_main_v64, val11_main_v74, val11_main_v98, val11_main_arg9, val11_main_arg10] <;> rfl

/-- The contents after node 7 up to its bias row (stretch 13 of 25). -/
def val13 (V0 : Valuation τ sig (Elt F)) : Valuation τ sig (Elt F) := after opsN7a (val12 V0)
theorem val13_main_arg0 (V0 : Valuation τ sig (Elt F)) : val13 V0 (no_index (Proc.devRef .tc main_arg0)) = (V0 (Proc.devRef .tc main_arg0)) :=
  (opsN7a_keep _ main_arg0 (by decide)).trans (val12_main_arg0 V0)
theorem val13_main_arg1 (V0 : Valuation τ sig (Elt F)) : val13 V0 (no_index (Proc.devRef .tc main_arg1)) = (V0 (Proc.devRef .tc main_arg1)) :=
  (opsN7a_keep _ main_arg1 (by decide)).trans (val12_main_arg1 V0)
theorem val13_main_arg2 (V0 : Valuation τ sig (Elt F)) : val13 V0 (no_index (Proc.devRef .tc main_arg2)) = (V0 (Proc.devRef .tc main_arg2)) :=
  (opsN7a_keep _ main_arg2 (by decide)).trans (val12_main_arg2 V0)
theorem val13_main_arg3 (V0 : Valuation τ sig (Elt F)) : val13 V0 (no_index (Proc.devRef .tc main_arg3)) = (V0 (Proc.devRef .tc main_arg3)) :=
  (opsN7a_keep _ main_arg3 (by decide)).trans (val12_main_arg3 V0)
theorem val13_main_arg4 (V0 : Valuation τ sig (Elt F)) : val13 V0 (no_index (Proc.devRef .tc main_arg4)) = (V0 (Proc.devRef .tc main_arg4)) :=
  (opsN7a_keep _ main_arg4 (by decide)).trans (val12_main_arg4 V0)
theorem val13_main_arg5 (V0 : Valuation τ sig (Elt F)) : val13 V0 (no_index (Proc.devRef .tc main_arg5)) = (V0 (Proc.devRef .tc main_arg5)) :=
  (opsN7a_keep _ main_arg5 (by decide)).trans (val12_main_arg5 V0)
theorem val13_main_arg6 (V0 : Valuation τ sig (Elt F)) : val13 V0 (no_index (Proc.devRef .tc main_arg6)) = (V0 (Proc.devRef .tc main_arg6)) :=
  (opsN7a_keep _ main_arg6 (by decide)).trans (val12_main_arg6 V0)
theorem val13_main_arg7 (V0 : Valuation τ sig (Elt F)) : val13 V0 (no_index (Proc.devRef .tc main_arg7)) = (V0 (Proc.devRef .tc main_arg7)) :=
  (opsN7a_keep _ main_arg7 (by decide)).trans (val12_main_arg7 V0)
theorem val13_main_arg8 (V0 : Valuation τ sig (Elt F)) : val13 V0 (no_index (Proc.devRef .tc main_arg8)) = (V0 (Proc.devRef .tc main_arg8)) :=
  (opsN7a_keep _ main_arg8 (by decide)).trans (val12_main_arg8 V0)
theorem val13_main_arg9 (V0 : Valuation τ sig (Elt F)) : val13 V0 (no_index (Proc.devRef .tc main_arg9)) = (V0 (Proc.devRef .tc main_arg9)) :=
  (opsN7a_keep _ main_arg9 (by decide)).trans (val12_main_arg9 V0)
theorem val13_main_arg10 (V0 : Valuation τ sig (Elt F)) : val13 V0 (no_index (Proc.devRef .tc main_arg10)) = (V0 (Proc.devRef .tc main_arg10)) :=
  (opsN7a_keep _ main_arg10 (by decide)).trans (val12_main_arg10 V0)
theorem val13_main_arg11 (V0 : Valuation τ sig (Elt F)) : val13 V0 (no_index (Proc.devRef .tc main_arg11)) = (V0 (Proc.devRef .tc main_arg11)) :=
  (opsN7a_keep _ main_arg11 (by decide)).trans (val12_main_arg11 V0)
theorem val13_main_arg12 (V0 : Valuation τ sig (Elt F)) : val13 V0 (no_index (Proc.devRef .tc main_arg12)) = (V0 (Proc.devRef .tc main_arg12)) :=
  (opsN7a_keep _ main_arg12 (by decide)).trans (val12_main_arg12 V0)
theorem val13_main_arg13 (V0 : Valuation τ sig (Elt F)) : val13 V0 (no_index (Proc.devRef .tc main_arg13)) = (V0 (Proc.devRef .tc main_arg13)) :=
  (opsN7a_keep _ main_arg13 (by decide)).trans (val12_main_arg13 V0)
theorem val13_main_v43 (V0 : Valuation τ sig (Elt F)) : val13 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN7a_keep _ main_v43 (by decide)).trans (val12_main_v43 V0)
theorem val13_main_v53 (V0 : Valuation τ sig (Elt F)) : val13 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN7a_keep _ main_v53 (by decide)).trans (val12_main_v53 V0)
theorem val13_main_v64 (V0 : Valuation τ sig (Elt F)) : val13 V0 (no_index (Proc.devRef .tc main_v64)) = h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN7a_keep _ main_v64 (by decide)).trans (val12_main_v64 V0)
theorem val13_main_v74 (V0 : Valuation τ sig (Elt F)) : val13 V0 (no_index (Proc.devRef .tc main_v74)) = h3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN7a_keep _ main_v74 (by decide)).trans (val12_main_v74 V0)
theorem val13_main_v87 (V0 : Valuation τ sig (Elt F)) : val13 V0 (no_index (Proc.devRef .tc main_v87)) = h4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN7a_keep _ main_v87 (by decide)).trans (val12_main_v87 V0)
theorem val13_main_v98 (V0 : Valuation τ sig (Elt F)) : val13 V0 (no_index (Proc.devRef .tc main_v98)) = h5 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN7a_keep _ main_v98 (by decide)).trans (val12_main_v98 V0)
theorem val13_main_v111 (V0 : Valuation τ sig (Elt F)) : val13 V0 (no_index (Proc.devRef .tc main_v111)) = h6 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN7a_keep _ main_v111 (by decide)).trans (val12_main_v111 V0)
theorem val13_main_v115 (V0 : Valuation τ sig (Elt F)) : val13 V0 (no_index (Proc.devRef .tc main_v115)) = Host.dotGeneral dot_S131072x64_S64x64_S131072x64_1_0_0_1_n_n none (h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (gW7 (V0 (Proc.devRef .tc main_arg9))) := by
  unfold val13
  refine (segN7a_main_v115 _).trans ?_
  simp only [val12_main_v53, val12_main_arg9] <;> rfl
theorem val13_main_v117 (V0 : Valuation τ sig (Elt F)) : val13 V0 (no_index (Proc.devRef .tc main_v117)) = gB7 (V0 (Proc.devRef .tc main_arg10)) := by
  unfold val13
  refine (segN7a_main_v117 _).trans ?_
  simp only [val12_main_arg10] <;> rfl

/-- The contents after node 7 from its bias on (stretch 14 of 25). -/
def val14 (V0 : Valuation τ sig (Elt F)) : Valuation τ sig (Elt F) := after opsN7b (val13 V0)
theorem val14_main_arg0 (V0 : Valuation τ sig (Elt F)) : val14 V0 (no_index (Proc.devRef .tc main_arg0)) = (V0 (Proc.devRef .tc main_arg0)) :=
  (opsN7b_keep _ main_arg0 (by decide)).trans (val13_main_arg0 V0)
theorem val14_main_arg1 (V0 : Valuation τ sig (Elt F)) : val14 V0 (no_index (Proc.devRef .tc main_arg1)) = (V0 (Proc.devRef .tc main_arg1)) :=
  (opsN7b_keep _ main_arg1 (by decide)).trans (val13_main_arg1 V0)
theorem val14_main_arg2 (V0 : Valuation τ sig (Elt F)) : val14 V0 (no_index (Proc.devRef .tc main_arg2)) = (V0 (Proc.devRef .tc main_arg2)) :=
  (opsN7b_keep _ main_arg2 (by decide)).trans (val13_main_arg2 V0)
theorem val14_main_arg3 (V0 : Valuation τ sig (Elt F)) : val14 V0 (no_index (Proc.devRef .tc main_arg3)) = (V0 (Proc.devRef .tc main_arg3)) :=
  (opsN7b_keep _ main_arg3 (by decide)).trans (val13_main_arg3 V0)
theorem val14_main_arg4 (V0 : Valuation τ sig (Elt F)) : val14 V0 (no_index (Proc.devRef .tc main_arg4)) = (V0 (Proc.devRef .tc main_arg4)) :=
  (opsN7b_keep _ main_arg4 (by decide)).trans (val13_main_arg4 V0)
theorem val14_main_arg5 (V0 : Valuation τ sig (Elt F)) : val14 V0 (no_index (Proc.devRef .tc main_arg5)) = (V0 (Proc.devRef .tc main_arg5)) :=
  (opsN7b_keep _ main_arg5 (by decide)).trans (val13_main_arg5 V0)
theorem val14_main_arg6 (V0 : Valuation τ sig (Elt F)) : val14 V0 (no_index (Proc.devRef .tc main_arg6)) = (V0 (Proc.devRef .tc main_arg6)) :=
  (opsN7b_keep _ main_arg6 (by decide)).trans (val13_main_arg6 V0)
theorem val14_main_arg7 (V0 : Valuation τ sig (Elt F)) : val14 V0 (no_index (Proc.devRef .tc main_arg7)) = (V0 (Proc.devRef .tc main_arg7)) :=
  (opsN7b_keep _ main_arg7 (by decide)).trans (val13_main_arg7 V0)
theorem val14_main_arg8 (V0 : Valuation τ sig (Elt F)) : val14 V0 (no_index (Proc.devRef .tc main_arg8)) = (V0 (Proc.devRef .tc main_arg8)) :=
  (opsN7b_keep _ main_arg8 (by decide)).trans (val13_main_arg8 V0)
theorem val14_main_arg9 (V0 : Valuation τ sig (Elt F)) : val14 V0 (no_index (Proc.devRef .tc main_arg9)) = (V0 (Proc.devRef .tc main_arg9)) :=
  (opsN7b_keep _ main_arg9 (by decide)).trans (val13_main_arg9 V0)
theorem val14_main_arg10 (V0 : Valuation τ sig (Elt F)) : val14 V0 (no_index (Proc.devRef .tc main_arg10)) = (V0 (Proc.devRef .tc main_arg10)) :=
  (opsN7b_keep _ main_arg10 (by decide)).trans (val13_main_arg10 V0)
theorem val14_main_arg11 (V0 : Valuation τ sig (Elt F)) : val14 V0 (no_index (Proc.devRef .tc main_arg11)) = (V0 (Proc.devRef .tc main_arg11)) :=
  (opsN7b_keep _ main_arg11 (by decide)).trans (val13_main_arg11 V0)
theorem val14_main_arg12 (V0 : Valuation τ sig (Elt F)) : val14 V0 (no_index (Proc.devRef .tc main_arg12)) = (V0 (Proc.devRef .tc main_arg12)) :=
  (opsN7b_keep _ main_arg12 (by decide)).trans (val13_main_arg12 V0)
theorem val14_main_arg13 (V0 : Valuation τ sig (Elt F)) : val14 V0 (no_index (Proc.devRef .tc main_arg13)) = (V0 (Proc.devRef .tc main_arg13)) :=
  (opsN7b_keep _ main_arg13 (by decide)).trans (val13_main_arg13 V0)
theorem val14_main_v43 (V0 : Valuation τ sig (Elt F)) : val14 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN7b_keep _ main_v43 (by decide)).trans (val13_main_v43 V0)
theorem val14_main_v53 (V0 : Valuation τ sig (Elt F)) : val14 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN7b_keep _ main_v53 (by decide)).trans (val13_main_v53 V0)
theorem val14_main_v64 (V0 : Valuation τ sig (Elt F)) : val14 V0 (no_index (Proc.devRef .tc main_v64)) = h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN7b_keep _ main_v64 (by decide)).trans (val13_main_v64 V0)
theorem val14_main_v74 (V0 : Valuation τ sig (Elt F)) : val14 V0 (no_index (Proc.devRef .tc main_v74)) = h3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN7b_keep _ main_v74 (by decide)).trans (val13_main_v74 V0)
theorem val14_main_v87 (V0 : Valuation τ sig (Elt F)) : val14 V0 (no_index (Proc.devRef .tc main_v87)) = h4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN7b_keep _ main_v87 (by decide)).trans (val13_main_v87 V0)
theorem val14_main_v98 (V0 : Valuation τ sig (Elt F)) : val14 V0 (no_index (Proc.devRef .tc main_v98)) = h5 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN7b_keep _ main_v98 (by decide)).trans (val13_main_v98 V0)
theorem val14_main_v111 (V0 : Valuation τ sig (Elt F)) : val14 V0 (no_index (Proc.devRef .tc main_v111)) = h6 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN7b_keep _ main_v111 (by decide)).trans (val13_main_v111 V0)
theorem val14_main_v121 (V0 : Valuation τ sig (Elt F)) : val14 V0 (no_index (Proc.devRef .tc main_v121)) = h7 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val14
  refine (segN7b_main_v121 _).trans ?_
  simp only [val13_main_v115, val13_main_v117] <;> rfl

/-- The contents after node 8 (stretch 15 of 25). -/
def val15 (V0 : Valuation τ sig (Elt F)) : Valuation τ sig (Elt F) := after opsN8 (val14 V0)
theorem val15_main_arg0 (V0 : Valuation τ sig (Elt F)) : val15 V0 (no_index (Proc.devRef .tc main_arg0)) = (V0 (Proc.devRef .tc main_arg0)) :=
  (opsN8_keep _ main_arg0 (by decide)).trans (val14_main_arg0 V0)
theorem val15_main_arg1 (V0 : Valuation τ sig (Elt F)) : val15 V0 (no_index (Proc.devRef .tc main_arg1)) = (V0 (Proc.devRef .tc main_arg1)) :=
  (opsN8_keep _ main_arg1 (by decide)).trans (val14_main_arg1 V0)
theorem val15_main_arg2 (V0 : Valuation τ sig (Elt F)) : val15 V0 (no_index (Proc.devRef .tc main_arg2)) = (V0 (Proc.devRef .tc main_arg2)) :=
  (opsN8_keep _ main_arg2 (by decide)).trans (val14_main_arg2 V0)
theorem val15_main_arg3 (V0 : Valuation τ sig (Elt F)) : val15 V0 (no_index (Proc.devRef .tc main_arg3)) = (V0 (Proc.devRef .tc main_arg3)) :=
  (opsN8_keep _ main_arg3 (by decide)).trans (val14_main_arg3 V0)
theorem val15_main_arg4 (V0 : Valuation τ sig (Elt F)) : val15 V0 (no_index (Proc.devRef .tc main_arg4)) = (V0 (Proc.devRef .tc main_arg4)) :=
  (opsN8_keep _ main_arg4 (by decide)).trans (val14_main_arg4 V0)
theorem val15_main_arg5 (V0 : Valuation τ sig (Elt F)) : val15 V0 (no_index (Proc.devRef .tc main_arg5)) = (V0 (Proc.devRef .tc main_arg5)) :=
  (opsN8_keep _ main_arg5 (by decide)).trans (val14_main_arg5 V0)
theorem val15_main_arg6 (V0 : Valuation τ sig (Elt F)) : val15 V0 (no_index (Proc.devRef .tc main_arg6)) = (V0 (Proc.devRef .tc main_arg6)) :=
  (opsN8_keep _ main_arg6 (by decide)).trans (val14_main_arg6 V0)
theorem val15_main_arg7 (V0 : Valuation τ sig (Elt F)) : val15 V0 (no_index (Proc.devRef .tc main_arg7)) = (V0 (Proc.devRef .tc main_arg7)) :=
  (opsN8_keep _ main_arg7 (by decide)).trans (val14_main_arg7 V0)
theorem val15_main_arg8 (V0 : Valuation τ sig (Elt F)) : val15 V0 (no_index (Proc.devRef .tc main_arg8)) = (V0 (Proc.devRef .tc main_arg8)) :=
  (opsN8_keep _ main_arg8 (by decide)).trans (val14_main_arg8 V0)
theorem val15_main_arg9 (V0 : Valuation τ sig (Elt F)) : val15 V0 (no_index (Proc.devRef .tc main_arg9)) = (V0 (Proc.devRef .tc main_arg9)) :=
  (opsN8_keep _ main_arg9 (by decide)).trans (val14_main_arg9 V0)
theorem val15_main_arg10 (V0 : Valuation τ sig (Elt F)) : val15 V0 (no_index (Proc.devRef .tc main_arg10)) = (V0 (Proc.devRef .tc main_arg10)) :=
  (opsN8_keep _ main_arg10 (by decide)).trans (val14_main_arg10 V0)
theorem val15_main_arg11 (V0 : Valuation τ sig (Elt F)) : val15 V0 (no_index (Proc.devRef .tc main_arg11)) = (V0 (Proc.devRef .tc main_arg11)) :=
  (opsN8_keep _ main_arg11 (by decide)).trans (val14_main_arg11 V0)
theorem val15_main_arg12 (V0 : Valuation τ sig (Elt F)) : val15 V0 (no_index (Proc.devRef .tc main_arg12)) = (V0 (Proc.devRef .tc main_arg12)) :=
  (opsN8_keep _ main_arg12 (by decide)).trans (val14_main_arg12 V0)
theorem val15_main_arg13 (V0 : Valuation τ sig (Elt F)) : val15 V0 (no_index (Proc.devRef .tc main_arg13)) = (V0 (Proc.devRef .tc main_arg13)) :=
  (opsN8_keep _ main_arg13 (by decide)).trans (val14_main_arg13 V0)
theorem val15_main_v43 (V0 : Valuation τ sig (Elt F)) : val15 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN8_keep _ main_v43 (by decide)).trans (val14_main_v43 V0)
theorem val15_main_v53 (V0 : Valuation τ sig (Elt F)) : val15 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN8_keep _ main_v53 (by decide)).trans (val14_main_v53 V0)
theorem val15_main_v64 (V0 : Valuation τ sig (Elt F)) : val15 V0 (no_index (Proc.devRef .tc main_v64)) = h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN8_keep _ main_v64 (by decide)).trans (val14_main_v64 V0)
theorem val15_main_v74 (V0 : Valuation τ sig (Elt F)) : val15 V0 (no_index (Proc.devRef .tc main_v74)) = h3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN8_keep _ main_v74 (by decide)).trans (val14_main_v74 V0)
theorem val15_main_v87 (V0 : Valuation τ sig (Elt F)) : val15 V0 (no_index (Proc.devRef .tc main_v87)) = h4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN8_keep _ main_v87 (by decide)).trans (val14_main_v87 V0)
theorem val15_main_v98 (V0 : Valuation τ sig (Elt F)) : val15 V0 (no_index (Proc.devRef .tc main_v98)) = h5 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN8_keep _ main_v98 (by decide)).trans (val14_main_v98 V0)
theorem val15_main_v111 (V0 : Valuation τ sig (Elt F)) : val15 V0 (no_index (Proc.devRef .tc main_v111)) = h6 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN8_keep _ main_v111 (by decide)).trans (val14_main_v111 V0)
theorem val15_main_v121 (V0 : Valuation τ sig (Elt F)) : val15 V0 (no_index (Proc.devRef .tc main_v121)) = h7 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN8_keep _ main_v121 (by decide)).trans (val14_main_v121 V0)
theorem val15_main_v132 (V0 : Valuation τ sig (Elt F)) : val15 V0 (no_index (Proc.devRef .tc main_v132)) = h8 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val15
  refine (segN8_main_v132 _).trans ?_
  simp only [val14_main_v111, val14_main_v121, val14_main_arg9, val14_main_arg10] <;> rfl

/-- The contents after node 9 (stretch 16 of 25). -/
def val16 (V0 : Valuation τ sig (Elt F)) : Valuation τ sig (Elt F) := after opsN9 (val15 V0)
theorem val16_main_arg0 (V0 : Valuation τ sig (Elt F)) : val16 V0 (no_index (Proc.devRef .tc main_arg0)) = (V0 (Proc.devRef .tc main_arg0)) :=
  (opsN9_keep _ main_arg0 (by decide)).trans (val15_main_arg0 V0)
theorem val16_main_arg1 (V0 : Valuation τ sig (Elt F)) : val16 V0 (no_index (Proc.devRef .tc main_arg1)) = (V0 (Proc.devRef .tc main_arg1)) :=
  (opsN9_keep _ main_arg1 (by decide)).trans (val15_main_arg1 V0)
theorem val16_main_arg2 (V0 : Valuation τ sig (Elt F)) : val16 V0 (no_index (Proc.devRef .tc main_arg2)) = (V0 (Proc.devRef .tc main_arg2)) :=
  (opsN9_keep _ main_arg2 (by decide)).trans (val15_main_arg2 V0)
theorem val16_main_arg3 (V0 : Valuation τ sig (Elt F)) : val16 V0 (no_index (Proc.devRef .tc main_arg3)) = (V0 (Proc.devRef .tc main_arg3)) :=
  (opsN9_keep _ main_arg3 (by decide)).trans (val15_main_arg3 V0)
theorem val16_main_arg4 (V0 : Valuation τ sig (Elt F)) : val16 V0 (no_index (Proc.devRef .tc main_arg4)) = (V0 (Proc.devRef .tc main_arg4)) :=
  (opsN9_keep _ main_arg4 (by decide)).trans (val15_main_arg4 V0)
theorem val16_main_arg5 (V0 : Valuation τ sig (Elt F)) : val16 V0 (no_index (Proc.devRef .tc main_arg5)) = (V0 (Proc.devRef .tc main_arg5)) :=
  (opsN9_keep _ main_arg5 (by decide)).trans (val15_main_arg5 V0)
theorem val16_main_arg6 (V0 : Valuation τ sig (Elt F)) : val16 V0 (no_index (Proc.devRef .tc main_arg6)) = (V0 (Proc.devRef .tc main_arg6)) :=
  (opsN9_keep _ main_arg6 (by decide)).trans (val15_main_arg6 V0)
theorem val16_main_arg7 (V0 : Valuation τ sig (Elt F)) : val16 V0 (no_index (Proc.devRef .tc main_arg7)) = (V0 (Proc.devRef .tc main_arg7)) :=
  (opsN9_keep _ main_arg7 (by decide)).trans (val15_main_arg7 V0)
theorem val16_main_arg8 (V0 : Valuation τ sig (Elt F)) : val16 V0 (no_index (Proc.devRef .tc main_arg8)) = (V0 (Proc.devRef .tc main_arg8)) :=
  (opsN9_keep _ main_arg8 (by decide)).trans (val15_main_arg8 V0)
theorem val16_main_arg9 (V0 : Valuation τ sig (Elt F)) : val16 V0 (no_index (Proc.devRef .tc main_arg9)) = (V0 (Proc.devRef .tc main_arg9)) :=
  (opsN9_keep _ main_arg9 (by decide)).trans (val15_main_arg9 V0)
theorem val16_main_arg10 (V0 : Valuation τ sig (Elt F)) : val16 V0 (no_index (Proc.devRef .tc main_arg10)) = (V0 (Proc.devRef .tc main_arg10)) :=
  (opsN9_keep _ main_arg10 (by decide)).trans (val15_main_arg10 V0)
theorem val16_main_arg11 (V0 : Valuation τ sig (Elt F)) : val16 V0 (no_index (Proc.devRef .tc main_arg11)) = (V0 (Proc.devRef .tc main_arg11)) :=
  (opsN9_keep _ main_arg11 (by decide)).trans (val15_main_arg11 V0)
theorem val16_main_arg12 (V0 : Valuation τ sig (Elt F)) : val16 V0 (no_index (Proc.devRef .tc main_arg12)) = (V0 (Proc.devRef .tc main_arg12)) :=
  (opsN9_keep _ main_arg12 (by decide)).trans (val15_main_arg12 V0)
theorem val16_main_arg13 (V0 : Valuation τ sig (Elt F)) : val16 V0 (no_index (Proc.devRef .tc main_arg13)) = (V0 (Proc.devRef .tc main_arg13)) :=
  (opsN9_keep _ main_arg13 (by decide)).trans (val15_main_arg13 V0)
theorem val16_main_v43 (V0 : Valuation τ sig (Elt F)) : val16 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN9_keep _ main_v43 (by decide)).trans (val15_main_v43 V0)
theorem val16_main_v53 (V0 : Valuation τ sig (Elt F)) : val16 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN9_keep _ main_v53 (by decide)).trans (val15_main_v53 V0)
theorem val16_main_v64 (V0 : Valuation τ sig (Elt F)) : val16 V0 (no_index (Proc.devRef .tc main_v64)) = h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN9_keep _ main_v64 (by decide)).trans (val15_main_v64 V0)
theorem val16_main_v74 (V0 : Valuation τ sig (Elt F)) : val16 V0 (no_index (Proc.devRef .tc main_v74)) = h3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN9_keep _ main_v74 (by decide)).trans (val15_main_v74 V0)
theorem val16_main_v87 (V0 : Valuation τ sig (Elt F)) : val16 V0 (no_index (Proc.devRef .tc main_v87)) = h4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN9_keep _ main_v87 (by decide)).trans (val15_main_v87 V0)
theorem val16_main_v111 (V0 : Valuation τ sig (Elt F)) : val16 V0 (no_index (Proc.devRef .tc main_v111)) = h6 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN9_keep _ main_v111 (by decide)).trans (val15_main_v111 V0)
theorem val16_main_v132 (V0 : Valuation τ sig (Elt F)) : val16 V0 (no_index (Proc.devRef .tc main_v132)) = h8 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN9_keep _ main_v132 (by decide)).trans (val15_main_v132 V0)
theorem val16_main_v148 (V0 : Valuation τ sig (Elt F)) : val16 V0 (no_index (Proc.devRef .tc main_v148)) = h9 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val16
  refine (segN9_main_v148 _).trans ?_
  simp only [val15_main_v74, val15_main_v98, val15_main_v121, val15_main_v132, val15_main_arg9, val15_main_arg10] <;> rfl

/-- The contents after node 10 (stretch 17 of 25). -/
def val17 (V0 : Valuation τ sig (Elt F)) : Valuation τ sig (Elt F) := after opsN10 (val16 V0)
theorem val17_main_arg0 (V0 : Valuation τ sig (Elt F)) : val17 V0 (no_index (Proc.devRef .tc main_arg0)) = (V0 (Proc.devRef .tc main_arg0)) :=
  (opsN10_keep _ main_arg0 (by decide)).trans (val16_main_arg0 V0)
theorem val17_main_arg1 (V0 : Valuation τ sig (Elt F)) : val17 V0 (no_index (Proc.devRef .tc main_arg1)) = (V0 (Proc.devRef .tc main_arg1)) :=
  (opsN10_keep _ main_arg1 (by decide)).trans (val16_main_arg1 V0)
theorem val17_main_arg2 (V0 : Valuation τ sig (Elt F)) : val17 V0 (no_index (Proc.devRef .tc main_arg2)) = (V0 (Proc.devRef .tc main_arg2)) :=
  (opsN10_keep _ main_arg2 (by decide)).trans (val16_main_arg2 V0)
theorem val17_main_arg3 (V0 : Valuation τ sig (Elt F)) : val17 V0 (no_index (Proc.devRef .tc main_arg3)) = (V0 (Proc.devRef .tc main_arg3)) :=
  (opsN10_keep _ main_arg3 (by decide)).trans (val16_main_arg3 V0)
theorem val17_main_arg4 (V0 : Valuation τ sig (Elt F)) : val17 V0 (no_index (Proc.devRef .tc main_arg4)) = (V0 (Proc.devRef .tc main_arg4)) :=
  (opsN10_keep _ main_arg4 (by decide)).trans (val16_main_arg4 V0)
theorem val17_main_arg5 (V0 : Valuation τ sig (Elt F)) : val17 V0 (no_index (Proc.devRef .tc main_arg5)) = (V0 (Proc.devRef .tc main_arg5)) :=
  (opsN10_keep _ main_arg5 (by decide)).trans (val16_main_arg5 V0)
theorem val17_main_arg6 (V0 : Valuation τ sig (Elt F)) : val17 V0 (no_index (Proc.devRef .tc main_arg6)) = (V0 (Proc.devRef .tc main_arg6)) :=
  (opsN10_keep _ main_arg6 (by decide)).trans (val16_main_arg6 V0)
theorem val17_main_arg7 (V0 : Valuation τ sig (Elt F)) : val17 V0 (no_index (Proc.devRef .tc main_arg7)) = (V0 (Proc.devRef .tc main_arg7)) :=
  (opsN10_keep _ main_arg7 (by decide)).trans (val16_main_arg7 V0)
theorem val17_main_arg8 (V0 : Valuation τ sig (Elt F)) : val17 V0 (no_index (Proc.devRef .tc main_arg8)) = (V0 (Proc.devRef .tc main_arg8)) :=
  (opsN10_keep _ main_arg8 (by decide)).trans (val16_main_arg8 V0)
theorem val17_main_arg9 (V0 : Valuation τ sig (Elt F)) : val17 V0 (no_index (Proc.devRef .tc main_arg9)) = (V0 (Proc.devRef .tc main_arg9)) :=
  (opsN10_keep _ main_arg9 (by decide)).trans (val16_main_arg9 V0)
theorem val17_main_arg10 (V0 : Valuation τ sig (Elt F)) : val17 V0 (no_index (Proc.devRef .tc main_arg10)) = (V0 (Proc.devRef .tc main_arg10)) :=
  (opsN10_keep _ main_arg10 (by decide)).trans (val16_main_arg10 V0)
theorem val17_main_arg11 (V0 : Valuation τ sig (Elt F)) : val17 V0 (no_index (Proc.devRef .tc main_arg11)) = (V0 (Proc.devRef .tc main_arg11)) :=
  (opsN10_keep _ main_arg11 (by decide)).trans (val16_main_arg11 V0)
theorem val17_main_arg12 (V0 : Valuation τ sig (Elt F)) : val17 V0 (no_index (Proc.devRef .tc main_arg12)) = (V0 (Proc.devRef .tc main_arg12)) :=
  (opsN10_keep _ main_arg12 (by decide)).trans (val16_main_arg12 V0)
theorem val17_main_arg13 (V0 : Valuation τ sig (Elt F)) : val17 V0 (no_index (Proc.devRef .tc main_arg13)) = (V0 (Proc.devRef .tc main_arg13)) :=
  (opsN10_keep _ main_arg13 (by decide)).trans (val16_main_arg13 V0)
theorem val17_main_v43 (V0 : Valuation τ sig (Elt F)) : val17 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN10_keep _ main_v43 (by decide)).trans (val16_main_v43 V0)
theorem val17_main_v53 (V0 : Valuation τ sig (Elt F)) : val17 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN10_keep _ main_v53 (by decide)).trans (val16_main_v53 V0)
theorem val17_main_v64 (V0 : Valuation τ sig (Elt F)) : val17 V0 (no_index (Proc.devRef .tc main_v64)) = h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN10_keep _ main_v64 (by decide)).trans (val16_main_v64 V0)
theorem val17_main_v74 (V0 : Valuation τ sig (Elt F)) : val17 V0 (no_index (Proc.devRef .tc main_v74)) = h3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN10_keep _ main_v74 (by decide)).trans (val16_main_v74 V0)
theorem val17_main_v87 (V0 : Valuation τ sig (Elt F)) : val17 V0 (no_index (Proc.devRef .tc main_v87)) = h4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN10_keep _ main_v87 (by decide)).trans (val16_main_v87 V0)
theorem val17_main_v111 (V0 : Valuation τ sig (Elt F)) : val17 V0 (no_index (Proc.devRef .tc main_v111)) = h6 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN10_keep _ main_v111 (by decide)).trans (val16_main_v111 V0)
theorem val17_main_v160 (V0 : Valuation τ sig (Elt F)) : val17 V0 (no_index (Proc.devRef .tc main_v160)) = h10 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val17
  refine (segN10_main_v160 _).trans ?_
  simp only [val16_main_v43, val16_main_v132, val16_main_v148, val16_main_arg9, val16_main_arg10] <;> rfl

/-- The contents after node 11 (stretch 18 of 25). -/
def val18 (V0 : Valuation τ sig (Elt F)) : Valuation τ sig (Elt F) := after opsN11 (val17 V0)
theorem val18_main_arg0 (V0 : Valuation τ sig (Elt F)) : val18 V0 (no_index (Proc.devRef .tc main_arg0)) = (V0 (Proc.devRef .tc main_arg0)) :=
  (opsN11_keep _ main_arg0 (by decide)).trans (val17_main_arg0 V0)
theorem val18_main_arg1 (V0 : Valuation τ sig (Elt F)) : val18 V0 (no_index (Proc.devRef .tc main_arg1)) = (V0 (Proc.devRef .tc main_arg1)) :=
  (opsN11_keep _ main_arg1 (by decide)).trans (val17_main_arg1 V0)
theorem val18_main_arg2 (V0 : Valuation τ sig (Elt F)) : val18 V0 (no_index (Proc.devRef .tc main_arg2)) = (V0 (Proc.devRef .tc main_arg2)) :=
  (opsN11_keep _ main_arg2 (by decide)).trans (val17_main_arg2 V0)
theorem val18_main_arg3 (V0 : Valuation τ sig (Elt F)) : val18 V0 (no_index (Proc.devRef .tc main_arg3)) = (V0 (Proc.devRef .tc main_arg3)) :=
  (opsN11_keep _ main_arg3 (by decide)).trans (val17_main_arg3 V0)
theorem val18_main_arg4 (V0 : Valuation τ sig (Elt F)) : val18 V0 (no_index (Proc.devRef .tc main_arg4)) = (V0 (Proc.devRef .tc main_arg4)) :=
  (opsN11_keep _ main_arg4 (by decide)).trans (val17_main_arg4 V0)
theorem val18_main_arg5 (V0 : Valuation τ sig (Elt F)) : val18 V0 (no_index (Proc.devRef .tc main_arg5)) = (V0 (Proc.devRef .tc main_arg5)) :=
  (opsN11_keep _ main_arg5 (by decide)).trans (val17_main_arg5 V0)
theorem val18_main_arg6 (V0 : Valuation τ sig (Elt F)) : val18 V0 (no_index (Proc.devRef .tc main_arg6)) = (V0 (Proc.devRef .tc main_arg6)) :=
  (opsN11_keep _ main_arg6 (by decide)).trans (val17_main_arg6 V0)
theorem val18_main_arg7 (V0 : Valuation τ sig (Elt F)) : val18 V0 (no_index (Proc.devRef .tc main_arg7)) = (V0 (Proc.devRef .tc main_arg7)) :=
  (opsN11_keep _ main_arg7 (by decide)).trans (val17_main_arg7 V0)
theorem val18_main_arg8 (V0 : Valuation τ sig (Elt F)) : val18 V0 (no_index (Proc.devRef .tc main_arg8)) = (V0 (Proc.devRef .tc main_arg8)) :=
  (opsN11_keep _ main_arg8 (by decide)).trans (val17_main_arg8 V0)
theorem val18_main_arg9 (V0 : Valuation τ sig (Elt F)) : val18 V0 (no_index (Proc.devRef .tc main_arg9)) = (V0 (Proc.devRef .tc main_arg9)) :=
  (opsN11_keep _ main_arg9 (by decide)).trans (val17_main_arg9 V0)
theorem val18_main_arg10 (V0 : Valuation τ sig (Elt F)) : val18 V0 (no_index (Proc.devRef .tc main_arg10)) = (V0 (Proc.devRef .tc main_arg10)) :=
  (opsN11_keep _ main_arg10 (by decide)).trans (val17_main_arg10 V0)
theorem val18_main_arg11 (V0 : Valuation τ sig (Elt F)) : val18 V0 (no_index (Proc.devRef .tc main_arg11)) = (V0 (Proc.devRef .tc main_arg11)) :=
  (opsN11_keep _ main_arg11 (by decide)).trans (val17_main_arg11 V0)
theorem val18_main_arg12 (V0 : Valuation τ sig (Elt F)) : val18 V0 (no_index (Proc.devRef .tc main_arg12)) = (V0 (Proc.devRef .tc main_arg12)) :=
  (opsN11_keep _ main_arg12 (by decide)).trans (val17_main_arg12 V0)
theorem val18_main_arg13 (V0 : Valuation τ sig (Elt F)) : val18 V0 (no_index (Proc.devRef .tc main_arg13)) = (V0 (Proc.devRef .tc main_arg13)) :=
  (opsN11_keep _ main_arg13 (by decide)).trans (val17_main_arg13 V0)
theorem val18_main_v43 (V0 : Valuation τ sig (Elt F)) : val18 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN11_keep _ main_v43 (by decide)).trans (val17_main_v43 V0)
theorem val18_main_v53 (V0 : Valuation τ sig (Elt F)) : val18 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN11_keep _ main_v53 (by decide)).trans (val17_main_v53 V0)
theorem val18_main_v64 (V0 : Valuation τ sig (Elt F)) : val18 V0 (no_index (Proc.devRef .tc main_v64)) = h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN11_keep _ main_v64 (by decide)).trans (val17_main_v64 V0)
theorem val18_main_v74 (V0 : Valuation τ sig (Elt F)) : val18 V0 (no_index (Proc.devRef .tc main_v74)) = h3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN11_keep _ main_v74 (by decide)).trans (val17_main_v74 V0)
theorem val18_main_v87 (V0 : Valuation τ sig (Elt F)) : val18 V0 (no_index (Proc.devRef .tc main_v87)) = h4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN11_keep _ main_v87 (by decide)).trans (val17_main_v87 V0)
theorem val18_main_v111 (V0 : Valuation τ sig (Elt F)) : val18 V0 (no_index (Proc.devRef .tc main_v111)) = h6 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN11_keep _ main_v111 (by decide)).trans (val17_main_v111 V0)
theorem val18_main_v160 (V0 : Valuation τ sig (Elt F)) : val18 V0 (no_index (Proc.devRef .tc main_v160)) = h10 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN11_keep _ main_v160 (by decide)).trans (val17_main_v160 V0)
theorem val18_main_v170 (V0 : Valuation τ sig (Elt F)) : val18 V0 (no_index (Proc.devRef .tc main_v170)) = h11 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val18
  refine (segN11_main_v170 _).trans ?_
  simp only [val17_main_v87, val17_main_arg9, val17_main_arg10] <;> rfl

/-- The contents after node 12 up to its bias slice (stretch 19 of 25). -/
def val19 (V0 : Valuation τ sig (Elt F)) : Valuation τ sig (Elt F) := after opsN12a (val18 V0)
theorem val19_main_arg0 (V0 : Valuation τ sig (Elt F)) : val19 V0 (no_index (Proc.devRef .tc main_arg0)) = (V0 (Proc.devRef .tc main_arg0)) :=
  (opsN12a_keep _ main_arg0 (by decide)).trans (val18_main_arg0 V0)
theorem val19_main_arg1 (V0 : Valuation τ sig (Elt F)) : val19 V0 (no_index (Proc.devRef .tc main_arg1)) = (V0 (Proc.devRef .tc main_arg1)) :=
  (opsN12a_keep _ main_arg1 (by decide)).trans (val18_main_arg1 V0)
theorem val19_main_arg2 (V0 : Valuation τ sig (Elt F)) : val19 V0 (no_index (Proc.devRef .tc main_arg2)) = (V0 (Proc.devRef .tc main_arg2)) :=
  (opsN12a_keep _ main_arg2 (by decide)).trans (val18_main_arg2 V0)
theorem val19_main_arg3 (V0 : Valuation τ sig (Elt F)) : val19 V0 (no_index (Proc.devRef .tc main_arg3)) = (V0 (Proc.devRef .tc main_arg3)) :=
  (opsN12a_keep _ main_arg3 (by decide)).trans (val18_main_arg3 V0)
theorem val19_main_arg4 (V0 : Valuation τ sig (Elt F)) : val19 V0 (no_index (Proc.devRef .tc main_arg4)) = (V0 (Proc.devRef .tc main_arg4)) :=
  (opsN12a_keep _ main_arg4 (by decide)).trans (val18_main_arg4 V0)
theorem val19_main_arg5 (V0 : Valuation τ sig (Elt F)) : val19 V0 (no_index (Proc.devRef .tc main_arg5)) = (V0 (Proc.devRef .tc main_arg5)) :=
  (opsN12a_keep _ main_arg5 (by decide)).trans (val18_main_arg5 V0)
theorem val19_main_arg6 (V0 : Valuation τ sig (Elt F)) : val19 V0 (no_index (Proc.devRef .tc main_arg6)) = (V0 (Proc.devRef .tc main_arg6)) :=
  (opsN12a_keep _ main_arg6 (by decide)).trans (val18_main_arg6 V0)
theorem val19_main_arg7 (V0 : Valuation τ sig (Elt F)) : val19 V0 (no_index (Proc.devRef .tc main_arg7)) = (V0 (Proc.devRef .tc main_arg7)) :=
  (opsN12a_keep _ main_arg7 (by decide)).trans (val18_main_arg7 V0)
theorem val19_main_arg8 (V0 : Valuation τ sig (Elt F)) : val19 V0 (no_index (Proc.devRef .tc main_arg8)) = (V0 (Proc.devRef .tc main_arg8)) :=
  (opsN12a_keep _ main_arg8 (by decide)).trans (val18_main_arg8 V0)
theorem val19_main_arg9 (V0 : Valuation τ sig (Elt F)) : val19 V0 (no_index (Proc.devRef .tc main_arg9)) = (V0 (Proc.devRef .tc main_arg9)) :=
  (opsN12a_keep _ main_arg9 (by decide)).trans (val18_main_arg9 V0)
theorem val19_main_arg10 (V0 : Valuation τ sig (Elt F)) : val19 V0 (no_index (Proc.devRef .tc main_arg10)) = (V0 (Proc.devRef .tc main_arg10)) :=
  (opsN12a_keep _ main_arg10 (by decide)).trans (val18_main_arg10 V0)
theorem val19_main_arg11 (V0 : Valuation τ sig (Elt F)) : val19 V0 (no_index (Proc.devRef .tc main_arg11)) = (V0 (Proc.devRef .tc main_arg11)) :=
  (opsN12a_keep _ main_arg11 (by decide)).trans (val18_main_arg11 V0)
theorem val19_main_arg12 (V0 : Valuation τ sig (Elt F)) : val19 V0 (no_index (Proc.devRef .tc main_arg12)) = (V0 (Proc.devRef .tc main_arg12)) :=
  (opsN12a_keep _ main_arg12 (by decide)).trans (val18_main_arg12 V0)
theorem val19_main_arg13 (V0 : Valuation τ sig (Elt F)) : val19 V0 (no_index (Proc.devRef .tc main_arg13)) = (V0 (Proc.devRef .tc main_arg13)) :=
  (opsN12a_keep _ main_arg13 (by decide)).trans (val18_main_arg13 V0)
theorem val19_main_v43 (V0 : Valuation τ sig (Elt F)) : val19 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN12a_keep _ main_v43 (by decide)).trans (val18_main_v43 V0)
theorem val19_main_v53 (V0 : Valuation τ sig (Elt F)) : val19 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN12a_keep _ main_v53 (by decide)).trans (val18_main_v53 V0)
theorem val19_main_v87 (V0 : Valuation τ sig (Elt F)) : val19 V0 (no_index (Proc.devRef .tc main_v87)) = h4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN12a_keep _ main_v87 (by decide)).trans (val18_main_v87 V0)
theorem val19_main_v111 (V0 : Valuation τ sig (Elt F)) : val19 V0 (no_index (Proc.devRef .tc main_v111)) = h6 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN12a_keep _ main_v111 (by decide)).trans (val18_main_v111 V0)
theorem val19_main_v160 (V0 : Valuation τ sig (Elt F)) : val19 V0 (no_index (Proc.devRef .tc main_v160)) = h10 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN12a_keep _ main_v160 (by decide)).trans (val18_main_v160 V0)
theorem val19_main_v170 (V0 : Valuation τ sig (Elt F)) : val19 V0 (no_index (Proc.devRef .tc main_v170)) = h11 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN12a_keep _ main_v170 (by decide)).trans (val18_main_v170 V0)
theorem val19_main_v175 (V0 : Valuation τ sig (Elt F)) : val19 V0 (no_index (Proc.devRef .tc main_v175)) = Host.dotGeneral dot_S131072x64_S64x64_S131072x64_1_0_0_1_n_n none (addf (h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (h3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)))) (gW12 (V0 (Proc.devRef .tc main_arg9))) := by
  unfold val19
  refine (segN12a_main_v175 _).trans ?_
  simp only [val18_main_v64, val18_main_v74, val18_main_arg9] <;> rfl
theorem val19_main_v176 (V0 : Valuation τ sig (Elt F)) : val19 V0 (no_index (Proc.devRef .tc main_v176)) = extractStridedSlice S1x64 ![12, 0] (V0 (Proc.devRef .tc main_arg10)) slices_S16x64_S1x64_12_0 := by
  unfold val19
  refine (segN12a_main_v176 _).trans ?_
  simp only [val18_main_arg10] <;> rfl

/-- The contents after node 12 from its bias on (stretch 20 of 25). -/
def val20 (V0 : Valuation τ sig (Elt F)) : Valuation τ sig (Elt F) := after opsN12b (val19 V0)
theorem val20_main_arg0 (V0 : Valuation τ sig (Elt F)) : val20 V0 (no_index (Proc.devRef .tc main_arg0)) = (V0 (Proc.devRef .tc main_arg0)) :=
  (opsN12b_keep _ main_arg0 (by decide)).trans (val19_main_arg0 V0)
theorem val20_main_arg1 (V0 : Valuation τ sig (Elt F)) : val20 V0 (no_index (Proc.devRef .tc main_arg1)) = (V0 (Proc.devRef .tc main_arg1)) :=
  (opsN12b_keep _ main_arg1 (by decide)).trans (val19_main_arg1 V0)
theorem val20_main_arg2 (V0 : Valuation τ sig (Elt F)) : val20 V0 (no_index (Proc.devRef .tc main_arg2)) = (V0 (Proc.devRef .tc main_arg2)) :=
  (opsN12b_keep _ main_arg2 (by decide)).trans (val19_main_arg2 V0)
theorem val20_main_arg3 (V0 : Valuation τ sig (Elt F)) : val20 V0 (no_index (Proc.devRef .tc main_arg3)) = (V0 (Proc.devRef .tc main_arg3)) :=
  (opsN12b_keep _ main_arg3 (by decide)).trans (val19_main_arg3 V0)
theorem val20_main_arg4 (V0 : Valuation τ sig (Elt F)) : val20 V0 (no_index (Proc.devRef .tc main_arg4)) = (V0 (Proc.devRef .tc main_arg4)) :=
  (opsN12b_keep _ main_arg4 (by decide)).trans (val19_main_arg4 V0)
theorem val20_main_arg5 (V0 : Valuation τ sig (Elt F)) : val20 V0 (no_index (Proc.devRef .tc main_arg5)) = (V0 (Proc.devRef .tc main_arg5)) :=
  (opsN12b_keep _ main_arg5 (by decide)).trans (val19_main_arg5 V0)
theorem val20_main_arg6 (V0 : Valuation τ sig (Elt F)) : val20 V0 (no_index (Proc.devRef .tc main_arg6)) = (V0 (Proc.devRef .tc main_arg6)) :=
  (opsN12b_keep _ main_arg6 (by decide)).trans (val19_main_arg6 V0)
theorem val20_main_arg7 (V0 : Valuation τ sig (Elt F)) : val20 V0 (no_index (Proc.devRef .tc main_arg7)) = (V0 (Proc.devRef .tc main_arg7)) :=
  (opsN12b_keep _ main_arg7 (by decide)).trans (val19_main_arg7 V0)
theorem val20_main_arg8 (V0 : Valuation τ sig (Elt F)) : val20 V0 (no_index (Proc.devRef .tc main_arg8)) = (V0 (Proc.devRef .tc main_arg8)) :=
  (opsN12b_keep _ main_arg8 (by decide)).trans (val19_main_arg8 V0)
theorem val20_main_arg9 (V0 : Valuation τ sig (Elt F)) : val20 V0 (no_index (Proc.devRef .tc main_arg9)) = (V0 (Proc.devRef .tc main_arg9)) :=
  (opsN12b_keep _ main_arg9 (by decide)).trans (val19_main_arg9 V0)
theorem val20_main_arg10 (V0 : Valuation τ sig (Elt F)) : val20 V0 (no_index (Proc.devRef .tc main_arg10)) = (V0 (Proc.devRef .tc main_arg10)) :=
  (opsN12b_keep _ main_arg10 (by decide)).trans (val19_main_arg10 V0)
theorem val20_main_arg11 (V0 : Valuation τ sig (Elt F)) : val20 V0 (no_index (Proc.devRef .tc main_arg11)) = (V0 (Proc.devRef .tc main_arg11)) :=
  (opsN12b_keep _ main_arg11 (by decide)).trans (val19_main_arg11 V0)
theorem val20_main_arg12 (V0 : Valuation τ sig (Elt F)) : val20 V0 (no_index (Proc.devRef .tc main_arg12)) = (V0 (Proc.devRef .tc main_arg12)) :=
  (opsN12b_keep _ main_arg12 (by decide)).trans (val19_main_arg12 V0)
theorem val20_main_arg13 (V0 : Valuation τ sig (Elt F)) : val20 V0 (no_index (Proc.devRef .tc main_arg13)) = (V0 (Proc.devRef .tc main_arg13)) :=
  (opsN12b_keep _ main_arg13 (by decide)).trans (val19_main_arg13 V0)
theorem val20_main_v43 (V0 : Valuation τ sig (Elt F)) : val20 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN12b_keep _ main_v43 (by decide)).trans (val19_main_v43 V0)
theorem val20_main_v53 (V0 : Valuation τ sig (Elt F)) : val20 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN12b_keep _ main_v53 (by decide)).trans (val19_main_v53 V0)
theorem val20_main_v87 (V0 : Valuation τ sig (Elt F)) : val20 V0 (no_index (Proc.devRef .tc main_v87)) = h4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN12b_keep _ main_v87 (by decide)).trans (val19_main_v87 V0)
theorem val20_main_v111 (V0 : Valuation τ sig (Elt F)) : val20 V0 (no_index (Proc.devRef .tc main_v111)) = h6 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN12b_keep _ main_v111 (by decide)).trans (val19_main_v111 V0)
theorem val20_main_v160 (V0 : Valuation τ sig (Elt F)) : val20 V0 (no_index (Proc.devRef .tc main_v160)) = h10 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN12b_keep _ main_v160 (by decide)).trans (val19_main_v160 V0)
theorem val20_main_v170 (V0 : Valuation τ sig (Elt F)) : val20 V0 (no_index (Proc.devRef .tc main_v170)) = h11 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN12b_keep _ main_v170 (by decide)).trans (val19_main_v170 V0)
theorem val20_main_v181 (V0 : Valuation τ sig (Elt F)) : val20 V0 (no_index (Proc.devRef .tc main_v181)) = h12 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val20
  refine (segN12b_main_v181 _).trans ?_
  simp only [val19_main_v175, val19_main_v176] <;> rfl

/-- The contents after node 13 (stretch 21 of 25). -/
def val21 (V0 : Valuation τ sig (Elt F)) : Valuation τ sig (Elt F) := after opsN13 (val20 V0)
theorem val21_main_arg0 (V0 : Valuation τ sig (Elt F)) : val21 V0 (no_index (Proc.devRef .tc main_arg0)) = (V0 (Proc.devRef .tc main_arg0)) :=
  (opsN13_keep _ main_arg0 (by decide)).trans (val20_main_arg0 V0)
theorem val21_main_arg1 (V0 : Valuation τ sig (Elt F)) : val21 V0 (no_index (Proc.devRef .tc main_arg1)) = (V0 (Proc.devRef .tc main_arg1)) :=
  (opsN13_keep _ main_arg1 (by decide)).trans (val20_main_arg1 V0)
theorem val21_main_arg2 (V0 : Valuation τ sig (Elt F)) : val21 V0 (no_index (Proc.devRef .tc main_arg2)) = (V0 (Proc.devRef .tc main_arg2)) :=
  (opsN13_keep _ main_arg2 (by decide)).trans (val20_main_arg2 V0)
theorem val21_main_arg3 (V0 : Valuation τ sig (Elt F)) : val21 V0 (no_index (Proc.devRef .tc main_arg3)) = (V0 (Proc.devRef .tc main_arg3)) :=
  (opsN13_keep _ main_arg3 (by decide)).trans (val20_main_arg3 V0)
theorem val21_main_arg4 (V0 : Valuation τ sig (Elt F)) : val21 V0 (no_index (Proc.devRef .tc main_arg4)) = (V0 (Proc.devRef .tc main_arg4)) :=
  (opsN13_keep _ main_arg4 (by decide)).trans (val20_main_arg4 V0)
theorem val21_main_arg5 (V0 : Valuation τ sig (Elt F)) : val21 V0 (no_index (Proc.devRef .tc main_arg5)) = (V0 (Proc.devRef .tc main_arg5)) :=
  (opsN13_keep _ main_arg5 (by decide)).trans (val20_main_arg5 V0)
theorem val21_main_arg6 (V0 : Valuation τ sig (Elt F)) : val21 V0 (no_index (Proc.devRef .tc main_arg6)) = (V0 (Proc.devRef .tc main_arg6)) :=
  (opsN13_keep _ main_arg6 (by decide)).trans (val20_main_arg6 V0)
theorem val21_main_arg7 (V0 : Valuation τ sig (Elt F)) : val21 V0 (no_index (Proc.devRef .tc main_arg7)) = (V0 (Proc.devRef .tc main_arg7)) :=
  (opsN13_keep _ main_arg7 (by decide)).trans (val20_main_arg7 V0)
theorem val21_main_arg8 (V0 : Valuation τ sig (Elt F)) : val21 V0 (no_index (Proc.devRef .tc main_arg8)) = (V0 (Proc.devRef .tc main_arg8)) :=
  (opsN13_keep _ main_arg8 (by decide)).trans (val20_main_arg8 V0)
theorem val21_main_arg9 (V0 : Valuation τ sig (Elt F)) : val21 V0 (no_index (Proc.devRef .tc main_arg9)) = (V0 (Proc.devRef .tc main_arg9)) :=
  (opsN13_keep _ main_arg9 (by decide)).trans (val20_main_arg9 V0)
theorem val21_main_arg10 (V0 : Valuation τ sig (Elt F)) : val21 V0 (no_index (Proc.devRef .tc main_arg10)) = (V0 (Proc.devRef .tc main_arg10)) :=
  (opsN13_keep _ main_arg10 (by decide)).trans (val20_main_arg10 V0)
theorem val21_main_arg11 (V0 : Valuation τ sig (Elt F)) : val21 V0 (no_index (Proc.devRef .tc main_arg11)) = (V0 (Proc.devRef .tc main_arg11)) :=
  (opsN13_keep _ main_arg11 (by decide)).trans (val20_main_arg11 V0)
theorem val21_main_arg12 (V0 : Valuation τ sig (Elt F)) : val21 V0 (no_index (Proc.devRef .tc main_arg12)) = (V0 (Proc.devRef .tc main_arg12)) :=
  (opsN13_keep _ main_arg12 (by decide)).trans (val20_main_arg12 V0)
theorem val21_main_arg13 (V0 : Valuation τ sig (Elt F)) : val21 V0 (no_index (Proc.devRef .tc main_arg13)) = (V0 (Proc.devRef .tc main_arg13)) :=
  (opsN13_keep _ main_arg13 (by decide)).trans (val20_main_arg13 V0)
theorem val21_main_v43 (V0 : Valuation τ sig (Elt F)) : val21 V0 (no_index (Proc.devRef .tc main_v43)) = h0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN13_keep _ main_v43 (by decide)).trans (val20_main_v43 V0)
theorem val21_main_v53 (V0 : Valuation τ sig (Elt F)) : val21 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN13_keep _ main_v53 (by decide)).trans (val20_main_v53 V0)
theorem val21_main_v160 (V0 : Valuation τ sig (Elt F)) : val21 V0 (no_index (Proc.devRef .tc main_v160)) = h10 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN13_keep _ main_v160 (by decide)).trans (val20_main_v160 V0)
theorem val21_main_v170 (V0 : Valuation τ sig (Elt F)) : val21 V0 (no_index (Proc.devRef .tc main_v170)) = h11 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN13_keep _ main_v170 (by decide)).trans (val20_main_v170 V0)
theorem val21_main_v193 (V0 : Valuation τ sig (Elt F)) : val21 V0 (no_index (Proc.devRef .tc main_v193)) = h13 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val21
  refine (segN13_main_v193 _).trans ?_
  simp only [val20_main_v87, val20_main_v111, val20_main_v181, val20_main_arg9, val20_main_arg10] <;> rfl

/-- The contents after node 14 (stretch 22 of 25). -/
def val22 (V0 : Valuation τ sig (Elt F)) : Valuation τ sig (Elt F) := after opsN14 (val21 V0)
theorem val22_main_arg0 (V0 : Valuation τ sig (Elt F)) : val22 V0 (no_index (Proc.devRef .tc main_arg0)) = (V0 (Proc.devRef .tc main_arg0)) :=
  (opsN14_keep _ main_arg0 (by decide)).trans (val21_main_arg0 V0)
theorem val22_main_arg1 (V0 : Valuation τ sig (Elt F)) : val22 V0 (no_index (Proc.devRef .tc main_arg1)) = (V0 (Proc.devRef .tc main_arg1)) :=
  (opsN14_keep _ main_arg1 (by decide)).trans (val21_main_arg1 V0)
theorem val22_main_arg2 (V0 : Valuation τ sig (Elt F)) : val22 V0 (no_index (Proc.devRef .tc main_arg2)) = (V0 (Proc.devRef .tc main_arg2)) :=
  (opsN14_keep _ main_arg2 (by decide)).trans (val21_main_arg2 V0)
theorem val22_main_arg3 (V0 : Valuation τ sig (Elt F)) : val22 V0 (no_index (Proc.devRef .tc main_arg3)) = (V0 (Proc.devRef .tc main_arg3)) :=
  (opsN14_keep _ main_arg3 (by decide)).trans (val21_main_arg3 V0)
theorem val22_main_arg4 (V0 : Valuation τ sig (Elt F)) : val22 V0 (no_index (Proc.devRef .tc main_arg4)) = (V0 (Proc.devRef .tc main_arg4)) :=
  (opsN14_keep _ main_arg4 (by decide)).trans (val21_main_arg4 V0)
theorem val22_main_arg5 (V0 : Valuation τ sig (Elt F)) : val22 V0 (no_index (Proc.devRef .tc main_arg5)) = (V0 (Proc.devRef .tc main_arg5)) :=
  (opsN14_keep _ main_arg5 (by decide)).trans (val21_main_arg5 V0)
theorem val22_main_arg6 (V0 : Valuation τ sig (Elt F)) : val22 V0 (no_index (Proc.devRef .tc main_arg6)) = (V0 (Proc.devRef .tc main_arg6)) :=
  (opsN14_keep _ main_arg6 (by decide)).trans (val21_main_arg6 V0)
theorem val22_main_arg7 (V0 : Valuation τ sig (Elt F)) : val22 V0 (no_index (Proc.devRef .tc main_arg7)) = (V0 (Proc.devRef .tc main_arg7)) :=
  (opsN14_keep _ main_arg7 (by decide)).trans (val21_main_arg7 V0)
theorem val22_main_arg8 (V0 : Valuation τ sig (Elt F)) : val22 V0 (no_index (Proc.devRef .tc main_arg8)) = (V0 (Proc.devRef .tc main_arg8)) :=
  (opsN14_keep _ main_arg8 (by decide)).trans (val21_main_arg8 V0)
theorem val22_main_arg9 (V0 : Valuation τ sig (Elt F)) : val22 V0 (no_index (Proc.devRef .tc main_arg9)) = (V0 (Proc.devRef .tc main_arg9)) :=
  (opsN14_keep _ main_arg9 (by decide)).trans (val21_main_arg9 V0)
theorem val22_main_arg10 (V0 : Valuation τ sig (Elt F)) : val22 V0 (no_index (Proc.devRef .tc main_arg10)) = (V0 (Proc.devRef .tc main_arg10)) :=
  (opsN14_keep _ main_arg10 (by decide)).trans (val21_main_arg10 V0)
theorem val22_main_arg11 (V0 : Valuation τ sig (Elt F)) : val22 V0 (no_index (Proc.devRef .tc main_arg11)) = (V0 (Proc.devRef .tc main_arg11)) :=
  (opsN14_keep _ main_arg11 (by decide)).trans (val21_main_arg11 V0)
theorem val22_main_arg12 (V0 : Valuation τ sig (Elt F)) : val22 V0 (no_index (Proc.devRef .tc main_arg12)) = (V0 (Proc.devRef .tc main_arg12)) :=
  (opsN14_keep _ main_arg12 (by decide)).trans (val21_main_arg12 V0)
theorem val22_main_arg13 (V0 : Valuation τ sig (Elt F)) : val22 V0 (no_index (Proc.devRef .tc main_arg13)) = (V0 (Proc.devRef .tc main_arg13)) :=
  (opsN14_keep _ main_arg13 (by decide)).trans (val21_main_arg13 V0)
theorem val22_main_v53 (V0 : Valuation τ sig (Elt F)) : val22 V0 (no_index (Proc.devRef .tc main_v53)) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN14_keep _ main_v53 (by decide)).trans (val21_main_v53 V0)
theorem val22_main_v160 (V0 : Valuation τ sig (Elt F)) : val22 V0 (no_index (Proc.devRef .tc main_v160)) = h10 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN14_keep _ main_v160 (by decide)).trans (val21_main_v160 V0)
theorem val22_main_v193 (V0 : Valuation τ sig (Elt F)) : val22 V0 (no_index (Proc.devRef .tc main_v193)) = h13 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN14_keep _ main_v193 (by decide)).trans (val21_main_v193 V0)
theorem val22_main_v208 (V0 : Valuation τ sig (Elt F)) : val22 V0 (no_index (Proc.devRef .tc main_v208)) = h14 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val22
  refine (segN14_main_v208 _).trans ?_
  simp only [val21_main_v43, val21_main_v53, val21_main_v170, val21_main_arg9, val21_main_arg10] <;> rfl

/-- The contents after node 15 (stretch 23 of 25). -/
def val23 (V0 : Valuation τ sig (Elt F)) : Valuation τ sig (Elt F) := after opsN15 (val22 V0)
theorem val23_main_arg0 (V0 : Valuation τ sig (Elt F)) : val23 V0 (no_index (Proc.devRef .tc main_arg0)) = (V0 (Proc.devRef .tc main_arg0)) :=
  (opsN15_keep _ main_arg0 (by decide)).trans (val22_main_arg0 V0)
theorem val23_main_arg1 (V0 : Valuation τ sig (Elt F)) : val23 V0 (no_index (Proc.devRef .tc main_arg1)) = (V0 (Proc.devRef .tc main_arg1)) :=
  (opsN15_keep _ main_arg1 (by decide)).trans (val22_main_arg1 V0)
theorem val23_main_arg2 (V0 : Valuation τ sig (Elt F)) : val23 V0 (no_index (Proc.devRef .tc main_arg2)) = (V0 (Proc.devRef .tc main_arg2)) :=
  (opsN15_keep _ main_arg2 (by decide)).trans (val22_main_arg2 V0)
theorem val23_main_arg3 (V0 : Valuation τ sig (Elt F)) : val23 V0 (no_index (Proc.devRef .tc main_arg3)) = (V0 (Proc.devRef .tc main_arg3)) :=
  (opsN15_keep _ main_arg3 (by decide)).trans (val22_main_arg3 V0)
theorem val23_main_arg4 (V0 : Valuation τ sig (Elt F)) : val23 V0 (no_index (Proc.devRef .tc main_arg4)) = (V0 (Proc.devRef .tc main_arg4)) :=
  (opsN15_keep _ main_arg4 (by decide)).trans (val22_main_arg4 V0)
theorem val23_main_arg5 (V0 : Valuation τ sig (Elt F)) : val23 V0 (no_index (Proc.devRef .tc main_arg5)) = (V0 (Proc.devRef .tc main_arg5)) :=
  (opsN15_keep _ main_arg5 (by decide)).trans (val22_main_arg5 V0)
theorem val23_main_arg6 (V0 : Valuation τ sig (Elt F)) : val23 V0 (no_index (Proc.devRef .tc main_arg6)) = (V0 (Proc.devRef .tc main_arg6)) :=
  (opsN15_keep _ main_arg6 (by decide)).trans (val22_main_arg6 V0)
theorem val23_main_arg7 (V0 : Valuation τ sig (Elt F)) : val23 V0 (no_index (Proc.devRef .tc main_arg7)) = (V0 (Proc.devRef .tc main_arg7)) :=
  (opsN15_keep _ main_arg7 (by decide)).trans (val22_main_arg7 V0)
theorem val23_main_arg8 (V0 : Valuation τ sig (Elt F)) : val23 V0 (no_index (Proc.devRef .tc main_arg8)) = (V0 (Proc.devRef .tc main_arg8)) :=
  (opsN15_keep _ main_arg8 (by decide)).trans (val22_main_arg8 V0)
theorem val23_main_arg9 (V0 : Valuation τ sig (Elt F)) : val23 V0 (no_index (Proc.devRef .tc main_arg9)) = (V0 (Proc.devRef .tc main_arg9)) :=
  (opsN15_keep _ main_arg9 (by decide)).trans (val22_main_arg9 V0)
theorem val23_main_arg10 (V0 : Valuation τ sig (Elt F)) : val23 V0 (no_index (Proc.devRef .tc main_arg10)) = (V0 (Proc.devRef .tc main_arg10)) :=
  (opsN15_keep _ main_arg10 (by decide)).trans (val22_main_arg10 V0)
theorem val23_main_arg11 (V0 : Valuation τ sig (Elt F)) : val23 V0 (no_index (Proc.devRef .tc main_arg11)) = (V0 (Proc.devRef .tc main_arg11)) :=
  (opsN15_keep _ main_arg11 (by decide)).trans (val22_main_arg11 V0)
theorem val23_main_arg12 (V0 : Valuation τ sig (Elt F)) : val23 V0 (no_index (Proc.devRef .tc main_arg12)) = (V0 (Proc.devRef .tc main_arg12)) :=
  (opsN15_keep _ main_arg12 (by decide)).trans (val22_main_arg12 V0)
theorem val23_main_arg13 (V0 : Valuation τ sig (Elt F)) : val23 V0 (no_index (Proc.devRef .tc main_arg13)) = (V0 (Proc.devRef .tc main_arg13)) :=
  (opsN15_keep _ main_arg13 (by decide)).trans (val22_main_arg13 V0)
theorem val23_main_v193 (V0 : Valuation τ sig (Elt F)) : val23 V0 (no_index (Proc.devRef .tc main_v193)) = h13 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN15_keep _ main_v193 (by decide)).trans (val22_main_v193 V0)
theorem val23_main_v208 (V0 : Valuation τ sig (Elt F)) : val23 V0 (no_index (Proc.devRef .tc main_v208)) = h14 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (opsN15_keep _ main_v208 (by decide)).trans (val22_main_v208 V0)
theorem val23_main_v219 (V0 : Valuation τ sig (Elt F)) : val23 V0 (no_index (Proc.devRef .tc main_v219)) = h15 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val23
  refine (segN15_main_v219 _).trans ?_
  simp only [val22_main_v53, val22_main_v160, val22_main_arg9, val22_main_arg10] <;> rfl

/-- The contents after the sinks' sum, the output layer, the scale and the logistic function's denominator (stretch 24 of 25). -/
def val24 (V0 : Valuation τ sig (Elt F)) : Valuation τ sig (Elt F) := after opsOutA (val23 V0)
theorem val24_main_arg0 (V0 : Valuation τ sig (Elt F)) : val24 V0 (no_index (Proc.devRef .tc main_arg0)) = (V0 (Proc.devRef .tc main_arg0)) :=
  (opsOutA_keep _ main_arg0 (by decide)).trans (val23_main_arg0 V0)
theorem val24_main_arg1 (V0 : Valuation τ sig (Elt F)) : val24 V0 (no_index (Proc.devRef .tc main_arg1)) = (V0 (Proc.devRef .tc main_arg1)) :=
  (opsOutA_keep _ main_arg1 (by decide)).trans (val23_main_arg1 V0)
theorem val24_main_arg2 (V0 : Valuation τ sig (Elt F)) : val24 V0 (no_index (Proc.devRef .tc main_arg2)) = (V0 (Proc.devRef .tc main_arg2)) :=
  (opsOutA_keep _ main_arg2 (by decide)).trans (val23_main_arg2 V0)
theorem val24_main_arg3 (V0 : Valuation τ sig (Elt F)) : val24 V0 (no_index (Proc.devRef .tc main_arg3)) = (V0 (Proc.devRef .tc main_arg3)) :=
  (opsOutA_keep _ main_arg3 (by decide)).trans (val23_main_arg3 V0)
theorem val24_main_arg4 (V0 : Valuation τ sig (Elt F)) : val24 V0 (no_index (Proc.devRef .tc main_arg4)) = (V0 (Proc.devRef .tc main_arg4)) :=
  (opsOutA_keep _ main_arg4 (by decide)).trans (val23_main_arg4 V0)
theorem val24_main_arg5 (V0 : Valuation τ sig (Elt F)) : val24 V0 (no_index (Proc.devRef .tc main_arg5)) = (V0 (Proc.devRef .tc main_arg5)) :=
  (opsOutA_keep _ main_arg5 (by decide)).trans (val23_main_arg5 V0)
theorem val24_main_arg6 (V0 : Valuation τ sig (Elt F)) : val24 V0 (no_index (Proc.devRef .tc main_arg6)) = (V0 (Proc.devRef .tc main_arg6)) :=
  (opsOutA_keep _ main_arg6 (by decide)).trans (val23_main_arg6 V0)
theorem val24_main_arg7 (V0 : Valuation τ sig (Elt F)) : val24 V0 (no_index (Proc.devRef .tc main_arg7)) = (V0 (Proc.devRef .tc main_arg7)) :=
  (opsOutA_keep _ main_arg7 (by decide)).trans (val23_main_arg7 V0)
theorem val24_main_arg8 (V0 : Valuation τ sig (Elt F)) : val24 V0 (no_index (Proc.devRef .tc main_arg8)) = (V0 (Proc.devRef .tc main_arg8)) :=
  (opsOutA_keep _ main_arg8 (by decide)).trans (val23_main_arg8 V0)
theorem val24_main_arg9 (V0 : Valuation τ sig (Elt F)) : val24 V0 (no_index (Proc.devRef .tc main_arg9)) = (V0 (Proc.devRef .tc main_arg9)) :=
  (opsOutA_keep _ main_arg9 (by decide)).trans (val23_main_arg9 V0)
theorem val24_main_arg10 (V0 : Valuation τ sig (Elt F)) : val24 V0 (no_index (Proc.devRef .tc main_arg10)) = (V0 (Proc.devRef .tc main_arg10)) :=
  (opsOutA_keep _ main_arg10 (by decide)).trans (val23_main_arg10 V0)
theorem val24_main_arg11 (V0 : Valuation τ sig (Elt F)) : val24 V0 (no_index (Proc.devRef .tc main_arg11)) = (V0 (Proc.devRef .tc main_arg11)) :=
  (opsOutA_keep _ main_arg11 (by decide)).trans (val23_main_arg11 V0)
theorem val24_main_arg12 (V0 : Valuation τ sig (Elt F)) : val24 V0 (no_index (Proc.devRef .tc main_arg12)) = (V0 (Proc.devRef .tc main_arg12)) :=
  (opsOutA_keep _ main_arg12 (by decide)).trans (val23_main_arg12 V0)
theorem val24_main_arg13 (V0 : Valuation τ sig (Elt F)) : val24 V0 (no_index (Proc.devRef .tc main_arg13)) = (V0 (Proc.devRef .tc main_arg13)) :=
  (opsOutA_keep _ main_arg13 (by decide)).trans (val23_main_arg13 V0)
theorem val24_main_v233 (V0 : Valuation τ sig (Elt F)) : val24 V0 (no_index (Proc.devRef .tc main_v233)) = logisticDen (logit (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))) := by
  unfold val24
  refine (segOutA_main_v233 _).trans ?_
  simp only [val23_main_v193, val23_main_v208, val23_main_v219, val23_main_arg11, val23_main_arg12, val23_main_arg13] <;> rfl
theorem val24_main_cst_4 (V0 : Valuation τ sig (Elt F)) : val24 V0 (no_index (Proc.devRef .tc main_cst_4)) = constant S_ .f32 0x3F800000#32 := by
  unfold val24
  refine (segOutA_main_cst_4 _).trans ?_
  rfl

/-- The contents after the final quotient (stretch 25 of 25). -/
def val25 (V0 : Valuation τ sig (Elt F)) : Valuation τ sig (Elt F) := after opsOutB (val24 V0)
theorem val25_main_arg0 (V0 : Valuation τ sig (Elt F)) : val25 V0 (no_index (Proc.devRef .tc main_arg0)) = (V0 (Proc.devRef .tc main_arg0)) :=
  (opsOutB_keep _ main_arg0 (by decide)).trans (val24_main_arg0 V0)
theorem val25_main_arg1 (V0 : Valuation τ sig (Elt F)) : val25 V0 (no_index (Proc.devRef .tc main_arg1)) = (V0 (Proc.devRef .tc main_arg1)) :=
  (opsOutB_keep _ main_arg1 (by decide)).trans (val24_main_arg1 V0)
theorem val25_main_arg2 (V0 : Valuation τ sig (Elt F)) : val25 V0 (no_index (Proc.devRef .tc main_arg2)) = (V0 (Proc.devRef .tc main_arg2)) :=
  (opsOutB_keep _ main_arg2 (by decide)).trans (val24_main_arg2 V0)
theorem val25_main_arg3 (V0 : Valuation τ sig (Elt F)) : val25 V0 (no_index (Proc.devRef .tc main_arg3)) = (V0 (Proc.devRef .tc main_arg3)) :=
  (opsOutB_keep _ main_arg3 (by decide)).trans (val24_main_arg3 V0)
theorem val25_main_arg4 (V0 : Valuation τ sig (Elt F)) : val25 V0 (no_index (Proc.devRef .tc main_arg4)) = (V0 (Proc.devRef .tc main_arg4)) :=
  (opsOutB_keep _ main_arg4 (by decide)).trans (val24_main_arg4 V0)
theorem val25_main_arg5 (V0 : Valuation τ sig (Elt F)) : val25 V0 (no_index (Proc.devRef .tc main_arg5)) = (V0 (Proc.devRef .tc main_arg5)) :=
  (opsOutB_keep _ main_arg5 (by decide)).trans (val24_main_arg5 V0)
theorem val25_main_arg6 (V0 : Valuation τ sig (Elt F)) : val25 V0 (no_index (Proc.devRef .tc main_arg6)) = (V0 (Proc.devRef .tc main_arg6)) :=
  (opsOutB_keep _ main_arg6 (by decide)).trans (val24_main_arg6 V0)
theorem val25_main_arg7 (V0 : Valuation τ sig (Elt F)) : val25 V0 (no_index (Proc.devRef .tc main_arg7)) = (V0 (Proc.devRef .tc main_arg7)) :=
  (opsOutB_keep _ main_arg7 (by decide)).trans (val24_main_arg7 V0)
theorem val25_main_arg8 (V0 : Valuation τ sig (Elt F)) : val25 V0 (no_index (Proc.devRef .tc main_arg8)) = (V0 (Proc.devRef .tc main_arg8)) :=
  (opsOutB_keep _ main_arg8 (by decide)).trans (val24_main_arg8 V0)
theorem val25_main_arg9 (V0 : Valuation τ sig (Elt F)) : val25 V0 (no_index (Proc.devRef .tc main_arg9)) = (V0 (Proc.devRef .tc main_arg9)) :=
  (opsOutB_keep _ main_arg9 (by decide)).trans (val24_main_arg9 V0)
theorem val25_main_arg10 (V0 : Valuation τ sig (Elt F)) : val25 V0 (no_index (Proc.devRef .tc main_arg10)) = (V0 (Proc.devRef .tc main_arg10)) :=
  (opsOutB_keep _ main_arg10 (by decide)).trans (val24_main_arg10 V0)
theorem val25_main_arg11 (V0 : Valuation τ sig (Elt F)) : val25 V0 (no_index (Proc.devRef .tc main_arg11)) = (V0 (Proc.devRef .tc main_arg11)) :=
  (opsOutB_keep _ main_arg11 (by decide)).trans (val24_main_arg11 V0)
theorem val25_main_arg12 (V0 : Valuation τ sig (Elt F)) : val25 V0 (no_index (Proc.devRef .tc main_arg12)) = (V0 (Proc.devRef .tc main_arg12)) :=
  (opsOutB_keep _ main_arg12 (by decide)).trans (val24_main_arg12 V0)
theorem val25_main_arg13 (V0 : Valuation τ sig (Elt F)) : val25 V0 (no_index (Proc.devRef .tc main_arg13)) = (V0 (Proc.devRef .tc main_arg13)) :=
  (opsOutB_keep _ main_arg13 (by decide)).trans (val24_main_arg13 V0)
theorem val25_main_v235 (V0 : Valuation τ sig (Elt F)) : val25 V0 (no_index (Proc.devRef .tc main_v235)) = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold val25
  refine (segOutB_main_v235 _).trans ?_
  simp only [val24_main_cst_4, val24_main_v233] <;> rfl

set_option maxRecDepth 8192 in
/-- The whole list's fold is the last stretch's contents. -/
theorem after_ops (V0 : Valuation τ sig (Elt F)) : after ops V0 = val25 V0 := by
  simp only [ops, opsPart0, opsPart1, opsPart2, opsPart3, opsPart4, after_app]
  rfl

end Cert.ReferenceIdeal.Hand

end
-- ==== Proof.RefRun.lean ====
/-
  The reference's run. @main is the straight line of its 350 host operations on a signature that scopes
  nothing, so every weakly fair execution of it terminates with each TensorCore buffer at the fold of the
  operations over the launch contents; read stretch by stretch, the fold leaves the result buffer at
  `result` of the fourteen argument arrays and every argument array as it was.
-/
import proofs.«166257_j42623255446007_2_alg».proof.Proof.RefRunMainEq
import proofs.«166257_j42623255446007_2_alg».proof.Proof.RefRunFold
import Mathlib.Data.List.Basic

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

theorem opsPart0_sub : (opsPart0 : List (HloOp τ sig (Elt F))).Forall fun op => op.bufs ⊆ tcRefs τ sig :=
  (List.forall_append.mpr ⟨(List.forall_append.mpr ⟨(List.forall_append.mpr ⟨(List.forall_append.mpr ⟨(List.forall_append.mpr ⟨(List.forall_append.mpr ⟨opsLat_sub, opsR_sub⟩), opsY_sub⟩), opsFeat_sub⟩), opsN0_sub⟩), opsN1_sub⟩), opsN2a_sub⟩)
theorem opsPart0_fresh : (opsPart0 : List (HloOp τ sig (Elt F))).Forall fun op => op.fresh = ∅ :=
  (List.forall_append.mpr ⟨(List.forall_append.mpr ⟨(List.forall_append.mpr ⟨(List.forall_append.mpr ⟨(List.forall_append.mpr ⟨(List.forall_append.mpr ⟨opsLat_fresh, opsR_fresh⟩), opsY_fresh⟩), opsFeat_fresh⟩), opsN0_fresh⟩), opsN1_fresh⟩), opsN2a_fresh⟩)

theorem opsPart1_sub : (opsPart1 : List (HloOp τ sig (Elt F))).Forall fun op => op.bufs ⊆ tcRefs τ sig :=
  (List.forall_append.mpr ⟨(List.forall_append.mpr ⟨(List.forall_append.mpr ⟨(List.forall_append.mpr ⟨(List.forall_append.mpr ⟨opsN2b_sub, opsN3_sub⟩), opsN4_sub⟩), opsN5_sub⟩), opsN6_sub⟩), opsN7a_sub⟩)
theorem opsPart1_fresh : (opsPart1 : List (HloOp τ sig (Elt F))).Forall fun op => op.fresh = ∅ :=
  (List.forall_append.mpr ⟨(List.forall_append.mpr ⟨(List.forall_append.mpr ⟨(List.forall_append.mpr ⟨(List.forall_append.mpr ⟨opsN2b_fresh, opsN3_fresh⟩), opsN4_fresh⟩), opsN5_fresh⟩), opsN6_fresh⟩), opsN7a_fresh⟩)

theorem opsPart2_sub : (opsPart2 : List (HloOp τ sig (Elt F))).Forall fun op => op.bufs ⊆ tcRefs τ sig :=
  (List.forall_append.mpr ⟨(List.forall_append.mpr ⟨(List.forall_append.mpr ⟨(List.forall_append.mpr ⟨(List.forall_append.mpr ⟨opsN7b_sub, opsN8_sub⟩), opsN9_sub⟩), opsN10_sub⟩), opsN11_sub⟩), opsN12a_sub⟩)
theorem opsPart2_fresh : (opsPart2 : List (HloOp τ sig (Elt F))).Forall fun op => op.fresh = ∅ :=
  (List.forall_append.mpr ⟨(List.forall_append.mpr ⟨(List.forall_append.mpr ⟨(List.forall_append.mpr ⟨(List.forall_append.mpr ⟨opsN7b_fresh, opsN8_fresh⟩), opsN9_fresh⟩), opsN10_fresh⟩), opsN11_fresh⟩), opsN12a_fresh⟩)

theorem opsPart3_sub : (opsPart3 : List (HloOp τ sig (Elt F))).Forall fun op => op.bufs ⊆ tcRefs τ sig :=
  (List.forall_append.mpr ⟨(List.forall_append.mpr ⟨(List.forall_append.mpr ⟨(List.forall_append.mpr ⟨opsN12b_sub, opsN13_sub⟩), opsN14_sub⟩), opsN15_sub⟩), opsOutA_sub⟩)
theorem opsPart3_fresh : (opsPart3 : List (HloOp τ sig (Elt F))).Forall fun op => op.fresh = ∅ :=
  (List.forall_append.mpr ⟨(List.forall_append.mpr ⟨(List.forall_append.mpr ⟨(List.forall_append.mpr ⟨opsN12b_fresh, opsN13_fresh⟩), opsN14_fresh⟩), opsN15_fresh⟩), opsOutA_fresh⟩)

theorem opsPart4_sub : (opsPart4 : List (HloOp τ sig (Elt F))).Forall fun op => op.bufs ⊆ tcRefs τ sig :=
  opsOutB_sub
theorem opsPart4_fresh : (opsPart4 : List (HloOp τ sig (Elt F))).Forall fun op => op.fresh = ∅ :=
  opsOutB_fresh

/-- Every operation of @main touches TensorCore buffers only. -/
theorem ops_sub : (ops : List (HloOp τ sig (Elt F))).Forall fun op => op.bufs ⊆ tcRefs τ sig :=
  (List.forall_append.mpr ⟨(List.forall_append.mpr ⟨(List.forall_append.mpr ⟨(List.forall_append.mpr ⟨opsPart0_sub, opsPart1_sub⟩), opsPart2_sub⟩), opsPart3_sub⟩), opsPart4_sub⟩)

/-- Every operation of @main determines what it writes: none only allocates. -/
theorem ops_fresh : ∀ op ∈ (ops : List (HloOp τ sig (Elt F))), op.fresh = ∅ :=
  List.forall_iff_forall_mem.mp (List.forall_append.mpr ⟨(List.forall_append.mpr ⟨(List.forall_append.mpr ⟨(List.forall_append.mpr ⟨opsPart0_fresh, opsPart1_fresh⟩), opsPart2_fresh⟩), opsPart3_fresh⟩), opsPart4_fresh⟩)

/-- On every device, for any float values, from any memory with zero counters: every weakly fair execution of
    @main terminates with the result buffer at the network's composed term of the argument arrays and the
    argument arrays unchanged. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => ∀ c : Dev nD,
      r.2.mem ((c.tc : Thread nD τ).loc main_v235) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v235).trans (by simp only [after_ops]; exact val25_main_v235 (launchContents m c)),
      (h c main_arg0).trans (by simp only [after_ops]; exact val25_main_arg0 (launchContents m c)),
      (h c main_arg1).trans (by simp only [after_ops]; exact val25_main_arg1 (launchContents m c)),
      (h c main_arg2).trans (by simp only [after_ops]; exact val25_main_arg2 (launchContents m c)),
      (h c main_arg3).trans (by simp only [after_ops]; exact val25_main_arg3 (launchContents m c)),
      (h c main_arg4).trans (by simp only [after_ops]; exact val25_main_arg4 (launchContents m c)),
      (h c main_arg5).trans (by simp only [after_ops]; exact val25_main_arg5 (launchContents m c)),
      (h c main_arg6).trans (by simp only [after_ops]; exact val25_main_arg6 (launchContents m c)),
      (h c main_arg7).trans (by simp only [after_ops]; exact val25_main_arg7 (launchContents m c)),
      (h c main_arg8).trans (by simp only [after_ops]; exact val25_main_arg8 (launchContents m c)),
      (h c main_arg9).trans (by simp only [after_ops]; exact val25_main_arg9 (launchContents m c)),
      (h c main_arg10).trans (by simp only [after_ops]; exact val25_main_arg10 (launchContents m c)),
      (h c main_arg11).trans (by simp only [after_ops]; exact val25_main_arg11 (launchContents m c)),
      (h c main_arg12).trans (by simp only [after_ops]; exact val25_main_arg12 (launchContents m c)),
      (h c main_arg13).trans (by simp only [after_ops]; exact val25_main_arg13 (launchContents m c))⟩)
    (run_seq scopedRefs_eq scopedSems_eq defs main (fun _ => ops) main_eq (fun _ => ops_sub) m ρ (fun _ => ops_fresh))

/-- The frame alone: every weakly fair execution of @main terminates and leaves the fourteen argument arrays unchanged. -/
theorem frame (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (run m ρ)

end Cert.ReferenceIdeal.Hand

end
-- ==== Proof.RefValuePointwise.lean ====
/-
  The reference's stages read at an index, over the extended reals: each whole-array operation of the stage
  definitions, read at one (row, column), is the scalar operation on the operands read at that row — a broadcast
  reads its source entry, a slice its shifted entry, a transpose the swapped entry, a matrix product the sum over
  the contracted coordinate, a pointwise operation the scalar one — and jax's spellings of ELU, softplus, the
  Gaussian and the logistic function are the one-row network's own.
-/
import proofs.«166257_j42623255446007_2_alg».proof.Proof.RefRunResult
import proofs.«166257_j42623255446007_2_alg».proof.Proof.ParamsOf
import proofs.«166257_j42623255446007_2_alg».proof.Proof.PushIdx
import Idealize.ShloMosaic.Lib.IdealHost
import Mathlib.Algebra.BigOperators.Fin

noncomputable section

namespace Cert.ReferenceIdeal.Hand.Val

open scoped BigOperators
open Cert.ReferenceIdeal Cert.ReferenceIdeal.Gen Cert.ReferenceIdeal.Hand Idealize.ShloMosaic Idealize.ShloMosaic.ValueIdx Cert.RowOps

/-! ## The host's pointwise operations at an index -/

section Pointwise
variable {s : Shape}

theorem hTanh_apply (v : FVec Ideal s .f32) (i : s.Idx) : Host.tanh v i = Ideal.tanh (v i) := rfl
theorem hSin_apply (v : FVec Ideal s .f32) (i : s.Idx) : Host.sin v i = Ideal.sin (v i) := rfl
theorem hExp_apply (v : FVec Ideal s .f32) (i : s.Idx) : Host.exp v i = Ideal.exp (v i) := rfl
theorem hLog1p_apply (v : FVec Ideal s .f32) (i : s.Idx) : Host.log1p v i = Ideal.log1p (v i) := rfl
theorem hExpm1_apply (v : FVec Ideal s .f32) (i : s.Idx) : Host.expm1 v i = Ideal.exp (v i) - 1 := rfl
theorem hNegf_apply (v : FVec Ideal s .f32) (i : s.Idx) : Host.negf v i = -(v i) := rfl
theorem hAbsf_apply (v : FVec Ideal s .f32) (i : s.Idx) : Host.absf v i = max (v i) (-(v i)) := rfl
theorem hDivf_apply (a b : FVec Ideal s .f32) (i : s.Idx) : Host.divf a b i = Ideal.div (a i) (b i) := rfl

end Pointwise

/-! ## The constant arrays -/

theorem zeros64_apply (i : S131072x64.Idx) : zeros64 (F := Ideal) i = 0 := by
  unfold zeros64
  rw [broadcastInDim_scalar_apply, constant_apply, Ideal.ofBits_zero_f32]
theorem ones64_apply (i : S131072x64.Idx) : ones64 (F := Ideal) i = 1 := by
  unfold ones64
  rw [broadcastInDim_scalar_apply, constant_apply, ofBits_one_f32]
theorem negHalf64_apply (i : S131072x64.Idx) : negHalf64 (F := Ideal) i = Cert.Net.negHalf := by
  unfold negHalf64
  rw [broadcastInDim_scalar_apply, constant_apply]
theorem ones3_apply (i : S131072x3.Idx) : ones3 (F := Ideal) i = 1 := by
  unfold ones3
  rw [broadcastInDim_scalar_apply, constant_apply, ofBits_one_f32]

/-! ## The activations on one element -/

/-- jax's ELU on one element is the network's: the inner `where` only keeps `expm1` off the positive side. -/
theorem eluF_apply (x : C Ideal S131072x64) (i : S131072x64.Idx) : eluF x i = Cert.Net.elu (x i) := by
  show Scalar.select (Ideal.cmp .ogt (x i) (zeros64 (F := Ideal) i)) (x i)
      (ones64 (F := Ideal) i * (Ideal.exp (Scalar.select (Ideal.cmp .ogt (x i) (zeros64 (F := Ideal) i))
        (Ideal.ofBits .f32 0x00000000#32) (x i)) - 1)) = _
  rw [zeros64_apply, ones64_apply, Ideal.ofBits_zero_f32]
  unfold Cert.Net.elu Scalar.select Ideal.cmp
  by_cases h : 0 < x i
  · simp [h]
  · simp [h]

/-- jax's softplus on one element is the network's: the not-a-number guard is never taken, `x - 0` and `x + 0` are `x`. -/
theorem softplusF_apply (x : C Ideal S131072x64) (i : S131072x64.Idx) : softplusF x i = Cert.Net.softplus (x i) := by
  show Scalar.select (Ideal.cmp .une (x i - zeros64 (F := Ideal) i) (x i - zeros64 (F := Ideal) i)) (x i + zeros64 (F := Ideal) i)
      (max (x i) (zeros64 (F := Ideal) i)
        + Ideal.log1p (Ideal.exp (-(max (x i - zeros64 (F := Ideal) i) (-(x i - zeros64 (F := Ideal) i)))))) = _
  rw [zeros64_apply]
  unfold Cert.Net.softplus Scalar.select Ideal.cmp
  simp only [ne_eq, not_true_eq_false, decide_false, BitVec.ofBool_false, sub_zero]
  rfl

/-- The Gaussian on one element. -/
theorem gaussF_apply (z : C Ideal S131072x64) (i : S131072x64.Idx) : gaussF z i = Cert.Net.gauss (z i) := by
  show Ideal.exp ((negHalf64 (F := Ideal) i * z i) * z i) = _
  rw [negHalf64_apply]
  rfl

/-- The logistic function on one element. -/
theorem logistic_apply (z : C Ideal S131072x3) (i : S131072x3.Idx) : logistic z i = Ideal.logistic (z i) := by
  show Ideal.div (ones3 (F := Ideal) i) (ones3 (F := Ideal) i + Ideal.exp (-(z i))) = _
  rw [ones3_apply]
  rfl

end Cert.ReferenceIdeal.Hand.Val

end
-- ==== Proof.RefValueLayout.lean ====
/-
  The reference's layout operations and affine layers read at an index: a bias vector broadcast down the rows reads
  its entry of the column, slab j of the stacked weights transposed reads gW[j, n, k] at (k, n), row j of the
  stacked biases reads gB[j, n], a coordinate column reads the input's entry of that coordinate, and each matrix
  product is the sum over its contracted coordinate.
-/
import proofs.«166257_j42623255446007_2_alg».proof.Proof.RefValuePointwise

noncomputable section

namespace Cert.ReferenceIdeal.Hand.Val

open scoped BigOperators
open Cert.ReferenceIdeal Cert.ReferenceIdeal.Gen Cert.ReferenceIdeal.Hand Idealize.ShloMosaic Idealize.ShloMosaic.ValueIdx Cert.RowOps

variable {α : Type}

/-! ## Broadcasts -/

/-- A 64-vector made one row and repeated down the rows reads its entry of the column. -/
theorem rowBias_apply (b : C Ideal S64) (q : Fin 131072) (n : Fin 64) : rowBias b (ix2 q n) = b (ix1 n) := by
  unfold rowBias
  rw [broadcastInDim_apply _ _ _ (ix2 q n) (ix2 (0 : Fin 1) n) (fun a => match a with | ⟨0, _⟩ => rfl | ⟨1, _⟩ => rfl),
    broadcastInDim_apply _ _ _ (ix2 (0 : Fin 1) n) (ix1 n) (fun a => match a with | ⟨0, _⟩ => rfl)]

/-- The 3-vector of output biases, the same way. -/
theorem outBias_apply (b : C Ideal S3) (q : Fin 131072) (c : Fin 3) :
    broadcastInDim S131072x3 ![0, 1] bcast_S1x3_S131072x3_0_1 (broadcastInDim S1x3 ![1] bcast_S3_S1x3_1 b) (ix2 q c) = b (ix1 c) := by
  rw [broadcastInDim_apply _ _ _ (ix2 q c) (ix2 (0 : Fin 1) c) (fun a => match a with | ⟨0, _⟩ => rfl | ⟨1, _⟩ => rfl),
    broadcastInDim_apply _ _ _ (ix2 (0 : Fin 1) c) (ix1 c) (fun a => match a with | ⟨0, _⟩ => rfl)]

/-- The one-entry scale repeated everywhere reads its entry. -/
theorem scaleB_apply (a13 : C Ideal S1) (q : Fin 131072) (c : Fin 3) : scaleB a13 (ix2 q c) = a13 (ix1 (0 : Fin 1)) := by
  unfold scaleB
  rw [broadcastInDim_apply _ _ _ (ix2 q c) (ix2 (0 : Fin 1) (0 : Fin 1)) (fun a => match a with | ⟨0, _⟩ => rfl | ⟨1, _⟩ => rfl),
    broadcastInDim_apply _ _ _ (ix2 (0 : Fin 1) (0 : Fin 1)) (ix1 (0 : Fin 1)) (fun a => match a with | ⟨0, _⟩ => rfl)]

/-! ## The coordinate columns -/

/-- Coordinate `c` of the (B, 3, 1) input, as a (B, 1) column, reads the input at (q, c, 0). -/
theorem col_apply (a0 : C Ideal S131072x3x1) (c : Fin 3) (h : S131072x3x1.Slices ![0, c.val, 0] S131072x1x1) (q : Fin 131072) :
    shapeCast S131072x1 (extractStridedSlice S131072x1x1 ![0, c.val, 0] a0 h) shapeCasts_S131072x1x1_S131072x1 (ix2 q (0 : Fin 1))
      = a0 (ix3 q c (0 : Fin 1)) := by
  rw [shapeCast_apply _ _ (ix2 q (0 : Fin 1)) (ix3 q (0 : Fin 1) (0 : Fin 1)) (by
      rw [Shape.rowMajor_val_three, Shape.rowMajor_val_two]
      show (q.val * 1 + 0) * 1 + 0 = q.val * 1 + 0
      omega)]
  exact extractStridedSlice_apply _ _ _ _ (ix3 q c (0 : Fin 1)) (fun a => match a with
    | ⟨0, _⟩ => (Nat.zero_add _).symm
    | ⟨1, _⟩ => rfl
    | ⟨2, _⟩ => rfl)

theorem xCol_apply (a0 : C Ideal S131072x3x1) (q : Fin 131072) : xCol a0 (ix2 q (0 : Fin 1)) = a0 (ix3 q (0 : Fin 3) (0 : Fin 1)) :=
  col_apply a0 (0 : Fin 3) _ q
theorem yCol_apply (a0 : C Ideal S131072x3x1) (q : Fin 131072) : yCol a0 (ix2 q (0 : Fin 1)) = a0 (ix3 q (1 : Fin 3) (0 : Fin 1)) :=
  col_apply a0 (1 : Fin 3) _ q
theorem rCol_apply (a0 : C Ideal S131072x3x1) (q : Fin 131072) : rCol a0 (ix2 q (0 : Fin 1)) = a0 (ix3 q (2 : Fin 3) (0 : Fin 1)) :=
  col_apply a0 (2 : Fin 3) _ q

/-! ## The matrix products -/

theorem plain8 : PlainDot dot_S131072x8_S8x64_S131072x64_1_0_0_1_n_n := ⟨rfl, rfl, fun _ _ => rfl, fun _ _ => rfl, fun _ _ => rfl, fun _ _ => rfl⟩
theorem plain1 : PlainDot dot_S131072x1_S1x64_S131072x64_1_0_0_1_n_n := ⟨rfl, rfl, fun _ _ => rfl, fun _ _ => rfl, fun _ _ => rfl, fun _ _ => rfl⟩
theorem plain64 : PlainDot dot_S131072x64_S64x64_S131072x64_1_0_0_1_n_n := ⟨rfl, rfl, fun _ _ => rfl, fun _ _ => rfl, fun _ _ => rfl, fun _ _ => rfl⟩
theorem plain3 : PlainDot dot_S131072x64_S64x3_S131072x3_1_0_0_1_n_n := ⟨rfl, rfl, fun _ _ => rfl, fun _ _ => rfl, fun _ _ => rfl, fun _ _ => rfl⟩

/-- A coordinate column against a transposed (64, 1) weight: the column's entry times the weight's entry n. -/
theorem coordLin_apply (col : C Ideal S131072x1) (w : C Ideal S64x1) (q : Fin 131072) (n : Fin 64) :
    coordLin col w (ix2 q n) = col (ix2 q (0 : Fin 1)) * w (ix2 n (0 : Fin 1)) := by
  unfold coordLin
  simp only [Host.dotGeneral]
  rw [dotGeneral_ix2 plain1, Fin.sum_univ_one, transpose_ix2_apply]

/-- A 64×64 layer at (q, n): the row against the transposed weight's column n, plus the bias' entry n. -/
theorem dense_apply (x : C Ideal S131072x64) (Wt : C Ideal S64x64) (b : C Ideal S64) (q : Fin 131072) (n : Fin 64) :
    dense x Wt b (ix2 q n) = (∑ k : Fin 64, x (ix2 q k) * Wt (ix2 k n)) + b (ix1 n) := by
  unfold dense
  simp only [Host.dotGeneral]
  rw [addf_apply, dotGeneral_ix2 plain64, rowBias_apply]

/-- The same layer with the weight given untransposed: the row against the weight's row n. -/
theorem denseT_apply (x : C Ideal S131072x64) (W : C Ideal S64x64) (b : C Ideal S64) (q : Fin 131072) (n : Fin 64) :
    dense x (transpose S64x64 [1, 0] W transposes_S64x64_S64x64_1_0) b (ix2 q n) = (∑ k : Fin 64, x (ix2 q k) * W (ix2 n k)) + b (ix1 n) := by
  rw [dense_apply]
  exact congrArg (fun s => s + b (ix1 n)) (Finset.sum_congr rfl fun k _ => by rw [transpose_ix2_apply])

/-- The latents' layer at (q, n). -/
theorem latAct_apply (a1 : C Ideal S131072x8) (a2 : C Ideal S64x8) (a3 : C Ideal S64) (q : Fin 131072) (n : Fin 64) :
    latAct a1 a2 a3 (ix2 q n) = Ideal.tanh ((∑ k : Fin 8, a1 (ix2 q k) * a2 (ix2 n k)) + a3 (ix1 n)) := by
  unfold latAct
  simp only [Host.dotGeneral]
  rw [hTanh_apply, addf_apply, dotGeneral_ix2 plain8, rowBias_apply]
  exact congrArg (fun s => Ideal.tanh (s + a3 (ix1 n))) (Finset.sum_congr rfl fun k _ => by rw [transpose_ix2_apply])

/-- The output layer at (q, c). -/
theorem outLin_apply (agg : C Ideal S131072x64) (a11 : C Ideal S3x64) (a12 : C Ideal S3) (q : Fin 131072) (c : Fin 3) :
    outLin agg a11 a12 (ix2 q c) = (∑ k : Fin 64, agg (ix2 q k) * a11 (ix2 c k)) + a12 (ix1 c) := by
  unfold outLin
  simp only [Host.dotGeneral]
  rw [addf_apply, dotGeneral_ix2 plain3, outBias_apply]
  exact congrArg (fun s => s + a12 (ix1 c)) (Finset.sum_congr rfl fun k _ => by rw [transpose_ix2_apply])

/-! ## The stacked weights -/

/-- Slab `j` of the (16, 64, 64) stack, made a matrix and transposed, reads the stack at (j, n, k) at its (k, n). -/
theorem slab_apply (a9 : C Ideal S16x64x64) (j : Fin 16) (h : S16x64x64.Slices ![j.val, 0, 0] S1x64x64) (k n : Fin 64) :
    transpose S64x64 [1, 0] (shapeCast S64x64 (extractStridedSlice S1x64x64 ![j.val, 0, 0] a9 h) shapeCasts_S1x64x64_S64x64)
      transposes_S64x64_S64x64_1_0 (ix2 k n) = a9 (ix3 j n k) := by
  rw [transpose_ix2_apply, shapeCast_1ab_ab_apply, slice3_axis0_apply j.val a9 h n k j rfl]

/-- Row `j` of the (16, 64) stack, made a vector, reads the stack at (j, n). -/
theorem brow_apply (a10 : C Ideal S16x64) (j : Fin 16) (h : S16x64.Slices ![j.val, 0] S1x64) (n : Fin 64) :
    shapeCast S64 (extractStridedSlice S1x64 ![j.val, 0] a10 h) shapeCasts_S1x64_S64 (ix1 n) = a10 (ix2 j n) := by
  rw [shapeCast_1a_a_apply]
  exact extractStridedSlice_apply _ _ _ _ (ix2 j n) (fun a => match a with
    | ⟨0, _⟩ => rfl
    | ⟨1, _⟩ => (Nat.zero_add _).symm)

theorem gW0_apply (a9 : C Ideal S16x64x64) (k n : Fin 64) : gW0 a9 (ix2 k n) = a9 (ix3 (0 : Fin 16) n k) := slab_apply a9 (0 : Fin 16) _ k n
theorem gB0_apply (a10 : C Ideal S16x64) (n : Fin 64) : gB0 a10 (ix1 n) = a10 (ix2 (0 : Fin 16) n) := brow_apply a10 (0 : Fin 16) _ n
theorem gW1_apply (a9 : C Ideal S16x64x64) (k n : Fin 64) : gW1 a9 (ix2 k n) = a9 (ix3 (1 : Fin 16) n k) := slab_apply a9 (1 : Fin 16) _ k n
theorem gB1_apply (a10 : C Ideal S16x64) (n : Fin 64) : gB1 a10 (ix1 n) = a10 (ix2 (1 : Fin 16) n) := brow_apply a10 (1 : Fin 16) _ n
theorem gW2_apply (a9 : C Ideal S16x64x64) (k n : Fin 64) : gW2 a9 (ix2 k n) = a9 (ix3 (2 : Fin 16) n k) := slab_apply a9 (2 : Fin 16) _ k n
theorem gB2_apply (a10 : C Ideal S16x64) (n : Fin 64) : gB2 a10 (ix1 n) = a10 (ix2 (2 : Fin 16) n) := brow_apply a10 (2 : Fin 16) _ n
theorem gW3_apply (a9 : C Ideal S16x64x64) (k n : Fin 64) : gW3 a9 (ix2 k n) = a9 (ix3 (3 : Fin 16) n k) := slab_apply a9 (3 : Fin 16) _ k n
theorem gB3_apply (a10 : C Ideal S16x64) (n : Fin 64) : gB3 a10 (ix1 n) = a10 (ix2 (3 : Fin 16) n) := brow_apply a10 (3 : Fin 16) _ n
theorem gW4_apply (a9 : C Ideal S16x64x64) (k n : Fin 64) : gW4 a9 (ix2 k n) = a9 (ix3 (4 : Fin 16) n k) := slab_apply a9 (4 : Fin 16) _ k n
theorem gB4_apply (a10 : C Ideal S16x64) (n : Fin 64) : gB4 a10 (ix1 n) = a10 (ix2 (4 : Fin 16) n) := brow_apply a10 (4 : Fin 16) _ n
theorem gW5_apply (a9 : C Ideal S16x64x64) (k n : Fin 64) : gW5 a9 (ix2 k n) = a9 (ix3 (5 : Fin 16) n k) := slab_apply a9 (5 : Fin 16) _ k n
theorem gB5_apply (a10 : C Ideal S16x64) (n : Fin 64) : gB5 a10 (ix1 n) = a10 (ix2 (5 : Fin 16) n) := brow_apply a10 (5 : Fin 16) _ n
theorem gW6_apply (a9 : C Ideal S16x64x64) (k n : Fin 64) : gW6 a9 (ix2 k n) = a9 (ix3 (6 : Fin 16) n k) := slab_apply a9 (6 : Fin 16) _ k n
theorem gB6_apply (a10 : C Ideal S16x64) (n : Fin 64) : gB6 a10 (ix1 n) = a10 (ix2 (6 : Fin 16) n) := brow_apply a10 (6 : Fin 16) _ n
theorem gW7_apply (a9 : C Ideal S16x64x64) (k n : Fin 64) : gW7 a9 (ix2 k n) = a9 (ix3 (7 : Fin 16) n k) := slab_apply a9 (7 : Fin 16) _ k n
theorem gB7_apply (a10 : C Ideal S16x64) (n : Fin 64) : gB7 a10 (ix1 n) = a10 (ix2 (7 : Fin 16) n) := brow_apply a10 (7 : Fin 16) _ n
theorem gW8_apply (a9 : C Ideal S16x64x64) (k n : Fin 64) : gW8 a9 (ix2 k n) = a9 (ix3 (8 : Fin 16) n k) := slab_apply a9 (8 : Fin 16) _ k n
theorem gB8_apply (a10 : C Ideal S16x64) (n : Fin 64) : gB8 a10 (ix1 n) = a10 (ix2 (8 : Fin 16) n) := brow_apply a10 (8 : Fin 16) _ n
theorem gW9_apply (a9 : C Ideal S16x64x64) (k n : Fin 64) : gW9 a9 (ix2 k n) = a9 (ix3 (9 : Fin 16) n k) := slab_apply a9 (9 : Fin 16) _ k n
theorem gB9_apply (a10 : C Ideal S16x64) (n : Fin 64) : gB9 a10 (ix1 n) = a10 (ix2 (9 : Fin 16) n) := brow_apply a10 (9 : Fin 16) _ n
theorem gW10_apply (a9 : C Ideal S16x64x64) (k n : Fin 64) : gW10 a9 (ix2 k n) = a9 (ix3 (10 : Fin 16) n k) := slab_apply a9 (10 : Fin 16) _ k n
theorem gB10_apply (a10 : C Ideal S16x64) (n : Fin 64) : gB10 a10 (ix1 n) = a10 (ix2 (10 : Fin 16) n) := brow_apply a10 (10 : Fin 16) _ n
theorem gW11_apply (a9 : C Ideal S16x64x64) (k n : Fin 64) : gW11 a9 (ix2 k n) = a9 (ix3 (11 : Fin 16) n k) := slab_apply a9 (11 : Fin 16) _ k n
theorem gB11_apply (a10 : C Ideal S16x64) (n : Fin 64) : gB11 a10 (ix1 n) = a10 (ix2 (11 : Fin 16) n) := brow_apply a10 (11 : Fin 16) _ n
theorem gW12_apply (a9 : C Ideal S16x64x64) (k n : Fin 64) : gW12 a9 (ix2 k n) = a9 (ix3 (12 : Fin 16) n k) := slab_apply a9 (12 : Fin 16) _ k n
theorem gB12_apply (a10 : C Ideal S16x64) (n : Fin 64) : gB12 a10 (ix1 n) = a10 (ix2 (12 : Fin 16) n) := brow_apply a10 (12 : Fin 16) _ n
theorem gW13_apply (a9 : C Ideal S16x64x64) (k n : Fin 64) : gW13 a9 (ix2 k n) = a9 (ix3 (13 : Fin 16) n k) := slab_apply a9 (13 : Fin 16) _ k n
theorem gB13_apply (a10 : C Ideal S16x64) (n : Fin 64) : gB13 a10 (ix1 n) = a10 (ix2 (13 : Fin 16) n) := brow_apply a10 (13 : Fin 16) _ n
theorem gW14_apply (a9 : C Ideal S16x64x64) (k n : Fin 64) : gW14 a9 (ix2 k n) = a9 (ix3 (14 : Fin 16) n k) := slab_apply a9 (14 : Fin 16) _ k n
theorem gB14_apply (a10 : C Ideal S16x64) (n : Fin 64) : gB14 a10 (ix1 n) = a10 (ix2 (14 : Fin 16) n) := brow_apply a10 (14 : Fin 16) _ n
theorem gW15_apply (a9 : C Ideal S16x64x64) (k n : Fin 64) : gW15 a9 (ix2 k n) = a9 (ix3 (15 : Fin 16) n k) := slab_apply a9 (15 : Fin 16) _ k n
theorem gB15_apply (a10 : C Ideal S16x64) (n : Fin 64) : gB15 a10 (ix1 n) = a10 (ix2 (15 : Fin 16) n) := brow_apply a10 (15 : Fin 16) _ n

end Cert.ReferenceIdeal.Hand.Val

end
-- ==== Proof.RefValue.lean ====
/-
  The reference's network read at one batch row: the feature, each of the sixteen graph nodes and the result at
  (q, ·) are the one-row network's on the row's three coordinates and eight latents, with the parameters the
  weight arrays hold. Each node reads its predecessors' outputs at the same row, adds them and applies its layer:
  the one-row network's own shape, so nothing here needs the entries to be finite.
-/
import proofs.«166257_j42623255446007_2_alg».proof.Proof.RefValueLayout

noncomputable section

namespace Cert.ReferenceIdeal.Hand.Val

open scoped BigOperators
open Cert.ReferenceIdeal Cert.ReferenceIdeal.Gen Cert.ReferenceIdeal.Hand Idealize.ShloMosaic Idealize.ShloMosaic.ValueIdx Cert.RowOps

variable (a0 : C Ideal S131072x3x1) (a1 : C Ideal S131072x8) (a2 : C Ideal S64x8) (a3 : C Ideal S64) (a4 a5 a6 : C Ideal S64x1)
  (a7 : C Ideal S64x64) (a8 : C Ideal S64) (a9 : C Ideal S16x64x64) (a10 : C Ideal S16x64) (a11 : C Ideal S3x64) (a12 : C Ideal S3)
  (a13 : C Ideal S1)

/-- The feature f at (q, n) is the one-row network's feature n of row q's inputs. -/
theorem feat_apply (q : Fin 131072) (n : Fin 64) :
    feat a0 a1 a2 a3 a4 a5 a6 a7 a8 (ix2 q n)
      = Cert.Net.feat (Cert.Net.paramsOf a2 a3 a4 a5 a6 a7 a8 a9 a10 a11 a12 a13) (a0 (ix3 q (0 : Fin 3) (0 : Fin 1))) (a0 (ix3 q (1 : Fin 3) (0 : Fin 1))) (a0 (ix3 q (2 : Fin 3) (0 : Fin 1))) (fun k => a1 (ix2 q k)) n := by
  unfold feat
  rw [hSin_apply, denseT_apply]
  simp only [gaussF_apply, addf_apply, xAct, yAct, rAct, hTanh_apply, softplusF_apply, eluF_apply, coordLin_apply, xCol_apply,
    yCol_apply, rCol_apply, latAct_apply]
  rfl

/-! ## One node from its predecessors' rows -/

theorem node0_apply (f : C Ideal S131072x64) (q : Fin 131072) (n : Fin 64) :
    node0 f a9 a10 (ix2 q n) = Cert.Net.node (Cert.Net.paramsOf a2 a3 a4 a5 a6 a7 a8 a9 a10 a11 a12 a13) (0 : Fin 16) (fun k => f (ix2 q k)) n := by
  unfold node0
  rw [hTanh_apply, dense_apply]
  simp only [addf_apply, gW0_apply, gB0_apply]
  rfl
theorem node1_apply (h0 : C Ideal S131072x64) (q : Fin 131072) (n : Fin 64) :
    node1 h0 a9 a10 (ix2 q n) = Cert.Net.node (Cert.Net.paramsOf a2 a3 a4 a5 a6 a7 a8 a9 a10 a11 a12 a13) (1 : Fin 16) (fun k => h0 (ix2 q k)) n := by
  unfold node1
  rw [eluF_apply, dense_apply]
  simp only [addf_apply, gW1_apply, gB1_apply]
  rfl
theorem node2_apply (h0 h1 : C Ideal S131072x64) (q : Fin 131072) (n : Fin 64) :
    node2 h0 h1 a9 a10 (ix2 q n) = Cert.Net.node (Cert.Net.paramsOf a2 a3 a4 a5 a6 a7 a8 a9 a10 a11 a12 a13) (2 : Fin 16) (fun k => (h0 (ix2 q k) + h1 (ix2 q k))) n := by
  unfold node2
  rw [softplusF_apply, dense_apply]
  simp only [addf_apply, gW2_apply, gB2_apply]
  rfl
theorem node3_apply (h1 : C Ideal S131072x64) (q : Fin 131072) (n : Fin 64) :
    node3 h1 a9 a10 (ix2 q n) = Cert.Net.node (Cert.Net.paramsOf a2 a3 a4 a5 a6 a7 a8 a9 a10 a11 a12 a13) (3 : Fin 16) (fun k => h1 (ix2 q k)) n := by
  unfold node3
  rw [hSin_apply, dense_apply]
  simp only [addf_apply, gW3_apply, gB3_apply]
  rfl
theorem node4_apply (h1 : C Ideal S131072x64) (q : Fin 131072) (n : Fin 64) :
    node4 h1 a9 a10 (ix2 q n) = Cert.Net.node (Cert.Net.paramsOf a2 a3 a4 a5 a6 a7 a8 a9 a10 a11 a12 a13) (4 : Fin 16) (fun k => h1 (ix2 q k)) n := by
  unfold node4
  rw [gaussF_apply, dense_apply]
  simp only [addf_apply, gW4_apply, gB4_apply]
  rfl
theorem node5_apply (h0 h4 : C Ideal S131072x64) (q : Fin 131072) (n : Fin 64) :
    node5 h0 h4 a9 a10 (ix2 q n) = Cert.Net.node (Cert.Net.paramsOf a2 a3 a4 a5 a6 a7 a8 a9 a10 a11 a12 a13) (5 : Fin 16) (fun k => (h0 (ix2 q k) + h4 (ix2 q k))) n := by
  unfold node5
  rw [hTanh_apply, dense_apply]
  simp only [addf_apply, gW5_apply, gB5_apply]
  rfl
theorem node6_apply (h0 h2 h3 h5 : C Ideal S131072x64) (q : Fin 131072) (n : Fin 64) :
    node6 h0 h2 h3 h5 a9 a10 (ix2 q n) = Cert.Net.node (Cert.Net.paramsOf a2 a3 a4 a5 a6 a7 a8 a9 a10 a11 a12 a13) (6 : Fin 16) (fun k => (((h0 (ix2 q k) + h2 (ix2 q k)) + h3 (ix2 q k)) + h5 (ix2 q k))) n := by
  unfold node6
  rw [eluF_apply, dense_apply]
  simp only [addf_apply, gW6_apply, gB6_apply]
  rfl
theorem node7_apply (h1 : C Ideal S131072x64) (q : Fin 131072) (n : Fin 64) :
    node7 h1 a9 a10 (ix2 q n) = Cert.Net.node (Cert.Net.paramsOf a2 a3 a4 a5 a6 a7 a8 a9 a10 a11 a12 a13) (7 : Fin 16) (fun k => h1 (ix2 q k)) n := by
  unfold node7
  rw [softplusF_apply, dense_apply]
  simp only [addf_apply, gW7_apply, gB7_apply]
  rfl
theorem node8_apply (h6 h7 : C Ideal S131072x64) (q : Fin 131072) (n : Fin 64) :
    node8 h6 h7 a9 a10 (ix2 q n) = Cert.Net.node (Cert.Net.paramsOf a2 a3 a4 a5 a6 a7 a8 a9 a10 a11 a12 a13) (8 : Fin 16) (fun k => (h6 (ix2 q k) + h7 (ix2 q k))) n := by
  unfold node8
  rw [hSin_apply, dense_apply]
  simp only [addf_apply, gW8_apply, gB8_apply]
  rfl
theorem node9_apply (h3 h5 h7 h8 : C Ideal S131072x64) (q : Fin 131072) (n : Fin 64) :
    node9 h3 h5 h7 h8 a9 a10 (ix2 q n) = Cert.Net.node (Cert.Net.paramsOf a2 a3 a4 a5 a6 a7 a8 a9 a10 a11 a12 a13) (9 : Fin 16) (fun k => (((h3 (ix2 q k) + h5 (ix2 q k)) + h7 (ix2 q k)) + h8 (ix2 q k))) n := by
  unfold node9
  rw [gaussF_apply, dense_apply]
  simp only [addf_apply, gW9_apply, gB9_apply]
  rfl
theorem node10_apply (h0 h8 h9 : C Ideal S131072x64) (q : Fin 131072) (n : Fin 64) :
    node10 h0 h8 h9 a9 a10 (ix2 q n) = Cert.Net.node (Cert.Net.paramsOf a2 a3 a4 a5 a6 a7 a8 a9 a10 a11 a12 a13) (10 : Fin 16) (fun k => ((h0 (ix2 q k) + h8 (ix2 q k)) + h9 (ix2 q k))) n := by
  unfold node10
  rw [hTanh_apply, dense_apply]
  simp only [addf_apply, gW10_apply, gB10_apply]
  rfl
theorem node11_apply (h4 : C Ideal S131072x64) (q : Fin 131072) (n : Fin 64) :
    node11 h4 a9 a10 (ix2 q n) = Cert.Net.node (Cert.Net.paramsOf a2 a3 a4 a5 a6 a7 a8 a9 a10 a11 a12 a13) (11 : Fin 16) (fun k => h4 (ix2 q k)) n := by
  unfold node11
  rw [eluF_apply, dense_apply]
  simp only [addf_apply, gW11_apply, gB11_apply]
  rfl
theorem node12_apply (h2 h3 : C Ideal S131072x64) (q : Fin 131072) (n : Fin 64) :
    node12 h2 h3 a9 a10 (ix2 q n) = Cert.Net.node (Cert.Net.paramsOf a2 a3 a4 a5 a6 a7 a8 a9 a10 a11 a12 a13) (12 : Fin 16) (fun k => (h2 (ix2 q k) + h3 (ix2 q k))) n := by
  unfold node12
  rw [softplusF_apply, dense_apply]
  simp only [addf_apply, gW12_apply, gB12_apply]
  rfl
theorem node13_apply (h4 h6 h12 : C Ideal S131072x64) (q : Fin 131072) (n : Fin 64) :
    node13 h4 h6 h12 a9 a10 (ix2 q n) = Cert.Net.node (Cert.Net.paramsOf a2 a3 a4 a5 a6 a7 a8 a9 a10 a11 a12 a13) (13 : Fin 16) (fun k => ((h4 (ix2 q k) + h6 (ix2 q k)) + h12 (ix2 q k))) n := by
  unfold node13
  rw [hSin_apply, dense_apply]
  simp only [addf_apply, gW13_apply, gB13_apply]
  rfl
theorem node14_apply (h0 h1 h11 : C Ideal S131072x64) (q : Fin 131072) (n : Fin 64) :
    node14 h0 h1 h11 a9 a10 (ix2 q n) = Cert.Net.node (Cert.Net.paramsOf a2 a3 a4 a5 a6 a7 a8 a9 a10 a11 a12 a13) (14 : Fin 16) (fun k => ((h0 (ix2 q k) + h1 (ix2 q k)) + h11 (ix2 q k))) n := by
  unfold node14
  rw [gaussF_apply, dense_apply]
  simp only [addf_apply, gW14_apply, gB14_apply]
  rfl
theorem node15_apply (h1 h10 : C Ideal S131072x64) (q : Fin 131072) (n : Fin 64) :
    node15 h1 h10 a9 a10 (ix2 q n) = Cert.Net.node (Cert.Net.paramsOf a2 a3 a4 a5 a6 a7 a8 a9 a10 a11 a12 a13) (15 : Fin 16) (fun k => (h1 (ix2 q k) + h10 (ix2 q k))) n := by
  unfold node15
  rw [hTanh_apply, dense_apply]
  simp only [addf_apply, gW15_apply, gB15_apply]
  rfl

/-! ## The nodes' outputs over the arguments -/

theorem h0_apply (q : Fin 131072) (n : Fin 64) :
    h0 a0 a1 a2 a3 a4 a5 a6 a7 a8 a9 a10 (ix2 q n) = Cert.Net.h0 (Cert.Net.paramsOf a2 a3 a4 a5 a6 a7 a8 a9 a10 a11 a12 a13) (fun n' => feat a0 a1 a2 a3 a4 a5 a6 a7 a8 (ix2 q n')) n := by
  unfold h0
  rw [node0_apply a2 a3 a4 a5 a6 a7 a8 a9 a10 a11 a12 a13]
  rfl
theorem h1_apply (q : Fin 131072) (n : Fin 64) :
    h1 a0 a1 a2 a3 a4 a5 a6 a7 a8 a9 a10 (ix2 q n) = Cert.Net.h1 (Cert.Net.paramsOf a2 a3 a4 a5 a6 a7 a8 a9 a10 a11 a12 a13) (fun n' => feat a0 a1 a2 a3 a4 a5 a6 a7 a8 (ix2 q n')) n := by
  unfold h1
  rw [node1_apply a2 a3 a4 a5 a6 a7 a8 a9 a10 a11 a12 a13]
  simp only [h0_apply a0 a1 a2 a3 a4 a5 a6 a7 a8 a9 a10 a11 a12 a13]
  rfl
theorem h2_apply (q : Fin 131072) (n : Fin 64) :
    h2 a0 a1 a2 a3 a4 a5 a6 a7 a8 a9 a10 (ix2 q n) = Cert.Net.h2 (Cert.Net.paramsOf a2 a3 a4 a5 a6 a7 a8 a9 a10 a11 a12 a13) (fun n' => feat a0 a1 a2 a3 a4 a5 a6 a7 a8 (ix2 q n')) n := by
  unfold h2
  rw [node2_apply a2 a3 a4 a5 a6 a7 a8 a9 a10 a11 a12 a13]
  simp only [h0_apply a0 a1 a2 a3 a4 a5 a6 a7 a8 a9 a10 a11 a12 a13, h1_apply a0 a1 a2 a3 a4 a5 a6 a7 a8 a9 a10 a11 a12 a13]
  rfl
theorem h3_apply (q : Fin 131072) (n : Fin 64) :
    h3 a0 a1 a2 a3 a4 a5 a6 a7 a8 a9 a10 (ix2 q n) = Cert.Net.h3 (Cert.Net.paramsOf a2 a3 a4 a5 a6 a7 a8 a9 a10 a11 a12 a13) (fun n' => feat a0 a1 a2 a3 a4 a5 a6 a7 a8 (ix2 q n')) n := by
  unfold h3
  rw [node3_apply a2 a3 a4 a5 a6 a7 a8 a9 a10 a11 a12 a13]
  simp only [h1_apply a0 a1 a2 a3 a4 a5 a6 a7 a8 a9 a10 a11 a12 a13]
  rfl
theorem h4_apply (q : Fin 131072) (n : Fin 64) :
    h4 a0 a1 a2 a3 a4 a5 a6 a7 a8 a9 a10 (ix2 q n) = Cert.Net.h4 (Cert.Net.paramsOf a2 a3 a4 a5 a6 a7 a8 a9 a10 a11 a12 a13) (fun n' => feat a0 a1 a2 a3 a4 a5 a6 a7 a8 (ix2 q n')) n := by
  unfold h4
  rw [node4_apply a2 a3 a4 a5 a6 a7 a8 a9 a10 a11 a12 a13]
  simp only [h1_apply a0 a1 a2 a3 a4 a5 a6 a7 a8 a9 a10 a11 a12 a13]
  rfl
theorem h5_apply (q : Fin 131072) (n : Fin 64) :
    h5 a0 a1 a2 a3 a4 a5 a6 a7 a8 a9 a10 (ix2 q n) = Cert.Net.h5 (Cert.Net.paramsOf a2 a3 a4 a5 a6 a7 a8 a9 a10 a11 a12 a13) (fun n' => feat a0 a1 a2 a3 a4 a5 a6 a7 a8 (ix2 q n')) n := by
  unfold h5
  rw [node5_apply a2 a3 a4 a5 a6 a7 a8 a9 a10 a11 a12 a13]
  simp only [h0_apply a0 a1 a2 a3 a4 a5 a6 a7 a8 a9 a10 a11 a12 a13, h4_apply a0 a1 a2 a3 a4 a5 a6 a7 a8 a9 a10 a11 a12 a13]
  rfl
theorem h6_apply (q : Fin 131072) (n : Fin 64) :
    h6 a0 a1 a2 a3 a4 a5 a6 a7 a8 a9 a10 (ix2 q n) = Cert.Net.h6 (Cert.Net.paramsOf a2 a3 a4 a5 a6 a7 a8 a9 a10 a11 a12 a13) (fun n' => feat a0 a1 a2 a3 a4 a5 a6 a7 a8 (ix2 q n')) n := by
  unfold h6
  rw [node6_apply a2 a3 a4 a5 a6 a7 a8 a9 a10 a11 a12 a13]
  simp only [h0_apply a0 a1 a2 a3 a4 a5 a6 a7 a8 a9 a10 a11 a12 a13, h2_apply a0 a1 a2 a3 a4 a5 a6 a7 a8 a9 a10 a11 a12 a13, h3_apply a0 a1 a2 a3 a4 a5 a6 a7 a8 a9 a10 a11 a12 a13, h5_apply a0 a1 a2 a3 a4 a5 a6 a7 a8 a9 a10 a11 a12 a13]
  rfl
theorem h7_apply (q : Fin 131072) (n : Fin 64) :
    h7 a0 a1 a2 a3 a4 a5 a6 a7 a8 a9 a10 (ix2 q n) = Cert.Net.h7 (Cert.Net.paramsOf a2 a3 a4 a5 a6 a7 a8 a9 a10 a11 a12 a13) (fun n' => feat a0 a1 a2 a3 a4 a5 a6 a7 a8 (ix2 q n')) n := by
  unfold h7
  rw [node7_apply a2 a3 a4 a5 a6 a7 a8 a9 a10 a11 a12 a13]
  simp only [h1_apply a0 a1 a2 a3 a4 a5 a6 a7 a8 a9 a10 a11 a12 a13]
  rfl
theorem h8_apply (q : Fin 131072) (n : Fin 64) :
    h8 a0 a1 a2 a3 a4 a5 a6 a7 a8 a9 a10 (ix2 q n) = Cert.Net.h8 (Cert.Net.paramsOf a2 a3 a4 a5 a6 a7 a8 a9 a10 a11 a12 a13) (fun n' => feat a0 a1 a2 a3 a4 a5 a6 a7 a8 (ix2 q n')) n := by
  unfold h8
  rw [node8_apply a2 a3 a4 a5 a6 a7 a8 a9 a10 a11 a12 a13]
  simp only [h6_apply a0 a1 a2 a3 a4 a5 a6 a7 a8 a9 a10 a11 a12 a13, h7_apply a0 a1 a2 a3 a4 a5 a6 a7 a8 a9 a10 a11 a12 a13]
  rfl
theorem h9_apply (q : Fin 131072) (n : Fin 64) :
    h9 a0 a1 a2 a3 a4 a5 a6 a7 a8 a9 a10 (ix2 q n) = Cert.Net.h9 (Cert.Net.paramsOf a2 a3 a4 a5 a6 a7 a8 a9 a10 a11 a12 a13) (fun n' => feat a0 a1 a2 a3 a4 a5 a6 a7 a8 (ix2 q n')) n := by
  unfold h9
  rw [node9_apply a2 a3 a4 a5 a6 a7 a8 a9 a10 a11 a12 a13]
  simp only [h3_apply a0 a1 a2 a3 a4 a5 a6 a7 a8 a9 a10 a11 a12 a13, h5_apply a0 a1 a2 a3 a4 a5 a6 a7 a8 a9 a10 a11 a12 a13, h7_apply a0 a1 a2 a3 a4 a5 a6 a7 a8 a9 a10 a11 a12 a13, h8_apply a0 a1 a2 a3 a4 a5 a6 a7 a8 a9 a10 a11 a12 a13]
  rfl
theorem h10_apply (q : Fin 131072) (n : Fin 64) :
    h10 a0 a1 a2 a3 a4 a5 a6 a7 a8 a9 a10 (ix2 q n) = Cert.Net.h10 (Cert.Net.paramsOf a2 a3 a4 a5 a6 a7 a8 a9 a10 a11 a12 a13) (fun n' => feat a0 a1 a2 a3 a4 a5 a6 a7 a8 (ix2 q n')) n := by
  unfold h10
  rw [node10_apply a2 a3 a4 a5 a6 a7 a8 a9 a10 a11 a12 a13]
  simp only [h0_apply a0 a1 a2 a3 a4 a5 a6 a7 a8 a9 a10 a11 a12 a13, h8_apply a0 a1 a2 a3 a4 a5 a6 a7 a8 a9 a10 a11 a12 a13, h9_apply a0 a1 a2 a3 a4 a5 a6 a7 a8 a9 a10 a11 a12 a13]
  rfl
theorem h11_apply (q : Fin 131072) (n : Fin 64) :
    h11 a0 a1 a2 a3 a4 a5 a6 a7 a8 a9 a10 (ix2 q n) = Cert.Net.h11 (Cert.Net.paramsOf a2 a3 a4 a5 a6 a7 a8 a9 a10 a11 a12 a13) (fun n' => feat a0 a1 a2 a3 a4 a5 a6 a7 a8 (ix2 q n')) n := by
  unfold h11
  rw [node11_apply a2 a3 a4 a5 a6 a7 a8 a9 a10 a11 a12 a13]
  simp only [h4_apply a0 a1 a2 a3 a4 a5 a6 a7 a8 a9 a10 a11 a12 a13]
  rfl
theorem h12_apply (q : Fin 131072) (n : Fin 64) :
    h12 a0 a1 a2 a3 a4 a5 a6 a7 a8 a9 a10 (ix2 q n) = Cert.Net.h12 (Cert.Net.paramsOf a2 a3 a4 a5 a6 a7 a8 a9 a10 a11 a12 a13) (fun n' => feat a0 a1 a2 a3 a4 a5 a6 a7 a8 (ix2 q n')) n := by
  unfold h12
  rw [node12_apply a2 a3 a4 a5 a6 a7 a8 a9 a10 a11 a12 a13]
  simp only [h2_apply a0 a1 a2 a3 a4 a5 a6 a7 a8 a9 a10 a11 a12 a13, h3_apply a0 a1 a2 a3 a4 a5 a6 a7 a8 a9 a10 a11 a12 a13]
  rfl
theorem h13_apply (q : Fin 131072) (n : Fin 64) :
    h13 a0 a1 a2 a3 a4 a5 a6 a7 a8 a9 a10 (ix2 q n) = Cert.Net.h13 (Cert.Net.paramsOf a2 a3 a4 a5 a6 a7 a8 a9 a10 a11 a12 a13) (fun n' => feat a0 a1 a2 a3 a4 a5 a6 a7 a8 (ix2 q n')) n := by
  unfold h13
  rw [node13_apply a2 a3 a4 a5 a6 a7 a8 a9 a10 a11 a12 a13]
  simp only [h4_apply a0 a1 a2 a3 a4 a5 a6 a7 a8 a9 a10 a11 a12 a13, h6_apply a0 a1 a2 a3 a4 a5 a6 a7 a8 a9 a10 a11 a12 a13, h12_apply a0 a1 a2 a3 a4 a5 a6 a7 a8 a9 a10 a11 a12 a13]
  rfl
theorem h14_apply (q : Fin 131072) (n : Fin 64) :
    h14 a0 a1 a2 a3 a4 a5 a6 a7 a8 a9 a10 (ix2 q n) = Cert.Net.h14 (Cert.Net.paramsOf a2 a3 a4 a5 a6 a7 a8 a9 a10 a11 a12 a13) (fun n' => feat a0 a1 a2 a3 a4 a5 a6 a7 a8 (ix2 q n')) n := by
  unfold h14
  rw [node14_apply a2 a3 a4 a5 a6 a7 a8 a9 a10 a11 a12 a13]
  simp only [h0_apply a0 a1 a2 a3 a4 a5 a6 a7 a8 a9 a10 a11 a12 a13, h1_apply a0 a1 a2 a3 a4 a5 a6 a7 a8 a9 a10 a11 a12 a13, h11_apply a0 a1 a2 a3 a4 a5 a6 a7 a8 a9 a10 a11 a12 a13]
  rfl
theorem h15_apply (q : Fin 131072) (n : Fin 64) :
    h15 a0 a1 a2 a3 a4 a5 a6 a7 a8 a9 a10 (ix2 q n) = Cert.Net.h15 (Cert.Net.paramsOf a2 a3 a4 a5 a6 a7 a8 a9 a10 a11 a12 a13) (fun n' => feat a0 a1 a2 a3 a4 a5 a6 a7 a8 (ix2 q n')) n := by
  unfold h15
  rw [node15_apply a2 a3 a4 a5 a6 a7 a8 a9 a10 a11 a12 a13]
  simp only [h1_apply a0 a1 a2 a3 a4 a5 a6 a7 a8 a9 a10 a11 a12 a13, h10_apply a0 a1 a2 a3 a4 a5 a6 a7 a8 a9 a10 a11 a12 a13]
  rfl

/-- The reference's result at (q, c) is the one-row network on row q. -/
theorem result_apply (a0 : C Ideal S131072x3x1) (a1 : C Ideal S131072x8) (a2 : C Ideal S64x8) (a3 : C Ideal S64) (a4 a5 a6 : C Ideal S64x1)
    (a7 : C Ideal S64x64) (a8 : C Ideal S64) (a9 : C Ideal S16x64x64) (a10 : C Ideal S16x64) (a11 : C Ideal S3x64) (a12 : C Ideal S3)
    (a13 : C Ideal S1) (q : Fin 131072) (c : Fin 3) :
    result a0 a1 a2 a3 a4 a5 a6 a7 a8 a9 a10 a11 a12 a13 (ix2 q c)
      = Cert.Net.netRow (Cert.Net.paramsOf a2 a3 a4 a5 a6 a7 a8 a9 a10 a11 a12 a13) a0 a1 q c := by
  unfold result
  rw [logistic_apply]
  unfold logit
  rw [mulf_apply, outLin_apply, scaleB_apply]
  unfold sinkSum
  simp only [addf_apply, h13_apply a0 a1 a2 a3 a4 a5 a6 a7 a8 a9 a10 a11 a12 a13, h14_apply a0 a1 a2 a3 a4 a5 a6 a7 a8 a9 a10 a11 a12 a13, h15_apply a0 a1 a2 a3 a4 a5 a6 a7 a8 a9 a10 a11 a12 a13]
  rw [show (fun n' => feat a0 a1 a2 a3 a4 a5 a6 a7 a8 (ix2 q n')) = Cert.Net.feat (Cert.Net.paramsOf a2 a3 a4 a5 a6 a7 a8 a9 a10 a11 a12 a13) (a0 (ix3 q (0 : Fin 3) (0 : Fin 1))) (a0 (ix3 q (1 : Fin 3) (0 : Fin 1))) (a0 (ix3 q (2 : Fin 3) (0 : Fin 1))) (fun k => a1 (ix2 q k))
    from funext fun n' => feat_apply a0 a1 a2 a3 a4 a5 a6 a7 a8 a9 a10 a11 a12 a13 q n']
  rfl

end Cert.ReferenceIdeal.Hand.Val

end
-- ==== Proof.Finite.lean ====
/-
  Finiteness from the precondition.

  The precondition computes, for each of the fourteen argument arrays `a`, the conjunction over all entries of
  `|a i| < +∞` (a reduction by `and` over every axis of the array of comparison words, started at 1) and takes the
  conjunction of the fourteen results; the claim assumes the result is 1.  At the exact instance a float is an
  extended real, `|x|` is `max x (-x)` and the pattern 0x7F800000 is `⊤`.  An extended real `x` with
  `max x (-x) < ⊤` is neither `⊤` (then `max x (-x) = ⊤`) nor `⊥` (then `-x = ⊤`), so it is a real number.
  Hence every entry of every argument array is a real number.
-/
import Idealize.ShloMosaic.Lib.ReduceAll
import proofs.«166257_j42623255446007_2_alg».proof.Proof.Gen.Pre_finite_inputs
import proofs.«166257_j42623255446007_2_alg».proof.Proof.RealAlg

noncomputable section

namespace Cert.Finite

open Idealize.ShloMosaic
open Cert.Pre_finite_inputs

/-- The shape with no axes has one index. -/
instance : Subsingleton S_.Idx := ⟨fun a b => funext fun d => d.elim0⟩

/-- The pattern 0x7F800000 denotes `+∞`. -/
theorem inf_bits : Ideal.ofBits .f32 0x7F800000#32 = (⊤ : EReal) := by
  simp [Ideal.ofBits, Ideal.ieee]

/-- An extended real whose absolute value `max x (-x)` is below `⊤` is a real number. -/
theorem isReal_of_abs_lt_top (x : EReal) (h : max x (-x) < ⊤) : Cert.Net.IsReal x := by
  induction x using EReal.rec with
  | bot => exact absurd h (by simp)
  | coe r => exact ⟨r, rfl⟩
  | top => exact absurd h (by simp)

/-- The comparison word of `|x| < +∞` being 1 says `x` is a real number. -/
theorem isReal_of_word (x : Ideal .f32)
    (h : FloatOps.cmpf .olt (FloatOps.hostAbsf x) (FloatOps.ofBits (F := Ideal) .f32 0x7F800000#32) = 1#1) :
    Cert.Net.IsReal x := by
  have h' : BitVec.ofBool (decide (max x (-x) < Ideal.ofBits .f32 0x7F800000#32)) = 1#1 := h
  rw [inf_bits] at h'
  refine isReal_of_abs_lt_top x ?_
  by_contra hn
  rw [decide_eq_false hn] at h'
  exact absurd h' (by decide)

/-- **`jnp.all(|a| < inf)` read back**, over an array of any shape: when the reduction by `and`, over all axes, of
    the comparison words `|a i| < +∞` is 1, every entry of `a` is a real number. -/
theorem isReal_of_all {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf a) (broadcastInDim s ![] hb (constant (F := Ideal) S_ .f32 0x7F800000#32)))
          (constantI S_ 1 1#1) hr hu j = 1#1) (i : s.Idx) : Cert.Net.IsReal (a i) :=
  isReal_of_word (a i) (Host.reduce_andi_all _ _ hr hu j e i)

/-- **The precondition decoded**: every entry of every argument array is a real number. -/
theorem real_of_pre [Cert.Pre_finite_inputs.Facts]
    (a0 : FVec Ideal S131072x3x1 .f32) (a1 : FVec Ideal S131072x8 .f32) (a2 : FVec Ideal S64x8 .f32)
    (a3 : FVec Ideal S64 .f32) (a4 : FVec Ideal S64x1 .f32) (a5 : FVec Ideal S64x1 .f32) (a6 : FVec Ideal S64x1 .f32)
    (a7 : FVec Ideal S64x64 .f32) (a8 : FVec Ideal S64 .f32) (a9 : FVec Ideal S16x64x64 .f32)
    (a10 : FVec Ideal S16x64 .f32) (a11 : FVec Ideal S3x64 .f32) (a12 : FVec Ideal S3 .f32) (a13 : FVec Ideal S1 .f32)
    (h : Cert.Pre_finite_inputs.fn (F := Ideal) a0 a1 a2 a3 a4 a5 a6 a7 a8 a9 a10 a11 a12 a13 = (fun _ => 1#1)) :
    (∀ i, Cert.Net.IsReal (a0 i)) ∧ (∀ i, Cert.Net.IsReal (a1 i)) ∧ (∀ i, Cert.Net.IsReal (a2 i)) ∧
    (∀ i, Cert.Net.IsReal (a3 i)) ∧ (∀ i, Cert.Net.IsReal (a4 i)) ∧ (∀ i, Cert.Net.IsReal (a5 i)) ∧
    (∀ i, Cert.Net.IsReal (a6 i)) ∧ (∀ i, Cert.Net.IsReal (a7 i)) ∧ (∀ i, Cert.Net.IsReal (a8 i)) ∧
    (∀ i, Cert.Net.IsReal (a9 i)) ∧ (∀ i, Cert.Net.IsReal (a10 i)) ∧ (∀ i, Cert.Net.IsReal (a11 i)) ∧
    (∀ i, Cert.Net.IsReal (a12 i)) ∧ (∀ i, Cert.Net.IsReal (a13 i)) := by
  have e := congrFun h (fun d => d.elim0)
  dsimp only [fn, fn_part1, fn_part2, fn_part3, fn_part4, andi] at e
  simp only [IntOp.andi_eq_one] at e
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := e
  exact ⟨isReal_of_all a0 _ _ _ _ e0, isReal_of_all a1 _ _ _ _ e1, isReal_of_all a2 _ _ _ _ e2,
    isReal_of_all a3 _ _ _ _ e3, isReal_of_all a4 _ _ _ _ e4, isReal_of_all a5 _ _ _ _ e5,
    isReal_of_all a6 _ _ _ _ e6, isReal_of_all a7 _ _ _ _ e7, isReal_of_all a8 _ _ _ _ e8,
    isReal_of_all a9 _ _ _ _ e9, isReal_of_all a10 _ _ _ _ e10, isReal_of_all a11 _ _ _ _ e11,
    isReal_of_all a12 _ _ _ _ e12, isReal_of_all a13 _ _ _ _ e13⟩

end Cert.Finite

end
-- ==== Proof.KBFrameMain.lean ====
/- The frame of `Kernel`, first half: @main up to its one kernel launch.

   @main is 212 host operations (slices, reshapes, transposes, conversions, constants, broadcasts and
   concatenations that assemble the fused weight matrices and the (131072, 11) row array) followed by one launch and
   nothing else. Each host operation writes exactly one buffer, its result, and no result is an argument of @main:
   so when the launch begins every argument array is as it was at the start (`V_main_argK`). The launch stages 28
   windows. Four of the 14 arguments are staged directly (`main_arg3`, `main_arg8`, `main_arg12`, `main_arg13`, all
   inputs of the kernel, which the launch only reads); the other ten are staged by no window, and the launch leaves
   such buffers alone. Hence, from ANY run of the launch to the library's frame post, every argument array ends as
   it began (`frame_of`). The second half (the kernel body and the run itself) is in the sibling module. -/
import proofs.«166257_j42623255446007_2_alg».proof.Proof.Gen.Kernel.Launch
import proofs.«166257_j42623255446007_2_alg».proof.Proof.Gen.Kernel.Skeleton
import proofs.«166257_j42623255446007_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s TensorCore buffers when the launch begins: the launch memory with the 212 host operations folded
    over it, each replacing its result buffer by its value on the buffers before it. Kept as this fold: nothing
    below ever evaluates it. -/
abbrev V (c : Dev nD) (b : Ref sig .tc) : Buf (Elt F) ((c : Thread nD τ).loc b) :=
  StableHlo.after hostOps0 (fun b => m (c, b)) b

/-- No host operation allocates: each is a pure function from buffers to one result buffer. -/
theorem hostOps0_fresh : (hostOps0 : List (HloOp τ sig (Elt F))).Forall fun op => op.fresh = ∅ := by
  simp only [List.Forall]; repeat' constructor

/-- @main is its host operations and then the launch (`main_chain`), so the launch finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- `main_arg0` is an argument of @main and the result of none of its host operations, so the fold leaves it
    as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg1` is an argument of @main and the result of none of its host operations, so the fold leaves it
    as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg2` is an argument of @main and the result of none of its host operations, so the fold leaves it
    as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg3` is an argument of @main and the result of none of its host operations, so the fold leaves it
    as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg4` is an argument of @main and the result of none of its host operations, so the fold leaves it
    as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg5` is an argument of @main and the result of none of its host operations, so the fold leaves it
    as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg6` is an argument of @main and the result of none of its host operations, so the fold leaves it
    as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg7` is an argument of @main and the result of none of its host operations, so the fold leaves it
    as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg8` is an argument of @main and the result of none of its host operations, so the fold leaves it
    as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg9` is an argument of @main and the result of none of its host operations, so the fold leaves it
    as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg10` is an argument of @main and the result of none of its host operations, so the fold leaves it
    as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg11` is an argument of @main and the result of none of its host operations, so the fold leaves it
    as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg12` is an argument of @main and the result of none of its host operations, so the fold leaves it
    as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- `main_arg13` is an argument of @main and the result of none of its host operations, so the fold leaves it
    as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off the array it stages as the launch finds it: for window 0 rows
    `2048 t … 2048 t + 2047` of the (131072, 11) row array, for windows 1 … 26 the whole of a small weight array
    (the same at every point), for window 27 the rows of the output array the point is about to overwrite. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds that window's block when the body is called, at every point and
    for any proof data whose arrays are `V`'s and whose body leaves input blocks in place. Window 0 is fetched at
    every point. Windows 1 … 26 are fetched at point 0 only; at a later point their block index has not moved and
    the buffer still holds what the point before left there, which by hypothesis is the block. The library's
    `Dat.before_in_eq_fetched` is exactly this case analysis. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch's -/

/-- The frame claim's post from a run of the launch to the library's frame post, for any proof data whose arrays are
    `V`'s: an argument the launch stages as an input ends at its entry contents (`Dat.arrAt_in`), an argument no
    window stages is among the buffers the post's second clause says are left as found; either way that is `V` at
    the argument, which is the launch memory (`V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats 0 c).arrAt_in 2 rfl _).trans ((hA c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 5).trans (((dats 0 c).arrAt_in 5 rfl _).trans ((hA c 5).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 7).trans (((dats 0 c).arrAt_in 7 rfl _).trans ((hA c 7).trans (V_main_arg12 m c))),
      ((h c).1 8).trans (((dats 0 c).arrAt_in 8 rfl _).trans ((hA c 8).trans (V_main_arg13 m c)))⟩) h

end Cert.Kernel.Hand

end
-- ==== Proof.KBFrameValue.lean ====
/- The value the kernel body of `Kernel` stores, as a function of the blocks it loads.

   The body is straight-line: it loads each of its 27 input staging buffers whole, computes with pure vector
   operations, and overwrites its whole (2048, 3) output staging buffer by ONE value. That value is written here as
   the body computes it, one definition per value that crosses from one printed part of the body to a later one, so
   that a value used by several later values is stated once; then what the one store leaves in the output buffer
   (`out27`), and that it is that value of the buffers' contents (`out27_eq`), every access being through the whole
   buffer. Nothing here mentions memory, the launch or @main. -/
import proofs.«166257_j42623255446007_2_alg».proof.Proof.Gen.Kernel.Skeleton
import Idealize.ShloMosaic.Lib.Pipeline.FrameBody
import Idealize.ShloMosaic.Lib.Pipeline.Value

set_option maxRecDepth 16384

noncomputable section

namespace Cert.Kernel.Hand

open Idealize.ShloMosaic Idealize.SL.Sem
open Cert.Kernel Cert.Kernel.Gen

variable {F : FTy → Type} [FloatOps F]

/-! ## What the body computes, as a function of the blocks it loads

`lW` is what the body loads from input window `W`'s staging buffer (its argument `W + 1`); `vN` is the printed
value `%N`, through the generated payload functions `k0_payK` (each the pure operations between two loads). -/

namespace Body

/-- The f32 scalar zero the body passes along (all bits zero). -/
def c12 : F .f32 := Scalar.ofBits .f32 0x00000000#32
/-- The f32 scalar minus one half (sign bit, exponent 126, zero fraction). -/
def c59 : F .f32 := Scalar.ofBits .f32 0xBF000000#32

/-- Column 0 of the row block (x), as a (2048, 1) column. -/
def v2 (l0 : Vec F S2048x11 .f32) :=
  k0_pay2 l0
/-- Row 0 of the stacked first-layer weights (the x weights), as a (1, 64) row. -/
def v9 (l3 : Vec F S3x64 .f32) :=
  k0_pay4 l3
/-- Tanh of the latent columns (3 … 10 of the row block, rounded to bf16) times the transposed latent weights, plus the latent bias. -/
def v23 (l0 : Vec F S2048x11 .f32) (l1 : Vec F S64x8 .bf16) (l2 : Vec F S64 .f32) :=
  k0_pay5 l0 l2 l1
/-- The body's value %32 as a function of the blocks it is computed from. -/
def v32 (l0 : Vec F S2048x11 .f32) (l3 : Vec F S3x64 .f32) :=
  k0_pay6 l0 l3
/-- The body's value %37 as a function of the blocks it is computed from. -/
def v37 (l0 : Vec F S2048x11 .f32) (l3 : Vec F S3x64 .f32) :=
  k0_pay8 l0 l3
/-- The body's value %40 as a function of the blocks it is computed from. -/
def v40 (l0 : Vec F S2048x11 .f32) (l3 : Vec F S3x64 .f32) :=
  k0_pay10 l0 l3
/-- The body's value %42 as a function of the blocks it is computed from. -/
def v42 (l0 : Vec F S2048x11 .f32) (l3 : Vec F S3x64 .f32) :=
  k0_pay11 l0 l3
/-- The body's value %43 as a function of the blocks it is computed from. -/
def v43 (l0 : Vec F S2048x11 .f32) (l3 : Vec F S3x64 .f32) :=
  k0_pay12 l0 l3
/-- The body's value %79 as a function of the blocks it is computed from. -/
def v79 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) :=
  k0_pay13 (v2 l0) (v9 l3) l5 (v23 l0 l1 l2) (v32 l0 l3) (v37 l0 l3) (v40 l0 l3) (v42 l0 l3) (v43 l0 l3) c12 l4 l9 l10
/-- The body's value %88 as a function of the blocks it is computed from. -/
def v88 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) :=
  k0_pay14 (v2 l0) (v9 l3) l5 (v23 l0 l1 l2) (v32 l0 l3) (v37 l0 l3) (v40 l0 l3) (v42 l0 l3) (v43 l0 l3) c12 l4 l9 l10 l11 l12
/-- The body's value %90 as a function of the blocks it is computed from. -/
def v90 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) :=
  k0_pay15 (v2 l0) (v9 l3) l5 (v23 l0 l1 l2) (v32 l0 l3) (v37 l0 l3) (v40 l0 l3) (v42 l0 l3) (v43 l0 l3) c12 l4 l9 l10 l11 l12
/-- The body's value %94 as a function of the blocks it is computed from. -/
def v94 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) :=
  k0_pay16 (v88 l0 l1 l2 l3 l4 l5 l9 l10 l11 l12) (v90 l0 l1 l2 l3 l4 l5 l9 l10 l11 l12)
/-- The body's value %120 as a function of the blocks it is computed from. -/
def v120 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) :=
  k0_pay18 (v79 l0 l1 l2 l3 l4 l5 l9 l10) (v88 l0 l1 l2 l3 l4 l5 l9 l10 l11 l12) (v90 l0 l1 l2 l3 l4 l5 l9 l10 l11 l12) l13 l14
/-- The body's value %122 as a function of the blocks it is computed from. -/
def v122 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) :=
  k0_pay19 (v79 l0 l1 l2 l3 l4 l5 l9 l10) (v88 l0 l1 l2 l3 l4 l5 l9 l10 l11 l12) (v90 l0 l1 l2 l3 l4 l5 l9 l10 l11 l12) l13 l14
/-- The body's value %127 as a function of the blocks it is computed from. -/
def v127 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) :=
  k0_pay20 (v79 l0 l1 l2 l3 l4 l5 l9 l10) (v88 l0 l1 l2 l3 l4 l5 l9 l10 l11 l12) (v90 l0 l1 l2 l3 l4 l5 l9 l10 l11 l12) l13 l14
/-- The body's value %130 as a function of the blocks it is computed from. -/
def v130 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) :=
  k0_pay22 (v79 l0 l1 l2 l3 l4 l5 l9 l10) (v88 l0 l1 l2 l3 l4 l5 l9 l10 l11 l12) (v90 l0 l1 l2 l3 l4 l5 l9 l10 l11 l12) l13 l14
/-- The body's value %133 as a function of the blocks it is computed from. -/
def v133 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) :=
  k0_pay24 (v79 l0 l1 l2 l3 l4 l5 l9 l10) (v88 l0 l1 l2 l3 l4 l5 l9 l10 l11 l12) (v90 l0 l1 l2 l3 l4 l5 l9 l10 l11 l12) l13 l14
/-- The body's value %135 as a function of the blocks it is computed from. -/
def v135 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) :=
  k0_pay25 (v79 l0 l1 l2 l3 l4 l5 l9 l10) (v88 l0 l1 l2 l3 l4 l5 l9 l10 l11 l12) (v90 l0 l1 l2 l3 l4 l5 l9 l10 l11 l12) l13 l14
/-- The body's value %140 as a function of the blocks it is computed from. -/
def v140 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) :=
  k0_pay26 (v79 l0 l1 l2 l3 l4 l5 l9 l10) (v88 l0 l1 l2 l3 l4 l5 l9 l10 l11 l12) (v90 l0 l1 l2 l3 l4 l5 l9 l10 l11 l12) l13 l14
/-- The body's value %142 as a function of the blocks it is computed from. -/
def v142 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) :=
  k0_pay27 (v130 l0 l1 l2 l3 l4 l5 l9 l10 l11 l12 l13 l14) (v133 l0 l1 l2 l3 l4 l5 l9 l10 l11 l12 l13 l14) (v135 l0 l1 l2 l3 l4 l5 l9 l10 l11 l12 l13 l14) (v140 l0 l1 l2 l3 l4 l5 l9 l10 l11 l12 l13 l14)
/-- The body's value %157 as a function of the blocks it is computed from. -/
def v157 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) (l15 : Vec F S256x192 .bf16) (l16 : Vec F S192 .f32) :=
  k0_pay29 (v79 l0 l1 l2 l3 l4 l5 l9 l10) (v120 l0 l1 l2 l3 l4 l5 l9 l10 l11 l12 l13 l14) (v122 l0 l1 l2 l3 l4 l5 l9 l10 l11 l12 l13 l14) (v127 l0 l1 l2 l3 l4 l5 l9 l10 l11 l12 l13 l14) l15 l16
/-- The body's value %179 as a function of the blocks it is computed from. -/
def v179 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) (l15 : Vec F S256x192 .bf16) (l16 : Vec F S192 .f32) :=
  k0_pay30 (v79 l0 l1 l2 l3 l4 l5 l9 l10) (v120 l0 l1 l2 l3 l4 l5 l9 l10 l11 l12 l13 l14) (v122 l0 l1 l2 l3 l4 l5 l9 l10 l11 l12 l13 l14) (v127 l0 l1 l2 l3 l4 l5 l9 l10 l11 l12 l13 l14) l15 l16
/-- The body's value %186 as a function of the blocks it is computed from. -/
def v186 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) (l15 : Vec F S256x192 .bf16) (l16 : Vec F S192 .f32) :=
  k0_pay31 (v79 l0 l1 l2 l3 l4 l5 l9 l10) (v94 l0 l1 l2 l3 l4 l5 l9 l10 l11 l12) (v120 l0 l1 l2 l3 l4 l5 l9 l10 l11 l12 l13 l14) (v122 l0 l1 l2 l3 l4 l5 l9 l10 l11 l12 l13 l14) (v127 l0 l1 l2 l3 l4 l5 l9 l10 l11 l12 l13 l14) l15 l16
/-- The body's value %188 as a function of the blocks it is computed from. -/
def v188 (l17 : Vec F S384x128 .bf16) :=
  k0_pay32 l17
/-- The body's value %206 as a function of the blocks it is computed from. -/
def v206 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) (l15 : Vec F S256x192 .bf16) (l16 : Vec F S192 .f32) (l17 : Vec F S384x128 .bf16) (l18 : Vec F S128 .f32) :=
  k0_pay34 (v186 l0 l1 l2 l3 l4 l5 l9 l10 l11 l12 l13 l14 l15 l16) (v188 l17) l18
/-- The body's value %221 as a function of the blocks it is computed from. -/
def v221 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) (l15 : Vec F S256x192 .bf16) (l16 : Vec F S192 .f32) (l17 : Vec F S384x128 .bf16) (l18 : Vec F S128 .f32) (l19 : Vec F S256x128 .bf16) (l20 : Vec F S128 .f32) :=
  k0_pay36 (v127 l0 l1 l2 l3 l4 l5 l9 l10 l11 l12 l13 l14) (v142 l0 l1 l2 l3 l4 l5 l9 l10 l11 l12 l13 l14) (v179 l0 l1 l2 l3 l4 l5 l9 l10 l11 l12 l13 l14 l15 l16) (v186 l0 l1 l2 l3 l4 l5 l9 l10 l11 l12 l13 l14 l15 l16) (v188 l17) l18 l19 l20
/-- The body's value %223 as a function of the blocks it is computed from. -/
def v223 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) (l15 : Vec F S256x192 .bf16) (l16 : Vec F S192 .f32) (l17 : Vec F S384x128 .bf16) (l18 : Vec F S128 .f32) (l19 : Vec F S256x128 .bf16) (l20 : Vec F S128 .f32) :=
  k0_pay37 (v127 l0 l1 l2 l3 l4 l5 l9 l10 l11 l12 l13 l14) (v142 l0 l1 l2 l3 l4 l5 l9 l10 l11 l12 l13 l14) (v179 l0 l1 l2 l3 l4 l5 l9 l10 l11 l12 l13 l14 l15 l16) (v186 l0 l1 l2 l3 l4 l5 l9 l10 l11 l12 l13 l14 l15 l16) (v188 l17) l18 l19 l20
/-- The body's value %236 as a function of the blocks it is computed from. -/
def v236 (l0 : Vec F S2048x11 .f32) (l1 : Vec F S64x8 .bf16) (l2 : Vec F S64 .f32) (l3 : Vec F S3x64 .f32) (l4 : Vec F S64x64 .bf16) (l5 : Vec F S64 .f32) (l9 : Vec F S64x64 .bf16) (l10 : Vec F S64 .f32) (l11 : Vec F S64x64 .bf16) (l12 : Vec F S64 .f32) (l13 : Vec F S128x256 .bf16) (l14 : Vec F S256 .f32) (l15 : Vec F S256x192 .bf16) (l16 : Vec F S192 .f32) (l17 : Vec F S384x128 .bf16) (l18 : Vec F S128 .f32) (l19 : Vec F S256x128 .bf16) (l20 : Vec F S128 .f32) (l21 : Vec F S256x64 .bf16) (l22 : Vec F S64 .f32) :=
  k0_pay38 (v122 l0 l1 l2 l3 l4 l5 l9 l10 l11 l12 l13 l14) (v127 l0 l1 l2 l3 l4 l5 l9 l10 l11 l12 l13 l14) (v142 l0 l1 l2 l3 l4 l5 l9 l10 l11 l12 l13 l14) (v157 l0 l1 l2 l3 l4 l5 l9 l10 l11 l12 l13 l14 l15 l16) (v179 l0 l1 l2 l3 l4 l5 l9 l10 l11 l12 l13 l14 l15 l16) (v186 l0 l1 l2 l3 l4 l5 l9 l10 l11 l12 l13 l14 l15 l16) (v188 l17) l18 l19 l20 l21 l22
/-- THE STORED VALUE, %279 of the body: the value the body's one store writes over the whole output block, a function of all 27 input blocks (the last products, the output bias and scale, then the logistic function). -/
def v279 (l0 : Vec F S2048x11 .f32) (l1 : Vec F S64x8 .bf16) (l2 : Vec F S64 .f32) (l3 : Vec F S3x64 .f32) (l4 : Vec F S64x64 .bf16) (l5 : Vec F S64 .f32) (l6 : Vec F S3x64 .bf16) (l7 : Vec F S3 .f32) (l8 : Vec F S1 .f32) (l9 : Vec F S64x64 .bf16) (l10 : Vec F S64 .f32) (l11 : Vec F S64x64 .bf16) (l12 : Vec F S64 .f32) (l13 : Vec F S128x256 .bf16) (l14 : Vec F S256 .f32) (l15 : Vec F S256x192 .bf16) (l16 : Vec F S192 .f32) (l17 : Vec F S384x128 .bf16) (l18 : Vec F S128 .f32) (l19 : Vec F S256x128 .bf16) (l20 : Vec F S128 .f32) (l21 : Vec F S256x64 .bf16) (l22 : Vec F S64 .f32) (l23 : Vec F S192x64 .bf16) (l24 : Vec F S64 .f32) (l25 : Vec F S128x64 .bf16) (l26 : Vec F S64 .f32) :=
  k0_pay39 l7 l8 (v79 l0 l1 l2 l3 l4 l5 l9 l10) (v94 l0 l1 l2 l3 l4 l5 l9 l10 l11 l12) (v206 l0 l1 l2 l3 l4 l5 l9 l10 l11 l12 l13 l14 l15 l16 l17 l18) (v221 l0 l1 l2 l3 l4 l5 l9 l10 l11 l12 l13 l14 l15 l16 l17 l18 l19 l20) (v223 l0 l1 l2 l3 l4 l5 l9 l10 l11 l12 l13 l14 l15 l16 l17 l18 l19 l20) (v236 l0 l1 l2 l3 l4 l5 l9 l10 l11 l12 l13 l14 l15 l16 l17 l18 l19 l20 l21 l22) c59 l23 l24 l25 l26 l6

end Body

/-! ## The body's rectangles: every access is through the whole buffer -/

abbrev r_0 : Rect S2048x11 := Rect.unit (s := S2048x11) ![0, 0] S2048x11.size inb_S2048x11_S2048x11_0_0
abbrev r_1 : Rect S64x8 := Rect.unit (s := S64x8) ![0, 0] S64x8.size inb_S64x8_S64x8_0_0
abbrev r_2 : Rect S64 := Rect.unit (s := S64) ![0] S64.size inb_S64_S64_0
abbrev r_3 : Rect S3x64 := Rect.unit (s := S3x64) ![0, 0] S3x64.size inb_S3x64_S3x64_0_0
abbrev r_4 : Rect S64x64 := Rect.unit (s := S64x64) ![0, 0] S64x64.size inb_S64x64_S64x64_0_0
abbrev r_5 : Rect S64 := Rect.unit (s := S64) ![0] S64.size inb_S64_S64_0
abbrev r_6 : Rect S3x64 := Rect.unit (s := S3x64) ![0, 0] S3x64.size inb_S3x64_S3x64_0_0
abbrev r_7 : Rect S3 := Rect.unit (s := S3) ![0] S3.size inb_S3_S3_0
abbrev r_8 : Rect S1 := Rect.unit (s := S1) ![0] S1.size inb_S1_S1_0
abbrev r_9 : Rect S64x64 := Rect.unit (s := S64x64) ![0, 0] S64x64.size inb_S64x64_S64x64_0_0
abbrev r_10 : Rect S64 := Rect.unit (s := S64) ![0] S64.size inb_S64_S64_0
abbrev r_11 : Rect S64x64 := Rect.unit (s := S64x64) ![0, 0] S64x64.size inb_S64x64_S64x64_0_0
abbrev r_12 : Rect S64 := Rect.unit (s := S64) ![0] S64.size inb_S64_S64_0
abbrev r_13 : Rect S128x256 := Rect.unit (s := S128x256) ![0, 0] S128x256.size inb_S128x256_S128x256_0_0
abbrev r_14 : Rect S256 := Rect.unit (s := S256) ![0] S256.size inb_S256_S256_0
abbrev r_15 : Rect S256x192 := Rect.unit (s := S256x192) ![0, 0] S256x192.size inb_S256x192_S256x192_0_0
abbrev r_16 : Rect S192 := Rect.unit (s := S192) ![0] S192.size inb_S192_S192_0
abbrev r_17 : Rect S384x128 := Rect.unit (s := S384x128) ![0, 0] S384x128.size inb_S384x128_S384x128_0_0
abbrev r_18 : Rect S128 := Rect.unit (s := S128) ![0] S128.size inb_S128_S128_0
abbrev r_19 : Rect S256x128 := Rect.unit (s := S256x128) ![0, 0] S256x128.size inb_S256x128_S256x128_0_0
abbrev r_20 : Rect S128 := Rect.unit (s := S128) ![0] S128.size inb_S128_S128_0
abbrev r_21 : Rect S256x64 := Rect.unit (s := S256x64) ![0, 0] S256x64.size inb_S256x64_S256x64_0_0
abbrev r_22 : Rect S64 := Rect.unit (s := S64) ![0] S64.size inb_S64_S64_0
abbrev r_23 : Rect S192x64 := Rect.unit (s := S192x64) ![0, 0] S192x64.size inb_S192x64_S192x64_0_0
abbrev r_24 : Rect S64 := Rect.unit (s := S64) ![0] S64.size inb_S64_S64_0
abbrev r_25 : Rect S128x64 := Rect.unit (s := S128x64) ![0, 0] S128x64.size inb_S128x64_S128x64_0_0
abbrev r_26 : Rect S64 := Rect.unit (s := S64) ![0] S64.size inb_S64_S64_0
abbrev r_27 : Rect S2048x3 := Rect.unit (s := S2048x3) ![0, 0] S2048x3.size inb_S2048x3_S2048x3_0_0

theorem hz1 : (![0] : Fin 1 → Nat) = fun _ => 0 := funext fun a => by fin_cases a <;> rfl
theorem hz2 : (![0, 0] : Fin 2 → Nat) = fun _ => 0 := funext fun a => by fin_cases a <;> rfl

/-! ## What the body leaves in the output window's buffer -/

/-- The output staging buffer after the body, from the input buffers' contents: the one store's rectangle (the
    whole buffer) overlaid by its value, the value computed from what the loads read through their rectangles. -/
def out27 (x0 : Vec F S2048x11 .f32) (x1 : Vec F S64x8 .bf16) (x2 : Vec F S64 .f32) (x3 : Vec F S3x64 .f32) (x4 : Vec F S64x64 .bf16) (x5 : Vec F S64 .f32) (x6 : Vec F S3x64 .bf16) (x7 : Vec F S3 .f32) (x8 : Vec F S1 .f32) (x9 : Vec F S64x64 .bf16) (x10 : Vec F S64 .f32) (x11 : Vec F S64x64 .bf16) (x12 : Vec F S64 .f32) (x13 : Vec F S128x256 .bf16) (x14 : Vec F S256 .f32) (x15 : Vec F S256x192 .bf16) (x16 : Vec F S192 .f32) (x17 : Vec F S384x128 .bf16) (x18 : Vec F S128 .f32) (x19 : Vec F S256x128 .bf16) (x20 : Vec F S128 .f32) (x21 : Vec F S256x64 .bf16) (x22 : Vec F S64 .f32) (x23 : Vec F S192x64 .bf16) (x24 : Vec F S64 .f32) (x25 : Vec F S128x64 .bf16) (x26 : Vec F S64 .f32) : Vec F S2048x3 .f32 :=
  View.canon [⟨r_27, Body.v279 (View.ld x0 r_0) (View.ld x1 r_1) (View.ld x2 r_2) (View.ld x3 r_3) (View.ld x4 r_4) (View.ld x5 r_5) (View.ld x6 r_6) (View.ld x7 r_7) (View.ld x8 r_8) (View.ld x9 r_9) (View.ld x10 r_10) (View.ld x11 r_11) (View.ld x12 r_12) (View.ld x13 r_13) (View.ld x14 r_14) (View.ld x15 r_15) (View.ld x16 r_16) (View.ld x17 r_17) (View.ld x18 r_18) (View.ld x19 r_19) (View.ld x20 r_20) (View.ld x21 r_21) (View.ld x22 r_22) (View.ld x23 r_23) (View.ld x24 r_24) (View.ld x25 r_25) (View.ld x26 r_26)⟩]

/-- Every rectangle is the whole buffer, so a load reads the contents and the one store leaves its value: the output
    buffer after the body is `Body.v279` of the input buffers' contents. -/
theorem out27_eq (x0 : Vec F S2048x11 .f32) (x1 : Vec F S64x8 .bf16) (x2 : Vec F S64 .f32) (x3 : Vec F S3x64 .f32) (x4 : Vec F S64x64 .bf16) (x5 : Vec F S64 .f32) (x6 : Vec F S3x64 .bf16) (x7 : Vec F S3 .f32) (x8 : Vec F S1 .f32) (x9 : Vec F S64x64 .bf16) (x10 : Vec F S64 .f32) (x11 : Vec F S64x64 .bf16) (x12 : Vec F S64 .f32) (x13 : Vec F S128x256 .bf16) (x14 : Vec F S256 .f32) (x15 : Vec F S256x192 .bf16) (x16 : Vec F S192 .f32) (x17 : Vec F S384x128 .bf16) (x18 : Vec F S128 .f32) (x19 : Vec F S256x128 .bf16) (x20 : Vec F S128 .f32) (x21 : Vec F S256x64 .bf16) (x22 : Vec F S64 .f32) (x23 : Vec F S192x64 .bf16) (x24 : Vec F S64 .f32) (x25 : Vec F S128x64 .bf16) (x26 : Vec F S64 .f32) :
    out27 x0 x1 x2 x3 x4 x5 x6 x7 x8 x9 x10 x11 x12 x13 x14 x15 x16 x17 x18 x19 x20 x21 x22 x23 x24 x25 x26 = Body.v279 x0 x1 x2 x3 x4 x5 x6 x7 x8 x9 x10 x11 x12 x13 x14 x15 x16 x17 x18 x19 x20 x21 x22 x23 x24 x25 x26 := by
  unfold out27
  rw [View.canon_unit_zero (S := S2048x3) hz2]
  simp only [View.ld_unit_zero (S := S2048x11) hz2, View.ld_unit_zero (S := S64x8) hz2, View.ld_unit_zero (S := S64) hz1, View.ld_unit_zero (S := S3x64) hz2, View.ld_unit_zero (S := S64x64) hz2, View.ld_unit_zero (S := S3) hz1, View.ld_unit_zero (S := S1) hz1, View.ld_unit_zero (S := S128x256) hz2, View.ld_unit_zero (S := S256) hz1, View.ld_unit_zero (S := S256x192) hz2, View.ld_unit_zero (S := S192) hz1, View.ld_unit_zero (S := S384x128) hz2, View.ld_unit_zero (S := S128) hz1, View.ld_unit_zero (S := S256x128) hz2, View.ld_unit_zero (S := S256x64) hz2, View.ld_unit_zero (S := S192x64) hz2, View.ld_unit_zero (S := S128x64) hz2]

/-- The store's rectangle is the whole output buffer: it covers every index. -/
theorem cover27 (p : Vec F S2048x3 .f32) (y : S2048x3.Idx) :
    ∃ pc ∈ ([⟨r_27, p⟩] : List (View.Piece (Elt F) S2048x3 .f32)), y ∈ pc.1.set :=
  ⟨_, List.mem_singleton_self _, View.mem_set_unit_zero hz2 inb_S2048x3_S2048x3_0_0 y⟩

end Cert.Kernel.Hand

end
-- ==== Proof.KBFrameBody.lean ====
/- The frame of `Kernel`, second half: the kernel body, the proof data of the launch, the run, and the frame.

   The body is straight-line: it loads each of its 27 input staging buffers whole, computes with pure vector
   operations (products on the matrix unit, tanh, exp, log1p, sin, selects, concatenations, slices), loads its output
   staging buffer once without using what it read, and overwrites that whole buffer by ONE (2048, 3) value. So at a
   grid point the body leaves every input buffer as it found it, and leaves in the output buffer one pure function
   `Body.v279` of the 27 input blocks. That function and what the store leaves (`out27`) are the sibling value module's. With that, the launch is an instance of the library's frame run. -/
import proofs.«166257_j42623255446007_2_alg».proof.Proof.KBFrameMain
import proofs.«166257_j42623255446007_2_alg».proof.Proof.KBFrameValue

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's triple -/

set_option maxHeartbeats 4000000 in
/-- The body on whole staging buffers, the inputs' at contents `xW` and the output's at anything, runs (no fault, no
    wait) to a state where the inputs' are as they were and the output's holds `out27` of the inputs': each load
    reads its buffer through the whole-buffer rectangle, the pure operations between loads are the payload functions,
    and the one store overwrites the whole output buffer. -/
theorem sound_kernel (c : Dev nD) (E : Set ℕ) (i : grid0.Coords) (arg1 : Memref sig .tc .vmem S2048x11 .f32) (harg1 : arg1.IsWhole) (arg2 : Memref sig .tc .vmem S64x8 .bf16) (harg2 : arg2.IsWhole) (arg3 : Memref sig .tc .vmem S64 .f32) (harg3 : arg3.IsWhole) (arg4 : Memref sig .tc .vmem S3x64 .f32) (harg4 : arg4.IsWhole) (arg5 : Memref sig .tc .vmem S64x64 .bf16) (harg5 : arg5.IsWhole) (arg6 : Memref sig .tc .vmem S64 .f32) (harg6 : arg6.IsWhole) (arg7 : Memref sig .tc .vmem S3x64 .bf16) (harg7 : arg7.IsWhole) (arg8 : Memref sig .tc .vmem S3 .f32) (harg8 : arg8.IsWhole) (arg9 : Memref sig .tc .vmem S1 .f32) (harg9 : arg9.IsWhole) (arg10 : Memref sig .tc .vmem S64x64 .bf16) (harg10 : arg10.IsWhole) (arg11 : Memref sig .tc .vmem S64 .f32) (harg11 : arg11.IsWhole) (arg12 : Memref sig .tc .vmem S64x64 .bf16) (harg12 : arg12.IsWhole) (arg13 : Memref sig .tc .vmem S64 .f32) (harg13 : arg13.IsWhole) (arg14 : Memref sig .tc .vmem S128x256 .bf16) (harg14 : arg14.IsWhole) (arg15 : Memref sig .tc .vmem S256 .f32) (harg15 : arg15.IsWhole) (arg16 : Memref sig .tc .vmem S256x192 .bf16) (harg16 : arg16.IsWhole) (arg17 : Memref sig .tc .vmem S192 .f32) (harg17 : arg17.IsWhole) (arg18 : Memref sig .tc .vmem S384x128 .bf16) (harg18 : arg18.IsWhole) (arg19 : Memref sig .tc .vmem S128 .f32) (harg19 : arg19.IsWhole) (arg20 : Memref sig .tc .vmem S256x128 .bf16) (harg20 : arg20.IsWhole) (arg21 : Memref sig .tc .vmem S128 .f32) (harg21 : arg21.IsWhole) (arg22 : Memref sig .tc .vmem S256x64 .bf16) (harg22 : arg22.IsWhole) (arg23 : Memref sig .tc .vmem S64 .f32) (harg23 : arg23.IsWhole) (arg24 : Memref sig .tc .vmem S192x64 .bf16) (harg24 : arg24.IsWhole) (arg25 : Memref sig .tc .vmem S64 .f32) (harg25 : arg25.IsWhole) (arg26 : Memref sig .tc .vmem S128x64 .bf16) (harg26 : arg26.IsWhole) (arg27 : Memref sig .tc .vmem S64 .f32) (harg27 : arg27.IsWhole) (arg28 : Memref sig .tc .vmem S2048x3 .f32) (harg28 : arg28.IsWhole)
    (x0 : Vec F S2048x11 .f32) (x1 : Vec F S64x8 .bf16) (x2 : Vec F S64 .f32) (x3 : Vec F S3x64 .f32) (x4 : Vec F S64x64 .bf16) (x5 : Vec F S64 .f32) (x6 : Vec F S3x64 .bf16) (x7 : Vec F S3 .f32) (x8 : Vec F S1 .f32) (x9 : Vec F S64x64 .bf16) (x10 : Vec F S64 .f32) (x11 : Vec F S64x64 .bf16) (x12 : Vec F S64 .f32) (x13 : Vec F S128x256 .bf16) (x14 : Vec F S256 .f32) (x15 : Vec F S256x192 .bf16) (x16 : Vec F S192 .f32) (x17 : Vec F S384x128 .bf16) (x18 : Vec F S128 .f32) (x19 : Vec F S256x128 .bf16) (x20 : Vec F S128 .f32) (x21 : Vec F S256x64 .bf16) (x22 : Vec F S64 .f32) (x23 : Vec F S192x64 .bf16) (x24 : Vec F S64 .f32) (x25 : Vec F S128x64 .bf16) (x26 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare (out27 x0 x1 x2 x3 x4 x5 x6 x7 x8 x9 x10 x11 x12 x13 x14 x15 x16 x17 x18 x19 x20 x21 x22 x23 x24 x25 x26)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, Hk⟩
  subst hf0 hf1 hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  iexists _; isplitr
  swap; · iexact H27
  ipureintro
  sl_unfold_run_names
  exact View.read_writes_eq_canon _ _ _ (cover27 _)

/-! ## The proof data of the launch -/

variable (m : (ℓ : Loc nD τ sig) → Buf (Elt F) ℓ) (ρ : Dev nD → PrngReg)

/-- The proof data of the launch on core `c`: the arrays as the launch finds them (`V`); after the body at point
    `t` each input window's buffer still at its block and the output window's at `out27` of the 27 input blocks;
    the invariant the library's default (nothing scoped is used); full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => out27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)
    | ⟨n + 28, h⟩ => absurd h (Nat.not_lt.2 (Nat.le_add_left 28 n))
  Φ _ := Pipeline.ΦA spec0 c
  q _ := fullShare
  owed _ := 0

/-- The proof data's arrays are `V`'s, by projecting the definition (never by evaluating `V`). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
/-- What point `t` leaves in the output window's buffer: `out27` of the 27 input blocks at `t`. -/
theorem after0_27 (c : Dev nD) (t : Fin cfg0.N) : (dats m 0 c).after 27 t = out27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d

/-! ## The body obligation -/

/-- What the launch hands the body at point `t`: the invariant, the core's debts, and each window's current staging
    buffer, whole, at what the proof data says it holds there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- What it wants back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 4000000 in
/-- The body at any point: the input buffers hold their blocks (`before0_W`), so `sound_kernel` applies at those
    blocks; the invariant and the debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters, every weakly fair execution of @main on the TensorCores terminates
    without a fault, and in every final state each array of the launch holds what the library computes from the proof
    data (an input its entry contents, the output its entry contents overwritten block by block by what each point
    left) and every other unscoped buffer is as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: every weakly fair execution of @main terminates without a fault with the 14 argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Hand

end
-- ==== Proof.Algebraic.lean ====
/-
  The two idealized programs end with equal results.

  On the extended reals both programs compute, for every batch row on its own, the same network (`Cert.Net.net`): the
  reference literally, node by node; the kernel level by level, each level ONE product of the concatenated outputs of
  earlier nodes with a block matrix, which is the reference's "add the predecessors, then multiply" by distributivity —
  valid because under the precondition every input, hence every intermediate value, is a real number.

  The kernel's result array is assembled from its 64 row blocks: row `p` of the block grid point `t` writes back is
  the network on batch row `2048 t + p` (`hG`), so the array after the run is the network on every row (`G`).  The
  reference's run ends with its result at the composed term of its operations, which read at an index is the same
  network of the same rows.  Memories agreeing on the arguments therefore give equal results.
-/
import proofs.«166257_j42623255446007_2_alg».proof.Defs
import proofs.«166257_j42623255446007_2_alg».proof.Proof.KFinal
import proofs.«166257_j42623255446007_2_alg».proof.Proof.KWin
import proofs.«166257_j42623255446007_2_alg».proof.Proof.KVal7
import proofs.«166257_j42623255446007_2_alg».proof.Proof.RefRun
import proofs.«166257_j42623255446007_2_alg».proof.Proof.RefValue
import proofs.«166257_j42623255446007_2_alg».proof.Proof.Finite
import proofs.«166257_j42623255446007_2_alg».proof.Proof.ParamsOf
import proofs.«166257_j42623255446007_2_alg».proof.Proof.KBFrameBody
import proofs.«166257_j42623255446007_2_alg».proof.Proof.Gen.Kernel
import proofs.«166257_j42623255446007_2_alg».proof.Proof.Gen.KernelIdeal
import proofs.«166257_j42623255446007_2_alg».proof.Proof.Gen.ReferenceIdeal
import proofs.«166257_j42623255446007_2_alg».proof.Proof.Gen.Pre_finite_inputs

set_option maxRecDepth 16384
noncomputable section
namespace Cert.Proof.Alg
open scoped BigOperators
open Idealize.ShloMosaic Idealize.ShloMosaic.TcCoe Idealize.SL.Sem Idealize.ShloMosaic.ValueIdx Cert.Net Cert.RowOps

section Kernel
open Cert.KernelIdeal Cert.KernelIdeal.Gen Cert.KernelIdeal.Hand Cert.KernelIdeal.Hand.Val
variable (m : (ℓ : Loc nD τ sig) → Buf (Elt Ideal) ℓ)

/-- The parameters core `c`'s weight arguments hold. -/
def Pm (c : Dev nD) : Params := paramsOf (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))

/-- The network on every batch row of core `c`'s two input arrays: what both programs end with. -/
def G (c : Dev nD) : S131072x3.Idx → Elt Ideal .f32 :=
  fun i => netRow (Pm m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (i 0) (i 1)

/-- Under the precondition every entry of every argument array is a real number. -/
theorem reals [Cert.Pre_finite_inputs.Facts] (hpre : Cert.Pre_KernelIdeal m) (c : Dev nD) : (∀ i, IsReal (m ((c.tc : Thread Cert.KernelIdeal.nD Cert.KernelIdeal.τ).loc Cert.KernelIdeal.main_arg0) i)) ∧ (∀ i, IsReal (m ((c.tc : Thread Cert.KernelIdeal.nD Cert.KernelIdeal.τ).loc Cert.KernelIdeal.main_arg1) i)) ∧ (∀ i, IsReal (m ((c.tc : Thread Cert.KernelIdeal.nD Cert.KernelIdeal.τ).loc Cert.KernelIdeal.main_arg2) i)) ∧ (∀ i, IsReal (m ((c.tc : Thread Cert.KernelIdeal.nD Cert.KernelIdeal.τ).loc Cert.KernelIdeal.main_arg3) i)) ∧ (∀ i, IsReal (m ((c.tc : Thread Cert.KernelIdeal.nD Cert.KernelIdeal.τ).loc Cert.KernelIdeal.main_arg4) i)) ∧ (∀ i, IsReal (m ((c.tc : Thread Cert.KernelIdeal.nD Cert.KernelIdeal.τ).loc Cert.KernelIdeal.main_arg5) i)) ∧ (∀ i, IsReal (m ((c.tc : Thread Cert.KernelIdeal.nD Cert.KernelIdeal.τ).loc Cert.KernelIdeal.main_arg6) i)) ∧ (∀ i, IsReal (m ((c.tc : Thread Cert.KernelIdeal.nD Cert.KernelIdeal.τ).loc Cert.KernelIdeal.main_arg7) i)) ∧ (∀ i, IsReal (m ((c.tc : Thread Cert.KernelIdeal.nD Cert.KernelIdeal.τ).loc Cert.KernelIdeal.main_arg8) i)) ∧ (∀ i, IsReal (m ((c.tc : Thread Cert.KernelIdeal.nD Cert.KernelIdeal.τ).loc Cert.KernelIdeal.main_arg9) i)) ∧ (∀ i, IsReal (m ((c.tc : Thread Cert.KernelIdeal.nD Cert.KernelIdeal.τ).loc Cert.KernelIdeal.main_arg10) i)) ∧ (∀ i, IsReal (m ((c.tc : Thread Cert.KernelIdeal.nD Cert.KernelIdeal.τ).loc Cert.KernelIdeal.main_arg11) i)) ∧ (∀ i, IsReal (m ((c.tc : Thread Cert.KernelIdeal.nD Cert.KernelIdeal.τ).loc Cert.KernelIdeal.main_arg12) i)) ∧ (∀ i, IsReal (m ((c.tc : Thread Cert.KernelIdeal.nD Cert.KernelIdeal.τ).loc Cert.KernelIdeal.main_arg13) i)) :=
  Cert.Finite.real_of_pre _ _ _ _ _ _ _ _ _ _ _ _ _ _ (hpre c)

variable {c : Dev nD} in
/-- Every entry of the row block window 0 hands the body is a real number. -/
theorem iblk0_real (h0 : ∀ i, IsReal (m ((c.tc : Thread nD τ).loc main_arg0) i)) (h1 : ∀ i, IsReal (m ((c.tc : Thread nD τ).loc main_arg1) i))
    (t : Fin cfg0.N) : ∀ i : S2048x11.Idx, IsReal ((iblk (F := Ideal) m c 0 t : Vec Ideal S2048x11 .f32) i) := by
  intro i
  obtain ⟨p, j, rfl⟩ : ∃ (p : Fin 2048) (j : Fin 11), i = ix2 p j := ⟨i 0, i 1, eq_ix2 i⟩
  by_cases hlt : j.val < 3
  · have e : (iblk (F := Ideal) m c 0 t : Vec Ideal S2048x11 .f32) (ix2 p j) = _ := (iblk0_apply m c t p).1 ⟨j.val, hlt⟩
    rw [e]; exact h0 _
  · have hk : j.val - 3 < 8 := by have := j.isLt; omega
    have e : (iblk (F := Ideal) m c 0 t : Vec Ideal S2048x11 .f32) (ix2 p j) = _ :=
      (show (iblk (F := Ideal) m c 0 t : Vec Ideal S2048x11 .f32) (ix2 p j) = (iblk (F := Ideal) m c 0 t : Vec Ideal S2048x11 .f32) (ix2 p ⟨3 + (j.val - 3), by omega⟩)
        from congrArg _ (congrArg (ix2 p) (Fin.ext (by show j.val = 3 + (j.val - 3); omega)))).trans ((iblk0_apply m c t p).2 ⟨j.val - 3, hk⟩)
    rw [e]; exact h1 _

/-- THE BRIDGE, one row of one block: what the body stores at row `p` of point `t`'s block is the network on batch row
    `2048 t + p` of the argument arrays. -/
theorem hG [Cert.Pre_finite_inputs.Facts] (hpre : Cert.Pre_KernelIdeal m) (c : Dev nD) (t : Fin cfg0.N) (p : Fin 2048) (q3 : Fin 3) :
    out27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (ix2 p q3) = G m c (ix2 ⟨2048 * t.val + p.val, row_lt t p⟩ q3) := by
  obtain ⟨r0, r1, r2, r3, r4, r5, r6, r7, r8, r9, r10, r11, r12, r13⟩ := reals m hpre c
  have hP : (Pm m c).Real := paramsOf_real r2 r3 r4 r5 r6 r7 r8 r9 r10 r11 r12 r13
  rw [out27_eq, v279_apply (Pm m c) hP _ (iblk0_real m r0 r1 t) _ _ _ _ _ _ _ _ _ _ _ _ _ _ _ _ _ _ _ _ _ _ _ _ _ _ (kw m c t) p q3]
  have e := iblk0_apply m c t p
  have ex : xK (iblk (F := Ideal) m c 0 t) p = (m ((c.tc : Thread nD τ).loc main_arg0)) (ix3 ⟨2048 * t.val + p.val, row_lt t p⟩ (0 : Fin 3) (0 : Fin 1)) := e.1 0
  have ey : yK (iblk (F := Ideal) m c 0 t) p = (m ((c.tc : Thread nD τ).loc main_arg0)) (ix3 ⟨2048 * t.val + p.val, row_lt t p⟩ (1 : Fin 3) (0 : Fin 1)) := e.1 1
  have er : rK (iblk (F := Ideal) m c 0 t) p = (m ((c.tc : Thread nD τ).loc main_arg0)) (ix3 ⟨2048 * t.val + p.val, row_lt t p⟩ (2 : Fin 3) (0 : Fin 1)) := e.1 2
  have el : latK (iblk (F := Ideal) m c 0 t) p = fun k => (m ((c.tc : Thread nD τ).loc main_arg1)) (ix2 ⟨2048 * t.val + p.val, row_lt t p⟩ k) := funext fun k => e.2 k
  show out (Pm m c) (feat (Pm m c) (xK (iblk (F := Ideal) m c 0 t) p) (yK (iblk (F := Ideal) m c 0 t) p) (rK (iblk (F := Ideal) m c 0 t) p)
      (latK (iblk (F := Ideal) m c 0 t) p)) q3 = _
  rw [ex, ey, er, el]
  rfl

end Kernel

section Reference
open Cert.ReferenceIdeal

/-- The reference's result term is the network of ITS argument arrays, row by row. -/
theorem ref_result (a0 : Hand.C Ideal S131072x3x1) (a1 : Hand.C Ideal S131072x8) (a2 : Hand.C Ideal S64x8) (a3 : Hand.C Ideal S64) (a4 a5 a6 : Hand.C Ideal S64x1)
    (a7 : Hand.C Ideal S64x64) (a8 : Hand.C Ideal S64) (a9 : Hand.C Ideal S16x64x64) (a10 : Hand.C Ideal S16x64) (a11 : Hand.C Ideal S3x64) (a12 : Hand.C Ideal S3)
    (a13 : Hand.C Ideal S1) :
    Hand.result a0 a1 a2 a3 a4 a5 a6 a7 a8 a9 a10 a11 a12 a13
      = fun i => netRow (paramsOf a2 a3 a4 a5 a6 a7 a8 a9 a10 a11 a12 a13) a0 a1 (i 0) (i 1) := by
  funext i
  obtain ⟨q, c3, rfl⟩ : ∃ (q : Fin 131072) (c3 : Fin 3), i = ix2 q c3 := ⟨i 0, i 1, eq_ix2 i⟩
  exact Hand.Val.result_apply a0 a1 a2 a3 a4 a5 a6 a7 a8 a9 a10 a11 a12 a13 q c3

end Reference

/-- At the exact instance the two programs, run from memories agreeing on the arguments, end with equal results:
    both end at the network of the argument arrays, row by row. -/
theorem algebraic : Cert.algebraic_KernelIdeal_ReferenceIdeal := by
  intro m ρ m' ρ' hpre hagree
  refine ⟨fun c => G m c, Cert.KernelIdeal.Hand.run_value (F := Ideal) m ρ (G m) (fun c t p q => hG m hpre c t p q), ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8, e9, e10, e11, e12, e13⟩ := hagree c
  rw [ref_result, e0, e1, e2, e3, e4, e5, e6, e7, e8, e9, e10, e11, e12, e13]
  rfl

end Cert.Proof.Alg
end
-- ==== Proof.lean ====
/-
  The certificate's five claims.

  The three frames: the kernel's (read at the bit-exact instance and at the exact one) is the frame of a pipelined
  region whose body loads its input blocks, computes, and overwrites its output block — every weakly fair execution
  runs to the end, faults nowhere and leaves the argument arrays as they were —; the reference's is its host program's
  run with the result dropped.  The idealization rewrote no operation, so "preserves" is trivial.  The two idealized
  programs' equality is `Cert.Proof.Alg.algebraic`: both end at one function of the argument arrays, the network
  evaluated row by row.
-/
import proofs.«166257_j42623255446007_2_alg».proof.Defs
import proofs.«166257_j42623255446007_2_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ, fun m ρ _ => Cert.KernelIdeal.Hand.frame m ρ, fun m ρ _ => Cert.ReferenceIdeal.Hand.frame m ρ,
    trivial, Cert.Proof.Alg.algebraic⟩

end Cert.Proof

end
